-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x28x28 : Shape := ⟨4, ![8192, 1, 28, 28]⟩
abbrev S9x5x9 : Shape := ⟨3, ![9, 5, 9]⟩
abbrev S25x25x256 : Shape := ⟨3, ![25, 25, 256]⟩
abbrev S1x256 : Shape := ⟨2, ![1, 256]⟩
abbrev S256x128 : Shape := ⟨2, ![256, 128]⟩
abbrev S1x128 : Shape := ⟨2, ![1, 128]⟩
abbrev S_ : Shape := ⟨0, ![]⟩

class Facts : Prop where
  bcast_S_S8192x1x28x28 : S_.BroadcastsInDim S8192x1x28x28 (![] : Fin 0 → Fin S8192x1x28x28.rank)
  reducesTo_S8192x1x28x28_S_d0_1_2_3 : S8192x1x28x28.ReducesTo [0, 1, 2, 3] S_
  h_S_ : 0 < S_.numel
  bcast_S_S9x5x9 : S_.BroadcastsInDim S9x5x9 (![] : Fin 0 → Fin S9x5x9.rank)
  reducesTo_S9x5x9_S_d0_1_2 : S9x5x9.ReducesTo [0, 1, 2] S_
  bcast_S_S25x25x256 : S_.BroadcastsInDim S25x25x256 (![] : Fin 0 → Fin S25x25x256.rank)
  reducesTo_S25x25x256_S_d0_1_2 : S25x25x256.ReducesTo [0, 1, 2] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x256 .f32) (main_arg5 : FVec F S256x128 .f32) (main_arg6 : FVec F S1x128 .f32) (main_v13 : IVec S_ 1) (main_v16 : IVec S25x25x256 1) : IVec S_ 1 :=
  let main_c_5 : IVec S_ 1 := constantI S_ 1 1#1
  let main_v17 : IVec S_ 1 := (fun x v => Host.reduce IntOp.andi x v reducesTo_S25x25x256_S_d0_1_2 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S8192x1x28x28 .f32) (main_arg1 : FVec F S9x5x9 .f32) (main_arg2 : FVec F S9x5x9 .f32) (main_arg3 : FVec F S25x25x256 .f32) (main_arg4 : FVec F S1x256 .f32) (main_arg5 : FVec F S256x128 .f32) (main_arg6 : FVec F S1x128 .f32) : IVec S_ 1 :=
  let main_v0 : FVec F S8192x1x28x28 .f32 := Host.absf main_arg0
  let main_cst : FVec F S_ .f32 := constant S_ .f32 0x7F800000#32
  let main_v1 : FVec F S8192x1x28x28 .f32 := broadcastInDim S8192x1x28x28 ![] bcast_S_S8192x1x28x28 main_cst
  let main_v2 : IVec S8192x1x28x28 1 := cmpf .olt main_v0 main_v1
  let main_c : IVec S_ 1 := constantI S_ 1 1#1
  let main_v3 : IVec S_ 1 := (fun x v => Host.reduce IntOp.andi x v reducesTo_S8192x1x28x28_S_d0_1_2_3 h_S_) main_v2 main_c
  let main_v4 : FVec F S9x5x9 .f32 := Host.absf main_arg1
  let main_cst_0 : FVec F S_ .f32 := constant S_ .f32 0x7F800000#32
  let main_v5 : FVec F S9x5x9 .f32 := broadcastInDim S9x5x9 ![] bcast_S_S9x5x9 main_cst_0
  let main_v6 : IVec S9x5x9 1 := cmpf .olt main_v4 main_v5
  let main_c_1 : IVec S_ 1 := constantI S_ 1 1#1
  let main_v7 : IVec S_ 1 := (fun x v => Host.reduce IntOp.andi x v reducesTo_S9x5x9_S_d0_1_2 h_S_) main_v6 main_c_1
  let main_v8 : IVec S_ 1 := andi main_v3 main_v7
  let main_v9 : FVec F S9x5x9 .f32 := Host.absf main_arg2
  let main_cst_2 : FVec F S_ .f32 := constant S_ .f32 0x7F800000#32
  let main_v10 : FVec F S9x5x9 .f32 := broadcastInDim S9x5x9 ![] bcast_S_S9x5x9 main_cst_2
  let main_v11 : IVec S9x5x9 1 := cmpf .olt main_v9 main_v10
  let main_c_3 : IVec S_ 1 := constantI S_ 1 1#1
  let main_v12 : IVec S_ 1 := (fun x v => Host.reduce IntOp.andi x v reducesTo_S9x5x9_S_d0_1_2 h_S_) main_v11 main_c_3
  let main_v13 : IVec S_ 1 := andi main_v8 main_v12
  let main_v14 : FVec F S25x25x256 .f32 := Host.absf main_arg3
  let main_cst_4 : FVec F S_ .f32 := constant S_ .f32 0x7F800000#32
  let main_v15 : FVec F S25x25x256 .f32 := broadcastInDim S25x25x256 ![] bcast_S_S25x25x256 main_cst_4
  let main_v16 : IVec S25x25x256 1 := cmpf .olt main_v14 main_v15
  fn_part1 (F := F) main_arg4 main_arg5 main_arg6 main_v13 main_v16
-- ==== Kernel.lean ====
abbrev S8192x1x28x28 : Shape := ⟨4, ![8192, 1, 28, 28]⟩
abbrev S9x5x9 : Shape := ⟨3, ![9, 5, 9]⟩
abbrev S25x25x256 : Shape := ⟨3, ![25, 25, 256]⟩
abbrev S1x256 : Shape := ⟨2, ![1, 256]⟩
abbrev S256x128 : Shape := ⟨2, ![256, 128]⟩
abbrev S1x128 : Shape := ⟨2, ![1, 128]⟩
abbrev S5x9x9 : Shape := ⟨3, ![5, 9, 9]⟩
abbrev S5x81 : Shape := ⟨2, ![5, 81]⟩
abbrev S1x6422528 : Shape := ⟨2, ![1, 6422528]⟩
abbrev S_ : Shape := ⟨0, ![]⟩
abbrev S1x6430720 : Shape := ⟨2, ![1, 6430720]⟩
abbrev S5x6422528 : Shape := ⟨2, ![5, 6422528]⟩
abbrev S1x8192 : Shape := ⟨2, ![1, 8192]⟩
abbrev S5x8192 : Shape := ⟨2, ![5, 8192]⟩
abbrev S1x8320 : Shape := ⟨2, ![1, 8320]⟩
abbrev S65x128 : Shape := ⟨2, ![65, 128]⟩
abbrev S9x8320 : Shape := ⟨2, ![9, 8320]⟩
abbrev S9x8192 : Shape := ⟨2, ![9, 8192]⟩
abbrev S81x8192 : Shape := ⟨2, ![81, 8192]⟩
abbrev S5x8192x28x28 : Shape := ⟨4, ![5, 8192, 28, 28]⟩
abbrev S5x8192x26x26 : Shape := ⟨4, ![5, 8192, 26, 26]⟩
abbrev S5x8192x13x2x13x2 : Shape := ⟨6, ![5, 8192, 13, 2, 13, 2]⟩
abbrev S5x8192x13x13 : Shape := ⟨4, ![5, 8192, 13, 13]⟩
abbrev S1x6922240 : Shape := ⟨2, ![1, 6922240]⟩
abbrev S1x6930432 : Shape := ⟨2, ![1, 6930432]⟩
abbrev S5x6922240 : Shape := ⟨2, ![5, 6922240]⟩
abbrev S5x5x8192x13x13 : Shape := ⟨5, ![5, 5, 8192, 13, 13]⟩
abbrev S5x5x8192x11x11 : Shape := ⟨5, ![5, 5, 8192, 11, 11]⟩
abbrev S5x5x8192x10x10 : Shape := ⟨5, ![5, 5, 8192, 10, 10]⟩
abbrev S5x5x8192x5x2x5x2 : Shape := ⟨7, ![5, 5, 8192, 5, 2, 5, 2]⟩
abbrev S5x5x8192x5x5 : Shape := ⟨5, ![5, 5, 8192, 5, 5]⟩
abbrev S25x8192x25 : Shape := ⟨3, ![25, 8192, 25]⟩
abbrev S8192x25x25 : Shape := ⟨3, ![8192, 25, 25]⟩
abbrev S8192x625 : Shape := ⟨2, ![8192, 625]⟩
abbrev S8192x640 : Shape := ⟨2, ![8192, 640]⟩
abbrev S625x256 : Shape := ⟨2, ![625, 256]⟩
abbrev S640x256 : Shape := ⟨2, ![640, 256]⟩
abbrev S8192x128 : Shape := ⟨2, ![8192, 128]⟩
abbrev S256x640 : Shape := ⟨2, ![256, 640]⟩
abbrev S256x256 : Shape := ⟨2, ![256, 256]⟩
abbrev S256 : Shape := ⟨1, ![256]⟩
abbrev S256x1 : Shape := ⟨2, ![256, 1]⟩
abbrev S8192x3 : Shape := ⟨2, ![8192, 3]⟩

abbrev nBuf : Space → Nat
  | .hbm => 47
  | .vmem => 22
  | .smem => 0
  | _ => 0

abbrev bufTy : (tb : Table) → Fin (tcTables nBuf tb) → BufTy
  | .hbm, ⟨0, _⟩ => ⟨S8192x1x28x28, .f32⟩
  | .hbm, ⟨1, _⟩ => ⟨S9x5x9, .f32⟩
  | .hbm, ⟨2, _⟩ => ⟨S9x5x9, .f32⟩
  | .hbm, ⟨3, _⟩ => ⟨S25x25x256, .f32⟩
  | .hbm, ⟨4, _⟩ => ⟨S1x256, .f32⟩
  | .hbm, ⟨5, _⟩ => ⟨S256x128, .f32⟩
  | .hbm, ⟨6, _⟩ => ⟨S1x128, .f32⟩
  | .hbm, ⟨7, _⟩ => ⟨S5x9x9, .f32⟩
  | .hbm, ⟨8, _⟩ => ⟨S5x81, .f32⟩
  | .hbm, ⟨9, _⟩ => ⟨S5x9x9, .f32⟩
  | .hbm, ⟨10, _⟩ => ⟨S5x81, .f32⟩
  | .hbm, ⟨11, _⟩ => ⟨S1x6422528, .f32⟩
  | .hbm, ⟨12, _⟩ => ⟨S_, .i32⟩
  | .hbm, ⟨13, _⟩ => ⟨S_, .f32⟩
  | .hbm, ⟨14, _⟩ => ⟨S1x6430720, .f32⟩
  | .hbm, ⟨15, _⟩ => ⟨S5x6422528, .f32⟩
  | .hbm, ⟨16, _⟩ => ⟨S5x8192x28x28, .f32⟩
  | .hbm, ⟨17, _⟩ => ⟨S5x8192x26x26, .f32⟩
  | .hbm, ⟨18, _⟩ => ⟨S5x8192x13x2x13x2, .f32⟩
  | .hbm, ⟨19, _⟩ => ⟨S_, .f32⟩
  | .hbm, ⟨20, _⟩ => ⟨S5x8192x13x13, .f32⟩
  | .hbm, ⟨21, _⟩ => ⟨S1x6922240, .f32⟩
  | .hbm, ⟨22, _⟩ => ⟨S_, .i32⟩
  | .hbm, ⟨23, _⟩ => ⟨S_, .f32⟩
  | .hbm, ⟨24, _⟩ => ⟨S1x6930432, .f32⟩
  | .hbm, ⟨25, _⟩ => ⟨S5x6922240, .f32⟩
  | .hbm, ⟨26, _⟩ => ⟨S5x5x8192x13x13, .f32⟩
  | .hbm, ⟨27, _⟩ => ⟨S5x5x8192x11x11, .f32⟩
  | .hbm, ⟨28, _⟩ => ⟨S5x5x8192x10x10, .f32⟩
  | .hbm, ⟨29, _⟩ => ⟨S5x5x8192x5x2x5x2, .f32⟩
  | .hbm, ⟨30, _⟩ => ⟨S_, .f32⟩
  | .hbm, ⟨31, _⟩ => ⟨S5x5x8192x5x5, .f32⟩
  | .hbm, ⟨32, _⟩ => ⟨S25x8192x25, .f32⟩
  | .hbm, ⟨33, _⟩ => ⟨S8192x25x25, .f32⟩
  | .hbm, ⟨34, _⟩ => ⟨S8192x625, .f32⟩
  | .hbm, ⟨35, _⟩ => ⟨S_, .i32⟩
  | .hbm, ⟨36, _⟩ => ⟨S_, .f32⟩
  | .hbm, ⟨37, _⟩ => ⟨S8192x640, .f32⟩
  | .hbm, ⟨38, _⟩ => ⟨S625x256, .f32⟩
  | .hbm, ⟨39, _⟩ => ⟨S_, .i32⟩
  | .hbm, ⟨40, _⟩ => ⟨S_, .f32⟩
  | .hbm, ⟨41, _⟩ => ⟨S640x256, .f32⟩
  | .hbm, ⟨42, _⟩ => ⟨S_, .i32⟩
  | .hbm, ⟨43, _⟩ => ⟨S_, .f32⟩
  | .hbm, ⟨44, _⟩ => ⟨S8192x640, .f32⟩
  | .hbm, ⟨45, _⟩ => ⟨S8192x128, .f32⟩
  | .hbm, ⟨46, _⟩ => ⟨S8192x3, .f32⟩
  | .local _ .vmem, ⟨0, _⟩ => ⟨S1x8192, .f32⟩
  | .local _ .vmem, ⟨1, _⟩ => ⟨S1x8192, .f32⟩
  | .local _ .vmem, ⟨2, _⟩ => ⟨S1x128, .f32⟩
  | .local _ .vmem, ⟨3, _⟩ => ⟨S1x128, .f32⟩
  | .local _ .vmem, ⟨4, _⟩ => ⟨S5x81, .f32⟩
  | .local _ .vmem, ⟨5, _⟩ => ⟨S5x8192, .f32⟩
  | .local _ .vmem, ⟨6, _⟩ => ⟨S5x8192, .f32⟩
  | .local _ .vmem, ⟨7, _⟩ => ⟨S1x8192, .f32⟩
  | .local _ .vmem, ⟨8, _⟩ => ⟨S1x8192, .f32⟩
  | .local _ .vmem, ⟨9, _⟩ => ⟨S1x128, .f32⟩
  | .local _ .vmem, ⟨10, _⟩ => ⟨S1x128, .f32⟩
  | .local _ .vmem, ⟨11, _⟩ => ⟨S5x81, .f32⟩
  | .local _ .vmem, ⟨12, _⟩ => ⟨S5x8192, .f32⟩
  | .local _ .vmem, ⟨13, _⟩ => ⟨S5x8192, .f32⟩
  | .local _ .vmem, ⟨14, _⟩ => ⟨S256x640, .f32⟩
  | .local _ .vmem, ⟨15, _⟩ => ⟨S256x640, .f32⟩
  | .local _ .vmem, ⟨16, _⟩ => ⟨S640x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S256x128, .f32⟩
  | .local _ .vmem, ⟨21, _⟩ => ⟨S256x128, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_call2_v0 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_call3_v0 : Ref sig .tc := ⟨.hbm, 40, rfl⟩
abbrev main_v24 : Ref sig .tc := ⟨.hbm, 41, rfl⟩
abbrev main_c_4 : Ref sig .tc := ⟨.hbm, 42, rfl⟩
abbrev main_call4_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![784], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![845], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x81 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S640x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S9x5x9_S5x9x9_1_2_0 : S9x5x9.Transposes [1, 2, 0] S5x9x9
  shapeCasts_S5x9x9_S5x81 : S5x9x9.ShapeCasts S5x81
  shapeCasts_S8192x1x28x28_S1x6422528 : S8192x1x28x28.ShapeCasts S1x6422528
  pads_S1x6422528_S1x6430720_000_081920 : S1x6422528.Pads (![0, 0] : Fin 2 → Nat) ![0, 8192] ![0, 0] S1x6430720
  h_S_ : 0 < S_.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x128_S1x128_0_0 : ∀ a, (![0, 0] : Fin 2 → Nat) a + S1x128.size a ≤ S1x128.size a
  h_S1x128 : 0 < S1x128.numel
  shapeCasts_S1x128_S1x128 : S1x128.ShapeCasts S1x128
  concatenates_S1x8192_S1x128_S1x8320_d1 : Shape.Concatenates [S1x8192, S1x128] S1x8320 1
  shapeCasts_S1x8320_S65x128 : S1x8320.ShapeCasts S65x128
  natLt_1_32 : 1 < 32
  shapeCasts_S65x128_S1x8320 : S65x128.ShapeCasts S1x8320
  concatenates_S1x8320_S1x8320_S1x8320_S1x8320_S1x8320_S1x8320_S1x8320_S1x8320_S1x8320_S9x8320_d0 : Shape.Concatenates [S1x8320, S1x8320, S1x8320, S1x8320, S1x8320, S1x8320, S1x8320, S1x8320, S1x8320] S9x8320 0
  slices_S9x8320_o0_0_S9x8192 : S9x8320.Slices ![0, 0] S9x8192
  slices_S9x8320_o0_1_S9x8192 : S9x8320.Slices ![0, 1] S9x8192
  slices_S9x8320_o0_2_S9x8192 : S9x8320.Slices ![0, 2] S9x8192
  slices_S9x8320_o0_28_S9x8192 : S9x8320.Slices ![0, 28] S9x8192
  slices_S9x8320_o0_29_S9x8192 : S9x8320.Slices ![0, 29] S9x8192
  slices_S9x8320_o0_30_S9x8192 : S9x8320.Slices ![0, 30] S9x8192
  slices_S9x8320_o0_56_S9x8192 : S9x8320.Slices ![0, 56] S9x8192
  slices_S9x8320_o0_57_S9x8192 : S9x8320.Slices ![0, 57] S9x8192
  slices_S9x8320_o0_58_S9x8192 : S9x8320.Slices ![0, 58] S9x8192
  concatenates_S9x8192_S9x8192_S9x8192_S9x8192_S9x8192_S9x8192_S9x8192_S9x8192_S9x8192_S81x8192_d0 : Shape.Concatenates [S9x8192, S9x8192, S9x8192, S9x8192, S9x8192, S9x8192, S9x8192, S9x8192, S9x8192] S81x8192 0
  inb_S5x81_S5x81_0_0 : ∀ a, (![0, 0] : Fin 2 → Nat) a + S5x81.size a ≤ S5x81.size a
  h_S5x81 : 0 < S5x81.numel
  shapeCasts_S5x81_S5x81 : S5x81.ShapeCasts S5x81
  inb_S5x8192_S5x8192_0_0 : ∀ a, (![0, 0] : Fin 2 → Nat) a + S5x8192.size a ≤ S5x8192.size a
  h_S5x8192 : 0 < S5x8192.numel
  shapeCasts_S5x6422528_S5x8192x28x28 : S5x6422528.ShapeCasts S5x8192x28x28
  slices_S5x8192x28x28_S5x8192x26x26_0_0_0_0 : S5x8192x28x28.Slices ![0, 0, 0, 0] S5x8192x26x26
  shapeCasts_S5x8192x26x26_S5x8192x13x2x13x2 : S5x8192x26x26.ShapeCasts S5x8192x13x2x13x2
  reducesTo_S5x8192x13x2x13x2_S5x8192x13x13_d3_5 : S5x8192x13x2x13x2.ReducesTo [3, 5] S5x8192x13x13
  shapeCasts_S5x8192x13x13_S1x6922240 : S5x8192x13x13.ShapeCasts S1x6922240
  pads_S1x6922240_S1x6930432_000_081920 : S1x6922240.Pads (![0, 0] : Fin 2 → Nat) ![0, 8192] ![0, 0] S1x6930432
  slices_S9x8320_o0_13_S9x8192 : S9x8320.Slices ![0, 13] S9x8192
  slices_S9x8320_o0_14_S9x8192 : S9x8320.Slices ![0, 14] S9x8192
  slices_S9x8320_o0_15_S9x8192 : S9x8320.Slices ![0, 15] S9x8192
  slices_S9x8320_o0_26_S9x8192 : S9x8320.Slices ![0, 26] S9x8192
  slices_S9x8320_o0_27_S9x8192 : S9x8320.Slices ![0, 27] S9x8192
  shapeCasts_S5x6922240_S5x5x8192x13x13 : S5x6922240.ShapeCasts S5x5x8192x13x13
  slices_S5x5x8192x13x13_S5x5x8192x11x11_0_0_0_0_0 : S5x5x8192x13x13.Slices ![0, 0, 0, 0, 0] S5x5x8192x11x11
  slices_S5x5x8192x11x11_S5x5x8192x10x10_0_0_0_0_0 : S5x5x8192x11x11.Slices ![0, 0, 0, 0, 0] S5x5x8192x10x10
  shapeCasts_S5x5x8192x10x10_S5x5x8192x5x2x5x2 : S5x5x8192x10x10.ShapeCasts S5x5x8192x5x2x5x2
  reducesTo_S5x5x8192x5x2x5x2_S5x5x8192x5x5_d4_6 : S5x5x8192x5x2x5x2.ReducesTo [4, 6] S5x5x8192x5x5
  shapeCasts_S5x5x8192x5x5_S25x8192x25 : S5x5x8192x5x5.ShapeCasts S25x8192x25
  transposes_S25x8192x25_S8192x25x25_1_0_2 : S25x8192x25.Transposes [1, 0, 2] S8192x25x25
  shapeCasts_S8192x25x25_S8192x625 : S8192x25x25.ShapeCasts S8192x625
  pads_S8192x625_S8192x640_000_0150 : S8192x625.Pads (![0, 0] : Fin 2 → Nat) ![0, 15] ![0, 0] S8192x640
  shapeCasts_S25x25x256_S625x256 : S25x25x256.ShapeCasts S625x256
  pads_S625x256_S640x256_0150_000 : S625x256.Pads (![0, 0] : Fin 2 → Nat) ![15, 0] ![0, 0] S640x256
  pads_S8192x640_S8192x640_000_000 : S8192x640.Pads (![0, 0] : Fin 2 → Nat) ![0, 0] ![0, 0] S8192x640
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S640x256_S640x256_0_0 : ∀ a, (![0, 0] : Fin 2 → Nat) a + S640x256.size a ≤ S640x256.size a
  h_S640x256 : 0 < S640x256.numel
  shapeCasts_S640x256_S640x256 : S640x256.ShapeCasts S640x256
  inb_S1x256_S1x256_0_0 : ∀ a, (![0, 0] : Fin 2 → Nat) a + S1x256.size a ≤ S1x256.size a
  h_S1x256 : 0 < S1x256.numel
  broadcasts_S1x256_S256x256 : S1x256.Broadcasts S256x256
  inb_S256x128_S256x128_0_0 : ∀ a, (![0, 0] : Fin 2 → Nat) a + S256x128.size a ≤ S256x128.size a
  h_S256x128 : 0 < S256x128.numel
  broadcasts_S1x128_S256x128 : S1x128.Broadcasts S256x128
  iota_S256x128_d1_w32 : S256x128.Iotas .tc 32 [1]
  reduces_S256x128_S256 : S256x128.Reduces [1] S256
  shapeCasts_S256_S256x1 : S256.ShapeCasts S256x1
  broadcasts_S256x1_S256x128 : S256x1.Broadcasts S256x128
  slices_S8192x128_S8192x3_0_0 : S8192x128.Slices ![0, 0] S8192x3
  dot_S5x81_S81x8192_S5x8192_1_0_0_1_n_n_wf : DotDims.WF S5x81 S81x8192 S5x8192 [1] [0] [0] [1] [] []
  dot_S256x640_S640x256_S256x256_1_0_0_1_n_n_wf : DotDims.WF S256x640 S640x256 S256x256 [1] [0] [0] [1] [] []
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x6430720.size a
  hwx0_0 : ∀ i : grid0.Coords, EltTy.bits .f32 = 32 ∨ (Rect.block (s := S1x6430720) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x6430720.size a
  hwx0_1 : ∀ i : grid0.Coords, EltTy.bits .f32 = 32 ∨ (Rect.block (s := S1x6430720) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x81.size a ≤ S5x81.size a
  hwx0_2 : ∀ i : grid0.Coords, EltTy.bits .f32 = 32 ∨ (Rect.block (s := S5x81) S5x81.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x8192.size a ≤ S5x6422528.size a
  hwx0_3 : ∀ i : grid0.Coords, EltTy.bits .f32 = 32 ∨ (Rect.block (s := S5x6422528) S5x8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192.size a ≤ S1x6930432.size a
  hwx1_0 : ∀ i : grid1.Coords, EltTy.bits .f32 = 32 ∨ (Rect.block (s := S1x6930432) S1x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x6930432.size a
  hwx1_1 : ∀ i : grid1.Coords, EltTy.bits .f32 = 32 ∨ (Rect.block (s := S1x6930432) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x81.size a ≤ S5x81.size a
  hwx1_2 : ∀ i : grid1.Coords, EltTy.bits .f32 = 32 ∨ (Rect.block (s := S5x81) S5x81.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5x8192.size a ≤ S5x6922240.size a
  hwx1_3 : ∀ i : grid1.Coords, EltTy.bits .f32 = 32 ∨ (Rect.block (s := S5x6922240) S5x8192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x640.size a ≤ S8192x640.size a
  hwx2_0 : ∀ i : grid2.Coords, EltTy.bits .f32 = 32 ∨ (Rect.block (s := S8192x640) S256x640.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S640x256.size a ≤ S640x256.size a
  hwx2_1 : ∀ i : grid2.Coords, EltTy.bits .f32 = 32 ∨ (Rect.block (s := S640x256) S640x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S8192x128.size a
  hwx2_5 : ∀ i : grid2.Coords, EltTy.bits .f32 = 32 ∨ (Rect.block (s := S8192x128) S256x128.size (cc2_transform_5 i) (hinb2_5 i)).WholeWords (EltTy.packing .f32)

variable [Facts₀]

def dot_S5x81_S81x8192_S5x8192_1_0_0_1_n_n : DotDims S5x81 S81x8192 S5x8192 where
  lhsContracting := [1]
  rhsContracting := [0]
  lhsNonContracting := [0]
  rhsNonContracting := [1]
  lhsBatch := []
  rhsBatch := []
  wf := dot_S5x81_S81x8192_S5x8192_1_0_0_1_n_n_wf
def dot_S256x640_S640x256_S256x256_1_0_0_1_n_n : DotDims S256x640 S640x256 S256x256 where
  lhsContracting := [1]
  rhsContracting := [0]
  lhsNonContracting := [0]
  rhsNonContracting := [1]
  lhsBatch := []
  rhsBatch := []
  wf := dot_S256x640_S640x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_v5) S1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5x81.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5x81.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S256x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S640x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S256x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x1x28x28 : Shape := ⟨4, ![8192, 1, 28, 28]⟩
abbrev S9x5x9 : Shape := ⟨3, ![9, 5, 9]⟩
abbrev S25x25x256 : Shape := ⟨3, ![25, 25, 256]⟩
abbrev S1x256 : Shape := ⟨2, ![1, 256]⟩
abbrev S256x128 : Shape := ⟨2, ![256, 128]⟩
abbrev S1x128 : Shape := ⟨2, ![1, 128]⟩
abbrev S8192x1x26x26 : Shape := ⟨4, ![8192, 1, 26, 26]⟩
abbrev S1x8192x1x26x26 : Shape := ⟨5, ![1, 8192, 1, 26, 26]⟩
abbrev S9x8192x1x26x26 : Shape := ⟨5, ![9, 8192, 1, 26, 26]⟩
abbrev S9x5537792 : Shape := ⟨2, ![9, 5537792]⟩
abbrev S_ : Shape := ⟨0, ![]⟩
abbrev S5x5537792 : Shape := ⟨2, ![5, 5537792]⟩
abbrev S9x2048 : Shape := ⟨2, ![9, 2048]⟩
abbrev S5x2048 : Shape := ⟨2, ![5, 2048]⟩
abbrev S9x128 : Shape := ⟨2, ![9, 128]⟩
abbrev S1x5x9 : Shape := ⟨3, ![1, 5, 9]⟩
abbrev S5x9 : Shape := ⟨2, ![5, 9]⟩
abbrev S5x128 : Shape := ⟨2, ![5, 128]⟩
abbrev S5x8192x1x26x26 : Shape := ⟨5, ![5, 8192, 1, 26, 26]⟩
abbrev S5x8192x1x13x2x13x2 : Shape := ⟨7, ![5, 8192, 1, 13, 2, 13, 2]⟩
abbrev S5x8192x1x13x13 : Shape := ⟨5, ![5, 8192, 1, 13, 13]⟩
abbrev S5x8192x1x11x11 : Shape := ⟨5, ![5, 8192, 1, 11, 11]⟩
abbrev S1x5x8192x1x11x11 : Shape := ⟨6, ![1, 5, 8192, 1, 11, 11]⟩
abbrev S9x5x8192x1x11x11 : Shape := ⟨6, ![9, 5, 8192, 1, 11, 11]⟩
abbrev S9x4956160 : Shape := ⟨2, ![9, 4956160]⟩
abbrev S5x4956160 : Shape := ⟨2, ![5, 4956160]⟩
abbrev S5x5x8192x1x11x11 : Shape := ⟨6, ![5, 5, 8192, 1, 11, 11]⟩
abbrev S5x5x8192x1x10x10 : Shape := ⟨6, ![5, 5, 8192, 1, 10, 10]⟩
abbrev S5x5x8192x1x5x2x5x2 : Shape := ⟨8, ![5, 5, 8192, 1, 5, 2, 5, 2]⟩
abbrev S5x5x8192x1x5x5 : Shape := ⟨6, ![5, 5, 8192, 1, 5, 5]⟩
abbrev S25x8192x25 : Shape := ⟨3, ![25, 8192, 25]⟩
abbrev S8192x128 : Shape := ⟨2, ![8192, 128]⟩
abbrev S25x256x25 : Shape := ⟨3, ![25, 256, 25]⟩
abbrev S1x256x25 : Shape := ⟨3, ![1, 256, 25]⟩
abbrev S256x25 : Shape := ⟨2, ![256, 25]⟩
abbrev S1x25x256 : Shape := ⟨3, ![1, 25, 256]⟩
abbrev S25x256 : Shape := ⟨2, ![25, 256]⟩
abbrev S256x256 : Shape := ⟨2, ![256, 256]⟩
abbrev S256 : Shape := ⟨1, ![256]⟩
abbrev S256x1 : Shape := ⟨2, ![256, 1]⟩
abbrev S8192x3 : Shape := ⟨2, ![8192, 3]⟩

abbrev nBuf : Space → Nat
  | .hbm => 70
  | .vmem => 18
  | .smem => 0
  | _ => 0

abbrev bufTy : (tb : Table) → Fin (tcTables nBuf tb) → BufTy
  | .hbm, ⟨0, _⟩ => ⟨S8192x1x28x28, .f32⟩
  | .hbm, ⟨1, _⟩ => ⟨S9x5x9, .f32⟩
  | .hbm, ⟨2, _⟩ => ⟨S9x5x9, .f32⟩
  | .hbm, ⟨3, _⟩ => ⟨S25x25x256, .f32⟩
  | .hbm, ⟨4, _⟩ => ⟨S1x256, .f32⟩
  | .hbm, ⟨5, _⟩ => ⟨S256x128, .f32⟩
  | .hbm, ⟨6, _⟩ => ⟨S1x128, .f32⟩
  | .hbm, ⟨7, _⟩ => ⟨S8192x1x26x26, .f32⟩
  | .hbm, ⟨8, _⟩ => ⟨S8192x1x26x26, .f32⟩
  | .hbm, ⟨9, _⟩ => ⟨S8192x1x26x26, .f32⟩
  | .hbm, ⟨10, _⟩ => ⟨S8192x1x26x26, .f32⟩
  | .hbm, ⟨11, _⟩ => ⟨S8192x1x26x26, .f32⟩
  | .hbm, ⟨12, _⟩ => ⟨S8192x1x26x26, .f32⟩
  | .hbm, ⟨13, _⟩ => ⟨S8192x1x26x26, .f32⟩
  | .hbm, ⟨14, _⟩ => ⟨S8192x1x26x26, .f32⟩
  | .hbm, ⟨15, _⟩ => ⟨S8192x1x26x26, .f32⟩
  | .hbm, ⟨16, _⟩ => ⟨S1x8192x1x26x26, .f32⟩
  | .hbm, ⟨17, _⟩ => ⟨S1x8192x1x26x26, .f32⟩
  | .hbm, ⟨18, _⟩ => ⟨S1x8192x1x26x26, .f32⟩
  | .hbm, ⟨19, _⟩ => ⟨S1x8192x1x26x26, .f32⟩
  | .hbm, ⟨20, _⟩ => ⟨S1x8192x1x26x26, .f32⟩
  | .hbm, ⟨21, _⟩ => ⟨S1x8192x1x26x26, .f32⟩
  | .hbm, ⟨22, _⟩ => ⟨S1x8192x1x26x26, .f32⟩
  | .hbm, ⟨23, _⟩ => ⟨S1x8192x1x26x26, .f32⟩
  | .hbm, ⟨24, _⟩ => ⟨S1x8192x1x26x26, .f32⟩
  | .hbm, ⟨25, _⟩ => ⟨S9x8192x1x26x26, .f32⟩
  | .hbm, ⟨26, _⟩ => ⟨S9x5537792, .f32⟩
  | .hbm, ⟨27, _⟩ => ⟨S_, .i32⟩
  | .hbm, ⟨28, _⟩ => ⟨S_, .f32⟩
  | .hbm, ⟨29, _⟩ => ⟨S9x5537792, .f32⟩
  | .hbm, ⟨30, _⟩ => ⟨S5x5537792, .f32⟩
  | .hbm, ⟨31, _⟩ => ⟨S5x8192x1x26x26, .f32⟩
  | .hbm, ⟨32, _⟩ => ⟨S5x8192x1x13x2x13x2, .f32⟩
  | .hbm, ⟨33, _⟩ => ⟨S_, .f32⟩
  | .hbm, ⟨34, _⟩ => ⟨S5x8192x1x13x13, .f32⟩
  | .hbm, ⟨35, _⟩ => ⟨S5x8192x1x11x11, .f32⟩
  | .hbm, ⟨36, _⟩ => ⟨S5x8192x1x11x11, .f32⟩
  | .hbm, ⟨37, _⟩ => ⟨S5x8192x1x11x11, .f32⟩
  | .hbm, ⟨38, _⟩ => ⟨S5x8192x1x11x11, .f32⟩
  | .hbm, ⟨39, _⟩ => ⟨S5x8192x1x11x11, .f32⟩
  | .hbm, ⟨40, _⟩ => ⟨S5x8192x1x11x11, .f32⟩
  | .hbm, ⟨41, _⟩ => ⟨S5x8192x1x11x11, .f32⟩
  | .hbm, ⟨42, _⟩ => ⟨S5x8192x1x11x11, .f32⟩
  | .hbm, ⟨43, _⟩ => ⟨S5x8192x1x11x11, .f32⟩
  | .hbm, ⟨44, _⟩ => ⟨S1x5x8192x1x11x11, .f32⟩
  | .hbm, ⟨45, _⟩ => ⟨S1x5x8192x1x11x11, .f32⟩
  | .hbm, ⟨46, _⟩ => ⟨S1x5x8192x1x11x11, .f32⟩
  | .hbm, ⟨47, _⟩ => ⟨S1x5x8192x1x11x11, .f32⟩
  | .hbm, ⟨48, _⟩ => ⟨S1x5x8192x1x11x11, .f32⟩
  | .hbm, ⟨49, _⟩ => ⟨S1x5x8192x1x11x11, .f32⟩
  | .hbm, ⟨50, _⟩ => ⟨S1x5x8192x1x11x11, .f32⟩
  | .hbm, ⟨51, _⟩ => ⟨S1x5x8192x1x11x11, .f32⟩
  | .hbm, ⟨52, _⟩ => ⟨S1x5x8192x1x11x11, .f32⟩
  | .hbm, ⟨53, _⟩ => ⟨S9x5x8192x1x11x11, .f32⟩
  | .hbm, ⟨54, _⟩ => ⟨S9x4956160, .f32⟩
  | .hbm, ⟨55, _⟩ => ⟨S_, .i32⟩
  | .hbm, ⟨56, _⟩ => ⟨S_, .f32⟩
  | .hbm, ⟨57, _⟩ => ⟨S9x4956160, .f32⟩
  | .hbm, ⟨58, _⟩ => ⟨S5x4956160, .f32⟩
  | .hbm, ⟨59, _⟩ => ⟨S5x5x8192x1x11x11, .f32⟩
  | .hbm, ⟨60, _⟩ => ⟨S5x5x8192x1x10x10, .f32⟩
  | .hbm, ⟨61, _⟩ => ⟨S5x5x8192x1x5x2x5x2, .f32⟩
  | .hbm, ⟨62, _⟩ => ⟨S_, .f32⟩
  | .hbm, ⟨63, _⟩ => ⟨S5x5x8192x1x5x5, .f32⟩
  | .hbm, ⟨64, _⟩ => ⟨S25x8192x25, .f32⟩
  | .hbm, ⟨65, _⟩ => ⟨S_, .i32⟩
  | .hbm, ⟨66, _⟩ => ⟨S_, .f32⟩
  | .hbm, ⟨67, _⟩ => ⟨S25x8192x25, .f32⟩
  | .hbm, ⟨68, _⟩ => ⟨S8192x128, .f32⟩
  | .hbm, ⟨69, _⟩ => ⟨S8192x3, .f32⟩
  | .local _ .vmem, ⟨0, _⟩ => ⟨S9x2048, .f32⟩
  | .local _ .vmem, ⟨1, _⟩ => ⟨S9x2048, .f32⟩
  | .local _ .vmem, ⟨2, _⟩ => ⟨S9x5x9, .f32⟩
  | .local _ .vmem, ⟨3, _⟩ => ⟨S5x2048, .f32⟩
  | .local _ .vmem, ⟨4, _⟩ => ⟨S5x2048, .f32⟩
  | .local _ .vmem, ⟨5, _⟩ => ⟨S9x2048, .f32⟩
  | .local _ .vmem, ⟨6, _⟩ => ⟨S9x2048, .f32⟩
  | .local _ .vmem, ⟨7, _⟩ => ⟨S9x5x9, .f32⟩
  | .local _ .vmem, ⟨8, _⟩ => ⟨S5x2048, .f32⟩
  | .local _ .vmem, ⟨9, _⟩ => ⟨S5x2048, .f32⟩
  | .local _ .vmem, ⟨10, _⟩ => ⟨S25x256x25, .f32⟩
  | .local _ .vmem, ⟨11, _⟩ => ⟨S25x256x25, .f32⟩
  | .local _ .vmem, ⟨12, _⟩ => ⟨S25x25x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S256x128, .f32⟩
  | .local _ .vmem, ⟨17, _⟩ => ⟨S256x128, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_0 : Ref sig .tc := ⟨.hbm, 55, rfl⟩
abbrev main_call1_v0 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_1 : Ref sig .tc := ⟨.hbm, 62, rfl⟩
abbrev main_v50 : Ref sig .tc := ⟨.hbm, 63, rfl⟩
abbrev main_v51 : Ref sig .tc := ⟨.hbm, 64, rfl⟩
abbrev main_c_2 : Ref sig .tc := ⟨.hbm, 65, rfl⟩
abbrev main_call2_v0 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![2704], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S9x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x5x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2420], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S9x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x5x9 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25x256x25 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S25x25x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S8192x1x28x28_S8192x1x26x26_0_0_0_0 : S8192x1x28x28.Slices ![0, 0, 0, 0] S8192x1x26x26
  slices_S8192x1x28x28_S8192x1x26x26_0_0_0_1 : S8192x1x28x28.Slices ![0, 0, 0, 1] S8192x1x26x26
  slices_S8192x1x28x28_S8192x1x26x26_0_0_0_2 : S8192x1x28x28.Slices ![0, 0, 0, 2] S8192x1x26x26
  slices_S8192x1x28x28_S8192x1x26x26_0_0_1_0 : S8192x1x28x28.Slices ![0, 0, 1, 0] S8192x1x26x26
  slices_S8192x1x28x28_S8192x1x26x26_0_0_1_1 : S8192x1x28x28.Slices ![0, 0, 1, 1] S8192x1x26x26
  slices_S8192x1x28x28_S8192x1x26x26_0_0_1_2 : S8192x1x28x28.Slices ![0, 0, 1, 2] S8192x1x26x26
  slices_S8192x1x28x28_S8192x1x26x26_0_0_2_0 : S8192x1x28x28.Slices ![0, 0, 2, 0] S8192x1x26x26
  slices_S8192x1x28x28_S8192x1x26x26_0_0_2_1 : S8192x1x28x28.Slices ![0, 0, 2, 1] S8192x1x26x26
  slices_S8192x1x28x28_S8192x1x26x26_0_0_2_2 : S8192x1x28x28.Slices ![0, 0, 2, 2] S8192x1x26x26
  bcast_S8192x1x26x26_S1x8192x1x26x26_1_2_3_4 : S8192x1x26x26.BroadcastsInDim S1x8192x1x26x26 (![1, 2, 3, 4] : Fin 4 → Fin S1x8192x1x26x26.rank)
  concatenates_S1x8192x1x26x26_S1x8192x1x26x26_S1x8192x1x26x26_S1x8192x1x26x26_S1x8192x1x26x26_S1x8192x1x26x26_S1x8192x1x26x26_S1x8192x1x26x26_S1x8192x1x26x26_S9x8192x1x26x26_d0 : Shape.Concatenates [S1x8192x1x26x26, S1x8192x1x26x26, S1x8192x1x26x26, S1x8192x1x26x26, S1x8192x1x26x26, S1x8192x1x26x26, S1x8192x1x26x26, S1x8192x1x26x26, S1x8192x1x26x26] S9x8192x1x26x26 0
  shapeCasts_S9x8192x1x26x26_S9x5537792 : S9x8192x1x26x26.ShapeCasts S9x5537792
  pads_S9x5537792_S9x5537792_000_000 : S9x5537792.Pads (![0, 0] : Fin 2 → Nat) ![0, 0] ![0, 0] S9x5537792
  h_S_ : 0 < S_.numel
  inb_S9x2048_S9x128_0_0 : ∀ a, (![0, 0] : Fin 2 → Nat) a + S9x128.size a ≤ S9x2048.size a
  h_S9x128 : 0 < S9x128.numel
  shapeCasts_S9x128_S9x128 : S9x128.ShapeCasts S9x128
  natLt_1_32 : 1 < 32
  inb_S9x5x9_S1x5x9_0_0_0 : ∀ a, (![0, 0, 0] : Fin 3 → Nat) a + S1x5x9.size a ≤ S9x5x9.size a
  h_S1x5x9 : 0 < S1x5x9.numel
  shapeCasts_S1x5x9_S5x9 : S1x5x9.ShapeCasts S5x9
  inb_S9x5x9_S1x5x9_1_0_0 : ∀ a, (![1, 0, 0] : Fin 3 → Nat) a + S1x5x9.size a ≤ S9x5x9.size a
  inb_S9x5x9_S1x5x9_2_0_0 : ∀ a, (![2, 0, 0] : Fin 3 → Nat) a + S1x5x9.size a ≤ S9x5x9.size a
  inb_S9x5x9_S1x5x9_3_0_0 : ∀ a, (![3, 0, 0] : Fin 3 → Nat) a + S1x5x9.size a ≤ S9x5x9.size a
  inb_S9x5x9_S1x5x9_4_0_0 : ∀ a, (![4, 0, 0] : Fin 3 → Nat) a + S1x5x9.size a ≤ S9x5x9.size a
  inb_S9x5x9_S1x5x9_5_0_0 : ∀ a, (![5, 0, 0] : Fin 3 → Nat) a + S1x5x9.size a ≤ S9x5x9.size a
  inb_S9x5x9_S1x5x9_6_0_0 : ∀ a, (![6, 0, 0] : Fin 3 → Nat) a + S1x5x9.size a ≤ S9x5x9.size a
  inb_S9x5x9_S1x5x9_7_0_0 : ∀ a, (![7, 0, 0] : Fin 3 → Nat) a + S1x5x9.size a ≤ S9x5x9.size a
  inb_S9x5x9_S1x5x9_8_0_0 : ∀ a, (![8, 0, 0] : Fin 3 → Nat) a + S1x5x9.size a ≤ S9x5x9.size a
  inb_S5x2048_S5x128_0_0 : ∀ a, (![0, 0] : Fin 2 → Nat) a + S5x128.size a ≤ S5x2048.size a
  h_S5x128 : 0 < S5x128.numel
  inb_S9x2048_S9x128_0_128 : ∀ a, (![0, 128] : Fin 2 → Nat) a + S9x128.size a ≤ S9x2048.size a
  inb_S5x2048_S5x128_0_128 : ∀ a, (![0, 128] : Fin 2 → Nat) a + S5x128.size a ≤ S5x2048.size a
  inb_S9x2048_S9x128_0_256 : ∀ a, (![0, 256] : Fin 2 → Nat) a + S9x128.size a ≤ S9x2048.size a
  inb_S5x2048_S5x128_0_256 : ∀ a, (![0, 256] : Fin 2 → Nat) a + S5x128.size a ≤ S5x2048.size a
  inb_S9x2048_S9x128_0_384 : ∀ a, (![0, 384] : Fin 2 → Nat) a + S9x128.size a ≤ S9x2048.size a
  inb_S5x2048_S5x128_0_384 : ∀ a, (![0, 384] : Fin 2 → Nat) a + S5x128.size a ≤ S5x2048.size a
  inb_S9x2048_S9x128_0_512 : ∀ a, (![0, 512] : Fin 2 → Nat) a + S9x128.size a ≤ S9x2048.size a
  inb_S5x2048_S5x128_0_512 : ∀ a, (![0, 512] : Fin 2 → Nat) a + S5x128.size a ≤ S5x2048.size a
  inb_S9x2048_S9x128_0_640 : ∀ a, (![0, 640] : Fin 2 → Nat) a + S9x128.size a ≤ S9x2048.size a
  inb_S5x2048_S5x128_0_640 : ∀ a, (![0, 640] : Fin 2 → Nat) a + S5x128.size a ≤ S5x2048.size a
  inb_S9x2048_S9x128_0_768 : ∀ a, (![0, 768] : Fin 2 → Nat) a + S9x128.size a ≤ S9x2048.size a
  inb_S5x2048_S5x128_0_768 : ∀ a, (![0, 768] : Fin 2 → Nat) a + S5x128.size a ≤ S5x2048.size a
  inb_S9x2048_S9x128_0_896 : ∀ a, (![0, 896] : Fin 2 → Nat) a + S9x128.size a ≤ S9x2048.size a
  inb_S5x2048_S5x128_0_896 : ∀ a, (![0, 896] : Fin 2 → Nat) a + S5x128.size a ≤ S5x2048.size a
  inb_S9x2048_S9x128_0_1024 : ∀ a, (![0, 1024] : Fin 2 → Nat) a + S9x128.size a ≤ S9x2048.size a
  inb_S5x2048_S5x128_0_1024 : ∀ a, (![0, 1024] : Fin 2 → Nat) a + S5x128.size a ≤ S5x2048.size a
  inb_S9x2048_S9x128_0_1152 : ∀ a, (![0, 1152] : Fin 2 → Nat) a + S9x128.size a ≤ S9x2048.size a
  inb_S5x2048_S5x128_0_1152 : ∀ a, (![0, 1152] : Fin 2 → Nat) a + S5x128.size a ≤ S5x2048.size a
  inb_S9x2048_S9x128_0_1280 : ∀ a, (![0, 1280] : Fin 2 → Nat) a + S9x128.size a ≤ S9x2048.size a
  inb_S5x2048_S5x128_0_1280 : ∀ a, (![0, 1280] : Fin 2 → Nat) a + S5x128.size a ≤ S5x2048.size a
  inb_S9x2048_S9x128_0_1408 : ∀ a, (![0, 1408] : Fin 2 → Nat) a + S9x128.size a ≤ S9x2048.size a
  inb_S5x2048_S5x128_0_1408 : ∀ a, (![0, 1408] : Fin 2 → Nat) a + S5x128.size a ≤ S5x2048.size a
  inb_S9x2048_S9x128_0_1536 : ∀ a, (![0, 1536] : Fin 2 → Nat) a + S9x128.size a ≤ S9x2048.size a
  inb_S5x2048_S5x128_0_1536 : ∀ a, (![0, 1536] : Fin 2 → Nat) a + S5x128.size a ≤ S5x2048.size a
  inb_S9x2048_S9x128_0_1664 : ∀ a, (![0, 1664] : Fin 2 → Nat) a + S9x128.size a ≤ S9x2048.size a
  inb_S5x2048_S5x128_0_1664 : ∀ a, (![0, 1664] : Fin 2 → Nat) a + S5x128.size a ≤ S5x2048.size a
  inb_S9x2048_S9x128_0_1792 : ∀ a, (![0, 1792] : Fin 2 → Nat) a + S9x128.size a ≤ S9x2048.size a
  inb_S5x2048_S5x128_0_1792 : ∀ a, (![0, 1792] : Fin 2 → Nat) a + S5x128.size a ≤ S5x2048.size a
  inb_S9x2048_S9x128_0_1920 : ∀ a, (![0, 1920] : Fin 2 → Nat) a + S9x128.size a ≤ S9x2048.size a
  inb_S5x2048_S5x128_0_1920 : ∀ a, (![0, 1920] : Fin 2 → Nat) a + S5x128.size a ≤ S5x2048.size a
  shapeCasts_S5x5537792_S5x8192x1x26x26 : S5x5537792.ShapeCasts S5x8192x1x26x26
  shapeCasts_S5x8192x1x26x26_S5x8192x1x13x2x13x2 : S5x8192x1x26x26.ShapeCasts S5x8192x1x13x2x13x2
  reducesTo_S5x8192x1x13x2x13x2_S5x8192x1x13x13_d4_6 : S5x8192x1x13x2x13x2.ReducesTo [4, 6] S5x8192x1x13x13
  slices_S5x8192x1x13x13_S5x8192x1x11x11_0_0_0_0_0 : S5x8192x1x13x13.Slices ![0, 0, 0, 0, 0] S5x8192x1x11x11
  slices_S5x8192x1x13x13_S5x8192x1x11x11_0_0_0_0_1 : S5x8192x1x13x13.Slices ![0, 0, 0, 0, 1] S5x8192x1x11x11
  slices_S5x8192x1x13x13_S5x8192x1x11x11_0_0_0_0_2 : S5x8192x1x13x13.Slices ![0, 0, 0, 0, 2] S5x8192x1x11x11
  slices_S5x8192x1x13x13_S5x8192x1x11x11_0_0_0_1_0 : S5x8192x1x13x13.Slices ![0, 0, 0, 1, 0] S5x8192x1x11x11
  slices_S5x8192x1x13x13_S5x8192x1x11x11_0_0_0_1_1 : S5x8192x1x13x13.Slices ![0, 0, 0, 1, 1] S5x8192x1x11x11
  slices_S5x8192x1x13x13_S5x8192x1x11x11_0_0_0_1_2 : S5x8192x1x13x13.Slices ![0, 0, 0, 1, 2] S5x8192x1x11x11
  slices_S5x8192x1x13x13_S5x8192x1x11x11_0_0_0_2_0 : S5x8192x1x13x13.Slices ![0, 0, 0, 2, 0] S5x8192x1x11x11
  slices_S5x8192x1x13x13_S5x8192x1x11x11_0_0_0_2_1 : S5x8192x1x13x13.Slices ![0, 0, 0, 2, 1] S5x8192x1x11x11
  slices_S5x8192x1x13x13_S5x8192x1x11x11_0_0_0_2_2 : S5x8192x1x13x13.Slices ![0, 0, 0, 2, 2] S5x8192x1x11x11
  bcast_S5x8192x1x11x11_S1x5x8192x1x11x11_1_2_3_4_5 : S5x8192x1x11x11.BroadcastsInDim S1x5x8192x1x11x11 (![1, 2, 3, 4, 5] : Fin 5 → Fin S1x5x8192x1x11x11.rank)
  concatenates_S1x5x8192x1x11x11_S1x5x8192x1x11x11_S1x5x8192x1x11x11_S1x5x8192x1x11x11_S1x5x8192x1x11x11_S1x5x8192x1x11x11_S1x5x8192x1x11x11_S1x5x8192x1x11x11_S1x5x8192x1x11x11_S9x5x8192x1x11x11_d0 : Shape.Concatenates [S1x5x8192x1x11x11, S1x5x8192x1x11x11, S1x5x8192x1x11x11, S1x5x8192x1x11x11, S1x5x8192x1x11x11, S1x5x8192x1x11x11, S1x5x8192x1x11x11, S1x5x8192x1x11x11, S1x5x8192x1x11x11] S9x5x8192x1x11x11 0
  shapeCasts_S9x5x8192x1x11x11_S9x4956160 : S9x5x8192x1x11x11.ShapeCasts S9x4956160
  pads_S9x4956160_S9x4956160_000_000 : S9x4956160.Pads (![0, 0] : Fin 2 → Nat) ![0, 0] ![0, 0] S9x4956160
  shapeCasts_S5x4956160_S5x5x8192x1x11x11 : S5x4956160.ShapeCasts S5x5x8192x1x11x11
  slices_S5x5x8192x1x11x11_S5x5x8192x1x10x10_0_0_0_0_0_0 : S5x5x8192x1x11x11.Slices ![0, 0, 0, 0, 0, 0] S5x5x8192x1x10x10
  shapeCasts_S5x5x8192x1x10x10_S5x5x8192x1x5x2x5x2 : S5x5x8192x1x10x10.ShapeCasts S5x5x8192x1x5x2x5x2
  reducesTo_S5x5x8192x1x5x2x5x2_S5x5x8192x1x5x5_d5_7 : S5x5x8192x1x5x2x5x2.ReducesTo [5, 7] S5x5x8192x1x5x5
  shapeCasts_S5x5x8192x1x5x5_S25x8192x25 : S5x5x8192x1x5x5.ShapeCasts S25x8192x25
  pads_S25x8192x25_S25x8192x25_000_000_000 : S25x8192x25.Pads (![0, 0, 0] : Fin 3 → Nat) ![0, 0, 0] ![0, 0, 0] S25x8192x25
  inb_S25x256x25_S1x256x25_0_0_0 : ∀ a, (![0, 0, 0] : Fin 3 → Nat) a + S1x256x25.size a ≤ S25x256x25.size a
  h_S1x256x25 : 0 < S1x256x25.numel
  shapeCasts_S1x256x25_S256x25 : S1x256x25.ShapeCasts S256x25
  inb_S25x25x256_S1x25x256_0_0_0 : ∀ a, (![0, 0, 0] : Fin 3 → Nat) a + S1x25x256.size a ≤ S25x25x256.size a
  h_S1x25x256 : 0 < S1x25x256.numel
  shapeCasts_S1x25x256_S25x256 : S1x25x256.ShapeCasts S25x256
  inb_S25x256x25_S1x256x25_1_0_0 : ∀ a, (![1, 0, 0] : Fin 3 → Nat) a + S1x256x25.size a ≤ S25x256x25.size a
  inb_S25x25x256_S1x25x256_1_0_0 : ∀ a, (![1, 0, 0] : Fin 3 → Nat) a + S1x25x256.size a ≤ S25x25x256.size a
  inb_S25x256x25_S1x256x25_2_0_0 : ∀ a, (![2, 0, 0] : Fin 3 → Nat) a + S1x256x25.size a ≤ S25x256x25.size a
  inb_S25x25x256_S1x25x256_2_0_0 : ∀ a, (![2, 0, 0] : Fin 3 → Nat) a + S1x25x256.size a ≤ S25x25x256.size a
  inb_S25x256x25_S1x256x25_3_0_0 : ∀ a, (![3, 0, 0] : Fin 3 → Nat) a + S1x256x25.size a ≤ S25x256x25.size a
  inb_S25x25x256_S1x25x256_3_0_0 : ∀ a, (![3, 0, 0] : Fin 3 → Nat) a + S1x25x256.size a ≤ S25x25x256.size a
  inb_S25x256x25_S1x256x25_4_0_0 : ∀ a, (![4, 0, 0] : Fin 3 → Nat) a + S1x256x25.size a ≤ S25x256x25.size a
  inb_S25x25x256_S1x25x256_4_0_0 : ∀ a, (![4, 0, 0] : Fin 3 → Nat) a + S1x25x256.size a ≤ S25x25x256.size a
  inb_S25x256x25_S1x256x25_5_0_0 : ∀ a, (![5, 0, 0] : Fin 3 → Nat) a + S1x256x25.size a ≤ S25x256x25.size a
  inb_S25x25x256_S1x25x256_5_0_0 : ∀ a, (![5, 0, 0] : Fin 3 → Nat) a + S1x25x256.size a ≤ S25x25x256.size a
  inb_S25x256x25_S1x256x25_6_0_0 : ∀ a, (![6, 0, 0] : Fin 3 → Nat) a + S1x256x25.size a ≤ S25x256x25.size a
  inb_S25x25x256_S1x25x256_6_0_0 : ∀ a, (![6, 0, 0] : Fin 3 → Nat) a + S1x25x256.size a ≤ S25x25x256.size a
  inb_S25x256x25_S1x256x25_7_0_0 : ∀ a, (![7, 0, 0] : Fin 3 → Nat) a + S1x256x25.size a ≤ S25x256x25.size a
  inb_S25x25x256_S1x25x256_7_0_0 : ∀ a, (![7, 0, 0] : Fin 3 → Nat) a + S1x25x256.size a ≤ S25x25x256.size a
  inb_S25x256x25_S1x256x25_8_0_0 : ∀ a, (![8, 0, 0] : Fin 3 → Nat) a + S1x256x25.size a ≤ S25x256x25.size a
  inb_S25x25x256_S1x25x256_8_0_0 : ∀ a, (![8, 0, 0] : Fin 3 → Nat) a + S1x25x256.size a ≤ S25x25x256.size a
  inb_S25x256x25_S1x256x25_9_0_0 : ∀ a, (![9, 0, 0] : Fin 3 → Nat) a + S1x256x25.size a ≤ S25x256x25.size a
  inb_S25x25x256_S1x25x256_9_0_0 : ∀ a, (![9, 0, 0] : Fin 3 → Nat) a + S1x25x256.size a ≤ S25x25x256.size a
  inb_S25x256x25_S1x256x25_10_0_0 : ∀ a, (![10, 0, 0] : Fin 3 → Nat) a + S1x256x25.size a ≤ S25x256x25.size a
  inb_S25x25x256_S1x25x256_10_0_0 : ∀ a, (![10, 0, 0] : Fin 3 → Nat) a + S1x25x256.size a ≤ S25x25x256.size a
  inb_S25x256x25_S1x256x25_11_0_0 : ∀ a, (![11, 0, 0] : Fin 3 → Nat) a + S1x256x25.size a ≤ S25x256x25.size a
  inb_S25x25x256_S1x25x256_11_0_0 : ∀ a, (![11, 0, 0] : Fin 3 → Nat) a + S1x25x256.size a ≤ S25x25x256.size a
  inb_S25x256x25_S1x256x25_12_0_0 : ∀ a, (![12, 0, 0] : Fin 3 → Nat) a + S1x256x25.size a ≤ S25x256x25.size a
  inb_S25x25x256_S1x25x256_12_0_0 : ∀ a, (![12, 0, 0] : Fin 3 → Nat) a + S1x25x256.size a ≤ S25x25x256.size a
  inb_S25x256x25_S1x256x25_13_0_0 : ∀ a, (![13, 0, 0] : Fin 3 → Nat) a + S1x256x25.size a ≤ S25x256x25.size a
  inb_S25x25x256_S1x25x256_13_0_0 : ∀ a, (![13, 0, 0] : Fin 3 → Nat) a + S1x25x256.size a ≤ S25x25x256.size a
  inb_S25x256x25_S1x256x25_14_0_0 : ∀ a, (![14, 0, 0] : Fin 3 → Nat) a + S1x256x25.size a ≤ S25x256x25.size a
  inb_S25x25x256_S1x25x256_14_0_0 : ∀ a, (![14, 0, 0] : Fin 3 → Nat) a + S1x25x256.size a ≤ S25x25x256.size a
  inb_S25x256x25_S1x256x25_15_0_0 : ∀ a, (![15, 0, 0] : Fin 3 → Nat) a + S1x256x25.size a ≤ S25x256x25.size a
  inb_S25x25x256_S1x25x256_15_0_0 : ∀ a, (![15, 0, 0] : Fin 3 → Nat) a + S1x25x256.size a ≤ S25x25x256.size a
  inb_S25x256x25_S1x256x25_16_0_0 : ∀ a, (![16, 0, 0] : Fin 3 → Nat) a + S1x256x25.size a ≤ S25x256x25.size a
  inb_S25x25x256_S1x25x256_16_0_0 : ∀ a, (![16, 0, 0] : Fin 3 → Nat) a + S1x25x256.size a ≤ S25x25x256.size a
  inb_S25x256x25_S1x256x25_17_0_0 : ∀ a, (![17, 0, 0] : Fin 3 → Nat) a + S1x256x25.size a ≤ S25x256x25.size a
  inb_S25x25x256_S1x25x256_17_0_0 : ∀ a, (![17, 0, 0] : Fin 3 → Nat) a + S1x25x256.size a ≤ S25x25x256.size a
  inb_S25x256x25_S1x256x25_18_0_0 : ∀ a, (![18, 0, 0] : Fin 3 → Nat) a + S1x256x25.size a ≤ S25x256x25.size a
  inb_S25x25x256_S1x25x256_18_0_0 : ∀ a, (![18, 0, 0] : Fin 3 → Nat) a + S1x25x256.size a ≤ S25x25x256.size a
  inb_S25x256x25_S1x256x25_19_0_0 : ∀ a, (![19, 0, 0] : Fin 3 → Nat) a + S1x256x25.size a ≤ S25x256x25.size a
  inb_S25x25x256_S1x25x256_19_0_0 : ∀ a, (![19, 0, 0] : Fin 3 → Nat) a + S1x25x256.size a ≤ S25x25x256.size a
  inb_S25x256x25_S1x256x25_20_0_0 : ∀ a, (![20, 0, 0] : Fin 3 → Nat) a + S1x256x25.size a ≤ S25x256x25.size a
  inb_S25x25x256_S1x25x256_20_0_0 : ∀ a, (![20, 0, 0] : Fin 3 → Nat) a + S1x25x256.size a ≤ S25x25x256.size a
  inb_S25x256x25_S1x256x25_21_0_0 : ∀ a, (![21, 0, 0] : Fin 3 → Nat) a + S1x256x25.size a ≤ S25x256x25.size a
  inb_S25x25x256_S1x25x256_21_0_0 : ∀ a, (![21, 0, 0] : Fin 3 → Nat) a + S1x25x256.size a ≤ S25x25x256.size a
  inb_S25x256x25_S1x256x25_22_0_0 : ∀ a, (![22, 0, 0] : Fin 3 → Nat) a + S1x256x25.size a ≤ S25x256x25.size a
  inb_S25x25x256_S1x25x256_22_0_0 : ∀ a, (![22, 0, 0] : Fin 3 → Nat) a + S1x25x256.size a ≤ S25x25x256.size a
  inb_S25x256x25_S1x256x25_23_0_0 : ∀ a, (![23, 0, 0] : Fin 3 → Nat) a + S1x256x25.size a ≤ S25x256x25.size a
  inb_S25x25x256_S1x25x256_23_0_0 : ∀ a, (![23, 0, 0] : Fin 3 → Nat) a + S1x25x256.size a ≤ S25x25x256.size a
  inb_S25x256x25_S1x256x25_24_0_0 : ∀ a, (![24, 0, 0] : Fin 3 → Nat) a + S1x256x25.size a ≤ S25x256x25.size a
  inb_S25x25x256_S1x25x256_24_0_0 : ∀ a, (![24, 0, 0] : Fin 3 → Nat) a + S1x25x256.size a ≤ S25x25x256.size a
  inb_S1x256_S1x256_0_0 : ∀ a, (![0, 0] : Fin 2 → Nat) a + S1x256.size a ≤ S1x256.size a
  h_S1x256 : 0 < S1x256.numel
  broadcasts_S1x256_S256x256 : S1x256.Broadcasts S256x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  iota_S256x128_d1_w32 : S256x128.Iotas .tc 32 [1]
  reduces_S256x128_S256 : S256x128.Reduces [1] S256
  shapeCasts_S256_S256x1 : S256.ShapeCasts S256x1
  broadcasts_S256x1_S256x128 : S256x1.Broadcasts S256x128
  slices_S8192x128_S8192x3_0_0 : S8192x128.Slices ![0, 0] S8192x3
  dot_S5x9_S9x128_S5x128_1_0_0_1_n_n_wf : DotDims.WF S5x9 S9x128 S5x128 [1] [0] [0] [1] [] []
  dot_S256x25_S25x256_S256x256_1_0_0_1_n_n_wf : DotDims.WF S256x25 S25x256 S256x256 [1] [0] [0] [1] [] []
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9x2048.size a ≤ S9x5537792.size a
  hwx0_0 : ∀ i : grid0.Coords, EltTy.bits .f32 = 32 ∨ (Rect.block (s := S9x5537792) S9x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x5x9.size a ≤ S9x5x9.size a
  hwx0_1 : ∀ i : grid0.Coords, EltTy.bits .f32 = 32 ∨ (Rect.block (s := S9x5x9) S9x5x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x2048.size a ≤ S5x5537792.size a
  hwx0_2 : ∀ i : grid0.Coords, EltTy.bits .f32 = 32 ∨ (Rect.block (s := S5x5537792) S5x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9x2048.size a ≤ S9x4956160.size a
  hwx1_0 : ∀ i : grid1.Coords, EltTy.bits .f32 = 32 ∨ (Rect.block (s := S9x4956160) S9x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x5x9.size a ≤ S9x5x9.size a
  hwx1_1 : ∀ i : grid1.Coords, EltTy.bits .f32 = 32 ∨ (Rect.block (s := S9x5x9) S9x5x9.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5x2048.size a ≤ S5x4956160.size a
  hwx1_2 : ∀ i : grid1.Coords, EltTy.bits .f32 = 32 ∨ (Rect.block (s := S5x4956160) S5x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25x256x25.size a ≤ S25x8192x25.size a
  hwx2_0 : ∀ i : grid2.Coords, EltTy.bits .f32 = 32 ∨ (Rect.block (s := S25x8192x25) S25x256x25.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S25x25x256.size a ≤ S25x25x256.size a
  hwx2_1 : ∀ i : grid2.Coords, EltTy.bits .f32 = 32 ∨ (Rect.block (s := S25x25x256) S25x25x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S8192x128.size a
  hwx2_5 : ∀ i : grid2.Coords, EltTy.bits .f32 = 32 ∨ (Rect.block (s := S8192x128) S256x128.size (cc2_transform_5 i) (hinb2_5 i)).WholeWords (EltTy.packing .f32)

variable [Facts₀]

def dot_S5x9_S9x128_S5x128_1_0_0_1_n_n : DotDims S5x9 S9x128 S5x128 where
  lhsContracting := [1]
  rhsContracting := [0]
  lhsNonContracting := [0]
  rhsNonContracting := [1]
  lhsBatch := []
  rhsBatch := []
  wf := dot_S5x9_S9x128_S5x128_1_0_0_1_n_n_wf
def dot_S256x25_S25x256_S256x256_1_0_0_1_n_n : DotDims S256x25 S25x256 S256x256 where
  lhsContracting := [1]
  rhsContracting := [0]
  lhsNonContracting := [0]
  rhsNonContracting := [1]
  lhsBatch := []
  rhsBatch := []
  wf := dot_S256x25_S25x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_v20) S9x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x5x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S9x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S9x5x9.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S25x256x25.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S25x25x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S256x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== Proof.K.Region0.lean ====
/-
  Region 0 of the kernel's program: the first KAN convolution. At each of the 784 grid points the body reads a block of
  8192 flattened pixels and the 128 pixels that follow it (two windows on ONE padded pixel array), the 5×81 weight matrix,
  and writes the 5×8192 block of ReLU'd convolution outputs. Stated at a parameter `V`: the buffers' contents when the
  region is entered.
-/
import proofs.«125140_g2000505823476311_pallasbulk_1268_6_alg».proof.Proof.Gen.Kernel.Launch
import proofs.«125140_g2000505823476311_pallasbulk_1268_6_alg».proof.Proof.Gen.Kernel.Skeleton
import proofs.«125140_g2000505823476311_pallasbulk_1268_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved.
    The windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer read or written whole -/

abbrev r0_0 : Rect S1x8192 := Rect.unit (s := S1x8192) ![0, 0] S1x8192.size inb_S1x8192_S1x8192_0_0
abbrev r0_1 : Rect S1x128 := Rect.unit (s := S1x128) ![0, 0] S1x128.size inb_S1x128_S1x128_0_0
abbrev r0_2 : Rect S5x81 := Rect.unit (s := S5x81) ![0, 0] S5x81.size inb_S5x81_S5x81_0_0
abbrev r0_3 : Rect S5x8192 := Rect.unit (s := S5x8192) ![0, 0] S5x8192.size inb_S5x8192_S5x8192_0_0

/-! ## What the body leaves in the output window's buffer -/

/-- The 5×8192 block the body computes from the pixel block `x0`, the 128 pixels after it `x1` and the weights `x2`:
    the composition of the skeleton's payloads along the body's parts.  -/
def conv0_block (x0 : Vec F S1x8192 .f32) (x1 : Vec F S1x128 .f32) (x2 : Vec F S5x81 .f32) : FVec F S5x8192 .f32 :=
  -- the three loads
  let v0 : Vec F S1x8192 .f32 := View.ld x0 r0_0
  let v2 : Vec F S1x128 .f32 := View.ld x1 r0_1
  let v288 : Vec F S5x81 .f32 := View.ld x2 r0_2
  -- part 1: the 8320 pixels as 65×128, and the knot indicators
  let v5 := k0_pay2 v0 v2
  let v9 := k0_pay3 v0 v2
  let v13 := k0_pay4 v0 v2
  let v17 := k0_pay5 v0 v2
  let v21 := k0_pay6 v0 v2
  let v25 := k0_pay7 v0 v2
  let v29 := k0_pay8 v0 v2
  let v33 := k0_pay9 v0 v2
  let v37 := k0_pay10 v0 v2
  let v41 := k0_pay11 v0 v2
  let v44 := k0_pay12 v0 v2
  -- part 2
  let v58 := k0_pay18 v25 v29
  let v59 := k0_pay19 v29 v33
  let v60 := k0_pay20 v33 v37
  let v61 := k0_pay21 v37 v41
  let v62 := k0_pay22 v41 v44
  let v63 := k0_pay23 v5 v44
  let v64 := k0_pay24 v5
  let v66 := k0_pay25 v5
  let v75 := k0_pay27 v5 v9 v13 v17
  let v82 := k0_pay29 v5 v13 v17 v21
  let v89 := k0_pay31 v5 v17 v21 v25
  let v91 := k0_pay32 v5
  let v92 := k0_pay33 v5 v21 v25
  let cst_23 : F .f32 := Scalar.ofBits .f32 0x3F800000#32
  -- part 3
  let v96 := k0_pay34 v58 v91 v92 cst_23
  let v103 := k0_pay36 v58 v59 v66 v91
  let v110 := k0_pay38 v59 v60 v66
  let v117 := k0_pay40 v60 v61 v66
  let v124 := k0_pay42 v61 v62 v66
  let v131 := k0_pay44 v62 v63 v66
  let v138 := k0_pay45 v63 v64 v66
  let v139 : FVec F S65x128 .f32 := k0_pay46
  -- part 4
  let v140 := k0_pay47 v5 v139
  let v149 := k0_pay49 v5 v75 v82 v139
  let v156 := k0_pay51 v5 v82 v89 v139
  let v163 := k0_pay53 v5 v89 v96 v139
  let v170 := k0_pay55 v5 v96 v103 v139
  let v177 := k0_pay57 v5 v103 v110 v139
  let v179 := k0_pay58 v5 v139
  let v184 := k0_pay59 v5 v110 v117 v139
  let v185 : FVec F S65x128 .f32 := k0_pay60
  -- part 5
  let v191 := k0_pay62 v117 v124 v140 v179 v185
  let v198 := k0_pay64 v124 v131 v140 v185
  let v205 := k0_pay65 v131 v138 v140
  let v207 := k0_pay66 v5
  let v216 := k0_pay68 v5 v149 v156
  let v223 := k0_pay70 v5 v156 v163
  let v225 := k0_pay71 v5
  let v230 := k0_pay72 v5 v163 v170
  let v231 : FVec F S65x128 .f32 := k0_pay73
  -- part 6: the nine spline features as 9×8320 and five of its shifted 9×8192 slices
  let v277 := k0_pay74 v5 v170 v177 v184 v191 v198 v205 v207 v216 v223 v225 v230 v231
  let v278 := k0_pay75 v5 v170 v177 v184 v191 v198 v205 v207 v216 v223 v225 v230 v231
  let v279 := k0_pay76 v5 v170 v177 v184 v191 v198 v205 v207 v216 v223 v225 v230 v231
  let v280 := k0_pay77 v5 v170 v177 v184 v191 v198 v205 v207 v216 v223 v225 v230 v231
  let v281 := k0_pay78 v5 v170 v177 v184 v191 v198 v205 v207 v216 v223 v225 v230 v231
  let v282 := k0_pay79 v5 v170 v177 v184 v191 v198 v205 v207 v216 v223 v225 v230 v231
  -- the remaining four slices, the 81×8192 patch matrix, the 5×81 by 81×8192 product and the ReLU
  k0_pay1 v277 v278 v279 v280 v281 v282 v288

/-- The output window's staging buffer after the body: its one whole-block store. -/
def out0_3 (x0 : Vec F S1x8192 .f32) (x1 : Vec F S1x128 .f32) (x2 : Vec F S5x81 .f32) : Vec F S5x8192 .f32 :=
  View.canon [⟨r0_3, conv0_block x0 x1 x2⟩]

theorem out0_3_eq (x0 : Vec F S1x8192 .f32) (x1 : Vec F S1x128 .f32) (x2 : Vec F S5x81 .f32) :
    out0_3 x0 x1 x2 = View.canon [⟨r0_3, conv0_block x0 x1 x2⟩] := rfl

/-- The store is of the whole buffer, so it covers it. -/
theorem cover0_3 (p0 : Vec F S5x8192 .f32) (y : S5x8192.Idx) :
    ∃ pc ∈ ([⟨r0_3, p0⟩] : List (View.Piece (Elt F) S5x8192 .f32)), y ∈ pc.1.set :=
  View.cover_of_tiled [⟨r0_3, p0⟩] S5x8192.size (by rfl) y

/-! ## The body's triple -/

set_option maxHeartbeats 1000000 in
/-- The kernel body on whole staging memrefs, the inputs' at read contents `x0`, `x1`, `x2` and the output's at
    anything, runs to the continuation holding the inputs' as they were and the output's at `out0_3` of the inputs'.
    The body's one read of the output buffer comes before its store and is not used. -/
theorem sound_kernel0 (c : Dev nD) (E : Set ℕ) (i : grid0.Coords) (arg0 : Memref sig .tc .vmem S1x8192 .f32) (harg0 : arg0.IsWhole) (arg1 : Memref sig .tc .vmem S1x128 .f32) (harg1 : arg1.IsWhole)
    (arg2 : Memref sig .tc .vmem S5x81 .f32) (harg2 : arg2.IsWhole) (arg3 : Memref sig .tc .vmem S5x8192 .f32) (harg3 : arg3.IsWhole)
    (x0 : Vec F S1x8192 .f32) (x1 : Vec F S1x128 .f32) (x2 : Vec F S5x81 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0_body i arg0 harg0 arg1 harg1 arg2 harg2 arg3 harg3) K := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them (`V`); after the body at point `t`
    each input's buffer at its block and the output's at `out0_3` of the input blocks; the invariant the scoped rest
    and the generator register, untouched; nothing owed; the arrays' shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

/-- The proof data's arrays are the region-entry contents. -/
theorem A_eq0 (q : Fin cfg0.W → PosShare TreeShare) (c : Dev nD) (w : Fin cfg0.W) : (dat0 V q c).A w = V c (Pipeline.arrRef spec0 w) := by
  dsimp only [dat0]

/-- What the body leaves, window by window. -/
theorem after0_0 (q : Fin cfg0.W → PosShare TreeShare) (c : Dev nD) (t : Fin cfg0.N) : (dat0 V q c).after 0 t = iblk0 V c 0 t := by dsimp only [dat0]
theorem after0_1 (q : Fin cfg0.W → PosShare TreeShare) (c : Dev nD) (t : Fin cfg0.N) : (dat0 V q c).after 1 t = iblk0 V c 1 t := by dsimp only [dat0]
theorem after0_2 (q : Fin cfg0.W → PosShare TreeShare) (c : Dev nD) (t : Fin cfg0.N) : (dat0 V q c).after 2 t = iblk0 V c 2 t := by dsimp only [dat0]
theorem after0_3 (q : Fin cfg0.W → PosShare TreeShare) (c : Dev nD) (t : Fin cfg0.N) :
    (dat0 V q c).after 3 t = out0_3 (iblk0 V c 0 t) (iblk0 V c 1 t) (iblk0 V c 2 t) := by dsimp only [dat0]

/-- Each input's current staging buffer holds its block at every point, fetched there or not. -/
theorem before0_0 (q : Fin cfg0.W → PosShare TreeShare) (c : Dev nD) (t : Fin cfg0.N) (d) : (dat0 V q c).before 0 t d = iblk0 V c 0 t :=
  before0_0_of V (dat0 V q c) (A_eq0 V q c 0) (after0_0 V q c) t d
theorem before0_1 (q : Fin cfg0.W → PosShare TreeShare) (c : Dev nD) (t : Fin cfg0.N) (d) : (dat0 V q c).before 1 t d = iblk0 V c 1 t :=
  before0_1_of V (dat0 V q c) (A_eq0 V q c 1) (after0_1 V q c) t d
theorem before0_2 (q : Fin cfg0.W → PosShare TreeShare) (c : Dev nD) (t : Fin cfg0.N) (d) : (dat0 V q c).before 2 t d = iblk0 V c 2 t :=
  before0_2_of V (dat0 V q c) (A_eq0 V q c 2) (after0_2 V q c) t d

/-! ## The body obligation, at a generic point -/

/-- What the body is called with at point `t`, the windows one by one, -/
def bodyPre0 (q : Fin cfg0.W → PosShare TreeShare) (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (q : Fin cfg0.W → PosShare TreeShare) (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the inputs' memrefs hold their blocks, so `sound_kernel0` applies; the invariant and
    the core's `owes` pass through unread. -/
theorem sound_body0 (q : Fin cfg0.W → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (q : Fin cfg0.W → PosShare TreeShare) (c : Dev nD) :
    BodyObligation (dat0 (F := F) V q c) (defs₀ (F := F)) Variants.none () Set.univ := fun t => by
  rw [bigSep_W0, bigSep_W0]
  exact sound_body0 V q c t

end Regions

end Cert.Kernel.Hand

end
-- ==== Proof.K.RunCond.lean ====
/-
  The run of this program's @main with its RESULT named. @main is host stretches around three kernel regions; between two
  items every unscoped buffer of a core is held whole at a valuation: the launch memory folded through each host stretch,
  a region's output array replaced by what the region leaves. Given one segment record per region, entered from the state
  before it and left at the state after it, every weakly fair execution terminates, the result buffer ends at the last
  valuation's value and every argument array ends as launched.
-/
import proofs.«125140_g2000505823476311_pallasbulk_1268_6_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

set_option backward.isDefEq.respectTransparency.types false in
/-- The run with the result named. Given, per region, a segment record entered from the thread state before it and left at
    the one after it, every weakly fair execution of @main from memory `m` with zero counters terminates; the result buffer
    ends at the last valuation's value, and every argument array ends as launched. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V12 m outs c) ∗ E 2 c) ⊢ R2.pre c)
    (hpost2 : ∀ c : Dev nD, R2.post c ⊢ iprop(StableHlo.held (c : Thread nD τ) (Pipeline.ucRefs τ sig) (V13 m outs c) ∗ E 3 c)) :
    θ_run defs (onTc (τ := τ) (main (F := F))) ⟨m, fun _ => 0, ρ⟩ (fun r => ∀ c : Dev nD,
      r.2.mem ((c.tc : Thread nD τ).loc main_v27) = V14 m outs c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, .rfl, hpre0 c, hpost0 c, .rfl, hpre1 c, hpost1 c, .rfl, .rfl, .rfl, .rfl, .rfl, hpre2 c, hpost2 c, sep_mono .rfl (hE3 c)⟩)
    (hinit := ?_) (QY := fun c s => s.mem ((c.tc : Thread nD τ).loc main_v27) = V14 m outs c main_v27 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v27) (Finset.mem_filter.mpr ⟨StableHlo.devRef_mem_tcRefs main_v27, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c)⟩
    · iexact HSI

end Cert.Kernel.Hand

end
-- ==== Proof.K.Reg0.lean ====
/-
  Region 0 of the kernel's program as a segment of @main. Its first two windows read ONE array (the padded pixel row):
  the array's buffer is held whole before the region, split in two halves for the two windows while the region runs, and
  joined again after it (an input array is never written, so both halves still hold the entry contents). The output
  window's array ends at the fold of the region's write-backs.
-/
import proofs.«125140_g2000505823476311_pallasbulk_1268_6_alg».proof.Proof.K.Region0
import proofs.«125140_g2000505823476311_pallasbulk_1268_6_alg».proof.Proof.K.RunCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The shares of the region's windows: the two windows on the pixel array hold one half of it each. -/
def q01 : Fin 4 → PosShare TreeShare
  | ⟨0, _⟩ => fullShare.left
  | ⟨1, _⟩ => fullShare.right
  | _ => fullShare

section
variable (V : (c : Dev nD) → (b : Ref sig .tc) → Buf (Elt F) ((c : Thread nD τ).loc b))

/-- The buffers behind region 0's windows: the pixel array (twice), the weights, the output. -/
theorem arrSet0 : Finset.univ.image (Pipeline.arrRef spec0) = {main_v5, main_v1, main_v6} := by decide

/-- Region 0's arrays, window by window. -/
theorem arrays0_eq (c : Dev nD) (G : (w : Fin cfg0.W) → Buf (Elt F) ((cfg0.win w).arr.view.loc (c.tc : Thread nD τ))) :
    ((dat0 V q01 c).arrays G : sProp 𝕄)
      = iprop((((c.tc : Thread nD τ).loc main_v5) ↦{fullShare.left} G 0) ∗ (((c.tc : Thread nD τ).loc main_v5) ↦{fullShare.right} G 1)
          ∗ (((c.tc : Thread nD τ).loc main_v1) ↦{fullShare} G 2) ∗ (((c.tc : Thread nD τ).loc main_v6) ↦{fullShare} G 3)) := by
  unfold Dat.arrays
  rw [bigSep_W0, (arr_whole0 0).set_eq_univ, (arr_whole0 2).set_eq_univ, (arr_whole0 3).set_eq_univ]
  rfl

/-- ENTRY: the three buffers whole at the entry contents make the region's arrays, the pixel array split in halves. -/
theorem hsplit0 (c : Dev nD) :
    (Pipeline.arrBufs spec0 c (V c) : sProp 𝕄) ⊢ (dat0 V q01 c).arrays ((dat0 V q01 c).arrAt · 0) := by
  rw [arrays0_eq]
  unfold Pipeline.arrBufs
  rw [arrSet0, BI.bigSep_insert (by decide), BI.bigSep_insert (by decide), BI.bigSep_singleton]
  show (iprop((((c.tc : Thread nD τ).loc main_v5) ↦{fullShare} V c main_v5) ∗ (((c.tc : Thread nD τ).loc main_v1) ↦{fullShare} V c main_v1)
      ∗ (((c.tc : Thread nD τ).loc main_v6) ↦{fullShare} V c main_v6)) : sProp 𝕄) ⊢ _
  iintro ⟨H5, H1, H6⟩
  ihave H5' := (pointsTo_share (PosShare.mem_left_op_right fullShare)).1 $$ H5
  icases H5' with ⟨Hl, Hr⟩
  isplitl [Hl]; · iexact Hl
  isplitl [Hr]; · iexact Hr
  isplitl [H1]; · iexact H1
  iexact H6

/-- ENTRY: a core's unscoped buffers at the entry contents are the region's arrays (the pixel array in halves) and the rest. -/
theorem entry0 (c : Dev nD) :
    (unscopedBufs c (V c) : sProp 𝕄) ⊢ iprop((dat0 V q01 c).arrays ((dat0 V q01 c).arrAt · 0) ∗ Pipeline.unscopedRest spec0 c (V c)) := by
  rw [Pipeline.unscopedBufs_split₀ cfgs 0 (by decide) c (V c)]
  exact sep_mono (hsplit0 V c) .rfl

/-- EXIT: the region's arrays at their final contents and the rest make the core's unscoped buffers at contents `V'` that
    hold the output array at the fold of the write-backs and every other buffer as entered: the inputs' arrays are never
    written, so the two halves of the pixel array join at the entry contents. -/
theorem exit0 (c : Dev nD) (V' : (b : Ref sig .tc) → Buf (Elt F) ((c : Thread nD τ).loc b))
    (h6 : V' main_v6 = (dat0 V q01 c).arrAt 3 cfg0.N) (hrest : ∀ b : Ref sig .tc, b ≠ main_v6 → V' b = V c b) :
    iprop((dat0 V q01 c).arrays ((dat0 V q01 c).arrAt · cfg0.N) ∗ Pipeline.unscopedRest spec0 c (V c)) ⊢ (unscopedBufs c V' : sProp 𝕄) := by
  have e0 : (dat0 V q01 c).arrAt 0 cfg0.N = V c main_v5 := ((dat0 V q01 c).arrAt_in 0 rfl _).trans (A_eq0 V q01 c 0)
  have e1 : (dat0 V q01 c).arrAt 1 cfg0.N = V c main_v5 := ((dat0 V q01 c).arrAt_in 1 rfl _).trans (A_eq0 V q01 c 1)
  have e2 : (dat0 V q01 c).arrAt 2 cfg0.N = V c main_v1 := ((dat0 V q01 c).arrAt_in 2 rfl _).trans (A_eq0 V q01 c 2)
  have hr : (Pipeline.unscopedRest spec0 c V' : sProp 𝕄) = Pipeline.unscopedRest spec0 c (V c) := by
    unfold Pipeline.unscopedRest
    refine bigSep_congr fun b hb => ?_
    rw [hrest b fun e => (Finset.mem_sdiff.mp hb).2 (by rw [e, arrSet0]; decide)]
  have hs : (unscopedBufs c V' : sProp 𝕄) = iprop(Pipeline.arrBufs spec0 c V' ∗ Pipeline.unscopedRest spec0 c V') :=
    Pipeline.unscopedBufs_split₀ cfgs 0 (by decide) c V'
  rw [hs, hr, arrays0_eq, e0, e1, e2, ← h6]
  refine sep_mono ?_ .rfl
  unfold Pipeline.arrBufs
  rw [arrSet0, BI.bigSep_insert (by decide), BI.bigSep_insert (by decide), BI.bigSep_singleton,
    hrest main_v5 (by decide), hrest main_v1 (by decide)]
  show _ ⊢ (iprop((((c.tc : Thread nD τ).loc main_v5) ↦{fullShare} V c main_v5) ∗ (((c.tc : Thread nD τ).loc main_v1) ↦{fullShare} V c main_v1)
      ∗ (((c.tc : Thread nD τ).loc main_v6) ↦{fullShare} V' main_v6)) : sProp 𝕄)
  iintro ⟨Hl, Hr, H1, H6⟩
  isplitl [Hl Hr]
  · iapply (pointsTo_share (PosShare.mem_left_op_right fullShare)).2
    isplitl [Hl]; · iexact Hl
    iexact Hr
  isplitl [H1]; · iexact H1
  iexact H6

end

end Cert.Kernel.Hand

end
-- ==== Proof.K.Region1.lean ====
/-
  Region 1 of the kernel's program: the second KAN convolution. At each of the 845 grid points the body reads a block of
  8192 flattened pooled activations and the 128 that follow it (two windows on ONE padded array), the 5×81 weight matrix,
  and writes the 5×8192 block of ReLU'd convolution outputs. Stated at a parameter `V`: the buffers' contents when the
  region is entered.
-/
import proofs.«125140_g2000505823476311_pallasbulk_1268_6_alg».proof.Proof.Gen.Kernel.Launch
import proofs.«125140_g2000505823476311_pallasbulk_1268_6_alg».proof.Proof.Gen.Kernel.Skeleton
import proofs.«125140_g2000505823476311_pallasbulk_1268_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved.
    The windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer read or written whole -/

abbrev r1_0 : Rect S1x8192 := Rect.unit (s := S1x8192) ![0, 0] S1x8192.size inb_S1x8192_S1x8192_0_0
abbrev r1_1 : Rect S1x128 := Rect.unit (s := S1x128) ![0, 0] S1x128.size inb_S1x128_S1x128_0_0
abbrev r1_2 : Rect S5x81 := Rect.unit (s := S5x81) ![0, 0] S5x81.size inb_S5x81_S5x81_0_0
abbrev r1_3 : Rect S5x8192 := Rect.unit (s := S5x8192) ![0, 0] S5x8192.size inb_S5x8192_S5x8192_0_0

/-! ## What the body leaves in the output window's buffer -/

/-- The 5×8192 block the body computes from the pixel block `x0`, the 128 pixels after it `x1` and the weights `x2`:
    the composition of the skeleton's payloads along the body's parts.  -/
def conv1_block (x0 : Vec F S1x8192 .f32) (x1 : Vec F S1x128 .f32) (x2 : Vec F S5x81 .f32) : FVec F S5x8192 .f32 :=
  -- the three loads
  let v0 : Vec F S1x8192 .f32 := View.ld x0 r1_0
  let v2 : Vec F S1x128 .f32 := View.ld x1 r1_1
  let v288 : Vec F S5x81 .f32 := View.ld x2 r1_2
  -- part 1: the 8320 pixels as 65×128, and the knot indicators
  let v5 := k1_pay2 v0 v2
  let v9 := k1_pay3 v0 v2
  let v13 := k1_pay4 v0 v2
  let v17 := k1_pay5 v0 v2
  let v21 := k1_pay6 v0 v2
  let v25 := k1_pay7 v0 v2
  let v29 := k1_pay8 v0 v2
  let v33 := k1_pay9 v0 v2
  let v37 := k1_pay10 v0 v2
  let v41 := k1_pay11 v0 v2
  let v44 := k1_pay12 v0 v2
  -- part 2
  let v58 := k1_pay18 v25 v29
  let v59 := k1_pay19 v29 v33
  let v60 := k1_pay20 v33 v37
  let v61 := k1_pay21 v37 v41
  let v62 := k1_pay22 v41 v44
  let v63 := k1_pay23 v5 v44
  let v64 := k1_pay24 v5
  let v66 := k1_pay25 v5
  let v75 := k1_pay27 v5 v9 v13 v17
  let v82 := k1_pay29 v5 v13 v17 v21
  let v89 := k1_pay31 v5 v17 v21 v25
  let v91 := k1_pay32 v5
  let v92 := k1_pay33 v5 v21 v25
  let cst_23 : F .f32 := Scalar.ofBits .f32 0x3F800000#32
  -- part 3
  let v96 := k1_pay34 v58 v91 v92 cst_23
  let v103 := k1_pay36 v58 v59 v66 v91
  let v110 := k1_pay38 v59 v60 v66
  let v117 := k1_pay40 v60 v61 v66
  let v124 := k1_pay42 v61 v62 v66
  let v131 := k1_pay44 v62 v63 v66
  let v138 := k1_pay45 v63 v64 v66
  let v139 : FVec F S65x128 .f32 := k1_pay46
  -- part 4
  let v140 := k1_pay47 v5 v139
  let v149 := k1_pay49 v5 v75 v82 v139
  let v156 := k1_pay51 v5 v82 v89 v139
  let v163 := k1_pay53 v5 v89 v96 v139
  let v170 := k1_pay55 v5 v96 v103 v139
  let v177 := k1_pay57 v5 v103 v110 v139
  let v179 := k1_pay58 v5 v139
  let v184 := k1_pay59 v5 v110 v117 v139
  let v185 : FVec F S65x128 .f32 := k1_pay60
  -- part 5
  let v191 := k1_pay62 v117 v124 v140 v179 v185
  let v198 := k1_pay64 v124 v131 v140 v185
  let v205 := k1_pay65 v131 v138 v140
  let v207 := k1_pay66 v5
  let v216 := k1_pay68 v5 v149 v156
  let v223 := k1_pay70 v5 v156 v163
  let v225 := k1_pay71 v5
  let v230 := k1_pay72 v5 v163 v170
  let v231 : FVec F S65x128 .f32 := k1_pay73
  -- part 6: the nine spline features as 9×8320 and five of its shifted 9×8192 slices
  let v277 := k1_pay74 v5 v170 v177 v184 v191 v198 v205 v207 v216 v223 v225 v230 v231
  let v278 := k1_pay75 v5 v170 v177 v184 v191 v198 v205 v207 v216 v223 v225 v230 v231
  let v279 := k1_pay76 v5 v170 v177 v184 v191 v198 v205 v207 v216 v223 v225 v230 v231
  let v280 := k1_pay77 v5 v170 v177 v184 v191 v198 v205 v207 v216 v223 v225 v230 v231
  let v281 := k1_pay78 v5 v170 v177 v184 v191 v198 v205 v207 v216 v223 v225 v230 v231
  let v282 := k1_pay79 v5 v170 v177 v184 v191 v198 v205 v207 v216 v223 v225 v230 v231
  -- the remaining four slices, the 81×8192 patch matrix, the 5×81 by 81×8192 product and the ReLU
  k1_pay1 v277 v278 v279 v280 v281 v282 v288

/-- The output window's staging buffer after the body: its one whole-block store. -/
def out1_3 (x0 : Vec F S1x8192 .f32) (x1 : Vec F S1x128 .f32) (x2 : Vec F S5x81 .f32) : Vec F S5x8192 .f32 :=
  View.canon [⟨r1_3, conv1_block x0 x1 x2⟩]

theorem out1_3_eq (x0 : Vec F S1x8192 .f32) (x1 : Vec F S1x128 .f32) (x2 : Vec F S5x81 .f32) :
    out1_3 x0 x1 x2 = View.canon [⟨r1_3, conv1_block x0 x1 x2⟩] := rfl

/-- The store is of the whole buffer, so it covers it. -/
theorem cover1_3 (p0 : Vec F S5x8192 .f32) (y : S5x8192.Idx) :
    ∃ pc ∈ ([⟨r1_3, p0⟩] : List (View.Piece (Elt F) S5x8192 .f32)), y ∈ pc.1.set :=
  View.cover_of_tiled [⟨r1_3, p0⟩] S5x8192.size (by rfl) y

/-! ## The body's triple -/

set_option maxHeartbeats 1000000 in
/-- The kernel body on whole staging memrefs, the inputs' at read contents `x0`, `x1`, `x2` and the output's at
    anything, runs to the continuation holding the inputs' as they were and the output's at `out1_3` of the inputs'.
    The body's one read of the output buffer comes before its store and is not used. -/
theorem sound_kernel1 (c : Dev nD) (E : Set ℕ) (i : grid1.Coords) (arg0 : Memref sig .tc .vmem S1x8192 .f32) (harg0 : arg0.IsWhole) (arg1 : Memref sig .tc .vmem S1x128 .f32) (harg1 : arg1.IsWhole)
    (arg2 : Memref sig .tc .vmem S5x81 .f32) (harg2 : arg2.IsWhole) (arg3 : Memref sig .tc .vmem S5x8192 .f32) (harg3 : arg3.IsWhole)
    (x0 : Vec F S1x8192 .f32) (x1 : Vec F S1x128 .f32) (x2 : Vec F S5x81 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1_body i arg0 harg0 arg1 harg1 arg2 harg2 arg3 harg3) K := by
  simp only [cc1_body_eq_skeleton]; unfold cc1_body_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them (`V`); after the body at point `t`
    each input's buffer at its block and the output's at `out1_3` of the input blocks; the invariant the scoped rest
    and the generator register, untouched; nothing owed; the arrays' shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) :
    (dat1 V q c).after 3 t = out1_3 (iblk1 V c 0 t) (iblk1 V c 1 t) (iblk1 V c 2 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t))

/-- The body at any point: the inputs' memrefs hold their blocks, so `sound_kernel1` applies; the invariant and
    the core's `owes` pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).Φ t.succ = (dat1 V q c).Φ t.castSucc from rfl,
    show (dat1 V q c).owesAt () t.succ = (dat1 V q c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (q : Fin cfg1.W → PosShare TreeShare) (c : Dev nD) :
    BodyObligation (dat1 (F := F) V q c) (defs₀ (F := F)) Variants.none () Set.univ := fun t => by
  rw [bigSep_W1, bigSep_W1]
  exact sound_body1 V q c t

end Regions

end Cert.Kernel.Hand

end
-- ==== Proof.K.Reg1.lean ====
/-
  Region 1 of the kernel's program as a segment of @main. Its first two windows read ONE array (the padded row of pooled first-layer activations):
  the array's buffer is held whole before the region, split in two halves for the two windows while the region runs, and
  joined again after it (an input array is never written, so both halves still hold the entry contents). The output
  window's array ends at the fold of the region's write-backs.
-/
import proofs.«125140_g2000505823476311_pallasbulk_1268_6_alg».proof.Proof.K.Region1
import proofs.«125140_g2000505823476311_pallasbulk_1268_6_alg».proof.Proof.K.Reg0
import proofs.«125140_g2000505823476311_pallasbulk_1268_6_alg».proof.Proof.K.RunCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The buffers behind region 1's windows: the activation array (twice), the weights, the output. -/
theorem arrSet1 : Finset.univ.image (Pipeline.arrRef spec1) = {main_v12, main_v3, main_v13} := by decide

/-- Region 1's arrays, window by window. -/
theorem arrays1_eq (c : Dev nD) (G : (w : Fin cfg1.W) → Buf (Elt F) ((cfg1.win w).arr.view.loc (c.tc : Thread nD τ))) :
    ((dat1 V q01 c).arrays G : sProp 𝕄)
      = iprop((((c.tc : Thread nD τ).loc main_v12) ↦{fullShare.left} G 0) ∗ (((c.tc : Thread nD τ).loc main_v12) ↦{fullShare.right} G 1)
          ∗ (((c.tc : Thread nD τ).loc main_v3) ↦{fullShare} G 2) ∗ (((c.tc : Thread nD τ).loc main_v13) ↦{fullShare} G 3)) := by
  unfold Dat.arrays
  rw [bigSep_W1, (arr_whole1 0).set_eq_univ, (arr_whole1 2).set_eq_univ, (arr_whole1 3).set_eq_univ]
  rfl

/-- ENTRY: the three buffers whole at the entry contents make the region's arrays, the activation array split in halves. -/
theorem hsplit1 (c : Dev nD) :
    (Pipeline.arrBufs spec1 c (V c) : sProp 𝕄) ⊢ (dat1 V q01 c).arrays ((dat1 V q01 c).arrAt · 0) := by
  rw [arrays1_eq]
  unfold Pipeline.arrBufs
  rw [arrSet1, BI.bigSep_insert (by decide), BI.bigSep_insert (by decide), BI.bigSep_singleton]
  show (iprop((((c.tc : Thread nD τ).loc main_v12) ↦{fullShare} V c main_v12) ∗ (((c.tc : Thread nD τ).loc main_v3) ↦{fullShare} V c main_v3)
      ∗ (((c.tc : Thread nD τ).loc main_v13) ↦{fullShare} V c main_v13)) : sProp 𝕄) ⊢ _
  iintro ⟨H5, H1, H6⟩
  ihave H5' := (pointsTo_share (PosShare.mem_left_op_right fullShare)).1 $$ H5
  icases H5' with ⟨Hl, Hr⟩
  isplitl [Hl]; · iexact Hl
  isplitl [Hr]; · iexact Hr
  isplitl [H1]; · iexact H1
  iexact H6

/-- ENTRY: a core's unscoped buffers at the entry contents are the region's arrays (the activation array in halves) and the rest. -/
theorem entry1 (c : Dev nD) :
    (unscopedBufs c (V c) : sProp 𝕄) ⊢ iprop((dat1 V q01 c).arrays ((dat1 V q01 c).arrAt · 0) ∗ Pipeline.unscopedRest spec1 c (V c)) := by
  rw [Pipeline.unscopedBufs_split₀ cfgs 1 (by decide) c (V c)]
  exact sep_mono (hsplit1 V c) .rfl

/-- EXIT: the region's arrays at their final contents and the rest make the core's unscoped buffers at contents `V'` that
    hold the output array at the fold of the write-backs and every other buffer as entered: the inputs' arrays are never
    written, so the two halves of the activation array join at the entry contents. -/
theorem exit1 (c : Dev nD) (V' : (b : Ref sig .tc) → Buf (Elt F) ((c : Thread nD τ).loc b))
    (h6 : V' main_v13 = (dat1 V q01 c).arrAt 3 cfg1.N) (hrest : ∀ b : Ref sig .tc, b ≠ main_v13 → V' b = V c b) :
    iprop((dat1 V q01 c).arrays ((dat1 V q01 c).arrAt · cfg1.N) ∗ Pipeline.unscopedRest spec1 c (V c)) ⊢ (unscopedBufs c V' : sProp 𝕄) := by
  have e0 : (dat1 V q01 c).arrAt 0 cfg1.N = V c main_v12 := ((dat1 V q01 c).arrAt_in 0 rfl _).trans (A_eq1 V q01 c 0)
  have e1 : (dat1 V q01 c).arrAt 1 cfg1.N = V c main_v12 := ((dat1 V q01 c).arrAt_in 1 rfl _).trans (A_eq1 V q01 c 1)
  have e2 : (dat1 V q01 c).arrAt 2 cfg1.N = V c main_v3 := ((dat1 V q01 c).arrAt_in 2 rfl _).trans (A_eq1 V q01 c 2)
  have hr : (Pipeline.unscopedRest spec1 c V' : sProp 𝕄) = Pipeline.unscopedRest spec1 c (V c) := by
    unfold Pipeline.unscopedRest
    refine bigSep_congr fun b hb => ?_
    rw [hrest b fun e => (Finset.mem_sdiff.mp hb).2 (by rw [e, arrSet1]; decide)]
  have hs : (unscopedBufs c V' : sProp 𝕄) = iprop(Pipeline.arrBufs spec1 c V' ∗ Pipeline.unscopedRest spec1 c V') :=
    Pipeline.unscopedBufs_split₀ cfgs 1 (by decide) c V'
  rw [hs, hr, arrays1_eq, e0, e1, e2, ← h6]
  refine sep_mono ?_ .rfl
  unfold Pipeline.arrBufs
  rw [arrSet1, BI.bigSep_insert (by decide), BI.bigSep_insert (by decide), BI.bigSep_singleton,
    hrest main_v12 (by decide), hrest main_v3 (by decide)]
  show _ ⊢ (iprop((((c.tc : Thread nD τ).loc main_v12) ↦{fullShare} V c main_v12) ∗ (((c.tc : Thread nD τ).loc main_v3) ↦{fullShare} V c main_v3)
      ∗ (((c.tc : Thread nD τ).loc main_v13) ↦{fullShare} V' main_v13)) : sProp 𝕄)
  iintro ⟨Hl, Hr, H1, H6⟩
  isplitl [Hl Hr]
  · iapply (pointsTo_share (PosShare.mem_left_op_right fullShare)).2
    isplitl [Hl]; · iexact Hl
    iexact Hr
  isplitl [H1]; · iexact H1
  iexact H6

end

end Cert.Kernel.Hand

end
-- ==== Proof.K.Region2.lean ====
/-
  Region 2 of the kernel's program: the MLP head. At each of the 32 grid points the body reads a block of 256 rows of the
  640-wide feature matrix, the two weight matrices and the two bias rows (fetched once), and writes the 256×128 block of
  log-softmax outputs over the first three lanes. Stated at a parameter `V`: the buffers' contents when the region is
  entered.
-/
import proofs.«125140_g2000505823476311_pallasbulk_1268_6_alg».proof.Proof.Gen.Kernel.Launch
import proofs.«125140_g2000505823476311_pallasbulk_1268_6_alg».proof.Proof.Gen.Kernel.Skeleton
import proofs.«125140_g2000505823476311_pallasbulk_1268_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: unfetched, the block index has not moved.
    The windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer read or written whole -/

abbrev r2_0 : Rect S256x640 := Rect.unit (s := S256x640) ![0, 0] S256x640.size inb_S256x640_S256x640_0_0
abbrev r2_1 : Rect S640x256 := Rect.unit (s := S640x256) ![0, 0] S640x256.size inb_S640x256_S640x256_0_0
abbrev r2_2 : Rect S1x256 := Rect.unit (s := S1x256) ![0, 0] S1x256.size inb_S1x256_S1x256_0_0
abbrev r2_3 : Rect S256x128 := Rect.unit (s := S256x128) ![0, 0] S256x128.size inb_S256x128_S256x128_0_0
abbrev r2_4 : Rect S1x128 := Rect.unit (s := S1x128) ![0, 0] S1x128.size inb_S1x128_S1x128_0_0
abbrev r2_5 : Rect S256x128 := Rect.unit (s := S256x128) ![0, 0] S256x128.size inb_S256x128_S256x128_0_0

/-! ## What the body leaves in the output window's buffer -/

/-- The output window's staging buffer after the body, from the input windows' blocks: its one whole-block store, of the
    skeleton's payload (two matrix products with bias, a ReLU between them, and the masked log-softmax). -/
def out2_5 (x0 : Vec F S256x640 .f32) (x1 : Vec F S640x256 .f32) (x2 : Vec F S1x256 .f32) (x3 : Vec F S256x128 .f32) (x4 : Vec F S1x128 .f32) : Vec F S256x128 .f32 :=
  View.canon [⟨r2_5, k2_pay1 (View.ld x0 r2_0) (View.ld x1 r2_1) (View.ld x2 r2_2) (View.ld x3 r2_3) (View.ld x4 r2_4)⟩]

theorem out2_5_eq (x0 : Vec F S256x640 .f32) (x1 : Vec F S640x256 .f32) (x2 : Vec F S1x256 .f32) (x3 : Vec F S256x128 .f32) (x4 : Vec F S1x128 .f32) :
    out2_5 x0 x1 x2 x3 x4 = View.canon [⟨r2_5, k2_pay1 (View.ld x0 r2_0) (View.ld x1 r2_1) (View.ld x2 r2_2) (View.ld x3 r2_3) (View.ld x4 r2_4)⟩] := rfl

/-- The store is of the whole buffer, so it covers it. -/
theorem cover2_5 (p0 : Vec F S256x128 .f32) (y : S256x128.Idx) :
    ∃ pc ∈ ([⟨r2_5, p0⟩] : List (View.Piece (Elt F) S256x128 .f32)), y ∈ pc.1.set :=
  View.cover_of_tiled [⟨r2_5, p0⟩] S256x128.size (by rfl) y

/-! ## The body's triple -/

set_option maxHeartbeats 1000000 in
/-- The kernel body on whole staging memrefs, the inputs' at read contents `x0` … `x4` and the output's at anything, runs
    to the continuation holding the inputs' as they were and the output's at `out2_5` of the inputs'. The body's one read
    of the output buffer comes before its store and is not used. -/
theorem sound_kernel2 (c : Dev nD) (E : Set ℕ) (i : grid2.Coords) (arg0 : Memref sig .tc .vmem S256x640 .f32) (harg0 : arg0.IsWhole) (arg1 : Memref sig .tc .vmem S640x256 .f32) (harg1 : arg1.IsWhole) (arg2 : Memref sig .tc .vmem S1x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S256x128 .f32) (harg5 : arg5.IsWhole)
    (x0 : Vec F S256x640 .f32) (x1 : Vec F S640x256 .f32) (x2 : Vec F S1x256 .f32) (x3 : Vec F S256x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__mlp_body i arg0 harg0 arg1 harg1 arg2 harg2 arg3 harg3 arg4 harg4 arg5 harg5) K := by
  simp only [cc2__mlp_body_eq_skeleton]; unfold cc2__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region on core `c`: the arrays as the region finds them (`V`); after the body at point `t`
    each input's buffer at its block and the output's at `out2_5` of the input blocks; the invariant the scoped rest
    and the generator register, untouched; nothing owed; the arrays' shares `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q := q
  owed _ := 0

/-- The proof data's arrays are the region-entry contents. -/
theorem A_eq2 (q : Fin cfg2.W → PosShare TreeShare) (c : Dev nD) (w : Fin cfg2.W) : (dat2 V q c).A w = V c (Pipeline.arrRef spec2 w) := by
  dsimp only [dat2]

/-- What the body leaves, window by window. -/
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = iblk2 V c 2 t := by dsimp only [dat2]
theorem after2_3 (q : Fin cfg2.W → PosShare TreeShare) (c : Dev nD) (t : Fin cfg2.N) : (dat2 V q c).after 3 t = iblk2 V c 3 t := by dsimp only [dat2]
theorem after2_4 (q : Fin cfg2.W → PosShare TreeShare) (c : Dev nD) (t : Fin cfg2.N) : (dat2 V q c).after 4 t = iblk2 V c 4 t := by dsimp only [dat2]
theorem after2_5 (q : Fin cfg2.W → PosShare TreeShare) (c : Dev nD) (t : Fin cfg2.N) :
    (dat2 V q c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d
theorem before2_2 (q : Fin cfg2.W → PosShare TreeShare) (c : Dev nD) (t : Fin cfg2.N) (d) : (dat2 V q c).before 2 t d = iblk2 V c 2 t :=
  before2_2_of V (dat2 V q c) (A_eq2 V q c 2) (after2_2 V q c) t d
theorem before2_3 (q : Fin cfg2.W → PosShare TreeShare) (c : Dev nD) (t : Fin cfg2.N) (d) : (dat2 V q c).before 3 t d = iblk2 V c 3 t :=
  before2_3_of V (dat2 V q c) (A_eq2 V q c 3) (after2_3 V q c) t d
theorem before2_4 (q : Fin cfg2.W → PosShare TreeShare) (c : Dev nD) (t : Fin cfg2.N) (d) : (dat2 V q c).before 4 t d = iblk2 V c 4 t :=
  before2_4_of V (dat2 V q c) (A_eq2 V q c 4) (after2_4 V q c) t d

/-! ## The body obligation, at a generic point -/

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t))

/-- The body at any point: the inputs' memrefs hold their blocks, so `sound_kernel2` applies; the invariant and
    the core's `owes` pass through unread. -/
theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (q : Fin cfg2.W → PosShare TreeShare) (c : Dev nD) :
    BodyObligation (dat2 (F := F) V q c) (defs₀ (F := F)) Variants.none () Set.univ := fun t => by
  rw [bigSep_W2, bigSep_W2]
  exact sound_body2 V q c t

end Regions

end Cert.Kernel.Hand

end
-- ==== Proof.K.Run.lean ====
/-
  The kernel's program run from the launch to the return, its result named. The three regions' proof data sit at the
  buffers' contents when each region is entered: the launch memory folded through the host stretches, each earlier
  region's output array at the fold of that region's write-backs. The thread state between two items is "every unscoped
  buffer whole at the boundary's contents, the generator register at some state, nothing owed".
-/
import proofs.«125140_g2000505823476311_pallasbulk_1268_6_alg».proof.Proof.K.Reg0
import proofs.«125140_g2000505823476311_pallasbulk_1268_6_alg».proof.Proof.K.Reg1
import proofs.«125140_g2000505823476311_pallasbulk_1268_6_alg».proof.Proof.K.Region2
import proofs.«125140_g2000505823476311_pallasbulk_1268_6_alg».proof.Proof.K.RunCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev Vr (W : Dev nD → Valuation τ sig (Elt F)) : (c : Dev nD) → (b : Ref sig .tc) → Buf (Elt F) ((c : Thread nD τ).loc b) :=
  fun c b => W c b

/-! ## What the regions leave, region by region -/

/-- Region 0's output array after the region: the fold of its write-backs. -/
def o3 (c : Dev nD) : Buf (Elt F) ((c : Thread nD τ).loc main_v6) := (dat0 (Vr (V2 m)) q01 c).arrAt 3 cfg0.N
/-- The regions' leavings with region 0's known. -/
def outs3 : Outs (F := F) := fun _ r c => if h : r = main_v6 then h ▸ o3 m c else m ((c : Thread nD τ).loc r)
/-- Region 1's output array after the region. -/
def o6 (c : Dev nD) : Buf (Elt F) ((c : Thread nD τ).loc main_v13) := (dat1 (Vr (V5 m (outs3 m))) q01 c).arrAt 3 cfg1.N
/-- The regions' leavings with regions 0 and 1's known. -/
def outs6 : Outs (F := F) := fun J r c => if h : r = main_v13 then h ▸ o6 m c else outs3 m J r c
/-- Region 2's output array after the region. -/
def o13 (c : Dev nD) : Buf (Elt F) ((c : Thread nD τ).loc main_v26) :=
  (dat2 (Vr (V12 m (outs6 m))) (fun _ => fullShare) c).arrAt 5 cfg2.N
/-- What the three regions leave in their output arrays. -/
def outs : Outs (F := F) := fun J r c => if h : r = main_v26 then h ▸ o13 m c else outs6 m J r c

theorem outs_v6 (J : ℕ) (c : Dev nD) : outs m J main_v6 c = o3 m c := by
  unfold outs outs6 outs3; rw [dif_neg (by decide), dif_neg (by decide), dif_pos rfl]
theorem outs6_v6 (J : ℕ) (c : Dev nD) : outs6 m J main_v6 c = o3 m c := by
  unfold outs6 outs3; rw [dif_neg (by decide), dif_pos rfl]
theorem outs3_v6 (J : ℕ) (c : Dev nD) : outs3 m J main_v6 c = o3 m c := by
  unfold outs3; rw [dif_pos rfl]
theorem outs_v13 (J : ℕ) (c : Dev nD) : outs m J main_v13 c = o6 m c := by
  unfold outs outs6; rw [dif_neg (by decide), dif_pos rfl]
theorem outs6_v13 (J : ℕ) (c : Dev nD) : outs6 m J main_v13 c = o6 m c := by
  unfold outs6; rw [dif_pos rfl]
theorem outs_v26 (J : ℕ) (c : Dev nD) : outs m J main_v26 c = o13 m c := by
  unfold outs; rw [dif_pos rfl]

/-- The valuations up to region 1's entry read only region 0's leavings. -/
theorem V5_outs (c : Dev nD) : V5 m (outs m) c = V5 m (outs3 m) c := by
  show StableHlo.after hostOps1_1 (StableHlo.after hostOps1 (Function.update (V2 m c) main_v6 (outs m 3 main_v6 c)))
    = StableHlo.after hostOps1_1 (StableHlo.after hostOps1 (Function.update (V2 m c) main_v6 (outs3 m 3 main_v6 c)))
  rw [outs_v6, outs3_v6]

/-- The valuations up to region 2's entry read only regions 0 and 1's leavings. -/
theorem V12_outs (c : Dev nD) : V12 m (outs m) c = V12 m (outs6 m) c := by
  show StableHlo.after hostOps2_5 (StableHlo.after hostOps2_4 (StableHlo.after hostOps2_3 (StableHlo.after hostOps2_2 (StableHlo.after hostOps2_1 (StableHlo.after hostOps2
      (Function.update (StableHlo.after hostOps1_1 (StableHlo.after hostOps1 (Function.update (V2 m c) main_v6 (outs m 3 main_v6 c)))) main_v13 (outs m 6 main_v13 c)))))))
    = StableHlo.after hostOps2_5 (StableHlo.after hostOps2_4 (StableHlo.after hostOps2_3 (StableHlo.after hostOps2_2 (StableHlo.after hostOps2_1 (StableHlo.after hostOps2
      (Function.update (StableHlo.after hostOps1_1 (StableHlo.after hostOps1 (Function.update (V2 m c) main_v6 (outs6 m 3 main_v6 c)))) main_v13 (outs6 m 6 main_v13 c)))))))
  rw [outs_v6, outs6_v6, outs_v13, outs6_v13]

/-! ## The proof data family and the thread state -/

/-- Every region's proof data at its entry contents — a literal match on the region. -/
def pdats : (p : Fin 3) → (c : Dev nD) → Dat τ (Elt F) Unit ℕ (UR sig nD τ) ℕ (cfgs p) c
  | ⟨0, _⟩ => fun c => dat0 (Vr (V2 m)) q01 c
  | ⟨1, _⟩ => fun c => dat1 (Vr (V5 m (outs3 m))) q01 c
  | ⟨2, _⟩ => fun c => dat2 (Vr (V12 m (outs6 m))) (fun _ => fullShare) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 as a segment: entered from every unscoped buffer at `V2 m`, left at `V3 m (outs m)`; its arrays split out of
    the unscoped buffers and put back at the exit contents, the generator register into the body's invariant and out,
    nothing owed, no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr (V2 m)) q01 c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr (V2 m) c)
  hentry c := by
    rw [Pipeline.ownSems0_none]
    have hsplit : (unscopedBufs c (Vr (V2 m) c) : sProp 𝕄) ⊢ iprop((pdats m 0 c).arrays ((pdats m 0 c).arrAt · 0) ∗ Pipeline.unscopedRest spec0 c (Vr (V2 m) c)) :=
      entry0 (Vr (V2 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Vr (V2 m) c)) ⊢ (unscopedBufs c (Vr (V3 m (outs m)) c) : sProp 𝕄) :=
      exit0 (Vr (V2 m)) c (Vr (V3 m (outs m)) c) (by show Function.update (V2 m c) main_v6 (outs m 3 main_v6 c) main_v6 = _; rw [Function.update_self, outs_v6]; rfl) (fun b hb => V3_of m (outs m) c b (by simpa using hb))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `V5 m (outs3 m)`, left at `V6 m (outs m)`; its arrays split out of
    the unscoped buffers and put back at the exit contents, the generator register into the body's invariant and out,
    nothing owed, no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr (V5 m (outs3 m))) q01 c).loose
  hwaits := Pipeline.hwaits_of_owed_zero _ _ _ _ L lv 1 fun _ _ => rfl
  pre c := iprop(StableHlo.held (c : Thread nD τ) (Pipeline.ucRefs τ sig) (V5 m (outs3 m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr (V5 m (outs3 m)) c)
  hentry c := by
    rw [Pipeline.ownSems0_none]
    have hsplit : (unscopedBufs c (Vr (V5 m (outs3 m)) c) : sProp 𝕄) ⊢ iprop((pdats m 1 c).arrays ((pdats m 1 c).arrAt · 0) ∗ Pipeline.unscopedRest spec1 c (Vr (V5 m (outs3 m)) c)) :=
      entry1 (Vr (V5 m (outs3 m))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vr (V5 m (outs3 m)) c)) ⊢ (unscopedBufs c (Vr (V6 m (outs m)) c) : sProp 𝕄) :=
      exit1 (Vr (V5 m (outs3 m))) c (Vr (V6 m (outs m)) c) (by show Function.update (V5 m (outs m) c) main_v13 (outs m 6 main_v13 c) main_v13 = _; rw [Function.update_self, outs_v13]; rfl) (fun b hb => by show V6 m (outs m) c b = V5 m (outs3 m) c b; rw [← V5_outs]; exact V6_of m (outs m) c b (by simpa using hb))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays at its exit: the inputs' as entered, the output's at the fold of the write-backs. -/
theorem hF2 (c : Dev nD) (w : Fin cfg2.W) :
    (pdats m 2 c).arrAt w cfg2.N = Vr (V13 m (outs m)) c (Pipeline.arrRef spec2 w) := by
  have hin : ∀ (w : Fin cfg2.W) (hw : (cfg2.win w).isOut = false) (hne : Pipeline.arrRef spec2 w ∉ ([main_v26] : List (Ref sig .tc))),
      (pdats m 2 c).arrAt w cfg2.N = Vr (V13 m (outs m)) c (Pipeline.arrRef spec2 w) := fun w hw hne => by
    rw [(pdats m 2 c).arrAt_in w hw]
    show (dat2 (Vr (V12 m (outs6 m))) (fun _ => fullShare) c).A w = _
    rw [A_eq2]
    show V12 m (outs6 m) c (Pipeline.arrRef spec2 w) = V13 m (outs m) c (Pipeline.arrRef spec2 w)
    rw [V13_of m (outs m) c _ hne, V12_outs]
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    show _ = Function.update (V12 m (outs m) c) main_v26 (outs m 13 main_v26 c) main_v26
    rw [Function.update_self, outs_v26]; rfl

/-- Every buffer that is no array of region 2 is at its exit what it was at its entry. -/
theorem hrest2 (c : Dev nD) : ∀ b, b ∉ Finset.univ.image (Pipeline.arrRef spec2) → Vr (V13 m (outs m)) c b = Vr (V12 m (outs6 m)) c b :=
  fun b hb => by
    show V13 m (outs m) c b = V12 m (outs6 m) c b
    rw [← V12_outs]
    exact V13_of m (outs m) c b fun h => hb (by
      have : b = main_v26 := by simpa using h
      rw [this]; decide)

set_option backward.isDefEq.respectTransparency.types false in
/-- Region 2 as a segment: entered from every unscoped buffer at `V12 m (outs6 m)`, left at `V13 m (outs m)`; its arrays split out of
    the unscoped buffers and put back at the exit contents, the generator register into the body's invariant and out,
    nothing owed, no semaphore of the kernel's own. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (Vr (V12 m (outs6 m))) (fun _ => fullShare) c).loose
  hwaits := Pipeline.hwaits_of_owed_zero _ _ _ _ L lv 2 fun _ _ => rfl
  pre c := iprop(StableHlo.held (c : Thread nD τ) (Pipeline.ucRefs τ sig) (V12 m (outs6 m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vr (V12 m (outs6 m)) c)
  hentry c := by
    rw [Pipeline.ownSems0_none]
    have hsplit : (unscopedBufs c (Vr (V12 m (outs6 m)) c) : sProp 𝕄) ⊢ iprop((pdats m 2 c).arrays ((pdats m 2 c).arrAt · 0) ∗ Pipeline.unscopedRest spec2 c (Vr (V12 m (outs6 m)) c)) :=
      (by have h := Pipeline.arrays_of_unscopedBufs (p := 2) (pcfgs (F := F)) adm (pdats m) launch2.win launch2.arr_whole c ((pdats m 2 c).share_full fun _ => rfl) (Vr (V12 m (outs6 m)) c) fun _ => rfl; exact h)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (Vr (V12 m (outs6 m)) c)) ⊢ (unscopedBufs c (Vr (V13 m (outs m)) c) : sProp 𝕄) :=
      Pipeline.unscopedBufs_of_arrays (p := 2) (pcfgs (F := F)) adm (Ix := Unit) (Name := ℕ) (U := UR sig nD τ) (Lvl := ℕ) launch2.win launch2.arr_whole c (pdats m) ((pdats m 2 c).share_full fun _ => rfl) (Vr (V12 m (outs6 m)) c) (Vr (V13 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, the result buffer ends at the last
    valuation's value — the launch memory folded through the host stretches and the three regions' write-backs — and the
    argument arrays end as launched. -/
theorem run (ρ : Dev nD → PrngReg) :
    θ_run defs (onTc (τ := τ) (main (F := F))) ⟨m, fun _ => 0, ρ⟩ (fun r => ∀ c : Dev nD,
      r.2.mem ((c.tc : Thread nD τ).loc main_v27) = V14 m (outs m) c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V5_outs]; exact .rfl) (fun c => .rfl)
    (reg2 m) (fun c => by rw [V12_outs]; exact .rfl) (fun c => .rfl)

end Cert.Kernel.Hand

end
-- ==== Proof.KI.Region0.lean ====
/-
  Region 0 of the kernel's program: the first KAN convolution. At each of the 784 grid points the body reads a block of
  8192 flattened pixels and the 128 pixels that follow it (two windows on ONE padded pixel array), the 5×81 weight matrix,
  and writes the 5×8192 block of ReLU'd convolution outputs. Stated at a parameter `V`: the buffers' contents when the
  region is entered.
-/
import proofs.«125140_g2000505823476311_pallasbulk_1268_6_alg».proof.Proof.Gen.KernelIdeal.Launch
import proofs.«125140_g2000505823476311_pallasbulk_1268_6_alg».proof.Proof.Gen.KernelIdeal.Skeleton
import proofs.«125140_g2000505823476311_pallasbulk_1268_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved.
    The windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer read or written whole -/

abbrev r0_0 : Rect S1x8192 := Rect.unit (s := S1x8192) ![0, 0] S1x8192.size inb_S1x8192_S1x8192_0_0
abbrev r0_1 : Rect S1x128 := Rect.unit (s := S1x128) ![0, 0] S1x128.size inb_S1x128_S1x128_0_0
abbrev r0_2 : Rect S5x81 := Rect.unit (s := S5x81) ![0, 0] S5x81.size inb_S5x81_S5x81_0_0
abbrev r0_3 : Rect S5x8192 := Rect.unit (s := S5x8192) ![0, 0] S5x8192.size inb_S5x8192_S5x8192_0_0

/-! ## What the body leaves in the output window's buffer -/

/-- The 5×8192 block the body computes from the pixel block `x0`, the 128 pixels after it `x1` and the weights `x2`:
    the composition of the skeleton's payloads along the body's parts.  -/
def conv0_block (x0 : Vec F S1x8192 .f32) (x1 : Vec F S1x128 .f32) (x2 : Vec F S5x81 .f32) : FVec F S5x8192 .f32 :=
  -- the three loads
  let v0 : Vec F S1x8192 .f32 := View.ld x0 r0_0
  let v2 : Vec F S1x128 .f32 := View.ld x1 r0_1
  let v288 : Vec F S5x81 .f32 := View.ld x2 r0_2
  -- part 1: the 8320 pixels as 65×128, and the knot indicators
  let v5 := k0_pay2 v0 v2
  let v9 := k0_pay3 v0 v2
  let v13 := k0_pay4 v0 v2
  let v17 := k0_pay5 v0 v2
  let v21 := k0_pay6 v0 v2
  let v25 := k0_pay7 v0 v2
  let v29 := k0_pay8 v0 v2
  let v33 := k0_pay9 v0 v2
  let v37 := k0_pay10 v0 v2
  let v41 := k0_pay11 v0 v2
  let v44 := k0_pay12 v0 v2
  -- part 2
  let v58 := k0_pay18 v25 v29
  let v59 := k0_pay19 v29 v33
  let v60 := k0_pay20 v33 v37
  let v61 := k0_pay21 v37 v41
  let v62 := k0_pay22 v41 v44
  let v63 := k0_pay23 v5 v44
  let v64 := k0_pay24 v5
  let v66 := k0_pay25 v5
  let v75 := k0_pay27 v5 v9 v13 v17
  let v82 := k0_pay29 v5 v13 v17 v21
  let v89 := k0_pay31 v5 v17 v21 v25
  let v91 := k0_pay32 v5
  let v92 := k0_pay33 v5 v21 v25
  let cst_23 : F .f32 := Scalar.ofBits .f32 0x3F800000#32
  -- part 3
  let v96 := k0_pay34 v58 v91 v92 cst_23
  let v103 := k0_pay36 v58 v59 v66 v91
  let v110 := k0_pay38 v59 v60 v66
  let v117 := k0_pay40 v60 v61 v66
  let v124 := k0_pay42 v61 v62 v66
  let v131 := k0_pay44 v62 v63 v66
  let v138 := k0_pay45 v63 v64 v66
  let v139 : FVec F S65x128 .f32 := k0_pay46
  -- part 4
  let v140 := k0_pay47 v5 v139
  let v149 := k0_pay49 v5 v75 v82 v139
  let v156 := k0_pay51 v5 v82 v89 v139
  let v163 := k0_pay53 v5 v89 v96 v139
  let v170 := k0_pay55 v5 v96 v103 v139
  let v177 := k0_pay57 v5 v103 v110 v139
  let v179 := k0_pay58 v5 v139
  let v184 := k0_pay59 v5 v110 v117 v139
  let v185 : FVec F S65x128 .f32 := k0_pay60
  -- part 5
  let v191 := k0_pay62 v117 v124 v140 v179 v185
  let v198 := k0_pay64 v124 v131 v140 v185
  let v205 := k0_pay65 v131 v138 v140
  let v207 := k0_pay66 v5
  let v216 := k0_pay68 v5 v149 v156
  let v223 := k0_pay70 v5 v156 v163
  let v225 := k0_pay71 v5
  let v230 := k0_pay72 v5 v163 v170
  let v231 : FVec F S65x128 .f32 := k0_pay73
  -- part 6: the nine spline features as 9×8320 and five of its shifted 9×8192 slices
  let v277 := k0_pay74 v5 v170 v177 v184 v191 v198 v205 v207 v216 v223 v225 v230 v231
  let v278 := k0_pay75 v5 v170 v177 v184 v191 v198 v205 v207 v216 v223 v225 v230 v231
  let v279 := k0_pay76 v5 v170 v177 v184 v191 v198 v205 v207 v216 v223 v225 v230 v231
  let v280 := k0_pay77 v5 v170 v177 v184 v191 v198 v205 v207 v216 v223 v225 v230 v231
  let v281 := k0_pay78 v5 v170 v177 v184 v191 v198 v205 v207 v216 v223 v225 v230 v231
  let v282 := k0_pay79 v5 v170 v177 v184 v191 v198 v205 v207 v216 v223 v225 v230 v231
  -- the remaining four slices, the 81×8192 patch matrix, the 5×81 by 81×8192 product and the ReLU
  k0_pay1 v277 v278 v279 v280 v281 v282 v288

/-- The output window's staging buffer after the body: its one whole-block store. -/
def out0_3 (x0 : Vec F S1x8192 .f32) (x1 : Vec F S1x128 .f32) (x2 : Vec F S5x81 .f32) : Vec F S5x8192 .f32 :=
  View.canon [⟨r0_3, conv0_block x0 x1 x2⟩]

theorem out0_3_eq (x0 : Vec F S1x8192 .f32) (x1 : Vec F S1x128 .f32) (x2 : Vec F S5x81 .f32) :
    out0_3 x0 x1 x2 = View.canon [⟨r0_3, conv0_block x0 x1 x2⟩] := rfl

/-- The store is of the whole buffer, so it covers it. -/
theorem cover0_3 (p0 : Vec F S5x8192 .f32) (y : S5x8192.Idx) :
    ∃ pc ∈ ([⟨r0_3, p0⟩] : List (View.Piece (Elt F) S5x8192 .f32)), y ∈ pc.1.set :=
  View.cover_of_tiled [⟨r0_3, p0⟩] S5x8192.size (by rfl) y

/-! ## The body's triple -/

set_option maxHeartbeats 1000000 in
/-- The kernel body on whole staging memrefs, the inputs' at read contents `x0`, `x1`, `x2` and the output's at
    anything, runs to the continuation holding the inputs' as they were and the output's at `out0_3` of the inputs'.
    The body's one read of the output buffer comes before its store and is not used. -/
theorem sound_kernel0 (c : Dev nD) (E : Set ℕ) (i : grid0.Coords) (arg0 : Memref sig .tc .vmem S1x8192 .f32) (harg0 : arg0.IsWhole) (arg1 : Memref sig .tc .vmem S1x128 .f32) (harg1 : arg1.IsWhole)
    (arg2 : Memref sig .tc .vmem S5x81 .f32) (harg2 : arg2.IsWhole) (arg3 : Memref sig .tc .vmem S5x8192 .f32) (harg3 : arg3.IsWhole)
    (x0 : Vec F S1x8192 .f32) (x1 : Vec F S1x128 .f32) (x2 : Vec F S5x81 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0_body i arg0 harg0 arg1 harg1 arg2 harg2 arg3 harg3) K := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them (`V`); after the body at point `t`
    each input's buffer at its block and the output's at `out0_3` of the input blocks; the invariant the scoped rest
    and the generator register, untouched; nothing owed; the arrays' shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

/-- The proof data's arrays are the region-entry contents. -/
theorem A_eq0 (q : Fin cfg0.W → PosShare TreeShare) (c : Dev nD) (w : Fin cfg0.W) : (dat0 V q c).A w = V c (Pipeline.arrRef spec0 w) := by
  dsimp only [dat0]

/-- What the body leaves, window by window. -/
theorem after0_0 (q : Fin cfg0.W → PosShare TreeShare) (c : Dev nD) (t : Fin cfg0.N) : (dat0 V q c).after 0 t = iblk0 V c 0 t := by dsimp only [dat0]
theorem after0_1 (q : Fin cfg0.W → PosShare TreeShare) (c : Dev nD) (t : Fin cfg0.N) : (dat0 V q c).after 1 t = iblk0 V c 1 t := by dsimp only [dat0]
theorem after0_2 (q : Fin cfg0.W → PosShare TreeShare) (c : Dev nD) (t : Fin cfg0.N) : (dat0 V q c).after 2 t = iblk0 V c 2 t := by dsimp only [dat0]
theorem after0_3 (q : Fin cfg0.W → PosShare TreeShare) (c : Dev nD) (t : Fin cfg0.N) :
    (dat0 V q c).after 3 t = out0_3 (iblk0 V c 0 t) (iblk0 V c 1 t) (iblk0 V c 2 t) := by dsimp only [dat0]

/-- Each input's current staging buffer holds its block at every point, fetched there or not. -/
theorem before0_0 (q : Fin cfg0.W → PosShare TreeShare) (c : Dev nD) (t : Fin cfg0.N) (d) : (dat0 V q c).before 0 t d = iblk0 V c 0 t :=
  before0_0_of V (dat0 V q c) (A_eq0 V q c 0) (after0_0 V q c) t d
theorem before0_1 (q : Fin cfg0.W → PosShare TreeShare) (c : Dev nD) (t : Fin cfg0.N) (d) : (dat0 V q c).before 1 t d = iblk0 V c 1 t :=
  before0_1_of V (dat0 V q c) (A_eq0 V q c 1) (after0_1 V q c) t d
theorem before0_2 (q : Fin cfg0.W → PosShare TreeShare) (c : Dev nD) (t : Fin cfg0.N) (d) : (dat0 V q c).before 2 t d = iblk0 V c 2 t :=
  before0_2_of V (dat0 V q c) (A_eq0 V q c 2) (after0_2 V q c) t d

/-! ## The body obligation, at a generic point -/

/-- What the body is called with at point `t`, the windows one by one, -/
def bodyPre0 (q : Fin cfg0.W → PosShare TreeShare) (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (q : Fin cfg0.W → PosShare TreeShare) (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the inputs' memrefs hold their blocks, so `sound_kernel0` applies; the invariant and
    the core's `owes` pass through unread. -/
theorem sound_body0 (q : Fin cfg0.W → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (q : Fin cfg0.W → PosShare TreeShare) (c : Dev nD) :
    BodyObligation (dat0 (F := F) V q c) (defs₀ (F := F)) Variants.none () Set.univ := fun t => by
  rw [bigSep_W0, bigSep_W0]
  exact sound_body0 V q c t

end Regions

end Cert.KernelIdeal.Hand

end
-- ==== Proof.KI.RunCond.lean ====
/-
  The run of this program's @main with its RESULT named. @main is host stretches around three kernel regions; between two
  items every unscoped buffer of a core is held whole at a valuation: the launch memory folded through each host stretch,
  a region's output array replaced by what the region leaves. Given one segment record per region, entered from the state
  before it and left at the state after it, every weakly fair execution terminates, the result buffer ends at the last
  valuation's value and every argument array ends as launched.
-/
import proofs.«125140_g2000505823476311_pallasbulk_1268_6_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

set_option backward.isDefEq.respectTransparency.types false in
/-- The run with the result named. Given, per region, a segment record entered from the thread state before it and left at
    the one after it, every weakly fair execution of @main from memory `m` with zero counters terminates; the result buffer
    ends at the last valuation's value, and every argument array ends as launched. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V12 m outs c) ∗ E 2 c) ⊢ R2.pre c)
    (hpost2 : ∀ c : Dev nD, R2.post c ⊢ iprop(StableHlo.held (c : Thread nD τ) (Pipeline.ucRefs τ sig) (V13 m outs c) ∗ E 3 c)) :
    θ_run defs (onTc (τ := τ) (main (F := F))) ⟨m, fun _ => 0, ρ⟩ (fun r => ∀ c : Dev nD,
      r.2.mem ((c.tc : Thread nD τ).loc main_v27) = V14 m outs c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, .rfl, hpre0 c, hpost0 c, .rfl, hpre1 c, hpost1 c, .rfl, .rfl, .rfl, .rfl, .rfl, hpre2 c, hpost2 c, sep_mono .rfl (hE3 c)⟩)
    (hinit := ?_) (QY := fun c s => s.mem ((c.tc : Thread nD τ).loc main_v27) = V14 m outs c main_v27 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v27) (Finset.mem_filter.mpr ⟨StableHlo.devRef_mem_tcRefs main_v27, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c)⟩
    · iexact HSI

end Cert.KernelIdeal.Hand

end
-- ==== Proof.KI.Reg0.lean ====
/-
  Region 0 of the kernel's program as a segment of @main. Its first two windows read ONE array (the padded pixel row):
  the array's buffer is held whole before the region, split in two halves for the two windows while the region runs, and
  joined again after it (an input array is never written, so both halves still hold the entry contents). The output
  window's array ends at the fold of the region's write-backs.
-/
import proofs.«125140_g2000505823476311_pallasbulk_1268_6_alg».proof.Proof.KI.Region0
import proofs.«125140_g2000505823476311_pallasbulk_1268_6_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The shares of the region's windows: the two windows on the pixel array hold one half of it each. -/
def q01 : Fin 4 → PosShare TreeShare
  | ⟨0, _⟩ => fullShare.left
  | ⟨1, _⟩ => fullShare.right
  | _ => fullShare

section
variable (V : (c : Dev nD) → (b : Ref sig .tc) → Buf (Elt F) ((c : Thread nD τ).loc b))

/-- The buffers behind region 0's windows: the pixel array (twice), the weights, the output. -/
theorem arrSet0 : Finset.univ.image (Pipeline.arrRef spec0) = {main_v5, main_v1, main_v6} := by decide

/-- Region 0's arrays, window by window. -/
theorem arrays0_eq (c : Dev nD) (G : (w : Fin cfg0.W) → Buf (Elt F) ((cfg0.win w).arr.view.loc (c.tc : Thread nD τ))) :
    ((dat0 V q01 c).arrays G : sProp 𝕄)
      = iprop((((c.tc : Thread nD τ).loc main_v5) ↦{fullShare.left} G 0) ∗ (((c.tc : Thread nD τ).loc main_v5) ↦{fullShare.right} G 1)
          ∗ (((c.tc : Thread nD τ).loc main_v1) ↦{fullShare} G 2) ∗ (((c.tc : Thread nD τ).loc main_v6) ↦{fullShare} G 3)) := by
  unfold Dat.arrays
  rw [bigSep_W0, (arr_whole0 0).set_eq_univ, (arr_whole0 2).set_eq_univ, (arr_whole0 3).set_eq_univ]
  rfl

/-- ENTRY: the three buffers whole at the entry contents make the region's arrays, the pixel array split in halves. -/
theorem hsplit0 (c : Dev nD) :
    (Pipeline.arrBufs spec0 c (V c) : sProp 𝕄) ⊢ (dat0 V q01 c).arrays ((dat0 V q01 c).arrAt · 0) := by
  rw [arrays0_eq]
  unfold Pipeline.arrBufs
  rw [arrSet0, BI.bigSep_insert (by decide), BI.bigSep_insert (by decide), BI.bigSep_singleton]
  show (iprop((((c.tc : Thread nD τ).loc main_v5) ↦{fullShare} V c main_v5) ∗ (((c.tc : Thread nD τ).loc main_v1) ↦{fullShare} V c main_v1)
      ∗ (((c.tc : Thread nD τ).loc main_v6) ↦{fullShare} V c main_v6)) : sProp 𝕄) ⊢ _
  iintro ⟨H5, H1, H6⟩
  ihave H5' := (pointsTo_share (PosShare.mem_left_op_right fullShare)).1 $$ H5
  icases H5' with ⟨Hl, Hr⟩
  isplitl [Hl]; · iexact Hl
  isplitl [Hr]; · iexact Hr
  isplitl [H1]; · iexact H1
  iexact H6

/-- ENTRY: a core's unscoped buffers at the entry contents are the region's arrays (the pixel array in halves) and the rest. -/
theorem entry0 (c : Dev nD) :
    (unscopedBufs c (V c) : sProp 𝕄) ⊢ iprop((dat0 V q01 c).arrays ((dat0 V q01 c).arrAt · 0) ∗ Pipeline.unscopedRest spec0 c (V c)) := by
  rw [Pipeline.unscopedBufs_split₀ cfgs 0 (by decide) c (V c)]
  exact sep_mono (hsplit0 V c) .rfl

/-- EXIT: the region's arrays at their final contents and the rest make the core's unscoped buffers at contents `V'` that
    hold the output array at the fold of the write-backs and every other buffer as entered: the inputs' arrays are never
    written, so the two halves of the pixel array join at the entry contents. -/
theorem exit0 (c : Dev nD) (V' : (b : Ref sig .tc) → Buf (Elt F) ((c : Thread nD τ).loc b))
    (h6 : V' main_v6 = (dat0 V q01 c).arrAt 3 cfg0.N) (hrest : ∀ b : Ref sig .tc, b ≠ main_v6 → V' b = V c b) :
    iprop((dat0 V q01 c).arrays ((dat0 V q01 c).arrAt · cfg0.N) ∗ Pipeline.unscopedRest spec0 c (V c)) ⊢ (unscopedBufs c V' : sProp 𝕄) := by
  have e0 : (dat0 V q01 c).arrAt 0 cfg0.N = V c main_v5 := ((dat0 V q01 c).arrAt_in 0 rfl _).trans (A_eq0 V q01 c 0)
  have e1 : (dat0 V q01 c).arrAt 1 cfg0.N = V c main_v5 := ((dat0 V q01 c).arrAt_in 1 rfl _).trans (A_eq0 V q01 c 1)
  have e2 : (dat0 V q01 c).arrAt 2 cfg0.N = V c main_v1 := ((dat0 V q01 c).arrAt_in 2 rfl _).trans (A_eq0 V q01 c 2)
  have hr : (Pipeline.unscopedRest spec0 c V' : sProp 𝕄) = Pipeline.unscopedRest spec0 c (V c) := by
    unfold Pipeline.unscopedRest
    refine bigSep_congr fun b hb => ?_
    rw [hrest b fun e => (Finset.mem_sdiff.mp hb).2 (by rw [e, arrSet0]; decide)]
  have hs : (unscopedBufs c V' : sProp 𝕄) = iprop(Pipeline.arrBufs spec0 c V' ∗ Pipeline.unscopedRest spec0 c V') :=
    Pipeline.unscopedBufs_split₀ cfgs 0 (by decide) c V'
  rw [hs, hr, arrays0_eq, e0, e1, e2, ← h6]
  refine sep_mono ?_ .rfl
  unfold Pipeline.arrBufs
  rw [arrSet0, BI.bigSep_insert (by decide), BI.bigSep_insert (by decide), BI.bigSep_singleton,
    hrest main_v5 (by decide), hrest main_v1 (by decide)]
  show _ ⊢ (iprop((((c.tc : Thread nD τ).loc main_v5) ↦{fullShare} V c main_v5) ∗ (((c.tc : Thread nD τ).loc main_v1) ↦{fullShare} V c main_v1)
      ∗ (((c.tc : Thread nD τ).loc main_v6) ↦{fullShare} V' main_v6)) : sProp 𝕄)
  iintro ⟨Hl, Hr, H1, H6⟩
  isplitl [Hl Hr]
  · iapply (pointsTo_share (PosShare.mem_left_op_right fullShare)).2
    isplitl [Hl]; · iexact Hl
    iexact Hr
  isplitl [H1]; · iexact H1
  iexact H6

end

end Cert.KernelIdeal.Hand

end
-- ==== Proof.KI.Region1.lean ====
/-
  Region 1 of the kernel's program: the second KAN convolution. At each of the 845 grid points the body reads a block of
  8192 flattened pooled activations and the 128 that follow it (two windows on ONE padded array), the 5×81 weight matrix,
  and writes the 5×8192 block of ReLU'd convolution outputs. Stated at a parameter `V`: the buffers' contents when the
  region is entered.
-/
import proofs.«125140_g2000505823476311_pallasbulk_1268_6_alg».proof.Proof.Gen.KernelIdeal.Launch
import proofs.«125140_g2000505823476311_pallasbulk_1268_6_alg».proof.Proof.Gen.KernelIdeal.Skeleton
import proofs.«125140_g2000505823476311_pallasbulk_1268_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved.
    The windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer read or written whole -/

abbrev r1_0 : Rect S1x8192 := Rect.unit (s := S1x8192) ![0, 0] S1x8192.size inb_S1x8192_S1x8192_0_0
abbrev r1_1 : Rect S1x128 := Rect.unit (s := S1x128) ![0, 0] S1x128.size inb_S1x128_S1x128_0_0
abbrev r1_2 : Rect S5x81 := Rect.unit (s := S5x81) ![0, 0] S5x81.size inb_S5x81_S5x81_0_0
abbrev r1_3 : Rect S5x8192 := Rect.unit (s := S5x8192) ![0, 0] S5x8192.size inb_S5x8192_S5x8192_0_0

/-! ## What the body leaves in the output window's buffer -/

/-- The 5×8192 block the body computes from the pixel block `x0`, the 128 pixels after it `x1` and the weights `x2`:
    the composition of the skeleton's payloads along the body's parts.  -/
def conv1_block (x0 : Vec F S1x8192 .f32) (x1 : Vec F S1x128 .f32) (x2 : Vec F S5x81 .f32) : FVec F S5x8192 .f32 :=
  -- the three loads
  let v0 : Vec F S1x8192 .f32 := View.ld x0 r1_0
  let v2 : Vec F S1x128 .f32 := View.ld x1 r1_1
  let v288 : Vec F S5x81 .f32 := View.ld x2 r1_2
  -- part 1: the 8320 pixels as 65×128, and the knot indicators
  let v5 := k1_pay2 v0 v2
  let v9 := k1_pay3 v0 v2
  let v13 := k1_pay4 v0 v2
  let v17 := k1_pay5 v0 v2
  let v21 := k1_pay6 v0 v2
  let v25 := k1_pay7 v0 v2
  let v29 := k1_pay8 v0 v2
  let v33 := k1_pay9 v0 v2
  let v37 := k1_pay10 v0 v2
  let v41 := k1_pay11 v0 v2
  let v44 := k1_pay12 v0 v2
  -- part 2
  let v58 := k1_pay18 v25 v29
  let v59 := k1_pay19 v29 v33
  let v60 := k1_pay20 v33 v37
  let v61 := k1_pay21 v37 v41
  let v62 := k1_pay22 v41 v44
  let v63 := k1_pay23 v5 v44
  let v64 := k1_pay24 v5
  let v66 := k1_pay25 v5
  let v75 := k1_pay27 v5 v9 v13 v17
  let v82 := k1_pay29 v5 v13 v17 v21
  let v89 := k1_pay31 v5 v17 v21 v25
  let v91 := k1_pay32 v5
  let v92 := k1_pay33 v5 v21 v25
  let cst_23 : F .f32 := Scalar.ofBits .f32 0x3F800000#32
  -- part 3
  let v96 := k1_pay34 v58 v91 v92 cst_23
  let v103 := k1_pay36 v58 v59 v66 v91
  let v110 := k1_pay38 v59 v60 v66
  let v117 := k1_pay40 v60 v61 v66
  let v124 := k1_pay42 v61 v62 v66
  let v131 := k1_pay44 v62 v63 v66
  let v138 := k1_pay45 v63 v64 v66
  let v139 : FVec F S65x128 .f32 := k1_pay46
  -- part 4
  let v140 := k1_pay47 v5 v139
  let v149 := k1_pay49 v5 v75 v82 v139
  let v156 := k1_pay51 v5 v82 v89 v139
  let v163 := k1_pay53 v5 v89 v96 v139
  let v170 := k1_pay55 v5 v96 v103 v139
  let v177 := k1_pay57 v5 v103 v110 v139
  let v179 := k1_pay58 v5 v139
  let v184 := k1_pay59 v5 v110 v117 v139
  let v185 : FVec F S65x128 .f32 := k1_pay60
  -- part 5
  let v191 := k1_pay62 v117 v124 v140 v179 v185
  let v198 := k1_pay64 v124 v131 v140 v185
  let v205 := k1_pay65 v131 v138 v140
  let v207 := k1_pay66 v5
  let v216 := k1_pay68 v5 v149 v156
  let v223 := k1_pay70 v5 v156 v163
  let v225 := k1_pay71 v5
  let v230 := k1_pay72 v5 v163 v170
  let v231 : FVec F S65x128 .f32 := k1_pay73
  -- part 6: the nine spline features as 9×8320 and five of its shifted 9×8192 slices
  let v277 := k1_pay74 v5 v170 v177 v184 v191 v198 v205 v207 v216 v223 v225 v230 v231
  let v278 := k1_pay75 v5 v170 v177 v184 v191 v198 v205 v207 v216 v223 v225 v230 v231
  let v279 := k1_pay76 v5 v170 v177 v184 v191 v198 v205 v207 v216 v223 v225 v230 v231
  let v280 := k1_pay77 v5 v170 v177 v184 v191 v198 v205 v207 v216 v223 v225 v230 v231
  let v281 := k1_pay78 v5 v170 v177 v184 v191 v198 v205 v207 v216 v223 v225 v230 v231
  let v282 := k1_pay79 v5 v170 v177 v184 v191 v198 v205 v207 v216 v223 v225 v230 v231
  -- the remaining four slices, the 81×8192 patch matrix, the 5×81 by 81×8192 product and the ReLU
  k1_pay1 v277 v278 v279 v280 v281 v282 v288

/-- The output window's staging buffer after the body: its one whole-block store. -/
def out1_3 (x0 : Vec F S1x8192 .f32) (x1 : Vec F S1x128 .f32) (x2 : Vec F S5x81 .f32) : Vec F S5x8192 .f32 :=
  View.canon [⟨r1_3, conv1_block x0 x1 x2⟩]

theorem out1_3_eq (x0 : Vec F S1x8192 .f32) (x1 : Vec F S1x128 .f32) (x2 : Vec F S5x81 .f32) :
    out1_3 x0 x1 x2 = View.canon [⟨r1_3, conv1_block x0 x1 x2⟩] := rfl

/-- The store is of the whole buffer, so it covers it. -/
theorem cover1_3 (p0 : Vec F S5x8192 .f32) (y : S5x8192.Idx) :
    ∃ pc ∈ ([⟨r1_3, p0⟩] : List (View.Piece (Elt F) S5x8192 .f32)), y ∈ pc.1.set :=
  View.cover_of_tiled [⟨r1_3, p0⟩] S5x8192.size (by rfl) y

/-! ## The body's triple -/

set_option maxHeartbeats 1000000 in
/-- The kernel body on whole staging memrefs, the inputs' at read contents `x0`, `x1`, `x2` and the output's at
    anything, runs to the continuation holding the inputs' as they were and the output's at `out1_3` of the inputs'.
    The body's one read of the output buffer comes before its store and is not used. -/
theorem sound_kernel1 (c : Dev nD) (E : Set ℕ) (i : grid1.Coords) (arg0 : Memref sig .tc .vmem S1x8192 .f32) (harg0 : arg0.IsWhole) (arg1 : Memref sig .tc .vmem S1x128 .f32) (harg1 : arg1.IsWhole)
    (arg2 : Memref sig .tc .vmem S5x81 .f32) (harg2 : arg2.IsWhole) (arg3 : Memref sig .tc .vmem S5x8192 .f32) (harg3 : arg3.IsWhole)
    (x0 : Vec F S1x8192 .f32) (x1 : Vec F S1x128 .f32) (x2 : Vec F S5x81 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1_body i arg0 harg0 arg1 harg1 arg2 harg2 arg3 harg3) K := by
  simp only [cc1_body_eq_skeleton]; unfold cc1_body_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them (`V`); after the body at point `t`
    each input's buffer at its block and the output's at `out1_3` of the input blocks; the invariant the scoped rest
    and the generator register, untouched; nothing owed; the arrays' shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) :
    (dat1 V q c).after 3 t = out1_3 (iblk1 V c 0 t) (iblk1 V c 1 t) (iblk1 V c 2 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t))

/-- The body at any point: the inputs' memrefs hold their blocks, so `sound_kernel1` applies; the invariant and
    the core's `owes` pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).Φ t.succ = (dat1 V q c).Φ t.castSucc from rfl,
    show (dat1 V q c).owesAt () t.succ = (dat1 V q c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (q : Fin cfg1.W → PosShare TreeShare) (c : Dev nD) :
    BodyObligation (dat1 (F := F) V q c) (defs₀ (F := F)) Variants.none () Set.univ := fun t => by
  rw [bigSep_W1, bigSep_W1]
  exact sound_body1 V q c t

end Regions

end Cert.KernelIdeal.Hand

end
-- ==== Proof.KI.Reg1.lean ====
/-
  Region 1 of the kernel's program as a segment of @main. Its first two windows read ONE array (the padded row of pooled first-layer activations):
  the array's buffer is held whole before the region, split in two halves for the two windows while the region runs, and
  joined again after it (an input array is never written, so both halves still hold the entry contents). The output
  window's array ends at the fold of the region's write-backs.
-/
import proofs.«125140_g2000505823476311_pallasbulk_1268_6_alg».proof.Proof.KI.Region1
import proofs.«125140_g2000505823476311_pallasbulk_1268_6_alg».proof.Proof.KI.Reg0
import proofs.«125140_g2000505823476311_pallasbulk_1268_6_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The buffers behind region 1's windows: the activation array (twice), the weights, the output. -/
theorem arrSet1 : Finset.univ.image (Pipeline.arrRef spec1) = {main_v12, main_v3, main_v13} := by decide

/-- Region 1's arrays, window by window. -/
theorem arrays1_eq (c : Dev nD) (G : (w : Fin cfg1.W) → Buf (Elt F) ((cfg1.win w).arr.view.loc (c.tc : Thread nD τ))) :
    ((dat1 V q01 c).arrays G : sProp 𝕄)
      = iprop((((c.tc : Thread nD τ).loc main_v12) ↦{fullShare.left} G 0) ∗ (((c.tc : Thread nD τ).loc main_v12) ↦{fullShare.right} G 1)
          ∗ (((c.tc : Thread nD τ).loc main_v3) ↦{fullShare} G 2) ∗ (((c.tc : Thread nD τ).loc main_v13) ↦{fullShare} G 3)) := by
  unfold Dat.arrays
  rw [bigSep_W1, (arr_whole1 0).set_eq_univ, (arr_whole1 2).set_eq_univ, (arr_whole1 3).set_eq_univ]
  rfl

/-- ENTRY: the three buffers whole at the entry contents make the region's arrays, the activation array split in halves. -/
theorem hsplit1 (c : Dev nD) :
    (Pipeline.arrBufs spec1 c (V c) : sProp 𝕄) ⊢ (dat1 V q01 c).arrays ((dat1 V q01 c).arrAt · 0) := by
  rw [arrays1_eq]
  unfold Pipeline.arrBufs
  rw [arrSet1, BI.bigSep_insert (by decide), BI.bigSep_insert (by decide), BI.bigSep_singleton]
  show (iprop((((c.tc : Thread nD τ).loc main_v12) ↦{fullShare} V c main_v12) ∗ (((c.tc : Thread nD τ).loc main_v3) ↦{fullShare} V c main_v3)
      ∗ (((c.tc : Thread nD τ).loc main_v13) ↦{fullShare} V c main_v13)) : sProp 𝕄) ⊢ _
  iintro ⟨H5, H1, H6⟩
  ihave H5' := (pointsTo_share (PosShare.mem_left_op_right fullShare)).1 $$ H5
  icases H5' with ⟨Hl, Hr⟩
  isplitl [Hl]; · iexact Hl
  isplitl [Hr]; · iexact Hr
  isplitl [H1]; · iexact H1
  iexact H6

/-- ENTRY: a core's unscoped buffers at the entry contents are the region's arrays (the activation array in halves) and the rest. -/
theorem entry1 (c : Dev nD) :
    (unscopedBufs c (V c) : sProp 𝕄) ⊢ iprop((dat1 V q01 c).arrays ((dat1 V q01 c).arrAt · 0) ∗ Pipeline.unscopedRest spec1 c (V c)) := by
  rw [Pipeline.unscopedBufs_split₀ cfgs 1 (by decide) c (V c)]
  exact sep_mono (hsplit1 V c) .rfl

/-- EXIT: the region's arrays at their final contents and the rest make the core's unscoped buffers at contents `V'` that
    hold the output array at the fold of the write-backs and every other buffer as entered: the inputs' arrays are never
    written, so the two halves of the activation array join at the entry contents. -/
theorem exit1 (c : Dev nD) (V' : (b : Ref sig .tc) → Buf (Elt F) ((c : Thread nD τ).loc b))
    (h6 : V' main_v13 = (dat1 V q01 c).arrAt 3 cfg1.N) (hrest : ∀ b : Ref sig .tc, b ≠ main_v13 → V' b = V c b) :
    iprop((dat1 V q01 c).arrays ((dat1 V q01 c).arrAt · cfg1.N) ∗ Pipeline.unscopedRest spec1 c (V c)) ⊢ (unscopedBufs c V' : sProp 𝕄) := by
  have e0 : (dat1 V q01 c).arrAt 0 cfg1.N = V c main_v12 := ((dat1 V q01 c).arrAt_in 0 rfl _).trans (A_eq1 V q01 c 0)
  have e1 : (dat1 V q01 c).arrAt 1 cfg1.N = V c main_v12 := ((dat1 V q01 c).arrAt_in 1 rfl _).trans (A_eq1 V q01 c 1)
  have e2 : (dat1 V q01 c).arrAt 2 cfg1.N = V c main_v3 := ((dat1 V q01 c).arrAt_in 2 rfl _).trans (A_eq1 V q01 c 2)
  have hr : (Pipeline.unscopedRest spec1 c V' : sProp 𝕄) = Pipeline.unscopedRest spec1 c (V c) := by
    unfold Pipeline.unscopedRest
    refine bigSep_congr fun b hb => ?_
    rw [hrest b fun e => (Finset.mem_sdiff.mp hb).2 (by rw [e, arrSet1]; decide)]
  have hs : (unscopedBufs c V' : sProp 𝕄) = iprop(Pipeline.arrBufs spec1 c V' ∗ Pipeline.unscopedRest spec1 c V') :=
    Pipeline.unscopedBufs_split₀ cfgs 1 (by decide) c V'
  rw [hs, hr, arrays1_eq, e0, e1, e2, ← h6]
  refine sep_mono ?_ .rfl
  unfold Pipeline.arrBufs
  rw [arrSet1, BI.bigSep_insert (by decide), BI.bigSep_insert (by decide), BI.bigSep_singleton,
    hrest main_v12 (by decide), hrest main_v3 (by decide)]
  show _ ⊢ (iprop((((c.tc : Thread nD τ).loc main_v12) ↦{fullShare} V c main_v12) ∗ (((c.tc : Thread nD τ).loc main_v3) ↦{fullShare} V c main_v3)
      ∗ (((c.tc : Thread nD τ).loc main_v13) ↦{fullShare} V' main_v13)) : sProp 𝕄)
  iintro ⟨Hl, Hr, H1, H6⟩
  isplitl [Hl Hr]
  · iapply (pointsTo_share (PosShare.mem_left_op_right fullShare)).2
    isplitl [Hl]; · iexact Hl
    iexact Hr
  isplitl [H1]; · iexact H1
  iexact H6

end

end Cert.KernelIdeal.Hand

end
-- ==== Proof.KI.Region2.lean ====
/-
  Region 2 of the kernel's program: the MLP head. At each of the 32 grid points the body reads a block of 256 rows of the
  640-wide feature matrix, the two weight matrices and the two bias rows (fetched once), and writes the 256×128 block of
  log-softmax outputs over the first three lanes. Stated at a parameter `V`: the buffers' contents when the region is
  entered.
-/
import proofs.«125140_g2000505823476311_pallasbulk_1268_6_alg».proof.Proof.Gen.KernelIdeal.Launch
import proofs.«125140_g2000505823476311_pallasbulk_1268_6_alg».proof.Proof.Gen.KernelIdeal.Skeleton
import proofs.«125140_g2000505823476311_pallasbulk_1268_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: unfetched, the block index has not moved.
    The windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer read or written whole -/

abbrev r2_0 : Rect S256x640 := Rect.unit (s := S256x640) ![0, 0] S256x640.size inb_S256x640_S256x640_0_0
abbrev r2_1 : Rect S640x256 := Rect.unit (s := S640x256) ![0, 0] S640x256.size inb_S640x256_S640x256_0_0
abbrev r2_2 : Rect S1x256 := Rect.unit (s := S1x256) ![0, 0] S1x256.size inb_S1x256_S1x256_0_0
abbrev r2_3 : Rect S256x128 := Rect.unit (s := S256x128) ![0, 0] S256x128.size inb_S256x128_S256x128_0_0
abbrev r2_4 : Rect S1x128 := Rect.unit (s := S1x128) ![0, 0] S1x128.size inb_S1x128_S1x128_0_0
abbrev r2_5 : Rect S256x128 := Rect.unit (s := S256x128) ![0, 0] S256x128.size inb_S256x128_S256x128_0_0

/-! ## What the body leaves in the output window's buffer -/

/-- The output window's staging buffer after the body, from the input windows' blocks: its one whole-block store, of the
    skeleton's payload (two matrix products with bias, a ReLU between them, and the masked log-softmax). -/
def out2_5 (x0 : Vec F S256x640 .f32) (x1 : Vec F S640x256 .f32) (x2 : Vec F S1x256 .f32) (x3 : Vec F S256x128 .f32) (x4 : Vec F S1x128 .f32) : Vec F S256x128 .f32 :=
  View.canon [⟨r2_5, k2_pay1 (View.ld x0 r2_0) (View.ld x1 r2_1) (View.ld x2 r2_2) (View.ld x3 r2_3) (View.ld x4 r2_4)⟩]

theorem out2_5_eq (x0 : Vec F S256x640 .f32) (x1 : Vec F S640x256 .f32) (x2 : Vec F S1x256 .f32) (x3 : Vec F S256x128 .f32) (x4 : Vec F S1x128 .f32) :
    out2_5 x0 x1 x2 x3 x4 = View.canon [⟨r2_5, k2_pay1 (View.ld x0 r2_0) (View.ld x1 r2_1) (View.ld x2 r2_2) (View.ld x3 r2_3) (View.ld x4 r2_4)⟩] := rfl

/-- The store is of the whole buffer, so it covers it. -/
theorem cover2_5 (p0 : Vec F S256x128 .f32) (y : S256x128.Idx) :
    ∃ pc ∈ ([⟨r2_5, p0⟩] : List (View.Piece (Elt F) S256x128 .f32)), y ∈ pc.1.set :=
  View.cover_of_tiled [⟨r2_5, p0⟩] S256x128.size (by rfl) y

/-! ## The body's triple -/

set_option maxHeartbeats 1000000 in
/-- The kernel body on whole staging memrefs, the inputs' at read contents `x0` … `x4` and the output's at anything, runs
    to the continuation holding the inputs' as they were and the output's at `out2_5` of the inputs'. The body's one read
    of the output buffer comes before its store and is not used. -/
theorem sound_kernel2 (c : Dev nD) (E : Set ℕ) (i : grid2.Coords) (arg0 : Memref sig .tc .vmem S256x640 .f32) (harg0 : arg0.IsWhole) (arg1 : Memref sig .tc .vmem S640x256 .f32) (harg1 : arg1.IsWhole) (arg2 : Memref sig .tc .vmem S1x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S256x128 .f32) (harg5 : arg5.IsWhole)
    (x0 : Vec F S256x640 .f32) (x1 : Vec F S640x256 .f32) (x2 : Vec F S1x256 .f32) (x3 : Vec F S256x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__mlp_body i arg0 harg0 arg1 harg1 arg2 harg2 arg3 harg3 arg4 harg4 arg5 harg5) K := by
  simp only [cc2__mlp_body_eq_skeleton]; unfold cc2__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region on core `c`: the arrays as the region finds them (`V`); after the body at point `t`
    each input's buffer at its block and the output's at `out2_5` of the input blocks; the invariant the scoped rest
    and the generator register, untouched; nothing owed; the arrays' shares `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q := q
  owed _ := 0

/-- The proof data's arrays are the region-entry contents. -/
theorem A_eq2 (q : Fin cfg2.W → PosShare TreeShare) (c : Dev nD) (w : Fin cfg2.W) : (dat2 V q c).A w = V c (Pipeline.arrRef spec2 w) := by
  dsimp only [dat2]

/-- What the body leaves, window by window. -/
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = iblk2 V c 2 t := by dsimp only [dat2]
theorem after2_3 (q : Fin cfg2.W → PosShare TreeShare) (c : Dev nD) (t : Fin cfg2.N) : (dat2 V q c).after 3 t = iblk2 V c 3 t := by dsimp only [dat2]
theorem after2_4 (q : Fin cfg2.W → PosShare TreeShare) (c : Dev nD) (t : Fin cfg2.N) : (dat2 V q c).after 4 t = iblk2 V c 4 t := by dsimp only [dat2]
theorem after2_5 (q : Fin cfg2.W → PosShare TreeShare) (c : Dev nD) (t : Fin cfg2.N) :
    (dat2 V q c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d
theorem before2_2 (q : Fin cfg2.W → PosShare TreeShare) (c : Dev nD) (t : Fin cfg2.N) (d) : (dat2 V q c).before 2 t d = iblk2 V c 2 t :=
  before2_2_of V (dat2 V q c) (A_eq2 V q c 2) (after2_2 V q c) t d
theorem before2_3 (q : Fin cfg2.W → PosShare TreeShare) (c : Dev nD) (t : Fin cfg2.N) (d) : (dat2 V q c).before 3 t d = iblk2 V c 3 t :=
  before2_3_of V (dat2 V q c) (A_eq2 V q c 3) (after2_3 V q c) t d
theorem before2_4 (q : Fin cfg2.W → PosShare TreeShare) (c : Dev nD) (t : Fin cfg2.N) (d) : (dat2 V q c).before 4 t d = iblk2 V c 4 t :=
  before2_4_of V (dat2 V q c) (A_eq2 V q c 4) (after2_4 V q c) t d

/-! ## The body obligation, at a generic point -/

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t))

/-- The body at any point: the inputs' memrefs hold their blocks, so `sound_kernel2` applies; the invariant and
    the core's `owes` pass through unread. -/
theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (q : Fin cfg2.W → PosShare TreeShare) (c : Dev nD) :
    BodyObligation (dat2 (F := F) V q c) (defs₀ (F := F)) Variants.none () Set.univ := fun t => by
  rw [bigSep_W2, bigSep_W2]
  exact sound_body2 V q c t

end Regions

end Cert.KernelIdeal.Hand

end
-- ==== Proof.KI.Run.lean ====
/-
  The kernel's program run from the launch to the return, its result named. The three regions' proof data sit at the
  buffers' contents when each region is entered: the launch memory folded through the host stretches, each earlier
  region's output array at the fold of that region's write-backs. The thread state between two items is "every unscoped
  buffer whole at the boundary's contents, the generator register at some state, nothing owed".
-/
import proofs.«125140_g2000505823476311_pallasbulk_1268_6_alg».proof.Proof.KI.Reg0
import proofs.«125140_g2000505823476311_pallasbulk_1268_6_alg».proof.Proof.KI.Reg1
import proofs.«125140_g2000505823476311_pallasbulk_1268_6_alg».proof.Proof.KI.Region2
import proofs.«125140_g2000505823476311_pallasbulk_1268_6_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev Vr (W : Dev nD → Valuation τ sig (Elt F)) : (c : Dev nD) → (b : Ref sig .tc) → Buf (Elt F) ((c : Thread nD τ).loc b) :=
  fun c b => W c b

/-! ## What the regions leave, region by region -/

/-- Region 0's output array after the region: the fold of its write-backs. -/
def o3 (c : Dev nD) : Buf (Elt F) ((c : Thread nD τ).loc main_v6) := (dat0 (Vr (V2 m)) q01 c).arrAt 3 cfg0.N
/-- The regions' leavings with region 0's known. -/
def outs3 : Outs (F := F) := fun _ r c => if h : r = main_v6 then h ▸ o3 m c else m ((c : Thread nD τ).loc r)
/-- Region 1's output array after the region. -/
def o6 (c : Dev nD) : Buf (Elt F) ((c : Thread nD τ).loc main_v13) := (dat1 (Vr (V5 m (outs3 m))) q01 c).arrAt 3 cfg1.N
/-- The regions' leavings with regions 0 and 1's known. -/
def outs6 : Outs (F := F) := fun J r c => if h : r = main_v13 then h ▸ o6 m c else outs3 m J r c
/-- Region 2's output array after the region. -/
def o13 (c : Dev nD) : Buf (Elt F) ((c : Thread nD τ).loc main_v26) :=
  (dat2 (Vr (V12 m (outs6 m))) (fun _ => fullShare) c).arrAt 5 cfg2.N
/-- What the three regions leave in their output arrays. -/
def outs : Outs (F := F) := fun J r c => if h : r = main_v26 then h ▸ o13 m c else outs6 m J r c

theorem outs_v6 (J : ℕ) (c : Dev nD) : outs m J main_v6 c = o3 m c := by
  unfold outs outs6 outs3; rw [dif_neg (by decide), dif_neg (by decide), dif_pos rfl]
theorem outs6_v6 (J : ℕ) (c : Dev nD) : outs6 m J main_v6 c = o3 m c := by
  unfold outs6 outs3; rw [dif_neg (by decide), dif_pos rfl]
theorem outs3_v6 (J : ℕ) (c : Dev nD) : outs3 m J main_v6 c = o3 m c := by
  unfold outs3; rw [dif_pos rfl]
theorem outs_v13 (J : ℕ) (c : Dev nD) : outs m J main_v13 c = o6 m c := by
  unfold outs outs6; rw [dif_neg (by decide), dif_pos rfl]
theorem outs6_v13 (J : ℕ) (c : Dev nD) : outs6 m J main_v13 c = o6 m c := by
  unfold outs6; rw [dif_pos rfl]
theorem outs_v26 (J : ℕ) (c : Dev nD) : outs m J main_v26 c = o13 m c := by
  unfold outs; rw [dif_pos rfl]

/-- The valuations up to region 1's entry read only region 0's leavings. -/
theorem V5_outs (c : Dev nD) : V5 m (outs m) c = V5 m (outs3 m) c := by
  show StableHlo.after hostOps1_1 (StableHlo.after hostOps1 (Function.update (V2 m c) main_v6 (outs m 3 main_v6 c)))
    = StableHlo.after hostOps1_1 (StableHlo.after hostOps1 (Function.update (V2 m c) main_v6 (outs3 m 3 main_v6 c)))
  rw [outs_v6, outs3_v6]

/-- The valuations up to region 2's entry read only regions 0 and 1's leavings. -/
theorem V12_outs (c : Dev nD) : V12 m (outs m) c = V12 m (outs6 m) c := by
  show StableHlo.after hostOps2_5 (StableHlo.after hostOps2_4 (StableHlo.after hostOps2_3 (StableHlo.after hostOps2_2 (StableHlo.after hostOps2_1 (StableHlo.after hostOps2
      (Function.update (StableHlo.after hostOps1_1 (StableHlo.after hostOps1 (Function.update (V2 m c) main_v6 (outs m 3 main_v6 c)))) main_v13 (outs m 6 main_v13 c)))))))
    = StableHlo.after hostOps2_5 (StableHlo.after hostOps2_4 (StableHlo.after hostOps2_3 (StableHlo.after hostOps2_2 (StableHlo.after hostOps2_1 (StableHlo.after hostOps2
      (Function.update (StableHlo.after hostOps1_1 (StableHlo.after hostOps1 (Function.update (V2 m c) main_v6 (outs6 m 3 main_v6 c)))) main_v13 (outs6 m 6 main_v13 c)))))))
  rw [outs_v6, outs6_v6, outs_v13, outs6_v13]

/-! ## The proof data family and the thread state -/

/-- Every region's proof data at its entry contents — a literal match on the region. -/
def pdats : (p : Fin 3) → (c : Dev nD) → Dat τ (Elt F) Unit ℕ (UR sig nD τ) ℕ (cfgs p) c
  | ⟨0, _⟩ => fun c => dat0 (Vr (V2 m)) q01 c
  | ⟨1, _⟩ => fun c => dat1 (Vr (V5 m (outs3 m))) q01 c
  | ⟨2, _⟩ => fun c => dat2 (Vr (V12 m (outs6 m))) (fun _ => fullShare) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 as a segment: entered from every unscoped buffer at `V2 m`, left at `V3 m (outs m)`; its arrays split out of
    the unscoped buffers and put back at the exit contents, the generator register into the body's invariant and out,
    nothing owed, no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr (V2 m)) q01 c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr (V2 m) c)
  hentry c := by
    rw [Pipeline.ownSems0_none]
    have hsplit : (unscopedBufs c (Vr (V2 m) c) : sProp 𝕄) ⊢ iprop((pdats m 0 c).arrays ((pdats m 0 c).arrAt · 0) ∗ Pipeline.unscopedRest spec0 c (Vr (V2 m) c)) :=
      entry0 (Vr (V2 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Vr (V2 m) c)) ⊢ (unscopedBufs c (Vr (V3 m (outs m)) c) : sProp 𝕄) :=
      exit0 (Vr (V2 m)) c (Vr (V3 m (outs m)) c) (by show Function.update (V2 m c) main_v6 (outs m 3 main_v6 c) main_v6 = _; rw [Function.update_self, outs_v6]; rfl) (fun b hb => V3_of m (outs m) c b (by simpa using hb))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `V5 m (outs3 m)`, left at `V6 m (outs m)`; its arrays split out of
    the unscoped buffers and put back at the exit contents, the generator register into the body's invariant and out,
    nothing owed, no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr (V5 m (outs3 m))) q01 c).loose
  hwaits := Pipeline.hwaits_of_owed_zero _ _ _ _ L lv 1 fun _ _ => rfl
  pre c := iprop(StableHlo.held (c : Thread nD τ) (Pipeline.ucRefs τ sig) (V5 m (outs3 m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr (V5 m (outs3 m)) c)
  hentry c := by
    rw [Pipeline.ownSems0_none]
    have hsplit : (unscopedBufs c (Vr (V5 m (outs3 m)) c) : sProp 𝕄) ⊢ iprop((pdats m 1 c).arrays ((pdats m 1 c).arrAt · 0) ∗ Pipeline.unscopedRest spec1 c (Vr (V5 m (outs3 m)) c)) :=
      entry1 (Vr (V5 m (outs3 m))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vr (V5 m (outs3 m)) c)) ⊢ (unscopedBufs c (Vr (V6 m (outs m)) c) : sProp 𝕄) :=
      exit1 (Vr (V5 m (outs3 m))) c (Vr (V6 m (outs m)) c) (by show Function.update (V5 m (outs m) c) main_v13 (outs m 6 main_v13 c) main_v13 = _; rw [Function.update_self, outs_v13]; rfl) (fun b hb => by show V6 m (outs m) c b = V5 m (outs3 m) c b; rw [← V5_outs]; exact V6_of m (outs m) c b (by simpa using hb))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays at its exit: the inputs' as entered, the output's at the fold of the write-backs. -/
theorem hF2 (c : Dev nD) (w : Fin cfg2.W) :
    (pdats m 2 c).arrAt w cfg2.N = Vr (V13 m (outs m)) c (Pipeline.arrRef spec2 w) := by
  have hin : ∀ (w : Fin cfg2.W) (hw : (cfg2.win w).isOut = false) (hne : Pipeline.arrRef spec2 w ∉ ([main_v26] : List (Ref sig .tc))),
      (pdats m 2 c).arrAt w cfg2.N = Vr (V13 m (outs m)) c (Pipeline.arrRef spec2 w) := fun w hw hne => by
    rw [(pdats m 2 c).arrAt_in w hw]
    show (dat2 (Vr (V12 m (outs6 m))) (fun _ => fullShare) c).A w = _
    rw [A_eq2]
    show V12 m (outs6 m) c (Pipeline.arrRef spec2 w) = V13 m (outs m) c (Pipeline.arrRef spec2 w)
    rw [V13_of m (outs m) c _ hne, V12_outs]
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    show _ = Function.update (V12 m (outs m) c) main_v26 (outs m 13 main_v26 c) main_v26
    rw [Function.update_self, outs_v26]; rfl

/-- Every buffer that is no array of region 2 is at its exit what it was at its entry. -/
theorem hrest2 (c : Dev nD) : ∀ b, b ∉ Finset.univ.image (Pipeline.arrRef spec2) → Vr (V13 m (outs m)) c b = Vr (V12 m (outs6 m)) c b :=
  fun b hb => by
    show V13 m (outs m) c b = V12 m (outs6 m) c b
    rw [← V12_outs]
    exact V13_of m (outs m) c b fun h => hb (by
      have : b = main_v26 := by simpa using h
      rw [this]; decide)

set_option backward.isDefEq.respectTransparency.types false in
/-- Region 2 as a segment: entered from every unscoped buffer at `V12 m (outs6 m)`, left at `V13 m (outs m)`; its arrays split out of
    the unscoped buffers and put back at the exit contents, the generator register into the body's invariant and out,
    nothing owed, no semaphore of the kernel's own. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (Vr (V12 m (outs6 m))) (fun _ => fullShare) c).loose
  hwaits := Pipeline.hwaits_of_owed_zero _ _ _ _ L lv 2 fun _ _ => rfl
  pre c := iprop(StableHlo.held (c : Thread nD τ) (Pipeline.ucRefs τ sig) (V12 m (outs6 m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vr (V12 m (outs6 m)) c)
  hentry c := by
    rw [Pipeline.ownSems0_none]
    have hsplit : (unscopedBufs c (Vr (V12 m (outs6 m)) c) : sProp 𝕄) ⊢ iprop((pdats m 2 c).arrays ((pdats m 2 c).arrAt · 0) ∗ Pipeline.unscopedRest spec2 c (Vr (V12 m (outs6 m)) c)) :=
      (by have h := Pipeline.arrays_of_unscopedBufs (p := 2) (pcfgs (F := F)) adm (pdats m) launch2.win launch2.arr_whole c ((pdats m 2 c).share_full fun _ => rfl) (Vr (V12 m (outs6 m)) c) fun _ => rfl; exact h)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (Vr (V12 m (outs6 m)) c)) ⊢ (unscopedBufs c (Vr (V13 m (outs m)) c) : sProp 𝕄) :=
      Pipeline.unscopedBufs_of_arrays (p := 2) (pcfgs (F := F)) adm (Ix := Unit) (Name := ℕ) (U := UR sig nD τ) (Lvl := ℕ) launch2.win launch2.arr_whole c (pdats m) ((pdats m 2 c).share_full fun _ => rfl) (Vr (V12 m (outs6 m)) c) (Vr (V13 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, the result buffer ends at the last
    valuation's value — the launch memory folded through the host stretches and the three regions' write-backs — and the
    argument arrays end as launched. -/
theorem run (ρ : Dev nD → PrngReg) :
    θ_run defs (onTc (τ := τ) (main (F := F))) ⟨m, fun _ => 0, ρ⟩ (fun r => ∀ c : Dev nD,
      r.2.mem ((c.tc : Thread nD τ).loc main_v27) = V14 m (outs m) c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V5_outs]; exact .rfl) (fun c => .rfl)
    (reg2 m) (fun c => by rw [V12_outs]; exact .rfl) (fun c => .rfl)

end Cert.KernelIdeal.Hand

end
-- ==== Proof.RI.Region0.lean ====
/- Region 0 of the reference's program: the first KAN convolution. At each of the 2704 grid points the body reads a
  block of 2048 columns of the nine-row patch matrix and the nine 5×9 weight matrices (fetched once, at the first
  point), and writes the 5×2048 block of outputs: sixteen column slices of 128, each the ReLU of nine accumulated
  products of a weight matrix with a feature matrix of the slice. Stated at a parameter `V`: the buffers' contents
  when the region is entered.
-/
import proofs.«125140_g2000505823476311_pallasbulk_1268_6_alg».proof.Proof.Gen.ReferenceIdeal.Launch
import proofs.«125140_g2000505823476311_pallasbulk_1268_6_alg».proof.Proof.Gen.ReferenceIdeal.Skeleton
import proofs.«125140_g2000505823476311_pallasbulk_1268_6_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an input the
    pipeline does not fetch at a point has not moved its block index since the point before), for any proof data
    whose array is `V`'s and whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an input the
    pipeline does not fetch at a point has not moved its block index since the point before), for any proof data
    whose array is `V`'s and whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's run -/

/-- A load through a whole memref whose raw contents read `X` reads `X` at the box's indices. -/
private theorem readAt_unread {sp : Space} {s : Shape} {e : EltTy} (m : Memref sig .tc sp s e) (h : m.IsWhole) (X : s.Idx → Elt F e) (B : LoadRect s) :
    m.view.readAt (Elt F) B (h.unread X) = fun j => X (B.idx j) := by
  funext j; show m.view.read (Elt F) (h.unread X) (B.idx j) = _; rw [h.read_unread]

set_option maxHeartbeats 8000000 in
/-- The pieces the body's stores leave in the output's staging memref (last first), WITH the proof that on whole
    staging memrefs — the inputs' at their read contents `xW`, the output's at anything — the body runs to the
    continuation holding the inputs' as they were and the output's buffer with the pieces written. The pieces are the
    body's sixteen stores, last first: the column slice [128 s, 128 s + 128) for s = 15, …, 0, each with the value
    the body computes for it from its loads of the two input blocks. -/
noncomputable def kernelRun0 (c : Dev nD) (i : grid0.Coords) (arg1 : Memref sig .tc .vmem S9x2048 .f32) (harg1 : arg1.IsWhole) (arg2 : Memref sig .tc .vmem S9x5x9 .f32) (harg2 : arg2.IsWhole) (arg3 : Memref sig .tc .vmem S5x2048 .f32) (harg3 : arg3.IsWhole)
    (x0 : Vec F S9x2048 .f32) (x1 : Vec F S9x5x9 .f32) :
    { L : List (View.Piece (Elt F) S5x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__kernel_body i arg1 harg1 arg2 harg2 arg3 harg3) K } := by
  refine ⟨?_, fun E K => ?run⟩
  case run =>
    simp only [cc0__kernel_body_eq_skeleton]; unfold cc0__kernel_body_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec_parts
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 8000000 in
/-- The pieces do not depend on the core, the point or the staging memrefs: every value in them is a payload of loads
    through whole memrefs, and such a load reads the input block at the box's indices. -/
theorem pieces_indep0 (c c' : Dev nD) (i i' : grid0.Coords)
    (arg1 : Memref sig .tc .vmem S9x2048 .f32) (harg1 : arg1.IsWhole) (arg2 : Memref sig .tc .vmem S9x5x9 .f32) (harg2 : arg2.IsWhole) (arg3 : Memref sig .tc .vmem S5x2048 .f32) (harg3 : arg3.IsWhole)
    (arg1' : Memref sig .tc .vmem S9x2048 .f32) (harg1' : arg1'.IsWhole) (arg2' : Memref sig .tc .vmem S9x5x9 .f32) (harg2' : arg2'.IsWhole) (arg3' : Memref sig .tc .vmem S5x2048 .f32) (harg3' : arg3'.IsWhole)
    (x0 : Vec F S9x2048 .f32) (x1 : Vec F S9x5x9 .f32) :
    (kernelRun0 c i arg1 harg1 arg2 harg2 arg3 harg3 x0 x1).1 = (kernelRun0 c' i' arg1' harg1' arg2' harg2' arg3' harg3' x0 x1).1 := by
  unfold kernelRun0
  dsimp only
  sl_unfold_run_names
  sl_unfold_run_names
  sl_unfold_run_names
  sl_unfold_run_names
  simp only [readAt_unread]

/-! ## What the body leaves in the output window's buffer -/

/-- A point to read the pieces at (they are the same at every point, on every core: `pieces_indep0`). -/
def pt0 : Fin cfg0.N := ⟨0, by rw [show cfg0.N = 2704 from N_0]; decide⟩

/-- The pieces of the run, read at point 0's staging memrefs. -/
noncomputable def pieces0 (x0 : Vec F S9x2048 .f32) (x1 : Vec F S9x5x9 .f32) : List (View.Piece (Elt F) S5x2048 .f32) :=
  (kernelRun0 (0 : Dev nD) (grid0.coords pt0) (st0_0 pt0) (hstage0_0 ((cfg0.slots pt0 0).cast nbuf0_0)) (st0_1 pt0) (hstage0_1 ((cfg0.slots pt0 1).cast nbuf0_1)) (st0_2 pt0) (hstage0_2 ((cfg0.slots pt0 2).cast nbuf0_2)) x0 x1).1

/-- The run's pieces at any core, point and whole staging memrefs are these. -/
theorem pieces0_eq (c : Dev nD) (i : grid0.Coords) (arg1 : Memref sig .tc .vmem S9x2048 .f32) (harg1 : arg1.IsWhole) (arg2 : Memref sig .tc .vmem S9x5x9 .f32) (harg2 : arg2.IsWhole) (arg3 : Memref sig .tc .vmem S5x2048 .f32) (harg3 : arg3.IsWhole) (x0 : Vec F S9x2048 .f32) (x1 : Vec F S9x5x9 .f32) :
    (kernelRun0 c i arg1 harg1 arg2 harg2 arg3 harg3 x0 x1).1 = pieces0 x0 x1 :=
  pieces_indep0 c _ i _ _ _ _ _ _ _ _ _ _ _ _ _ x0 x1

/-- The stores tile the buffer (checked by evaluation), so they cover it. -/
theorem cover0_2 (x0 : Vec F S9x2048 .f32) (x1 : Vec F S9x5x9 .f32) (y : S5x2048.Idx) :
    ∃ pc ∈ pieces0 x0 x1, y ∈ pc.1.set :=
  View.cover_of_tiledL (pieces0 x0 x1) S5x128.size (by sl_kernel_rfl) y

/-- Window 2's staging buffer after the body, from the input windows' blocks: at each index the payload of the
    last store that holds it. -/
noncomputable def out0_2 (x0 : Vec F S9x2048 .f32) (x1 : Vec F S9x5x9 .f32) : Vec F S5x2048 .f32 :=
  View.canon (pieces0 x0 x1)

/-! ## The body's triple -/

/-- The kernel body on whole staging memrefs, the inputs' at read contents `xW` and the output's at anything, runs to
    the continuation holding the inputs' as they were and the output's at `out0_2` of the inputs'. -/
theorem sound_kernel0 (c : Dev nD) (E : Set ℕ) (i : grid0.Coords) (arg1 : Memref sig .tc .vmem S9x2048 .f32) (harg1 : arg1.IsWhole) (arg2 : Memref sig .tc .vmem S9x5x9 .f32) (harg2 : arg2.IsWhole) (arg3 : Memref sig .tc .vmem S5x2048 .f32) (harg3 : arg3.IsWhole)
    (x0 : Vec F S9x2048 .f32) (x1 : Vec F S9x5x9 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel_body i arg1 harg1 arg2 harg2 arg3 harg3) K := by
  iintro ⟨H0, H1, H2, Hk⟩
  iapply ((kernelRun0 c i arg1 harg1 arg2 harg2 arg3 harg3 x0 x1).2 E K)
  isplitl [H0]; · iexact H0
  isplitl [H1]; · iexact H1
  isplitl [H2]; · iexact H2
  iintro ⟨H0, H1, ⟨%e2, H2⟩⟩
  iapply Hk
  isplitl [H0]; · iexact H0
  isplitl [H1]; · iexact H1
  unfold owns; iexists _; isplitr
  swap; · iexact H2
  ipureintro
  rw [pieces0_eq c i arg1 harg1 arg2 harg2 arg3 harg3 x0 x1]
  exact View.read_writes_eq_canon _ _ _ (cover0_2 x0 x1)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.ReferenceIdeal.Hand

end
-- ==== Proof.RI.Region1.lean ====
/- Region 1 of the reference's program: the second KAN convolution. At each of the 2420 grid points the body reads a
  block of 2048 columns of the nine-row patch matrix and the nine 5×9 weight matrices (fetched once, at the first
  point), and writes the 5×2048 block of outputs: sixteen column slices of 128, each the ReLU of nine accumulated
  products of a weight matrix with a feature matrix of the slice. Stated at a parameter `V`: the buffers' contents
  when the region is entered.
-/
import proofs.«125140_g2000505823476311_pallasbulk_1268_6_alg».proof.Proof.Gen.ReferenceIdeal.Launch
import proofs.«125140_g2000505823476311_pallasbulk_1268_6_alg».proof.Proof.Gen.ReferenceIdeal.Skeleton
import proofs.«125140_g2000505823476311_pallasbulk_1268_6_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an input the
    pipeline does not fetch at a point has not moved its block index since the point before), for any proof data
    whose array is `V`'s and whose body leaves the block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an input the
    pipeline does not fetch at a point has not moved its block index since the point before), for any proof data
    whose array is `V`'s and whose body leaves the block in place; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's run -/

/-- A load through a whole memref whose raw contents read `X` reads `X` at the box's indices. -/
private theorem readAt_unread {sp : Space} {s : Shape} {e : EltTy} (m : Memref sig .tc sp s e) (h : m.IsWhole) (X : s.Idx → Elt F e) (B : LoadRect s) :
    m.view.readAt (Elt F) B (h.unread X) = fun j => X (B.idx j) := by
  funext j; show m.view.read (Elt F) (h.unread X) (B.idx j) = _; rw [h.read_unread]

set_option maxHeartbeats 8000000 in
/-- The pieces the body's stores leave in the output's staging memref (last first), WITH the proof that on whole
    staging memrefs — the inputs' at their read contents `xW`, the output's at anything — the body runs to the
    continuation holding the inputs' as they were and the output's buffer with the pieces written. The pieces are the
    body's sixteen stores, last first: the column slice [128 s, 128 s + 128) for s = 15, …, 0, each with the value
    the body computes for it from its loads of the two input blocks. -/
noncomputable def kernelRun1 (c : Dev nD) (i : grid1.Coords) (arg1 : Memref sig .tc .vmem S9x2048 .f32) (harg1 : arg1.IsWhole) (arg2 : Memref sig .tc .vmem S9x5x9 .f32) (harg2 : arg2.IsWhole) (arg3 : Memref sig .tc .vmem S5x2048 .f32) (harg3 : arg3.IsWhole)
    (x0 : Vec F S9x2048 .f32) (x1 : Vec F S9x5x9 .f32) :
    { L : List (View.Piece (Elt F) S5x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc1__kernel_body i arg1 harg1 arg2 harg2 arg3 harg3) K } := by
  refine ⟨?_, fun E K => ?run⟩
  case run =>
    simp only [cc1__kernel_body_eq_skeleton]; unfold cc1__kernel_body_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec_parts
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 8000000 in
/-- The pieces do not depend on the core, the point or the staging memrefs: every value in them is a payload of loads
    through whole memrefs, and such a load reads the input block at the box's indices. -/
theorem pieces_indep1 (c c' : Dev nD) (i i' : grid1.Coords)
    (arg1 : Memref sig .tc .vmem S9x2048 .f32) (harg1 : arg1.IsWhole) (arg2 : Memref sig .tc .vmem S9x5x9 .f32) (harg2 : arg2.IsWhole) (arg3 : Memref sig .tc .vmem S5x2048 .f32) (harg3 : arg3.IsWhole)
    (arg1' : Memref sig .tc .vmem S9x2048 .f32) (harg1' : arg1'.IsWhole) (arg2' : Memref sig .tc .vmem S9x5x9 .f32) (harg2' : arg2'.IsWhole) (arg3' : Memref sig .tc .vmem S5x2048 .f32) (harg3' : arg3'.IsWhole)
    (x0 : Vec F S9x2048 .f32) (x1 : Vec F S9x5x9 .f32) :
    (kernelRun1 c i arg1 harg1 arg2 harg2 arg3 harg3 x0 x1).1 = (kernelRun1 c' i' arg1' harg1' arg2' harg2' arg3' harg3' x0 x1).1 := by
  unfold kernelRun1
  dsimp only
  sl_unfold_run_names
  sl_unfold_run_names
  sl_unfold_run_names
  sl_unfold_run_names
  simp only [readAt_unread]

/-! ## What the body leaves in the output window's buffer -/

/-- A point to read the pieces at (they are the same at every point, on every core: `pieces_indep1`). -/
def pt1 : Fin cfg1.N := ⟨0, by rw [show cfg1.N = 2420 from N_1]; decide⟩

/-- The pieces of the run, read at point 0's staging memrefs. -/
noncomputable def pieces1 (x0 : Vec F S9x2048 .f32) (x1 : Vec F S9x5x9 .f32) : List (View.Piece (Elt F) S5x2048 .f32) :=
  (kernelRun1 (0 : Dev nD) (grid1.coords pt1) (st1_0 pt1) (hstage1_0 ((cfg1.slots pt1 0).cast nbuf1_0)) (st1_1 pt1) (hstage1_1 ((cfg1.slots pt1 1).cast nbuf1_1)) (st1_2 pt1) (hstage1_2 ((cfg1.slots pt1 2).cast nbuf1_2)) x0 x1).1

/-- The run's pieces at any core, point and whole staging memrefs are these. -/
theorem pieces1_eq (c : Dev nD) (i : grid1.Coords) (arg1 : Memref sig .tc .vmem S9x2048 .f32) (harg1 : arg1.IsWhole) (arg2 : Memref sig .tc .vmem S9x5x9 .f32) (harg2 : arg2.IsWhole) (arg3 : Memref sig .tc .vmem S5x2048 .f32) (harg3 : arg3.IsWhole) (x0 : Vec F S9x2048 .f32) (x1 : Vec F S9x5x9 .f32) :
    (kernelRun1 c i arg1 harg1 arg2 harg2 arg3 harg3 x0 x1).1 = pieces1 x0 x1 :=
  pieces_indep1 c _ i _ _ _ _ _ _ _ _ _ _ _ _ _ x0 x1

/-- The stores tile the buffer (checked by evaluation), so they cover it. -/
theorem cover1_2 (x0 : Vec F S9x2048 .f32) (x1 : Vec F S9x5x9 .f32) (y : S5x2048.Idx) :
    ∃ pc ∈ pieces1 x0 x1, y ∈ pc.1.set :=
  View.cover_of_tiledL (pieces1 x0 x1) S5x128.size (by sl_kernel_rfl) y

/-- Window 2's staging buffer after the body, from the input windows' blocks: at each index the payload of the
    last store that holds it. -/
noncomputable def out1_2 (x0 : Vec F S9x2048 .f32) (x1 : Vec F S9x5x9 .f32) : Vec F S5x2048 .f32 :=
  View.canon (pieces1 x0 x1)

/-! ## The body's triple -/

/-- The kernel body on whole staging memrefs, the inputs' at read contents `xW` and the output's at anything, runs to
    the continuation holding the inputs' as they were and the output's at `out1_2` of the inputs'. -/
theorem sound_kernel1 (c : Dev nD) (E : Set ℕ) (i : grid1.Coords) (arg1 : Memref sig .tc .vmem S9x2048 .f32) (harg1 : arg1.IsWhole) (arg2 : Memref sig .tc .vmem S9x5x9 .f32) (harg2 : arg2.IsWhole) (arg3 : Memref sig .tc .vmem S5x2048 .f32) (harg3 : arg3.IsWhole)
    (x0 : Vec F S9x2048 .f32) (x1 : Vec F S9x5x9 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__kernel_body i arg1 harg1 arg2 harg2 arg3 harg3) K := by
  iintro ⟨H0, H1, H2, Hk⟩
  iapply ((kernelRun1 c i arg1 harg1 arg2 harg2 arg3 harg3 x0 x1).2 E K)
  isplitl [H0]; · iexact H0
  isplitl [H1]; · iexact H1
  isplitl [H2]; · iexact H2
  iintro ⟨H0, H1, ⟨%e2, H2⟩⟩
  iapply Hk
  isplitl [H0]; · iexact H0
  isplitl [H1]; · iexact H1
  unfold owns; iexists _; isplitr
  swap; · iexact H2
  ipureintro
  rw [pieces1_eq c i arg1 harg1 arg2 harg2 arg3 harg3 x0 x1]
  exact View.read_writes_eq_canon _ _ _ (cover1_2 x0 x1)

/-! ## The pipeline's proof data -/

/-- The proof data of pipeline 1 on core `c`: the arrays as the region finds them (`V`); after the body at point `t`
    each input's buffer at its block and the output's at `out1_2` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.ReferenceIdeal.Hand

end
-- ==== Proof.RI.Region2.lean ====
/- Region 2 of the reference's program: the MLP head. At each of the 32 grid points the body reads a block of 256 rows of
  the 25 feature groups, the first layer's 25 weight matrices and its bias, the second layer's weight matrix and its
  bias, and writes the 256×128 block of outputs. Stated at a parameter `V`: the buffers' contents when the region is
  entered.
-/
import proofs.«125140_g2000505823476311_pallasbulk_1268_6_alg».proof.Proof.Gen.ReferenceIdeal.Launch
import proofs.«125140_g2000505823476311_pallasbulk_1268_6_alg».proof.Proof.Gen.ReferenceIdeal.Skeleton
import proofs.«125140_g2000505823476311_pallasbulk_1268_6_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an input the
    pipeline does not fetch at a point has not moved its block index since the point before), for any proof data
    whose array is `V`'s and whose body leaves the block in place; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an input the
    pipeline does not fetch at a point has not moved its block index since the point before), for any proof data
    whose array is `V`'s and whose body leaves the block in place; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an input the
    pipeline does not fetch at a point has not moved its block index since the point before), for any proof data
    whose array is `V`'s and whose body leaves the block in place; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an input the
    pipeline does not fetch at a point has not moved its block index since the point before), for any proof data
    whose array is `V`'s and whose body leaves the block in place; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (an input the
    pipeline does not fetch at a point has not moved its block index since the point before), for any proof data
    whose array is `V`'s and whose body leaves the block in place; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's run -/

/-- A load through a whole memref whose raw contents read `X` reads `X` at the box's indices. -/
private theorem readAt_unread {sp : Space} {s : Shape} {e : EltTy} (m : Memref sig .tc sp s e) (h : m.IsWhole) (X : s.Idx → Elt F e) (B : LoadRect s) :
    m.view.readAt (Elt F) B (h.unread X) = fun j => X (B.idx j) := by
  funext j; show m.view.read (Elt F) (h.unread X) (B.idx j) = _; rw [h.read_unread]

set_option maxHeartbeats 8000000 in
/-- The pieces the body's stores leave in the output's staging memref (last first), WITH the proof that on whole
    staging memrefs — the inputs' at their read contents `xW`, the output's at anything — the body runs to the
    continuation holding the inputs' as they were and the output's buffer with the pieces written. The body stores
    once, the whole block: the one piece is that store, with the value the body computes from its loads of the five
    input blocks. -/
noncomputable def kernelRun2 (c : Dev nD) (i : grid2.Coords) (arg1 : Memref sig .tc .vmem S25x256x25 .f32) (harg1 : arg1.IsWhole) (arg2 : Memref sig .tc .vmem S25x25x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S256x128 .f32) (harg6 : arg6.IsWhole)
    (x0 : Vec F S25x256x25 .f32) (x1 : Vec F S25x25x256 .f32) (x2 : Vec F S1x256 .f32) (x3 : Vec F S256x128 .f32) (x4 : Vec F S1x128 .f32) :
    { L : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L)) -∗ K ⟨⟩))
          ⊢ wp frame (wpE (defs₀ (F := F)) Variants.none c none) E (cc2__mlp_head_kernel i arg1 harg1 arg2 harg2 arg3 harg3 arg4 harg4 arg5 harg5 arg6 harg6) K } := by
  refine ⟨?_, fun E K => ?run⟩
  case run =>
    simp only [cc2__mlp_head_kernel_eq_skeleton]; unfold cc2__mlp_head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

set_option maxHeartbeats 8000000 in
/-- The pieces do not depend on the core, the point or the staging memrefs: every value in them is a payload of loads
    through whole memrefs, and such a load reads the input block at the box's indices. -/
theorem pieces_indep2 (c c' : Dev nD) (i i' : grid2.Coords)
    (arg1 : Memref sig .tc .vmem S25x256x25 .f32) (harg1 : arg1.IsWhole) (arg2 : Memref sig .tc .vmem S25x25x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S256x128 .f32) (harg6 : arg6.IsWhole)
    (arg1' : Memref sig .tc .vmem S25x256x25 .f32) (harg1' : arg1'.IsWhole) (arg2' : Memref sig .tc .vmem S25x25x256 .f32) (harg2' : arg2'.IsWhole) (arg3' : Memref sig .tc .vmem S1x256 .f32) (harg3' : arg3'.IsWhole) (arg4' : Memref sig .tc .vmem S256x128 .f32) (harg4' : arg4'.IsWhole) (arg5' : Memref sig .tc .vmem S1x128 .f32) (harg5' : arg5'.IsWhole) (arg6' : Memref sig .tc .vmem S256x128 .f32) (harg6' : arg6'.IsWhole)
    (x0 : Vec F S25x256x25 .f32) (x1 : Vec F S25x25x256 .f32) (x2 : Vec F S1x256 .f32) (x3 : Vec F S256x128 .f32) (x4 : Vec F S1x128 .f32) :
    (kernelRun2 c i arg1 harg1 arg2 harg2 arg3 harg3 arg4 harg4 arg5 harg5 arg6 harg6 x0 x1 x2 x3 x4).1 = (kernelRun2 c' i' arg1' harg1' arg2' harg2' arg3' harg3' arg4' harg4' arg5' harg5' arg6' harg6' x0 x1 x2 x3 x4).1 := by
  unfold kernelRun2
  dsimp only
  sl_unfold_run_names
  sl_unfold_run_names
  simp only [readAt_unread]

/-! ## What the body leaves in the output window's buffer -/

/-- A point to read the pieces at (they are the same at every point, on every core: `pieces_indep2`). -/
def pt2 : Fin cfg2.N := ⟨0, by rw [show cfg2.N = 32 from N_2]; decide⟩

/-- The pieces of the run, read at point 0's staging memrefs. -/
noncomputable def pieces2 (x0 : Vec F S25x256x25 .f32) (x1 : Vec F S25x25x256 .f32) (x2 : Vec F S1x256 .f32) (x3 : Vec F S256x128 .f32) (x4 : Vec F S1x128 .f32) : List (View.Piece (Elt F) S256x128 .f32) :=
  (kernelRun2 (0 : Dev nD) (grid2.coords pt2) (st2_0 pt2) (hstage2_0 ((cfg2.slots pt2 0).cast nbuf2_0)) (st2_1 pt2) (hstage2_1 ((cfg2.slots pt2 1).cast nbuf2_1)) (st2_2 pt2) (hstage2_2 ((cfg2.slots pt2 2).cast nbuf2_2)) (st2_3 pt2) (hstage2_3 ((cfg2.slots pt2 3).cast nbuf2_3)) (st2_4 pt2) (hstage2_4 ((cfg2.slots pt2 4).cast nbuf2_4)) (st2_5 pt2) (hstage2_5 ((cfg2.slots pt2 5).cast nbuf2_5)) x0 x1 x2 x3 x4).1

/-- The run's pieces at any core, point and whole staging memrefs are these. -/
theorem pieces2_eq (c : Dev nD) (i : grid2.Coords) (arg1 : Memref sig .tc .vmem S25x256x25 .f32) (harg1 : arg1.IsWhole) (arg2 : Memref sig .tc .vmem S25x25x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S256x128 .f32) (harg6 : arg6.IsWhole) (x0 : Vec F S25x256x25 .f32) (x1 : Vec F S25x25x256 .f32) (x2 : Vec F S1x256 .f32) (x3 : Vec F S256x128 .f32) (x4 : Vec F S1x128 .f32) :
    (kernelRun2 c i arg1 harg1 arg2 harg2 arg3 harg3 arg4 harg4 arg5 harg5 arg6 harg6 x0 x1 x2 x3 x4).1 = pieces2 x0 x1 x2 x3 x4 :=
  pieces_indep2 c _ i _ _ _ _ _ _ _ _ _ _ _ _ _ _ _ _ _ _ _ _ _ _ _ _ _ x0 x1 x2 x3 x4

/-- The stores tile the buffer (checked by evaluation), so they cover it. -/
theorem cover2_5 (x0 : Vec F S25x256x25 .f32) (x1 : Vec F S25x25x256 .f32) (x2 : Vec F S1x256 .f32) (x3 : Vec F S256x128 .f32) (x4 : Vec F S1x128 .f32) (y : S256x128.Idx) :
    ∃ pc ∈ pieces2 x0 x1 x2 x3 x4, y ∈ pc.1.set :=
  View.cover_of_tiledL (pieces2 x0 x1 x2 x3 x4) S256x128.size (by sl_kernel_rfl) y

/-- Window 5's staging buffer after the body, from the input windows' blocks: at each index the payload of the
    last store that holds it. -/
noncomputable def out2_5 (x0 : Vec F S25x256x25 .f32) (x1 : Vec F S25x25x256 .f32) (x2 : Vec F S1x256 .f32) (x3 : Vec F S256x128 .f32) (x4 : Vec F S1x128 .f32) : Vec F S256x128 .f32 :=
  View.canon (pieces2 x0 x1 x2 x3 x4)

/-! ## The body's triple -/

/-- The kernel body on whole staging memrefs, the inputs' at read contents `xW` and the output's at anything, runs to
    the continuation holding the inputs' as they were and the output's at `out2_5` of the inputs'. -/
theorem sound_kernel2 (c : Dev nD) (E : Set ℕ) (i : grid2.Coords) (arg1 : Memref sig .tc .vmem S25x256x25 .f32) (harg1 : arg1.IsWhole) (arg2 : Memref sig .tc .vmem S25x25x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S256x128 .f32) (harg6 : arg6.IsWhole)
    (x0 : Vec F S25x256x25 .f32) (x1 : Vec F S25x25x256 .f32) (x2 : Vec F S1x256 .f32) (x3 : Vec F S256x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_head_kernel i arg1 harg1 arg2 harg2 arg3 harg3 arg4 harg4 arg5 harg5 arg6 harg6) K := by
  iintro ⟨H0, H1, H2, H3, H4, H5, Hk⟩
  iapply ((kernelRun2 c i arg1 harg1 arg2 harg2 arg3 harg3 arg4 harg4 arg5 harg5 arg6 harg6 x0 x1 x2 x3 x4).2 E K)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%e5, H5⟩⟩
  iapply Hk
  isplitl [H0]; · iexact H0
  isplitl [H1]; · iexact H1
  isplitl [H2]; · iexact H2
  isplitl [H3]; · iexact H3
  isplitl [H4]; · iexact H4
  unfold owns; iexists _; isplitr
  swap; · iexact H5
  ipureintro
  rw [pieces2_eq c i arg1 harg1 arg2 harg2 arg3 harg3 arg4 harg4 arg5 harg5 arg6 harg6 x0 x1 x2 x3 x4]
  exact View.read_writes_eq_canon _ _ _ (cover2_5 x0 x1 x2 x3 x4)

/-! ## The pipeline's proof data -/

/-- The proof data of pipeline 2 on core `c`: the arrays as the region finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.ReferenceIdeal.Hand

end
-- ==== Proof.RI.RunCond.lean ====
/-
  The run of this program's @main with its RESULT named. @main is host stretches around three kernel regions; between two
  items every unscoped buffer of a core is held whole at a valuation: the launch memory folded through each host stretch,
  a region's output array replaced by what the region leaves. Given one segment record per region, entered from the state
  before it and left at the state after it, every weakly fair execution terminates, the result buffer ends at the last
  valuation's value and every argument array ends as launched.
-/
import proofs.«125140_g2000505823476311_pallasbulk_1268_6_alg».proof.Proof.Gen.ReferenceIdeal.Regions

noncomputable section

namespace Cert.ReferenceIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.ReferenceIdeal Cert.ReferenceIdeal.Gen

variable {F : FTy → Type} [FloatOps F]

set_option backward.isDefEq.respectTransparency.types false in
/-- The run with the result named. Given, per region, a segment record entered from the thread state before it and left at
    the one after it, every weakly fair execution of @main from memory `m` with zero counters terminates; the result buffer
    ends at the last valuation's value, and every argument array ends as launched. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c)) :
    θ_run defs (onTc (τ := τ) (main (F := F))) ⟨m, fun _ => 0, ρ⟩ (fun r => ∀ c : Dev nD,
      r.2.mem ((c.tc : Thread nD τ).loc main_v54) = V10 m outs c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, hpre0 c, hpost0 c, .rfl, hpre1 c, hpost1 c, .rfl, hpre2 c, hpost2 c, sep_mono .rfl (hE3 c)⟩)
    (hinit := ?_) (QY := fun c s => s.mem ((c.tc : Thread nD τ).loc main_v54) = V10 m outs c main_v54 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v54) (Finset.mem_filter.mpr ⟨StableHlo.devRef_mem_tcRefs main_v54, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c)⟩
    · iexact HSI

end Cert.ReferenceIdeal.Hand

end
-- ==== Proof.RI.Run.lean ====
/-
  The reference's program run from the launch to the return, its result named. The three regions' proof data sit at the
  buffers' contents when each region is entered: the launch memory folded through the host stretches, each earlier
  region's output array at the fold of that region's write-backs. The thread state between two items is "every unscoped
  buffer whole at the boundary's contents, the generator register at some state, nothing owed".
-/
import proofs.«125140_g2000505823476311_pallasbulk_1268_6_alg».proof.Proof.RI.Region0
import proofs.«125140_g2000505823476311_pallasbulk_1268_6_alg».proof.Proof.RI.Region1
import proofs.«125140_g2000505823476311_pallasbulk_1268_6_alg».proof.Proof.RI.Region2
import proofs.«125140_g2000505823476311_pallasbulk_1268_6_alg».proof.Proof.RI.RunCond

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev Vr (W : Dev nD → Valuation τ sig (Elt F)) : (c : Dev nD) → (b : Ref sig .tc) → Buf (Elt F) ((c : Thread nD τ).loc b) :=
  fun c b => W c b

/-! ## What the regions leave, region by region -/

/-- Region 0's output array after the region: the fold of its write-backs. -/
def o3 (c : Dev nD) : Buf (Elt F) ((c : Thread nD τ).loc main_v21) := (dat0 (Vr (V2 m)) c).arrAt 2 cfg0.N
/-- The regions' leavings with region 0's known. -/
def outs3 : Outs (F := F) := fun _ r c => if h : r = main_v21 then h ▸ o3 m c else m ((c : Thread nD τ).loc r)
/-- Region 1's output array after the region. -/
def o6 (c : Dev nD) : Buf (Elt F) ((c : Thread nD τ).loc main_v46) := (dat1 (Vr (V5 m (outs3 m))) c).arrAt 2 cfg1.N
/-- The regions' leavings with regions 0 and 1's known. -/
def outs6 : Outs (F := F) := fun J r c => if h : r = main_v46 then h ▸ o6 m c else outs3 m J r c
/-- Region 2's output array after the region. -/
def o9 (c : Dev nD) : Buf (Elt F) ((c : Thread nD τ).loc main_v53) := (dat2 (Vr (V8 m (outs6 m))) c).arrAt 5 cfg2.N
/-- What the three regions leave in their output arrays. -/
def outs : Outs (F := F) := fun J r c => if h : r = main_v53 then h ▸ o9 m c else outs6 m J r c

theorem outs_v21 (J : ℕ) (c : Dev nD) : outs m J main_v21 c = o3 m c := by
  unfold outs outs6 outs3; rw [dif_neg (by decide), dif_neg (by decide), dif_pos rfl]
theorem outs6_v21 (J : ℕ) (c : Dev nD) : outs6 m J main_v21 c = o3 m c := by
  unfold outs6 outs3; rw [dif_neg (by decide), dif_pos rfl]
theorem outs3_v21 (J : ℕ) (c : Dev nD) : outs3 m J main_v21 c = o3 m c := by
  unfold outs3; rw [dif_pos rfl]
theorem outs_v46 (J : ℕ) (c : Dev nD) : outs m J main_v46 c = o6 m c := by
  unfold outs outs6; rw [dif_neg (by decide), dif_pos rfl]
theorem outs6_v46 (J : ℕ) (c : Dev nD) : outs6 m J main_v46 c = o6 m c := by
  unfold outs6; rw [dif_pos rfl]
theorem outs_v53 (J : ℕ) (c : Dev nD) : outs m J main_v53 c = o9 m c := by
  unfold outs; rw [dif_pos rfl]

/-- The valuations up to region 1's entry read only region 0's leavings. -/
theorem V5_outs (c : Dev nD) : V5 m (outs m) c = V5 m (outs3 m) c := by
  show StableHlo.after hostOps1_1 (StableHlo.after hostOps1 (Function.update (V2 m c) main_v21 (outs m 3 main_v21 c)))
    = StableHlo.after hostOps1_1 (StableHlo.after hostOps1 (Function.update (V2 m c) main_v21 (outs3 m 3 main_v21 c)))
  rw [outs_v21, outs3_v21]

/-- The valuations up to region 2's entry read only regions 0 and 1's leavings. -/
theorem V8_outs (c : Dev nD) : V8 m (outs m) c = V8 m (outs6 m) c := by
  show StableHlo.after hostOps2_1 (StableHlo.after hostOps2
      (Function.update (StableHlo.after hostOps1_1 (StableHlo.after hostOps1 (Function.update (V2 m c) main_v21 (outs m 3 main_v21 c)))) main_v46 (outs m 6 main_v46 c)))
    = StableHlo.after hostOps2_1 (StableHlo.after hostOps2
      (Function.update (StableHlo.after hostOps1_1 (StableHlo.after hostOps1 (Function.update (V2 m c) main_v21 (outs6 m 3 main_v21 c)))) main_v46 (outs6 m 6 main_v46 c)))
  rw [outs_v21, outs6_v21, outs_v46, outs6_v46]

/-! ## The proof data family and the thread state -/

/-- Every region's proof data at its entry contents — a literal match on the region. -/
def pdats : (p : Fin 3) → (c : Dev nD) → Dat τ (Elt F) Unit ℕ (UR sig nD τ) ℕ (cfgs p) c
  | ⟨0, _⟩ => fun c => dat0 (Vr (V2 m)) c
  | ⟨1, _⟩ => fun c => dat1 (Vr (V5 m (outs3 m))) c
  | ⟨2, _⟩ => fun c => dat2 (Vr (V8 m (outs6 m))) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0 -/

/-- Region 0's arrays at its exit: the inputs' as entered, the output's at the fold of the write-backs. -/
theorem hF0 (c : Dev nD) (w : Fin cfg0.W) :
    (pdats m 0 c).arrAt w cfg0.N = Vr (V3 m (outs m)) c (Pipeline.arrRef spec0 w) := by
  have hin : ∀ (w : Fin cfg0.W) (hw : (cfg0.win w).isOut = false) (hne : Pipeline.arrRef spec0 w ∉ ([main_v21] : List (Ref sig .tc))),
      (pdats m 0 c).arrAt w cfg0.N = Vr (V3 m (outs m)) c (Pipeline.arrRef spec0 w) := fun w hw hne => by
    rw [(pdats m 0 c).arrAt_in w hw]
    show (dat0 (Vr (V2 m)) c).A w = _
    rw [A_eq0]
    show V2 m c (Pipeline.arrRef spec0 w) = V3 m (outs m) c (Pipeline.arrRef spec0 w)
    rw [V3_of m (outs m) c _ hne]
  match w with
  | ⟨0, _⟩ => exact hin 0 rfl (by decide)
  | ⟨1, _⟩ => exact hin 1 rfl (by decide)
  | ⟨2, _⟩ =>
    show _ = Function.update (V2 m c) main_v21 (outs m 3 main_v21 c) main_v21
    rw [Function.update_self, outs_v21]; rfl

/-- Every buffer that is no array of region 0 is at its exit what it was at its entry. -/
theorem hrest0 (c : Dev nD) : ∀ b, b ∉ Finset.univ.image (Pipeline.arrRef spec0) → Vr (V3 m (outs m)) c b = Vr (V2 m) c b :=
  fun b hb => by
    show V3 m (outs m) c b = V2 m c b
    exact V3_of m (outs m) c b fun h => hb (by
      have : b = main_v21 := by simpa using h
      rw [this]; decide)

set_option backward.isDefEq.respectTransparency.types false in
/-- Region 0 as a segment: entered from every unscoped buffer at `V2 m`, left at `V3 m (outs m)`; its arrays split out of
    the unscoped buffers and put back at the exit contents, the generator register into the body's invariant and out,
    nothing owed, no semaphore of the kernel's own. -/
def reg0 : Pipeline.RegionSeg (pcfgs (F := F)) adm (pdats m) () defs₀ 𝒱₀ L lv 0 where
  win := launch0.win.to₀
  block_pos := block_pos0
  stage_whole := stage_whole0
  K := PEmpty
  osem k := k.elim
  ho := Pipeline.OwnSemFacts.none _
  hbody c := (body_obligation0 (Vr (V2 m)) c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr (V2 m) c)
  hentry c := by
    rw [Pipeline.ownSems0_none]
    have hsplit : (unscopedBufs c (Vr (V2 m) c) : sProp 𝕄) ⊢ iprop((pdats m 0 c).arrays ((pdats m 0 c).arrAt · 0) ∗ Pipeline.unscopedRest spec0 c (Vr (V2 m) c)) :=
      (by have h := Pipeline.arrays_of_unscopedBufs (p := 0) (pcfgs (F := F)) adm (pdats m) launch0.win launch0.arr_whole c ((pdats m 0 c).share_full fun _ => rfl) (Vr (V2 m) c) fun _ => rfl; exact h)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Vr (V2 m) c)) ⊢ (unscopedBufs c (Vr (V3 m (outs m)) c) : sProp 𝕄) :=
      Pipeline.unscopedBufs_of_arrays (p := 0) (pcfgs (F := F)) adm (Ix := Unit) (Name := ℕ) (U := UR sig nD τ) (Lvl := ℕ) launch0.win launch0.arr_whole c (pdats m) ((pdats m 0 c).share_full fun _ => rfl) (Vr (V2 m) c) (Vr (V3 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- Region 1's arrays at its exit: the inputs' as entered, the output's at the fold of the write-backs. -/
theorem hF1 (c : Dev nD) (w : Fin cfg1.W) :
    (pdats m 1 c).arrAt w cfg1.N = Vr (V6 m (outs m)) c (Pipeline.arrRef spec1 w) := by
  have hin : ∀ (w : Fin cfg1.W) (hw : (cfg1.win w).isOut = false) (hne : Pipeline.arrRef spec1 w ∉ ([main_v46] : List (Ref sig .tc))),
      (pdats m 1 c).arrAt w cfg1.N = Vr (V6 m (outs m)) c (Pipeline.arrRef spec1 w) := fun w hw hne => by
    rw [(pdats m 1 c).arrAt_in w hw]
    show (dat1 (Vr (V5 m (outs3 m))) c).A w = _
    rw [A_eq1]
    show V5 m (outs3 m) c (Pipeline.arrRef spec1 w) = V6 m (outs m) c (Pipeline.arrRef spec1 w)
    rw [V6_of m (outs m) c _ hne, V5_outs]
  match w with
  | ⟨0, _⟩ => exact hin 0 rfl (by decide)
  | ⟨1, _⟩ => exact hin 1 rfl (by decide)
  | ⟨2, _⟩ =>
    show _ = Function.update (V5 m (outs m) c) main_v46 (outs m 6 main_v46 c) main_v46
    rw [Function.update_self, outs_v46]; rfl

/-- Every buffer that is no array of region 1 is at its exit what it was at its entry. -/
theorem hrest1 (c : Dev nD) : ∀ b, b ∉ Finset.univ.image (Pipeline.arrRef spec1) → Vr (V6 m (outs m)) c b = Vr (V5 m (outs3 m)) c b :=
  fun b hb => by
    show V6 m (outs m) c b = V5 m (outs3 m) c b
    rw [← V5_outs]
    exact V6_of m (outs m) c b fun h => hb (by
      have : b = main_v46 := by simpa using h
      rw [this]; decide)

set_option backward.isDefEq.respectTransparency.types false in
/-- Region 1 as a segment: entered from every unscoped buffer at `V5 m (outs3 m)`, left at `V6 m (outs m)`; its arrays split out of
    the unscoped buffers and put back at the exit contents, the generator register into the body's invariant and out,
    nothing owed, no semaphore of the kernel's own. -/
def reg1 : Pipeline.RegionSeg (pcfgs (F := F)) adm (pdats m) () defs₀ 𝒱₀ L lv 1 where
  win := launch1.win.to₀
  block_pos := block_pos1
  stage_whole := stage_whole1
  K := PEmpty
  osem k := k.elim
  ho := Pipeline.OwnSemFacts.none _
  hbody c := (body_obligation1 (Vr (V5 m (outs3 m))) c).loose
  hwaits := Pipeline.hwaits_of_owed_zero _ _ _ _ L lv 1 fun _ _ => rfl
  pre c := iprop(StableHlo.held (c : Thread nD τ) (Pipeline.ucRefs τ sig) (V5 m (outs3 m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr (V5 m (outs3 m)) c)
  hentry c := by
    rw [Pipeline.ownSems0_none]
    have hsplit : (unscopedBufs c (Vr (V5 m (outs3 m)) c) : sProp 𝕄) ⊢ iprop((pdats m 1 c).arrays ((pdats m 1 c).arrAt · 0) ∗ Pipeline.unscopedRest spec1 c (Vr (V5 m (outs3 m)) c)) :=
      (by have h := Pipeline.arrays_of_unscopedBufs (p := 1) (pcfgs (F := F)) adm (pdats m) launch1.win launch1.arr_whole c ((pdats m 1 c).share_full fun _ => rfl) (Vr (V5 m (outs3 m)) c) fun _ => rfl; exact h)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vr (V5 m (outs3 m)) c)) ⊢ (unscopedBufs c (Vr (V6 m (outs m)) c) : sProp 𝕄) :=
      Pipeline.unscopedBufs_of_arrays (p := 1) (pcfgs (F := F)) adm (Ix := Unit) (Name := ℕ) (U := UR sig nD τ) (Lvl := ℕ) launch1.win launch1.arr_whole c (pdats m) ((pdats m 1 c).share_full fun _ => rfl) (Vr (V5 m (outs3 m)) c) (Vr (V6 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- Region 2's arrays at its exit: the inputs' as entered, the output's at the fold of the write-backs. -/
theorem hF2 (c : Dev nD) (w : Fin cfg2.W) :
    (pdats m 2 c).arrAt w cfg2.N = Vr (V9 m (outs m)) c (Pipeline.arrRef spec2 w) := by
  have hin : ∀ (w : Fin cfg2.W) (hw : (cfg2.win w).isOut = false) (hne : Pipeline.arrRef spec2 w ∉ ([main_v53] : List (Ref sig .tc))),
      (pdats m 2 c).arrAt w cfg2.N = Vr (V9 m (outs m)) c (Pipeline.arrRef spec2 w) := fun w hw hne => by
    rw [(pdats m 2 c).arrAt_in w hw]
    show (dat2 (Vr (V8 m (outs6 m))) c).A w = _
    rw [A_eq2]
    show V8 m (outs6 m) c (Pipeline.arrRef spec2 w) = V9 m (outs m) c (Pipeline.arrRef spec2 w)
    rw [V9_of m (outs m) c _ hne, V8_outs]
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    show _ = Function.update (V8 m (outs m) c) main_v53 (outs m 9 main_v53 c) main_v53
    rw [Function.update_self, outs_v53]; rfl

/-- Every buffer that is no array of region 2 is at its exit what it was at its entry. -/
theorem hrest2 (c : Dev nD) : ∀ b, b ∉ Finset.univ.image (Pipeline.arrRef spec2) → Vr (V9 m (outs m)) c b = Vr (V8 m (outs6 m)) c b :=
  fun b hb => by
    show V9 m (outs m) c b = V8 m (outs6 m) c b
    rw [← V8_outs]
    exact V9_of m (outs m) c b fun h => hb (by
      have : b = main_v53 := by simpa using h
      rw [this]; decide)

set_option backward.isDefEq.respectTransparency.types false in
/-- Region 2 as a segment: entered from every unscoped buffer at `V8 m (outs6 m)`, left at `V9 m (outs m)`; its arrays split out of
    the unscoped buffers and put back at the exit contents, the generator register into the body's invariant and out,
    nothing owed, no semaphore of the kernel's own. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (Vr (V8 m (outs6 m))) c).loose
  hwaits := Pipeline.hwaits_of_owed_zero _ _ _ _ L lv 2 fun _ _ => rfl
  pre c := iprop(StableHlo.held (c : Thread nD τ) (Pipeline.ucRefs τ sig) (V8 m (outs6 m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vr (V8 m (outs6 m)) c)
  hentry c := by
    rw [Pipeline.ownSems0_none]
    have hsplit : (unscopedBufs c (Vr (V8 m (outs6 m)) c) : sProp 𝕄) ⊢ iprop((pdats m 2 c).arrays ((pdats m 2 c).arrAt · 0) ∗ Pipeline.unscopedRest spec2 c (Vr (V8 m (outs6 m)) c)) :=
      (by have h := Pipeline.arrays_of_unscopedBufs (p := 2) (pcfgs (F := F)) adm (pdats m) launch2.win launch2.arr_whole c ((pdats m 2 c).share_full fun _ => rfl) (Vr (V8 m (outs6 m)) c) fun _ => rfl; exact h)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (Vr (V8 m (outs6 m)) c)) ⊢ (unscopedBufs c (Vr (V9 m (outs m)) c) : sProp 𝕄) :=
      Pipeline.unscopedBufs_of_arrays (p := 2) (pcfgs (F := F)) adm (Ix := Unit) (Name := ℕ) (U := UR sig nD τ) (Lvl := ℕ) launch2.win launch2.arr_whole c (pdats m) ((pdats m 2 c).share_full fun _ => rfl) (Vr (V8 m (outs6 m)) c) (Vr (V9 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, the result buffer ends at the last
    valuation's value — the launch memory folded through the host stretches and the three regions' write-backs — and the
    argument arrays end as launched. -/
theorem run (ρ : Dev nD → PrngReg) :
    θ_run defs (onTc (τ := τ) (main (F := F))) ⟨m, fun _ => 0, ρ⟩ (fun r => ∀ c : Dev nD,
      r.2.mem ((c.tc : Thread nD τ).loc main_v54) = V10 m (outs m) c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V5_outs]; exact .rfl) (fun c => .rfl)
    (reg2 m) (fun c => by rw [V8_outs]; exact .rfl) (fun c => .rfl)

end Cert.ReferenceIdeal.Hand

end
-- ==== Proof.Spec.lean ====
/-
  The network both programs compute, as functions on natural-number coordinates over the extended reals. An image plane
  `img i j`; a KAN convolution at output channel `c` and position `(i, j)`: over the 3×3 window (tap `t` at row offset
  `t / 3`, column offset `t % 3`) and the nine features `feat g` of a pixel, the weighted sum, then ReLU; a 2×2 max-pool;
  the two layers composed; the 25 × 25 features of a sample laid out as (group, sample, position) with group `5·c2 + c1`
  and position `5·i + j`; and the first dense layer's pre-activation as a sum over groups and positions.
-/
import Idealize.ShloMosaic.PureOps.Ideal
import Idealize.ShloMosaic.Lib.ValueIdx

namespace Cert.Spec

open BigOperators

/-- One output of a KAN convolution layer: channel `c` at position `(i, j)` of the plane `img`, weights `w g c t`. -/
noncomputable def act (feat : Fin 9 → EReal → EReal) (w : ℕ → ℕ → ℕ → EReal) (img : ℕ → ℕ → EReal) (c i j : ℕ) : EReal :=
  max (∑ g : Fin 9, ∑ t : Fin 9, w g.val c t.val * feat g (img (i + t.val / 3) (j + t.val % 3))) 0

/-- The maximum over the 2×2 cell at `(i, j)`. -/
noncomputable def pool (a : ℕ → ℕ → EReal) (i j : ℕ) : EReal :=
  max (max (a (2 * i) (2 * j)) (a (2 * i) (2 * j + 1))) (max (a (2 * i + 1) (2 * j)) (a (2 * i + 1) (2 * j + 1)))

/-- The first layer pooled: channel `c` of sample `b`, a 13×13 plane. -/
noncomputable def pooled1 (feat : Fin 9 → EReal → EReal) (w1 : ℕ → ℕ → ℕ → EReal) (x : ℕ → ℕ → ℕ → EReal) (c b : ℕ) : ℕ → ℕ → EReal :=
  pool (act feat w1 (x b) c)

/-- The second layer pooled: channel `c2` over the first layer's channel `c1` of sample `b`, a 5×5 plane. -/
noncomputable def pooled2 (feat : Fin 9 → EReal → EReal) (w1 w2 : ℕ → ℕ → ℕ → EReal) (x : ℕ → ℕ → ℕ → EReal) (c2 c1 b : ℕ) : ℕ → ℕ → EReal :=
  pool (act feat w2 (pooled1 feat w1 x c1 b) c2)

/-- The features of sample `b`: group `g = 5·c2 + c1`, position `s = 5·i + j`. -/
noncomputable def feats (feat : Fin 9 → EReal → EReal) (w1 w2 : ℕ → ℕ → ℕ → EReal) (x : ℕ → ℕ → ℕ → EReal) (g b s : ℕ) : EReal :=
  pooled2 feat w1 w2 x (g / 5) (g % 5) b (s / 5) (s % 5)

/-- The first dense layer before its bias: sample `b`, hidden unit `n`, weights `fw g s n`. -/
noncomputable def fc1 (fw : ℕ → ℕ → ℕ → EReal) (f : ℕ → ℕ → ℕ → EReal) (b n : ℕ) : EReal :=
  ∑ g : Fin 25, ∑ s : Fin 25, f g.val b s.val * fw g.val s.val n

/-! ## The argument arrays read at natural coordinates (zero outside their extents) -/

open Idealize.ShloMosaic Idealize.ShloMosaic.ValueIdx

/-- The image batch [8192, 1, 28, 28] as sample, row, column. -/
noncomputable def xOf (a : (⟨4, ![8192, 1, 28, 28]⟩ : Shape).Idx → EReal) (b i j : ℕ) : EReal :=
  if h : b < 8192 ∧ i < 28 ∧ j < 28 then a (ix4 ⟨b, h.1⟩ (0 : Fin 1) ⟨i, h.2.1⟩ ⟨j, h.2.2⟩) else 0

/-- A convolution layer's weights [9, 5, 9] as feature group, output channel, tap. -/
noncomputable def wOf (a : (⟨3, ![9, 5, 9]⟩ : Shape).Idx → EReal) (g c t : ℕ) : EReal :=
  if h : g < 9 ∧ c < 5 ∧ t < 9 then a (ix3 ⟨g, h.1⟩ ⟨c, h.2.1⟩ ⟨t, h.2.2⟩) else 0

/-- The first dense layer's weights [25, 25, 256] as group, position, hidden unit. -/
noncomputable def fwOf (a : (⟨3, ![25, 25, 256]⟩ : Shape).Idx → EReal) (g s n : ℕ) : EReal :=
  if h : g < 25 ∧ s < 25 ∧ n < 256 then a (ix3 ⟨g, h.1⟩ ⟨s, h.2.1⟩ ⟨n, h.2.2⟩) else 0

/-- The first dense layer's pre-activation on the block of 256 samples starting at sample `256 · t'`, as a 256×256 array. -/
noncomputable def hidden (fw : ℕ → ℕ → ℕ → EReal) (f : ℕ → ℕ → ℕ → EReal) (t' : ℕ) : (⟨2, ![256, 256]⟩ : Shape).Idx → EReal :=
  fun i => fc1 fw f (256 * t' + (i 0).val) (i 1).val

end Cert.Spec
-- ==== Proof.KI.Val1.lean ====
/-
  The host stretch before the first convolution, read entry by entry. The image batch [8192, 1, 28, 28] is laid out as one
  row of 8192·784 pixels — sample b, row i, column j at lane (b·28 + i)·28 + j — and 8192 zero lanes are appended; the
  first layer's weights [9, 5, 9] (feature group g, output channel c, tap t) are laid out as a 5 × 81 matrix with entry
  (c, t·9 + g).
-/
import proofs.«125140_g2000505823476311_pallasbulk_1268_6_alg».proof.Proof.Gen.KernelIdeal.Regions
import proofs.«125140_g2000505823476311_pallasbulk_1268_6_alg».proof.Proof.Spec
import Idealize.ShloMosaic.Lib.KernelVsHost
import Idealize.ShloMosaic.Lib.Pipeline.Value
import Idealize.ShloMosaic.Lib.StableHlo

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The padded pixel row as the first region finds it: the image batch reshaped to one row, zero lanes appended. -/
theorem X5_eq (c : Dev nD) :
    (V2 m c main_v5 : S1x6430720.Idx → EReal)
      = pad S1x6430720 ![0, 0] ![0, 8192] ![0, 0]
          (shapeCast S1x6422528 (m ((c.tc : Thread nD τ).loc main_arg0)) shapeCasts_S8192x1x28x28_S1x6422528)
          (sitofp .f32 (constantI S_ 32 0#32) : FVec Ideal S_ .f32) pads_S1x6422528_S1x6430720_000_081920 h_S_ := by
  show StableHlo.after hostOps0_1 (StableHlo.after hostOps0 (V0 m c)) (Proc.devRef .tc main_v5) = _
  after_results
  rfl

/-- Lane p of the padded pixel row: the pixel of sample p / 784 at row p % 784 / 28 and column p % 28, zero past the
    images. -/
theorem X5_apply (c : Dev nD) (p : Fin 6430720) :
    (V2 m c main_v5 : S1x6430720.Idx → EReal) (ix2 (0 : Fin 1) p)
      = if p.val < 6422528 then Cert.Spec.xOf (m ((c.tc : Thread nD τ).loc main_arg0)) (p.val / 784) (p.val % 784 / 28) (p.val % 28) else 0 := by
  rw [X5_eq]
  by_cases hp : p.val < 6422528
  · rw [if_pos hp]
    have hb : p.val / 784 < 8192 := by omega
    have hi : p.val % 784 / 28 < 28 := by omega
    have hj : p.val % 28 < 28 := by omega
    rw [pad_apply_of_inside ![0, 0] ![0, 8192] ![0, 0] _ _ pads_S1x6422528_S1x6430720_000_081920 h_S_
      (ix2 (0 : Fin 1) p) (ix2 (0 : Fin 1) (⟨p.val, hp⟩ : Fin 6422528)) (by
        intro a; fin_cases a <;> simp [ix2])]
    rw [shapeCast_apply _ shapeCasts_S8192x1x28x28_S1x6422528 (ix2 (0 : Fin 1) (⟨p.val, hp⟩ : Fin 6422528))
      (ix4 (⟨p.val / 784, hb⟩ : Fin 8192) (0 : Fin 1) (⟨p.val % 784 / 28, hi⟩ : Fin 28) (⟨p.val % 28, hj⟩ : Fin 28)) (by
        rw [Shape.rowMajor_val_four, Shape.rowMajor_val_two]
        show ((p.val / 784 * 1 + 0) * 28 + p.val % 784 / 28) * 28 + p.val % 28 = 0 * 6422528 + p.val
        omega)]
    unfold Cert.Spec.xOf
    rw [dif_pos ⟨hb, hi, hj⟩]
  · rw [if_neg hp]
    rw [pad_apply_of_not_inside (s := S1x6422528) ![0, 0] ![0, 8192] ![0, 0] _ _ pads_S1x6422528_S1x6430720_000_081920 h_S_
      (ix2 (0 : Fin 1) p) (1 : Fin 2) (by
        show ¬(0 ≤ p.val ∧ (p.val - 0) % (0 + 1) = 0 ∧ (p.val - 0) / (0 + 1) < 6422528)
        omega)]
    exact sitofp_zero (φ := .f32)

/-- The first layer's weights as the first region finds them: transposed to (channel, tap, group) and flattened. -/
theorem W1_eq (c : Dev nD) :
    (V2 m c main_v1 : S5x81.Idx → EReal)
      = shapeCast S5x81 (transpose S5x9x9 [1, 2, 0] (m ((c.tc : Thread nD τ).loc main_arg1)) transposes_S9x5x9_S5x9x9_1_2_0)
          shapeCasts_S5x9x9_S5x81 := by
  show StableHlo.after hostOps0_1 (StableHlo.after hostOps0 (V0 m c)) (Proc.devRef .tc main_v1) = _
  after_results
  rfl

/-- Entry (ch, t·9 + g) of the weight matrix is the weight of feature group g, output channel ch, tap t. -/
theorem W1_apply (c : Dev nD) (ch : Fin 5) (t g : Fin 9) :
    (V2 m c main_v1 : S5x81.Idx → EReal) (ix2 ch (⟨t.val * 9 + g.val, by omega⟩ : Fin 81))
      = Cert.Spec.wOf (m ((c.tc : Thread nD τ).loc main_arg1)) g.val ch.val t.val := by
  rw [W1_eq]
  rw [shapeCast_apply _ shapeCasts_S5x9x9_S5x81 (ix2 ch (⟨t.val * 9 + g.val, by omega⟩ : Fin 81)) (ix3 ch t g) (by
    rw [Shape.rowMajor_val_three, Shape.rowMajor_val_two]
    show (ch.val * 9 + t.val) * 9 + g.val = ch.val * 81 + (t.val * 9 + g.val)
    omega)]
  rw [transpose_apply [1, 2, 0] _ transposes_S9x5x9_S5x9x9_1_2_0 (ix3 ch t g) (ix3 g ch t) (by
    intro b; fin_cases b <;> rfl)]
  unfold Cert.Spec.wOf
  rw [dif_pos ⟨g.isLt, ch.isLt, t.isLt⟩]

end Cert.KernelIdeal.Val

end
-- ==== Proof.LibSumBlocks.lean ====
/- Finite sums regrouped in blocks, a zero tail dropped, and a left-to-right accumulation read as
   a sum: the algebra that joins one long contraction (one matrix product over k = i*B + j) to the
   same contraction carried out block by block and accumulated. Everything is stated over an
   arbitrary commutative additive monoid M; the extended reals are one (their addition is
   commutative and associative, which is all that is used). -/
import Mathlib.Algebra.BigOperators.Fin
import Mathlib.Data.Fintype.BigOperators
import Mathlib.Data.EReal.Operations

namespace Cert.Lib.SumBlocks

open Finset

variable {M : Type*} [AddCommMonoid M]

/-! ## (a) A sum over A*B indices is a double sum -/

/-- A sum over k < A*B is the sum over i < A of the sums over j < B of the term at
   k = i*B + j (the index read block-major: block i, place j inside it). -/
theorem sum_mul_blocks (A B : ℕ) (f : Fin (A * B) → M)
    (h : ∀ (i : Fin A) (j : Fin B), i.val * B + j.val < A * B) :
    ∑ k : Fin (A * B), f k = ∑ i : Fin A, ∑ j : Fin B, f ⟨i.val * B + j.val, h i j⟩ := by
  rw [← (finProdFinEquiv (m := A) (n := B)).sum_comp f, Fintype.sum_prod_type]
  refine Finset.sum_congr rfl fun i _ => Finset.sum_congr rfl fun j _ => ?_
  refine congrArg f (Fin.ext ?_)
  show j.val + B * i.val = i.val * B + j.val
  rw [Nat.mul_comm, Nat.add_comm]

/-- The bound i*B + j < A*B for i < A, j < B. -/
theorem mul_add_lt {A B : ℕ} (i : Fin A) (j : Fin B) : i.val * B + j.val < A * B :=
  calc i.val * B + j.val < i.val * B + B := Nat.add_lt_add_left j.isLt _
    _ = (i.val + 1) * B := (Nat.succ_mul _ _).symm
    _ ≤ A * B := Nat.mul_le_mul_right _ i.isLt

/-- The same sum with the two summations exchanged: first over the place j inside a block, then
   over the blocks i (the index k = i*B + j regrouped place-major). -/
theorem sum_mul_blocks_swap (A B : ℕ) (f : Fin (A * B) → M)
    (h : ∀ (i : Fin A) (j : Fin B), i.val * B + j.val < A * B) :
    ∑ k : Fin (A * B), f k = ∑ j : Fin B, ∑ i : Fin A, f ⟨i.val * B + j.val, h i j⟩ := by
  rw [sum_mul_blocks A B f h, Finset.sum_comm]

/-- 81 = 9*9, block-major: k = t*9 + g summed over t then g. -/
theorem sum_81 (f : Fin 81 → M) :
    ∑ k : Fin 81, f k = ∑ t : Fin 9, ∑ g : Fin 9, f ⟨t.val * 9 + g.val, by omega⟩ :=
  sum_mul_blocks 9 9 f fun t g => by omega

/-- 81 = 9*9 regrouped: k = t*9 + g summed over g first (outer), then t (inner). -/
theorem sum_81_swap (f : Fin 81 → M) :
    ∑ k : Fin 81, f k = ∑ g : Fin 9, ∑ t : Fin 9, f ⟨t.val * 9 + g.val, by omega⟩ :=
  sum_mul_blocks_swap 9 9 f fun t g => by omega

/-- 625 = 25*25, block-major: k = g*25 + s summed over g then s. -/
theorem sum_625 (f : Fin 625 → M) :
    ∑ k : Fin 625, f k = ∑ g : Fin 25, ∑ s : Fin 25, f ⟨g.val * 25 + s.val, by omega⟩ :=
  sum_mul_blocks 25 25 f fun g s => by omega

/-- 625 = 25*25 regrouped: the place s outer, the block g inner. -/
theorem sum_625_swap (f : Fin 625 → M) :
    ∑ k : Fin 625, f k = ∑ s : Fin 25, ∑ g : Fin 25, f ⟨g.val * 25 + s.val, by omega⟩ :=
  sum_mul_blocks_swap 25 25 f fun g s => by omega

/-! ## (b) A zero tail contributes nothing -/

/-- If the terms from place a on are all zero, a sum over a + b indices is the sum over the
   first a. -/
theorem sum_drop_zero_tail (a b : ℕ) (f : Fin (a + b) → M)
    (hz : ∀ k : Fin (a + b), a ≤ k.val → f k = 0) :
    ∑ k : Fin (a + b), f k = ∑ k : Fin a, f ⟨k.val, Nat.lt_add_right b k.isLt⟩ := by
  rw [Fin.sum_univ_add]
  have htail : ∑ i : Fin b, f (Fin.natAdd a i) = 0 :=
    Finset.sum_eq_zero fun i _ => hz _ (by show a ≤ a + i.val; exact Nat.le_add_right _ _)
  rw [htail, add_zero]
  rfl

/-- 640 = 625 + 15: a sum over 640 places whose last 15 terms vanish is the sum over the first
   625. -/
theorem sum_640_eq_625 (f : Fin 640 → M) (hz : ∀ k : Fin 640, 625 ≤ k.val → f k = 0) :
    ∑ k : Fin 640, f k = ∑ k : Fin 625, f ⟨k.val, by omega⟩ :=
  sum_drop_zero_tail 625 15 f hz

/-! ## (c) Terms accumulated one after the other from the first are the sum -/

/-- The accumulation x 0, then (+ x 1), ..., then (+ x n): the left-nested sum of the first
   n + 1 terms of a sequence. -/
def accum (x : ℕ → M) : ℕ → M
  | 0 => x 0
  | n + 1 => accum x n + x (n + 1)

/-- The accumulation of the first n + 1 terms is their sum. -/
theorem accum_eq_sum_range (x : ℕ → M) (n : ℕ) : accum x n = ∑ i ∈ Finset.range (n + 1), x i := by
  induction n with
  | zero => simp [accum]
  | succ n ih => rw [accum, ih, Finset.sum_range_succ (n := n + 1)]

/-- The accumulation of a family indexed by Fin (n+1), the terms taken in order from the first:
   it is the family's sum. -/
theorem accum_fin_eq_sum (n : ℕ) (g : Fin (n + 1) → M) :
    accum (fun i => if h : i < n + 1 then g ⟨i, h⟩ else 0) n = ∑ i : Fin (n + 1), g i := by
  rw [accum_eq_sum_range, ← Fin.sum_univ_eq_sum_range (fun i => if h : i < n + 1 then g ⟨i, h⟩ else 0)]
  exact Finset.sum_congr rfl fun i _ => by simp [i.isLt]

/-- Nine terms accumulated from the first, written out: the left-nested sum is the sum. -/
theorem accum_9 (g : Fin 9 → M) :
    g 0 + g 1 + g 2 + g 3 + g 4 + g 5 + g 6 + g 7 + g 8 = ∑ i : Fin 9, g i := by
  rw [Fin.sum_univ_castSucc, Fin.sum_univ_eight]
  rfl

/-- Twenty-five terms accumulated from the first, written out: the left-nested sum is the sum. -/
theorem accum_25 (g : Fin 25 → M) :
    g 0 + g 1 + g 2 + g 3 + g 4 + g 5 + g 6 + g 7 + g 8 + g 9 + g 10 + g 11 + g 12 + g 13 + g 14
      + g 15 + g 16 + g 17 + g 18 + g 19 + g 20 + g 21 + g 22 + g 23 + g 24 = ∑ i : Fin 25, g i := by
  iterate 17 rw [Fin.sum_univ_castSucc]
  rw [Fin.sum_univ_eight]
  rfl

/-! ## The extended reals -/

/-- The extended reals are a commutative additive monoid: every lemma above applies to them. -/
noncomputable example : AddCommMonoid EReal := inferInstance

/-- Zero times an extended real is zero: a zero-padded factor contributes a zero term. -/
theorem ereal_zero_mul (x : EReal) : (0 : EReal) * x = 0 := zero_mul x

/-- An extended real times zero is zero. -/
theorem ereal_mul_zero (x : EReal) : x * (0 : EReal) = 0 := mul_zero x

end Cert.Lib.SumBlocks
-- ==== Proof.LibStack9.lean ====
/- Nine matrices of nine rows and equal width stacked one under the other, read at an entry, and a
   block of columns cut out of a matrix, read at an entry.

   Row r = t*9 + g of the stack (t, g < 9) is row g of the t-th piece: the row index over nine names
   the piece and the remainder the row inside it. A block of columns starting at column o reads, at
   column p, the matrix's column p + o. -/
import Idealize.ShloMosaic.Lib.Pipeline.Value
import Idealize.ShloMosaic.Lib.ValueIdx
import Idealize.ShloMosaic.Lib.ValueLayout

noncomputable section

namespace Cert.Lib.Stack9

open Idealize.ShloMosaic Idealize.ShloMosaic.ValueIdx

variable {α : Type} {W : Nat}

/-- The nine-row shape of width W, nine times: the shapes of the stacked pieces. -/
abbrev shapes9 (W : Nat) : List Shape :=
  [⟨2, ![9, W]⟩, ⟨2, ![9, W]⟩, ⟨2, ![9, W]⟩, ⟨2, ![9, W]⟩, ⟨2, ![9, W]⟩, ⟨2, ![9, W]⟩, ⟨2, ![9, W]⟩, ⟨2, ![9, W]⟩,
    ⟨2, ![9, W]⟩]

/-- The stack of the nine pieces x 0, ..., x 8 (each 9 by W), read at row t*9 + g and column p, is
   the piece x t at row g and column p. -/
theorem stack9_apply (hcat : Shape.Concatenates (shapes9 W) ⟨2, ![81, W]⟩ 0)
    (x : Fin 9 → ((⟨2, ![9, W]⟩ : Shape).Idx → α)) (t g : Fin 9) (p : Fin W) (h81 : t.val * 9 + g.val < 81) :
    concatenate ⟨2, ![81, W]⟩ 0
        [⟨⟨2, ![9, W]⟩, x 0⟩, ⟨⟨2, ![9, W]⟩, x 1⟩, ⟨⟨2, ![9, W]⟩, x 2⟩, ⟨⟨2, ![9, W]⟩, x 3⟩, ⟨⟨2, ![9, W]⟩, x 4⟩,
          ⟨⟨2, ![9, W]⟩, x 5⟩, ⟨⟨2, ![9, W]⟩, x 6⟩, ⟨⟨2, ![9, W]⟩, x 7⟩, ⟨⟨2, ![9, W]⟩, x 8⟩] hcat
        (ix2 ⟨t.val * 9 + g.val, h81⟩ p)
      = x t (ix2 g p) := by
  refine concatenate_ofFn_apply (t := ⟨2, ![81, W]⟩) (s₁ := ⟨2, ![9, W]⟩) (0 : Fin 2) x hcat rfl 9 rfl
    (ix2 ⟨t.val * 9 + g.val, h81⟩ p) t ?_ (ix2 g p) ?_ (fun b hb => ?_)
  · show (t.val * 9 + g.val) / 9 = t.val
    have := g.isLt; omega
  · show g.val = (t.val * 9 + g.val) % 9
    have := g.isLt; omega
  · match b with
    | ⟨0, _⟩ => exact absurd rfl hb
    | ⟨1, _⟩ => rfl

/-- The same with the nine pieces named one by one: the stack of x0, ..., x8 at row t*9 + g and
   column p is the t-th of them at row g and column p. -/
theorem stack9_apply_pieces (hcat : Shape.Concatenates (shapes9 W) ⟨2, ![81, W]⟩ 0)
    (x0 x1 x2 x3 x4 x5 x6 x7 x8 : (⟨2, ![9, W]⟩ : Shape).Idx → α) (t g : Fin 9) (p : Fin W)
    (h81 : t.val * 9 + g.val < 81) :
    concatenate ⟨2, ![81, W]⟩ 0
        [⟨⟨2, ![9, W]⟩, x0⟩, ⟨⟨2, ![9, W]⟩, x1⟩, ⟨⟨2, ![9, W]⟩, x2⟩, ⟨⟨2, ![9, W]⟩, x3⟩, ⟨⟨2, ![9, W]⟩, x4⟩,
          ⟨⟨2, ![9, W]⟩, x5⟩, ⟨⟨2, ![9, W]⟩, x6⟩, ⟨⟨2, ![9, W]⟩, x7⟩, ⟨⟨2, ![9, W]⟩, x8⟩] hcat
        (ix2 ⟨t.val * 9 + g.val, h81⟩ p)
      = (![x0, x1, x2, x3, x4, x5, x6, x7, x8] : Fin 9 → ((⟨2, ![9, W]⟩ : Shape).Idx → α)) t (ix2 g p) :=
  stack9_apply hcat ![x0, x1, x2, x3, x4, x5, x6, x7, x8] t g p h81

/-- Every row r < 81 is t*9 + g for the piece t = r / 9 and the row g = r % 9 inside it. -/
theorem row81_split (r : Fin 81) :
    ∃ (t g : Fin 9) (h : t.val * 9 + g.val < 81), r = ⟨t.val * 9 + g.val, h⟩ :=
  ⟨⟨r.val / 9, by have := r.isLt; omega⟩, ⟨r.val % 9, Nat.mod_lt _ (by decide)⟩,
    by have := r.isLt; show r.val / 9 * 9 + r.val % 9 < 81; omega,
    Fin.ext (by show r.val = r.val / 9 * 9 + r.val % 9; omega)⟩

/-- A block of W columns of a 9 by W' matrix starting at column o, read at row g and column p, is
   the matrix at row g and column p + o. -/
theorem slice_cols_apply {W' : Nat} (o : Nat) (v : (⟨2, ![9, W']⟩ : Shape).Idx → α)
    (h : (⟨2, ![9, W']⟩ : Shape).Slices ![0, o] ⟨2, ![9, W]⟩) (g : Fin 9) (p : Fin W) (hp : p.val + o < W') :
    extractStridedSlice ⟨2, ![9, W]⟩ ![0, o] v h (ix2 g p) = v (ix2 g ⟨p.val + o, hp⟩) :=
  slice2_axis1_apply o v h g p ⟨p.val + o, hp⟩ (Nat.add_comm _ _)

/-- The column bound a block of columns carries: column p of the block is column p + o < W' of the
   matrix. -/
theorem slice_cols_bound {W' : Nat} {o : Nat}
    (h : (⟨2, ![9, W']⟩ : Shape).Slices ![0, o] ⟨2, ![9, W]⟩) (p : Fin W) : p.val + o < W' := by
  have h1 : o + W ≤ W' := h.2 1
  have := p.isLt
  omega

end Cert.Lib.Stack9

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.KI.ConvValue.lean ====
/- The convolution layers' stored value, read entry by entry on the extended reals.

   A conv body stores max(W · A, 0) where W is the 5 by 81 weight matrix and A is the 81 by 8192 stack
   of nine column blocks of the 9 by 8320 feature matrix Φ (row g of Φ: feature g of every pixel of the
   tile and its halo), block t cut at column offset o t. Row t*9 + g of A is row g of Φ shifted by o t,
   so entry (c, p) of the product is the sum over k = t*9 + g of W (c, k) · Φ (g, p + o t); regrouped
   by feature group g first and tap t second it is
       ∑ g, ∑ t, W (c, t*9 + g) · Φ (g, p + o t),
   the same terms a group-by-group accumulation adds up. The first layer's offsets are those of a
   3 by 3 window in an image 28 pixels wide, the second layer's in an image 13 pixels wide. -/
import proofs.«125140_g2000505823476311_pallasbulk_1268_6_alg».proof.Proof.Gen.KernelIdeal.Skeleton
import proofs.«125140_g2000505823476311_pallasbulk_1268_6_alg».proof.Proof.LibSumBlocks
import proofs.«125140_g2000505823476311_pallasbulk_1268_6_alg».proof.Proof.LibStack9
import proofs.«125140_g2000505823476311_pallasbulk_1268_6_alg».proof.Proof.LibPlainProduct

noncomputable section

namespace Cert.KI.ConvValue

open Idealize.ShloMosaic Idealize.ShloMosaic.ValueIdx Cert.KernelIdeal Cert.KernelIdeal.Gen

/-- The column offsets of the nine taps of a 3 by 3 window in a row-major image 28 pixels wide:
   tap t = 3·di + dj sits di·28 + dj pixels after the window's first pixel. -/
def off28 : Fin 9 → Nat := ![0, 1, 2, 28, 29, 30, 56, 57, 58]

/-- The same in an image 13 pixels wide. -/
def off13 : Fin 9 → Nat := ![0, 1, 2, 13, 14, 15, 26, 27, 28]

/-- Each block of 8192 columns cut at a first-layer offset lies inside the 8320 columns. -/
theorem off28_slices : ∀ k : Fin 9, S9x8320.Slices ![0, off28 k] S9x8192 := by decide

/-- Each block of 8192 columns cut at a second-layer offset lies inside the 8320 columns. -/
theorem off13_slices : ∀ k : Fin 9, S9x8320.Slices ![0, off13 k] S9x8192 := by decide

/-- Column p of the block cut at tap t's first-layer offset is a column of the feature matrix. -/
theorem col28_lt (t : Fin 9) (p : Fin 8192) : p.val + off28 t < 8320 :=
  Cert.Lib.Stack9.slice_cols_bound (off28_slices t) p

/-- Column p of the block cut at tap t's second-layer offset is a column of the feature matrix. -/
theorem col13_lt (t : Fin 9) (p : Fin 8192) : p.val + off13 t < 8320 :=
  Cert.Lib.Stack9.slice_cols_bound (off13_slices t) p

/-- The stack A of the nine column blocks of Φ cut at the offsets o 0, ..., o 8, read at row t*9 + g
   and column p, is Φ at row g and column p + o t. -/
theorem stacked_apply (o : Fin 9 → Nat) (ho : ∀ k : Fin 9, S9x8320.Slices ![0, o k] S9x8192)
    (hcat : Shape.Concatenates [S9x8192, S9x8192, S9x8192, S9x8192, S9x8192, S9x8192, S9x8192, S9x8192, S9x8192] S81x8192 0)
    (Φ : FVec Ideal S9x8320 .f32) (t g : Fin 9) (p : Fin 8192) :
    concatenate S81x8192 0
      [⟨S9x8192, extractStridedSlice S9x8192 ![0, o 0] Φ (ho 0)⟩,
       ⟨S9x8192, extractStridedSlice S9x8192 ![0, o 1] Φ (ho 1)⟩,
       ⟨S9x8192, extractStridedSlice S9x8192 ![0, o 2] Φ (ho 2)⟩,
       ⟨S9x8192, extractStridedSlice S9x8192 ![0, o 3] Φ (ho 3)⟩,
       ⟨S9x8192, extractStridedSlice S9x8192 ![0, o 4] Φ (ho 4)⟩,
       ⟨S9x8192, extractStridedSlice S9x8192 ![0, o 5] Φ (ho 5)⟩,
       ⟨S9x8192, extractStridedSlice S9x8192 ![0, o 6] Φ (ho 6)⟩,
       ⟨S9x8192, extractStridedSlice S9x8192 ![0, o 7] Φ (ho 7)⟩,
       ⟨S9x8192, extractStridedSlice S9x8192 ![0, o 8] Φ (ho 8)⟩]
      hcat (ix2 ⟨t.val * 9 + g.val, by omega⟩ p)
      = Φ (ix2 g ⟨p.val + o t, Cert.Lib.Stack9.slice_cols_bound (ho t) p⟩) :=
  (Cert.Lib.Stack9.stack9_apply hcat (fun k => extractStridedSlice S9x8192 ![0, o k] Φ (ho k)) t g p _).trans
    (Cert.Lib.Stack9.slice_cols_apply (o t) Φ (ho t) g p _)

/-- The product of the weights with the stack, accumulated into zero and clipped below at zero, at
   entry (c, p): the sum over the feature groups g and the taps t of W (c, t*9 + g) · Φ (g, p + o t),
   clipped below at zero. -/
theorem conv_core (o : Fin 9 → Nat) (ho : ∀ k : Fin 9, S9x8320.Slices ![0, o k] S9x8192)
    (hcat : Shape.Concatenates [S9x8192, S9x8192, S9x8192, S9x8192, S9x8192, S9x8192, S9x8192, S9x8192, S9x8192] S81x8192 0)
    (Φ : FVec Ideal S9x8320 .f32) (W : FVec Ideal S5x81 .f32) (c : Fin 5) (p : Fin 8192) :
    max (matmul dot_S5x81_S81x8192_S5x8192_1_0_0_1_n_n none W
          (concatenate S81x8192 0
            [⟨S9x8192, extractStridedSlice S9x8192 ![0, o 0] Φ (ho 0)⟩,
             ⟨S9x8192, extractStridedSlice S9x8192 ![0, o 1] Φ (ho 1)⟩,
             ⟨S9x8192, extractStridedSlice S9x8192 ![0, o 2] Φ (ho 2)⟩,
             ⟨S9x8192, extractStridedSlice S9x8192 ![0, o 3] Φ (ho 3)⟩,
             ⟨S9x8192, extractStridedSlice S9x8192 ![0, o 4] Φ (ho 4)⟩,
             ⟨S9x8192, extractStridedSlice S9x8192 ![0, o 5] Φ (ho 5)⟩,
             ⟨S9x8192, extractStridedSlice S9x8192 ![0, o 6] Φ (ho 6)⟩,
             ⟨S9x8192, extractStridedSlice S9x8192 ![0, o 7] Φ (ho 7)⟩,
             ⟨S9x8192, extractStridedSlice S9x8192 ![0, o 8] Φ (ho 8)⟩]
            hcat)
          (constant S5x8192 .f32 0x00000000#32) (ix2 c p)) (0 : EReal)
      = max (∑ g : Fin 9, ∑ t : Fin 9,
              W (ix2 c ⟨t.val * 9 + g.val, by omega⟩)
                * Φ (ix2 g ⟨p.val + o t, Cert.Lib.Stack9.slice_cols_bound (ho t) p⟩)) 0 := by
  have hd : dot_S5x81_S81x8192_S5x8192_1_0_0_1_n_n = DotDims.plain 5 81 8192 := rfl
  rw [hd]
  refine congrArg (fun z : EReal => max z 0) ?_
  refine (Cert.LibPlainProduct.matmul_plain_zero_apply none W _ c p).trans ?_
  rw [Cert.Lib.SumBlocks.sum_81_swap]
  refine Finset.sum_congr rfl fun g _ => Finset.sum_congr rfl fun t _ => ?_
  exact congrArg (fun z : EReal => W (ix2 c ⟨t.val * 9 + g.val, by omega⟩) * z) (stacked_apply o ho hcat Φ t g p)

/-- The first conv body's stored value at entry (c, p): with Φ the 9 by 8320 feature matrix, its first
   five column blocks (offsets 0, 1, 2, 28, 29) passed in as computed before, and W the 5 by 81 weights,
   it is the sum over feature groups g and taps t of W (c, t*9 + g) · Φ (g, p + off28 t), clipped below
   at zero. -/
theorem k0_pay1_apply (Φ : FVec Ideal S9x8320 .f32) (v278 v279 v280 v281 v282 : FVec Ideal S9x8192 .f32)
    (W : Vec Ideal S5x81 .f32)
    (h278 : v278 = extractStridedSlice S9x8192 ![0, 0] Φ (off28_slices 0))
    (h279 : v279 = extractStridedSlice S9x8192 ![0, 1] Φ (off28_slices 1))
    (h280 : v280 = extractStridedSlice S9x8192 ![0, 2] Φ (off28_slices 2))
    (h281 : v281 = extractStridedSlice S9x8192 ![0, 28] Φ (off28_slices 3))
    (h282 : v282 = extractStridedSlice S9x8192 ![0, 29] Φ (off28_slices 4))
    (c : Fin 5) (p : Fin 8192) :
    k0_pay1 (F := Ideal) Φ v278 v279 v280 v281 v282 W (ix2 c p)
      = max (∑ g : Fin 9, ∑ t : Fin 9,
              W (ix2 c ⟨t.val * 9 + g.val, by omega⟩) * Φ (ix2 g ⟨p.val + off28 t, col28_lt t p⟩)) 0 := by
  subst h278 h279 h280 h281 h282
  unfold k0_pay1
  rw [maximumf_apply, broadcast_apply, shapeCast_self]
  show max _ (Ideal.ofBits .f32 0x00000000#32) = _
  rw [Ideal.ofBits_zero_f32]
  exact conv_core off28 off28_slices _ Φ W c p

/-- The second conv body's stored value at entry (c, p): the same with the offsets of an image 13
   pixels wide (the five blocks passed in are those at offsets 0, 1, 2, 13, 14). -/
theorem k1_pay1_apply (Φ : FVec Ideal S9x8320 .f32) (v278 v279 v280 v281 v282 : FVec Ideal S9x8192 .f32)
    (W : Vec Ideal S5x81 .f32)
    (h278 : v278 = extractStridedSlice S9x8192 ![0, 0] Φ (off13_slices 0))
    (h279 : v279 = extractStridedSlice S9x8192 ![0, 1] Φ (off13_slices 1))
    (h280 : v280 = extractStridedSlice S9x8192 ![0, 2] Φ (off13_slices 2))
    (h281 : v281 = extractStridedSlice S9x8192 ![0, 13] Φ (off13_slices 3))
    (h282 : v282 = extractStridedSlice S9x8192 ![0, 14] Φ (off13_slices 4))
    (c : Fin 5) (p : Fin 8192) :
    k1_pay1 (F := Ideal) Φ v278 v279 v280 v281 v282 W (ix2 c p)
      = max (∑ g : Fin 9, ∑ t : Fin 9,
              W (ix2 c ⟨t.val * 9 + g.val, by omega⟩) * Φ (ix2 g ⟨p.val + off13 t, col13_lt t p⟩)) 0 := by
  subst h278 h279 h280 h281 h282
  unfold k1_pay1
  rw [maximumf_apply, broadcast_apply, shapeCast_self]
  show max _ (Ideal.ofBits .f32 0x00000000#32) = _
  rw [Ideal.ofBits_zero_f32]
  exact conv_core off13 off13_slices _ Φ W c p

/-- The first conv body's stored value with the feature matrix and its five blocks as the body
   computes them (the body's own intermediate values): entry (c, p) in terms of the feature matrix. -/
theorem k0_stored_apply (v5 v170 v177 v184 v191 v198 v205 v207 v216 v223 v225 v230 v231 : FVec Ideal S65x128 .f32)
    (W : Vec Ideal S5x81 .f32) (c : Fin 5) (p : Fin 8192) :
    k0_pay1 (F := Ideal)
        (k0_pay74 v5 v170 v177 v184 v191 v198 v205 v207 v216 v223 v225 v230 v231)
        (k0_pay75 v5 v170 v177 v184 v191 v198 v205 v207 v216 v223 v225 v230 v231)
        (k0_pay76 v5 v170 v177 v184 v191 v198 v205 v207 v216 v223 v225 v230 v231)
        (k0_pay77 v5 v170 v177 v184 v191 v198 v205 v207 v216 v223 v225 v230 v231)
        (k0_pay78 v5 v170 v177 v184 v191 v198 v205 v207 v216 v223 v225 v230 v231)
        (k0_pay79 v5 v170 v177 v184 v191 v198 v205 v207 v216 v223 v225 v230 v231) W (ix2 c p)
      = max (∑ g : Fin 9, ∑ t : Fin 9,
              W (ix2 c ⟨t.val * 9 + g.val, by omega⟩)
                * k0_pay74 v5 v170 v177 v184 v191 v198 v205 v207 v216 v223 v225 v230 v231
                    (ix2 g ⟨p.val + off28 t, col28_lt t p⟩)) 0 :=
  k0_pay1_apply _ _ _ _ _ _ W rfl rfl rfl rfl rfl c p

/-- The second conv body's stored value with the feature matrix and its five blocks as the body
   computes them. -/
theorem k1_stored_apply (v5 v170 v177 v184 v191 v198 v205 v207 v216 v223 v225 v230 v231 : FVec Ideal S65x128 .f32)
    (W : Vec Ideal S5x81 .f32) (c : Fin 5) (p : Fin 8192) :
    k1_pay1 (F := Ideal)
        (k1_pay74 v5 v170 v177 v184 v191 v198 v205 v207 v216 v223 v225 v230 v231)
        (k1_pay75 v5 v170 v177 v184 v191 v198 v205 v207 v216 v223 v225 v230 v231)
        (k1_pay76 v5 v170 v177 v184 v191 v198 v205 v207 v216 v223 v225 v230 v231)
        (k1_pay77 v5 v170 v177 v184 v191 v198 v205 v207 v216 v223 v225 v230 v231)
        (k1_pay78 v5 v170 v177 v184 v191 v198 v205 v207 v216 v223 v225 v230 v231)
        (k1_pay79 v5 v170 v177 v184 v191 v198 v205 v207 v216 v223 v225 v230 v231) W (ix2 c p)
      = max (∑ g : Fin 9, ∑ t : Fin 9,
              W (ix2 c ⟨t.val * 9 + g.val, by omega⟩)
                * k1_pay74 v5 v170 v177 v184 v191 v198 v205 v207 v216 v223 v225 v230 v231
                    (ix2 g ⟨p.val + off13 t, col13_lt t p⟩)) 0 :=
  k1_pay1_apply _ _ _ _ _ _ W rfl rfl rfl rfl rfl c p

end Cert.KI.ConvValue

end
-- ==== Proof.KI.FeatArray.lean ====
/-
  The feature array of a convolution body. From the 8192 lanes of a tile and the 128 lanes after it, laid out as 65 × 128,
  the body's first six parts compute a 9 × 8320 array — nine rows of 8320 lanes — of which the stored value takes nine
  shifted column blocks. This module names that array as a function of the two loaded blocks: the composition of the
  skeleton's payloads along those parts.
-/
import proofs.«125140_g2000505823476311_pallasbulk_1268_6_alg».proof.Proof.Gen.KernelIdeal.Skeleton

noncomputable section

namespace Cert.KernelIdeal.Val

open Idealize.ShloMosaic Cert.KernelIdeal Cert.KernelIdeal.Gen

variable {F : FTy → Type} [FloatOps F]

/-- The first convolution's 9 × 8320 feature array, from the tile's block `v0` and the block after it `v2`. -/
def feats0 (v0 : Vec F S1x8192 .f32) (v2 : Vec F S1x128 .f32) : FVec F S9x8320 .f32 :=
  let v5 := k0_pay2 v0 v2
  let v9 := k0_pay3 v0 v2
  let v13 := k0_pay4 v0 v2
  let v17 := k0_pay5 v0 v2
  let v21 := k0_pay6 v0 v2
  let v25 := k0_pay7 v0 v2
  let v29 := k0_pay8 v0 v2
  let v33 := k0_pay9 v0 v2
  let v37 := k0_pay10 v0 v2
  let v41 := k0_pay11 v0 v2
  let v44 := k0_pay12 v0 v2
  let v58 := k0_pay18 v25 v29
  let v59 := k0_pay19 v29 v33
  let v60 := k0_pay20 v33 v37
  let v61 := k0_pay21 v37 v41
  let v62 := k0_pay22 v41 v44
  let v63 := k0_pay23 v5 v44
  let v64 := k0_pay24 v5
  let v66 := k0_pay25 v5
  let v75 := k0_pay27 v5 v9 v13 v17
  let v82 := k0_pay29 v5 v13 v17 v21
  let v89 := k0_pay31 v5 v17 v21 v25
  let v91 := k0_pay32 v5
  let v92 := k0_pay33 v5 v21 v25
  let cst_23 : F .f32 := Scalar.ofBits .f32 0x3F800000#32
  let v96 := k0_pay34 v58 v91 v92 cst_23
  let v103 := k0_pay36 v58 v59 v66 v91
  let v110 := k0_pay38 v59 v60 v66
  let v117 := k0_pay40 v60 v61 v66
  let v124 := k0_pay42 v61 v62 v66
  let v131 := k0_pay44 v62 v63 v66
  let v138 := k0_pay45 v63 v64 v66
  let v139 : FVec F S65x128 .f32 := k0_pay46
  let v140 := k0_pay47 v5 v139
  let v149 := k0_pay49 v5 v75 v82 v139
  let v156 := k0_pay51 v5 v82 v89 v139
  let v163 := k0_pay53 v5 v89 v96 v139
  let v170 := k0_pay55 v5 v96 v103 v139
  let v177 := k0_pay57 v5 v103 v110 v139
  let v179 := k0_pay58 v5 v139
  let v184 := k0_pay59 v5 v110 v117 v139
  let v185 : FVec F S65x128 .f32 := k0_pay60
  let v191 := k0_pay62 v117 v124 v140 v179 v185
  let v198 := k0_pay64 v124 v131 v140 v185
  let v205 := k0_pay65 v131 v138 v140
  let v207 := k0_pay66 v5
  let v216 := k0_pay68 v5 v149 v156
  let v223 := k0_pay70 v5 v156 v163
  let v225 := k0_pay71 v5
  let v230 := k0_pay72 v5 v163 v170
  let v231 : FVec F S65x128 .f32 := k0_pay73
  k0_pay74 v5 v170 v177 v184 v191 v198 v205 v207 v216 v223 v225 v230 v231

/-- The second convolution's 9 × 8320 feature array, from the tile's block `v0` and the block after it `v2`. -/
def feats1 (v0 : Vec F S1x8192 .f32) (v2 : Vec F S1x128 .f32) : FVec F S9x8320 .f32 :=
  let v5 := k1_pay2 v0 v2
  let v9 := k1_pay3 v0 v2
  let v13 := k1_pay4 v0 v2
  let v17 := k1_pay5 v0 v2
  let v21 := k1_pay6 v0 v2
  let v25 := k1_pay7 v0 v2
  let v29 := k1_pay8 v0 v2
  let v33 := k1_pay9 v0 v2
  let v37 := k1_pay10 v0 v2
  let v41 := k1_pay11 v0 v2
  let v44 := k1_pay12 v0 v2
  let v58 := k1_pay18 v25 v29
  let v59 := k1_pay19 v29 v33
  let v60 := k1_pay20 v33 v37
  let v61 := k1_pay21 v37 v41
  let v62 := k1_pay22 v41 v44
  let v63 := k1_pay23 v5 v44
  let v64 := k1_pay24 v5
  let v66 := k1_pay25 v5
  let v75 := k1_pay27 v5 v9 v13 v17
  let v82 := k1_pay29 v5 v13 v17 v21
  let v89 := k1_pay31 v5 v17 v21 v25
  let v91 := k1_pay32 v5
  let v92 := k1_pay33 v5 v21 v25
  let cst_23 : F .f32 := Scalar.ofBits .f32 0x3F800000#32
  let v96 := k1_pay34 v58 v91 v92 cst_23
  let v103 := k1_pay36 v58 v59 v66 v91
  let v110 := k1_pay38 v59 v60 v66
  let v117 := k1_pay40 v60 v61 v66
  let v124 := k1_pay42 v61 v62 v66
  let v131 := k1_pay44 v62 v63 v66
  let v138 := k1_pay45 v63 v64 v66
  let v139 : FVec F S65x128 .f32 := k1_pay46
  let v140 := k1_pay47 v5 v139
  let v149 := k1_pay49 v5 v75 v82 v139
  let v156 := k1_pay51 v5 v82 v89 v139
  let v163 := k1_pay53 v5 v89 v96 v139
  let v170 := k1_pay55 v5 v96 v103 v139
  let v177 := k1_pay57 v5 v103 v110 v139
  let v179 := k1_pay58 v5 v139
  let v184 := k1_pay59 v5 v110 v117 v139
  let v185 : FVec F S65x128 .f32 := k1_pay60
  let v191 := k1_pay62 v117 v124 v140 v179 v185
  let v198 := k1_pay64 v124 v131 v140 v185
  let v205 := k1_pay65 v131 v138 v140
  let v207 := k1_pay66 v5
  let v216 := k1_pay68 v5 v149 v156
  let v223 := k1_pay70 v5 v156 v163
  let v225 := k1_pay71 v5
  let v230 := k1_pay72 v5 v163 v170
  let v231 : FVec F S65x128 .f32 := k1_pay73
  k1_pay74 v5 v170 v177 v184 v191 v198 v205 v207 v216 v223 v225 v230 v231

end Cert.KernelIdeal.Val

end
-- ==== Proof.KI.ConvPoint.lean ====
/-
  A convolution body's stored block at one entry. The body lays the tile's 8192 lanes and the 128 lanes after them out as
  65 × 128, computes the nine features of every lane, and stores, at channel ch and lane p, the weighted sum over feature
  groups and taps of the features of the lanes at the taps' offsets after p, clipped below at zero.
-/
import proofs.«125140_g2000505823476311_pallasbulk_1268_6_alg».proof.Proof.KI.Region0
import proofs.«125140_g2000505823476311_pallasbulk_1268_6_alg».proof.Proof.KI.Region1
import proofs.«125140_g2000505823476311_pallasbulk_1268_6_alg».proof.Proof.KI.ConvValue
import proofs.«125140_g2000505823476311_pallasbulk_1268_6_alg».proof.Proof.KI.FeatArray
import Idealize.ShloMosaic.Lib.Pipeline.Value

set_option maxRecDepth 16384

noncomputable section

namespace Cert.KernelIdeal.Val

open Idealize.ShloMosaic Idealize.ShloMosaic.ValueIdx
open Cert.KernelIdeal Cert.KernelIdeal.Gen Cert.KI.ConvValue

theorem hz2 : (![0, 0] : Fin 2 → Nat) = fun _ => 0 := funext fun a => by fin_cases a <;> rfl

/-- The 8320 lanes a body sees: the tile's 8192 lanes, then the 128 lanes after it. -/
def lanes (x0 : Vec Ideal S1x8192 .f32) (x1 : Vec Ideal S1x128 .f32) (l : Fin 8320) : EReal :=
  if h : l.val < 8192 then x0 (ix2 (0 : Fin 1) (⟨l.val, h⟩ : Fin 8192)) else x1 (ix2 (0 : Fin 1) (⟨l.val - 8192, by omega⟩ : Fin 128))

/-- The first lanes-array entry of layer 0: row r, lane l of the 65 × 128 layout is lane r·128 + l of the 8320. -/
theorem pixels0_apply (v0 : Vec Ideal S1x8192 .f32) (v2 : Vec Ideal S1x128 .f32) (r : Fin 65) (l : Fin 128) :
    k0_pay2 (F := Ideal) v0 v2 (ix2 r l) = lanes v0 v2 (⟨r.val * 128 + l.val, by omega⟩ : Fin 8320) := by
  unfold k0_pay2
  rw [shapeCast_apply _ shapeCasts_S1x8320_S65x128 (ix2 r l) (ix2 (0 : Fin 1) (⟨r.val * 128 + l.val, by omega⟩ : Fin 8320)) (by
    rw [Shape.rowMajor_val_two, Shape.rowMajor_val_two]
    show 0 * 8320 + (r.val * 128 + l.val) = r.val * 128 + l.val
    omega)]
  unfold lanes
  by_cases h : r.val * 128 + l.val < 8192
  · rw [dif_pos h]
    rw [concatenate_pair_apply_left (t := S1x8320) (s₁ := S1x8192) (s₂ := S1x128) (1 : Fin 2) _ _ concatenates_S1x8192_S1x128_S1x8320_d1 _ rfl
      (ix2 (0 : Fin 1) (⟨r.val * 128 + l.val, h⟩ : Fin 8192)) (by intro b; fin_cases b <;> rfl)]
    rw [shapeCast_self]
  · rw [dif_neg h]
    rw [concatenate_pair_apply_right (t := S1x8320) (s₁ := S1x8192) (s₂ := S1x128) (1 : Fin 2) _ _ concatenates_S1x8192_S1x128_S1x8320_d1 _ rfl rfl
      (ix2 (0 : Fin 1) (⟨r.val * 128 + l.val - 8192, by omega⟩ : Fin 128)) (by
        intro b hb; fin_cases b
        · rfl
        · exact absurd rfl hb) (by
        show (r.val * 128 + l.val - 8192) + 8192 = r.val * 128 + l.val
        omega)]
    rw [shapeCast_self]

/-- Layer 0's stored block at channel ch and lane p, given that row g of the feature array is feature g of every
    lane: the sum over feature groups g and taps t of the weight at (ch, t·9 + g) times feature g of the lane at tap t's
    offset after p, clipped below at zero. -/
theorem conv0_block_apply (feat : Fin 9 → EReal → EReal)
    (hfeat : ∀ (v0 : Vec Ideal S1x8192 .f32) (v2 : Vec Ideal S1x128 .f32) (g : Fin 9) (l : Fin 8320),
      feats0 v0 v2 (ix2 g l) = feat g (k0_pay2 v0 v2 (ix2 (⟨l.val / 128, by omega⟩ : Fin 65) (⟨l.val % 128, Nat.mod_lt _ (by omega)⟩ : Fin 128))))
    (x0 : Vec Ideal S1x8192 .f32) (x1 : Vec Ideal S1x128 .f32) (x2 : Vec Ideal S5x81 .f32) (ch : Fin 5) (p : Fin 8192) :
    Cert.KernelIdeal.Hand.conv0_block x0 x1 x2 (ix2 ch p)
      = max (∑ g : Fin 9, ∑ t : Fin 9, x2 (ix2 ch (⟨t.val * 9 + g.val, by omega⟩ : Fin 81))
          * feat g (lanes x0 x1 (⟨p.val + off28 t, col28_lt t p⟩ : Fin 8320))) 0 := by
  unfold Cert.KernelIdeal.Hand.conv0_block
  refine (k0_stored_apply _ _ _ _ _ _ _ _ _ _ _ _ _ _ ch p).trans ?_
  refine congrArg (fun z : EReal => max z 0) (Finset.sum_congr rfl fun g _ => Finset.sum_congr rfl fun t _ => ?_)
  show View.ld x2 Cert.KernelIdeal.Hand.r0_2 _ * feats0 (View.ld x0 Cert.KernelIdeal.Hand.r0_0) (View.ld x1 Cert.KernelIdeal.Hand.r0_1) (ix2 g (⟨p.val + off28 t, col28_lt t p⟩ : Fin 8320)) = _
  rw [hfeat, pixels0_apply, View.ld_unit_zero hz2, View.ld_unit_zero hz2, View.ld_unit_zero hz2]
  refine congrArg (fun l : Fin 8320 => x2 _ * feat g (lanes x0 x1 l)) (Fin.ext ?_)
  show (p.val + off28 t) / 128 * 128 + (p.val + off28 t) % 128 = p.val + off28 t
  omega

/-- The first lanes-array entry of layer 1: row r, lane l of the 65 × 128 layout is lane r·128 + l of the 8320. -/
theorem pixels1_apply (v0 : Vec Ideal S1x8192 .f32) (v2 : Vec Ideal S1x128 .f32) (r : Fin 65) (l : Fin 128) :
    k1_pay2 (F := Ideal) v0 v2 (ix2 r l) = lanes v0 v2 (⟨r.val * 128 + l.val, by omega⟩ : Fin 8320) := by
  unfold k1_pay2
  rw [shapeCast_apply _ shapeCasts_S1x8320_S65x128 (ix2 r l) (ix2 (0 : Fin 1) (⟨r.val * 128 + l.val, by omega⟩ : Fin 8320)) (by
    rw [Shape.rowMajor_val_two, Shape.rowMajor_val_two]
    show 0 * 8320 + (r.val * 128 + l.val) = r.val * 128 + l.val
    omega)]
  unfold lanes
  by_cases h : r.val * 128 + l.val < 8192
  · rw [dif_pos h]
    rw [concatenate_pair_apply_left (t := S1x8320) (s₁ := S1x8192) (s₂ := S1x128) (1 : Fin 2) _ _ concatenates_S1x8192_S1x128_S1x8320_d1 _ rfl
      (ix2 (0 : Fin 1) (⟨r.val * 128 + l.val, h⟩ : Fin 8192)) (by intro b; fin_cases b <;> rfl)]
    rw [shapeCast_self]
  · rw [dif_neg h]
    rw [concatenate_pair_apply_right (t := S1x8320) (s₁ := S1x8192) (s₂ := S1x128) (1 : Fin 2) _ _ concatenates_S1x8192_S1x128_S1x8320_d1 _ rfl rfl
      (ix2 (0 : Fin 1) (⟨r.val * 128 + l.val - 8192, by omega⟩ : Fin 128)) (by
        intro b hb; fin_cases b
        · rfl
        · exact absurd rfl hb) (by
        show (r.val * 128 + l.val - 8192) + 8192 = r.val * 128 + l.val
        omega)]
    rw [shapeCast_self]

/-- Layer 1's stored block at channel ch and lane p, given that row g of the feature array is feature g of every
    lane: the sum over feature groups g and taps t of the weight at (ch, t·9 + g) times feature g of the lane at tap t's
    offset after p, clipped below at zero. -/
theorem conv1_block_apply (feat : Fin 9 → EReal → EReal)
    (hfeat : ∀ (v0 : Vec Ideal S1x8192 .f32) (v2 : Vec Ideal S1x128 .f32) (g : Fin 9) (l : Fin 8320),
      feats1 v0 v2 (ix2 g l) = feat g (k1_pay2 v0 v2 (ix2 (⟨l.val / 128, by omega⟩ : Fin 65) (⟨l.val % 128, Nat.mod_lt _ (by omega)⟩ : Fin 128))))
    (x0 : Vec Ideal S1x8192 .f32) (x1 : Vec Ideal S1x128 .f32) (x2 : Vec Ideal S5x81 .f32) (ch : Fin 5) (p : Fin 8192) :
    Cert.KernelIdeal.Hand.conv1_block x0 x1 x2 (ix2 ch p)
      = max (∑ g : Fin 9, ∑ t : Fin 9, x2 (ix2 ch (⟨t.val * 9 + g.val, by omega⟩ : Fin 81))
          * feat g (lanes x0 x1 (⟨p.val + off13 t, col13_lt t p⟩ : Fin 8320))) 0 := by
  unfold Cert.KernelIdeal.Hand.conv1_block
  refine (k1_stored_apply _ _ _ _ _ _ _ _ _ _ _ _ _ _ ch p).trans ?_
  refine congrArg (fun z : EReal => max z 0) (Finset.sum_congr rfl fun g _ => Finset.sum_congr rfl fun t _ => ?_)
  show View.ld x2 Cert.KernelIdeal.Hand.r1_2 _ * feats1 (View.ld x0 Cert.KernelIdeal.Hand.r1_0) (View.ld x1 Cert.KernelIdeal.Hand.r1_1) (ix2 g (⟨p.val + off13 t, col13_lt t p⟩ : Fin 8320)) = _
  rw [hfeat, pixels1_apply, View.ld_unit_zero hz2, View.ld_unit_zero hz2, View.ld_unit_zero hz2]
  refine congrArg (fun l : Fin 8320 => x2 _ * feat g (lanes x0 x1 l)) (Fin.ext ?_)
  show (p.val + off13 t) / 128 * 128 + (p.val + off13 t) % 128 = p.val + off13 t
  omega

end Cert.KernelIdeal.Val

end
-- ==== Proof.KI.Val2.lean ====
/-
  Region 0's output array after the region, entry by entry. Point t of the grid writes lanes [8192·t, 8192·t + 8192) of
  every channel row; it reads lanes [8192·t, 8192·t + 8320) of the input row (its tile and the 128 lanes after it) and the
  whole weight matrix. So entry (ch, p) of the output array is the weighted sum over feature groups and taps of the features
  of the input lanes at the taps' offsets after p, clipped below at zero — one function of the region's input arrays, of
  which every point writes its block, and the blocks cover the array.
-/
import proofs.«125140_g2000505823476311_pallasbulk_1268_6_alg».proof.Proof.KI.Region0
import proofs.«125140_g2000505823476311_pallasbulk_1268_6_alg».proof.Proof.KI.ConvPoint
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.RA Idealize.SL.Sem
open Idealize.ShloMosaic.Pipeline (Dat)
open Cert.KernelIdeal Cert.KernelIdeal.Gen Cert.KernelIdeal.Hand Cert.KI.ConvValue

variable (V : (c : Dev nD) → (b : Ref sig .tc) → Buf (Elt Ideal) ((c : Thread nD τ).loc b))

/-- The region's output array as one function of its input row X and weight matrix W. -/
def conv0Arr (feat : Fin 9 → EReal → EReal) (X : S1x6430720.Idx → EReal) (W : S5x81.Idx → EReal) : S5x6422528.Idx → EReal :=
  fun i => max (∑ g : Fin 9, ∑ t : Fin 9, W (ix2 (i 0) (⟨t.val * 9 + g.val, by omega⟩ : Fin 81))
    * feat g (X (ix2 (0 : Fin 1) (⟨(i 1).val + off28 t, by
        have h1 : (i 1).val < 6422528 := (i 1).isLt
        have h2 : off28 t ≤ 58 := by fin_cases t <;> decide
        omega⟩ : Fin 6430720)))) 0

/-- The printed index maps, decided over the grid: the tile's block index is the point, the next-lanes block index
    (in blocks of 128) is 64·(t + 1), the weights' is zero, the output's is the point. -/
theorem idx_facts0 : ∀ t : Fin cfg0.N, win0_0.index t (0 : Fin 2) = 0 ∧ win0_0.index t (1 : Fin 2) = t.val
    ∧ win0_1.index t (0 : Fin 2) = 0 ∧ win0_1.index t (1 : Fin 2) = (t.val + 1) * 64
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The tile's block at point t, lane l: lane 8192·t + l of the input row. -/
theorem rd0_0 (c : Dev nD) (t : Fin cfg0.N) (l : Fin 8192) (hl : 8192 * t.val + l.val < 6430720) :
    iblk0 V c 0 t (ix2 (0 : Fin 1) l) = (V c main_v5 : S1x6430720.Idx → EReal) (ix2 (0 : Fin 1) (⟨8192 * t.val + l.val, hl⟩ : Fin 6430720)) := by
  obtain ⟨e00, e01, -⟩ := idx_facts0 t
  show (V c main_v5 : S1x6430720.Idx → EReal) (((cfg0.win 0).blk t).view.emb (ix2 (0 : Fin 1) l)) = _
  refine congrArg (V c main_v5 : S1x6430720.Idx → EReal) (funext fun a => Fin.ext ?_)
  match a with
  | ⟨0, _⟩ => show win0_0.index t (0 : Fin 2) * 1 + 1 * 0 = 0; omega
  | ⟨1, _⟩ => show win0_0.index t (1 : Fin 2) * 8192 + 1 * l.val = 8192 * t.val + l.val; omega

/-- The next-lanes block at point t, lane l: lane 8192·(t + 1) + l of the input row. -/
theorem rd0_1 (c : Dev nD) (t : Fin cfg0.N) (l : Fin 128) (hl : 8192 * (t.val + 1) + l.val < 6430720) :
    iblk0 V c 1 t (ix2 (0 : Fin 1) l) = (V c main_v5 : S1x6430720.Idx → EReal) (ix2 (0 : Fin 1) (⟨8192 * (t.val + 1) + l.val, hl⟩ : Fin 6430720)) := by
  obtain ⟨-, -, e10, e11, -⟩ := idx_facts0 t
  show (V c main_v5 : S1x6430720.Idx → EReal) (((cfg0.win 1).blk t).view.emb (ix2 (0 : Fin 1) l)) = _
  refine congrArg (V c main_v5 : S1x6430720.Idx → EReal) (funext fun a => Fin.ext ?_)
  match a with
  | ⟨0, _⟩ => show win0_1.index t (0 : Fin 2) * 1 + 1 * 0 = 0; omega
  | ⟨1, _⟩ => show win0_1.index t (1 : Fin 2) * 128 + 1 * l.val = 8192 * (t.val + 1) + l.val; omega

/-- The weights' block at any point is the whole weight matrix. -/
theorem rd0_2 (c : Dev nD) (t : Fin cfg0.N) (y : S5x81.Idx) :
    iblk0 V c 2 t y = (V c main_v1 : S5x81.Idx → EReal) y := by
  obtain ⟨-, -, -, -, e20, e21, -⟩ := idx_facts0 t
  show (V c main_v1 : S5x81.Idx → EReal) (((cfg0.win 2).blk t).view.emb y) = _
  refine congrArg (V c main_v1 : S5x81.Idx → EReal) (funext fun a => Fin.ext ?_)
  match a with
  | ⟨0, _⟩ => show win0_2.index t (0 : Fin 2) * 5 + 1 * (y 0).val = (y 0).val; omega
  | ⟨1, _⟩ => show win0_2.index t (1 : Fin 2) * 81 + 1 * (y 1).val = (y 1).val; omega

/-- The 8320 lanes point t sees are lanes 8192·t … of the input row. -/
theorem lanes0_eq (c : Dev nD) (t : Fin cfg0.N) (l : Fin 8320) (hl : 8192 * t.val + l.val < 6430720) :
    lanes (iblk0 V c 0 t) (iblk0 V c 1 t) l = (V c main_v5 : S1x6430720.Idx → EReal) (ix2 (0 : Fin 1) (⟨8192 * t.val + l.val, hl⟩ : Fin 6430720)) := by
  unfold lanes
  by_cases h : l.val < 8192
  · rw [dif_pos h, rd0_0 V c t ⟨l.val, h⟩ hl]
  · rw [dif_neg h, rd0_1 V c t ⟨l.val - 8192, by have := l.isLt; omega⟩ (by show 8192 * (t.val + 1) + (l.val - 8192) < 6430720; omega)]
    refine congrArg (fun z : Fin 6430720 => (V c main_v5 : S1x6430720.Idx → EReal) (ix2 (0 : Fin 1) z)) (Fin.ext ?_)
    show 8192 * (t.val + 1) + (l.val - 8192) = 8192 * t.val + l.val
    omega

/-- The stored block at a general index of the block. -/
theorem conv0_block_apply' (feat : Fin 9 → EReal → EReal)
    (hfeat : ∀ (v0 : Vec Ideal S1x8192 .f32) (v2 : Vec Ideal S1x128 .f32) (g : Fin 9) (l : Fin 8320),
      feats0 v0 v2 (ix2 g l) = feat g (k0_pay2 v0 v2 (ix2 (⟨l.val / 128, by omega⟩ : Fin 65) (⟨l.val % 128, Nat.mod_lt _ (by omega)⟩ : Fin 128))))
    (x0 : Vec Ideal S1x8192 .f32) (x1 : Vec Ideal S1x128 .f32) (x2 : Vec Ideal S5x81 .f32) (y : S5x8192.Idx) :
    conv0_block x0 x1 x2 y
      = max (∑ g : Fin 9, ∑ t : Fin 9, x2 (ix2 (y 0) (⟨t.val * 9 + g.val, by omega⟩ : Fin 81))
          * feat g (lanes x0 x1 (⟨(y 1).val + off28 t, col28_lt t (y 1)⟩ : Fin 8320))) 0 := by
  exact (congrArg (conv0_block x0 x1 x2) (eq_ix2 y)).trans (conv0_block_apply feat hfeat x0 x1 x2 (y 0) (y 1))

/-- What point t writes back is block t of the one array function. -/
theorem flushed0_eq (feat : Fin 9 → EReal → EReal)
    (hfeat : ∀ (v0 : Vec Ideal S1x8192 .f32) (v2 : Vec Ideal S1x128 .f32) (g : Fin 9) (l : Fin 8320),
      feats0 v0 v2 (ix2 g l) = feat g (k0_pay2 v0 v2 (ix2 (⟨l.val / 128, by omega⟩ : Fin 65) (⟨l.val % 128, Nat.mod_lt _ (by omega)⟩ : Fin 128))))
    (q : Fin cfg0.W → PosShare TreeShare) (c : Dev nD) (t : Fin cfg0.N) :
    (dat0 V q c).flushed 3 t = ((cfg0.win 3).blk t).view.read (Elt Ideal) (conv0Arr feat (V c main_v5) (V c main_v1)) := by
  show (cfg0.win 3).cut (grid0.coords t) ((dat0 V q c).after 3 t) = _
  rw [after0_3]
  unfold out0_3
  rw [View.canon_unit_zero hz2]
  obtain ⟨-, -, -, -, -, -, e30, e31⟩ := idx_facts0 t
  have hN : t.val < 784 := lt_of_lt_of_eq t.isLt N_0
  funext j
  show conv0_block (iblk0 V c 0 t) (iblk0 V c 1 t) (iblk0 V c 2 t) j
    = conv0Arr feat (V c main_v5) (V c main_v1) (((cfg0.win 3).blk t).view.emb j)
  have hj1 : (j 1).val < 8192 := (j 1).isLt
  have hj0 : (j 0).val < 5 := (j 0).isLt
  rw [conv0_block_apply' feat hfeat (iblk0 V c 0 t) (iblk0 V c 1 t) (iblk0 V c 2 t) j]
  unfold conv0Arr
  refine congrArg (fun z : EReal => max z 0) (Finset.sum_congr rfl fun g _ => Finset.sum_congr rfl fun k _ => ?_)
  have ho : off28 k ≤ 58 := by fin_cases k <;> decide
  rw [rd0_2 V c t, lanes0_eq V c t _ (by show 8192 * t.val + ((j 1).val + off28 k) < 6430720; omega)]
  have ea0 : ((((cfg0.win 3).blk t).view.emb j) 0).val = (j 0).val := by
    show win0_3.index t (0 : Fin 2) * 5 + 1 * (j 0).val = (j 0).val; omega
  have ea1 : ((((cfg0.win 3).blk t).view.emb j) 1).val = 8192 * t.val + (j 1).val := by
    show win0_3.index t (1 : Fin 2) * 8192 + 1 * (j 1).val = 8192 * t.val + (j 1).val; omega
  refine congr (congrArg HMul.hMul (congrArg _ (funext fun a => ?_))) (congrArg (feat g) (congrArg _ (congrArg (ix2 (0 : Fin 1)) (Fin.ext ?_))))
  · match a with
    | ⟨0, _⟩ => exact Fin.ext ea0.symm
    | ⟨1, _⟩ => rfl
  · show 8192 * t.val + ((j 1).val + off28 k) = ((((cfg0.win 3).blk t).view.emb j) 1).val + off28 k
    rw [ea1]; omega

/-- An index of the output array is in point t's block iff each coordinate is in the block's range on its axis. -/
theorem mem_blk0 (t : Fin cfg0.N) (i : S5x6422528.Idx) :
    i ∈ ((cfg0.win 3).blk t).view.set ↔ ∀ a : Fin 2, win0_3.index t a * S5x8192.size a ≤ (i a).val ∧ (i a).val < win0_3.index t a * S5x8192.size a + S5x8192.size a := by
  show i ∈ ((View.whole main_v6).slice (win0_3.rect t)).set ↔ _
  rw [View.set_slice_whole, Rect.mem_set_unit]
  exact Iff.rfl

/-- Every index of the output array is in some point's block: lane p is written by point p / 8192. -/
theorem cover0 (i : S5x6422528.Idx) : ∃ t : Fin cfg0.N, (cfg0.win 3).flush t = true ∧ i ∈ ((cfg0.win 3).blk t).view.set := by
  have h0 : (i 0).val < 5 := (i 0).isLt
  have h1 : (i 1).val < 6422528 := (i 1).isLt
  refine ⟨Fin.cast N_0.symm (⟨(i 1).val / 8192, by omega⟩ : Fin 784), flush0_3 _, ?_⟩
  obtain ⟨-, -, -, -, -, -, e30, e31⟩ := idx_facts0 (Fin.cast N_0.symm (⟨(i 1).val / 8192, by omega⟩ : Fin 784))
  have e31' : win0_3.index (Fin.cast N_0.symm (⟨(i 1).val / 8192, by omega⟩ : Fin 784)) (1 : Fin 2) = (i 1).val / 8192 := e31
  rw [mem_blk0]
  intro a
  match a with
  | ⟨0, _⟩ => show win0_3.index _ (0 : Fin 2) * 5 ≤ (i 0).val ∧ (i 0).val < win0_3.index _ (0 : Fin 2) * 5 + 5; omega
  | ⟨1, _⟩ => show win0_3.index _ (1 : Fin 2) * 8192 ≤ (i 1).val ∧ (i 1).val < win0_3.index _ (1 : Fin 2) * 8192 + 8192; omega

/-- THE OUTPUT ARRAY after the region is the one array function of the region's input row and weight matrix. -/
theorem arr0_eq (feat : Fin 9 → EReal → EReal)
    (hfeat : ∀ (v0 : Vec Ideal S1x8192 .f32) (v2 : Vec Ideal S1x128 .f32) (g : Fin 9) (l : Fin 8320),
      feats0 v0 v2 (ix2 g l) = feat g (k0_pay2 v0 v2 (ix2 (⟨l.val / 128, by omega⟩ : Fin 65) (⟨l.val % 128, Nat.mod_lt _ (by omega)⟩ : Fin 128))))
    (q : Fin cfg0.W → PosShare TreeShare) (c : Dev nD) :
    (dat0 V q c).arrAt 3 cfg0.N = conv0Arr feat (V c main_v5) (V c main_v1) :=
  (dat0 V q c).arrAt_eq_of_cover 3 (conv0Arr feat (V c main_v5) (V c main_v1)) (fun t _ => flushed0_eq V feat hfeat q c t) (cover0)

end Cert.KernelIdeal.Val

end
-- ==== Proof.KI.Val3.lean ====
/-
  The first convolution layer's output, read at an image position. Lane (b·28 + i)·28 + j of channel ch of region 0's output
  array is the layer's activation of sample b at (i, j), for i, j < 26: the nine taps' lanes (b·28 + i + t/3)·28 + j + t%3 are
  pixels of the same sample, and the weight matrix entry (ch, t·9 + g) is the weight of feature group g, channel ch, tap t.
-/
import proofs.«125140_g2000505823476311_pallasbulk_1268_6_alg».proof.Proof.KI.Run
import proofs.«125140_g2000505823476311_pallasbulk_1268_6_alg».proof.Proof.KI.Val1
import proofs.«125140_g2000505823476311_pallasbulk_1268_6_alg».proof.Proof.KI.Val2

set_option maxRecDepth 16384

noncomputable section

namespace Cert.KernelIdeal.Val

open Idealize.ShloMosaic Idealize.ShloMosaic.TcCoe Idealize.ShloMosaic.ValueIdx
open Idealize.SL Idealize.SL.RA Idealize.SL.Sem
open Cert.KernelIdeal Cert.KernelIdeal.Gen Cert.KernelIdeal.Hand Cert.KI.ConvValue

variable (m : (ℓ : Loc nD τ sig) → Buf (Elt Ideal) ℓ)

/-- A first-layer tap's lane offset is its row offset times the image width plus its column offset. -/
theorem off28_eq (t : Fin 9) : off28 t = t.val / 3 * 28 + t.val % 3 := by fin_cases t <;> rfl

/-- Region 0's output array is the one array function of the padded pixel row and the weight matrix. -/
theorem o3_eq (feat : Fin 9 → EReal → EReal)
    (hfeat : ∀ (v0 : Vec Ideal S1x8192 .f32) (v2 : Vec Ideal S1x128 .f32) (g : Fin 9) (l : Fin 8320),
      feats0 v0 v2 (ix2 g l) = feat g (k0_pay2 v0 v2 (ix2 (⟨l.val / 128, by omega⟩ : Fin 65) (⟨l.val % 128, Nat.mod_lt _ (by omega)⟩ : Fin 128))))
    (c : Dev nD) :
    (o3 m c : S5x6422528.Idx → EReal) = conv0Arr feat (V2 m c main_v5) (V2 m c main_v1) :=
  arr0_eq (Vr (V2 m)) feat hfeat q01 c

/-- Channel ch, lane p of region 0's output array, over the padded pixel row X and the weight matrix W. -/
theorem o3_apply (feat : Fin 9 → EReal → EReal)
    (hfeat : ∀ (v0 : Vec Ideal S1x8192 .f32) (v2 : Vec Ideal S1x128 .f32) (g : Fin 9) (l : Fin 8320),
      feats0 v0 v2 (ix2 g l) = feat g (k0_pay2 v0 v2 (ix2 (⟨l.val / 128, by omega⟩ : Fin 65) (⟨l.val % 128, Nat.mod_lt _ (by omega)⟩ : Fin 128))))
    (c : Dev nD) (X : S1x6430720.Idx → EReal) (hX : X = V2 m c main_v5) (W : S5x81.Idx → EReal) (hW : W = V2 m c main_v1)
    (ch : Fin 5) (p : Fin 6422528) :
    o3 m c (ix2 ch p)
      = max (∑ g : Fin 9, ∑ t : Fin 9, W (ix2 ch (⟨t.val * 9 + g.val, by omega⟩ : Fin 81))
          * feat g (X (ix2 (0 : Fin 1) (⟨p.val + off28 t, by
              have h2 : off28 t ≤ 58 := by fin_cases t <;> decide
              omega⟩ : Fin 6430720)))) 0 := by
  subst hX hW
  exact congrFun (o3_eq m feat hfeat c) (ix2 ch p)

/-- Region 0's output at an image position: the first layer's activation. -/
theorem o3_act (feat : Fin 9 → EReal → EReal)
    (hfeat : ∀ (v0 : Vec Ideal S1x8192 .f32) (v2 : Vec Ideal S1x128 .f32) (g : Fin 9) (l : Fin 8320),
      feats0 v0 v2 (ix2 g l) = feat g (k0_pay2 v0 v2 (ix2 (⟨l.val / 128, by omega⟩ : Fin 65) (⟨l.val % 128, Nat.mod_lt _ (by omega)⟩ : Fin 128))))
    (c : Dev nD) (ch : Fin 5) (b i j : ℕ) (hb : b < 8192) (hi : i < 26) (hj : j < 26) :
    o3 m c (ix2 ch (⟨(b * 28 + i) * 28 + j, by omega⟩ : Fin 6422528))
      = Cert.Spec.act feat (Cert.Spec.wOf (m ((c.tc : Thread nD τ).loc main_arg1))) (Cert.Spec.xOf (m ((c.tc : Thread nD τ).loc main_arg0)) b) ch.val i j := by
  rw [o3_apply m feat hfeat c _ rfl _ rfl ch]
  unfold Cert.Spec.act
  refine congrArg (fun z : EReal => max z 0) (Finset.sum_congr rfl fun g _ => Finset.sum_congr rfl fun t _ => ?_)
  have ht : t.val < 9 := t.isLt
  have ho := off28_eq t
  rw [W1_apply, X5_apply]
  show _ * feat g (if (b * 28 + i) * 28 + j + off28 t < 6422528 then _ else 0) = _
  rw [if_pos (by omega)]
  show _ * feat g (Cert.Spec.xOf _ (((b * 28 + i) * 28 + j + off28 t) / 784) (((b * 28 + i) * 28 + j + off28 t) % 784 / 28) (((b * 28 + i) * 28 + j + off28 t) % 28)) = _
  rw [show ((b * 28 + i) * 28 + j + off28 t) / 784 = b from by omega,
    show ((b * 28 + i) * 28 + j + off28 t) % 784 / 28 = i + t.val / 3 from by omega,
    show ((b * 28 + i) * 28 + j + off28 t) % 28 = j + t.val % 3 from by omega]

end Cert.KernelIdeal.Val

end
-- ==== Proof.KI.Val4.lean ====
/-
  The host stretch between the two convolutions, read entry by entry. The first layer's output row of each channel is read
  as 8192 planes of 28 × 28, the 26 × 26 corner of each plane is cut out and split into 13 × 13 cells of 2 × 2, and each
  cell is replaced by its maximum (a fold of max from −∞ over the cell's four entries): the pooled first layer. The pooled
  planes are laid out as one row — channel c1, sample b, position (i, j) at lane ((c1·8192 + b)·13 + i)·13 + j — and 8192
  zero lanes are appended. The second layer's weights are laid out as the first's.
-/
import proofs.«125140_g2000505823476311_pallasbulk_1268_6_alg».proof.Proof.KI.Val3
import Idealize.ShloMosaic.PureOps.Ideal.Laws
import Idealize.ShloMosaic.Lib.ValueIdxRank6

set_option maxRecDepth 16384

noncomputable section

namespace Cert.KernelIdeal.Val

open Idealize.ShloMosaic Idealize.ShloMosaic.TcCoe Idealize.ShloMosaic.ValueIdx
open Idealize.SL Idealize.SL.RA Idealize.SL.Sem
open Cert.KernelIdeal Cert.KernelIdeal.Gen Cert.KernelIdeal.Hand Cert.KI.ConvValue

variable (m : (ℓ : Loc nD τ sig) → Buf (Elt Ideal) ℓ)

/-- A channel-row array read as 2 × 2 cells of the 26 × 26 corners of its 28 × 28 planes. -/
def cells (A : S5x6422528.Idx → EReal) : S5x8192x13x2x13x2.Idx → EReal :=
  shapeCast S5x8192x13x2x13x2
    (extractStridedSlice S5x8192x26x26 ![0, 0, 0, 0] (shapeCast S5x8192x28x28 A shapeCasts_S5x6422528_S5x8192x28x28)
      slices_S5x8192x28x28_S5x8192x26x26_0_0_0_0)
    shapeCasts_S5x8192x26x26_S5x8192x13x2x13x2

/-- Entry (di, dj) of cell (i', j') of plane b of channel ch is lane (b·28 + 2i' + di)·28 + 2j' + dj of the channel's row. -/
theorem cells_apply (A : S5x6422528.Idx → EReal) (ch : Fin 5) (b : Fin 8192) (i' : Fin 13) (di : Fin 2) (j' : Fin 13) (dj : Fin 2) :
    cells A (ix6 ch b i' di j' dj)
      = A (ix2 ch (⟨(b.val * 28 + (2 * i'.val + di.val)) * 28 + (2 * j'.val + dj.val), by omega⟩ : Fin 6422528)) := by
  unfold cells
  rw [shapeCast_apply _ shapeCasts_S5x8192x26x26_S5x8192x13x2x13x2 (ix6 ch b i' di j' dj)
    (ix4 ch b (⟨2 * i'.val + di.val, by omega⟩ : Fin 26) (⟨2 * j'.val + dj.val, by omega⟩ : Fin 26)) (by
      rw [Shape.rowMajor_val_four, Shape.rowMajor_val_six]
      show ((ch.val * 8192 + b.val) * 26 + (2 * i'.val + di.val)) * 26 + (2 * j'.val + dj.val)
        = ((((ch.val * 8192 + b.val) * 13 + i'.val) * 2 + di.val) * 13 + j'.val) * 2 + dj.val
      omega)]
  rw [extractStridedSlice_apply ![0, 0, 0, 0] _ slices_S5x8192x28x28_S5x8192x26x26_0_0_0_0
    (ix4 ch b (⟨2 * i'.val + di.val, by omega⟩ : Fin 26) (⟨2 * j'.val + dj.val, by omega⟩ : Fin 26))
    (ix4 ch b (⟨2 * i'.val + di.val, by omega⟩ : Fin 28) (⟨2 * j'.val + dj.val, by omega⟩ : Fin 28)) (by
      intro a; fin_cases a <;> exact (Nat.zero_add _).symm)]
  rw [shapeCast_apply A shapeCasts_S5x6422528_S5x8192x28x28
    (ix4 ch b (⟨2 * i'.val + di.val, by omega⟩ : Fin 28) (⟨2 * j'.val + dj.val, by omega⟩ : Fin 28))
    (ix2 ch (⟨(b.val * 28 + (2 * i'.val + di.val)) * 28 + (2 * j'.val + dj.val), by omega⟩ : Fin 6422528)) (by
      rw [Shape.rowMajor_val_two, Shape.rowMajor_val_four]
      show ch.val * 6422528 + ((b.val * 28 + (2 * i'.val + di.val)) * 28 + (2 * j'.val + dj.val))
        = ((ch.val * 8192 + b.val) * 28 + (2 * i'.val + di.val)) * 28 + (2 * j'.val + dj.val)
      omega)]

/-- The max-reduction of the cells over their two inner axes, at plane position (i', j'): the maximum of the cell's four
    entries. The fold starts from −∞, the bottom of the extended reals. -/
theorem pool1_apply (A : S5x6422528.Idx → EReal) (ch : Fin 5) (b : Fin 8192) (i' j' : Fin 13) :
    Host.reduce FloatOps.maximumf (cells A) (constant S_ .f32 0xFF800000#32 : FVec Ideal S_ .f32)
        reducesTo_S5x8192x13x2x13x2_S5x8192x13x13_d3_5 h_S_ (ix4 ch b i' j')
      = max (max (cells A (ix6 ch b i' 0 j' 0)) (cells A (ix6 ch b i' 0 j' 1)))
          (max (cells A (ix6 ch b i' 1 j' 0)) (cells A (ix6 ch b i' 1 j' 1))) := by
  rw [Host.reduce_eq_fold]
  have hbot : (constant S_ .f32 0xFF800000#32 : FVec Ideal S_ .f32) (Shape.Idx.first h_S_) = (⊥ : EReal) := by
    show Ideal.ofBits .f32 0xFF800000#32 = ⊥
    simp [Ideal.ofBits, Ideal.ieee]
  rw [hbot]
  have hdrop : ∀ (di dj : Fin 2), reducesTo_S5x8192x13x2x13x2_S5x8192x13x13_d3_5.drop (ix6 ch b i' di j' dj) = ix4 ch b i' j' := by
    intro di dj
    funext a
    apply Fin.ext
    match a with
    | ⟨0, _⟩ => exact reducesTo_S5x8192x13x2x13x2_S5x8192x13x13_d3_5.drop_apply_val_of_eq (ix6 ch b i' di j' dj) 0 0
    | ⟨1, _⟩ => exact reducesTo_S5x8192x13x2x13x2_S5x8192x13x13_d3_5.drop_apply_val_of_eq (ix6 ch b i' di j' dj) 1 1
    | ⟨2, _⟩ => exact reducesTo_S5x8192x13x2x13x2_S5x8192x13x13_d3_5.drop_apply_val_of_eq (ix6 ch b i' di j' dj) 2 2
    | ⟨3, _⟩ => exact reducesTo_S5x8192x13x2x13x2_S5x8192x13x13_d3_5.drop_apply_val_of_eq (ix6 ch b i' di j' dj) 3 4
  have hmem : ∀ (di dj : Fin 2), cells A (ix6 ch b i' di j' dj)
      ≤ (Finset.univ.filter fun i => reducesTo_S5x8192x13x2x13x2_S5x8192x13x13_d3_5.drop i = ix4 ch b i' j').fold max ⊥ (cells A) :=
    fun di dj => (Finset.le_fold_max _).2 (Or.inr ⟨ix6 ch b i' di j' dj, Finset.mem_filter.2 ⟨Finset.mem_univ _, hdrop di dj⟩, le_refl _⟩)
  have hle : ∀ (di dj : Fin 2), cells A (ix6 ch b i' di j' dj)
      ≤ max (max (cells A (ix6 ch b i' 0 j' 0)) (cells A (ix6 ch b i' 0 j' 1)))
          (max (cells A (ix6 ch b i' 1 j' 0)) (cells A (ix6 ch b i' 1 j' 1))) := by
    intro di dj
    fin_cases di <;> fin_cases dj
    · exact le_max_of_le_left (le_max_left _ _)
    · exact le_max_of_le_left (le_max_right _ _)
    · exact le_max_of_le_right (le_max_left _ _)
    · exact le_max_of_le_right (le_max_right _ _)
  show (Finset.univ.filter fun i => reducesTo_S5x8192x13x2x13x2_S5x8192x13x13_d3_5.drop i = ix4 ch b i' j').fold max ⊥ (cells A) = _
  apply le_antisymm
  · rw [Finset.fold_max_le]
    refine ⟨bot_le, fun i hi => ?_⟩
    have hd := (Finset.mem_filter.mp hi).2
    obtain ⟨c0, c1, c2, c3, c4, c5, rfl⟩ : ∃ (c0 : Fin 5) (c1 : Fin 8192) (c2 : Fin 13) (c3 : Fin 2) (c4 : Fin 13) (c5 : Fin 2),
        i = ix6 c0 c1 c2 c3 c4 c5 := ⟨i 0, i 1, i 2, i 3, i 4, i 5, eq_ix6 i⟩
    have e0 : c0 = ch := Fin.ext ((reducesTo_S5x8192x13x2x13x2_S5x8192x13x13_d3_5.drop_apply_val_of_eq (ix6 c0 c1 c2 c3 c4 c5) 0 0).symm.trans
      (congrArg (fun z : S5x8192x13x13.Idx => (z 0).val) hd))
    have e1 : c1 = b := Fin.ext ((reducesTo_S5x8192x13x2x13x2_S5x8192x13x13_d3_5.drop_apply_val_of_eq (ix6 c0 c1 c2 c3 c4 c5) 1 1).symm.trans
      (congrArg (fun z : S5x8192x13x13.Idx => (z 1).val) hd))
    have e2 : c2 = i' := Fin.ext ((reducesTo_S5x8192x13x2x13x2_S5x8192x13x13_d3_5.drop_apply_val_of_eq (ix6 c0 c1 c2 c3 c4 c5) 2 2).symm.trans
      (congrArg (fun z : S5x8192x13x13.Idx => (z 2).val) hd))
    have e4 : c4 = j' := Fin.ext ((reducesTo_S5x8192x13x2x13x2_S5x8192x13x13_d3_5.drop_apply_val_of_eq (ix6 c0 c1 c2 c3 c4 c5) 3 4).symm.trans
      (congrArg (fun z : S5x8192x13x13.Idx => (z 3).val) hd))
    subst e0 e1 e2 e4
    exact hle c3 c5
  · exact max_le (max_le (hmem 0 0) (hmem 0 1)) (max_le (hmem 1 0) (hmem 1 1))

set_option maxRecDepth 200000 in
/-- The host stretch's results, at any earlier contents W0 and first-layer output array A: the pooled planes, -/
theorem stretch1_v10 (W0 : Valuation τ sig (Elt Ideal)) (A : S5x6422528.Idx → EReal) :
    (StableHlo.after hostOps1_1 (StableHlo.after hostOps1 (Function.update W0 main_v6 A)) (Proc.devRef .tc main_v10) : S5x8192x13x13.Idx → EReal)
      = Host.reduce FloatOps.maximumf (cells A) (constant S_ .f32 0xFF800000#32 : FVec Ideal S_ .f32)
          reducesTo_S5x8192x13x2x13x2_S5x8192x13x13_d3_5 h_S_ := by
  after_results
  rfl

set_option maxRecDepth 200000 in
/-- the pooled planes as one row, -/
theorem stretch1_v11 (W0 : Valuation τ sig (Elt Ideal)) (A : S5x6422528.Idx → EReal) :
    (StableHlo.after hostOps1 (Function.update W0 main_v6 A) (Proc.devRef .tc main_v11) : S1x6922240.Idx → EReal)
      = shapeCast S1x6922240
          (Host.reduce FloatOps.maximumf (cells A) (constant S_ .f32 0xFF800000#32 : FVec Ideal S_ .f32)
            reducesTo_S5x8192x13x2x13x2_S5x8192x13x13_d3_5 h_S_) shapeCasts_S5x8192x13x13_S1x6922240 := by
  after_results
  rfl

set_option maxRecDepth 200000 in
/-- the integer zero the padding converts, -/
theorem stretch1_c0 (W0 : Valuation τ sig (Elt Ideal)) (A : S5x6422528.Idx → EReal) :
    (StableHlo.after hostOps1 (Function.update W0 main_v6 A) (Proc.devRef .tc main_c_0) : S_.Idx → BitVec 32)
      = constantI S_ 32 0#32 := by
  after_results

set_option maxRecDepth 200000 in
/-- and the padding: 8192 lanes of the converted zero appended to the row, whatever the contents W before it. -/
theorem stretch11_v12 (W : Valuation τ sig (Elt Ideal)) :
    (StableHlo.after hostOps1_1 W (Proc.devRef .tc main_v12) : S1x6930432.Idx → EReal)
      = pad S1x6930432 ![0, 0] ![0, 8192] ![0, 0] (W (Proc.devRef .tc main_v11) : S1x6922240.Idx → EReal)
          (sitofp .f32 (W (Proc.devRef .tc main_c_0) : S_.Idx → BitVec 32) : FVec Ideal S_ .f32) pads_S1x6922240_S1x6930432_000_081920 h_S_ := by
  after_results
  rfl

/-- So the pooled planes as one row with 8192 zero lanes appended. -/
theorem stretch1_v12 (W0 : Valuation τ sig (Elt Ideal)) (A : S5x6422528.Idx → EReal) :
    (StableHlo.after hostOps1_1 (StableHlo.after hostOps1 (Function.update W0 main_v6 A)) (Proc.devRef .tc main_v12) : S1x6930432.Idx → EReal)
      = pad S1x6930432 ![0, 0] ![0, 8192] ![0, 0]
          (shapeCast S1x6922240
            (Host.reduce FloatOps.maximumf (cells A) (constant S_ .f32 0xFF800000#32 : FVec Ideal S_ .f32)
              reducesTo_S5x8192x13x2x13x2_S5x8192x13x13_d3_5 h_S_) shapeCasts_S5x8192x13x13_S1x6922240)
          (sitofp .f32 (constantI S_ 32 0#32) : FVec Ideal S_ .f32) pads_S1x6922240_S1x6930432_000_081920 h_S_ := by
  rw [stretch11_v12, stretch1_v11, stretch1_c0]

/-- The pooled first layer as the second region finds it: plane position (i', j') of sample b, channel ch. -/
theorem P1_apply (feat : Fin 9 → EReal → EReal)
    (hfeat : ∀ (v0 : Vec Ideal S1x8192 .f32) (v2 : Vec Ideal S1x128 .f32) (g : Fin 9) (l : Fin 8320),
      feats0 v0 v2 (ix2 g l) = feat g (k0_pay2 v0 v2 (ix2 (⟨l.val / 128, by omega⟩ : Fin 65) (⟨l.val % 128, Nat.mod_lt _ (by omega)⟩ : Fin 128))))
    (c : Dev nD) (ch : Fin 5) (b : Fin 8192) (i' j' : Fin 13) :
    (V5 m (outs3 m) c main_v10 : S5x8192x13x13.Idx → EReal) (ix4 ch b i' j')
      = Cert.Spec.pooled1 feat (Cert.Spec.wOf (m ((c.tc : Thread nD τ).loc main_arg1))) (Cert.Spec.xOf (m ((c.tc : Thread nD τ).loc main_arg0))) ch.val b.val i'.val j'.val := by
  have e : (V5 m (outs3 m) c main_v10 : S5x8192x13x13.Idx → EReal)
      = Host.reduce FloatOps.maximumf (cells (o3 m c)) (constant S_ .f32 0xFF800000#32 : FVec Ideal S_ .f32)
          reducesTo_S5x8192x13x2x13x2_S5x8192x13x13_d3_5 h_S_ := by
    show StableHlo.after hostOps1_1 (StableHlo.after hostOps1 (Function.update (V2 m c) main_v6 (outs3 m 3 main_v6 c))) (Proc.devRef .tc main_v10) = _
    rw [outs3_v6]
    exact stretch1_v10 (V2 m c) (o3 m c)
  rw [e, pool1_apply, cells_apply, cells_apply, cells_apply, cells_apply]
  have hi' : i'.val < 13 := i'.isLt
  have hj' : j'.val < 13 := j'.isLt
  have key : ∀ (d e : ℕ) (hd : d < 2) (he : e < 2),
      o3 m c (ix2 ch (⟨(b.val * 28 + (2 * i'.val + d)) * 28 + (2 * j'.val + e), by omega⟩ : Fin 6422528))
        = Cert.Spec.act feat (Cert.Spec.wOf (m ((c.tc : Thread nD τ).loc main_arg1))) (Cert.Spec.xOf (m ((c.tc : Thread nD τ).loc main_arg0)) b.val) ch.val (2 * i'.val + d) (2 * j'.val + e) :=
    fun d e hd he => o3_act m feat hfeat c ch b.val (2 * i'.val + d) (2 * j'.val + e) b.isLt (by omega) (by omega)
  unfold Cert.Spec.pooled1 Cert.Spec.pool
  exact congrArg₂ (max : EReal → EReal → EReal) (congrArg₂ (max : EReal → EReal → EReal) (key 0 0 (by omega) (by omega)) (key 0 1 (by omega) (by omega)))
    (congrArg₂ (max : EReal → EReal → EReal) (key 1 0 (by omega) (by omega)) (key 1 1 (by omega) (by omega)))

/-- Lane q of the pooled row: the pooled first layer of channel q / (8192·169), sample q / 169 % 8192, at position
    (q % 169 / 13, q % 13); zero past the planes. -/
theorem X12_apply (feat : Fin 9 → EReal → EReal)
    (hfeat : ∀ (v0 : Vec Ideal S1x8192 .f32) (v2 : Vec Ideal S1x128 .f32) (g : Fin 9) (l : Fin 8320),
      feats0 v0 v2 (ix2 g l) = feat g (k0_pay2 v0 v2 (ix2 (⟨l.val / 128, by omega⟩ : Fin 65) (⟨l.val % 128, Nat.mod_lt _ (by omega)⟩ : Fin 128))))
    (c : Dev nD) (q : Fin 6930432) :
    (V5 m (outs3 m) c main_v12 : S1x6930432.Idx → EReal) (ix2 (0 : Fin 1) q)
      = if q.val < 6922240 then Cert.Spec.pooled1 feat (Cert.Spec.wOf (m ((c.tc : Thread nD τ).loc main_arg1))) (Cert.Spec.xOf (m ((c.tc : Thread nD τ).loc main_arg0)))
          (q.val / 1384448) (q.val / 169 % 8192) (q.val % 169 / 13) (q.val % 13) else 0 := by
  have e10 : (V5 m (outs3 m) c main_v10 : S5x8192x13x13.Idx → EReal)
      = Host.reduce FloatOps.maximumf (cells (o3 m c)) (constant S_ .f32 0xFF800000#32 : FVec Ideal S_ .f32)
          reducesTo_S5x8192x13x2x13x2_S5x8192x13x13_d3_5 h_S_ := by
    show StableHlo.after hostOps1_1 (StableHlo.after hostOps1 (Function.update (V2 m c) main_v6 (outs3 m 3 main_v6 c))) (Proc.devRef .tc main_v10) = _
    rw [outs3_v6]
    exact stretch1_v10 (V2 m c) (o3 m c)
  have e12 : (V5 m (outs3 m) c main_v12 : S1x6930432.Idx → EReal)
      = pad S1x6930432 ![0, 0] ![0, 8192] ![0, 0]
          (shapeCast S1x6922240 (V5 m (outs3 m) c main_v10 : S5x8192x13x13.Idx → EReal) shapeCasts_S5x8192x13x13_S1x6922240)
          (sitofp .f32 (constantI S_ 32 0#32) : FVec Ideal S_ .f32) pads_S1x6922240_S1x6930432_000_081920 h_S_ := by
    rw [e10]
    show StableHlo.after hostOps1_1 (StableHlo.after hostOps1 (Function.update (V2 m c) main_v6 (outs3 m 3 main_v6 c))) (Proc.devRef .tc main_v12) = _
    rw [outs3_v6]
    exact stretch1_v12 (V2 m c) (o3 m c)
  rw [e12]
  by_cases hq : q.val < 6922240
  · rw [if_pos hq]
    have h0 : q.val / 1384448 < 5 := by omega
    have h1 : q.val / 169 % 8192 < 8192 := by omega
    have h2 : q.val % 169 / 13 < 13 := by omega
    have h3 : q.val % 13 < 13 := by omega
    rw [pad_apply_of_inside ![0, 0] ![0, 8192] ![0, 0] _ _ pads_S1x6922240_S1x6930432_000_081920 h_S_
      (ix2 (0 : Fin 1) q) (ix2 (0 : Fin 1) (⟨q.val, hq⟩ : Fin 6922240)) (by
        intro a; fin_cases a <;> simp [ix2])]
    rw [shapeCast_apply _ shapeCasts_S5x8192x13x13_S1x6922240 (ix2 (0 : Fin 1) (⟨q.val, hq⟩ : Fin 6922240))
      (ix4 (⟨q.val / 1384448, h0⟩ : Fin 5) (⟨q.val / 169 % 8192, h1⟩ : Fin 8192) (⟨q.val % 169 / 13, h2⟩ : Fin 13) (⟨q.val % 13, h3⟩ : Fin 13)) (by
        rw [Shape.rowMajor_val_four, Shape.rowMajor_val_two]
        show ((q.val / 1384448 * 8192 + q.val / 169 % 8192) * 13 + q.val % 169 / 13) * 13 + q.val % 13 = 0 * 6922240 + q.val
        omega)]
    exact P1_apply m feat hfeat c _ _ _ _
  · rw [if_neg hq]
    rw [pad_apply_of_not_inside (s := S1x6922240) ![0, 0] ![0, 8192] ![0, 0] _ _ pads_S1x6922240_S1x6930432_000_081920 h_S_
      (ix2 (0 : Fin 1) q) (1 : Fin 2) (by
        show ¬(0 ≤ q.val ∧ (q.val - 0) % (0 + 1) = 0 ∧ (q.val - 0) / (0 + 1) < 6922240)
        omega)]
    exact sitofp_zero (φ := .f32)

/-- The second layer's weights as the second region finds them are what the first host stretch wrote. -/
theorem W3_eq (c : Dev nD) :
    (V5 m (outs3 m) c main_v3 : S5x81.Idx → EReal)
      = shapeCast S5x81 (transpose S5x9x9 [1, 2, 0] (m ((c.tc : Thread nD τ).loc main_arg2)) transposes_S9x5x9_S5x9x9_1_2_0)
          shapeCasts_S5x9x9_S5x81 := by
  have e : V5 m (outs3 m) c main_v3 = V2 m c main_v3 :=
    (V5_of m (outs3 m) c main_v3 (by decide)).trans ((V4_of m (outs3 m) c main_v3 (by decide)).trans (V3_of m (outs3 m) c main_v3 (by decide)))
  rw [e]
  show StableHlo.after hostOps0_1 (StableHlo.after hostOps0 (V0 m c)) (Proc.devRef .tc main_v3) = _
  after_results
  rfl

/-- Entry (ch, t·9 + g) of the second layer's weight matrix is the weight of feature group g, output channel ch, tap t. -/
theorem W3_apply (c : Dev nD) (ch : Fin 5) (t g : Fin 9) :
    (V5 m (outs3 m) c main_v3 : S5x81.Idx → EReal) (ix2 ch (⟨t.val * 9 + g.val, by omega⟩ : Fin 81))
      = Cert.Spec.wOf (m ((c.tc : Thread nD τ).loc main_arg2)) g.val ch.val t.val := by
  rw [W3_eq]
  rw [shapeCast_apply _ shapeCasts_S5x9x9_S5x81 (ix2 ch (⟨t.val * 9 + g.val, by omega⟩ : Fin 81)) (ix3 ch t g) (by
    rw [Shape.rowMajor_val_three, Shape.rowMajor_val_two]
    show (ch.val * 9 + t.val) * 9 + g.val = ch.val * 81 + (t.val * 9 + g.val)
    omega)]
  rw [transpose_apply [1, 2, 0] _ transposes_S9x5x9_S5x9x9_1_2_0 (ix3 ch t g) (ix3 g ch t) (by
    intro b; fin_cases b <;> rfl)]
  unfold Cert.Spec.wOf
  rw [dif_pos ⟨g.isLt, ch.isLt, t.isLt⟩]

end Cert.KernelIdeal.Val

end
-- ==== Proof.KI.Val5.lean ====
/-
  Region 1's output array after the region, entry by entry. Point t of the grid writes lanes [8192·t, 8192·t + 8192) of
  every channel row; it reads lanes [8192·t, 8192·t + 8320) of the input row (its tile and the 128 lanes after it) and the
  whole weight matrix. So entry (ch, p) of the output array is the weighted sum over feature groups and taps of the features
  of the input lanes at the taps' offsets after p, clipped below at zero — one function of the region's input arrays, of
  which every point writes its block, and the blocks cover the array.
-/
import proofs.«125140_g2000505823476311_pallasbulk_1268_6_alg».proof.Proof.KI.Region1
import proofs.«125140_g2000505823476311_pallasbulk_1268_6_alg».proof.Proof.KI.ConvPoint
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.RA Idealize.SL.Sem
open Idealize.ShloMosaic.Pipeline (Dat)
open Cert.KernelIdeal Cert.KernelIdeal.Gen Cert.KernelIdeal.Hand Cert.KI.ConvValue

variable (V : (c : Dev nD) → (b : Ref sig .tc) → Buf (Elt Ideal) ((c : Thread nD τ).loc b))

/-- The region's output array as one function of its input row X and weight matrix W. -/
def conv1Arr (feat : Fin 9 → EReal → EReal) (X : S1x6930432.Idx → EReal) (W : S5x81.Idx → EReal) : S5x6922240.Idx → EReal :=
  fun i => max (∑ g : Fin 9, ∑ t : Fin 9, W (ix2 (i 0) (⟨t.val * 9 + g.val, by omega⟩ : Fin 81))
    * feat g (X (ix2 (0 : Fin 1) (⟨(i 1).val + off13 t, by
        have h1 : (i 1).val < 6922240 := (i 1).isLt
        have h2 : off13 t ≤ 58 := by fin_cases t <;> decide
        omega⟩ : Fin 6930432)))) 0

/-- The printed index maps, decided over the grid: the tile's block index is the point, the next-lanes block index
    (in blocks of 128) is 64·(t + 1), the weights' is zero, the output's is the point. -/
theorem idx_facts1 : ∀ t : Fin cfg1.N, win1_0.index t (0 : Fin 2) = 0 ∧ win1_0.index t (1 : Fin 2) = t.val
    ∧ win1_1.index t (0 : Fin 2) = 0 ∧ win1_1.index t (1 : Fin 2) = (t.val + 1) * 64
    ∧ win1_2.index t (0 : Fin 2) = 0 ∧ win1_2.index t (1 : Fin 2) = 0
    ∧ win1_3.index t (0 : Fin 2) = 0 ∧ win1_3.index t (1 : Fin 2) = t.val :=
  (by decide +kernel : ∀ t : Fin grid1.N, _)

/-- The tile's block at point t, lane l: lane 8192·t + l of the input row. -/
theorem rd1_0 (c : Dev nD) (t : Fin cfg1.N) (l : Fin 8192) (hl : 8192 * t.val + l.val < 6930432) :
    iblk1 V c 0 t (ix2 (0 : Fin 1) l) = (V c main_v12 : S1x6930432.Idx → EReal) (ix2 (0 : Fin 1) (⟨8192 * t.val + l.val, hl⟩ : Fin 6930432)) := by
  obtain ⟨e00, e01, -⟩ := idx_facts1 t
  show (V c main_v12 : S1x6930432.Idx → EReal) (((cfg1.win 0).blk t).view.emb (ix2 (0 : Fin 1) l)) = _
  refine congrArg (V c main_v12 : S1x6930432.Idx → EReal) (funext fun a => Fin.ext ?_)
  match a with
  | ⟨0, _⟩ => show win1_0.index t (0 : Fin 2) * 1 + 1 * 0 = 0; omega
  | ⟨1, _⟩ => show win1_0.index t (1 : Fin 2) * 8192 + 1 * l.val = 8192 * t.val + l.val; omega

/-- The next-lanes block at point t, lane l: lane 8192·(t + 1) + l of the input row. -/
theorem rd1_1 (c : Dev nD) (t : Fin cfg1.N) (l : Fin 128) (hl : 8192 * (t.val + 1) + l.val < 6930432) :
    iblk1 V c 1 t (ix2 (0 : Fin 1) l) = (V c main_v12 : S1x6930432.Idx → EReal) (ix2 (0 : Fin 1) (⟨8192 * (t.val + 1) + l.val, hl⟩ : Fin 6930432)) := by
  obtain ⟨-, -, e10, e11, -⟩ := idx_facts1 t
  show (V c main_v12 : S1x6930432.Idx → EReal) (((cfg1.win 1).blk t).view.emb (ix2 (0 : Fin 1) l)) = _
  refine congrArg (V c main_v12 : S1x6930432.Idx → EReal) (funext fun a => Fin.ext ?_)
  match a with
  | ⟨0, _⟩ => show win1_1.index t (0 : Fin 2) * 1 + 1 * 0 = 0; omega
  | ⟨1, _⟩ => show win1_1.index t (1 : Fin 2) * 128 + 1 * l.val = 8192 * (t.val + 1) + l.val; omega

/-- The weights' block at any point is the whole weight matrix. -/
theorem rd1_2 (c : Dev nD) (t : Fin cfg1.N) (y : S5x81.Idx) :
    iblk1 V c 2 t y = (V c main_v3 : S5x81.Idx → EReal) y := by
  obtain ⟨-, -, -, -, e20, e21, -⟩ := idx_facts1 t
  show (V c main_v3 : S5x81.Idx → EReal) (((cfg1.win 2).blk t).view.emb y) = _
  refine congrArg (V c main_v3 : S5x81.Idx → EReal) (funext fun a => Fin.ext ?_)
  match a with
  | ⟨0, _⟩ => show win1_2.index t (0 : Fin 2) * 5 + 1 * (y 0).val = (y 0).val; omega
  | ⟨1, _⟩ => show win1_2.index t (1 : Fin 2) * 81 + 1 * (y 1).val = (y 1).val; omega

/-- The 8320 lanes point t sees are lanes 8192·t … of the input row. -/
theorem lanes1_eq (c : Dev nD) (t : Fin cfg1.N) (l : Fin 8320) (hl : 8192 * t.val + l.val < 6930432) :
    lanes (iblk1 V c 0 t) (iblk1 V c 1 t) l = (V c main_v12 : S1x6930432.Idx → EReal) (ix2 (0 : Fin 1) (⟨8192 * t.val + l.val, hl⟩ : Fin 6930432)) := by
  unfold lanes
  by_cases h : l.val < 8192
  · rw [dif_pos h, rd1_0 V c t ⟨l.val, h⟩ hl]
  · rw [dif_neg h, rd1_1 V c t ⟨l.val - 8192, by have := l.isLt; omega⟩ (by show 8192 * (t.val + 1) + (l.val - 8192) < 6930432; omega)]
    refine congrArg (fun z : Fin 6930432 => (V c main_v12 : S1x6930432.Idx → EReal) (ix2 (0 : Fin 1) z)) (Fin.ext ?_)
    show 8192 * (t.val + 1) + (l.val - 8192) = 8192 * t.val + l.val
    omega

/-- The stored block at a general index of the block. -/
theorem conv1_block_apply' (feat : Fin 9 → EReal → EReal)
    (hfeat : ∀ (v0 : Vec Ideal S1x8192 .f32) (v2 : Vec Ideal S1x128 .f32) (g : Fin 9) (l : Fin 8320),
      feats1 v0 v2 (ix2 g l) = feat g (k1_pay2 v0 v2 (ix2 (⟨l.val / 128, by omega⟩ : Fin 65) (⟨l.val % 128, Nat.mod_lt _ (by omega)⟩ : Fin 128))))
    (x0 : Vec Ideal S1x8192 .f32) (x1 : Vec Ideal S1x128 .f32) (x2 : Vec Ideal S5x81 .f32) (y : S5x8192.Idx) :
    conv1_block x0 x1 x2 y
      = max (∑ g : Fin 9, ∑ t : Fin 9, x2 (ix2 (y 0) (⟨t.val * 9 + g.val, by omega⟩ : Fin 81))
          * feat g (lanes x0 x1 (⟨(y 1).val + off13 t, col13_lt t (y 1)⟩ : Fin 8320))) 0 := by
  exact (congrArg (conv1_block x0 x1 x2) (eq_ix2 y)).trans (conv1_block_apply feat hfeat x0 x1 x2 (y 0) (y 1))

/-- What point t writes back is block t of the one array function. -/
theorem flushed1_eq (feat : Fin 9 → EReal → EReal)
    (hfeat : ∀ (v0 : Vec Ideal S1x8192 .f32) (v2 : Vec Ideal S1x128 .f32) (g : Fin 9) (l : Fin 8320),
      feats1 v0 v2 (ix2 g l) = feat g (k1_pay2 v0 v2 (ix2 (⟨l.val / 128, by omega⟩ : Fin 65) (⟨l.val % 128, Nat.mod_lt _ (by omega)⟩ : Fin 128))))
    (q : Fin cfg1.W → PosShare TreeShare) (c : Dev nD) (t : Fin cfg1.N) :
    (dat1 V q c).flushed 3 t = ((cfg1.win 3).blk t).view.read (Elt Ideal) (conv1Arr feat (V c main_v12) (V c main_v3)) := by
  show (cfg1.win 3).cut (grid1.coords t) ((dat1 V q c).after 3 t) = _
  rw [after1_3]
  unfold out1_3
  rw [View.canon_unit_zero hz2]
  obtain ⟨-, -, -, -, -, -, e30, e31⟩ := idx_facts1 t
  have hN : t.val < 845 := lt_of_lt_of_eq t.isLt N_1
  funext j
  show conv1_block (iblk1 V c 0 t) (iblk1 V c 1 t) (iblk1 V c 2 t) j
    = conv1Arr feat (V c main_v12) (V c main_v3) (((cfg1.win 3).blk t).view.emb j)
  have hj1 : (j 1).val < 8192 := (j 1).isLt
  have hj0 : (j 0).val < 5 := (j 0).isLt
  rw [conv1_block_apply' feat hfeat (iblk1 V c 0 t) (iblk1 V c 1 t) (iblk1 V c 2 t) j]
  unfold conv1Arr
  refine congrArg (fun z : EReal => max z 0) (Finset.sum_congr rfl fun g _ => Finset.sum_congr rfl fun k _ => ?_)
  have ho : off13 k ≤ 58 := by fin_cases k <;> decide
  rw [rd1_2 V c t, lanes1_eq V c t _ (by show 8192 * t.val + ((j 1).val + off13 k) < 6930432; omega)]
  have ea0 : ((((cfg1.win 3).blk t).view.emb j) 0).val = (j 0).val := by
    show win1_3.index t (0 : Fin 2) * 5 + 1 * (j 0).val = (j 0).val; omega
  have ea1 : ((((cfg1.win 3).blk t).view.emb j) 1).val = 8192 * t.val + (j 1).val := by
    show win1_3.index t (1 : Fin 2) * 8192 + 1 * (j 1).val = 8192 * t.val + (j 1).val; omega
  refine congr (congrArg HMul.hMul (congrArg _ (funext fun a => ?_))) (congrArg (feat g) (congrArg _ (congrArg (ix2 (0 : Fin 1)) (Fin.ext ?_))))
  · match a with
    | ⟨0, _⟩ => exact Fin.ext ea0.symm
    | ⟨1, _⟩ => rfl
  · show 8192 * t.val + ((j 1).val + off13 k) = ((((cfg1.win 3).blk t).view.emb j) 1).val + off13 k
    rw [ea1]; omega

/-- An index of the output array is in point t's block iff each coordinate is in the block's range on its axis. -/
theorem mem_blk1 (t : Fin cfg1.N) (i : S5x6922240.Idx) :
    i ∈ ((cfg1.win 3).blk t).view.set ↔ ∀ a : Fin 2, win1_3.index t a * S5x8192.size a ≤ (i a).val ∧ (i a).val < win1_3.index t a * S5x8192.size a + S5x8192.size a := by
  show i ∈ ((View.whole main_v13).slice (win1_3.rect t)).set ↔ _
  rw [View.set_slice_whole, Rect.mem_set_unit]
  exact Iff.rfl

/-- Every index of the output array is in some point's block: lane p is written by point p / 8192. -/
theorem cover1 (i : S5x6922240.Idx) : ∃ t : Fin cfg1.N, (cfg1.win 3).flush t = true ∧ i ∈ ((cfg1.win 3).blk t).view.set := by
  have h0 : (i 0).val < 5 := (i 0).isLt
  have h1 : (i 1).val < 6922240 := (i 1).isLt
  refine ⟨Fin.cast N_1.symm (⟨(i 1).val / 8192, by omega⟩ : Fin 845), flush1_3 _, ?_⟩
  obtain ⟨-, -, -, -, -, -, e30, e31⟩ := idx_facts1 (Fin.cast N_1.symm (⟨(i 1).val / 8192, by omega⟩ : Fin 845))
  have e31' : win1_3.index (Fin.cast N_1.symm (⟨(i 1).val / 8192, by omega⟩ : Fin 845)) (1 : Fin 2) = (i 1).val / 8192 := e31
  rw [mem_blk1]
  intro a
  match a with
  | ⟨0, _⟩ => show win1_3.index _ (0 : Fin 2) * 5 ≤ (i 0).val ∧ (i 0).val < win1_3.index _ (0 : Fin 2) * 5 + 5; omega
  | ⟨1, _⟩ => show win1_3.index _ (1 : Fin 2) * 8192 ≤ (i 1).val ∧ (i 1).val < win1_3.index _ (1 : Fin 2) * 8192 + 8192; omega

/-- THE OUTPUT ARRAY after the region is the one array function of the region's input row and weight matrix. -/
theorem arr1_eq (feat : Fin 9 → EReal → EReal)
    (hfeat : ∀ (v0 : Vec Ideal S1x8192 .f32) (v2 : Vec Ideal S1x128 .f32) (g : Fin 9) (l : Fin 8320),
      feats1 v0 v2 (ix2 g l) = feat g (k1_pay2 v0 v2 (ix2 (⟨l.val / 128, by omega⟩ : Fin 65) (⟨l.val % 128, Nat.mod_lt _ (by omega)⟩ : Fin 128))))
    (q : Fin cfg1.W → PosShare TreeShare) (c : Dev nD) :
    (dat1 V q c).arrAt 3 cfg1.N = conv1Arr feat (V c main_v12) (V c main_v3) :=
  (dat1 V q c).arrAt_eq_of_cover 3 (conv1Arr feat (V c main_v12) (V c main_v3)) (fun t _ => flushed1_eq V feat hfeat q c t) (cover1)

end Cert.KernelIdeal.Val

end
-- ==== Proof.FeatValue.lean ====
/- The spline featurizer, entry by entry.

   Both programs turn a pixel value x into nine features: x · logistic x and the eight cubic
   B-spline basis functions on the uniform knots -2.2, -1.8, ..., 2.2 (order-0 indicators from the
   comparisons x ≥ knot, then three steps of the Cox-de Boor recursion). Every operation of that
   chain acts entry by entry, so the feature array's entry depends only on the pixel at that entry:
   feature g of the array at a position is feat g of the pixel there, where feat g x is the same
   chain run on the array all of whose entries are x. -/
import proofs.«125140_g2000505823476311_pallasbulk_1268_6_alg».proof.Proof.Gen.KernelIdeal.Skeleton
import proofs.«125140_g2000505823476311_pallasbulk_1268_6_alg».proof.Proof.Gen.ReferenceIdeal.Skeleton
import proofs.«125140_g2000505823476311_pallasbulk_1268_6_alg».proof.Proof.KI.FeatArray
import Idealize.ShloMosaic.Lib.ValueIdx
import Idealize.ShloMosaic.Lib.ValueLayout
import Idealize.ShloMosaic.Lib.Pipeline.Value

noncomputable section

namespace Cert.Feat

open Idealize.ShloMosaic Idealize.ShloMosaic.ValueIdx Cert.KernelIdeal Cert.KernelIdeal.Gen

/-- The logistic function of an array is the logistic function of each entry. -/
theorem logistic_apply {s : Shape} {φ : FTy} (a : FVec Ideal s φ) (i : s.Idx) :
    logistic a i = FloatOps.logistic (a i) := rfl

/-- Nine rows of width W stacked into a 9 by W array: row g of the stack is the g-th row. -/
theorem rows9_apply {α : Type} {W : Nat}
    (hcat : Shape.Concatenates [(⟨2, ![1, W]⟩ : Shape), ⟨2, ![1, W]⟩, ⟨2, ![1, W]⟩, ⟨2, ![1, W]⟩, ⟨2, ![1, W]⟩,
      ⟨2, ![1, W]⟩, ⟨2, ![1, W]⟩, ⟨2, ![1, W]⟩, ⟨2, ![1, W]⟩] ⟨2, ![9, W]⟩ 0)
    (y : Fin 9 → ((⟨2, ![1, W]⟩ : Shape).Idx → α)) (g : Fin 9) (j : Fin W) :
    concatenate ⟨2, ![9, W]⟩ 0
        [⟨⟨2, ![1, W]⟩, y 0⟩, ⟨⟨2, ![1, W]⟩, y 1⟩, ⟨⟨2, ![1, W]⟩, y 2⟩, ⟨⟨2, ![1, W]⟩, y 3⟩, ⟨⟨2, ![1, W]⟩, y 4⟩,
          ⟨⟨2, ![1, W]⟩, y 5⟩, ⟨⟨2, ![1, W]⟩, y 6⟩, ⟨⟨2, ![1, W]⟩, y 7⟩, ⟨⟨2, ![1, W]⟩, y 8⟩] hcat (ix2 g j)
      = y g (ix2 0 j) := by
  refine concatenate_ofFn_apply (t := ⟨2, ![9, W]⟩) (s₁ := ⟨2, ![1, W]⟩) (0 : Fin 2) y hcat rfl 1 rfl
    (ix2 g j) g ?_ (ix2 0 j) ?_ (fun b hb => ?_)
  · show g.val / 1 = g.val
    omega
  · show 0 = g.val % 1
    omega
  · match b with
    | ⟨0, _⟩ => exact absurd rfl hb
    | ⟨1, _⟩ => rfl

/-- A 65 by 128 array laid out as one row of 8320: place j of the row is entry (j / 128, j % 128). -/
theorem unflatten_apply {α : Type} (y : (⟨2, ![65, 128]⟩ : Shape).Idx → α)
    (h : (⟨2, ![65, 128]⟩ : Shape).ShapeCasts ⟨2, ![1, 8320]⟩) (j : Fin 8320) :
    shapeCast ⟨2, ![1, 8320]⟩ y h (ix2 0 j)
      = y (ix2 ⟨j.val / 128, by omega⟩ ⟨j.val % 128, Nat.mod_lt _ (by decide)⟩) := by
  refine shapeCast_apply y h _ _ ?_
  rw [Shape.rowMajor_val_two, Shape.rowMajor_val_two]
  show j.val / 128 * 128 + j.val % 128 = 0 * 8320 + j.val
  omega

/-- Nine 65 by 128 arrays, each laid out as a row of 8320 and the rows stacked: entry (g, j) of the
   stack is entry (j / 128, j % 128) of the g-th array. -/
theorem featArr_apply {α : Type} (y0 y1 y2 y3 y4 y5 y6 y7 y8 : (⟨2, ![65, 128]⟩ : Shape).Idx → α)
    (hcast : (⟨2, ![65, 128]⟩ : Shape).ShapeCasts ⟨2, ![1, 8320]⟩)
    (hcat : Shape.Concatenates [(⟨2, ![1, 8320]⟩ : Shape), ⟨2, ![1, 8320]⟩, ⟨2, ![1, 8320]⟩, ⟨2, ![1, 8320]⟩,
      ⟨2, ![1, 8320]⟩, ⟨2, ![1, 8320]⟩, ⟨2, ![1, 8320]⟩, ⟨2, ![1, 8320]⟩, ⟨2, ![1, 8320]⟩] ⟨2, ![9, 8320]⟩ 0)
    (g : Fin 9) (j : Fin 8320) :
    concatenate ⟨2, ![9, 8320]⟩ 0
        [⟨⟨2, ![1, 8320]⟩, shapeCast ⟨2, ![1, 8320]⟩ y0 hcast⟩, ⟨⟨2, ![1, 8320]⟩, shapeCast ⟨2, ![1, 8320]⟩ y1 hcast⟩,
          ⟨⟨2, ![1, 8320]⟩, shapeCast ⟨2, ![1, 8320]⟩ y2 hcast⟩, ⟨⟨2, ![1, 8320]⟩, shapeCast ⟨2, ![1, 8320]⟩ y3 hcast⟩,
          ⟨⟨2, ![1, 8320]⟩, shapeCast ⟨2, ![1, 8320]⟩ y4 hcast⟩, ⟨⟨2, ![1, 8320]⟩, shapeCast ⟨2, ![1, 8320]⟩ y5 hcast⟩,
          ⟨⟨2, ![1, 8320]⟩, shapeCast ⟨2, ![1, 8320]⟩ y6 hcast⟩, ⟨⟨2, ![1, 8320]⟩, shapeCast ⟨2, ![1, 8320]⟩ y7 hcast⟩,
          ⟨⟨2, ![1, 8320]⟩, shapeCast ⟨2, ![1, 8320]⟩ y8 hcast⟩] hcat (ix2 g j)
      = (![y0, y1, y2, y3, y4, y5, y6, y7, y8] : Fin 9 → ((⟨2, ![65, 128]⟩ : Shape).Idx → α)) g
          (ix2 ⟨j.val / 128, by omega⟩ ⟨j.val % 128, Nat.mod_lt _ (by decide)⟩) :=
  (rows9_apply hcat
      (fun k => shapeCast ⟨2, ![1, 8320]⟩
        ((![y0, y1, y2, y3, y4, y5, y6, y7, y8] : Fin 9 → ((⟨2, ![65, 128]⟩ : Shape).Idx → α)) k) hcast) g j).trans
    (unflatten_apply _ hcast j)

/-! ## The pixel array in the 65 by 128 view -/

/-- The 8192 pixels of a block followed by the 128 pixels after it, viewed as 65 by 128: entry
   (r, l) is pixel r*128 + l of the block when that is below 8192, -/
theorem pix_apply_left {α : Type} (v0 : (⟨2, ![1, 8192]⟩ : Shape).Idx → α) (v2 : (⟨2, ![1, 128]⟩ : Shape).Idx → α)
    (hcat : Shape.Concatenates [(⟨2, ![1, 8192]⟩ : Shape), ⟨2, ![1, 128]⟩] ⟨2, ![1, 8320]⟩ 1)
    (hcast : (⟨2, ![1, 8320]⟩ : Shape).ShapeCasts ⟨2, ![65, 128]⟩) (r : Fin 65) (l : Fin 128)
    (h : r.val * 128 + l.val < 8192) :
    shapeCast ⟨2, ![65, 128]⟩ (concatenate ⟨2, ![1, 8320]⟩ 1 [⟨⟨2, ![1, 8192]⟩, v0⟩, ⟨⟨2, ![1, 128]⟩, v2⟩] hcat) hcast
        (ix2 r l) = v0 (ix2 0 ⟨r.val * 128 + l.val, h⟩) := by
  refine (shapeCast_apply _ hcast (ix2 r l) (ix2 0 ⟨r.val * 128 + l.val, by omega⟩) ?_).trans ?_
  · rw [Shape.rowMajor_val_two, Shape.rowMajor_val_two]
    show 0 * 8320 + (r.val * 128 + l.val) = r.val * 128 + l.val
    omega
  · exact concatenate_pair_apply_left (t := ⟨2, ![1, 8320]⟩) (1 : Fin 2) v0 v2 hcat _ rfl (ix2 0 ⟨_, h⟩)
      (fun b => by match b with | ⟨0, _⟩ => rfl | ⟨1, _⟩ => rfl)

/-- and pixel r*128 + l - 8192 of the 128 after it otherwise. -/
theorem pix_apply_right {α : Type} (v0 : (⟨2, ![1, 8192]⟩ : Shape).Idx → α) (v2 : (⟨2, ![1, 128]⟩ : Shape).Idx → α)
    (hcat : Shape.Concatenates [(⟨2, ![1, 8192]⟩ : Shape), ⟨2, ![1, 128]⟩] ⟨2, ![1, 8320]⟩ 1)
    (hcast : (⟨2, ![1, 8320]⟩ : Shape).ShapeCasts ⟨2, ![65, 128]⟩) (r : Fin 65) (l : Fin 128)
    (h : 8192 ≤ r.val * 128 + l.val) :
    shapeCast ⟨2, ![65, 128]⟩ (concatenate ⟨2, ![1, 8320]⟩ 1 [⟨⟨2, ![1, 8192]⟩, v0⟩, ⟨⟨2, ![1, 128]⟩, v2⟩] hcat) hcast
        (ix2 r l) = v2 (ix2 0 ⟨r.val * 128 + l.val - 8192, by omega⟩) := by
  refine (shapeCast_apply _ hcast (ix2 r l) (ix2 0 ⟨r.val * 128 + l.val, by omega⟩) ?_).trans ?_
  · rw [Shape.rowMajor_val_two, Shape.rowMajor_val_two]
    show 0 * 8320 + (r.val * 128 + l.val) = r.val * 128 + l.val
    omega
  · refine concatenate_pair_apply_right (t := ⟨2, ![1, 8320]⟩) (1 : Fin 2) v0 v2 hcat _ rfl rfl
      (ix2 0 ⟨r.val * 128 + l.val - 8192, by omega⟩) (fun b hb => ?_) ?_
    · match b with
      | ⟨0, _⟩ => rfl
      | ⟨1, _⟩ => exact absurd rfl hb
    · show r.val * 128 + l.val - 8192 + 8192 = r.val * 128 + l.val
      omega

/-- When every pixel is x, every entry of the view is x. -/
theorem pix_const {α : Type} (x : α)
    (hcat : Shape.Concatenates [(⟨2, ![1, 8192]⟩ : Shape), ⟨2, ![1, 128]⟩] ⟨2, ![1, 8320]⟩ 1)
    (hcast : (⟨2, ![1, 8320]⟩ : Shape).ShapeCasts ⟨2, ![65, 128]⟩) (i : (⟨2, ![65, 128]⟩ : Shape).Idx) :
    shapeCast ⟨2, ![65, 128]⟩
        (concatenate ⟨2, ![1, 8320]⟩ 1 [⟨⟨2, ![1, 8192]⟩, fun _ => x⟩, ⟨⟨2, ![1, 128]⟩, fun _ => x⟩] hcat) hcast i = x := by
  obtain ⟨r, l, rfl⟩ : ∃ (r : Fin 65) (l : Fin 128), i = ix2 r l := ⟨i 0, i 1, eq_ix2 i⟩
  by_cases h : r.val * 128 + l.val < 8192
  · exact pix_apply_left (fun _ => x) (fun _ => x) hcat hcast r l h
  · exact pix_apply_right (fun _ => x) (fun _ => x) hcat hcast r l (Nat.le_of_not_lt h)

/-! ## The kernel's feature rows (conv layer one) -/

/-- The nine feature rows in the 65 by 128 view, as the body computes them from the loaded pixel
   block v0 and the 128 pixels after it v2: row 0 is x · logistic x, rows 1 to 8 the cubic basis
   functions. -/
def k0Rows (v0 : Vec Ideal S1x8192 .f32) (v2 : Vec Ideal S1x128 .f32) (g : Fin 9) : FVec Ideal S65x128 .f32 :=
  let v5 := k0_pay2 (F := Ideal) v0 v2
  let v9 := k0_pay3 (F := Ideal) v0 v2
  let v13 := k0_pay4 (F := Ideal) v0 v2
  let v17 := k0_pay5 (F := Ideal) v0 v2
  let v21 := k0_pay6 (F := Ideal) v0 v2
  let v25 := k0_pay7 (F := Ideal) v0 v2
  let v29 := k0_pay8 (F := Ideal) v0 v2
  let v33 := k0_pay9 (F := Ideal) v0 v2
  let v37 := k0_pay10 (F := Ideal) v0 v2
  let v41 := k0_pay11 (F := Ideal) v0 v2
  let v44 := k0_pay12 (F := Ideal) v0 v2
  let v58 := k0_pay18 (F := Ideal) v25 v29
  let v59 := k0_pay19 (F := Ideal) v29 v33
  let v60 := k0_pay20 (F := Ideal) v33 v37
  let v61 := k0_pay21 (F := Ideal) v37 v41
  let v62 := k0_pay22 (F := Ideal) v41 v44
  let v63 := k0_pay23 (F := Ideal) v5 v44
  let v64 := k0_pay24 (F := Ideal) v5
  let v66 := k0_pay25 (F := Ideal) v5
  let v75 := k0_pay27 (F := Ideal) v5 v9 v13 v17
  let v82 := k0_pay29 (F := Ideal) v5 v13 v17 v21
  let v89 := k0_pay31 (F := Ideal) v5 v17 v21 v25
  let v91 := k0_pay32 (F := Ideal) v5
  let v92 := k0_pay33 (F := Ideal) v5 v21 v25
  let cst_23 : Ideal .f32 := Scalar.ofBits .f32 0x3F800000#32
  let v96 := k0_pay34 (F := Ideal) v58 v91 v92 cst_23
  let v103 := k0_pay36 (F := Ideal) v58 v59 v66 v91
  let v110 := k0_pay38 (F := Ideal) v59 v60 v66
  let v117 := k0_pay40 (F := Ideal) v60 v61 v66
  let v124 := k0_pay42 (F := Ideal) v61 v62 v66
  let v131 := k0_pay44 (F := Ideal) v62 v63 v66
  let v138 := k0_pay45 (F := Ideal) v63 v64 v66
  let v139 : FVec Ideal S65x128 .f32 := k0_pay46 (F := Ideal)
  let v140 := k0_pay47 (F := Ideal) v5 v139
  let v149 := k0_pay49 (F := Ideal) v5 v75 v82 v139
  let v156 := k0_pay51 (F := Ideal) v5 v82 v89 v139
  let v163 := k0_pay53 (F := Ideal) v5 v89 v96 v139
  let v170 := k0_pay55 (F := Ideal) v5 v96 v103 v139
  let v177 := k0_pay57 (F := Ideal) v5 v103 v110 v139
  let v179 := k0_pay58 (F := Ideal) v5 v139
  let v184 := k0_pay59 (F := Ideal) v5 v110 v117 v139
  let v185 : FVec Ideal S65x128 .f32 := k0_pay60 (F := Ideal)
  let v191 := k0_pay62 (F := Ideal) v117 v124 v140 v179 v185
  let v198 := k0_pay64 (F := Ideal) v124 v131 v140 v185
  let v205 := k0_pay65 (F := Ideal) v131 v138 v140
  let v207 := k0_pay66 (F := Ideal) v5
  let v216 := k0_pay68 (F := Ideal) v5 v149 v156
  let v223 := k0_pay70 (F := Ideal) v5 v156 v163
  let v225 := k0_pay71 (F := Ideal) v5
  let v230 := k0_pay72 (F := Ideal) v5 v163 v170
  let v231 : FVec Ideal S65x128 .f32 := k0_pay73 (F := Ideal)
  let v232 : FVec Ideal S65x128 .f32 := subf v207 v231
  let v233 : FVec Ideal S65x128 .f32 := mulf v225 v170
  let cst_65 : Ideal .f32 := Scalar.ofBits .f32 0x3F800000#32
  let v234 : FVec Ideal S65x128 .f32 := broadcast S65x128 cst_65
  let v235 : FVec Ideal S65x128 .f32 := subf v234 v232
  let v236 : FVec Ideal S65x128 .f32 := mulf v235 v177
  let v237 : FVec Ideal S65x128 .f32 := addf v233 v236
  let cst_66 : Ideal .f32 := Scalar.ofBits .f32 0xBE2AAAAB#32
  let v238 : FVec Ideal S65x128 .f32 := broadcast S65x128 cst_66
  let v239 : FVec Ideal S65x128 .f32 := subf v207 v238
  let v240 : FVec Ideal S65x128 .f32 := mulf v232 v177
  let cst_67 : Ideal .f32 := Scalar.ofBits .f32 0x3F800000#32
  let v241 : FVec Ideal S65x128 .f32 := broadcast S65x128 cst_67
  let v242 : FVec Ideal S65x128 .f32 := subf v241 v239
  let v243 : FVec Ideal S65x128 .f32 := mulf v242 v184
  let v244 : FVec Ideal S65x128 .f32 := addf v240 v243
  let cst_68 : Ideal .f32 := Scalar.ofBits .f32 0x3E2AAAAB#32
  let v245 : FVec Ideal S65x128 .f32 := broadcast S65x128 cst_68
  let v246 : FVec Ideal S65x128 .f32 := subf v207 v245
  let v247 : FVec Ideal S65x128 .f32 := mulf v239 v184
  let cst_69 : Ideal .f32 := Scalar.ofBits .f32 0x3F800000#32
  let v248 : FVec Ideal S65x128 .f32 := broadcast S65x128 cst_69
  let v249 : FVec Ideal S65x128 .f32 := subf v248 v246
  let v250 : FVec Ideal S65x128 .f32 := mulf v249 v191
  let v251 : FVec Ideal S65x128 .f32 := addf v247 v250
  let cst_70 : Ideal .f32 := Scalar.ofBits .f32 0x3F000000#32
  let v252 : FVec Ideal S65x128 .f32 := broadcast S65x128 cst_70
  let v253 : FVec Ideal S65x128 .f32 := subf v207 v252
  let v254 : FVec Ideal S65x128 .f32 := mulf v246 v191
  let cst_71 : Ideal .f32 := Scalar.ofBits .f32 0x3F800000#32
  let v255 : FVec Ideal S65x128 .f32 := broadcast S65x128 cst_71
  let v256 : FVec Ideal S65x128 .f32 := subf v255 v253
  let v257 : FVec Ideal S65x128 .f32 := mulf v256 v198
  let v258 : FVec Ideal S65x128 .f32 := addf v254 v257
  let cst_72 : Ideal .f32 := Scalar.ofBits .f32 0x3F555555#32
  let v259 : FVec Ideal S65x128 .f32 := broadcast S65x128 cst_72
  let v260 : FVec Ideal S65x128 .f32 := subf v207 v259
  let v261 : FVec Ideal S65x128 .f32 := mulf v253 v198
  let cst_73 : Ideal .f32 := Scalar.ofBits .f32 0x3F800000#32
  let v262 : FVec Ideal S65x128 .f32 := broadcast S65x128 cst_73
  let v263 : FVec Ideal S65x128 .f32 := subf v262 v260
  let v264 : FVec Ideal S65x128 .f32 := mulf v263 v205
  let v265 : FVec Ideal S65x128 .f32 := addf v261 v264
  let v266 : FVec Ideal S65x128 .f32 := logistic v5
  let v267 : FVec Ideal S65x128 .f32 := mulf v5 v266
  match g with
  | ⟨0, _⟩ => v267
  | ⟨1, _⟩ => v216
  | ⟨2, _⟩ => v223
  | ⟨3, _⟩ => v230
  | ⟨4, _⟩ => v237
  | ⟨5, _⟩ => v244
  | ⟨6, _⟩ => v251
  | ⟨7, _⟩ => v258
  | ⟨8, _⟩ => v265
  | ⟨n + 9, h⟩ => absurd h (by omega)

/-- Entry (g, j) of the 9 by 8320 feature array the body stacks from those rows is entry
   (j / 128, j % 128) of row g. -/
theorem feats0_rows (v0 : Vec Ideal S1x8192 .f32) (v2 : Vec Ideal S1x128 .f32) (g : Fin 9) (j : Fin 8320) :
    Cert.KernelIdeal.Val.feats0 (F := Ideal) v0 v2 (ix2 g j)
      = k0Rows v0 v2 g (ix2 ⟨j.val / 128, by omega⟩ ⟨j.val % 128, Nat.mod_lt _ (by decide)⟩) := by
  unfold Cert.KernelIdeal.Val.feats0 k0_pay74
  refine (featArr_apply _ _ _ _ _ _ _ _ _ _ _ g j).trans ?_
  fin_cases g <;> rfl

/-- The body's pixel view when every loaded pixel is x. -/
theorem k0_pay2_const (x : EReal) (i : S65x128.Idx) :
    k0_pay2 (F := Ideal) (fun _ => x) (fun _ => x) i = x := by
  unfold k0_pay2
  rw [shapeCast_self, shapeCast_self]
  exact pix_const x _ _ i

/-! ## The feature function -/

/-- Feature g of a pixel value x: entry (0, 0) of row g when every pixel is x. Feature 0 is
   x · logistic x; features 1 to 8 are the cubic B-spline basis functions at x. -/
def feat (g : Fin 9) (x : EReal) : EReal :=
  k0Rows (fun _ => x) (fun _ => x) g (ix2 0 0)

/-- Every operation of the chain acts entry by entry: entry i of row g is feature g of pixel i. -/
theorem k0Rows_apply (v0 : Vec Ideal S1x8192 .f32) (v2 : Vec Ideal S1x128 .f32) (g : Fin 9) (i : S65x128.Idx) :
    k0Rows v0 v2 g i = feat g (k0_pay2 (F := Ideal) v0 v2 i) := by
  unfold feat
  fin_cases g
  · simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]

/-- The feature array's entry (g, l) is feature g of pixel l of the 8320 (the block's 8192 and the
   128 after it), read in the 65 by 128 view at (l / 128, l % 128). -/
theorem kFeat0_apply (v0 : Vec Ideal S1x8192 .f32) (v2 : Vec Ideal S1x128 .f32) (g : Fin 9) (l : Fin 8320) :
    Cert.KernelIdeal.Val.feats0 (F := Ideal) v0 v2 (ix2 g l)
      = feat g (k0_pay2 (F := Ideal) v0 v2 (ix2 ⟨l.val / 128, by omega⟩ ⟨l.val % 128, Nat.mod_lt _ (by decide)⟩)) :=
  (feats0_rows v0 v2 g l).trans (k0Rows_apply v0 v2 g _)

/-- The pixel view at (r, l) is pixel r*128 + l of the loaded block when that is below 8192, -/
theorem k0_v5_apply_left (v0 : Vec Ideal S1x8192 .f32) (v2 : Vec Ideal S1x128 .f32) (r : Fin 65) (l : Fin 128)
    (h : r.val * 128 + l.val < 8192) :
    k0_pay2 (F := Ideal) v0 v2 (ix2 r l) = v0 (ix2 0 ⟨r.val * 128 + l.val, h⟩) := by
  unfold k0_pay2
  rw [shapeCast_self, shapeCast_self]
  exact pix_apply_left v0 v2 _ _ r l h

/-- and pixel r*128 + l - 8192 of the 128 pixels after the block otherwise. -/
theorem k0_v5_apply_right (v0 : Vec Ideal S1x8192 .f32) (v2 : Vec Ideal S1x128 .f32) (r : Fin 65) (l : Fin 128)
    (h : 8192 ≤ r.val * 128 + l.val) :
    k0_pay2 (F := Ideal) v0 v2 (ix2 r l) = v2 (ix2 0 ⟨r.val * 128 + l.val - 8192, by omega⟩) := by
  unfold k0_pay2
  rw [shapeCast_self, shapeCast_self]
  exact pix_apply_right v0 v2 _ _ r l h

/-- The first layer's statement under its short name. -/
theorem kFeat_apply (v0 : Vec Ideal S1x8192 .f32) (v2 : Vec Ideal S1x128 .f32) (g : Fin 9) (l : Fin 8320) :
    Cert.KernelIdeal.Val.feats0 (F := Ideal) v0 v2 (ix2 g l)
      = feat g (k0_pay2 (F := Ideal) v0 v2 (ix2 ⟨l.val / 128, by omega⟩ ⟨l.val % 128, Nat.mod_lt _ (by decide)⟩)) :=
  kFeat0_apply v0 v2 g l

/-! ## The kernel's feature rows (conv layer two) -/

/-- The nine feature rows in the 65 by 128 view, as the body computes them from the loaded pixel
   block v0 and the 128 pixels after it v2: row 0 is x · logistic x, rows 1 to 8 the cubic basis
   functions. -/
def k1Rows (v0 : Vec Ideal S1x8192 .f32) (v2 : Vec Ideal S1x128 .f32) (g : Fin 9) : FVec Ideal S65x128 .f32 :=
  let v5 := k1_pay2 (F := Ideal) v0 v2
  let v9 := k1_pay3 (F := Ideal) v0 v2
  let v13 := k1_pay4 (F := Ideal) v0 v2
  let v17 := k1_pay5 (F := Ideal) v0 v2
  let v21 := k1_pay6 (F := Ideal) v0 v2
  let v25 := k1_pay7 (F := Ideal) v0 v2
  let v29 := k1_pay8 (F := Ideal) v0 v2
  let v33 := k1_pay9 (F := Ideal) v0 v2
  let v37 := k1_pay10 (F := Ideal) v0 v2
  let v41 := k1_pay11 (F := Ideal) v0 v2
  let v44 := k1_pay12 (F := Ideal) v0 v2
  let v58 := k1_pay18 (F := Ideal) v25 v29
  let v59 := k1_pay19 (F := Ideal) v29 v33
  let v60 := k1_pay20 (F := Ideal) v33 v37
  let v61 := k1_pay21 (F := Ideal) v37 v41
  let v62 := k1_pay22 (F := Ideal) v41 v44
  let v63 := k1_pay23 (F := Ideal) v5 v44
  let v64 := k1_pay24 (F := Ideal) v5
  let v66 := k1_pay25 (F := Ideal) v5
  let v75 := k1_pay27 (F := Ideal) v5 v9 v13 v17
  let v82 := k1_pay29 (F := Ideal) v5 v13 v17 v21
  let v89 := k1_pay31 (F := Ideal) v5 v17 v21 v25
  let v91 := k1_pay32 (F := Ideal) v5
  let v92 := k1_pay33 (F := Ideal) v5 v21 v25
  let cst_23 : Ideal .f32 := Scalar.ofBits .f32 0x3F800000#32
  let v96 := k1_pay34 (F := Ideal) v58 v91 v92 cst_23
  let v103 := k1_pay36 (F := Ideal) v58 v59 v66 v91
  let v110 := k1_pay38 (F := Ideal) v59 v60 v66
  let v117 := k1_pay40 (F := Ideal) v60 v61 v66
  let v124 := k1_pay42 (F := Ideal) v61 v62 v66
  let v131 := k1_pay44 (F := Ideal) v62 v63 v66
  let v138 := k1_pay45 (F := Ideal) v63 v64 v66
  let v139 : FVec Ideal S65x128 .f32 := k1_pay46 (F := Ideal)
  let v140 := k1_pay47 (F := Ideal) v5 v139
  let v149 := k1_pay49 (F := Ideal) v5 v75 v82 v139
  let v156 := k1_pay51 (F := Ideal) v5 v82 v89 v139
  let v163 := k1_pay53 (F := Ideal) v5 v89 v96 v139
  let v170 := k1_pay55 (F := Ideal) v5 v96 v103 v139
  let v177 := k1_pay57 (F := Ideal) v5 v103 v110 v139
  let v179 := k1_pay58 (F := Ideal) v5 v139
  let v184 := k1_pay59 (F := Ideal) v5 v110 v117 v139
  let v185 : FVec Ideal S65x128 .f32 := k1_pay60 (F := Ideal)
  let v191 := k1_pay62 (F := Ideal) v117 v124 v140 v179 v185
  let v198 := k1_pay64 (F := Ideal) v124 v131 v140 v185
  let v205 := k1_pay65 (F := Ideal) v131 v138 v140
  let v207 := k1_pay66 (F := Ideal) v5
  let v216 := k1_pay68 (F := Ideal) v5 v149 v156
  let v223 := k1_pay70 (F := Ideal) v5 v156 v163
  let v225 := k1_pay71 (F := Ideal) v5
  let v230 := k1_pay72 (F := Ideal) v5 v163 v170
  let v231 : FVec Ideal S65x128 .f32 := k1_pay73 (F := Ideal)
  let v232 : FVec Ideal S65x128 .f32 := subf v207 v231
  let v233 : FVec Ideal S65x128 .f32 := mulf v225 v170
  let cst_65 : Ideal .f32 := Scalar.ofBits .f32 0x3F800000#32
  let v234 : FVec Ideal S65x128 .f32 := broadcast S65x128 cst_65
  let v235 : FVec Ideal S65x128 .f32 := subf v234 v232
  let v236 : FVec Ideal S65x128 .f32 := mulf v235 v177
  let v237 : FVec Ideal S65x128 .f32 := addf v233 v236
  let cst_66 : Ideal .f32 := Scalar.ofBits .f32 0xBE2AAAAB#32
  let v238 : FVec Ideal S65x128 .f32 := broadcast S65x128 cst_66
  let v239 : FVec Ideal S65x128 .f32 := subf v207 v238
  let v240 : FVec Ideal S65x128 .f32 := mulf v232 v177
  let cst_67 : Ideal .f32 := Scalar.ofBits .f32 0x3F800000#32
  let v241 : FVec Ideal S65x128 .f32 := broadcast S65x128 cst_67
  let v242 : FVec Ideal S65x128 .f32 := subf v241 v239
  let v243 : FVec Ideal S65x128 .f32 := mulf v242 v184
  let v244 : FVec Ideal S65x128 .f32 := addf v240 v243
  let cst_68 : Ideal .f32 := Scalar.ofBits .f32 0x3E2AAAAB#32
  let v245 : FVec Ideal S65x128 .f32 := broadcast S65x128 cst_68
  let v246 : FVec Ideal S65x128 .f32 := subf v207 v245
  let v247 : FVec Ideal S65x128 .f32 := mulf v239 v184
  let cst_69 : Ideal .f32 := Scalar.ofBits .f32 0x3F800000#32
  let v248 : FVec Ideal S65x128 .f32 := broadcast S65x128 cst_69
  let v249 : FVec Ideal S65x128 .f32 := subf v248 v246
  let v250 : FVec Ideal S65x128 .f32 := mulf v249 v191
  let v251 : FVec Ideal S65x128 .f32 := addf v247 v250
  let cst_70 : Ideal .f32 := Scalar.ofBits .f32 0x3F000000#32
  let v252 : FVec Ideal S65x128 .f32 := broadcast S65x128 cst_70
  let v253 : FVec Ideal S65x128 .f32 := subf v207 v252
  let v254 : FVec Ideal S65x128 .f32 := mulf v246 v191
  let cst_71 : Ideal .f32 := Scalar.ofBits .f32 0x3F800000#32
  let v255 : FVec Ideal S65x128 .f32 := broadcast S65x128 cst_71
  let v256 : FVec Ideal S65x128 .f32 := subf v255 v253
  let v257 : FVec Ideal S65x128 .f32 := mulf v256 v198
  let v258 : FVec Ideal S65x128 .f32 := addf v254 v257
  let cst_72 : Ideal .f32 := Scalar.ofBits .f32 0x3F555555#32
  let v259 : FVec Ideal S65x128 .f32 := broadcast S65x128 cst_72
  let v260 : FVec Ideal S65x128 .f32 := subf v207 v259
  let v261 : FVec Ideal S65x128 .f32 := mulf v253 v198
  let cst_73 : Ideal .f32 := Scalar.ofBits .f32 0x3F800000#32
  let v262 : FVec Ideal S65x128 .f32 := broadcast S65x128 cst_73
  let v263 : FVec Ideal S65x128 .f32 := subf v262 v260
  let v264 : FVec Ideal S65x128 .f32 := mulf v263 v205
  let v265 : FVec Ideal S65x128 .f32 := addf v261 v264
  let v266 : FVec Ideal S65x128 .f32 := logistic v5
  let v267 : FVec Ideal S65x128 .f32 := mulf v5 v266
  match g with
  | ⟨0, _⟩ => v267
  | ⟨1, _⟩ => v216
  | ⟨2, _⟩ => v223
  | ⟨3, _⟩ => v230
  | ⟨4, _⟩ => v237
  | ⟨5, _⟩ => v244
  | ⟨6, _⟩ => v251
  | ⟨7, _⟩ => v258
  | ⟨8, _⟩ => v265
  | ⟨n + 9, h⟩ => absurd h (by omega)

/-- Entry (g, j) of the 9 by 8320 feature array the body stacks from those rows is entry
   (j / 128, j % 128) of row g. -/
theorem feats1_rows (v0 : Vec Ideal S1x8192 .f32) (v2 : Vec Ideal S1x128 .f32) (g : Fin 9) (j : Fin 8320) :
    Cert.KernelIdeal.Val.feats1 (F := Ideal) v0 v2 (ix2 g j)
      = k1Rows v0 v2 g (ix2 ⟨j.val / 128, by omega⟩ ⟨j.val % 128, Nat.mod_lt _ (by decide)⟩) := by
  unfold Cert.KernelIdeal.Val.feats1 k1_pay74
  refine (featArr_apply _ _ _ _ _ _ _ _ _ _ _ g j).trans ?_
  fin_cases g <;> rfl

/-- The body's pixel view when every loaded pixel is x. -/
theorem k1_pay2_const (x : EReal) (i : S65x128.Idx) :
    k1_pay2 (F := Ideal) (fun _ => x) (fun _ => x) i = x := by
  unfold k1_pay2
  rw [shapeCast_self, shapeCast_self]
  exact pix_const x _ _ i

/-- Every operation of the chain acts entry by entry: entry i of row g is feature g of pixel i. -/
theorem k1Rows_apply (v0 : Vec Ideal S1x8192 .f32) (v2 : Vec Ideal S1x128 .f32) (g : Fin 9) (i : S65x128.Idx) :
    k1Rows v0 v2 g i = feat g (k1_pay2 (F := Ideal) v0 v2 i) := by
  unfold feat
  fin_cases g
  · simp only [k1Rows, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, subf_apply, mulf_apply, addf_apply, broadcast_apply, cmpf_apply, extui_apply, sitofp_apply, logistic_apply, k1_pay2_const]
    simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k1Rows, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, subf_apply, mulf_apply, addf_apply, broadcast_apply, cmpf_apply, extui_apply, sitofp_apply, logistic_apply, k1_pay2_const]
    simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k1Rows, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, subf_apply, mulf_apply, addf_apply, broadcast_apply, cmpf_apply, extui_apply, sitofp_apply, logistic_apply, k1_pay2_const]
    simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k1Rows, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, subf_apply, mulf_apply, addf_apply, broadcast_apply, cmpf_apply, extui_apply, sitofp_apply, logistic_apply, k1_pay2_const]
    simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k1Rows, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, subf_apply, mulf_apply, addf_apply, broadcast_apply, cmpf_apply, extui_apply, sitofp_apply, logistic_apply, k1_pay2_const]
    simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k1Rows, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, subf_apply, mulf_apply, addf_apply, broadcast_apply, cmpf_apply, extui_apply, sitofp_apply, logistic_apply, k1_pay2_const]
    simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k1Rows, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, subf_apply, mulf_apply, addf_apply, broadcast_apply, cmpf_apply, extui_apply, sitofp_apply, logistic_apply, k1_pay2_const]
    simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k1Rows, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, subf_apply, mulf_apply, addf_apply, broadcast_apply, cmpf_apply, extui_apply, sitofp_apply, logistic_apply, k1_pay2_const]
    simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]
  · simp only [k1Rows, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, subf_apply, mulf_apply, addf_apply, broadcast_apply, cmpf_apply, extui_apply, sitofp_apply, logistic_apply, k1_pay2_const]
    simp only [k0Rows, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, subf_apply, mulf_apply, addf_apply, broadcast_apply, cmpf_apply, extui_apply, sitofp_apply, logistic_apply, k0_pay2_const]

/-- The feature array's entry (g, l) is feature g of pixel l of the 8320 (the block's 8192 and the
   128 after it), read in the 65 by 128 view at (l / 128, l % 128). -/
theorem kFeat1_apply (v0 : Vec Ideal S1x8192 .f32) (v2 : Vec Ideal S1x128 .f32) (g : Fin 9) (l : Fin 8320) :
    Cert.KernelIdeal.Val.feats1 (F := Ideal) v0 v2 (ix2 g l)
      = feat g (k1_pay2 (F := Ideal) v0 v2 (ix2 ⟨l.val / 128, by omega⟩ ⟨l.val % 128, Nat.mod_lt _ (by decide)⟩)) :=
  (feats1_rows v0 v2 g l).trans (k1Rows_apply v0 v2 g _)

/-- The pixel view at (r, l) is pixel r*128 + l of the loaded block when that is below 8192, -/
theorem k1_v5_apply_left (v0 : Vec Ideal S1x8192 .f32) (v2 : Vec Ideal S1x128 .f32) (r : Fin 65) (l : Fin 128)
    (h : r.val * 128 + l.val < 8192) :
    k1_pay2 (F := Ideal) v0 v2 (ix2 r l) = v0 (ix2 0 ⟨r.val * 128 + l.val, h⟩) := by
  unfold k1_pay2
  rw [shapeCast_self, shapeCast_self]
  exact pix_apply_left v0 v2 _ _ r l h

/-- and pixel r*128 + l - 8192 of the 128 pixels after the block otherwise. -/
theorem k1_v5_apply_right (v0 : Vec Ideal S1x8192 .f32) (v2 : Vec Ideal S1x128 .f32) (r : Fin 65) (l : Fin 128)
    (h : 8192 ≤ r.val * 128 + l.val) :
    k1_pay2 (F := Ideal) v0 v2 (ix2 r l) = v2 (ix2 0 ⟨r.val * 128 + l.val - 8192, by omega⟩) := by
  unfold k1_pay2
  rw [shapeCast_self, shapeCast_self]
  exact pix_apply_right v0 v2 _ _ r l h

/-! ## The reference's feature rows (first 128-lane slice of a conv block) -/

/-- The nine feature arrays the reference body computes from a loaded 9 by 128 slice xs of the
   patch block (9 taps by 128 patches): row-set 0 is xs · logistic xs, row-sets 1 to 8 the cubic basis
   functions of xs, each a 9 by 128 array. -/
def r0Rows (xs : Vec Ideal Cert.ReferenceIdeal.S9x128 .f32) (g : Fin 9) : FVec Ideal Cert.ReferenceIdeal.S9x128 .f32 :=
  let v1 := Cert.ReferenceIdeal.Gen.k0_pay2 (F := Ideal) xs
  let v5 := Cert.ReferenceIdeal.Gen.k0_pay3 (F := Ideal) xs
  let v9 := Cert.ReferenceIdeal.Gen.k0_pay4 (F := Ideal) xs
  let v13 := Cert.ReferenceIdeal.Gen.k0_pay5 (F := Ideal) xs
  let v17 := Cert.ReferenceIdeal.Gen.k0_pay6 (F := Ideal) xs
  let v21 := Cert.ReferenceIdeal.Gen.k0_pay7 (F := Ideal) xs
  let v25 := Cert.ReferenceIdeal.Gen.k0_pay8 (F := Ideal) xs
  let v29 := Cert.ReferenceIdeal.Gen.k0_pay9 (F := Ideal) xs
  let v33 := Cert.ReferenceIdeal.Gen.k0_pay10 (F := Ideal) xs
  let v37 := Cert.ReferenceIdeal.Gen.k0_pay11 (F := Ideal) xs
  let v41 := Cert.ReferenceIdeal.Gen.k0_pay12 (F := Ideal) xs
  let v45 := Cert.ReferenceIdeal.Gen.k0_pay13 (F := Ideal) xs
  let v54 := Cert.ReferenceIdeal.Gen.k0_pay17 (F := Ideal) v21 v25
  let v55 := Cert.ReferenceIdeal.Gen.k0_pay18 (F := Ideal) v25 v29
  let v56 := Cert.ReferenceIdeal.Gen.k0_pay19 (F := Ideal) v29 v33
  let v57 := Cert.ReferenceIdeal.Gen.k0_pay20 (F := Ideal) v33 v37
  let v58 := Cert.ReferenceIdeal.Gen.k0_pay21 (F := Ideal) v37 v41
  let v59 := Cert.ReferenceIdeal.Gen.k0_pay22 (F := Ideal) v41 v45
  let v60 := Cert.ReferenceIdeal.Gen.k0_pay23 (F := Ideal) v1 v45
  let v62 := Cert.ReferenceIdeal.Gen.k0_pay24 (F := Ideal) v1
  let v71 := Cert.ReferenceIdeal.Gen.k0_pay26 (F := Ideal) v1 v5 v9 v13
  let v78 := Cert.ReferenceIdeal.Gen.k0_pay28 (F := Ideal) v1 v9 v13 v17
  let v85 := Cert.ReferenceIdeal.Gen.k0_pay30 (F := Ideal) v1 v13 v17 v21
  let v87 := Cert.ReferenceIdeal.Gen.k0_pay31 (F := Ideal) v1
  let v92 := Cert.ReferenceIdeal.Gen.k0_pay32 (F := Ideal) v1 v17 v21 v25
  let v93 : FVec Ideal Cert.ReferenceIdeal.S9x128 .f32 := Cert.ReferenceIdeal.Gen.k0_pay33 (F := Ideal)
  let v99 := Cert.ReferenceIdeal.Gen.k0_pay35 (F := Ideal) v54 v55 v62 v87 v93
  let v106 := Cert.ReferenceIdeal.Gen.k0_pay37 (F := Ideal) v55 v56 v62 v93
  let v113 := Cert.ReferenceIdeal.Gen.k0_pay39 (F := Ideal) v56 v57 v62
  let v120 := Cert.ReferenceIdeal.Gen.k0_pay41 (F := Ideal) v57 v58 v62
  let v127 := Cert.ReferenceIdeal.Gen.k0_pay43 (F := Ideal) v58 v59 v62
  let v134 := Cert.ReferenceIdeal.Gen.k0_pay44 (F := Ideal) v59 v60 v62
  let v136 := Cert.ReferenceIdeal.Gen.k0_pay45 (F := Ideal) v1
  let v138 := Cert.ReferenceIdeal.Gen.k0_pay46 (F := Ideal) v1
  let v139 : FVec Ideal Cert.ReferenceIdeal.S9x128 .f32 := Cert.ReferenceIdeal.Gen.k0_pay47 (F := Ideal)
  let v145 := Cert.ReferenceIdeal.Gen.k0_pay49 (F := Ideal) v71 v78 v136 v138 v139
  let v152 := Cert.ReferenceIdeal.Gen.k0_pay51 (F := Ideal) v78 v85 v136 v139
  let v159 := Cert.ReferenceIdeal.Gen.k0_pay53 (F := Ideal) v85 v92 v136
  let v166 := Cert.ReferenceIdeal.Gen.k0_pay55 (F := Ideal) v92 v99 v136
  let v173 := Cert.ReferenceIdeal.Gen.k0_pay57 (F := Ideal) v99 v106 v136
  let v180 := Cert.ReferenceIdeal.Gen.k0_pay59 (F := Ideal) v106 v113 v136
  let v182 := Cert.ReferenceIdeal.Gen.k0_pay60 (F := Ideal) v136
  let v183 := Cert.ReferenceIdeal.Gen.k0_pay61 (F := Ideal) v113 v136
  let v186 := Cert.ReferenceIdeal.Gen.k0_pay62 (F := Ideal) v120 v136
  let v187 := Cert.ReferenceIdeal.Gen.k0_pay63 (F := Ideal) v183 v186
  let v194 := Cert.ReferenceIdeal.Gen.k0_pay65 (F := Ideal) v120 v127 v136 v182
  let v201 := Cert.ReferenceIdeal.Gen.k0_pay66 (F := Ideal) v127 v134 v136
  let v203 := Cert.ReferenceIdeal.Gen.k0_pay67 (F := Ideal) v1
  let v212 := Cert.ReferenceIdeal.Gen.k0_pay69 (F := Ideal) v1 v145 v152
  let v219 := Cert.ReferenceIdeal.Gen.k0_pay71 (F := Ideal) v1 v152 v159
  let v226 := Cert.ReferenceIdeal.Gen.k0_pay73 (F := Ideal) v1 v159 v166
  let v228 := Cert.ReferenceIdeal.Gen.k0_pay74 (F := Ideal) v1
  let v229 := Cert.ReferenceIdeal.Gen.k0_pay75 (F := Ideal) v1 v166
  let v232 := Cert.ReferenceIdeal.Gen.k0_pay76 (F := Ideal) v1 v173
  let v233 := Cert.ReferenceIdeal.Gen.k0_pay77 (F := Ideal) v229 v232
  let v240 := Cert.ReferenceIdeal.Gen.k0_pay79 (F := Ideal) v173 v180 v203 v228
  let v247 := Cert.ReferenceIdeal.Gen.k0_pay81 (F := Ideal) v180 v187 v203
  let v254 := Cert.ReferenceIdeal.Gen.k0_pay83 (F := Ideal) v187 v194 v203
  let v261 := Cert.ReferenceIdeal.Gen.k0_pay84 (F := Ideal) v194 v201 v203
  match g with
  | ⟨0, _⟩ => mulf v1 (logistic v1)
  | ⟨1, _⟩ => v212
  | ⟨2, _⟩ => v219
  | ⟨3, _⟩ => v226
  | ⟨4, _⟩ => v233
  | ⟨5, _⟩ => v240
  | ⟨6, _⟩ => v247
  | ⟨7, _⟩ => v254
  | ⟨8, _⟩ => v261
  | ⟨n + 9, h⟩ => absurd h (by omega)

/-- The reference's chain is the same chain, entry by entry: entry i of feature array g is feature g
   of entry i of the slice. -/
theorem rFeat_apply (xs : Vec Ideal Cert.ReferenceIdeal.S9x128 .f32) (g : Fin 9) (i : Cert.ReferenceIdeal.S9x128.Idx) :
    r0Rows xs g i = feat g (xs i) := by
  unfold feat
  fin_cases g
  · simp only [r0Rows, Cert.ReferenceIdeal.Gen.k0_pay2, Cert.ReferenceIdeal.Gen.k0_pay3, Cert.ReferenceIdeal.Gen.k0_pay4, Cert.ReferenceIdeal.Gen.k0_pay5, Cert.ReferenceIdeal.Gen.k0_pay6, Cert.ReferenceIdeal.Gen.k0_pay7, Cert.ReferenceIdeal.Gen.k0_pay8, Cert.ReferenceIdeal.Gen.k0_pay9, Cert.ReferenceIdeal.Gen.k0_pay10, Cert.ReferenceIdeal.Gen.k0_pay11, Cert.ReferenceIdeal.Gen.k0_pay12, Cert.ReferenceIdeal.Gen.k0_pay13, Cert.ReferenceIdeal.Gen.k0_pay14, Cert.ReferenceIdeal.Gen.k0_pay15, Cert.ReferenceIdeal.Gen.k0_pay16, Cert.ReferenceIdeal.Gen.k0_pay17, Cert.ReferenceIdeal.Gen.k0_pay18, Cert.ReferenceIdeal.Gen.k0_pay19, Cert.ReferenceIdeal.Gen.k0_pay20, Cert.ReferenceIdeal.Gen.k0_pay21, Cert.ReferenceIdeal.Gen.k0_pay22, Cert.ReferenceIdeal.Gen.k0_pay23, Cert.ReferenceIdeal.Gen.k0_pay24, Cert.ReferenceIdeal.Gen.k0_pay25, Cert.ReferenceIdeal.Gen.k0_pay26, Cert.ReferenceIdeal.Gen.k0_pay27, Cert.ReferenceIdeal.Gen.k0_pay28, Cert.ReferenceIdeal.Gen.k0_pay29, Cert.ReferenceIdeal.Gen.k0_pay30, Cert.ReferenceIdeal.Gen.k0_pay31, Cert.ReferenceIdeal.Gen.k0_pay32, Cert.ReferenceIdeal.Gen.k0_pay33, Cert.ReferenceIdeal.Gen.k0_pay34, Cert.ReferenceIdeal.Gen.k0_pay35, Cert.ReferenceIdeal.Gen.k0_pay36, Cert.ReferenceIdeal.Gen.k0_pay37, Cert.ReferenceIdeal.Gen.k0_pay38, Cert.ReferenceIdeal.Gen.k0_pay39, Cert.ReferenceIdeal.Gen.k0_pay40, Cert.ReferenceIdeal.Gen.k0_pay41, Cert.ReferenceIdeal.Gen.k0_pay42, Cert.ReferenceIdeal.Gen.k0_pay43, Cert.ReferenceIdeal.Gen.k0_pay44, Cert.ReferenceIdeal.Gen.k0_pay45, Cert.ReferenceIdeal.Gen.k0_pay46, Cert.ReferenceIdeal.Gen.k0_pay47, Cert.ReferenceIdeal.Gen.k0_pay48, Cert.ReferenceIdeal.Gen.k0_pay49, Cert.ReferenceIdeal.Gen.k0_pay50, Cert.ReferenceIdeal.Gen.k0_pay51, Cert.ReferenceIdeal.Gen.k0_pay52, Cert.ReferenceIdeal.Gen.k0_pay53, Cert.ReferenceIdeal.Gen.k0_pay54, Cert.ReferenceIdeal.Gen.k0_pay55, Cert.ReferenceIdeal.Gen.k0_pay56, Cert.ReferenceIdeal.Gen.k0_pay57, Cert.ReferenceIdeal.Gen.k0_pay58, Cert.ReferenceIdeal.Gen.k0_pay59, Cert.ReferenceIdeal.Gen.k0_pay60, Cert.ReferenceIdeal.Gen.k0_pay61, Cert.ReferenceIdeal.Gen.k0_pay62, Cert.ReferenceIdeal.Gen.k0_pay63, Cert.ReferenceIdeal.Gen.k0_pay64, Cert.ReferenceIdeal.Gen.k0_pay65, Cert.ReferenceIdeal.Gen.k0_pay66, Cert.ReferenceIdeal.Gen.k0_pay67, Cert.ReferenceIdeal.Gen.k0_pay68, Cert.ReferenceIdeal.Gen.k0_pay69, Cert.ReferenceIdeal.Gen.k0_pay70, Cert.ReferenceIdeal.Gen.k0_pay71, Cert.ReferenceIdeal.Gen.k0_pay72, Cert.ReferenceIdeal.Gen.k0_pay73, Cert.ReferenceIdeal.Gen.k0_pay74, Cert.ReferenceIdeal.Gen.k0_pay75, Cert.ReferenceIdeal.Gen.k0_pay76, Cert.ReferenceIdeal.Gen.k0_pay77, Cert.ReferenceIdeal.Gen.k0_pay78, Cert.ReferenceIdeal.Gen.k0_pay79, Cert.ReferenceIdeal.Gen.k0_pay80, Cert.ReferenceIdeal.Gen.k0_pay81, Cert.ReferenceIdeal.Gen.k0_pay82, Cert.ReferenceIdeal.Gen.k0_pay83, Cert.ReferenceIdeal.Gen.k0_pay84, shapeCast_self, subf_apply, mulf_apply, addf_apply, broadcast_apply, cmpf_apply, extui_apply, sitofp_apply, logistic_apply]
    simp only [k0Rows, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, subf_apply, mulf_apply, addf_apply, broadcast_apply, cmpf_apply, extui_apply, sitofp_apply, logistic_apply, k0_pay2_const]
  · simp only [r0Rows, Cert.ReferenceIdeal.Gen.k0_pay2, Cert.ReferenceIdeal.Gen.k0_pay3, Cert.ReferenceIdeal.Gen.k0_pay4, Cert.ReferenceIdeal.Gen.k0_pay5, Cert.ReferenceIdeal.Gen.k0_pay6, Cert.ReferenceIdeal.Gen.k0_pay7, Cert.ReferenceIdeal.Gen.k0_pay8, Cert.ReferenceIdeal.Gen.k0_pay9, Cert.ReferenceIdeal.Gen.k0_pay10, Cert.ReferenceIdeal.Gen.k0_pay11, Cert.ReferenceIdeal.Gen.k0_pay12, Cert.ReferenceIdeal.Gen.k0_pay13, Cert.ReferenceIdeal.Gen.k0_pay14, Cert.ReferenceIdeal.Gen.k0_pay15, Cert.ReferenceIdeal.Gen.k0_pay16, Cert.ReferenceIdeal.Gen.k0_pay17, Cert.ReferenceIdeal.Gen.k0_pay18, Cert.ReferenceIdeal.Gen.k0_pay19, Cert.ReferenceIdeal.Gen.k0_pay20, Cert.ReferenceIdeal.Gen.k0_pay21, Cert.ReferenceIdeal.Gen.k0_pay22, Cert.ReferenceIdeal.Gen.k0_pay23, Cert.ReferenceIdeal.Gen.k0_pay24, Cert.ReferenceIdeal.Gen.k0_pay25, Cert.ReferenceIdeal.Gen.k0_pay26, Cert.ReferenceIdeal.Gen.k0_pay27, Cert.ReferenceIdeal.Gen.k0_pay28, Cert.ReferenceIdeal.Gen.k0_pay29, Cert.ReferenceIdeal.Gen.k0_pay30, Cert.ReferenceIdeal.Gen.k0_pay31, Cert.ReferenceIdeal.Gen.k0_pay32, Cert.ReferenceIdeal.Gen.k0_pay33, Cert.ReferenceIdeal.Gen.k0_pay34, Cert.ReferenceIdeal.Gen.k0_pay35, Cert.ReferenceIdeal.Gen.k0_pay36, Cert.ReferenceIdeal.Gen.k0_pay37, Cert.ReferenceIdeal.Gen.k0_pay38, Cert.ReferenceIdeal.Gen.k0_pay39, Cert.ReferenceIdeal.Gen.k0_pay40, Cert.ReferenceIdeal.Gen.k0_pay41, Cert.ReferenceIdeal.Gen.k0_pay42, Cert.ReferenceIdeal.Gen.k0_pay43, Cert.ReferenceIdeal.Gen.k0_pay44, Cert.ReferenceIdeal.Gen.k0_pay45, Cert.ReferenceIdeal.Gen.k0_pay46, Cert.ReferenceIdeal.Gen.k0_pay47, Cert.ReferenceIdeal.Gen.k0_pay48, Cert.ReferenceIdeal.Gen.k0_pay49, Cert.ReferenceIdeal.Gen.k0_pay50, Cert.ReferenceIdeal.Gen.k0_pay51, Cert.ReferenceIdeal.Gen.k0_pay52, Cert.ReferenceIdeal.Gen.k0_pay53, Cert.ReferenceIdeal.Gen.k0_pay54, Cert.ReferenceIdeal.Gen.k0_pay55, Cert.ReferenceIdeal.Gen.k0_pay56, Cert.ReferenceIdeal.Gen.k0_pay57, Cert.ReferenceIdeal.Gen.k0_pay58, Cert.ReferenceIdeal.Gen.k0_pay59, Cert.ReferenceIdeal.Gen.k0_pay60, Cert.ReferenceIdeal.Gen.k0_pay61, Cert.ReferenceIdeal.Gen.k0_pay62, Cert.ReferenceIdeal.Gen.k0_pay63, Cert.ReferenceIdeal.Gen.k0_pay64, Cert.ReferenceIdeal.Gen.k0_pay65, Cert.ReferenceIdeal.Gen.k0_pay66, Cert.ReferenceIdeal.Gen.k0_pay67, Cert.ReferenceIdeal.Gen.k0_pay68, Cert.ReferenceIdeal.Gen.k0_pay69, Cert.ReferenceIdeal.Gen.k0_pay70, Cert.ReferenceIdeal.Gen.k0_pay71, Cert.ReferenceIdeal.Gen.k0_pay72, Cert.ReferenceIdeal.Gen.k0_pay73, Cert.ReferenceIdeal.Gen.k0_pay74, Cert.ReferenceIdeal.Gen.k0_pay75, Cert.ReferenceIdeal.Gen.k0_pay76, Cert.ReferenceIdeal.Gen.k0_pay77, Cert.ReferenceIdeal.Gen.k0_pay78, Cert.ReferenceIdeal.Gen.k0_pay79, Cert.ReferenceIdeal.Gen.k0_pay80, Cert.ReferenceIdeal.Gen.k0_pay81, Cert.ReferenceIdeal.Gen.k0_pay82, Cert.ReferenceIdeal.Gen.k0_pay83, Cert.ReferenceIdeal.Gen.k0_pay84, shapeCast_self, subf_apply, mulf_apply, addf_apply, broadcast_apply, cmpf_apply, extui_apply, sitofp_apply, logistic_apply]
    simp only [k0Rows, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, subf_apply, mulf_apply, addf_apply, broadcast_apply, cmpf_apply, extui_apply, sitofp_apply, logistic_apply, k0_pay2_const]
  · simp only [r0Rows, Cert.ReferenceIdeal.Gen.k0_pay2, Cert.ReferenceIdeal.Gen.k0_pay3, Cert.ReferenceIdeal.Gen.k0_pay4, Cert.ReferenceIdeal.Gen.k0_pay5, Cert.ReferenceIdeal.Gen.k0_pay6, Cert.ReferenceIdeal.Gen.k0_pay7, Cert.ReferenceIdeal.Gen.k0_pay8, Cert.ReferenceIdeal.Gen.k0_pay9, Cert.ReferenceIdeal.Gen.k0_pay10, Cert.ReferenceIdeal.Gen.k0_pay11, Cert.ReferenceIdeal.Gen.k0_pay12, Cert.ReferenceIdeal.Gen.k0_pay13, Cert.ReferenceIdeal.Gen.k0_pay14, Cert.ReferenceIdeal.Gen.k0_pay15, Cert.ReferenceIdeal.Gen.k0_pay16, Cert.ReferenceIdeal.Gen.k0_pay17, Cert.ReferenceIdeal.Gen.k0_pay18, Cert.ReferenceIdeal.Gen.k0_pay19, Cert.ReferenceIdeal.Gen.k0_pay20, Cert.ReferenceIdeal.Gen.k0_pay21, Cert.ReferenceIdeal.Gen.k0_pay22, Cert.ReferenceIdeal.Gen.k0_pay23, Cert.ReferenceIdeal.Gen.k0_pay24, Cert.ReferenceIdeal.Gen.k0_pay25, Cert.ReferenceIdeal.Gen.k0_pay26, Cert.ReferenceIdeal.Gen.k0_pay27, Cert.ReferenceIdeal.Gen.k0_pay28, Cert.ReferenceIdeal.Gen.k0_pay29, Cert.ReferenceIdeal.Gen.k0_pay30, Cert.ReferenceIdeal.Gen.k0_pay31, Cert.ReferenceIdeal.Gen.k0_pay32, Cert.ReferenceIdeal.Gen.k0_pay33, Cert.ReferenceIdeal.Gen.k0_pay34, Cert.ReferenceIdeal.Gen.k0_pay35, Cert.ReferenceIdeal.Gen.k0_pay36, Cert.ReferenceIdeal.Gen.k0_pay37, Cert.ReferenceIdeal.Gen.k0_pay38, Cert.ReferenceIdeal.Gen.k0_pay39, Cert.ReferenceIdeal.Gen.k0_pay40, Cert.ReferenceIdeal.Gen.k0_pay41, Cert.ReferenceIdeal.Gen.k0_pay42, Cert.ReferenceIdeal.Gen.k0_pay43, Cert.ReferenceIdeal.Gen.k0_pay44, Cert.ReferenceIdeal.Gen.k0_pay45, Cert.ReferenceIdeal.Gen.k0_pay46, Cert.ReferenceIdeal.Gen.k0_pay47, Cert.ReferenceIdeal.Gen.k0_pay48, Cert.ReferenceIdeal.Gen.k0_pay49, Cert.ReferenceIdeal.Gen.k0_pay50, Cert.ReferenceIdeal.Gen.k0_pay51, Cert.ReferenceIdeal.Gen.k0_pay52, Cert.ReferenceIdeal.Gen.k0_pay53, Cert.ReferenceIdeal.Gen.k0_pay54, Cert.ReferenceIdeal.Gen.k0_pay55, Cert.ReferenceIdeal.Gen.k0_pay56, Cert.ReferenceIdeal.Gen.k0_pay57, Cert.ReferenceIdeal.Gen.k0_pay58, Cert.ReferenceIdeal.Gen.k0_pay59, Cert.ReferenceIdeal.Gen.k0_pay60, Cert.ReferenceIdeal.Gen.k0_pay61, Cert.ReferenceIdeal.Gen.k0_pay62, Cert.ReferenceIdeal.Gen.k0_pay63, Cert.ReferenceIdeal.Gen.k0_pay64, Cert.ReferenceIdeal.Gen.k0_pay65, Cert.ReferenceIdeal.Gen.k0_pay66, Cert.ReferenceIdeal.Gen.k0_pay67, Cert.ReferenceIdeal.Gen.k0_pay68, Cert.ReferenceIdeal.Gen.k0_pay69, Cert.ReferenceIdeal.Gen.k0_pay70, Cert.ReferenceIdeal.Gen.k0_pay71, Cert.ReferenceIdeal.Gen.k0_pay72, Cert.ReferenceIdeal.Gen.k0_pay73, Cert.ReferenceIdeal.Gen.k0_pay74, Cert.ReferenceIdeal.Gen.k0_pay75, Cert.ReferenceIdeal.Gen.k0_pay76, Cert.ReferenceIdeal.Gen.k0_pay77, Cert.ReferenceIdeal.Gen.k0_pay78, Cert.ReferenceIdeal.Gen.k0_pay79, Cert.ReferenceIdeal.Gen.k0_pay80, Cert.ReferenceIdeal.Gen.k0_pay81, Cert.ReferenceIdeal.Gen.k0_pay82, Cert.ReferenceIdeal.Gen.k0_pay83, Cert.ReferenceIdeal.Gen.k0_pay84, shapeCast_self, subf_apply, mulf_apply, addf_apply, broadcast_apply, cmpf_apply, extui_apply, sitofp_apply, logistic_apply]
    simp only [k0Rows, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, subf_apply, mulf_apply, addf_apply, broadcast_apply, cmpf_apply, extui_apply, sitofp_apply, logistic_apply, k0_pay2_const]
  · simp only [r0Rows, Cert.ReferenceIdeal.Gen.k0_pay2, Cert.ReferenceIdeal.Gen.k0_pay3, Cert.ReferenceIdeal.Gen.k0_pay4, Cert.ReferenceIdeal.Gen.k0_pay5, Cert.ReferenceIdeal.Gen.k0_pay6, Cert.ReferenceIdeal.Gen.k0_pay7, Cert.ReferenceIdeal.Gen.k0_pay8, Cert.ReferenceIdeal.Gen.k0_pay9, Cert.ReferenceIdeal.Gen.k0_pay10, Cert.ReferenceIdeal.Gen.k0_pay11, Cert.ReferenceIdeal.Gen.k0_pay12, Cert.ReferenceIdeal.Gen.k0_pay13, Cert.ReferenceIdeal.Gen.k0_pay14, Cert.ReferenceIdeal.Gen.k0_pay15, Cert.ReferenceIdeal.Gen.k0_pay16, Cert.ReferenceIdeal.Gen.k0_pay17, Cert.ReferenceIdeal.Gen.k0_pay18, Cert.ReferenceIdeal.Gen.k0_pay19, Cert.ReferenceIdeal.Gen.k0_pay20, Cert.ReferenceIdeal.Gen.k0_pay21, Cert.ReferenceIdeal.Gen.k0_pay22, Cert.ReferenceIdeal.Gen.k0_pay23, Cert.ReferenceIdeal.Gen.k0_pay24, Cert.ReferenceIdeal.Gen.k0_pay25, Cert.ReferenceIdeal.Gen.k0_pay26, Cert.ReferenceIdeal.Gen.k0_pay27, Cert.ReferenceIdeal.Gen.k0_pay28, Cert.ReferenceIdeal.Gen.k0_pay29, Cert.ReferenceIdeal.Gen.k0_pay30, Cert.ReferenceIdeal.Gen.k0_pay31, Cert.ReferenceIdeal.Gen.k0_pay32, Cert.ReferenceIdeal.Gen.k0_pay33, Cert.ReferenceIdeal.Gen.k0_pay34, Cert.ReferenceIdeal.Gen.k0_pay35, Cert.ReferenceIdeal.Gen.k0_pay36, Cert.ReferenceIdeal.Gen.k0_pay37, Cert.ReferenceIdeal.Gen.k0_pay38, Cert.ReferenceIdeal.Gen.k0_pay39, Cert.ReferenceIdeal.Gen.k0_pay40, Cert.ReferenceIdeal.Gen.k0_pay41, Cert.ReferenceIdeal.Gen.k0_pay42, Cert.ReferenceIdeal.Gen.k0_pay43, Cert.ReferenceIdeal.Gen.k0_pay44, Cert.ReferenceIdeal.Gen.k0_pay45, Cert.ReferenceIdeal.Gen.k0_pay46, Cert.ReferenceIdeal.Gen.k0_pay47, Cert.ReferenceIdeal.Gen.k0_pay48, Cert.ReferenceIdeal.Gen.k0_pay49, Cert.ReferenceIdeal.Gen.k0_pay50, Cert.ReferenceIdeal.Gen.k0_pay51, Cert.ReferenceIdeal.Gen.k0_pay52, Cert.ReferenceIdeal.Gen.k0_pay53, Cert.ReferenceIdeal.Gen.k0_pay54, Cert.ReferenceIdeal.Gen.k0_pay55, Cert.ReferenceIdeal.Gen.k0_pay56, Cert.ReferenceIdeal.Gen.k0_pay57, Cert.ReferenceIdeal.Gen.k0_pay58, Cert.ReferenceIdeal.Gen.k0_pay59, Cert.ReferenceIdeal.Gen.k0_pay60, Cert.ReferenceIdeal.Gen.k0_pay61, Cert.ReferenceIdeal.Gen.k0_pay62, Cert.ReferenceIdeal.Gen.k0_pay63, Cert.ReferenceIdeal.Gen.k0_pay64, Cert.ReferenceIdeal.Gen.k0_pay65, Cert.ReferenceIdeal.Gen.k0_pay66, Cert.ReferenceIdeal.Gen.k0_pay67, Cert.ReferenceIdeal.Gen.k0_pay68, Cert.ReferenceIdeal.Gen.k0_pay69, Cert.ReferenceIdeal.Gen.k0_pay70, Cert.ReferenceIdeal.Gen.k0_pay71, Cert.ReferenceIdeal.Gen.k0_pay72, Cert.ReferenceIdeal.Gen.k0_pay73, Cert.ReferenceIdeal.Gen.k0_pay74, Cert.ReferenceIdeal.Gen.k0_pay75, Cert.ReferenceIdeal.Gen.k0_pay76, Cert.ReferenceIdeal.Gen.k0_pay77, Cert.ReferenceIdeal.Gen.k0_pay78, Cert.ReferenceIdeal.Gen.k0_pay79, Cert.ReferenceIdeal.Gen.k0_pay80, Cert.ReferenceIdeal.Gen.k0_pay81, Cert.ReferenceIdeal.Gen.k0_pay82, Cert.ReferenceIdeal.Gen.k0_pay83, Cert.ReferenceIdeal.Gen.k0_pay84, shapeCast_self, subf_apply, mulf_apply, addf_apply, broadcast_apply, cmpf_apply, extui_apply, sitofp_apply, logistic_apply]
    simp only [k0Rows, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, subf_apply, mulf_apply, addf_apply, broadcast_apply, cmpf_apply, extui_apply, sitofp_apply, logistic_apply, k0_pay2_const]
  · simp only [r0Rows, Cert.ReferenceIdeal.Gen.k0_pay2, Cert.ReferenceIdeal.Gen.k0_pay3, Cert.ReferenceIdeal.Gen.k0_pay4, Cert.ReferenceIdeal.Gen.k0_pay5, Cert.ReferenceIdeal.Gen.k0_pay6, Cert.ReferenceIdeal.Gen.k0_pay7, Cert.ReferenceIdeal.Gen.k0_pay8, Cert.ReferenceIdeal.Gen.k0_pay9, Cert.ReferenceIdeal.Gen.k0_pay10, Cert.ReferenceIdeal.Gen.k0_pay11, Cert.ReferenceIdeal.Gen.k0_pay12, Cert.ReferenceIdeal.Gen.k0_pay13, Cert.ReferenceIdeal.Gen.k0_pay14, Cert.ReferenceIdeal.Gen.k0_pay15, Cert.ReferenceIdeal.Gen.k0_pay16, Cert.ReferenceIdeal.Gen.k0_pay17, Cert.ReferenceIdeal.Gen.k0_pay18, Cert.ReferenceIdeal.Gen.k0_pay19, Cert.ReferenceIdeal.Gen.k0_pay20, Cert.ReferenceIdeal.Gen.k0_pay21, Cert.ReferenceIdeal.Gen.k0_pay22, Cert.ReferenceIdeal.Gen.k0_pay23, Cert.ReferenceIdeal.Gen.k0_pay24, Cert.ReferenceIdeal.Gen.k0_pay25, Cert.ReferenceIdeal.Gen.k0_pay26, Cert.ReferenceIdeal.Gen.k0_pay27, Cert.ReferenceIdeal.Gen.k0_pay28, Cert.ReferenceIdeal.Gen.k0_pay29, Cert.ReferenceIdeal.Gen.k0_pay30, Cert.ReferenceIdeal.Gen.k0_pay31, Cert.ReferenceIdeal.Gen.k0_pay32, Cert.ReferenceIdeal.Gen.k0_pay33, Cert.ReferenceIdeal.Gen.k0_pay34, Cert.ReferenceIdeal.Gen.k0_pay35, Cert.ReferenceIdeal.Gen.k0_pay36, Cert.ReferenceIdeal.Gen.k0_pay37, Cert.ReferenceIdeal.Gen.k0_pay38, Cert.ReferenceIdeal.Gen.k0_pay39, Cert.ReferenceIdeal.Gen.k0_pay40, Cert.ReferenceIdeal.Gen.k0_pay41, Cert.ReferenceIdeal.Gen.k0_pay42, Cert.ReferenceIdeal.Gen.k0_pay43, Cert.ReferenceIdeal.Gen.k0_pay44, Cert.ReferenceIdeal.Gen.k0_pay45, Cert.ReferenceIdeal.Gen.k0_pay46, Cert.ReferenceIdeal.Gen.k0_pay47, Cert.ReferenceIdeal.Gen.k0_pay48, Cert.ReferenceIdeal.Gen.k0_pay49, Cert.ReferenceIdeal.Gen.k0_pay50, Cert.ReferenceIdeal.Gen.k0_pay51, Cert.ReferenceIdeal.Gen.k0_pay52, Cert.ReferenceIdeal.Gen.k0_pay53, Cert.ReferenceIdeal.Gen.k0_pay54, Cert.ReferenceIdeal.Gen.k0_pay55, Cert.ReferenceIdeal.Gen.k0_pay56, Cert.ReferenceIdeal.Gen.k0_pay57, Cert.ReferenceIdeal.Gen.k0_pay58, Cert.ReferenceIdeal.Gen.k0_pay59, Cert.ReferenceIdeal.Gen.k0_pay60, Cert.ReferenceIdeal.Gen.k0_pay61, Cert.ReferenceIdeal.Gen.k0_pay62, Cert.ReferenceIdeal.Gen.k0_pay63, Cert.ReferenceIdeal.Gen.k0_pay64, Cert.ReferenceIdeal.Gen.k0_pay65, Cert.ReferenceIdeal.Gen.k0_pay66, Cert.ReferenceIdeal.Gen.k0_pay67, Cert.ReferenceIdeal.Gen.k0_pay68, Cert.ReferenceIdeal.Gen.k0_pay69, Cert.ReferenceIdeal.Gen.k0_pay70, Cert.ReferenceIdeal.Gen.k0_pay71, Cert.ReferenceIdeal.Gen.k0_pay72, Cert.ReferenceIdeal.Gen.k0_pay73, Cert.ReferenceIdeal.Gen.k0_pay74, Cert.ReferenceIdeal.Gen.k0_pay75, Cert.ReferenceIdeal.Gen.k0_pay76, Cert.ReferenceIdeal.Gen.k0_pay77, Cert.ReferenceIdeal.Gen.k0_pay78, Cert.ReferenceIdeal.Gen.k0_pay79, Cert.ReferenceIdeal.Gen.k0_pay80, Cert.ReferenceIdeal.Gen.k0_pay81, Cert.ReferenceIdeal.Gen.k0_pay82, Cert.ReferenceIdeal.Gen.k0_pay83, Cert.ReferenceIdeal.Gen.k0_pay84, shapeCast_self, subf_apply, mulf_apply, addf_apply, broadcast_apply, cmpf_apply, extui_apply, sitofp_apply, logistic_apply]
    simp only [k0Rows, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, subf_apply, mulf_apply, addf_apply, broadcast_apply, cmpf_apply, extui_apply, sitofp_apply, logistic_apply, k0_pay2_const]
  · simp only [r0Rows, Cert.ReferenceIdeal.Gen.k0_pay2, Cert.ReferenceIdeal.Gen.k0_pay3, Cert.ReferenceIdeal.Gen.k0_pay4, Cert.ReferenceIdeal.Gen.k0_pay5, Cert.ReferenceIdeal.Gen.k0_pay6, Cert.ReferenceIdeal.Gen.k0_pay7, Cert.ReferenceIdeal.Gen.k0_pay8, Cert.ReferenceIdeal.Gen.k0_pay9, Cert.ReferenceIdeal.Gen.k0_pay10, Cert.ReferenceIdeal.Gen.k0_pay11, Cert.ReferenceIdeal.Gen.k0_pay12, Cert.ReferenceIdeal.Gen.k0_pay13, Cert.ReferenceIdeal.Gen.k0_pay14, Cert.ReferenceIdeal.Gen.k0_pay15, Cert.ReferenceIdeal.Gen.k0_pay16, Cert.ReferenceIdeal.Gen.k0_pay17, Cert.ReferenceIdeal.Gen.k0_pay18, Cert.ReferenceIdeal.Gen.k0_pay19, Cert.ReferenceIdeal.Gen.k0_pay20, Cert.ReferenceIdeal.Gen.k0_pay21, Cert.ReferenceIdeal.Gen.k0_pay22, Cert.ReferenceIdeal.Gen.k0_pay23, Cert.ReferenceIdeal.Gen.k0_pay24, Cert.ReferenceIdeal.Gen.k0_pay25, Cert.ReferenceIdeal.Gen.k0_pay26, Cert.ReferenceIdeal.Gen.k0_pay27, Cert.ReferenceIdeal.Gen.k0_pay28, Cert.ReferenceIdeal.Gen.k0_pay29, Cert.ReferenceIdeal.Gen.k0_pay30, Cert.ReferenceIdeal.Gen.k0_pay31, Cert.ReferenceIdeal.Gen.k0_pay32, Cert.ReferenceIdeal.Gen.k0_pay33, Cert.ReferenceIdeal.Gen.k0_pay34, Cert.ReferenceIdeal.Gen.k0_pay35, Cert.ReferenceIdeal.Gen.k0_pay36, Cert.ReferenceIdeal.Gen.k0_pay37, Cert.ReferenceIdeal.Gen.k0_pay38, Cert.ReferenceIdeal.Gen.k0_pay39, Cert.ReferenceIdeal.Gen.k0_pay40, Cert.ReferenceIdeal.Gen.k0_pay41, Cert.ReferenceIdeal.Gen.k0_pay42, Cert.ReferenceIdeal.Gen.k0_pay43, Cert.ReferenceIdeal.Gen.k0_pay44, Cert.ReferenceIdeal.Gen.k0_pay45, Cert.ReferenceIdeal.Gen.k0_pay46, Cert.ReferenceIdeal.Gen.k0_pay47, Cert.ReferenceIdeal.Gen.k0_pay48, Cert.ReferenceIdeal.Gen.k0_pay49, Cert.ReferenceIdeal.Gen.k0_pay50, Cert.ReferenceIdeal.Gen.k0_pay51, Cert.ReferenceIdeal.Gen.k0_pay52, Cert.ReferenceIdeal.Gen.k0_pay53, Cert.ReferenceIdeal.Gen.k0_pay54, Cert.ReferenceIdeal.Gen.k0_pay55, Cert.ReferenceIdeal.Gen.k0_pay56, Cert.ReferenceIdeal.Gen.k0_pay57, Cert.ReferenceIdeal.Gen.k0_pay58, Cert.ReferenceIdeal.Gen.k0_pay59, Cert.ReferenceIdeal.Gen.k0_pay60, Cert.ReferenceIdeal.Gen.k0_pay61, Cert.ReferenceIdeal.Gen.k0_pay62, Cert.ReferenceIdeal.Gen.k0_pay63, Cert.ReferenceIdeal.Gen.k0_pay64, Cert.ReferenceIdeal.Gen.k0_pay65, Cert.ReferenceIdeal.Gen.k0_pay66, Cert.ReferenceIdeal.Gen.k0_pay67, Cert.ReferenceIdeal.Gen.k0_pay68, Cert.ReferenceIdeal.Gen.k0_pay69, Cert.ReferenceIdeal.Gen.k0_pay70, Cert.ReferenceIdeal.Gen.k0_pay71, Cert.ReferenceIdeal.Gen.k0_pay72, Cert.ReferenceIdeal.Gen.k0_pay73, Cert.ReferenceIdeal.Gen.k0_pay74, Cert.ReferenceIdeal.Gen.k0_pay75, Cert.ReferenceIdeal.Gen.k0_pay76, Cert.ReferenceIdeal.Gen.k0_pay77, Cert.ReferenceIdeal.Gen.k0_pay78, Cert.ReferenceIdeal.Gen.k0_pay79, Cert.ReferenceIdeal.Gen.k0_pay80, Cert.ReferenceIdeal.Gen.k0_pay81, Cert.ReferenceIdeal.Gen.k0_pay82, Cert.ReferenceIdeal.Gen.k0_pay83, Cert.ReferenceIdeal.Gen.k0_pay84, shapeCast_self, subf_apply, mulf_apply, addf_apply, broadcast_apply, cmpf_apply, extui_apply, sitofp_apply, logistic_apply]
    simp only [k0Rows, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, subf_apply, mulf_apply, addf_apply, broadcast_apply, cmpf_apply, extui_apply, sitofp_apply, logistic_apply, k0_pay2_const]
  · simp only [r0Rows, Cert.ReferenceIdeal.Gen.k0_pay2, Cert.ReferenceIdeal.Gen.k0_pay3, Cert.ReferenceIdeal.Gen.k0_pay4, Cert.ReferenceIdeal.Gen.k0_pay5, Cert.ReferenceIdeal.Gen.k0_pay6, Cert.ReferenceIdeal.Gen.k0_pay7, Cert.ReferenceIdeal.Gen.k0_pay8, Cert.ReferenceIdeal.Gen.k0_pay9, Cert.ReferenceIdeal.Gen.k0_pay10, Cert.ReferenceIdeal.Gen.k0_pay11, Cert.ReferenceIdeal.Gen.k0_pay12, Cert.ReferenceIdeal.Gen.k0_pay13, Cert.ReferenceIdeal.Gen.k0_pay14, Cert.ReferenceIdeal.Gen.k0_pay15, Cert.ReferenceIdeal.Gen.k0_pay16, Cert.ReferenceIdeal.Gen.k0_pay17, Cert.ReferenceIdeal.Gen.k0_pay18, Cert.ReferenceIdeal.Gen.k0_pay19, Cert.ReferenceIdeal.Gen.k0_pay20, Cert.ReferenceIdeal.Gen.k0_pay21, Cert.ReferenceIdeal.Gen.k0_pay22, Cert.ReferenceIdeal.Gen.k0_pay23, Cert.ReferenceIdeal.Gen.k0_pay24, Cert.ReferenceIdeal.Gen.k0_pay25, Cert.ReferenceIdeal.Gen.k0_pay26, Cert.ReferenceIdeal.Gen.k0_pay27, Cert.ReferenceIdeal.Gen.k0_pay28, Cert.ReferenceIdeal.Gen.k0_pay29, Cert.ReferenceIdeal.Gen.k0_pay30, Cert.ReferenceIdeal.Gen.k0_pay31, Cert.ReferenceIdeal.Gen.k0_pay32, Cert.ReferenceIdeal.Gen.k0_pay33, Cert.ReferenceIdeal.Gen.k0_pay34, Cert.ReferenceIdeal.Gen.k0_pay35, Cert.ReferenceIdeal.Gen.k0_pay36, Cert.ReferenceIdeal.Gen.k0_pay37, Cert.ReferenceIdeal.Gen.k0_pay38, Cert.ReferenceIdeal.Gen.k0_pay39, Cert.ReferenceIdeal.Gen.k0_pay40, Cert.ReferenceIdeal.Gen.k0_pay41, Cert.ReferenceIdeal.Gen.k0_pay42, Cert.ReferenceIdeal.Gen.k0_pay43, Cert.ReferenceIdeal.Gen.k0_pay44, Cert.ReferenceIdeal.Gen.k0_pay45, Cert.ReferenceIdeal.Gen.k0_pay46, Cert.ReferenceIdeal.Gen.k0_pay47, Cert.ReferenceIdeal.Gen.k0_pay48, Cert.ReferenceIdeal.Gen.k0_pay49, Cert.ReferenceIdeal.Gen.k0_pay50, Cert.ReferenceIdeal.Gen.k0_pay51, Cert.ReferenceIdeal.Gen.k0_pay52, Cert.ReferenceIdeal.Gen.k0_pay53, Cert.ReferenceIdeal.Gen.k0_pay54, Cert.ReferenceIdeal.Gen.k0_pay55, Cert.ReferenceIdeal.Gen.k0_pay56, Cert.ReferenceIdeal.Gen.k0_pay57, Cert.ReferenceIdeal.Gen.k0_pay58, Cert.ReferenceIdeal.Gen.k0_pay59, Cert.ReferenceIdeal.Gen.k0_pay60, Cert.ReferenceIdeal.Gen.k0_pay61, Cert.ReferenceIdeal.Gen.k0_pay62, Cert.ReferenceIdeal.Gen.k0_pay63, Cert.ReferenceIdeal.Gen.k0_pay64, Cert.ReferenceIdeal.Gen.k0_pay65, Cert.ReferenceIdeal.Gen.k0_pay66, Cert.ReferenceIdeal.Gen.k0_pay67, Cert.ReferenceIdeal.Gen.k0_pay68, Cert.ReferenceIdeal.Gen.k0_pay69, Cert.ReferenceIdeal.Gen.k0_pay70, Cert.ReferenceIdeal.Gen.k0_pay71, Cert.ReferenceIdeal.Gen.k0_pay72, Cert.ReferenceIdeal.Gen.k0_pay73, Cert.ReferenceIdeal.Gen.k0_pay74, Cert.ReferenceIdeal.Gen.k0_pay75, Cert.ReferenceIdeal.Gen.k0_pay76, Cert.ReferenceIdeal.Gen.k0_pay77, Cert.ReferenceIdeal.Gen.k0_pay78, Cert.ReferenceIdeal.Gen.k0_pay79, Cert.ReferenceIdeal.Gen.k0_pay80, Cert.ReferenceIdeal.Gen.k0_pay81, Cert.ReferenceIdeal.Gen.k0_pay82, Cert.ReferenceIdeal.Gen.k0_pay83, Cert.ReferenceIdeal.Gen.k0_pay84, shapeCast_self, subf_apply, mulf_apply, addf_apply, broadcast_apply, cmpf_apply, extui_apply, sitofp_apply, logistic_apply]
    simp only [k0Rows, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, subf_apply, mulf_apply, addf_apply, broadcast_apply, cmpf_apply, extui_apply, sitofp_apply, logistic_apply, k0_pay2_const]
  · simp only [r0Rows, Cert.ReferenceIdeal.Gen.k0_pay2, Cert.ReferenceIdeal.Gen.k0_pay3, Cert.ReferenceIdeal.Gen.k0_pay4, Cert.ReferenceIdeal.Gen.k0_pay5, Cert.ReferenceIdeal.Gen.k0_pay6, Cert.ReferenceIdeal.Gen.k0_pay7, Cert.ReferenceIdeal.Gen.k0_pay8, Cert.ReferenceIdeal.Gen.k0_pay9, Cert.ReferenceIdeal.Gen.k0_pay10, Cert.ReferenceIdeal.Gen.k0_pay11, Cert.ReferenceIdeal.Gen.k0_pay12, Cert.ReferenceIdeal.Gen.k0_pay13, Cert.ReferenceIdeal.Gen.k0_pay14, Cert.ReferenceIdeal.Gen.k0_pay15, Cert.ReferenceIdeal.Gen.k0_pay16, Cert.ReferenceIdeal.Gen.k0_pay17, Cert.ReferenceIdeal.Gen.k0_pay18, Cert.ReferenceIdeal.Gen.k0_pay19, Cert.ReferenceIdeal.Gen.k0_pay20, Cert.ReferenceIdeal.Gen.k0_pay21, Cert.ReferenceIdeal.Gen.k0_pay22, Cert.ReferenceIdeal.Gen.k0_pay23, Cert.ReferenceIdeal.Gen.k0_pay24, Cert.ReferenceIdeal.Gen.k0_pay25, Cert.ReferenceIdeal.Gen.k0_pay26, Cert.ReferenceIdeal.Gen.k0_pay27, Cert.ReferenceIdeal.Gen.k0_pay28, Cert.ReferenceIdeal.Gen.k0_pay29, Cert.ReferenceIdeal.Gen.k0_pay30, Cert.ReferenceIdeal.Gen.k0_pay31, Cert.ReferenceIdeal.Gen.k0_pay32, Cert.ReferenceIdeal.Gen.k0_pay33, Cert.ReferenceIdeal.Gen.k0_pay34, Cert.ReferenceIdeal.Gen.k0_pay35, Cert.ReferenceIdeal.Gen.k0_pay36, Cert.ReferenceIdeal.Gen.k0_pay37, Cert.ReferenceIdeal.Gen.k0_pay38, Cert.ReferenceIdeal.Gen.k0_pay39, Cert.ReferenceIdeal.Gen.k0_pay40, Cert.ReferenceIdeal.Gen.k0_pay41, Cert.ReferenceIdeal.Gen.k0_pay42, Cert.ReferenceIdeal.Gen.k0_pay43, Cert.ReferenceIdeal.Gen.k0_pay44, Cert.ReferenceIdeal.Gen.k0_pay45, Cert.ReferenceIdeal.Gen.k0_pay46, Cert.ReferenceIdeal.Gen.k0_pay47, Cert.ReferenceIdeal.Gen.k0_pay48, Cert.ReferenceIdeal.Gen.k0_pay49, Cert.ReferenceIdeal.Gen.k0_pay50, Cert.ReferenceIdeal.Gen.k0_pay51, Cert.ReferenceIdeal.Gen.k0_pay52, Cert.ReferenceIdeal.Gen.k0_pay53, Cert.ReferenceIdeal.Gen.k0_pay54, Cert.ReferenceIdeal.Gen.k0_pay55, Cert.ReferenceIdeal.Gen.k0_pay56, Cert.ReferenceIdeal.Gen.k0_pay57, Cert.ReferenceIdeal.Gen.k0_pay58, Cert.ReferenceIdeal.Gen.k0_pay59, Cert.ReferenceIdeal.Gen.k0_pay60, Cert.ReferenceIdeal.Gen.k0_pay61, Cert.ReferenceIdeal.Gen.k0_pay62, Cert.ReferenceIdeal.Gen.k0_pay63, Cert.ReferenceIdeal.Gen.k0_pay64, Cert.ReferenceIdeal.Gen.k0_pay65, Cert.ReferenceIdeal.Gen.k0_pay66, Cert.ReferenceIdeal.Gen.k0_pay67, Cert.ReferenceIdeal.Gen.k0_pay68, Cert.ReferenceIdeal.Gen.k0_pay69, Cert.ReferenceIdeal.Gen.k0_pay70, Cert.ReferenceIdeal.Gen.k0_pay71, Cert.ReferenceIdeal.Gen.k0_pay72, Cert.ReferenceIdeal.Gen.k0_pay73, Cert.ReferenceIdeal.Gen.k0_pay74, Cert.ReferenceIdeal.Gen.k0_pay75, Cert.ReferenceIdeal.Gen.k0_pay76, Cert.ReferenceIdeal.Gen.k0_pay77, Cert.ReferenceIdeal.Gen.k0_pay78, Cert.ReferenceIdeal.Gen.k0_pay79, Cert.ReferenceIdeal.Gen.k0_pay80, Cert.ReferenceIdeal.Gen.k0_pay81, Cert.ReferenceIdeal.Gen.k0_pay82, Cert.ReferenceIdeal.Gen.k0_pay83, Cert.ReferenceIdeal.Gen.k0_pay84, shapeCast_self, subf_apply, mulf_apply, addf_apply, broadcast_apply, cmpf_apply, extui_apply, sitofp_apply, logistic_apply]
    simp only [k0Rows, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, subf_apply, mulf_apply, addf_apply, broadcast_apply, cmpf_apply, extui_apply, sitofp_apply, logistic_apply, k0_pay2_const]
  · simp only [r0Rows, Cert.ReferenceIdeal.Gen.k0_pay2, Cert.ReferenceIdeal.Gen.k0_pay3, Cert.ReferenceIdeal.Gen.k0_pay4, Cert.ReferenceIdeal.Gen.k0_pay5, Cert.ReferenceIdeal.Gen.k0_pay6, Cert.ReferenceIdeal.Gen.k0_pay7, Cert.ReferenceIdeal.Gen.k0_pay8, Cert.ReferenceIdeal.Gen.k0_pay9, Cert.ReferenceIdeal.Gen.k0_pay10, Cert.ReferenceIdeal.Gen.k0_pay11, Cert.ReferenceIdeal.Gen.k0_pay12, Cert.ReferenceIdeal.Gen.k0_pay13, Cert.ReferenceIdeal.Gen.k0_pay14, Cert.ReferenceIdeal.Gen.k0_pay15, Cert.ReferenceIdeal.Gen.k0_pay16, Cert.ReferenceIdeal.Gen.k0_pay17, Cert.ReferenceIdeal.Gen.k0_pay18, Cert.ReferenceIdeal.Gen.k0_pay19, Cert.ReferenceIdeal.Gen.k0_pay20, Cert.ReferenceIdeal.Gen.k0_pay21, Cert.ReferenceIdeal.Gen.k0_pay22, Cert.ReferenceIdeal.Gen.k0_pay23, Cert.ReferenceIdeal.Gen.k0_pay24, Cert.ReferenceIdeal.Gen.k0_pay25, Cert.ReferenceIdeal.Gen.k0_pay26, Cert.ReferenceIdeal.Gen.k0_pay27, Cert.ReferenceIdeal.Gen.k0_pay28, Cert.ReferenceIdeal.Gen.k0_pay29, Cert.ReferenceIdeal.Gen.k0_pay30, Cert.ReferenceIdeal.Gen.k0_pay31, Cert.ReferenceIdeal.Gen.k0_pay32, Cert.ReferenceIdeal.Gen.k0_pay33, Cert.ReferenceIdeal.Gen.k0_pay34, Cert.ReferenceIdeal.Gen.k0_pay35, Cert.ReferenceIdeal.Gen.k0_pay36, Cert.ReferenceIdeal.Gen.k0_pay37, Cert.ReferenceIdeal.Gen.k0_pay38, Cert.ReferenceIdeal.Gen.k0_pay39, Cert.ReferenceIdeal.Gen.k0_pay40, Cert.ReferenceIdeal.Gen.k0_pay41, Cert.ReferenceIdeal.Gen.k0_pay42, Cert.ReferenceIdeal.Gen.k0_pay43, Cert.ReferenceIdeal.Gen.k0_pay44, Cert.ReferenceIdeal.Gen.k0_pay45, Cert.ReferenceIdeal.Gen.k0_pay46, Cert.ReferenceIdeal.Gen.k0_pay47, Cert.ReferenceIdeal.Gen.k0_pay48, Cert.ReferenceIdeal.Gen.k0_pay49, Cert.ReferenceIdeal.Gen.k0_pay50, Cert.ReferenceIdeal.Gen.k0_pay51, Cert.ReferenceIdeal.Gen.k0_pay52, Cert.ReferenceIdeal.Gen.k0_pay53, Cert.ReferenceIdeal.Gen.k0_pay54, Cert.ReferenceIdeal.Gen.k0_pay55, Cert.ReferenceIdeal.Gen.k0_pay56, Cert.ReferenceIdeal.Gen.k0_pay57, Cert.ReferenceIdeal.Gen.k0_pay58, Cert.ReferenceIdeal.Gen.k0_pay59, Cert.ReferenceIdeal.Gen.k0_pay60, Cert.ReferenceIdeal.Gen.k0_pay61, Cert.ReferenceIdeal.Gen.k0_pay62, Cert.ReferenceIdeal.Gen.k0_pay63, Cert.ReferenceIdeal.Gen.k0_pay64, Cert.ReferenceIdeal.Gen.k0_pay65, Cert.ReferenceIdeal.Gen.k0_pay66, Cert.ReferenceIdeal.Gen.k0_pay67, Cert.ReferenceIdeal.Gen.k0_pay68, Cert.ReferenceIdeal.Gen.k0_pay69, Cert.ReferenceIdeal.Gen.k0_pay70, Cert.ReferenceIdeal.Gen.k0_pay71, Cert.ReferenceIdeal.Gen.k0_pay72, Cert.ReferenceIdeal.Gen.k0_pay73, Cert.ReferenceIdeal.Gen.k0_pay74, Cert.ReferenceIdeal.Gen.k0_pay75, Cert.ReferenceIdeal.Gen.k0_pay76, Cert.ReferenceIdeal.Gen.k0_pay77, Cert.ReferenceIdeal.Gen.k0_pay78, Cert.ReferenceIdeal.Gen.k0_pay79, Cert.ReferenceIdeal.Gen.k0_pay80, Cert.ReferenceIdeal.Gen.k0_pay81, Cert.ReferenceIdeal.Gen.k0_pay82, Cert.ReferenceIdeal.Gen.k0_pay83, Cert.ReferenceIdeal.Gen.k0_pay84, shapeCast_self, subf_apply, mulf_apply, addf_apply, broadcast_apply, cmpf_apply, extui_apply, sitofp_apply, logistic_apply]
    simp only [k0Rows, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, subf_apply, mulf_apply, addf_apply, broadcast_apply, cmpf_apply, extui_apply, sitofp_apply, logistic_apply, k0_pay2_const]

end Cert.Feat

end
-- ==== Proof.KI.Val6.lean ====
/-
  The second convolution layer's output, read at a plane position. Lane ((c1·8192 + b)·13 + i)·13 + j of channel c2 of
  region 1's output array is the second layer's activation over the pooled plane of first-layer channel c1 and sample b at
  (i, j), for i, j < 11: the nine taps' lanes ((c1·8192 + b)·13 + i + t/3)·13 + j + t%3 lie in the same 13 × 13 plane.
-/
import proofs.«125140_g2000505823476311_pallasbulk_1268_6_alg».proof.Proof.KI.Val4
import proofs.«125140_g2000505823476311_pallasbulk_1268_6_alg».proof.Proof.KI.Val5
import proofs.«125140_g2000505823476311_pallasbulk_1268_6_alg».proof.Proof.FeatValue

set_option maxRecDepth 16384

noncomputable section

namespace Cert.KernelIdeal.Val

open Idealize.ShloMosaic Idealize.ShloMosaic.TcCoe Idealize.ShloMosaic.ValueIdx
open Idealize.SL Idealize.SL.RA Idealize.SL.Sem
open Cert.KernelIdeal Cert.KernelIdeal.Gen Cert.KernelIdeal.Hand Cert.KI.ConvValue

variable (m : (ℓ : Loc nD τ sig) → Buf (Elt Ideal) ℓ)

/-- A second-layer tap's lane offset is its row offset times the plane width plus its column offset. -/
theorem off13_eq (t : Fin 9) : off13 t = t.val / 3 * 13 + t.val % 3 := by fin_cases t <;> rfl

/-- Region 1's output array is the one array function of the pooled row and the second weight matrix. -/
theorem o6_eq (feat : Fin 9 → EReal → EReal)
    (hfeat : ∀ (v0 : Vec Ideal S1x8192 .f32) (v2 : Vec Ideal S1x128 .f32) (g : Fin 9) (l : Fin 8320),
      feats1 v0 v2 (ix2 g l) = feat g (k1_pay2 v0 v2 (ix2 (⟨l.val / 128, by omega⟩ : Fin 65) (⟨l.val % 128, Nat.mod_lt _ (by omega)⟩ : Fin 128))))
    (c : Dev nD) :
    (o6 m c : S5x6922240.Idx → EReal) = conv1Arr feat (V5 m (outs3 m) c main_v12) (V5 m (outs3 m) c main_v3) :=
  arr1_eq (Vr (V5 m (outs3 m))) feat hfeat q01 c

/-- Channel ch, lane p of region 1's output array, over the pooled row X and the weight matrix W. -/
theorem o6_apply (feat : Fin 9 → EReal → EReal)
    (hfeat : ∀ (v0 : Vec Ideal S1x8192 .f32) (v2 : Vec Ideal S1x128 .f32) (g : Fin 9) (l : Fin 8320),
      feats1 v0 v2 (ix2 g l) = feat g (k1_pay2 v0 v2 (ix2 (⟨l.val / 128, by omega⟩ : Fin 65) (⟨l.val % 128, Nat.mod_lt _ (by omega)⟩ : Fin 128))))
    (c : Dev nD) (X : S1x6930432.Idx → EReal) (hX : X = V5 m (outs3 m) c main_v12) (W : S5x81.Idx → EReal) (hW : W = V5 m (outs3 m) c main_v3)
    (ch : Fin 5) (p : Fin 6922240) :
    o6 m c (ix2 ch p)
      = max (∑ g : Fin 9, ∑ t : Fin 9, W (ix2 ch (⟨t.val * 9 + g.val, by omega⟩ : Fin 81))
          * feat g (X (ix2 (0 : Fin 1) (⟨p.val + off13 t, by
              have h2 : off13 t ≤ 58 := by fin_cases t <;> decide
              omega⟩ : Fin 6930432)))) 0 := by
  subst hX hW
  exact congrFun (o6_eq m feat hfeat c) (ix2 ch p)

/-- Region 1's output at a plane position: the second layer's activation over the pooled first layer. -/
theorem o6_act_of (feat : Fin 9 → EReal → EReal)
    (hfeat0 : ∀ (v0 : Vec Ideal S1x8192 .f32) (v2 : Vec Ideal S1x128 .f32) (g : Fin 9) (l : Fin 8320),
      feats0 v0 v2 (ix2 g l) = feat g (k0_pay2 v0 v2 (ix2 (⟨l.val / 128, by omega⟩ : Fin 65) (⟨l.val % 128, Nat.mod_lt _ (by omega)⟩ : Fin 128))))
    (hfeat1 : ∀ (v0 : Vec Ideal S1x8192 .f32) (v2 : Vec Ideal S1x128 .f32) (g : Fin 9) (l : Fin 8320),
      feats1 v0 v2 (ix2 g l) = feat g (k1_pay2 v0 v2 (ix2 (⟨l.val / 128, by omega⟩ : Fin 65) (⟨l.val % 128, Nat.mod_lt _ (by omega)⟩ : Fin 128))))
    (c : Dev nD) (c2 c1 : Fin 5) (b i j : ℕ) (hb : b < 8192) (hi : i < 11) (hj : j < 11) :
    o6 m c (ix2 c2 (⟨((c1.val * 8192 + b) * 13 + i) * 13 + j, by omega⟩ : Fin 6922240))
      = Cert.Spec.act feat (Cert.Spec.wOf (m ((c.tc : Thread nD τ).loc main_arg2)))
          (Cert.Spec.pooled1 feat (Cert.Spec.wOf (m ((c.tc : Thread nD τ).loc main_arg1))) (Cert.Spec.xOf (m ((c.tc : Thread nD τ).loc main_arg0))) c1.val b) c2.val i j := by
  rw [o6_apply m feat hfeat1 c _ rfl _ rfl c2]
  unfold Cert.Spec.act
  refine congrArg (fun z : EReal => max z 0) (Finset.sum_congr rfl fun g _ => Finset.sum_congr rfl fun t _ => ?_)
  have ht : t.val < 9 := t.isLt
  have ho := off13_eq t
  have hc1 : c1.val < 5 := c1.isLt
  rw [W3_apply, X12_apply m feat hfeat0]
  show _ * feat g (if ((c1.val * 8192 + b) * 13 + i) * 13 + j + off13 t < 6922240 then _ else 0) = _
  rw [if_pos (by omega)]
  show _ * feat g (Cert.Spec.pooled1 feat _ _ ((((c1.val * 8192 + b) * 13 + i) * 13 + j + off13 t) / 1384448)
    ((((c1.val * 8192 + b) * 13 + i) * 13 + j + off13 t) / 169 % 8192)
    ((((c1.val * 8192 + b) * 13 + i) * 13 + j + off13 t) % 169 / 13)
    ((((c1.val * 8192 + b) * 13 + i) * 13 + j + off13 t) % 13)) = _
  have hL : ((c1.val * 8192 + b) * 13 + i) * 13 + j + off13 t = (c1.val * 8192 + b) * 169 + ((i + t.val / 3) * 13 + (j + t.val % 3)) := by omega
  have hr : (i + t.val / 3) * 13 + (j + t.val % 3) < 169 := by omega
  have h169 : (((c1.val * 8192 + b) * 13 + i) * 13 + j + off13 t) / 169 = c1.val * 8192 + b := by rw [hL]; omega
  have hm169 : (((c1.val * 8192 + b) * 13 + i) * 13 + j + off13 t) % 169 = (i + t.val / 3) * 13 + (j + t.val % 3) := by rw [hL]; omega
  have e0 : (((c1.val * 8192 + b) * 13 + i) * 13 + j + off13 t) / 1384448 = c1.val := by rw [hL]; omega
  have e1 : (((c1.val * 8192 + b) * 13 + i) * 13 + j + off13 t) / 169 % 8192 = b := by rw [h169]; omega
  have e2 : (((c1.val * 8192 + b) * 13 + i) * 13 + j + off13 t) % 169 / 13 = i + t.val / 3 := by rw [hm169]; omega
  have e3 : (((c1.val * 8192 + b) * 13 + i) * 13 + j + off13 t) % 13 = j + t.val % 3 := by rw [hL]; omega
  rw [e0, e1, e2, e3]

/-- The same with the featurizer both programs share. -/
theorem o6_act (c : Dev nD) (c2 c1 : Fin 5) (b i j : ℕ) (hb : b < 8192) (hi : i < 11) (hj : j < 11) :
    o6 m c (ix2 c2 (⟨((c1.val * 8192 + b) * 13 + i) * 13 + j, by omega⟩ : Fin 6922240))
      = Cert.Spec.act Cert.Feat.feat (Cert.Spec.wOf (m ((c.tc : Thread nD τ).loc main_arg2)))
          (Cert.Spec.pooled1 Cert.Feat.feat (Cert.Spec.wOf (m ((c.tc : Thread nD τ).loc main_arg1))) (Cert.Spec.xOf (m ((c.tc : Thread nD τ).loc main_arg0))) c1.val b) c2.val i j :=
  o6_act_of m Cert.Feat.feat Cert.Feat.kFeat0_apply Cert.Feat.kFeat1_apply c c2 c1 b i j hb hi hj

/-- Region 0's output at an image position, with the shared featurizer. -/
theorem o3_act' (c : Dev nD) (ch : Fin 5) (b i j : ℕ) (hb : b < 8192) (hi : i < 26) (hj : j < 26) :
    o3 m c (ix2 ch (⟨(b * 28 + i) * 28 + j, by omega⟩ : Fin 6422528))
      = Cert.Spec.act Cert.Feat.feat (Cert.Spec.wOf (m ((c.tc : Thread nD τ).loc main_arg1))) (Cert.Spec.xOf (m ((c.tc : Thread nD τ).loc main_arg0)) b) ch.val i j :=
  o3_act m Cert.Feat.feat Cert.Feat.kFeat0_apply c ch b i j hb hi hj

end Cert.KernelIdeal.Val

end
-- ==== Proof.KI.MlpValue.lean ====
/- The MLP head's first layer in the kernel, read entry by entry on the extended reals.

   The kernel multiplies the 256 by 640 feature block X by the 640 by 256 weight block V in one
   product accumulated into zero: entry (b, n) is the sum over k < 640 of X (b, k) · V (k, n). The last
   15 columns of X (and rows of V) are zero padding, so the sum stops at 625 = 25 · 25, and read
   block-major with k = g*25 + s it is the double sum over the 25 groups g and the 25 places s of
       X (b, g*25 + s) · V (g*25 + s, n),
   the terms a group-by-group accumulation of 25 products adds up. -/
import proofs.«125140_g2000505823476311_pallasbulk_1268_6_alg».proof.Proof.Gen.KernelIdeal.Skeleton
import proofs.«125140_g2000505823476311_pallasbulk_1268_6_alg».proof.Proof.LibSumBlocks
import proofs.«125140_g2000505823476311_pallasbulk_1268_6_alg».proof.Proof.LibPlainProduct

noncomputable section

namespace Cert.KI.MlpValue

open Idealize.ShloMosaic Idealize.ShloMosaic.ValueIdx Cert.KernelIdeal Cert.KernelIdeal.Gen

/-- The first layer's product accumulated into zero, at entry (b, n): the sum over all 640 places. -/
theorem fc1_apply (X : FVec Ideal S256x640 .f32) (V : FVec Ideal S640x256 .f32) (b n : Fin 256) :
    matmul dot_S256x640_S640x256_S256x256_1_0_0_1_n_n none X V (constant S256x256 .f32 0x00000000#32) (ix2 b n)
      = ∑ k : Fin 640, X (ix2 b k) * V (ix2 k n) := by
  have hd : dot_S256x640_S640x256_S256x256_1_0_0_1_n_n = DotDims.plain 256 640 256 := rfl
  rw [hd]
  exact Cert.LibPlainProduct.matmul_plain_zero_apply none X V b n

/-- When every term from place 625 on vanishes, the sum is the double sum over 25 groups of 25
   places, k = g*25 + s. -/
theorem fc1_apply_blocks (X : FVec Ideal S256x640 .f32) (V : FVec Ideal S640x256 .f32) (b n : Fin 256)
    (hz : ∀ k : Fin 640, 625 ≤ k.val → X (ix2 b k) * V (ix2 k n) = 0) :
    matmul dot_S256x640_S640x256_S256x256_1_0_0_1_n_n none X V (constant S256x256 .f32 0x00000000#32) (ix2 b n)
      = ∑ g : Fin 25, ∑ s : Fin 25,
          X (ix2 b ⟨g.val * 25 + s.val, by omega⟩) * V (ix2 ⟨g.val * 25 + s.val, by omega⟩ n) := by
  rw [fc1_apply, Cert.Lib.SumBlocks.sum_640_eq_625 (fun k : Fin 640 => X (ix2 b k) * V (ix2 k n)) hz,
    Cert.Lib.SumBlocks.sum_625]

/-- The same when the feature block's last 15 columns are zero in row b (zero times anything is
   zero on the extended reals). -/
theorem fc1_apply_of_zero_cols (X : FVec Ideal S256x640 .f32) (V : FVec Ideal S640x256 .f32) (b n : Fin 256)
    (hX : ∀ k : Fin 640, 625 ≤ k.val → X (ix2 b k) = 0) :
    matmul dot_S256x640_S640x256_S256x256_1_0_0_1_n_n none X V (constant S256x256 .f32 0x00000000#32) (ix2 b n)
      = ∑ g : Fin 25, ∑ s : Fin 25,
          X (ix2 b ⟨g.val * 25 + s.val, by omega⟩) * V (ix2 ⟨g.val * 25 + s.val, by omega⟩ n) :=
  fc1_apply_blocks X V b n fun k hk => by
    show (X (ix2 b k) : EReal) * V (ix2 k n) = 0
    rw [hX k hk]; exact zero_mul _

/-- The same when the weight block's last 15 rows are zero in column n. -/
theorem fc1_apply_of_zero_rows (X : FVec Ideal S256x640 .f32) (V : FVec Ideal S640x256 .f32) (b n : Fin 256)
    (hV : ∀ k : Fin 640, 625 ≤ k.val → V (ix2 k n) = 0) :
    matmul dot_S256x640_S640x256_S256x256_1_0_0_1_n_n none X V (constant S256x256 .f32 0x00000000#32) (ix2 b n)
      = ∑ g : Fin 25, ∑ s : Fin 25,
          X (ix2 b ⟨g.val * 25 + s.val, by omega⟩) * V (ix2 ⟨g.val * 25 + s.val, by omega⟩ n) :=
  fc1_apply_blocks X V b n fun k hk => by
    show (X (ix2 b k) : EReal) * V (ix2 k n) = 0
    rw [hV k hk]; exact mul_zero _

/-- Everything the MLP body computes after the first layer's product, as one function of that
   product H (256 by 256) and the loaded bias, second-layer weights and second-layer bias: bias and
   clip at zero, the second product and its bias, and the log-softmax over the first three columns
   (the other columns set to zero). -/
def afterFc1 (H : FVec Ideal S256x256 .f32) (v5 : FVec Ideal S1x256 .f32) (v10 : FVec Ideal S256x128 .f32)
    (v12 : FVec Ideal S1x128 .f32) : FVec Ideal S256x128 .f32 :=
  have v6 : FVec Ideal S256x256 .f32 := broadcastTo S256x256 v5 broadcasts_S1x256_S256x256
  have v7 : FVec Ideal S256x256 .f32 := addf H v6
  have cst_5 : Ideal .f32 := Scalar.ofBits .f32 0x00000000#32
  have v8 : FVec Ideal S256x256 .f32 := broadcast S256x256 cst_5
  have v9 : FVec Ideal S256x256 .f32 := maximumf v7 v8
  have cst_8 : FVec Ideal S256x128 .f32 := constant S256x128 .f32 0x00000000#32
  have v11 : FVec Ideal S256x128 .f32 := matmul dot_S256x256_S256x128_S256x128_1_0_0_1_n_n none v9 v10 cst_8
  have v13 : FVec Ideal S256x128 .f32 := broadcastTo S256x128 v12 broadcasts_S1x128_S256x128
  have v14 : FVec Ideal S256x128 .f32 := addf v11 v13
  have v15 : IVec S256x128 32 := iota .tc S256x128 32 [1] iota_S256x128_d1_w32
  have v16 : IVec S256x128 32 := broadcast S256x128 3#32
  have v17 : IVec S256x128 1 := cmpi .slt v15 v16
  have cst_11 : Ideal .f32 := Scalar.ofBits .f32 0xFF800000#32
  have v18 : FVec Ideal S256x128 .f32 := broadcast S256x128 cst_11
  have v19 : FVec Ideal S256x128 .f32 := select v17 v14 v18
  have v20 : FVec Ideal S256 .f32 := multiReduction .maximumf [1] S256 v19 0xFF800000#32 reduces_S256x128_S256 (.inl rfl) rfl
  have v21 : FVec Ideal S256x1 .f32 := shapeCast S256x1 v20 shapeCasts_S256_S256x1
  have v22 : FVec Ideal S256x128 .f32 := broadcastTo S256x128 v21 broadcasts_S256x1_S256x128
  have v23 : FVec Ideal S256x128 .f32 := subf v14 v22
  have v24 : FVec Ideal S256x128 .f32 := exp v23
  have cst_13 : Ideal .f32 := Scalar.ofBits .f32 0x00000000#32
  have v25 : FVec Ideal S256x128 .f32 := broadcast S256x128 cst_13
  have v26 : FVec Ideal S256x128 .f32 := select v17 v24 v25
  have v27 : FVec Ideal S256 .f32 := multiReduction .add [1] S256 v26 0x00000000#32 reduces_S256x128_S256 (.inl rfl) rfl
  have v28 : FVec Ideal S256x1 .f32 := shapeCast S256x1 v27 shapeCasts_S256_S256x1
  have v29 : FVec Ideal S256x1 .f32 := log v28
  have v30 : FVec Ideal S256x1 .f32 := addf v29 v21
  have v31 : FVec Ideal S256x128 .f32 := broadcastTo S256x128 v30 broadcasts_S256x1_S256x128
  have v32 : FVec Ideal S256x128 .f32 := subf v14 v31
  have cst_15 : Ideal .f32 := Scalar.ofBits .f32 0x00000000#32
  have v33 : FVec Ideal S256x128 .f32 := broadcast S256x128 cst_15
  have v34 : FVec Ideal S256x128 .f32 := select v17 v32 v33
  v34

/-- The MLP body's stored value is that function of the first layer's product. -/
theorem k2_pay1_eq (v0 : FVec Ideal S256x640 .f32) (v2 : FVec Ideal S640x256 .f32) (v5 : FVec Ideal S1x256 .f32)
    (v10 : FVec Ideal S256x128 .f32) (v12 : FVec Ideal S1x128 .f32) :
    k2_pay1 (F := Ideal) v0 v2 v5 v10 v12
      = afterFc1 (matmul dot_S256x640_S640x256_S256x256_1_0_0_1_n_n none v0 v2 (constant S256x256 .f32 0x00000000#32))
          v5 v10 v12 := by
  unfold k2_pay1 afterFc1
  rw [shapeCast_self, shapeCast_self]

end Cert.KI.MlpValue

end
-- ==== Proof.LibPoolFour.lean ====
/- A maximum taken from minus infinity over the four entries of a 2 by 2 cell, and indices of rank seven.

   A max-reduction of an array over some of its axes, started from minus infinity, at a result index j
   is the maximum of the array over the source indices that drop to j. When those are four indices
   (a 2 by 2 cell: two reduced axes of extent two), it is the maximum of the four entries, in the
   grouping max (max a b) (max c d). -/
import Idealize.ShloMosaic.PureOps.Reduce
import Idealize.ShloMosaic.PureOps.Ideal.Laws
import Idealize.ShloMosaic.Lib.ValueIdx
import Idealize.ShloMosaic.Lib.ValueIdxRank6

noncomputable section

namespace Cert.Lib.PoolFour

open Idealize.ShloMosaic Idealize.ShloMosaic.ValueIdx

/-- A max-reduction from minus infinity at a result index whose source indices are exactly four is the
   maximum of the four entries. -/
theorem reduce_max_four {s t u : Shape} {axes : List (Fin s.rank)} (x : FVec Ideal s .f32) (init : FVec Ideal u .f32)
    (h : s.ReducesTo axes t) (hu : 0 < u.numel) (hinit : init (Shape.Idx.first hu) = (⊥ : EReal)) (j : t.Idx)
    (i00 i01 i10 i11 : s.Idx) (hmem : ∀ i : s.Idx, h.drop i = j ↔ (i = i00 ∨ i = i01 ∨ i = i10 ∨ i = i11)) :
    Host.reduce (FloatOps.maximumf (F := Ideal) (φ := .f32)) x init h hu j
      = max (max (x i00 : EReal) (x i01)) (max (x i10) (x i11)) := by
  rw [Host.reduce_eq_fold, hinit]
  have hS : (Finset.univ.filter fun i : s.Idx => h.drop i = j) = {i00, i01, i10, i11} := by
    ext i
    simp only [Finset.mem_filter, Finset.mem_univ, true_and, Finset.mem_insert, Finset.mem_singleton]
    exact hmem i
  rw [hS]
  show Finset.sup ({i00, i01, i10, i11} : Finset s.Idx) (fun i => (x i : EReal)) = _
  rw [Finset.sup_insert, Finset.sup_insert, Finset.sup_insert, Finset.sup_singleton]
  exact (max_assoc _ _ _).symm

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun k => match k with | ⟨0, _⟩ => a | ⟨1, _⟩ => b | ⟨2, _⟩ => c | ⟨3, _⟩ => d | ⟨4, _⟩ => e | ⟨5, _⟩ => f | ⟨6, _⟩ => g

/-- Every rank-7 index is ix7 of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

/-- In a seven-axis array whose fifth and seventh axes have extent two, the source indices that drop
   to (a, b, c, p, q) when those two axes are reduced are the four indices (a, b, c, p, e, q, f) with
   e, f < 2. -/
theorem drop_iff_cell {A B C P Q : Nat}
    (h : (⟨7, ![A, B, C, P, 2, Q, 2]⟩ : Shape).ReducesTo [4, 6] ⟨5, ![A, B, C, P, Q]⟩)
    (a : Fin A) (b : Fin B) (c : Fin C) (p : Fin P) (q : Fin Q) (i : (⟨7, ![A, B, C, P, 2, Q, 2]⟩ : Shape).Idx) :
    h.drop i = ix5 a b c p q
      ↔ (i = ix7 a b c p 0 q 0 ∨ i = ix7 a b c p 0 q 1 ∨ i = ix7 a b c p 1 q 0 ∨ i = ix7 a b c p 1 q 1) := by
  have d0 : (h.drop i (0 : Fin 5)).val = (i (0 : Fin 7)).val := rfl
  have d1 : (h.drop i (1 : Fin 5)).val = (i (1 : Fin 7)).val := rfl
  have d2 : (h.drop i (2 : Fin 5)).val = (i (2 : Fin 7)).val := rfl
  have d3 : (h.drop i (3 : Fin 5)).val = (i (3 : Fin 7)).val := rfl
  have d4 : (h.drop i (4 : Fin 5)).val = (i (5 : Fin 7)).val := rfl
  constructor
  · intro hd
    have e0 : (i 0).val = a.val := d0.symm.trans (congrArg (fun z : (⟨5, ![A, B, C, P, Q]⟩ : Shape).Idx => (z 0).val) hd)
    have e1 : (i 1).val = b.val := d1.symm.trans (congrArg (fun z : (⟨5, ![A, B, C, P, Q]⟩ : Shape).Idx => (z 1).val) hd)
    have e2 : (i 2).val = c.val := d2.symm.trans (congrArg (fun z : (⟨5, ![A, B, C, P, Q]⟩ : Shape).Idx => (z 2).val) hd)
    have e3 : (i 3).val = p.val := d3.symm.trans (congrArg (fun z : (⟨5, ![A, B, C, P, Q]⟩ : Shape).Idx => (z 3).val) hd)
    have e5 : (i 5).val = q.val := d4.symm.trans (congrArg (fun z : (⟨5, ![A, B, C, P, Q]⟩ : Shape).Idx => (z 4).val) hd)
    have h4 : (i 4).val = 0 ∨ (i 4).val = 1 := by have h2 : (i 4).val < 2 := (i 4).isLt; omega
    have h6 : (i 6).val = 0 ∨ (i 6).val = 1 := by have h2 : (i 6).val < 2 := (i 6).isLt; omega
    have key : ∀ (e f : Fin 2), (i 4).val = e.val → (i 6).val = f.val → i = ix7 a b c p e q f := fun e f he hf => by
      funext k
      match k with
      | ⟨0, _⟩ => exact Fin.ext e0
      | ⟨1, _⟩ => exact Fin.ext e1
      | ⟨2, _⟩ => exact Fin.ext e2
      | ⟨3, _⟩ => exact Fin.ext e3
      | ⟨4, _⟩ => exact Fin.ext he
      | ⟨5, _⟩ => exact Fin.ext e5
      | ⟨6, _⟩ => exact Fin.ext hf
    rcases h4 with h4 | h4 <;> rcases h6 with h6 | h6
    · exact Or.inl (key 0 0 h4 h6)
    · exact Or.inr (Or.inl (key 0 1 h4 h6))
    · exact Or.inr (Or.inr (Or.inl (key 1 0 h4 h6)))
    · exact Or.inr (Or.inr (Or.inr (key 1 1 h4 h6)))
  · intro hi
    have key : ∀ (e f : Fin 2), i = ix7 a b c p e q f → h.drop i = ix5 a b c p q := fun e f he => by
      subst he
      funext k
      match k with
      | ⟨0, _⟩ => exact Fin.ext d0
      | ⟨1, _⟩ => exact Fin.ext d1
      | ⟨2, _⟩ => exact Fin.ext d2
      | ⟨3, _⟩ => exact Fin.ext d3
      | ⟨4, _⟩ => exact Fin.ext d4
    rcases hi with hi | hi | hi | hi
    · exact key 0 0 hi
    · exact key 0 1 hi
    · exact key 1 0 hi
    · exact key 1 1 hi

end Cert.Lib.PoolFour

end
-- ==== Proof.KI.Val7.lean ====
import proofs.«125140_g2000505823476311_pallasbulk_1268_6_alg».proof.Proof.KI.Run
import proofs.«125140_g2000505823476311_pallasbulk_1268_6_alg».proof.Proof.KI.MlpValue
import proofs.«125140_g2000505823476311_pallasbulk_1268_6_alg».proof.Proof.Spec
import proofs.«125140_g2000505823476311_pallasbulk_1268_6_alg».proof.Proof.FeatValue
import proofs.«125140_g2000505823476311_pallasbulk_1268_6_alg».proof.Proof.LibPoolFour
import Idealize.ShloMosaic.Lib.KernelVsHost
import Idealize.ShloMosaic.Lib.Pipeline.Value
import Idealize.ShloMosaic.Lib.StableHlo

set_option maxRecDepth 16384

noncomputable section

namespace Cert.KernelIdeal.Val

open Idealize.ShloMosaic Idealize.ShloMosaic.TcCoe Idealize.ShloMosaic.ValueIdx
open Idealize.SL Idealize.SL.RA Idealize.SL.Sem
open Cert.KernelIdeal Cert.KernelIdeal.Gen Cert.KernelIdeal.Hand

variable (m : (ℓ : Loc nD τ sig) → Buf (Elt Ideal) ℓ)

/-! ## The arithmetic of the stretch: cells, pooling, layout -/

/-- Minus infinity's word is the extended real minus infinity. -/
theorem ofBits_neg_inf : Ideal.ofBits .f32 0xFF800000#32 = (⊥ : EReal) := by
  simp [Ideal.ofBits, Ideal.ieee]

/-- The 2 × 2 cells of region 1's output: each 13 × 13 plane cut to 10 × 10 and split into 5 × 5 cells of 2 × 2. -/
def cells2 (O : FVec Ideal S5x6922240 .f32) : FVec Ideal S5x5x8192x5x2x5x2 .f32 :=
  shapeCast S5x5x8192x5x2x5x2
    (extractStridedSlice S5x5x8192x10x10 ![0, 0, 0, 0, 0]
      (extractStridedSlice S5x5x8192x11x11 ![0, 0, 0, 0, 0]
        (shapeCast S5x5x8192x13x13 O shapeCasts_S5x6922240_S5x5x8192x13x13)
        slices_S5x5x8192x13x13_S5x5x8192x11x11_0_0_0_0_0)
      slices_S5x5x8192x11x11_S5x5x8192x10x10_0_0_0_0_0)
    shapeCasts_S5x5x8192x10x10_S5x5x8192x5x2x5x2

/-- One entry of a cell: (c2, c1, b, i, e, j, f) is region 1's output at channel c2, lane
    ((c1·8192 + b)·13 + 2i + e)·13 + 2j + f. -/
theorem cells2_apply (O : FVec Ideal S5x6922240 .f32) (c2 c1 : Fin 5) (b : Fin 8192) (i j : Fin 5) (e f : Fin 2) :
    cells2 O (Cert.Lib.PoolFour.ix7 c2 c1 b i e j f)
      = O (ix2 c2 (⟨((c1.val * 8192 + b.val) * 13 + (2 * i.val + e.val)) * 13 + (2 * j.val + f.val), by omega⟩ : Fin 6922240)) := by
  unfold cells2
  rw [shapeCast_apply _ shapeCasts_S5x5x8192x10x10_S5x5x8192x5x2x5x2 (Cert.Lib.PoolFour.ix7 c2 c1 b i e j f)
    (ix5 c2 c1 b (⟨2 * i.val + e.val, by omega⟩ : Fin 10) (⟨2 * j.val + f.val, by omega⟩ : Fin 10)) (by
      rw [Shape.rowMajor_val_five, Cert.Lib.PoolFour.rowMajor_val_seven]
      show (((c2.val * 5 + c1.val) * 8192 + b.val) * 10 + (2 * i.val + e.val)) * 10 + (2 * j.val + f.val)
        = (((((c2.val * 5 + c1.val) * 8192 + b.val) * 5 + i.val) * 2 + e.val) * 5 + j.val) * 2 + f.val
      omega)]
  rw [extractStridedSlice_apply ![0, 0, 0, 0, 0] _ slices_S5x5x8192x11x11_S5x5x8192x10x10_0_0_0_0_0
    (ix5 c2 c1 b (⟨2 * i.val + e.val, by omega⟩ : Fin 10) (⟨2 * j.val + f.val, by omega⟩ : Fin 10))
    (ix5 c2 c1 b (⟨2 * i.val + e.val, by omega⟩ : Fin 11) (⟨2 * j.val + f.val, by omega⟩ : Fin 11)) (by
      intro a; fin_cases a <;> simp [ix5])]
  rw [extractStridedSlice_apply ![0, 0, 0, 0, 0] _ slices_S5x5x8192x13x13_S5x5x8192x11x11_0_0_0_0_0
    (ix5 c2 c1 b (⟨2 * i.val + e.val, by omega⟩ : Fin 11) (⟨2 * j.val + f.val, by omega⟩ : Fin 11))
    (ix5 c2 c1 b (⟨2 * i.val + e.val, by omega⟩ : Fin 13) (⟨2 * j.val + f.val, by omega⟩ : Fin 13)) (by
      intro a; fin_cases a <;> simp [ix5])]
  rw [shapeCast_apply _ shapeCasts_S5x6922240_S5x5x8192x13x13
    (ix5 c2 c1 b (⟨2 * i.val + e.val, by omega⟩ : Fin 13) (⟨2 * j.val + f.val, by omega⟩ : Fin 13))
    (ix2 c2 (⟨((c1.val * 8192 + b.val) * 13 + (2 * i.val + e.val)) * 13 + (2 * j.val + f.val), by omega⟩ : Fin 6922240)) (by
      rw [Shape.rowMajor_val_two, Shape.rowMajor_val_five]
      show c2.val * 6922240 + (((c1.val * 8192 + b.val) * 13 + (2 * i.val + e.val)) * 13 + (2 * j.val + f.val))
        = (((c2.val * 5 + c1.val) * 8192 + b.val) * 13 + (2 * i.val + e.val)) * 13 + (2 * j.val + f.val)
      omega)]

/-- The pooled features laid out as sample by (group, position), from region 1's output array. -/
def pooled625 (O : FVec Ideal S5x6922240 .f32) : FVec Ideal S8192x625 .f32 :=
  shapeCast S8192x625
    (transpose S8192x25x25 [1, 0, 2]
      (shapeCast S25x8192x25
        (Host.reduce FloatOps.maximumf (cells2 O) (constant S_ .f32 0xFF800000#32 : FVec Ideal S_ .f32)
          reducesTo_S5x5x8192x5x2x5x2_S5x5x8192x5x5_d4_6 h_S_)
        shapeCasts_S5x5x8192x5x5_S25x8192x25)
      transposes_S25x8192x25_S8192x25x25_1_0_2)
    shapeCasts_S8192x25x25_S8192x625

/-- The features as region 2 finds them: the pooled features with 15 zero columns appended. -/
def feats25 (O : FVec Ideal S5x6922240 .f32) : FVec Ideal S8192x640 .f32 :=
  pad S8192x640 ![0, 0] ![0, 0] ![0, 0]
    (pad S8192x640 ![0, 0] ![0, 15] ![0, 0] (pooled625 O)
      (sitofp .f32 (constantI S_ 32 0#32) : FVec Ideal S_ .f32) pads_S8192x625_S8192x640_000_0150 h_S_)
    (sitofp .f32 (constantI S_ 32 0#32) : FVec Ideal S_ .f32) pads_S8192x640_S8192x640_000_000 h_S_

/-- The first dense layer's weights as region 2 finds them: [25, 25, 256] flattened to 625 rows, 15 zero rows
    appended. -/
def w24 (A : FVec Ideal S25x25x256 .f32) : FVec Ideal S640x256 .f32 :=
  pad S640x256 ![0, 0] ![15, 0] ![0, 0] (shapeCast S625x256 A shapeCasts_S25x25x256_S625x256)
    (sitofp .f32 (constantI S_ 32 0#32) : FVec Ideal S_ .f32) pads_S625x256_S640x256_0150_000 h_S_

/-- The features entry by entry: sample b, column k = 25·g + s with g = 5·c2 + c1 and s = 5·i + j below 625 is the
    2 × 2 maximum of region 1's output plane (c2, c1, b) at cell (i, j); the columns from 625 on are zero. Stated for
    any function A that region 1's output array agrees with on the 11 × 11 corner of each plane. -/
theorem feats25_apply (O : FVec Ideal S5x6922240 .f32) (A : ℕ → ℕ → ℕ → ℕ → ℕ → EReal)
    (hO : ∀ (c2 c1 : Fin 5) (b i j : ℕ) (hb : b < 8192) (hi : i < 11) (hj : j < 11),
      O (ix2 c2 (⟨((c1.val * 8192 + b) * 13 + i) * 13 + j, by omega⟩ : Fin 6922240)) = A c2.val c1.val b i j)
    (b : Fin 8192) (k : Fin 640) :
    feats25 O (ix2 b k)
      = if k.val < 625 then Cert.Spec.pool (A (k.val / 25 / 5) (k.val / 25 % 5) b.val) (k.val % 25 / 5) (k.val % 25 % 5)
        else 0 := by
  unfold feats25
  rw [pad_apply_of_inside ![0, 0] ![0, 0] ![0, 0] _ _ pads_S8192x640_S8192x640_000_000 h_S_ (ix2 b k) (ix2 b k) (by
    intro a; fin_cases a <;> simp [ix2])]
  by_cases hk : k.val < 625
  · rw [if_pos hk]
    have hg : k.val / 25 < 25 := by omega
    have hs : k.val % 25 < 25 := Nat.mod_lt _ (by decide)
    have hc2 : k.val / 25 / 5 < 5 := by omega
    have hc1 : k.val / 25 % 5 < 5 := Nat.mod_lt _ (by decide)
    have hi : k.val % 25 / 5 < 5 := by omega
    have hj : k.val % 25 % 5 < 5 := Nat.mod_lt _ (by decide)
    rw [pad_apply_of_inside ![0, 0] ![0, 15] ![0, 0] _ _ pads_S8192x625_S8192x640_000_0150 h_S_ (ix2 b k)
      (ix2 b (⟨k.val, hk⟩ : Fin 625)) (by intro a; fin_cases a <;> simp [ix2])]
    unfold pooled625
    rw [shapeCast_apply _ shapeCasts_S8192x25x25_S8192x625 (ix2 b (⟨k.val, hk⟩ : Fin 625))
      (ix3 b (⟨k.val / 25, hg⟩ : Fin 25) (⟨k.val % 25, hs⟩ : Fin 25)) (by
        rw [Shape.rowMajor_val_three, Shape.rowMajor_val_two]
        show (b.val * 25 + k.val / 25) * 25 + k.val % 25 = b.val * 625 + k.val
        omega)]
    rw [transpose_apply [1, 0, 2] _ transposes_S25x8192x25_S8192x25x25_1_0_2
      (ix3 b (⟨k.val / 25, hg⟩ : Fin 25) (⟨k.val % 25, hs⟩ : Fin 25))
      (ix3 (⟨k.val / 25, hg⟩ : Fin 25) b (⟨k.val % 25, hs⟩ : Fin 25)) (by intro a; fin_cases a <;> rfl)]
    rw [shapeCast_apply _ shapeCasts_S5x5x8192x5x5_S25x8192x25
      (ix3 (⟨k.val / 25, hg⟩ : Fin 25) b (⟨k.val % 25, hs⟩ : Fin 25))
      (ix5 (⟨k.val / 25 / 5, hc2⟩ : Fin 5) (⟨k.val / 25 % 5, hc1⟩ : Fin 5) b (⟨k.val % 25 / 5, hi⟩ : Fin 5) (⟨k.val % 25 % 5, hj⟩ : Fin 5)) (by
        rw [Shape.rowMajor_val_five, Shape.rowMajor_val_three]
        show (((k.val / 25 / 5 * 5 + k.val / 25 % 5) * 8192 + b.val) * 5 + k.val % 25 / 5) * 5 + k.val % 25 % 5
          = (k.val / 25 * 8192 + b.val) * 25 + k.val % 25
        omega)]
    rw [Cert.Lib.PoolFour.reduce_max_four _ _ reducesTo_S5x5x8192x5x2x5x2_S5x5x8192x5x5_d4_6 h_S_
      (by show Ideal.ofBits .f32 0xFF800000#32 = (⊥ : EReal); exact ofBits_neg_inf)
      (ix5 (⟨k.val / 25 / 5, hc2⟩ : Fin 5) (⟨k.val / 25 % 5, hc1⟩ : Fin 5) b (⟨k.val % 25 / 5, hi⟩ : Fin 5) (⟨k.val % 25 % 5, hj⟩ : Fin 5))
      _ _ _ _ (fun i7 => Cert.Lib.PoolFour.drop_iff_cell reducesTo_S5x5x8192x5x2x5x2_S5x5x8192x5x5_d4_6
        (⟨k.val / 25 / 5, hc2⟩ : Fin 5) (⟨k.val / 25 % 5, hc1⟩ : Fin 5) b (⟨k.val % 25 / 5, hi⟩ : Fin 5) (⟨k.val % 25 % 5, hj⟩ : Fin 5) i7)]
    rw [cells2_apply, cells2_apply, cells2_apply, cells2_apply]
    rw [hO _ _ _ _ _ b.isLt (by show 2 * (k.val % 25 / 5) + 0 < 11; omega) (by show 2 * (k.val % 25 % 5) + 0 < 11; omega),
      hO _ _ _ _ _ b.isLt (by show 2 * (k.val % 25 / 5) + 0 < 11; omega) (by show 2 * (k.val % 25 % 5) + 1 < 11; omega),
      hO _ _ _ _ _ b.isLt (by show 2 * (k.val % 25 / 5) + 1 < 11; omega) (by show 2 * (k.val % 25 % 5) + 0 < 11; omega),
      hO _ _ _ _ _ b.isLt (by show 2 * (k.val % 25 / 5) + 1 < 11; omega) (by show 2 * (k.val % 25 % 5) + 1 < 11; omega)]
    rfl
  · rw [if_neg hk]
    rw [pad_apply_of_not_inside (s := S8192x625) ![0, 0] ![0, 15] ![0, 0] _ _ pads_S8192x625_S8192x640_000_0150 h_S_
      (ix2 b k) (1 : Fin 2) (by
        show ¬(0 ≤ k.val ∧ (k.val - 0) % (0 + 1) = 0 ∧ (k.val - 0) / (0 + 1) < 625)
        omega)]
    exact sitofp_zero (φ := .f32)

/-- The weights entry by entry: row k = 25·g + s below 625 is the weight of group g, position s; the rows from 625 on
    are zero. -/
theorem w24_apply (A : FVec Ideal S25x25x256 .f32) (k : Fin 640) (n : Fin 256) :
    w24 A (ix2 k n) = if k.val < 625 then Cert.Spec.fwOf A (k.val / 25) (k.val % 25) n.val else 0 := by
  unfold w24
  by_cases hk : k.val < 625
  · rw [if_pos hk]
    have hg : k.val / 25 < 25 := by omega
    have hs : k.val % 25 < 25 := Nat.mod_lt _ (by decide)
    rw [pad_apply_of_inside ![0, 0] ![15, 0] ![0, 0] _ _ pads_S625x256_S640x256_0150_000 h_S_ (ix2 k n)
      (ix2 (⟨k.val, hk⟩ : Fin 625) n) (by intro a; fin_cases a <;> simp [ix2])]
    rw [shapeCast_apply _ shapeCasts_S25x25x256_S625x256 (ix2 (⟨k.val, hk⟩ : Fin 625) n)
      (ix3 (⟨k.val / 25, hg⟩ : Fin 25) (⟨k.val % 25, hs⟩ : Fin 25) n) (by
        rw [Shape.rowMajor_val_three, Shape.rowMajor_val_two]
        show (k.val / 25 * 25 + k.val % 25) * 256 + n.val = k.val * 256 + n.val
        omega)]
    unfold Cert.Spec.fwOf
    rw [dif_pos ⟨hg, hs, n.isLt⟩]
  · rw [if_neg hk]
    rw [pad_apply_of_not_inside (s := S625x256) ![0, 0] ![15, 0] ![0, 0] _ _ pads_S625x256_S640x256_0150_000 h_S_
      (ix2 k n) (0 : Fin 2) (by
        show ¬(0 ≤ k.val ∧ (k.val - 0) % (0 + 1) = 0 ∧ (k.val - 0) / (0 + 1) < 625)
        omega)]
    exact sitofp_zero (φ := .f32)

/-! ## The host stretches between regions 1 and 2, one by one, at any earlier contents -/

set_option maxRecDepth 200000 in
/-- The first stretch, at any earlier contents W0 and region 1's output array A: the pooled features, -/
theorem stretch2_v21 (W0 : Valuation τ sig (Elt Ideal)) (A : S5x6922240.Idx → EReal) :
    (StableHlo.after hostOps2 (Function.update W0 main_v13 A) (Proc.devRef .tc main_v21) : S8192x625.Idx → EReal)
      = pooled625 A := by
  after_results
  rfl

set_option maxRecDepth 200000 in
/-- and the integer zero the padding converts. -/
theorem stretch2_c2 (W : Valuation τ sig (Elt Ideal)) :
    (StableHlo.after hostOps2 W (Proc.devRef .tc main_c_2) : S_.Idx → BitVec 32) = constantI S_ 32 0#32 := by
  after_results

set_option maxRecDepth 200000 in
/-- The padding of the features: 15 columns of the converted zero appended. -/
theorem stretch21_v22 (W : Valuation τ sig (Elt Ideal)) :
    (StableHlo.after hostOps2_1 W (Proc.devRef .tc main_v22) : S8192x640.Idx → EReal)
      = pad S8192x640 ![0, 0] ![0, 15] ![0, 0] (W (Proc.devRef .tc main_v21) : S8192x625.Idx → EReal)
          (sitofp .f32 (W (Proc.devRef .tc main_c_2) : S_.Idx → BitVec 32) : FVec Ideal S_ .f32)
          pads_S8192x625_S8192x640_000_0150 h_S_ := by
  after_results
  rfl

set_option maxRecDepth 200000 in
/-- The weights flattened to 625 rows, -/
theorem stretch22_v23 (W : Valuation τ sig (Elt Ideal)) :
    (StableHlo.after hostOps2_2 W (Proc.devRef .tc main_v23) : S625x256.Idx → EReal)
      = shapeCast S625x256 (W (Proc.devRef .tc main_arg3) : S25x25x256.Idx → EReal) shapeCasts_S25x25x256_S625x256 := by
  after_results
  rfl

set_option maxRecDepth 200000 in
/-- and the integer zero their padding converts. -/
theorem stretch22_c3 (W : Valuation τ sig (Elt Ideal)) :
    (StableHlo.after hostOps2_2 W (Proc.devRef .tc main_c_3) : S_.Idx → BitVec 32) = constantI S_ 32 0#32 := by
  after_results

set_option maxRecDepth 200000 in
/-- The padding of the weights: 15 rows of the converted zero appended. -/
theorem stretch23_v24 (W : Valuation τ sig (Elt Ideal)) :
    (StableHlo.after hostOps2_3 W (Proc.devRef .tc main_v24) : S640x256.Idx → EReal)
      = pad S640x256 ![0, 0] ![15, 0] ![0, 0] (W (Proc.devRef .tc main_v23) : S625x256.Idx → EReal)
          (sitofp .f32 (W (Proc.devRef .tc main_c_3) : S_.Idx → BitVec 32) : FVec Ideal S_ .f32)
          pads_S625x256_S640x256_0150_000 h_S_ := by
  after_results
  rfl

set_option maxRecDepth 200000 in
/-- The integer zero of the last padding. -/
theorem stretch24_c4 (W : Valuation τ sig (Elt Ideal)) :
    (StableHlo.after hostOps2_4 W (Proc.devRef .tc main_c_4) : S_.Idx → BitVec 32) = constantI S_ 32 0#32 := by
  after_results

set_option maxRecDepth 200000 in
/-- The last padding adds nothing. -/
theorem stretch25_v25 (W : Valuation τ sig (Elt Ideal)) :
    (StableHlo.after hostOps2_5 W (Proc.devRef .tc main_v25) : S8192x640.Idx → EReal)
      = pad S8192x640 ![0, 0] ![0, 0] ![0, 0] (W (Proc.devRef .tc main_v22) : S8192x640.Idx → EReal)
          (sitofp .f32 (W (Proc.devRef .tc main_c_4) : S_.Idx → BitVec 32) : FVec Ideal S_ .f32)
          pads_S8192x640_S8192x640_000_000 h_S_ := by
  after_results
  rfl

/-! ## What region 2 finds in its first two arrays -/

/-- The first dense layer's weight argument reaches region 2 as launched. -/
theorem V8_arg3 (c : Dev nD) : V8 m (outs6 m) c main_arg3 = m ((c.tc : Thread nD τ).loc main_arg3) :=
  (V9_of m (outs6 m) c main_arg3 (by decide)).symm.trans <| (V10_of m (outs6 m) c main_arg3 (by decide)).symm.trans <|
    (V11_of m (outs6 m) c main_arg3 (by decide)).symm.trans <| (V12_of m (outs6 m) c main_arg3 (by decide)).symm.trans <|
    (V13_of m (outs6 m) c main_arg3 (by decide)).symm.trans <| (V14_of m (outs6 m) c main_arg3 (by decide)).symm.trans <|
    V14_main_arg3 m (outs6 m) c

/-- The features region 2 finds are feats25 of region 1's output array. -/
theorem V25_eq (c : Dev nD) : (V12 m (outs6 m) c main_v25 : S8192x640.Idx → EReal) = feats25 (o6 m c) := by
  have e21 : (V7 m (outs6 m) c main_v21 : S8192x625.Idx → EReal) = pooled625 (o6 m c) := by
    show StableHlo.after hostOps2 (Function.update (V5 m (outs6 m) c) main_v13 (outs6 m 6 main_v13 c)) (Proc.devRef .tc main_v21) = _
    rw [outs6_v13]
    exact stretch2_v21 (V5 m (outs6 m) c) (o6 m c)
  have ec2 : (V7 m (outs6 m) c main_c_2 : S_.Idx → BitVec 32) = constantI S_ 32 0#32 := stretch2_c2 _
  have e22 : (V8 m (outs6 m) c main_v22 : S8192x640.Idx → EReal)
      = pad S8192x640 ![0, 0] ![0, 15] ![0, 0] (pooled625 (o6 m c))
          (sitofp .f32 (constantI S_ 32 0#32) : FVec Ideal S_ .f32) pads_S8192x625_S8192x640_000_0150 h_S_ := by
    show StableHlo.after hostOps2_1 (V7 m (outs6 m) c) (Proc.devRef .tc main_v22) = _
    rw [stretch21_v22, e21, ec2]
  have e22' : V11 m (outs6 m) c main_v22 = V8 m (outs6 m) c main_v22 :=
    (V11_of m (outs6 m) c main_v22 (by decide)).trans <| (V10_of m (outs6 m) c main_v22 (by decide)).trans <|
      V9_of m (outs6 m) c main_v22 (by decide)
  have ec4 : (V11 m (outs6 m) c main_c_4 : S_.Idx → BitVec 32) = constantI S_ 32 0#32 := stretch24_c4 _
  show StableHlo.after hostOps2_5 (V11 m (outs6 m) c) (Proc.devRef .tc main_v25) = _
  rw [stretch25_v25, ec4]
  show pad S8192x640 ![0, 0] ![0, 0] ![0, 0] (V11 m (outs6 m) c main_v22 : S8192x640.Idx → EReal) _ _ _ = _
  rw [e22', e22]
  rfl

/-- The weights region 2 finds are w24 of the first dense layer's weight argument. -/
theorem V24_eq (c : Dev nD) :
    (V12 m (outs6 m) c main_v24 : S640x256.Idx → EReal) = w24 (m ((c.tc : Thread nD τ).loc main_arg3)) := by
  have e24' : V12 m (outs6 m) c main_v24 = V10 m (outs6 m) c main_v24 :=
    (V12_of m (outs6 m) c main_v24 (by decide)).trans <| V11_of m (outs6 m) c main_v24 (by decide)
  have e23 : (V9 m (outs6 m) c main_v23 : S625x256.Idx → EReal)
      = shapeCast S625x256 (m ((c.tc : Thread nD τ).loc main_arg3) : S25x25x256.Idx → EReal) shapeCasts_S25x25x256_S625x256 := by
    show StableHlo.after hostOps2_2 (V8 m (outs6 m) c) (Proc.devRef .tc main_v23) = _
    rw [stretch22_v23]
    show shapeCast S625x256 (V8 m (outs6 m) c main_arg3 : S25x25x256.Idx → EReal) _ = _
    rw [V8_arg3]
  have ec3 : (V9 m (outs6 m) c main_c_3 : S_.Idx → BitVec 32) = constantI S_ 32 0#32 := stretch22_c3 _
  show (V12 m (outs6 m) c main_v24 : S640x256.Idx → EReal) = _
  rw [e24']
  show StableHlo.after hostOps2_3 (V9 m (outs6 m) c) (Proc.devRef .tc main_v24) = _
  rw [stretch23_v24, e23, ec3]
  rfl

/-- The features region 2 finds, entry by entry, given region 1's output at the 11 × 11 corner of each plane: sample b,
    column k below 625 is the second layer's pooled feature of group k / 25 at position k % 25; the rest is zero. -/
theorem V25_apply (feat : Fin 9 → EReal → EReal) (c : Dev nD)
    (ho6 : ∀ (c2 c1 : Fin 5) (b i j : ℕ) (hb : b < 8192) (hi : i < 11) (hj : j < 11),
      o6 m c (ix2 c2 (⟨((c1.val * 8192 + b) * 13 + i) * 13 + j, by omega⟩ : Fin 6922240))
        = Cert.Spec.act feat (Cert.Spec.wOf (m ((c.tc : Thread nD τ).loc main_arg2)))
            (Cert.Spec.pooled1 feat (Cert.Spec.wOf (m ((c.tc : Thread nD τ).loc main_arg1)))
              (Cert.Spec.xOf (m ((c.tc : Thread nD τ).loc main_arg0))) c1.val b) c2.val i j)
    (b : Fin 8192) (k : Fin 640) :
    (V12 m (outs6 m) c main_v25 : S8192x640.Idx → EReal) (ix2 b k)
      = if k.val < 625 then Cert.Spec.feats feat (Cert.Spec.wOf (m ((c.tc : Thread nD τ).loc main_arg1)))
          (Cert.Spec.wOf (m ((c.tc : Thread nD τ).loc main_arg2))) (Cert.Spec.xOf (m ((c.tc : Thread nD τ).loc main_arg0)))
          (k.val / 25) b.val (k.val % 25) else 0 := by
  rw [V25_eq, feats25_apply (o6 m c)
    (fun c2 c1 b i j => Cert.Spec.act feat (Cert.Spec.wOf (m ((c.tc : Thread nD τ).loc main_arg2)))
      (Cert.Spec.pooled1 feat (Cert.Spec.wOf (m ((c.tc : Thread nD τ).loc main_arg1)))
        (Cert.Spec.xOf (m ((c.tc : Thread nD τ).loc main_arg0))) c1 b) c2 i j) ho6 b k]
  rfl

/-- The weights region 2 finds, entry by entry: row k below 625 is the weight of group k / 25, position k % 25; the
    rest is zero. -/
theorem V24_apply (c : Dev nD) (k : Fin 640) (n : Fin 256) :
    (V12 m (outs6 m) c main_v24 : S640x256.Idx → EReal) (ix2 k n)
      = if k.val < 625 then Cert.Spec.fwOf (m ((c.tc : Thread nD τ).loc main_arg3)) (k.val / 25) (k.val % 25) n.val else 0 := by
  rw [V24_eq, w24_apply]

end Cert.KernelIdeal.Val
end
-- ==== Proof.KI.Val8.lean ====
/-
  Region 2's output array after the region, entry by entry. Point t of the grid reads rows [256·t, 256·t + 256) of the
  feature array and the whole of the other four arrays, and writes rows [256·t, 256·t + 256) of the output. So row B of
  the output is row B % 256 of the body's value on block B / 256 of the features — one function of the region's input
  arrays, of which every point writes its block, and the blocks cover the array. The body's value is the dense head
  after its first product, and that product on a block is the first dense layer's pre-activation of the block's samples.
-/
import proofs.«125140_g2000505823476311_pallasbulk_1268_6_alg».proof.Proof.KI.Region2
import proofs.«125140_g2000505823476311_pallasbulk_1268_6_alg».proof.Proof.KI.ConvPoint
import proofs.«125140_g2000505823476311_pallasbulk_1268_6_alg».proof.Proof.KI.Val7
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.RA Idealize.SL.Sem
open Idealize.ShloMosaic.Pipeline (Dat)
open Cert.KernelIdeal Cert.KernelIdeal.Gen Cert.KernelIdeal.Hand

section Blocks

variable (V : (c : Dev nD) → (b : Ref sig .tc) → Buf (Elt Ideal) ((c : Thread nD τ).loc b))

/-- Rows [256·t', 256·t' + 256) of the feature array. -/
def rows256 (X : S8192x640.Idx → EReal) (t' : ℕ) : S256x640.Idx → EReal :=
  fun y => if h : 256 * t' + (y 0).val < 8192 then X (ix2 (⟨256 * t' + (y 0).val, h⟩ : Fin 8192) (y 1)) else 0

/-- The region's output array as one function of its five input arrays. -/
def mlpArr (X : S8192x640.Idx → EReal) (Wt : S640x256.Idx → EReal) (b1 : S1x256.Idx → EReal) (w2 : S256x128.Idx → EReal)
    (b2 : S1x128.Idx → EReal) : S8192x128.Idx → EReal :=
  fun i => k2_pay1 (F := Ideal) (rows256 X ((i 0).val / 256)) Wt b1 w2 b2
    (ix2 (⟨(i 0).val % 256, Nat.mod_lt _ (by decide)⟩ : Fin 256) (i 1))

/-- The printed index maps, decided over the grid: the features' and the output's block index is the point, the other
    windows' is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The features' block at point t, row r: row 256·t + r of the feature array. -/
theorem rd2_0 (c : Dev nD) (t : Fin cfg2.N) (y : S256x640.Idx) (h : 256 * t.val + (y 0).val < 8192) :
    iblk2 V c 0 t y = (V c main_v25 : S8192x640.Idx → EReal) (ix2 (⟨256 * t.val + (y 0).val, h⟩ : Fin 8192) (y 1)) := by
  obtain ⟨e00, e01, -⟩ := idx_facts2 t
  show (V c main_v25 : S8192x640.Idx → EReal) (((cfg2.win 0).blk t).view.emb y) = _
  refine congrArg (V c main_v25 : S8192x640.Idx → EReal) (funext fun a => Fin.ext ?_)
  match a with
  | ⟨0, _⟩ => show win2_0.index t (0 : Fin 2) * 256 + 1 * (y 0).val = 256 * t.val + (y 0).val; omega
  | ⟨1, _⟩ => show win2_0.index t (1 : Fin 2) * 640 + 1 * (y 1).val = (y 1).val; omega

/-- The other four windows' blocks at any point are their whole arrays. -/
theorem rd2_1 (c : Dev nD) (t : Fin cfg2.N) (y : S640x256.Idx) :
    iblk2 V c 1 t y = (V c main_v24 : S640x256.Idx → EReal) y := by
  obtain ⟨-, -, e10, e11, -⟩ := idx_facts2 t
  show (V c main_v24 : S640x256.Idx → EReal) (((cfg2.win 1).blk t).view.emb y) = _
  refine congrArg (V c main_v24 : S640x256.Idx → EReal) (funext fun a => Fin.ext ?_)
  match a with
  | ⟨0, _⟩ => show win2_1.index t (0 : Fin 2) * 640 + 1 * (y 0).val = (y 0).val; omega
  | ⟨1, _⟩ => show win2_1.index t (1 : Fin 2) * 256 + 1 * (y 1).val = (y 1).val; omega

theorem rd2_2 (c : Dev nD) (t : Fin cfg2.N) (y : S1x256.Idx) :
    iblk2 V c 2 t y = (V c main_arg4 : S1x256.Idx → EReal) y := by
  obtain ⟨-, -, -, -, e20, e21, -⟩ := idx_facts2 t
  show (V c main_arg4 : S1x256.Idx → EReal) (((cfg2.win 2).blk t).view.emb y) = _
  refine congrArg (V c main_arg4 : S1x256.Idx → EReal) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

theorem rd2_3 (c : Dev nD) (t : Fin cfg2.N) (y : S256x128.Idx) :
    iblk2 V c 3 t y = (V c main_arg5 : S256x128.Idx → EReal) y := by
  obtain ⟨-, -, -, -, -, -, e30, e31, -⟩ := idx_facts2 t
  show (V c main_arg5 : S256x128.Idx → EReal) (((cfg2.win 3).blk t).view.emb y) = _
  refine congrArg (V c main_arg5 : S256x128.Idx → EReal) (funext fun a => Fin.ext ?_)
  match a with
  | ⟨0, _⟩ => show win2_3.index t (0 : Fin 2) * 256 + 1 * (y 0).val = (y 0).val; omega
  | ⟨1, _⟩ => show win2_3.index t (1 : Fin 2) * 128 + 1 * (y 1).val = (y 1).val; omega

theorem rd2_4 (c : Dev nD) (t : Fin cfg2.N) (y : S1x128.Idx) :
    iblk2 V c 4 t y = (V c main_arg6 : S1x128.Idx → EReal) y := by
  obtain ⟨-, -, -, -, -, -, -, -, e40, e41, -⟩ := idx_facts2 t
  show (V c main_arg6 : S1x128.Idx → EReal) (((cfg2.win 4).blk t).view.emb y) = _
  refine congrArg (V c main_arg6 : S1x128.Idx → EReal) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point t writes back is block t of the one array function. -/
theorem flushed2_eq (q : Fin cfg2.W → PosShare TreeShare) (c : Dev nD) (t : Fin cfg2.N) :
    (dat2 V q c).flushed 5 t = ((cfg2.win 5).blk t).view.read (Elt Ideal)
      (mlpArr (V c main_v25) (V c main_v24) (V c main_arg4) (V c main_arg5) (V c main_arg6)) := by
  show (cfg2.win 5).cut (grid2.coords t) ((dat2 V q c).after 5 t) = _
  rw [after2_5]
  unfold out2_5
  rw [View.canon_unit_zero hz2, View.ld_unit_zero hz2, View.ld_unit_zero hz2, View.ld_unit_zero hz2, View.ld_unit_zero hz2,
    View.ld_unit_zero hz2]
  obtain ⟨-, -, -, -, -, -, -, -, -, -, e50, e51⟩ := idx_facts2 t
  have hN : t.val < 32 := lt_of_lt_of_eq t.isLt N_2
  funext j
  show k2_pay1 (F := Ideal) (iblk2 V c 0 t) (iblk2 V c 1 t) (iblk2 V c 2 t) (iblk2 V c 3 t) (iblk2 V c 4 t) j
    = mlpArr (V c main_v25) (V c main_v24) (V c main_arg4) (V c main_arg5) (V c main_arg6) (((cfg2.win 5).blk t).view.emb j)
  have hj0 : (j 0).val < 256 := (j 0).isLt
  have ea0 : ((((cfg2.win 5).blk t).view.emb j) 0).val = 256 * t.val + (j 0).val := by
    show win2_5.index t (0 : Fin 2) * 256 + 1 * (j 0).val = 256 * t.val + (j 0).val; omega
  have ea1 : ((((cfg2.win 5).blk t).view.emb j) 1).val = (j 1).val := by
    show win2_5.index t (1 : Fin 2) * 128 + 1 * (j 1).val = (j 1).val; omega
  have h0 : iblk2 V c 0 t = rows256 (V c main_v25) (((((cfg2.win 5).blk t).view.emb j) 0).val / 256) := by
    funext y
    have hy0 : (y 0).val < 256 := (y 0).isLt
    rw [show ((((cfg2.win 5).blk t).view.emb j) 0).val / 256 = t.val from by rw [ea0]; omega]
    unfold rows256
    rw [dif_pos (by omega)]
    exact rd2_0 V c t y (by omega)
  have h1 : iblk2 V c 1 t = (V c main_v24 : S640x256.Idx → EReal) := funext (rd2_1 V c t)
  have h2 : iblk2 V c 2 t = (V c main_arg4 : S1x256.Idx → EReal) := funext (rd2_2 V c t)
  have h3 : iblk2 V c 3 t = (V c main_arg5 : S256x128.Idx → EReal) := funext (rd2_3 V c t)
  have h4 : iblk2 V c 4 t = (V c main_arg6 : S1x128.Idx → EReal) := funext (rd2_4 V c t)
  unfold mlpArr
  rw [h0, h1, h2, h3, h4]
  refine congrArg (k2_pay1 (F := Ideal) _ _ _ _ _) (funext fun a => ?_)
  match a with
  | ⟨0, _⟩ => exact Fin.ext (by show (j 0).val = ((((cfg2.win 5).blk t).view.emb j) 0).val % 256; rw [ea0]; omega)
  | ⟨1, _⟩ => exact Fin.ext ea1.symm

/-- An index of the output array is in point t's block iff each coordinate is in the block's range on its axis. -/
theorem mem_blk2 (t : Fin cfg2.N) (i : S8192x128.Idx) :
    i ∈ ((cfg2.win 5).blk t).view.set ↔ ∀ a : Fin 2, win2_5.index t a * S256x128.size a ≤ (i a).val ∧ (i a).val < win2_5.index t a * S256x128.size a + S256x128.size a := by
  show i ∈ ((View.whole main_v26).slice (win2_5.rect t)).set ↔ _
  rw [View.set_slice_whole, Rect.mem_set_unit]
  exact Iff.rfl

/-- Every index of the output array is in some point's block: row B is written by point B / 256. -/
theorem cover2 (i : S8192x128.Idx) : ∃ t : Fin cfg2.N, (cfg2.win 5).flush t = true ∧ i ∈ ((cfg2.win 5).blk t).view.set := by
  have h0 : (i 0).val < 8192 := (i 0).isLt
  have h1 : (i 1).val < 128 := (i 1).isLt
  refine ⟨Fin.cast N_2.symm (⟨(i 0).val / 256, by omega⟩ : Fin 32), flush2_5 _, ?_⟩
  obtain ⟨-, -, -, -, -, -, -, -, -, -, e50, e51⟩ := idx_facts2 (Fin.cast N_2.symm (⟨(i 0).val / 256, by omega⟩ : Fin 32))
  have e50' : win2_5.index (Fin.cast N_2.symm (⟨(i 0).val / 256, by omega⟩ : Fin 32)) (0 : Fin 2) = (i 0).val / 256 := e50
  rw [mem_blk2]
  intro a
  match a with
  | ⟨0, _⟩ => show win2_5.index _ (0 : Fin 2) * 256 ≤ (i 0).val ∧ (i 0).val < win2_5.index _ (0 : Fin 2) * 256 + 256; omega
  | ⟨1, _⟩ => show win2_5.index _ (1 : Fin 2) * 128 ≤ (i 1).val ∧ (i 1).val < win2_5.index _ (1 : Fin 2) * 128 + 128; omega

/-- THE OUTPUT ARRAY after the region is the one array function of the region's five input arrays. -/
theorem arr2_eq (q : Fin cfg2.W → PosShare TreeShare) (c : Dev nD) :
    (dat2 V q c).arrAt 5 cfg2.N = mlpArr (V c main_v25) (V c main_v24) (V c main_arg4) (V c main_arg5) (V c main_arg6) :=
  (dat2 V q c).arrAt_eq_of_cover 5 (mlpArr (V c main_v25) (V c main_v24) (V c main_arg4) (V c main_arg5) (V c main_arg6))
    (fun t _ => flushed2_eq V q c t) (cover2)

end Blocks

end Cert.KernelIdeal.Val

end
-- ==== Proof.KI.Val9.lean ====
/-
  The kernel program's result, entry by entry. Region 2's output row B is the dense head after its first product applied
  to the first dense layer's pre-activation of block B / 256 of the samples — the product of the block of features with
  the weights, both padded with zeros from place 625 on, is the double sum over the 25 groups and 25 positions — and the
  program's result is its first three columns.
-/
import proofs.«125140_g2000505823476311_pallasbulk_1268_6_alg».proof.Proof.KI.Val6
import proofs.«125140_g2000505823476311_pallasbulk_1268_6_alg».proof.Proof.KI.Val8

set_option maxRecDepth 16384

noncomputable section

namespace Cert.KernelIdeal.Val

open Idealize.ShloMosaic Idealize.ShloMosaic.TcCoe Idealize.ShloMosaic.ValueIdx
open Idealize.SL Idealize.SL.RA Idealize.SL.Sem
open Cert.KernelIdeal Cert.KernelIdeal.Gen Cert.KernelIdeal.Hand

variable (m : (ℓ : Loc nD τ sig) → Buf (Elt Ideal) ℓ)

/-- The dense head's other arguments reach region 2 as launched. -/
theorem V12_arg4 (c : Dev nD) : V12 m (outs6 m) c main_arg4 = m ((c.tc : Thread nD τ).loc main_arg4) :=
  (V13_of m (outs6 m) c main_arg4 (by decide)).symm.trans <| (V14_of m (outs6 m) c main_arg4 (by decide)).symm.trans <|
    V14_main_arg4 m (outs6 m) c
theorem V12_arg5 (c : Dev nD) : V12 m (outs6 m) c main_arg5 = m ((c.tc : Thread nD τ).loc main_arg5) :=
  (V13_of m (outs6 m) c main_arg5 (by decide)).symm.trans <| (V14_of m (outs6 m) c main_arg5 (by decide)).symm.trans <|
    V14_main_arg5 m (outs6 m) c
theorem V12_arg6 (c : Dev nD) : V12 m (outs6 m) c main_arg6 = m ((c.tc : Thread nD τ).loc main_arg6) :=
  (V13_of m (outs6 m) c main_arg6 (by decide)).symm.trans <| (V14_of m (outs6 m) c main_arg6 (by decide)).symm.trans <|
    V14_main_arg6 m (outs6 m) c

/-- The first product on block t' of the features is the first dense layer's pre-activation of the block's samples. -/
theorem fc1_block (feat : Fin 9 → EReal → EReal) (c : Dev nD)
    (X : S8192x640.Idx → EReal) (Wt : S640x256.Idx → EReal)
    (hX : ∀ (b : Fin 8192) (k : Fin 640), X (ix2 b k)
      = if k.val < 625 then Cert.Spec.feats feat (Cert.Spec.wOf (m ((c.tc : Thread nD τ).loc main_arg1)))
          (Cert.Spec.wOf (m ((c.tc : Thread nD τ).loc main_arg2))) (Cert.Spec.xOf (m ((c.tc : Thread nD τ).loc main_arg0)))
          (k.val / 25) b.val (k.val % 25) else 0)
    (hW : ∀ (k : Fin 640) (n : Fin 256), Wt (ix2 k n)
      = if k.val < 625 then Cert.Spec.fwOf (m ((c.tc : Thread nD τ).loc main_arg3)) (k.val / 25) (k.val % 25) n.val else 0)
    (t' : ℕ) (ht : t' < 32) :
    (matmul (F := Ideal) (φ₁ := .f32) (φ₂ := .f32) dot_S256x640_S640x256_S256x256_1_0_0_1_n_n none (rows256 X t') Wt (constant (F := Ideal) S256x256 .f32 0x00000000#32)
        : S256x256.Idx → EReal)
      = Cert.Spec.hidden (Cert.Spec.fwOf (m ((c.tc : Thread nD τ).loc main_arg3)))
          (Cert.Spec.feats feat (Cert.Spec.wOf (m ((c.tc : Thread nD τ).loc main_arg1)))
            (Cert.Spec.wOf (m ((c.tc : Thread nD τ).loc main_arg2))) (Cert.Spec.xOf (m ((c.tc : Thread nD τ).loc main_arg0)))) t' := by
  funext i
  obtain ⟨r, n, rfl⟩ : ∃ (r : Fin 256) (n : Fin 256), i = ix2 r n := ⟨i 0, i 1, eq_ix2 i⟩
  have hr : 256 * t' + r.val < 8192 := by have := r.isLt; omega
  have hrow : ∀ k : Fin 640, rows256 X t' (ix2 r k) = X (ix2 (⟨256 * t' + r.val, hr⟩ : Fin 8192) k) := fun k => by
    unfold rows256
    exact dif_pos hr
  rw [Cert.KI.MlpValue.fc1_apply_of_zero_cols (rows256 X t') Wt r n (fun k hk => by
    rw [hrow k, hX, if_neg (by omega)])]
  show _ = Cert.Spec.fc1 _ _ (256 * t' + r.val) n.val
  unfold Cert.Spec.fc1
  refine Finset.sum_congr rfl fun g _ => Finset.sum_congr rfl fun s _ => ?_
  have hg : g.val < 25 := g.isLt
  have hs : s.val < 25 := s.isLt
  rw [hrow, hX, hW, if_pos (by show g.val * 25 + s.val < 625; omega), if_pos (by show g.val * 25 + s.val < 625; omega)]
  show Cert.Spec.feats feat _ _ _ ((g.val * 25 + s.val) / 25) (256 * t' + r.val) ((g.val * 25 + s.val) % 25)
      * Cert.Spec.fwOf _ ((g.val * 25 + s.val) / 25) ((g.val * 25 + s.val) % 25) n.val = _
  rw [show (g.val * 25 + s.val) / 25 = g.val from by omega, show (g.val * 25 + s.val) % 25 = s.val from by omega]

/-- Region 2's output array, entry by entry: row B is the dense head after its first product, on the first dense
    layer's pre-activation of block B / 256, read at row B % 256. -/
theorem o13_apply (c : Dev nD) (B : Fin 8192) (n : Fin 128) :
    o13 m c (ix2 B n)
      = Cert.KI.MlpValue.afterFc1
          (Cert.Spec.hidden (Cert.Spec.fwOf (m ((c.tc : Thread nD τ).loc main_arg3)))
            (Cert.Spec.feats Cert.Feat.feat (Cert.Spec.wOf (m ((c.tc : Thread nD τ).loc main_arg1)))
              (Cert.Spec.wOf (m ((c.tc : Thread nD τ).loc main_arg2))) (Cert.Spec.xOf (m ((c.tc : Thread nD τ).loc main_arg0))))
            (B.val / 256))
          (m ((c.tc : Thread nD τ).loc main_arg4)) (m ((c.tc : Thread nD τ).loc main_arg5)) (m ((c.tc : Thread nD τ).loc main_arg6))
          (ix2 (⟨B.val % 256, Nat.mod_lt _ (by decide)⟩ : Fin 256) n) := by
  have e := congrFun (arr2_eq (Vr (V12 m (outs6 m))) (fun _ => fullShare) c) (ix2 B n)
  refine e.trans ?_
  show k2_pay1 (F := Ideal) (rows256 (V12 m (outs6 m) c main_v25) (B.val / 256)) (V12 m (outs6 m) c main_v24)
      (V12 m (outs6 m) c main_arg4) (V12 m (outs6 m) c main_arg5) (V12 m (outs6 m) c main_arg6)
      (ix2 (⟨B.val % 256, Nat.mod_lt _ (by decide)⟩ : Fin 256) n) = _
  rw [Cert.KI.MlpValue.k2_pay1_eq, V12_arg4, V12_arg5, V12_arg6,
    fc1_block m Cert.Feat.feat c _ _ (V25_apply m Cert.Feat.feat c (o6_act m c)) (V24_apply m c) (B.val / 256)
      (by have := B.isLt; omega)]

set_option maxRecDepth 200000 in
/-- The last host stretch: the result is the first three columns of region 2's output array. -/
theorem stretch3_v27 (W0 : Valuation τ sig (Elt Ideal)) (A : S8192x128.Idx → EReal) :
    (StableHlo.after hostOps3 (Function.update W0 main_v26 A) (Proc.devRef .tc main_v27) : S8192x3.Idx → EReal)
      = extractStridedSlice S8192x3 ![0, 0] A slices_S8192x128_S8192x3_0_0 := by
  after_results
  rfl

/-- THE KERNEL PROGRAM'S RESULT, entry by entry. -/
theorem result_spec (c : Dev nD) (B : Fin 8192) (j : Fin 3) :
    (V14 m (outs m) c main_v27 : S8192x3.Idx → EReal) (ix2 B j)
      = Cert.KI.MlpValue.afterFc1
          (Cert.Spec.hidden (Cert.Spec.fwOf (m ((c.tc : Thread nD τ).loc main_arg3)))
            (Cert.Spec.feats Cert.Feat.feat (Cert.Spec.wOf (m ((c.tc : Thread nD τ).loc main_arg1)))
              (Cert.Spec.wOf (m ((c.tc : Thread nD τ).loc main_arg2))) (Cert.Spec.xOf (m ((c.tc : Thread nD τ).loc main_arg0))))
            (B.val / 256))
          (m ((c.tc : Thread nD τ).loc main_arg4)) (m ((c.tc : Thread nD τ).loc main_arg5)) (m ((c.tc : Thread nD τ).loc main_arg6))
          (ix2 (⟨B.val % 256, Nat.mod_lt _ (by decide)⟩ : Fin 256) (⟨j.val, by omega⟩ : Fin 128)) := by
  have e : (V14 m (outs m) c main_v27 : S8192x3.Idx → EReal)
      = extractStridedSlice S8192x3 ![0, 0] (o13 m c : S8192x128.Idx → EReal) slices_S8192x128_S8192x3_0_0 := by
    show StableHlo.after hostOps3 (Function.update (V12 m (outs m) c) main_v26 (outs m 13 main_v26 c)) (Proc.devRef .tc main_v27) = _
    rw [outs_v26]
    exact stretch3_v27 (V12 m (outs m) c) (o13 m c)
  rw [e, extractStridedSlice_apply ![0, 0] _ slices_S8192x128_S8192x3_0_0 (ix2 B j) (ix2 B (⟨j.val, by omega⟩ : Fin 128)) (by
    intro a; fin_cases a <;> simp [ix2])]
  exact o13_apply m c B ⟨j.val, by omega⟩

end Cert.KernelIdeal.Val

end
-- ==== Proof.RI.MlpTail.lean ====
/-
  The reference's MLP head after its first layer is the kernel's: the same operations in the same order — the bias and the
  clip at zero, the second product and its bias, the log-softmax over the first three columns with the other columns set
  to zero — applied to the first layer's fully accumulated product. So the head is carried as one function of that
  product and is never opened.
-/
import proofs.«125140_g2000505823476311_pallasbulk_1268_6_alg».proof.Proof.Gen.ReferenceIdeal.Skeleton
import proofs.«125140_g2000505823476311_pallasbulk_1268_6_alg».proof.Proof.KI.MlpValue

noncomputable section

namespace Cert.ReferenceIdeal.Val

open Idealize.ShloMosaic Idealize.ShloMosaic.ValueIdx Cert.ReferenceIdeal Cert.ReferenceIdeal.Gen

/-- The first layer's running sum `v136` with the last two groups' products added: the full first layer. -/
def fc1_last (v136 : FVec Ideal S256x256 .f32) (v137 : Vec Ideal S1x256x25 .f32) (v139 : Vec Ideal S1x25x256 .f32)
    (v143 : Vec Ideal S1x256x25 .f32) (v145 : Vec Ideal S1x25x256 .f32) : FVec Ideal S256x256 .f32 :=
  have v138 : FVec Ideal S256x25 .f32 := shapeCast S256x25 v137 shapeCasts_S1x256x25_S256x25
  have v140 : FVec Ideal S25x256 .f32 := shapeCast S25x256 v139 shapeCasts_S1x25x256_S25x256
  have cst_142 : FVec Ideal S256x256 .f32 := constant S256x256 .f32 0x00000000#32
  have v141 : FVec Ideal S256x256 .f32 := matmul dot_S256x25_S25x256_S256x256_1_0_0_1_n_n none v138 v140 cst_142
  have v142 : FVec Ideal S256x256 .f32 := addf v136 v141
  have v144 : FVec Ideal S256x25 .f32 := shapeCast S256x25 v143 shapeCasts_S1x256x25_S256x25
  have v146 : FVec Ideal S25x256 .f32 := shapeCast S25x256 v145 shapeCasts_S1x25x256_S25x256
  have cst_148 : FVec Ideal S256x256 .f32 := constant S256x256 .f32 0x00000000#32
  have v147 : FVec Ideal S256x256 .f32 := matmul dot_S256x25_S25x256_S256x256_1_0_0_1_n_n none v144 v146 cst_148
  have v148 : FVec Ideal S256x256 .f32 := addf v142 v147
  v148

/-- The value the reference's MLP body stores is the kernel's head applied to the full first layer. -/
theorem stored_eq (v136 : FVec Ideal S256x256 .f32) (v137 : Vec Ideal S1x256x25 .f32) (v139 : Vec Ideal S1x25x256 .f32)
    (v143 : Vec Ideal S1x256x25 .f32) (v145 : Vec Ideal S1x25x256 .f32) (v149 : Vec Ideal S1x256 .f32)
    (v154 : Vec Ideal S256x128 .f32) (v156 : Vec Ideal S1x128 .f32) :
    k2_pay1 (F := Ideal) (k2_pay11 v136 v137 v139 v143 v145 v149 v154 v156) k2_pay12
        (k2_pay13 v136 v137 v139 v143 v145 v149 v154 v156) (k2_pay14 v136 v137 v139 v143 v145 v149 v154 v156)
      = Cert.KI.MlpValue.afterFc1 (fc1_last v136 v137 v139 v143 v145) v149 v154 v156 := by
  unfold k2_pay1 k2_pay14 k2_pay13 k2_pay12 k2_pay11 Cert.KI.MlpValue.afterFc1 fc1_last
  rfl

end Cert.ReferenceIdeal.Val

end
-- ==== Proof.RI.MlpBlock.lean ====
/- The reference's MLP region, block by block. The body accumulates, from the first, the 25 products of a 256×25 slab of
  the feature block with a 25×256 slab of the first layer's weights, and hands the sum to the head (bias, clip at zero,
  second product and bias, log-softmax over the first three columns). Entry (r, n) of the accumulated sum is the sum over
  the 25 groups and the 25 positions of feature (g, r, s) times weight (g, s, n); the block the region leaves is the
  head applied to that sum and to the three other operands.
-/
import proofs.«125140_g2000505823476311_pallasbulk_1268_6_alg».proof.Proof.RI.Region2
import proofs.«125140_g2000505823476311_pallasbulk_1268_6_alg».proof.Proof.RI.MlpTail
import proofs.«125140_g2000505823476311_pallasbulk_1268_6_alg».proof.Proof.LibSumBlocks
import proofs.«125140_g2000505823476311_pallasbulk_1268_6_alg».proof.Proof.LibPlainProduct
import Idealize.ShloMosaic.Lib.ValueLayout
import Idealize.ShloMosaic.Lib.Pipeline.Value

set_option maxRecDepth 16384

noncomputable section

namespace Cert.ReferenceIdeal.Hand

open Idealize.ShloMosaic Idealize.ShloMosaic.TcCoe Idealize.ShloMosaic.Tactic Idealize.ShloMosaic.ValueIdx
open Cert.ReferenceIdeal Cert.ReferenceIdeal.Gen Cert.ReferenceIdeal.Val
open BigOperators

/-- A load through a whole memref whose raw contents read `X` reads `X` at the box's indices. -/
private theorem readAt_unread {F : FTy → Type} [FloatOps F] {sp : Space} {s : Shape} {e : EltTy} (m : Memref sig .tc sp s e) (h : m.IsWhole) (X : s.Idx → Elt F e) (B : LoadRect s) :
    m.view.readAt (Elt F) B (h.unread X) = fun j => X (B.idx j) := by
  funext j; show m.view.read (Elt F) (h.unread X) (B.idx j) = _; rw [h.read_unread]

/-- Slab g of the feature block, as a load of it reads. -/
abbrev xg (x0 : Vec Ideal S25x256x25 .f32) (g : Nat) (inb : ∀ a, (![g, 0, 0] : Fin 3 → Nat) a + S1x256x25.size a ≤ S25x256x25.size a) : Vec Ideal S1x256x25 .f32 :=
  fun j => x0 ((Rect.unit (s := S25x256x25) ![g, 0, 0] S1x256x25.size inb).toLoadRect.idx j)

/-- Slab g of the first layer's weights, as a load of it reads. -/
abbrev wg (x1 : Vec Ideal S25x25x256 .f32) (g : Nat) (inb : ∀ a, (![g, 0, 0] : Fin 3 → Nat) a + S1x25x256.size a ≤ S25x25x256.size a) : Vec Ideal S1x25x256 .f32 :=
  fun j => x1 ((Rect.unit (s := S25x25x256) ![g, 0, 0] S1x25x256.size inb).toLoadRect.idx j)

/-- A whole operand, as a load of all of it reads. -/
abbrev whole2 {S : Shape} (x : Vec Ideal S .f32) (inb : ∀ a, (fun _ => 0 : Fin S.rank → Nat) a + S.size a ≤ S.size a) : Vec Ideal S .f32 :=
  fun j => x ((Rect.unit (s := S) (fun _ => 0) S.size inb).toLoadRect.idx j)

/-- Entry (0, r, s) of the loaded feature slab is entry (g, r, s) of the block. -/
theorem xg_apply (x0 : Vec Ideal S25x256x25 .f32) (g : Nat) (hg : g < 25) (inb : ∀ a, (![g, 0, 0] : Fin 3 → Nat) a + S1x256x25.size a ≤ S25x256x25.size a)
    (r : Fin 256) (s : Fin 25) : xg x0 g inb (ix3 0 r s) = x0 (ix3 ⟨g, hg⟩ r s) := by
  show x0 _ = x0 _
  refine congrArg x0 (funext fun a => ?_)
  fin_cases a
  · exact Fin.ext (by show (![g, 0, 0] 0 : Nat) + 1 * (0 : Fin 1).val = g; simp)
  · exact Fin.ext (by show (![g, 0, 0] 1 : Nat) + 1 * r.val = r.val; simp)
  · exact Fin.ext (by show (![g, 0, 0] 2 : Nat) + 1 * s.val = s.val; simp)

/-- Entry (0, s, n) of the loaded weight slab is entry (g, s, n) of the weights. -/
theorem wg_apply (x1 : Vec Ideal S25x25x256 .f32) (g : Nat) (hg : g < 25) (inb : ∀ a, (![g, 0, 0] : Fin 3 → Nat) a + S1x25x256.size a ≤ S25x25x256.size a)
    (s : Fin 25) (n : Fin 256) : wg x1 g inb (ix3 0 s n) = x1 (ix3 ⟨g, hg⟩ s n) := by
  show x1 _ = x1 _
  refine congrArg x1 (funext fun a => ?_)
  fin_cases a
  · exact Fin.ext (by show (![g, 0, 0] 0 : Nat) + 1 * (0 : Fin 1).val = g; simp)
  · exact Fin.ext (by show (![g, 0, 0] 1 : Nat) + 1 * s.val = s.val; simp)
  · exact Fin.ext (by show (![g, 0, 0] 2 : Nat) + 1 * n.val = n.val; simp)

/-- One of the 25 products: a 256×25 slab (loaded as 1×256×25) times a 25×256 slab (loaded as 1×25×256), accumulated
    into zero, at entry (r, n) is the sum over the 25 positions. -/
theorem prod2_apply (x : FVec Ideal S1x256x25 .f32) (w : FVec Ideal S1x25x256 .f32) (hx : S1x256x25.ShapeCasts S256x25)
    (hw : S1x25x256.ShapeCasts S25x256) (r n : Fin 256) :
    matmul dot_S256x25_S25x256_S256x256_1_0_0_1_n_n none (shapeCast S256x25 x hx) (shapeCast S25x256 w hw)
        (constant S256x256 .f32 0x00000000#32) (ix2 r n)
      = ∑ s : Fin 25, x (ix3 0 r s) * w (ix3 0 s n) := by
  have hd : dot_S256x25_S25x256_S256x256_1_0_0_1_n_n = DotDims.plain 256 25 256 := rfl
  rw [hd]
  refine (Cert.LibPlainProduct.matmul_plain_zero_apply none (shapeCast S256x25 x hx) (shapeCast S25x256 w hw) r n).trans ?_
  refine Finset.sum_congr rfl fun s _ => ?_
  rw [shapeCast_1ab_ab_apply, shapeCast_1ab_ab_apply]

/-- The running sum after the first 23 groups, as the body's parts compose it. -/
def acc23 (x0 : Vec Ideal S25x256x25 .f32) (x1 : Vec Ideal S25x25x256 .f32) : FVec Ideal S256x256 .f32 :=
  k2_pay10 (F := Ideal)
    (k2_pay8 (F := Ideal)
      (k2_pay5 (F := Ideal)
        (k2_pay4 (F := Ideal)
          (k2_pay2 (F := Ideal) (xg x0 0 inb_S25x256x25_S1x256x25_0_0_0) (wg x1 0 inb_S25x25x256_S1x25x256_0_0_0) (xg x0 1 inb_S25x256x25_S1x256x25_1_0_0) (wg x1 1 inb_S25x25x256_S1x25x256_1_0_0) (xg x0 2 inb_S25x256x25_S1x256x25_2_0_0) (wg x1 2 inb_S25x25x256_S1x25x256_2_0_0) (xg x0 3 inb_S25x256x25_S1x256x25_3_0_0) (wg x1 3 inb_S25x25x256_S1x25x256_3_0_0))
          (k2_pay3 (F := Ideal) (xg x0 4 inb_S25x256x25_S1x256x25_4_0_0)) (wg x1 4 inb_S25x25x256_S1x25x256_4_0_0) (xg x0 5 inb_S25x256x25_S1x256x25_5_0_0) (wg x1 5 inb_S25x25x256_S1x25x256_5_0_0) (xg x0 6 inb_S25x256x25_S1x256x25_6_0_0) (wg x1 6 inb_S25x25x256_S1x25x256_6_0_0) (xg x0 7 inb_S25x256x25_S1x256x25_7_0_0) (wg x1 7 inb_S25x25x256_S1x25x256_7_0_0) (xg x0 8 inb_S25x256x25_S1x256x25_8_0_0) (wg x1 8 inb_S25x25x256_S1x25x256_8_0_0))
        (xg x0 9 inb_S25x256x25_S1x256x25_9_0_0) (wg x1 9 inb_S25x25x256_S1x25x256_9_0_0) (xg x0 10 inb_S25x256x25_S1x256x25_10_0_0) (wg x1 10 inb_S25x25x256_S1x25x256_10_0_0) (xg x0 11 inb_S25x256x25_S1x256x25_11_0_0) (wg x1 11 inb_S25x25x256_S1x25x256_11_0_0) (xg x0 12 inb_S25x256x25_S1x256x25_12_0_0) (wg x1 12 inb_S25x25x256_S1x25x256_12_0_0))
      (k2_pay6 (F := Ideal) (xg x0 13 inb_S25x256x25_S1x256x25_13_0_0)) (k2_pay7 (F := Ideal) (wg x1 13 inb_S25x25x256_S1x25x256_13_0_0)) (constant S256x256 .f32 0x00000000#32)
      (xg x0 14 inb_S25x256x25_S1x256x25_14_0_0) (wg x1 14 inb_S25x25x256_S1x25x256_14_0_0) (xg x0 15 inb_S25x256x25_S1x256x25_15_0_0) (wg x1 15 inb_S25x25x256_S1x25x256_15_0_0) (xg x0 16 inb_S25x256x25_S1x256x25_16_0_0) (wg x1 16 inb_S25x25x256_S1x25x256_16_0_0) (xg x0 17 inb_S25x256x25_S1x256x25_17_0_0) (wg x1 17 inb_S25x25x256_S1x25x256_17_0_0))
    (k2_pay9 (F := Ideal) (xg x0 18 inb_S25x256x25_S1x256x25_18_0_0)) (wg x1 18 inb_S25x25x256_S1x25x256_18_0_0) (xg x0 19 inb_S25x256x25_S1x256x25_19_0_0) (wg x1 19 inb_S25x25x256_S1x25x256_19_0_0) (xg x0 20 inb_S25x256x25_S1x256x25_20_0_0) (wg x1 20 inb_S25x25x256_S1x25x256_20_0_0) (xg x0 21 inb_S25x256x25_S1x256x25_21_0_0) (wg x1 21 inb_S25x25x256_S1x25x256_21_0_0) (xg x0 22 inb_S25x256x25_S1x256x25_22_0_0) (wg x1 22 inb_S25x25x256_S1x25x256_22_0_0)

/-- The first layer's fully accumulated product on the block. -/
def fc1Acc (x0 : Vec Ideal S25x256x25 .f32) (x1 : Vec Ideal S25x25x256 .f32) : FVec Ideal S256x256 .f32 :=
  fc1_last (acc23 x0 x1) (xg x0 23 inb_S25x256x25_S1x256x25_23_0_0) (wg x1 23 inb_S25x25x256_S1x25x256_23_0_0) (xg x0 24 inb_S25x256x25_S1x256x25_24_0_0) (wg x1 24 inb_S25x25x256_S1x25x256_24_0_0)

/-- The first layer's product on the block as a function of the block index: the sum over groups and positions. -/
def fc1Blk (x0 : Vec Ideal S25x256x25 .f32) (x1 : Vec Ideal S25x25x256 .f32) : FVec Ideal S256x256 .f32 :=
  fun i => ∑ g : Fin 25, ∑ s : Fin 25, x0 (ix3 g ⟨(i 0).val, idx2_lt0 (n0 := 256) (n1 := 256) i⟩ s) * x1 (ix3 g s ⟨(i 1).val, idx2_lt1 (n0 := 256) (n1 := 256) i⟩)

set_option maxHeartbeats 4000000 in
/-- The accumulated product is the sum over groups and positions, entry by entry. -/
theorem fc1Acc_apply (x0 : Vec Ideal S25x256x25 .f32) (x1 : Vec Ideal S25x25x256 .f32) (r n : Fin 256) :
    fc1Acc x0 x1 (ix2 r n) = ∑ g : Fin 25, ∑ s : Fin 25, x0 (ix3 g r s) * x1 (ix3 g s n) := by
  unfold fc1Acc fc1_last acc23 k2_pay10 k2_pay9 k2_pay8 k2_pay7 k2_pay6 k2_pay5 k2_pay4 k2_pay3 k2_pay2
  simp only [addf_apply, prod2_apply]
  rw [← Cert.Lib.SumBlocks.accum_25 (fun g : Fin 25 => ∑ s : Fin 25, x0 (ix3 g r s) * x1 (ix3 g s n))]
  rw [show (∑ s : Fin 25, xg x0 0 inb_S25x256x25_S1x256x25_0_0_0 (ix3 0 r s) * wg x1 0 inb_S25x25x256_S1x25x256_0_0_0 (ix3 0 s n)) = ∑ s : Fin 25, x0 (ix3 (0 : Fin 25) r s) * x1 (ix3 (0 : Fin 25) s n) from
    Finset.sum_congr rfl fun s _ => by rw [xg_apply x0 0 (by decide), wg_apply x1 0 (by decide)]; rfl]
  rw [show (∑ s : Fin 25, xg x0 1 inb_S25x256x25_S1x256x25_1_0_0 (ix3 0 r s) * wg x1 1 inb_S25x25x256_S1x25x256_1_0_0 (ix3 0 s n)) = ∑ s : Fin 25, x0 (ix3 (1 : Fin 25) r s) * x1 (ix3 (1 : Fin 25) s n) from
    Finset.sum_congr rfl fun s _ => by rw [xg_apply x0 1 (by decide), wg_apply x1 1 (by decide)]; rfl]
  rw [show (∑ s : Fin 25, xg x0 2 inb_S25x256x25_S1x256x25_2_0_0 (ix3 0 r s) * wg x1 2 inb_S25x25x256_S1x25x256_2_0_0 (ix3 0 s n)) = ∑ s : Fin 25, x0 (ix3 (2 : Fin 25) r s) * x1 (ix3 (2 : Fin 25) s n) from
    Finset.sum_congr rfl fun s _ => by rw [xg_apply x0 2 (by decide), wg_apply x1 2 (by decide)]; rfl]
  rw [show (∑ s : Fin 25, xg x0 3 inb_S25x256x25_S1x256x25_3_0_0 (ix3 0 r s) * wg x1 3 inb_S25x25x256_S1x25x256_3_0_0 (ix3 0 s n)) = ∑ s : Fin 25, x0 (ix3 (3 : Fin 25) r s) * x1 (ix3 (3 : Fin 25) s n) from
    Finset.sum_congr rfl fun s _ => by rw [xg_apply x0 3 (by decide), wg_apply x1 3 (by decide)]; rfl]
  rw [show (∑ s : Fin 25, xg x0 4 inb_S25x256x25_S1x256x25_4_0_0 (ix3 0 r s) * wg x1 4 inb_S25x25x256_S1x25x256_4_0_0 (ix3 0 s n)) = ∑ s : Fin 25, x0 (ix3 (4 : Fin 25) r s) * x1 (ix3 (4 : Fin 25) s n) from
    Finset.sum_congr rfl fun s _ => by rw [xg_apply x0 4 (by decide), wg_apply x1 4 (by decide)]; rfl]
  rw [show (∑ s : Fin 25, xg x0 5 inb_S25x256x25_S1x256x25_5_0_0 (ix3 0 r s) * wg x1 5 inb_S25x25x256_S1x25x256_5_0_0 (ix3 0 s n)) = ∑ s : Fin 25, x0 (ix3 (5 : Fin 25) r s) * x1 (ix3 (5 : Fin 25) s n) from
    Finset.sum_congr rfl fun s _ => by rw [xg_apply x0 5 (by decide), wg_apply x1 5 (by decide)]; rfl]
  rw [show (∑ s : Fin 25, xg x0 6 inb_S25x256x25_S1x256x25_6_0_0 (ix3 0 r s) * wg x1 6 inb_S25x25x256_S1x25x256_6_0_0 (ix3 0 s n)) = ∑ s : Fin 25, x0 (ix3 (6 : Fin 25) r s) * x1 (ix3 (6 : Fin 25) s n) from
    Finset.sum_congr rfl fun s _ => by rw [xg_apply x0 6 (by decide), wg_apply x1 6 (by decide)]; rfl]
  rw [show (∑ s : Fin 25, xg x0 7 inb_S25x256x25_S1x256x25_7_0_0 (ix3 0 r s) * wg x1 7 inb_S25x25x256_S1x25x256_7_0_0 (ix3 0 s n)) = ∑ s : Fin 25, x0 (ix3 (7 : Fin 25) r s) * x1 (ix3 (7 : Fin 25) s n) from
    Finset.sum_congr rfl fun s _ => by rw [xg_apply x0 7 (by decide), wg_apply x1 7 (by decide)]; rfl]
  rw [show (∑ s : Fin 25, xg x0 8 inb_S25x256x25_S1x256x25_8_0_0 (ix3 0 r s) * wg x1 8 inb_S25x25x256_S1x25x256_8_0_0 (ix3 0 s n)) = ∑ s : Fin 25, x0 (ix3 (8 : Fin 25) r s) * x1 (ix3 (8 : Fin 25) s n) from
    Finset.sum_congr rfl fun s _ => by rw [xg_apply x0 8 (by decide), wg_apply x1 8 (by decide)]; rfl]
  rw [show (∑ s : Fin 25, xg x0 9 inb_S25x256x25_S1x256x25_9_0_0 (ix3 0 r s) * wg x1 9 inb_S25x25x256_S1x25x256_9_0_0 (ix3 0 s n)) = ∑ s : Fin 25, x0 (ix3 (9 : Fin 25) r s) * x1 (ix3 (9 : Fin 25) s n) from
    Finset.sum_congr rfl fun s _ => by rw [xg_apply x0 9 (by decide), wg_apply x1 9 (by decide)]; rfl]
  rw [show (∑ s : Fin 25, xg x0 10 inb_S25x256x25_S1x256x25_10_0_0 (ix3 0 r s) * wg x1 10 inb_S25x25x256_S1x25x256_10_0_0 (ix3 0 s n)) = ∑ s : Fin 25, x0 (ix3 (10 : Fin 25) r s) * x1 (ix3 (10 : Fin 25) s n) from
    Finset.sum_congr rfl fun s _ => by rw [xg_apply x0 10 (by decide), wg_apply x1 10 (by decide)]; rfl]
  rw [show (∑ s : Fin 25, xg x0 11 inb_S25x256x25_S1x256x25_11_0_0 (ix3 0 r s) * wg x1 11 inb_S25x25x256_S1x25x256_11_0_0 (ix3 0 s n)) = ∑ s : Fin 25, x0 (ix3 (11 : Fin 25) r s) * x1 (ix3 (11 : Fin 25) s n) from
    Finset.sum_congr rfl fun s _ => by rw [xg_apply x0 11 (by decide), wg_apply x1 11 (by decide)]; rfl]
  rw [show (∑ s : Fin 25, xg x0 12 inb_S25x256x25_S1x256x25_12_0_0 (ix3 0 r s) * wg x1 12 inb_S25x25x256_S1x25x256_12_0_0 (ix3 0 s n)) = ∑ s : Fin 25, x0 (ix3 (12 : Fin 25) r s) * x1 (ix3 (12 : Fin 25) s n) from
    Finset.sum_congr rfl fun s _ => by rw [xg_apply x0 12 (by decide), wg_apply x1 12 (by decide)]; rfl]
  rw [show (∑ s : Fin 25, xg x0 13 inb_S25x256x25_S1x256x25_13_0_0 (ix3 0 r s) * wg x1 13 inb_S25x25x256_S1x25x256_13_0_0 (ix3 0 s n)) = ∑ s : Fin 25, x0 (ix3 (13 : Fin 25) r s) * x1 (ix3 (13 : Fin 25) s n) from
    Finset.sum_congr rfl fun s _ => by rw [xg_apply x0 13 (by decide), wg_apply x1 13 (by decide)]; rfl]
  rw [show (∑ s : Fin 25, xg x0 14 inb_S25x256x25_S1x256x25_14_0_0 (ix3 0 r s) * wg x1 14 inb_S25x25x256_S1x25x256_14_0_0 (ix3 0 s n)) = ∑ s : Fin 25, x0 (ix3 (14 : Fin 25) r s) * x1 (ix3 (14 : Fin 25) s n) from
    Finset.sum_congr rfl fun s _ => by rw [xg_apply x0 14 (by decide), wg_apply x1 14 (by decide)]; rfl]
  rw [show (∑ s : Fin 25, xg x0 15 inb_S25x256x25_S1x256x25_15_0_0 (ix3 0 r s) * wg x1 15 inb_S25x25x256_S1x25x256_15_0_0 (ix3 0 s n)) = ∑ s : Fin 25, x0 (ix3 (15 : Fin 25) r s) * x1 (ix3 (15 : Fin 25) s n) from
    Finset.sum_congr rfl fun s _ => by rw [xg_apply x0 15 (by decide), wg_apply x1 15 (by decide)]; rfl]
  rw [show (∑ s : Fin 25, xg x0 16 inb_S25x256x25_S1x256x25_16_0_0 (ix3 0 r s) * wg x1 16 inb_S25x25x256_S1x25x256_16_0_0 (ix3 0 s n)) = ∑ s : Fin 25, x0 (ix3 (16 : Fin 25) r s) * x1 (ix3 (16 : Fin 25) s n) from
    Finset.sum_congr rfl fun s _ => by rw [xg_apply x0 16 (by decide), wg_apply x1 16 (by decide)]; rfl]
  rw [show (∑ s : Fin 25, xg x0 17 inb_S25x256x25_S1x256x25_17_0_0 (ix3 0 r s) * wg x1 17 inb_S25x25x256_S1x25x256_17_0_0 (ix3 0 s n)) = ∑ s : Fin 25, x0 (ix3 (17 : Fin 25) r s) * x1 (ix3 (17 : Fin 25) s n) from
    Finset.sum_congr rfl fun s _ => by rw [xg_apply x0 17 (by decide), wg_apply x1 17 (by decide)]; rfl]
  rw [show (∑ s : Fin 25, xg x0 18 inb_S25x256x25_S1x256x25_18_0_0 (ix3 0 r s) * wg x1 18 inb_S25x25x256_S1x25x256_18_0_0 (ix3 0 s n)) = ∑ s : Fin 25, x0 (ix3 (18 : Fin 25) r s) * x1 (ix3 (18 : Fin 25) s n) from
    Finset.sum_congr rfl fun s _ => by rw [xg_apply x0 18 (by decide), wg_apply x1 18 (by decide)]; rfl]
  rw [show (∑ s : Fin 25, xg x0 19 inb_S25x256x25_S1x256x25_19_0_0 (ix3 0 r s) * wg x1 19 inb_S25x25x256_S1x25x256_19_0_0 (ix3 0 s n)) = ∑ s : Fin 25, x0 (ix3 (19 : Fin 25) r s) * x1 (ix3 (19 : Fin 25) s n) from
    Finset.sum_congr rfl fun s _ => by rw [xg_apply x0 19 (by decide), wg_apply x1 19 (by decide)]; rfl]
  rw [show (∑ s : Fin 25, xg x0 20 inb_S25x256x25_S1x256x25_20_0_0 (ix3 0 r s) * wg x1 20 inb_S25x25x256_S1x25x256_20_0_0 (ix3 0 s n)) = ∑ s : Fin 25, x0 (ix3 (20 : Fin 25) r s) * x1 (ix3 (20 : Fin 25) s n) from
    Finset.sum_congr rfl fun s _ => by rw [xg_apply x0 20 (by decide), wg_apply x1 20 (by decide)]; rfl]
  rw [show (∑ s : Fin 25, xg x0 21 inb_S25x256x25_S1x256x25_21_0_0 (ix3 0 r s) * wg x1 21 inb_S25x25x256_S1x25x256_21_0_0 (ix3 0 s n)) = ∑ s : Fin 25, x0 (ix3 (21 : Fin 25) r s) * x1 (ix3 (21 : Fin 25) s n) from
    Finset.sum_congr rfl fun s _ => by rw [xg_apply x0 21 (by decide), wg_apply x1 21 (by decide)]; rfl]
  rw [show (∑ s : Fin 25, xg x0 22 inb_S25x256x25_S1x256x25_22_0_0 (ix3 0 r s) * wg x1 22 inb_S25x25x256_S1x25x256_22_0_0 (ix3 0 s n)) = ∑ s : Fin 25, x0 (ix3 (22 : Fin 25) r s) * x1 (ix3 (22 : Fin 25) s n) from
    Finset.sum_congr rfl fun s _ => by rw [xg_apply x0 22 (by decide), wg_apply x1 22 (by decide)]; rfl]
  rw [show (∑ s : Fin 25, xg x0 23 inb_S25x256x25_S1x256x25_23_0_0 (ix3 0 r s) * wg x1 23 inb_S25x25x256_S1x25x256_23_0_0 (ix3 0 s n)) = ∑ s : Fin 25, x0 (ix3 (23 : Fin 25) r s) * x1 (ix3 (23 : Fin 25) s n) from
    Finset.sum_congr rfl fun s _ => by rw [xg_apply x0 23 (by decide), wg_apply x1 23 (by decide)]; rfl]
  rw [show (∑ s : Fin 25, xg x0 24 inb_S25x256x25_S1x256x25_24_0_0 (ix3 0 r s) * wg x1 24 inb_S25x25x256_S1x25x256_24_0_0 (ix3 0 s n)) = ∑ s : Fin 25, x0 (ix3 (24 : Fin 25) r s) * x1 (ix3 (24 : Fin 25) s n) from
    Finset.sum_congr rfl fun s _ => by rw [xg_apply x0 24 (by decide), wg_apply x1 24 (by decide)]; rfl]

/-- As functions of the block index. -/
theorem fc1Acc_eq (x0 : Vec Ideal S25x256x25 .f32) (x1 : Vec Ideal S25x25x256 .f32) : fc1Acc x0 x1 = fc1Blk x0 x1 := by
  funext i
  rw [eq_ix2 i]
  exact fc1Acc_apply x0 x1 (i 0) (i 1)

/-- A load of all of an operand reads the operand. -/
theorem whole2_eq {S : Shape} (x : Vec Ideal S .f32) (inb : ∀ a, (fun _ => 0 : Fin S.rank → Nat) a + S.size a ≤ S.size a) : whole2 x inb = x := by
  funext j
  show x _ = x j
  refine congrArg x (funext fun a => Fin.ext ?_)
  show 0 + 1 * (j a).val = (j a).val
  omega

set_option maxHeartbeats 4000000 in
/-- The one piece of the region's run: the whole-block store of the head applied to the accumulated product. -/
theorem pieces2_closed (x0 : Vec Ideal S25x256x25 .f32) (x1 : Vec Ideal S25x25x256 .f32) (x2 : Vec Ideal S1x256 .f32)
    (x3 : Vec Ideal S256x128 .f32) (x4 : Vec Ideal S1x128 .f32) :
    pieces2 (F := Ideal) x0 x1 x2 x3 x4 = [⟨Rect.unit (s := S256x128) ![0, 0] S256x128.size inb_S256x128_S256x128_0_0,
      Cert.KI.MlpValue.afterFc1 (fc1Acc x0 x1)
        (fun j => x2 ((Rect.unit (s := S1x256) ![0, 0] S1x256.size inb_S1x256_S1x256_0_0).toLoadRect.idx j))
        (fun j => x3 ((Rect.unit (s := S256x128) ![0, 0] S256x128.size inb_S256x128_S256x128_0_0).toLoadRect.idx j))
        (fun j => x4 ((Rect.unit (s := S1x128) ![0, 0] S1x128.size inb_S1x128_S1x128_0_0).toLoadRect.idx j))⟩] := by
  unfold pieces2 kernelRun2; dsimp only
  sl_unfold_run_names
  sl_unfold_run_names
  simp only [readAt_unread]
  rw [stored_eq]
  rfl

/-- The block the region leaves: the head applied to the first layer's product on the block and to the other operands. -/
theorem out2_5_eq (x0 : Vec Ideal S25x256x25 .f32) (x1 : Vec Ideal S25x25x256 .f32) (x2 : Vec Ideal S1x256 .f32)
    (x3 : Vec Ideal S256x128 .f32) (x4 : Vec Ideal S1x128 .f32) :
    out2_5 x0 x1 x2 x3 x4 = Cert.KI.MlpValue.afterFc1 (fc1Blk x0 x1) x2 x3 x4 := by
  have h2 : (fun j => x2 ((Rect.unit (s := S1x256) ![0, 0] S1x256.size inb_S1x256_S1x256_0_0).toLoadRect.idx j)) = x2 :=
    View.ld_unit_zero (by funext a; fin_cases a <;> rfl) inb_S1x256_S1x256_0_0 x2
  have h3 : (fun j => x3 ((Rect.unit (s := S256x128) ![0, 0] S256x128.size inb_S256x128_S256x128_0_0).toLoadRect.idx j)) = x3 :=
    View.ld_unit_zero (by funext a; fin_cases a <;> rfl) inb_S256x128_S256x128_0_0 x3
  have h4 : (fun j => x4 ((Rect.unit (s := S1x128) ![0, 0] S1x128.size inb_S1x128_S1x128_0_0).toLoadRect.idx j)) = x4 :=
    View.ld_unit_zero (by funext a; fin_cases a <;> rfl) inb_S1x128_S1x128_0_0 x4
  unfold out2_5
  rw [pieces2_closed, View.canon_unit_zero (by funext a; fin_cases a <;> rfl), fc1Acc_eq]
  exact congr (congr (congrArg (Cert.KI.MlpValue.afterFc1 (fc1Blk x0 x1)) h2) h3) h4

end Cert.ReferenceIdeal.Hand

end
-- ==== Proof.RI.Val8.lean ====
/-
  The reference's program from its MLP region to its result, entry by entry. Point t of the region's grid reads rows
  [256 t, 256 t + 256) of the 25 × 8192 × 25 feature array and the whole of the four other operands, and writes rows
  [256 t, 256 t + 256) of the output array: the head applied to the first layer's product on that block of rows. So row B
  of the output array is the head applied to the first layer's pre-activation of the block B / 256 of the samples, read at
  row B % 256; and the program's result is the output array's first three columns.
-/
import proofs.«125140_g2000505823476311_pallasbulk_1268_6_alg».proof.Proof.RI.Run
import proofs.«125140_g2000505823476311_pallasbulk_1268_6_alg».proof.Proof.RI.MlpBlock
import proofs.«125140_g2000505823476311_pallasbulk_1268_6_alg».proof.Proof.Spec
import proofs.«125140_g2000505823476311_pallasbulk_1268_6_alg».proof.Proof.FeatValue
import Idealize.ShloMosaic.Lib.KernelVsHost
import Idealize.ShloMosaic.Lib.Pipeline.Value
import Idealize.ShloMosaic.Lib.StableHlo
import Idealize.ShloMosaic.Lib.ValueIdx
import Idealize.ShloMosaic.PureOps.Ideal

set_option maxRecDepth 16384

noncomputable section

namespace Cert.ReferenceIdeal.Val

open Idealize.ShloMosaic Idealize.ShloMosaic.TcCoe Idealize.ShloMosaic.ValueIdx
open Idealize.SL Idealize.SL.RA Idealize.SL.Sem
open Idealize.ShloMosaic.Pipeline (Dat)
open Cert.ReferenceIdeal Cert.ReferenceIdeal.Gen Cert.ReferenceIdeal.Hand
open BigOperators

section Region

variable (V : (c : Dev nD) → (b : Ref sig .tc) → Buf (Elt Ideal) ((c : Thread nD τ).loc b))

/-- Rows [256 t', 256 t' + 256) of the feature array, as a block (zero past the array's rows). -/
def xBlock (X : S25x8192x25.Idx → EReal) (t' : ℕ) : Vec Ideal S25x256x25 .f32 :=
  fun j => if h : 256 * t' + (j 1).val < 8192 then
    X (ix3 (⟨(j 0).val, (j 0).isLt⟩ : Fin 25) (⟨256 * t' + (j 1).val, h⟩ : Fin 8192) (⟨(j 2).val, (j 2).isLt⟩ : Fin 25)) else 0

/-- One entry of the region's output array: the head applied to the first layer's product on block t' of the rows, at
    row r of the block and column n. -/
def mlpEntry (X : S25x8192x25.Idx → EReal) (FW : S25x25x256.Idx → EReal) (b1 : S1x256.Idx → EReal) (W2 : S256x128.Idx → EReal)
    (b2 : S1x128.Idx → EReal) (t' : ℕ) (r : Fin 256) (n : Fin 128) : EReal :=
  Cert.KI.MlpValue.afterFc1 (fc1Blk (xBlock X t') FW) b1 W2 b2 (ix2 r n)

/-- The region's output array as one function of its five input arrays. -/
def mlpArr (X : S25x8192x25.Idx → EReal) (FW : S25x25x256.Idx → EReal) (b1 : S1x256.Idx → EReal) (W2 : S256x128.Idx → EReal)
    (b2 : S1x128.Idx → EReal) : S8192x128.Idx → EReal :=
  fun i => mlpEntry X FW b1 W2 b2 ((i 0).val / 256) (⟨(i 0).val % 256, Nat.mod_lt _ (by decide)⟩ : Fin 256) (⟨(i 1).val, (i 1).isLt⟩ : Fin 128)

/-- The printed index maps, decided over the grid: the feature array's block index is the point on the row axis, the four
    other operands' is zero, the output's is the point on the row axis. -/
theorem idx_facts2 : ∀ t : Fin cfg2.N, win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The feature array's block at point t is rows [256 t, 256 t + 256). -/
theorem rd2_0 (c : Dev nD) (t : Fin cfg2.N) : iblk2 V c 0 t = xBlock (V c main_v52) t.val := by
  obtain ⟨e0, e1, e2, -⟩ := idx_facts2 t
  have hN : t.val < 32 := lt_of_lt_of_eq t.isLt N_2
  funext j
  have hj1 : (j 1).val < 256 := (j 1).isLt
  have h : 256 * t.val + (j 1).val < 8192 := by omega
  refine Eq.trans ?_ (dif_pos h).symm
  show (V c main_v52 : S25x8192x25.Idx → EReal) (((cfg2.win 0).blk t).view.emb j) = _
  refine congrArg (V c main_v52 : S25x8192x25.Idx → EReal) (funext fun a => Fin.ext ?_)
  match a with
  | ⟨0, _⟩ => show win2_0.index t (0 : Fin 3) * 25 + 1 * (j 0).val = (j 0).val; omega
  | ⟨1, _⟩ => show win2_0.index t (1 : Fin 3) * 256 + 1 * (j 1).val = 256 * t.val + (j 1).val; omega
  | ⟨2, _⟩ => show win2_0.index t (2 : Fin 3) * 25 + 1 * (j 2).val = (j 2).val; omega

/-- The first layer's weights' block at any point is the whole array. -/
theorem rd2_1 (c : Dev nD) (t : Fin cfg2.N) : iblk2 V c 1 t = (V c main_arg3 : S25x25x256.Idx → EReal) := by
  obtain ⟨-, -, -, e0, e1, e2, -⟩ := idx_facts2 t
  funext y
  show (V c main_arg3 : S25x25x256.Idx → EReal) (((cfg2.win 1).blk t).view.emb y) = _
  refine congrArg (V c main_arg3 : S25x25x256.Idx → EReal) (funext fun a => Fin.ext ?_)
  match a with
  | ⟨0, _⟩ => show win2_1.index t (0 : Fin 3) * 25 + 1 * (y 0).val = (y 0).val; omega
  | ⟨1, _⟩ => show win2_1.index t (1 : Fin 3) * 25 + 1 * (y 1).val = (y 1).val; omega
  | ⟨2, _⟩ => show win2_1.index t (2 : Fin 3) * 256 + 1 * (y 2).val = (y 2).val; omega

/-- The first layer's bias' block at any point is the whole array. -/
theorem rd2_2 (c : Dev nD) (t : Fin cfg2.N) : iblk2 V c 2 t = (V c main_arg4 : S1x256.Idx → EReal) := by
  obtain ⟨-, -, -, -, -, -, e0, e1, -⟩ := idx_facts2 t
  funext y
  show (V c main_arg4 : S1x256.Idx → EReal) (((cfg2.win 2).blk t).view.emb y) = _
  refine congrArg (V c main_arg4 : S1x256.Idx → EReal) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- The second layer's weights' block at any point is the whole array. -/
theorem rd2_3 (c : Dev nD) (t : Fin cfg2.N) : iblk2 V c 3 t = (V c main_arg5 : S256x128.Idx → EReal) := by
  obtain ⟨-, -, -, -, -, -, -, -, e0, e1, -⟩ := idx_facts2 t
  funext y
  show (V c main_arg5 : S256x128.Idx → EReal) (((cfg2.win 3).blk t).view.emb y) = _
  refine congrArg (V c main_arg5 : S256x128.Idx → EReal) (funext fun a => Fin.ext ?_)
  match a with
  | ⟨0, _⟩ => show win2_3.index t (0 : Fin 2) * 256 + 1 * (y 0).val = (y 0).val; omega
  | ⟨1, _⟩ => show win2_3.index t (1 : Fin 2) * 128 + 1 * (y 1).val = (y 1).val; omega

/-- The second layer's bias' block at any point is the whole array. -/
theorem rd2_4 (c : Dev nD) (t : Fin cfg2.N) : iblk2 V c 4 t = (V c main_arg6 : S1x128.Idx → EReal) := by
  obtain ⟨-, -, -, -, -, -, -, -, -, -, e0, e1, -⟩ := idx_facts2 t
  funext y
  show (V c main_arg6 : S1x128.Idx → EReal) (((cfg2.win 4).blk t).view.emb y) = _
  refine congrArg (V c main_arg6 : S1x128.Idx → EReal) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point t writes back is block t of the one array function. -/
theorem flushed2_eq (c : Dev nD) (t : Fin cfg2.N) :
    (dat2 V c).flushed 5 t = ((cfg2.win 5).blk t).view.read (Elt Ideal)
      (mlpArr (V c main_v52) (V c main_arg3) (V c main_arg4) (V c main_arg5) (V c main_arg6)) := by
  show (cfg2.win 5).cut (grid2.coords t) ((dat2 V c).after 5 t) = _
  rw [after2_5]
  obtain ⟨-, -, -, -, -, -, -, -, -, -, -, -, e50, e51⟩ := idx_facts2 t
  have hN : t.val < 32 := lt_of_lt_of_eq t.isLt N_2
  funext j
  show out2_5 (iblk2 V c 0 t) (iblk2 V c 1 t) (iblk2 V c 2 t) (iblk2 V c 3 t) (iblk2 V c 4 t) j
    = mlpArr (V c main_v52) (V c main_arg3) (V c main_arg4) (V c main_arg5) (V c main_arg6) (((cfg2.win 5).blk t).view.emb j)
  have hj0 : (j 0).val < 256 := (j 0).isLt
  have hj1 : (j 1).val < 128 := (j 1).isLt
  have ea0 : ((((cfg2.win 5).blk t).view.emb j) 0).val = 256 * t.val + (j 0).val := by
    show win2_5.index t (0 : Fin 2) * 256 + 1 * (j 0).val = 256 * t.val + (j 0).val; omega
  have ea1 : ((((cfg2.win 5).blk t).view.emb j) 1).val = (j 1).val := by
    show win2_5.index t (1 : Fin 2) * 128 + 1 * (j 1).val = (j 1).val; omega
  rw [out2_5_eq, rd2_0, rd2_1, rd2_2, rd2_3, rd2_4]
  unfold mlpArr
  refine Eq.trans ?_ (congr (congr (congrArg (mlpEntry (V c main_v52) (V c main_arg3) (V c main_arg4) (V c main_arg5) (V c main_arg6))
    (show ((((cfg2.win 5).blk t).view.emb j) 0).val / 256 = t.val by rw [ea0]; omega))
    (Fin.ext (show ((((cfg2.win 5).blk t).view.emb j) 0).val % 256 = (j 0).val by rw [ea0]; omega) :
      (⟨((((cfg2.win 5).blk t).view.emb j) 0).val % 256, Nat.mod_lt _ (by decide)⟩ : Fin 256) = ⟨(j 0).val, hj0⟩))
    (Fin.ext ea1 : (⟨((((cfg2.win 5).blk t).view.emb j) 1).val, ((((cfg2.win 5).blk t).view.emb j) 1).isLt⟩ : Fin 128) = ⟨(j 1).val, hj1⟩)).symm
  unfold mlpEntry
  exact congrArg _ (eq_ix2 j)

/-- An index of the output array is in point t's block iff each coordinate is in the block's range on its axis. -/
theorem mem_blk2 (t : Fin cfg2.N) (i : S8192x128.Idx) :
    i ∈ ((cfg2.win 5).blk t).view.set ↔ ∀ a : Fin 2, win2_5.index t a * S256x128.size a ≤ (i a).val ∧ (i a).val < win2_5.index t a * S256x128.size a + S256x128.size a := by
  show i ∈ ((View.whole main_v53).slice (win2_5.rect t)).set ↔ _
  rw [View.set_slice_whole, Rect.mem_set_unit]
  exact Iff.rfl

/-- Every index of the output array is in some point's block: row B is written by point B / 256. -/
theorem cover2 (i : S8192x128.Idx) : ∃ t : Fin cfg2.N, (cfg2.win 5).flush t = true ∧ i ∈ ((cfg2.win 5).blk t).view.set := by
  have h0 : (i 0).val < 8192 := (i 0).isLt
  have h1 : (i 1).val < 128 := (i 1).isLt
  refine ⟨Fin.cast N_2.symm (⟨(i 0).val / 256, by omega⟩ : Fin 32), flush2_5 _, ?_⟩
  obtain ⟨-, -, -, -, -, -, -, -, -, -, -, -, e50, e51⟩ := idx_facts2 (Fin.cast N_2.symm (⟨(i 0).val / 256, by omega⟩ : Fin 32))
  have e50' : win2_5.index (Fin.cast N_2.symm (⟨(i 0).val / 256, by omega⟩ : Fin 32)) (0 : Fin 2) = (i 0).val / 256 := e50
  rw [mem_blk2]
  intro a
  match a with
  | ⟨0, _⟩ => show win2_5.index _ (0 : Fin 2) * 256 ≤ (i 0).val ∧ (i 0).val < win2_5.index _ (0 : Fin 2) * 256 + 256; omega
  | ⟨1, _⟩ => show win2_5.index _ (1 : Fin 2) * 128 ≤ (i 1).val ∧ (i 1).val < win2_5.index _ (1 : Fin 2) * 128 + 128; omega

/-- THE OUTPUT ARRAY after the region is the one array function of the region's five input arrays. -/
theorem arr2_eq (c : Dev nD) :
    (dat2 V c).arrAt 5 cfg2.N = mlpArr (V c main_v52) (V c main_arg3) (V c main_arg4) (V c main_arg5) (V c main_arg6) :=
  (dat2 V c).arrAt_eq_of_cover 5 (mlpArr (V c main_v52) (V c main_arg3) (V c main_arg4) (V c main_arg5) (V c main_arg6))
    (fun t _ => flushed2_eq V c t) cover2

end Region

section Result

variable (m : (ℓ : Loc nD τ sig) → Buf (Elt Ideal) ℓ)

/-- The head's operands reach region 2 as launched. -/
theorem V8_arg3 (c : Dev nD) : V8 m (outs6 m) c main_arg3 = m ((c.tc : Thread nD τ).loc main_arg3) :=
  (V9_of m (outs6 m) c main_arg3 (by decide)).symm.trans <| (V10_of m (outs6 m) c main_arg3 (by decide)).symm.trans <|
    V10_main_arg3 m (outs6 m) c
theorem V8_arg4 (c : Dev nD) : V8 m (outs6 m) c main_arg4 = m ((c.tc : Thread nD τ).loc main_arg4) :=
  (V9_of m (outs6 m) c main_arg4 (by decide)).symm.trans <| (V10_of m (outs6 m) c main_arg4 (by decide)).symm.trans <|
    V10_main_arg4 m (outs6 m) c
theorem V8_arg5 (c : Dev nD) : V8 m (outs6 m) c main_arg5 = m ((c.tc : Thread nD τ).loc main_arg5) :=
  (V9_of m (outs6 m) c main_arg5 (by decide)).symm.trans <| (V10_of m (outs6 m) c main_arg5 (by decide)).symm.trans <|
    V10_main_arg5 m (outs6 m) c
theorem V8_arg6 (c : Dev nD) : V8 m (outs6 m) c main_arg6 = m ((c.tc : Thread nD τ).loc main_arg6) :=
  (V9_of m (outs6 m) c main_arg6 (by decide)).symm.trans <| (V10_of m (outs6 m) c main_arg6 (by decide)).symm.trans <|
    V10_main_arg6 m (outs6 m) c

/-- The first layer's product on block t' of the feature array's rows is the first dense layer's pre-activation of the
    block's samples, when the feature array and the weights read as the functions `f` and `fw` on natural coordinates. -/
theorem fc1_block (X : S25x8192x25.Idx → EReal) (FW : S25x25x256.Idx → EReal) (f fw : ℕ → ℕ → ℕ → EReal)
    (hX : ∀ (g : Fin 25) (b : Fin 8192) (s : Fin 25), X (ix3 g b s) = f g.val b.val s.val)
    (hW : ∀ (g s : Fin 25) (n : Fin 256), FW (ix3 g s n) = fw g.val s.val n.val) (t' : ℕ) (ht : t' < 32) :
    fc1Blk (xBlock X t') FW = Cert.Spec.hidden fw f t' := by
  funext i
  have hi0 : (i 0).val < 256 := (i 0).isLt
  have h : 256 * t' + (i 0).val < 8192 := by omega
  unfold fc1Blk Cert.Spec.hidden Cert.Spec.fc1
  refine Finset.sum_congr rfl fun g _ => Finset.sum_congr rfl fun s _ => ?_
  have hx : xBlock X t' (ix3 g (⟨(i 0).val, idx2_lt0 (n0 := 256) (n1 := 256) i⟩ : Fin 256) s) = f g.val (256 * t' + (i 0).val) s.val :=
    (dif_pos h).trans (hX g ⟨256 * t' + (i 0).val, h⟩ s)
  rw [hx, hW]

/-- REGION 2's OUTPUT ARRAY, entry by entry: row B, column n is the head applied to the first dense layer's
    pre-activation of block B / 256 of the samples, at row B % 256 — given the feature array region 2 finds. -/
theorem o9_apply (c : Dev nD)
    (hf : ∀ (g : Fin 25) (b : Fin 8192) (s : Fin 25), (V8 m (outs6 m) c main_v52 : S25x8192x25.Idx → EReal) (ix3 g b s)
      = Cert.Spec.feats Cert.Feat.feat (Cert.Spec.wOf (m ((c.tc : Thread nD τ).loc main_arg1)))
          (Cert.Spec.wOf (m ((c.tc : Thread nD τ).loc main_arg2))) (Cert.Spec.xOf (m ((c.tc : Thread nD τ).loc main_arg0))) g b s)
    (B : Fin 8192) (n : Fin 128) :
    (o9 m c : S8192x128.Idx → EReal) (ix2 B n)
      = Cert.KI.MlpValue.afterFc1
          (Cert.Spec.hidden (Cert.Spec.fwOf (m ((c.tc : Thread nD τ).loc main_arg3)))
            (Cert.Spec.feats Cert.Feat.feat (Cert.Spec.wOf (m ((c.tc : Thread nD τ).loc main_arg1)))
              (Cert.Spec.wOf (m ((c.tc : Thread nD τ).loc main_arg2))) (Cert.Spec.xOf (m ((c.tc : Thread nD τ).loc main_arg0))))
            (B.val / 256))
          (m ((c.tc : Thread nD τ).loc main_arg4)) (m ((c.tc : Thread nD τ).loc main_arg5)) (m ((c.tc : Thread nD τ).loc main_arg6))
          (ix2 (⟨B.val % 256, Nat.mod_lt _ (by decide)⟩ : Fin 256) n) := by
  have e : (o9 m c : S8192x128.Idx → EReal)
      = mlpArr (V8 m (outs6 m) c main_v52) (V8 m (outs6 m) c main_arg3) (V8 m (outs6 m) c main_arg4)
          (V8 m (outs6 m) c main_arg5) (V8 m (outs6 m) c main_arg6) := arr2_eq (Vr (V8 m (outs6 m))) c
  rw [e]
  show mlpEntry (V8 m (outs6 m) c main_v52) (V8 m (outs6 m) c main_arg3) (V8 m (outs6 m) c main_arg4)
      (V8 m (outs6 m) c main_arg5) (V8 m (outs6 m) c main_arg6) (B.val / 256) (⟨B.val % 256, Nat.mod_lt _ (by decide)⟩ : Fin 256) n = _
  unfold mlpEntry
  have hW : ∀ (g s : Fin 25) (k : Fin 256), (V8 m (outs6 m) c main_arg3 : S25x25x256.Idx → EReal) (ix3 g s k)
      = Cert.Spec.fwOf (m ((c.tc : Thread nD τ).loc main_arg3)) g.val s.val k.val := by
    intro g s k
    rw [V8_arg3]
    unfold Cert.Spec.fwOf
    rw [dif_pos ⟨g.isLt, s.isLt, k.isLt⟩]
  rw [V8_arg4, V8_arg5, V8_arg6, fc1_block _ _ _ _ hf hW (B.val / 256) (by have := B.isLt; omega)]

set_option maxRecDepth 200000 in
/-- The last host stretch: the result is the first three columns of region 2's output array. -/
theorem stretch3_v54 (W0 : Valuation τ sig (Elt Ideal)) (A : S8192x128.Idx → EReal) :
    (StableHlo.after hostOps3 (Function.update W0 main_v53 A) (Proc.devRef .tc main_v54) : S8192x3.Idx → EReal)
      = extractStridedSlice S8192x3 ![0, 0] A slices_S8192x128_S8192x3_0_0 := by
  after_results
  rfl

/-- THE REFERENCE PROGRAM'S RESULT, entry by entry — given the feature array region 2 finds. -/
theorem result_spec (c : Dev nD)
    (hf : ∀ (g : Fin 25) (b : Fin 8192) (s : Fin 25), (V8 m (outs6 m) c main_v52 : S25x8192x25.Idx → EReal) (ix3 g b s)
      = Cert.Spec.feats Cert.Feat.feat (Cert.Spec.wOf (m ((c.tc : Thread nD τ).loc main_arg1)))
          (Cert.Spec.wOf (m ((c.tc : Thread nD τ).loc main_arg2))) (Cert.Spec.xOf (m ((c.tc : Thread nD τ).loc main_arg0))) g b s)
    (B : Fin 8192) (j : Fin 3) :
    (V10 m (outs m) c main_v54 : S8192x3.Idx → EReal) (ix2 B j)
      = Cert.KI.MlpValue.afterFc1
          (Cert.Spec.hidden (Cert.Spec.fwOf (m ((c.tc : Thread nD τ).loc main_arg3)))
            (Cert.Spec.feats Cert.Feat.feat (Cert.Spec.wOf (m ((c.tc : Thread nD τ).loc main_arg1)))
              (Cert.Spec.wOf (m ((c.tc : Thread nD τ).loc main_arg2))) (Cert.Spec.xOf (m ((c.tc : Thread nD τ).loc main_arg0))))
            (B.val / 256))
          (m ((c.tc : Thread nD τ).loc main_arg4)) (m ((c.tc : Thread nD τ).loc main_arg5)) (m ((c.tc : Thread nD τ).loc main_arg6))
          (ix2 (⟨B.val % 256, Nat.mod_lt _ (by decide)⟩ : Fin 256) (⟨j.val, by omega⟩ : Fin 128)) := by
  have e : (V10 m (outs m) c main_v54 : S8192x3.Idx → EReal)
      = extractStridedSlice S8192x3 ![0, 0] (o9 m c : S8192x128.Idx → EReal) slices_S8192x128_S8192x3_0_0 := by
    show StableHlo.after hostOps3 (Function.update (V8 m (outs m) c) main_v53 (outs m 9 main_v53 c)) (Proc.devRef .tc main_v54) = _
    rw [outs_v53]
    exact stretch3_v54 (V8 m (outs m) c) (o9 m c)
  rw [e, extractStridedSlice_apply ![0, 0] _ slices_S8192x128_S8192x3_0_0 (ix2 B j) (ix2 B (⟨j.val, by omega⟩ : Fin 128)) (by
    intro a; fin_cases a <;> simp [ix2])]
  exact o9_apply m c hf B ⟨j.val, by omega⟩

end Result

end Cert.ReferenceIdeal.Val

end
-- ==== Proof.RI.Val1.lean ====
/-
  The tap rows the first convolution region reads. The host stretch before the region cuts nine 26×26 windows out of every
  28×28 image — window t at row offset t / 3 and column offset t % 3 —, gives each a leading unit axis, stacks the nine
  along that axis, and flattens the stack to nine rows of 8192·26·26 lanes (the padding that follows adds nothing). So row t
  at lane q = (b·26 + i)·26 + j holds pixel (i + t / 3, j + t % 3) of image b.
-/
import proofs.«125140_g2000505823476311_pallasbulk_1268_6_alg».proof.Proof.Gen.ReferenceIdeal.Regions
import proofs.«125140_g2000505823476311_pallasbulk_1268_6_alg».proof.Proof.Spec
import Idealize.ShloMosaic.Lib.KernelVsHost
import Idealize.ShloMosaic.Lib.ValueLayout

noncomputable section
namespace Cert.ReferenceIdeal.Val
open Idealize.ShloMosaic Idealize.ShloMosaic.TcCoe Idealize.ShloMosaic.ValueIdx Cert.ReferenceIdeal Cert.ReferenceIdeal.Gen
open Idealize.ShloMosaic.StableHlo

theorem tapSlices : ∀ k : Fin 9, S8192x1x28x28.Slices ![0, 0, k.val / 3, k.val % 3] S8192x1x26x26 := by decide

def tapPlane (A : S8192x1x28x28.Idx → EReal) (k : Fin 9) : S1x8192x1x26x26.Idx → EReal :=
  broadcastInDim S1x8192x1x26x26 ![1, 2, 3, 4] bcast_S8192x1x26x26_S1x8192x1x26x26_1_2_3_4
    (extractStridedSlice S8192x1x26x26 ![0, 0, k.val / 3, k.val % 3] A (tapSlices k))

theorem tapPlane_apply (A : S8192x1x28x28.Idx → EReal) (k : Fin 9) (b : Fin 8192) (i j : Fin 26) :
    tapPlane A k (ix5 (0 : Fin 1) b (0 : Fin 1) i j)
      = A (ix4 b (0 : Fin 1) ⟨i.val + k.val / 3, by have := i.isLt; have := k.isLt; omega⟩
            ⟨j.val + k.val % 3, by have := j.isLt; have := k.isLt; omega⟩) := by
  unfold tapPlane
  refine (broadcastInDim_apply _ _ _ (ix5 (0 : Fin 1) b (0 : Fin 1) i j) (ix4 b (0 : Fin 1) i j) (fun a => ?_)).trans ?_
  · match a with
    | ⟨0, _⟩ => rfl
    | ⟨1, _⟩ => rfl
    | ⟨2, _⟩ => rfl
    | ⟨3, _⟩ => rfl
  refine extractStridedSlice_apply _ _ _ (ix4 b (0 : Fin 1) i j) _ (fun a => ?_)
  match a with
  | ⟨0, _⟩ => show b.val = 0 + b.val; omega
  | ⟨1, _⟩ => rfl
  | ⟨2, _⟩ => show i.val + k.val / 3 = k.val / 3 + i.val; omega
  | ⟨3, _⟩ => show j.val + k.val % 3 = k.val % 3 + j.val; omega

/-- nine unit slabs stacked along a new leading axis -/
theorem stack9_apply {α : Type}
    (h : Shape.Concatenates [S1x8192x1x26x26, S1x8192x1x26x26, S1x8192x1x26x26, S1x8192x1x26x26, S1x8192x1x26x26, S1x8192x1x26x26, S1x8192x1x26x26, S1x8192x1x26x26, S1x8192x1x26x26] S9x8192x1x26x26 0)
    (x : Fin 9 → (S1x8192x1x26x26.Idx → α)) (t : Fin 9) (b : Fin 8192) (i j : Fin 26) :
    concatenate S9x8192x1x26x26 0
        [⟨S1x8192x1x26x26, x 0⟩, ⟨S1x8192x1x26x26, x 1⟩, ⟨S1x8192x1x26x26, x 2⟩, ⟨S1x8192x1x26x26, x 3⟩, ⟨S1x8192x1x26x26, x 4⟩,
          ⟨S1x8192x1x26x26, x 5⟩, ⟨S1x8192x1x26x26, x 6⟩, ⟨S1x8192x1x26x26, x 7⟩, ⟨S1x8192x1x26x26, x 8⟩] h
        (ix5 t b (0 : Fin 1) i j)
      = x t (ix5 (0 : Fin 1) b (0 : Fin 1) i j) := by
  refine concatenate_ofFn_unit_apply (t := S9x8192x1x26x26) (s₁ := S1x8192x1x26x26) (0 : Fin 5) x h rfl rfl
    (ix5 t b (0 : Fin 1) i j) t rfl (ix5 (0 : Fin 1) b (0 : Fin 1) i j) (fun a ha => ?_)
  match a with
  | ⟨0, _⟩ => exact absurd rfl ha
  | ⟨1, _⟩ => rfl
  | ⟨2, _⟩ => rfl
  | ⟨3, _⟩ => rfl
  | ⟨4, _⟩ => rfl

def cols1 (A : S8192x1x28x28.Idx → EReal) : S9x5537792.Idx → EReal :=
  pad S9x5537792 ![0, 0] ![0, 0] ![0, 0]
          (shapeCast S9x5537792
            (concatenate S9x8192x1x26x26 0
              [⟨S1x8192x1x26x26, tapPlane A 0⟩,
               ⟨S1x8192x1x26x26, tapPlane A 1⟩,
               ⟨S1x8192x1x26x26, tapPlane A 2⟩,
               ⟨S1x8192x1x26x26, tapPlane A 3⟩,
               ⟨S1x8192x1x26x26, tapPlane A 4⟩,
               ⟨S1x8192x1x26x26, tapPlane A 5⟩,
               ⟨S1x8192x1x26x26, tapPlane A 6⟩,
               ⟨S1x8192x1x26x26, tapPlane A 7⟩,
               ⟨S1x8192x1x26x26, tapPlane A 8⟩]
              concatenates_S1x8192x1x26x26_S1x8192x1x26x26_S1x8192x1x26x26_S1x8192x1x26x26_S1x8192x1x26x26_S1x8192x1x26x26_S1x8192x1x26x26_S1x8192x1x26x26_S1x8192x1x26x26_S9x8192x1x26x26_d0)
            shapeCasts_S9x8192x1x26x26_S9x5537792)
          (sitofp (F := Ideal) .f32 (constantI S_ 32 0#32)) pads_S9x5537792_S9x5537792_000_000 h_S_

theorem cols1_apply (A : S8192x1x28x28.Idx → EReal) (t : Fin 9) (q : Fin 5537792) :
    cols1 A (ix2 t q) = Cert.Spec.xOf A (q.val / 676) (q.val % 676 / 26 + t.val / 3) (q.val % 26 + t.val % 3) := by
  have hq := q.isLt
  have ht := t.isLt
  have hb : q.val / 676 < 8192 := by omega
  have hi : q.val % 676 / 26 < 26 := by omega
  have hj : q.val % 26 < 26 := Nat.mod_lt _ (by decide)
  unfold cols1
  refine (pad_apply_of_inside _ _ _ _ _ _ _ (ix2 t q) (ix2 t q) (fun a => ?_)).trans ?_
  · match a with
    | ⟨0, _⟩ => show t.val = 0 + t.val * (0 + 1); omega
    | ⟨1, _⟩ => show q.val = 0 + q.val * (0 + 1); omega
  refine (shapeCast_apply _ _ (ix2 t q) (ix5 t ⟨q.val / 676, hb⟩ (0 : Fin 1) ⟨q.val % 676 / 26, hi⟩ ⟨q.val % 26, hj⟩) ?_).trans ?_
  · rw [Shape.rowMajor_val_two, Shape.rowMajor_val_five]
    show (((t.val * 8192 + q.val / 676) * 1 + 0) * 26 + q.val % 676 / 26) * 26 + q.val % 26 = t.val * 5537792 + q.val
    omega
  refine (stack9_apply _ (tapPlane A) t _ _ _).trans ?_
  rw [tapPlane_apply]
  unfold Cert.Spec.xOf
  rw [dif_pos ⟨hb, by omega, by omega⟩]

/-! ## The stretch's last operations, each read off any valuation -/

section Clean
variable (G : Valuation τ sig (Elt Ideal))

theorem res_pad :
    ((StableHlo.TRef.binary (.of main_v19 : StableHlo.TRef sig ⟨S9x5537792, .f32⟩) (.of main_call0_v0 : StableHlo.TRef sig ⟨S_, .f32⟩) (.of main_v20 : StableHlo.TRef sig ⟨S9x5537792, .f32⟩) (fun x v => pad S9x5537792 ![0, 0] ![0, 0] ![0, 0] x v pads_S9x5537792_S9x5537792_000_000 h_S_) : HloOp τ sig (Elt Ideal)).result G (Proc.devRef .tc main_v20) : S9x5537792.Idx → EReal)
      = pad S9x5537792 ![0, 0] ![0, 0] ![0, 0] (G (Proc.devRef .tc main_v19) : S9x5537792.Idx → EReal)
          (G (Proc.devRef .tc main_call0_v0) : S_.Idx → EReal) pads_S9x5537792_S9x5537792_000_000 h_S_ :=
  (binary_result _ _ _ _ _ _ _ G).trans rfl

theorem res_zero :
    ((StableHlo.TRef.unary (.of main_c : StableHlo.TRef sig ⟨S_, .i32⟩) (.of main_call0_v0 : StableHlo.TRef sig ⟨S_, .f32⟩) (sitofp (F := Ideal) .f32) : HloOp τ sig (Elt Ideal)).result G (Proc.devRef .tc main_call0_v0) : S_.Idx → EReal)
      = sitofp (F := Ideal) .f32 (G (Proc.devRef .tc main_c) : IVec S_ 32) :=
  (unary_result _ _ _ _ _ G).trans rfl

theorem res_reshape :
    ((StableHlo.reshape main_v18 main_v19 rfl shapeCasts_S9x8192x1x26x26_S9x5537792 : HloOp τ sig (Elt Ideal)).result G (Proc.devRef .tc main_v19) : S9x5537792.Idx → EReal)
      = shapeCast S9x5537792 (G (Proc.devRef .tc main_v18) : S9x8192x1x26x26.Idx → EReal) shapeCasts_S9x8192x1x26x26_S9x5537792 :=
  (reshape_result _ _ _ _ _ _ G).trans rfl

theorem res_stack :
    ((StableHlo.nary ![main_v9, main_v10, main_v11, main_v12, main_v13, main_v14, main_v15, main_v16, main_v17] main_v18 (fun u => concatenate S9x8192x1x26x26 0 [⟨S1x8192x1x26x26, u 0⟩, ⟨S1x8192x1x26x26, u 1⟩, ⟨S1x8192x1x26x26, u 2⟩, ⟨S1x8192x1x26x26, u 3⟩, ⟨S1x8192x1x26x26, u 4⟩, ⟨S1x8192x1x26x26, u 5⟩, ⟨S1x8192x1x26x26, u 6⟩, ⟨S1x8192x1x26x26, u 7⟩, ⟨S1x8192x1x26x26, u 8⟩] concatenates_S1x8192x1x26x26_S1x8192x1x26x26_S1x8192x1x26x26_S1x8192x1x26x26_S1x8192x1x26x26_S1x8192x1x26x26_S1x8192x1x26x26_S1x8192x1x26x26_S1x8192x1x26x26_S9x8192x1x26x26_d0) : HloOp τ sig (Elt Ideal)).result G (Proc.devRef .tc main_v18) : S9x8192x1x26x26.Idx → EReal)
      = concatenate S9x8192x1x26x26 0
          [⟨S1x8192x1x26x26, G (Proc.devRef .tc main_v9)⟩, ⟨S1x8192x1x26x26, G (Proc.devRef .tc main_v10)⟩,
           ⟨S1x8192x1x26x26, G (Proc.devRef .tc main_v11)⟩, ⟨S1x8192x1x26x26, G (Proc.devRef .tc main_v12)⟩,
           ⟨S1x8192x1x26x26, G (Proc.devRef .tc main_v13)⟩, ⟨S1x8192x1x26x26, G (Proc.devRef .tc main_v14)⟩,
           ⟨S1x8192x1x26x26, G (Proc.devRef .tc main_v15)⟩, ⟨S1x8192x1x26x26, G (Proc.devRef .tc main_v16)⟩,
           ⟨S1x8192x1x26x26, G (Proc.devRef .tc main_v17)⟩] concatenates_S1x8192x1x26x26_S1x8192x1x26x26_S1x8192x1x26x26_S1x8192x1x26x26_S1x8192x1x26x26_S1x8192x1x26x26_S1x8192x1x26x26_S1x8192x1x26x26_S1x8192x1x26x26_S9x8192x1x26x26_d0 :=
  (nary_result _ _ _ _ _ G).trans rfl

end Clean

variable (m : (ℓ : Loc nD τ sig) → Buf (Elt Ideal) ℓ) (c : Dev nD)

/-- The region's first input array, as the stretch leaves it: the stacked windows of the image argument. -/
theorem cols1_term :
    (V2 m c main_v20 : S9x5537792.Idx → EReal) = cols1 (m ((c.tc : Thread nD τ).loc main_arg0)) := by
  show StableHlo.after hostOps0_1 (StableHlo.after hostOps0 (V0 m c)) (Proc.devRef .tc main_v20) = _
  simp only [after_cons, after_nil]
  rw [res_pad, res_zero, nullary_result,
    unary_result_ne (h := (by decide : main_v19 ≠ main_call0_v0)),
    nullary_result_ne (h := (by decide : main_v19 ≠ main_c)),
    res_reshape, res_stack]
  repeat (first
    | rw [unary_result]
    | (rw [unary_result_ne]; rotate_left; decide))
  rfl

/-- Row t, lane q of the region's first input array: pixel (q % 676 / 26 + t / 3, q % 26 + t % 3) of image q / 676. -/
theorem cols1_at (t : Fin 9) (q : Fin 5537792) :
    (V2 m c main_v20 : S9x5537792.Idx → EReal) (ix2 t q)
      = Cert.Spec.xOf (m ((c.tc : Thread nD τ).loc main_arg0)) (q.val / 676) (q.val % 676 / 26 + t.val / 3) (q.val % 26 + t.val % 3) := by
  rw [cols1_term, cols1_apply]

end Cert.ReferenceIdeal.Val
end
-- ==== Proof.RI.Val2.lean ====
/-
  Region 0's output array after the region, entry by entry. Point t of the grid reads lanes [2048·t, 2048·t + 2048) of the
  nine tap rows and the whole coefficient array, and writes the same lanes of the five channel rows. If the body leaves at
  channel ch and lane l the clipped weighted sum over feature groups and taps of the features of the tap rows' lane l, then
  entry (ch, q) of the output array is that sum at lane q of the whole tap rows — one function of the region's input arrays,
  of which every point writes its block, and the blocks cover the array.
-/
import proofs.«125140_g2000505823476311_pallasbulk_1268_6_alg».proof.Proof.RI.Region0
import Idealize.ShloMosaic.Lib.Pipeline.Value
import Idealize.ShloMosaic.Lib.ValueIdx
import Idealize.ShloMosaic.PureOps.Ideal

set_option maxRecDepth 16384

noncomputable section

namespace Cert.ReferenceIdeal.Val

open Idealize.ShloMosaic Idealize.ShloMosaic.TcCoe Idealize.ShloMosaic.ValueIdx
open Idealize.SL Idealize.SL.RA Idealize.SL.Sem
open Idealize.ShloMosaic.Pipeline (Dat)
open Cert.ReferenceIdeal Cert.ReferenceIdeal.Gen Cert.ReferenceIdeal.Hand
open BigOperators

variable (V : (c : Dev nD) → (b : Ref sig .tc) → Buf (Elt Ideal) ((c : Thread nD τ).loc b))

/-- The region's output array as one function of the tap rows X and the coefficients W. -/
def conv0Arr (feat : Fin 9 → EReal → EReal) (X : S9x5537792.Idx → EReal) (W : S9x5x9.Idx → EReal) : S5x5537792.Idx → EReal :=
  fun i => max (∑ g : Fin 9, ∑ t : Fin 9, W (ix3 g (i 0) t) * feat g (X (ix2 t (i 1)))) 0

/-- The printed index maps, decided over the grid: the tap rows' block index is the point, the coefficients' is zero,
    the output's is the point. -/
theorem idx_facts0 : ∀ t : Fin cfg0.N, win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- The tap rows' block at point t, row r and lane l: lane 2048·t + l of row r. -/
theorem rd0_0 (c : Dev nD) (t : Fin cfg0.N) (r : Fin 9) (l : Fin 2048) (hl : 2048 * t.val + l.val < 5537792) :
    iblk0 V c 0 t (ix2 r l) = (V c main_v20 : S9x5537792.Idx → EReal) (ix2 r (⟨2048 * t.val + l.val, hl⟩ : Fin 5537792)) := by
  obtain ⟨e00, e01, -⟩ := idx_facts0 t
  show (V c main_v20 : S9x5537792.Idx → EReal) (((cfg0.win 0).blk t).view.emb (ix2 r l)) = _
  refine congrArg (V c main_v20 : S9x5537792.Idx → EReal) (funext fun a => Fin.ext ?_)
  match a with
  | ⟨0, _⟩ => show win0_0.index t (0 : Fin 2) * 9 + 1 * r.val = r.val; omega
  | ⟨1, _⟩ => show win0_0.index t (1 : Fin 2) * 2048 + 1 * l.val = 2048 * t.val + l.val; omega

/-- The coefficients' block at any point is the whole coefficient array. -/
theorem rd0_1 (c : Dev nD) (t : Fin cfg0.N) (y : S9x5x9.Idx) :
    iblk0 V c 1 t y = (V c main_arg1 : S9x5x9.Idx → EReal) y := by
  obtain ⟨-, -, e10, e11, e12, -⟩ := idx_facts0 t
  show (V c main_arg1 : S9x5x9.Idx → EReal) (((cfg0.win 1).blk t).view.emb y) = _
  refine congrArg (V c main_arg1 : S9x5x9.Idx → EReal) (funext fun a => Fin.ext ?_)
  match a with
  | ⟨0, _⟩ => show win0_1.index t (0 : Fin 3) * 9 + 1 * (y 0).val = (y 0).val; omega
  | ⟨1, _⟩ => show win0_1.index t (1 : Fin 3) * 5 + 1 * (y 1).val = (y 1).val; omega
  | ⟨2, _⟩ => show win0_1.index t (2 : Fin 3) * 9 + 1 * (y 2).val = (y 2).val; omega

/-- What point t writes back is block t of the one array function. -/
theorem flushed0_eq (feat : Fin 9 → EReal → EReal)
    (hbody : ∀ (x0 : Vec Ideal S9x2048 .f32) (x1 : Vec Ideal S9x5x9 .f32) (ch : Fin 5) (l : Fin 2048),
      out0_2 x0 x1 (ix2 ch l) = max (∑ g : Fin 9, ∑ t : Fin 9, x1 (ix3 g ch t) * feat g (x0 (ix2 t l))) 0)
    (c : Dev nD) (t : Fin cfg0.N) :
    (dat0 V c).flushed 2 t = ((cfg0.win 2).blk t).view.read (Elt Ideal) (conv0Arr feat (V c main_v20) (V c main_arg1)) := by
  show (cfg0.win 2).cut (grid0.coords t) ((dat0 V c).after 2 t) = _
  rw [after0_2]
  obtain ⟨-, -, -, -, -, e20, e21⟩ := idx_facts0 t
  have hN : t.val < 2704 := lt_of_lt_of_eq t.isLt N_0
  funext j
  show out0_2 (iblk0 V c 0 t) (iblk0 V c 1 t) j
    = conv0Arr feat (V c main_v20) (V c main_arg1) (((cfg0.win 2).blk t).view.emb j)
  have hj1 : (j 1).val < 2048 := (j 1).isLt
  have hj0 : (j 0).val < 5 := (j 0).isLt
  refine ((congrArg (out0_2 (iblk0 V c 0 t) (iblk0 V c 1 t)) (eq_ix2 j)).trans
    (hbody (iblk0 V c 0 t) (iblk0 V c 1 t) (j 0) (j 1))).trans ?_
  unfold conv0Arr
  refine congrArg (fun z : EReal => max z 0) (Finset.sum_congr rfl fun g _ => Finset.sum_congr rfl fun k _ => ?_)
  rw [rd0_1 V c t, rd0_0 V c t k (j 1) (by show 2048 * t.val + (j 1).val < 5537792; omega)]
  have ea0 : ((((cfg0.win 2).blk t).view.emb j) 0).val = (j 0).val := by
    show win0_2.index t (0 : Fin 2) * 5 + 1 * (j 0).val = (j 0).val; omega
  have ea1 : ((((cfg0.win 2).blk t).view.emb j) 1).val = 2048 * t.val + (j 1).val := by
    show win0_2.index t (1 : Fin 2) * 2048 + 1 * (j 1).val = 2048 * t.val + (j 1).val; omega
  refine congr (congrArg HMul.hMul (congrArg _ (funext fun a => ?_))) (congrArg (feat g) (congrArg _ (funext fun a => ?_)))
  · match a with
    | ⟨0, _⟩ => rfl
    | ⟨1, _⟩ => exact Fin.ext ea0.symm
    | ⟨2, _⟩ => rfl
  · match a with
    | ⟨0, _⟩ => rfl
    | ⟨1, _⟩ => exact Fin.ext ea1.symm

/-- An index of the output array is in point t's block iff each coordinate is in the block's range on its axis. -/
theorem mem_blk0 (t : Fin cfg0.N) (i : S5x5537792.Idx) :
    i ∈ ((cfg0.win 2).blk t).view.set ↔ ∀ a : Fin 2, win0_2.index t a * S5x2048.size a ≤ (i a).val ∧ (i a).val < win0_2.index t a * S5x2048.size a + S5x2048.size a := by
  show i ∈ ((View.whole main_v21).slice (win0_2.rect t)).set ↔ _
  rw [View.set_slice_whole, Rect.mem_set_unit]
  exact Iff.rfl

/-- Every index of the output array is in some point's block: lane q is written by point q / 2048. -/
theorem cover0 (i : S5x5537792.Idx) : ∃ t : Fin cfg0.N, (cfg0.win 2).flush t = true ∧ i ∈ ((cfg0.win 2).blk t).view.set := by
  have h0 : (i 0).val < 5 := (i 0).isLt
  have h1 : (i 1).val < 5537792 := (i 1).isLt
  refine ⟨Fin.cast N_0.symm (⟨(i 1).val / 2048, by omega⟩ : Fin 2704), flush0_2 _, ?_⟩
  obtain ⟨-, -, -, -, -, e20, e21⟩ := idx_facts0 (Fin.cast N_0.symm (⟨(i 1).val / 2048, by omega⟩ : Fin 2704))
  have e21' : win0_2.index (Fin.cast N_0.symm (⟨(i 1).val / 2048, by omega⟩ : Fin 2704)) (1 : Fin 2) = (i 1).val / 2048 := e21
  rw [mem_blk0]
  intro a
  match a with
  | ⟨0, _⟩ => show win0_2.index _ (0 : Fin 2) * 5 ≤ (i 0).val ∧ (i 0).val < win0_2.index _ (0 : Fin 2) * 5 + 5; omega
  | ⟨1, _⟩ => show win0_2.index _ (1 : Fin 2) * 2048 ≤ (i 1).val ∧ (i 1).val < win0_2.index _ (1 : Fin 2) * 2048 + 2048; omega

/-- THE OUTPUT ARRAY after the region is the one array function of the region's tap rows and coefficients. -/
theorem arr0_eq (feat : Fin 9 → EReal → EReal)
    (hbody : ∀ (x0 : Vec Ideal S9x2048 .f32) (x1 : Vec Ideal S9x5x9 .f32) (ch : Fin 5) (l : Fin 2048),
      out0_2 x0 x1 (ix2 ch l) = max (∑ g : Fin 9, ∑ t : Fin 9, x1 (ix3 g ch t) * feat g (x0 (ix2 t l))) 0)
    (c : Dev nD) :
    (dat0 V c).arrAt 2 cfg0.N = conv0Arr feat (V c main_v20) (V c main_arg1) :=
  (dat0 V c).arrAt_eq_of_cover 2 (conv0Arr feat (V c main_v20) (V c main_arg1)) (fun t _ => flushed0_eq V feat hbody c t) (cover0)

end Cert.ReferenceIdeal.Val

end
-- ==== Proof.RI.SliceValue.lean ====
/- One 128-lane slice of the reference's convolution body, as a function and entry by entry.

   The body treats lanes [128 s, 128 s + 128) of its patch block alike for s = 0, ..., 15: from the
   9 by 128 slice xs (9 taps by 128 patches) it computes the nine feature arrays, multiplies each by its
   own 5 by 9 weight matrix (nine products, each accumulated into zero), adds the nine products up one
   after the other from the first, and clips below at zero. Entry (ch, l) of the result is therefore the
   sum over the feature groups g and the taps t of W_g (ch, t) · feat g (xs (t, l)), clipped below at
   zero: the same terms the one long product of the other program adds up, in another order. -/
import proofs.«125140_g2000505823476311_pallasbulk_1268_6_alg».proof.Proof.Gen.ReferenceIdeal.Skeleton
import proofs.«125140_g2000505823476311_pallasbulk_1268_6_alg».proof.Proof.FeatValue
import proofs.«125140_g2000505823476311_pallasbulk_1268_6_alg».proof.Proof.LibSumBlocks
import proofs.«125140_g2000505823476311_pallasbulk_1268_6_alg».proof.Proof.LibPlainProduct

noncomputable section

namespace Cert.RI.SliceValue

open Idealize.ShloMosaic Idealize.ShloMosaic.ValueIdx Cert.ReferenceIdeal Cert.ReferenceIdeal.Gen Cert.Feat

/-- One of the nine products: the 5 by 9 weight matrix (loaded as 1 by 5 by 9) times a 9 by 128 array,
   accumulated into zero, at entry (ch, l) is the sum over the nine taps. -/
theorem prod_apply (w : FVec Ideal S1x5x9 .f32) (B : FVec Ideal S9x128 .f32) (hc : S1x5x9.ShapeCasts S5x9)
    (ch : Fin 5) (l : Fin 128) :
    matmul dot_S5x9_S9x128_S5x128_1_0_0_1_n_n none (shapeCast S5x9 w hc) B (constant S5x128 .f32 0x00000000#32) (ix2 ch l)
      = ∑ t : Fin 9, w (ix3 0 ch t) * B (ix2 t l) := by
  have hd : dot_S5x9_S9x128_S5x128_1_0_0_1_n_n = DotDims.plain 5 9 128 := rfl
  rw [hd]
  refine (Cert.LibPlainProduct.matmul_plain_zero_apply none (shapeCast S5x9 w hc) B ch l).trans ?_
  refine Finset.sum_congr rfl fun t _ => ?_
  rw [shapeCast_1ab_ab_apply]

/-- The first feature array, xs · logistic xs, entry by entry. -/
theorem silu_apply (xs : Vec Ideal S9x128 .f32) (i : S9x128.Idx) :
    mulf (k0_pay2 (F := Ideal) xs) (logistic (k0_pay2 (F := Ideal) xs)) i = feat 0 (xs i) :=
  rFeat_apply xs 0 i

/-- What the body stores for a slice, as a function of the slice xs of the patch block and the nine
   loaded weight matrices: the first slice's stored value, composed along the body's parts. -/
def sliceOut (xs : Vec Ideal S9x128 .f32) (w0 w1 w2 w3 w4 w5 w6 w7 w8 : Vec Ideal S1x5x9 .f32) : FVec Ideal S5x128 .f32 :=
  k0_pay87 (F := Ideal) (r0Rows xs 2) (r0Rows xs 3) (r0Rows xs 4) (r0Rows xs 5) (r0Rows xs 6) (r0Rows xs 7) (r0Rows xs 8)
    (k0_pay85 (F := Ideal) (k0_pay2 (F := Ideal) xs) (r0Rows xs 1) w0 w1) (k0_pay86 (F := Ideal) w2)
    (constant S5x128 .f32 0x00000000#32) w3 w4 w5 w6 w7 w8

/-- Entry (ch, l) of a slice's stored value: the sum over the feature groups g and the taps t of
   W_g (ch, t) · feat g (xs (t, l)), clipped below at zero. -/
theorem sliceOut_apply (xs : Vec Ideal S9x128 .f32) (w0 w1 w2 w3 w4 w5 w6 w7 w8 : Vec Ideal S1x5x9 .f32)
    (ch : Fin 5) (l : Fin 128) :
    sliceOut xs w0 w1 w2 w3 w4 w5 w6 w7 w8 (ix2 ch l)
      = max (∑ g : Fin 9, ∑ t : Fin 9,
              (![w0, w1, w2, w3, w4, w5, w6, w7, w8] : Fin 9 → Vec Ideal S1x5x9 .f32) g (ix3 0 ch t)
                * feat g (xs (ix2 t l))) 0 := by
  unfold sliceOut k0_pay87 k0_pay85 k0_pay86
  simp only [maximumf_apply, addf_apply, broadcast_apply, prod_apply, rFeat_apply, silu_apply]
  show max _ (Ideal.ofBits .f32 0x00000000#32) = _
  rw [Ideal.ofBits_zero_f32]
  refine congrArg (fun z : EReal => max z 0) ?_
  exact Cert.Lib.SumBlocks.accum_9 (fun g : Fin 9 => ∑ t : Fin 9,
    (![w0, w1, w2, w3, w4, w5, w6, w7, w8] : Fin 9 → Vec Ideal S1x5x9 .f32) g (ix3 0 ch t) * feat g (xs (ix2 t l)))

end Cert.RI.SliceValue

end
-- ==== Proof.RI.SliceC0a.lean ====
/- The first convolution of the reference: what its body stores for lanes [128 s, 128 s + 128), s = 0, ..., 3,
   written as the composition of the body's values along its parts, a function of that slice of the patch
   block and of the nine weight matrices; and the fact that each is the same function of its loads as the
   first slice's (the sixteen slices are one computation on sixteen sets of lanes). -/
import proofs.«125140_g2000505823476311_pallasbulk_1268_6_alg».proof.Proof.Gen.ReferenceIdeal.Skeleton
import proofs.«125140_g2000505823476311_pallasbulk_1268_6_alg».proof.Proof.FeatValue
import proofs.«125140_g2000505823476311_pallasbulk_1268_6_alg».proof.Proof.RI.SliceValue

noncomputable section

namespace Cert.RI.SliceValue

open Idealize.ShloMosaic Idealize.ShloMosaic.ValueIdx Cert.ReferenceIdeal Cert.ReferenceIdeal.Gen Cert.Feat

/-- What the body stores for lanes [0, 128), composed along the body's parts, as a function of that
   slice of the patch block and the nine weight matrices. -/
def k0Stored0 (xs : Vec Ideal S9x128 .f32) (w0 w1 w2 w3 w4 w5 w6 w7 w8 : Vec Ideal S1x5x9 .f32) : FVec Ideal S5x128 .f32 :=
  let v1 := k0_pay2 (F := Ideal) xs
  let v5 := k0_pay3 (F := Ideal) xs
  let v9 := k0_pay4 (F := Ideal) xs
  let v13 := k0_pay5 (F := Ideal) xs
  let v17 := k0_pay6 (F := Ideal) xs
  let v21 := k0_pay7 (F := Ideal) xs
  let v25 := k0_pay8 (F := Ideal) xs
  let v29 := k0_pay9 (F := Ideal) xs
  let v33 := k0_pay10 (F := Ideal) xs
  let v37 := k0_pay11 (F := Ideal) xs
  let v41 := k0_pay12 (F := Ideal) xs
  let v45 := k0_pay13 (F := Ideal) xs
  let v54 := k0_pay17 (F := Ideal) v21 v25
  let v55 := k0_pay18 (F := Ideal) v25 v29
  let v56 := k0_pay19 (F := Ideal) v29 v33
  let v57 := k0_pay20 (F := Ideal) v33 v37
  let v58 := k0_pay21 (F := Ideal) v37 v41
  let v59 := k0_pay22 (F := Ideal) v41 v45
  let v60 := k0_pay23 (F := Ideal) v1 v45
  let v62 := k0_pay24 (F := Ideal) v1
  let v71 := k0_pay26 (F := Ideal) v1 v5 v9 v13
  let v78 := k0_pay28 (F := Ideal) v1 v9 v13 v17
  let v85 := k0_pay30 (F := Ideal) v1 v13 v17 v21
  let v87 := k0_pay31 (F := Ideal) v1
  let v92 := k0_pay32 (F := Ideal) v1 v17 v21 v25
  let v93 := k0_pay33 (F := Ideal)
  let v99 := k0_pay35 (F := Ideal) v54 v55 v62 v87 v93
  let v106 := k0_pay37 (F := Ideal) v55 v56 v62 v93
  let v113 := k0_pay39 (F := Ideal) v56 v57 v62
  let v120 := k0_pay41 (F := Ideal) v57 v58 v62
  let v127 := k0_pay43 (F := Ideal) v58 v59 v62
  let v134 := k0_pay44 (F := Ideal) v59 v60 v62
  let v136 := k0_pay45 (F := Ideal) v1
  let v138 := k0_pay46 (F := Ideal) v1
  let v139 := k0_pay47 (F := Ideal)
  let v145 := k0_pay49 (F := Ideal) v71 v78 v136 v138 v139
  let v152 := k0_pay51 (F := Ideal) v78 v85 v136 v139
  let v159 := k0_pay53 (F := Ideal) v85 v92 v136
  let v166 := k0_pay55 (F := Ideal) v92 v99 v136
  let v173 := k0_pay57 (F := Ideal) v99 v106 v136
  let v180 := k0_pay59 (F := Ideal) v106 v113 v136
  let v182 := k0_pay60 (F := Ideal) v136
  let v183 := k0_pay61 (F := Ideal) v113 v136
  let v186 := k0_pay62 (F := Ideal) v120 v136
  let v187 := k0_pay63 (F := Ideal) v183 v186
  let v194 := k0_pay65 (F := Ideal) v120 v127 v136 v182
  let v201 := k0_pay66 (F := Ideal) v127 v134 v136
  let v203 := k0_pay67 (F := Ideal) v1
  let v212 := k0_pay69 (F := Ideal) v1 v145 v152
  let v219 := k0_pay71 (F := Ideal) v1 v152 v159
  let v226 := k0_pay73 (F := Ideal) v1 v159 v166
  let v228 := k0_pay74 (F := Ideal) v1
  let v229 := k0_pay75 (F := Ideal) v1 v166
  let v232 := k0_pay76 (F := Ideal) v1 v173
  let cst_81 : FVec Ideal S5x128 .f32 := constant S5x128 .f32 0x00000000#32
  let v233 := k0_pay77 (F := Ideal) v229 v232
  let v240 := k0_pay79 (F := Ideal) v173 v180 v203 v228
  let v247 := k0_pay81 (F := Ideal) v180 v187 v203
  let v254 := k0_pay83 (F := Ideal) v187 v194 v203
  let v261 := k0_pay84 (F := Ideal) v194 v201 v203
  let v270 := k0_pay85 (F := Ideal) v1 v212 w0 w1
  let v272 := k0_pay86 (F := Ideal) w2
  k0_pay87 (F := Ideal) v219 v226 v233 v240 v247 v254 v261 v270 v272 cst_81 w3 w4 w5 w6 w7 w8

/-- It is the same function of its loads as the first slice's. -/
theorem k0Stored0_eq (xs : Vec Ideal S9x128 .f32) (w0 w1 w2 w3 w4 w5 w6 w7 w8 : Vec Ideal S1x5x9 .f32) :
    k0Stored0 xs w0 w1 w2 w3 w4 w5 w6 w7 w8 = sliceOut xs w0 w1 w2 w3 w4 w5 w6 w7 w8 := by
  unfold k0Stored0 sliceOut
  rfl

/-- What the body stores for lanes [128, 256), composed along the body's parts, as a function of that
   slice of the patch block and the nine weight matrices. -/
def k0Stored1 (xs : Vec Ideal S9x128 .f32) (w0 w1 w2 w3 w4 w5 w6 w7 w8 : Vec Ideal S1x5x9 .f32) : FVec Ideal S5x128 .f32 :=
  let v303 := k0_pay88 (F := Ideal) xs
  let v307 := k0_pay89 (F := Ideal) xs
  let v311 := k0_pay90 (F := Ideal) xs
  let v315 := k0_pay91 (F := Ideal) xs
  let v319 := k0_pay92 (F := Ideal) xs
  let v323 := k0_pay93 (F := Ideal) xs
  let v327 := k0_pay94 (F := Ideal) xs
  let v331 := k0_pay95 (F := Ideal) xs
  let v335 := k0_pay96 (F := Ideal) xs
  let v339 := k0_pay97 (F := Ideal) xs
  let v343 := k0_pay98 (F := Ideal) xs
  let v347 := k0_pay99 (F := Ideal) xs
  let v350 := k0_pay100 (F := Ideal) xs
  let v357 := k0_pay105 (F := Ideal) v327 v331
  let v358 := k0_pay106 (F := Ideal) v331 v335
  let v359 := k0_pay107 (F := Ideal) v335 v339
  let v360 := k0_pay108 (F := Ideal) v339 v343
  let v361 := k0_pay109 (F := Ideal) v343 v347
  let v362 := k0_pay110 (F := Ideal) v347 v350
  let v364 := k0_pay111 (F := Ideal) v303
  let v373 := k0_pay113 (F := Ideal) v303 v307 v311 v315
  let v380 := k0_pay115 (F := Ideal) v303 v311 v315 v319
  let v387 := k0_pay117 (F := Ideal) v303 v315 v319 v323
  let v394 := k0_pay119 (F := Ideal) v303 v319 v323 v327
  let v396 := k0_pay120 (F := Ideal) v303
  let v397 := k0_pay121 (F := Ideal) v303 v323 v327
  let v398 := k0_pay122 (F := Ideal)
  let v401 := k0_pay123 (F := Ideal) v357 v396 v397 v398
  let v408 := k0_pay125 (F := Ideal) v357 v358 v364 v396
  let v415 := k0_pay127 (F := Ideal) v358 v359 v364
  let v422 := k0_pay129 (F := Ideal) v359 v360 v364
  let v429 := k0_pay131 (F := Ideal) v360 v361 v364
  let v436 := k0_pay132 (F := Ideal) v361 v362 v364
  let v438 := k0_pay133 (F := Ideal) v303
  let v442 := k0_pay134 (F := Ideal) v303
  let v443 := k0_pay135 (F := Ideal) v303 v373
  let v444 := k0_pay136 (F := Ideal)
  let v447 := k0_pay137 (F := Ideal) v380 v442 v443 v444
  let v454 := k0_pay139 (F := Ideal) v380 v387 v438 v442
  let v461 := k0_pay141 (F := Ideal) v387 v394 v438
  let v468 := k0_pay143 (F := Ideal) v394 v401 v438
  let v475 := k0_pay145 (F := Ideal) v401 v408 v438
  let v482 := k0_pay147 (F := Ideal) v408 v415 v438
  let v484 := k0_pay148 (F := Ideal) v438
  let v489 := k0_pay149 (F := Ideal) v415 v422 v438
  let v491 := k0_pay150 (F := Ideal) v438
  let v496 := k0_pay151 (F := Ideal) v422 v429 v484 v491
  let v503 := k0_pay152 (F := Ideal) v429 v436 v438 v491
  let v505 := k0_pay153 (F := Ideal) v303
  let v514 := k0_pay155 (F := Ideal) v303 v447 v454
  let v521 := k0_pay157 (F := Ideal) v303 v454 v461
  let v528 := k0_pay159 (F := Ideal) v303 v461 v468
  let v530 := k0_pay160 (F := Ideal) v303
  let v535 := k0_pay161 (F := Ideal) v303 v468 v475
  let v537 := k0_pay162 (F := Ideal) v303
  let v542 := k0_pay163 (F := Ideal) v475 v482 v530 v537
  let v549 := k0_pay165 (F := Ideal) v482 v489 v505 v537
  let v556 := k0_pay167 (F := Ideal) v489 v496 v505
  let v563 := k0_pay168 (F := Ideal) v496 v503 v505
  let v576 := k0_pay169 (F := Ideal) v303 v514 v521 w0 w1 w2
  k0_pay170 (F := Ideal) v528 v535 v542 v549 v556 v563 v576 w3 w4 w5 w6 w7 w8

/-- It is the same function of its loads as the first slice's. -/
theorem k0Stored1_eq (xs : Vec Ideal S9x128 .f32) (w0 w1 w2 w3 w4 w5 w6 w7 w8 : Vec Ideal S1x5x9 .f32) :
    k0Stored1 xs w0 w1 w2 w3 w4 w5 w6 w7 w8 = sliceOut xs w0 w1 w2 w3 w4 w5 w6 w7 w8 := by
  unfold k0Stored1 sliceOut
  rfl

/-- What the body stores for lanes [256, 384), composed along the body's parts, as a function of that
   slice of the patch block and the nine weight matrices. -/
def k0Stored2 (xs : Vec Ideal S9x128 .f32) (w0 w1 w2 w3 w4 w5 w6 w7 w8 : Vec Ideal S1x5x9 .f32) : FVec Ideal S5x128 .f32 :=
  let v605 := k0_pay171 (F := Ideal) xs
  let v607 := k0_pay172 (F := Ideal) xs
  let v621 := k0_pay175 (F := Ideal) v605
  let v625 := k0_pay176 (F := Ideal) v605
  let v629 := k0_pay177 (F := Ideal) v605
  let v633 := k0_pay178 (F := Ideal) v605
  let v637 := k0_pay179 (F := Ideal) v605
  let v641 := k0_pay180 (F := Ideal) v605
  let v645 := k0_pay181 (F := Ideal) v605
  let v649 := k0_pay182 (F := Ideal) v605
  let v653 := k0_pay183 (F := Ideal) v605
  let v654 := k0_pay184 (F := Ideal) v605 v607
  let v655 := k0_pay185 (F := Ideal) v605
  let v656 := k0_pay186 (F := Ideal) v605
  let cst_240 : Ideal .f32 := Scalar.ofBits .f32 0x3F000000#32
  let v659 := k0_pay189 (F := Ideal) v629 v633
  let v660 := k0_pay190 (F := Ideal) v633 v637
  let v661 := k0_pay191 (F := Ideal) v637 v641
  let v662 := k0_pay192 (F := Ideal) v641 v645
  let v663 := k0_pay193 (F := Ideal) v645 v649
  let v664 := k0_pay194 (F := Ideal) v649 v653
  let v666 := k0_pay195 (F := Ideal) v605
  let v675 := k0_pay197 (F := Ideal) v605 v654 v655
  let v682 := k0_pay199 (F := Ideal) v605 v655 v656
  let v689 := k0_pay201 (F := Ideal) v605 v621 v625 v656
  let v696 := k0_pay203 (F := Ideal) v605 v621 v625 v629
  let v698 := k0_pay204 (F := Ideal) v605
  let v703 := k0_pay205 (F := Ideal) v605 v625 v629 v633
  let cst_254 : Ideal .f32 := Scalar.ofBits .f32 0xBFE00000#32
  let v710 := k0_pay207 (F := Ideal) v659 v660 v666 v698 cst_240
  let v717 := k0_pay209 (F := Ideal) v660 v661 v666 cst_240
  let v724 := k0_pay211 (F := Ideal) v661 v662 v666
  let v731 := k0_pay213 (F := Ideal) v662 v663 v666
  let v738 := k0_pay214 (F := Ideal) v663 v664 v666
  let v740 := k0_pay215 (F := Ideal) v605
  let v744 := k0_pay216 (F := Ideal) v605
  let v749 := k0_pay217 (F := Ideal) v605 v675 v682
  let v756 := k0_pay219 (F := Ideal) v682 v689 v740 v744 cst_254
  let v763 := k0_pay221 (F := Ideal) v689 v696 v740 cst_254
  let v770 := k0_pay223 (F := Ideal) v696 v703 v740
  let v777 := k0_pay225 (F := Ideal) v703 v710 v740
  let v784 := k0_pay227 (F := Ideal) v710 v717 v740
  let v791 := k0_pay229 (F := Ideal) v717 v724 v740
  let v793 := k0_pay230 (F := Ideal) v740
  let v794 := k0_pay231 (F := Ideal) v724 v740
  let v796 := k0_pay232 (F := Ideal) v740
  let v798 := k0_pay233 (F := Ideal) v731 v794 v796
  let v805 := k0_pay234 (F := Ideal) v731 v738 v740 v793
  let v807 := k0_pay235 (F := Ideal) v605
  let v816 := k0_pay237 (F := Ideal) v605 v749 v756
  let v823 := k0_pay239 (F := Ideal) v605 v756 v763
  let v830 := k0_pay241 (F := Ideal) v605 v763 v770
  let v837 := k0_pay243 (F := Ideal) v605 v770 v777
  let v839 := k0_pay244 (F := Ideal) v605
  let v840 := k0_pay245 (F := Ideal) v605 v777
  let v842 := k0_pay246 (F := Ideal) v605
  let cst_303 : FVec Ideal S5x128 .f32 := constant S5x128 .f32 0x00000000#32
  let v844 := k0_pay247 (F := Ideal) v784 v840 v842
  let v851 := k0_pay249 (F := Ideal) v784 v791 v807 v839
  let v858 := k0_pay251 (F := Ideal) v791 v798 v807
  let v865 := k0_pay252 (F := Ideal) v798 v805 v807
  let v878 := k0_pay253 (F := Ideal) v605 v816 v823 w0 w1 w2
  let v880 := k0_pay254 (F := Ideal) w3
  k0_pay255 (F := Ideal) v830 v837 v844 v851 v858 v865 v878 v880 cst_303 w4 w5 w6 w7 w8

/-- It is the same function of its loads as the first slice's. -/
theorem k0Stored2_eq (xs : Vec Ideal S9x128 .f32) (w0 w1 w2 w3 w4 w5 w6 w7 w8 : Vec Ideal S1x5x9 .f32) :
    k0Stored2 xs w0 w1 w2 w3 w4 w5 w6 w7 w8 = sliceOut xs w0 w1 w2 w3 w4 w5 w6 w7 w8 := by
  unfold k0Stored2 sliceOut
  rfl

/-- What the body stores for lanes [384, 512), composed along the body's parts, as a function of that
   slice of the patch block and the nine weight matrices. -/
def k0Stored3 (xs : Vec Ideal S9x128 .f32) (w0 w1 w2 w3 w4 w5 w6 w7 w8 : Vec Ideal S1x5x9 .f32) : FVec Ideal S5x128 .f32 :=
  let v907 := k0_pay256 (F := Ideal) xs
  let v911 := k0_pay257 (F := Ideal) xs
  let v912 := k0_pay258 (F := Ideal)
  let v939 := k0_pay265 (F := Ideal) v907
  let v943 := k0_pay266 (F := Ideal) v907
  let v947 := k0_pay267 (F := Ideal) v907
  let v951 := k0_pay268 (F := Ideal) v907
  let v955 := k0_pay269 (F := Ideal) v907
  let v956 := k0_pay270 (F := Ideal) v907 v911 v912
  let v957 := k0_pay271 (F := Ideal) v907 v912
  let v958 := k0_pay272 (F := Ideal) v907
  let v959 := k0_pay273 (F := Ideal) v907
  let v960 := k0_pay274 (F := Ideal) v907
  let v961 := k0_pay275 (F := Ideal) v907
  let v962 := k0_pay276 (F := Ideal) v907
  let cst_353 : Ideal .f32 := Scalar.ofBits .f32 0x3F800000#32
  let v963 := k0_pay277 (F := Ideal) v939 v943
  let v964 := k0_pay278 (F := Ideal) v943 v947
  let v965 := k0_pay279 (F := Ideal) v947 v951
  let v966 := k0_pay280 (F := Ideal) v951 v955
  let v968 := k0_pay281 (F := Ideal) v907
  let v977 := k0_pay283 (F := Ideal) v907 v956 v957
  let v984 := k0_pay285 (F := Ideal) v907 v957 v958
  let v991 := k0_pay287 (F := Ideal) v907 v958 v959
  let v998 := k0_pay289 (F := Ideal) v907 v959 v960
  let v1005 := k0_pay291 (F := Ideal) v907 v960 v961
  let v1007 := k0_pay292 (F := Ideal) v907
  let v1008 := k0_pay293 (F := Ideal) v907 v961
  let cst_367 : Ideal .f32 := Scalar.ofBits .f32 0x3F800000#32
  let v1012 := k0_pay294 (F := Ideal) v962 v1007 v1008 cst_353
  let v1019 := k0_pay296 (F := Ideal) v962 v963 v968 v1007
  let v1026 := k0_pay298 (F := Ideal) v963 v964 v968
  let v1033 := k0_pay300 (F := Ideal) v964 v965 v968
  let v1040 := k0_pay301 (F := Ideal) v965 v966 v968
  let v1042 := k0_pay302 (F := Ideal) v907
  let v1051 := k0_pay304 (F := Ideal) v907 v977 v984
  let v1053 := k0_pay305 (F := Ideal) v907
  let v1054 := k0_pay306 (F := Ideal) v907 v984
  let v1058 := k0_pay307 (F := Ideal) v991 v1053 v1054 cst_367
  let v1065 := k0_pay309 (F := Ideal) v991 v998 v1042 v1053
  let v1072 := k0_pay311 (F := Ideal) v998 v1005 v1042
  let v1079 := k0_pay313 (F := Ideal) v1005 v1012 v1042
  let v1086 := k0_pay315 (F := Ideal) v1012 v1019 v1042
  let v1093 := k0_pay317 (F := Ideal) v1019 v1026 v1042
  let v1095 := k0_pay318 (F := Ideal) v1042
  let v1100 := k0_pay319 (F := Ideal) v1026 v1033 v1042
  let v1101 := k0_pay320 (F := Ideal)
  let v1107 := k0_pay321 (F := Ideal) v1033 v1040 v1042 v1095 v1101
  let v1109 := k0_pay322 (F := Ideal) v907
  let v1118 := k0_pay324 (F := Ideal) v907 v1051 v1058
  let v1125 := k0_pay326 (F := Ideal) v907 v1058 v1065
  let v1132 := k0_pay328 (F := Ideal) v907 v1065 v1072
  let v1139 := k0_pay330 (F := Ideal) v907 v1072 v1079
  let v1141 := k0_pay331 (F := Ideal) v907
  let v1146 := k0_pay332 (F := Ideal) v907 v1079 v1086
  let v1147 := k0_pay333 (F := Ideal)
  let v1153 := k0_pay335 (F := Ideal) v1086 v1093 v1109 v1141 v1147
  let v1160 := k0_pay337 (F := Ideal) v1093 v1100 v1109 v1147
  let v1167 := k0_pay338 (F := Ideal) v1100 v1107 v1109
  let v1184 := k0_pay339 (F := Ideal) v907 v1118 v1125 v1132 w0 w1 w2 w3
  k0_pay340 (F := Ideal) v1139 v1146 v1153 v1160 v1167 v1184 w4 w5 w6 w7 w8

/-- It is the same function of its loads as the first slice's. -/
theorem k0Stored3_eq (xs : Vec Ideal S9x128 .f32) (w0 w1 w2 w3 w4 w5 w6 w7 w8 : Vec Ideal S1x5x9 .f32) :
    k0Stored3 xs w0 w1 w2 w3 w4 w5 w6 w7 w8 = sliceOut xs w0 w1 w2 w3 w4 w5 w6 w7 w8 := by
  unfold k0Stored3 sliceOut
  rfl

end Cert.RI.SliceValue

end
-- ==== Proof.RI.SliceC0b.lean ====
/- The first convolution of the reference: what its body stores for lanes [128 s, 128 s + 128), s = 4, ..., 7,
   written as the composition of the body's values along its parts, a function of that slice of the patch
   block and of the nine weight matrices; and the fact that each is the same function of its loads as the
   first slice's (the sixteen slices are one computation on sixteen sets of lanes). -/
import proofs.«125140_g2000505823476311_pallasbulk_1268_6_alg».proof.Proof.Gen.ReferenceIdeal.Skeleton
import proofs.«125140_g2000505823476311_pallasbulk_1268_6_alg».proof.Proof.FeatValue
import proofs.«125140_g2000505823476311_pallasbulk_1268_6_alg».proof.Proof.RI.SliceValue

noncomputable section

namespace Cert.RI.SliceValue

open Idealize.ShloMosaic Idealize.ShloMosaic.ValueIdx Cert.ReferenceIdeal Cert.ReferenceIdeal.Gen Cert.Feat

/-- What the body stores for lanes [512, 640), composed along the body's parts, as a function of that
   slice of the patch block and the nine weight matrices. -/
def k0Stored4 (xs : Vec Ideal S9x128 .f32) (w0 w1 w2 w3 w4 w5 w6 w7 w8 : Vec Ideal S1x5x9 .f32) : FVec Ideal S5x128 .f32 :=
  let cst_442 : Ideal .f32 := Scalar.ofBits .f32 0xBFB33333#32
  let v1209 := k0_pay341 (F := Ideal) xs
  let v1213 := k0_pay342 (F := Ideal) xs
  let v1217 := k0_pay343 (F := Ideal) xs
  let v1258 := k0_pay353 (F := Ideal) v1213 v1217
  let v1259 := k0_pay354 (F := Ideal) v1209 v1217 cst_442
  let v1260 := k0_pay355 (F := Ideal) v1209 cst_442
  let v1261 := k0_pay356 (F := Ideal) v1209
  let v1262 := k0_pay357 (F := Ideal) v1209
  let v1263 := k0_pay358 (F := Ideal) v1209
  let v1264 := k0_pay359 (F := Ideal) v1209
  let v1265 := k0_pay360 (F := Ideal) v1209
  let v1266 := k0_pay361 (F := Ideal) v1209
  let v1267 := k0_pay362 (F := Ideal) v1209
  let v1268 := k0_pay363 (F := Ideal) v1209
  let v1270 := k0_pay364 (F := Ideal) v1209
  let v1279 := k0_pay366 (F := Ideal) v1209 v1258 v1259
  let v1286 := k0_pay368 (F := Ideal) v1209 v1259 v1260
  let v1293 := k0_pay370 (F := Ideal) v1209 v1260 v1261
  let v1300 := k0_pay372 (F := Ideal) v1209 v1261 v1262
  let v1307 := k0_pay374 (F := Ideal) v1209 v1262 v1263
  let v1309 := k0_pay375 (F := Ideal) v1209
  let v1314 := k0_pay376 (F := Ideal) v1209 v1263 v1264
  let v1321 := k0_pay378 (F := Ideal) v1264 v1265 v1270 v1309
  let v1328 := k0_pay380 (F := Ideal) v1265 v1266 v1270
  let v1335 := k0_pay382 (F := Ideal) v1266 v1267 v1270
  let v1342 := k0_pay383 (F := Ideal) v1267 v1268 v1270
  let v1344 := k0_pay384 (F := Ideal) v1209
  let v1353 := k0_pay386 (F := Ideal) v1209 v1279 v1286
  let v1355 := k0_pay387 (F := Ideal) v1209
  let v1360 := k0_pay388 (F := Ideal) v1209 v1286 v1293
  let v1367 := k0_pay390 (F := Ideal) v1293 v1300 v1344 v1355
  let v1374 := k0_pay392 (F := Ideal) v1300 v1307 v1344
  let v1381 := k0_pay394 (F := Ideal) v1307 v1314 v1344
  let v1388 := k0_pay396 (F := Ideal) v1314 v1321 v1344
  let v1395 := k0_pay398 (F := Ideal) v1321 v1328 v1344
  let v1402 := k0_pay400 (F := Ideal) v1328 v1335 v1344
  let v1404 := k0_pay401 (F := Ideal) v1344
  let v1405 := k0_pay402 (F := Ideal) v1335 v1344
  let v1406 := k0_pay403 (F := Ideal)
  let v1409 := k0_pay404 (F := Ideal) v1342 v1404 v1405 v1406
  let v1411 := k0_pay405 (F := Ideal) v1209
  let v1420 := k0_pay407 (F := Ideal) v1209 v1353 v1360
  let v1427 := k0_pay409 (F := Ideal) v1209 v1360 v1367
  let v1434 := k0_pay411 (F := Ideal) v1209 v1367 v1374
  let v1441 := k0_pay413 (F := Ideal) v1209 v1374 v1381
  let v1448 := k0_pay415 (F := Ideal) v1209 v1381 v1388
  let v1450 := k0_pay416 (F := Ideal) v1209
  let v1451 := k0_pay417 (F := Ideal) v1209 v1388
  let v1452 := k0_pay418 (F := Ideal)
  let cst_531 : FVec Ideal S5x128 .f32 := constant S5x128 .f32 0x00000000#32
  let v1455 := k0_pay419 (F := Ideal) v1395 v1450 v1451 v1452
  let v1462 := k0_pay421 (F := Ideal) v1395 v1402 v1411 v1450
  let v1469 := k0_pay422 (F := Ideal) v1402 v1409 v1411
  let v1486 := k0_pay423 (F := Ideal) v1209 v1420 v1427 v1434 w0 w1 w2 w3
  let v1488 := k0_pay424 (F := Ideal) w4
  k0_pay425 (F := Ideal) v1441 v1448 v1455 v1462 v1469 v1486 v1488 cst_531 w5 w6 w7 w8

/-- It is the same function of its loads as the first slice's. -/
theorem k0Stored4_eq (xs : Vec Ideal S9x128 .f32) (w0 w1 w2 w3 w4 w5 w6 w7 w8 : Vec Ideal S1x5x9 .f32) :
    k0Stored4 xs w0 w1 w2 w3 w4 w5 w6 w7 w8 = sliceOut xs w0 w1 w2 w3 w4 w5 w6 w7 w8 := by
  unfold k0Stored4 sliceOut
  rfl

/-- What the body stores for lanes [640, 768), composed along the body's parts, as a function of that
   slice of the patch block and the nine weight matrices. -/
def k0Stored5 (xs : Vec Ideal S9x128 .f32) (w0 w1 w2 w3 w4 w5 w6 w7 w8 : Vec Ideal S1x5x9 .f32) : FVec Ideal S5x128 .f32 :=
  let v1511 := k0_pay426 (F := Ideal) xs
  let v1515 := k0_pay427 (F := Ideal) xs
  let v1519 := k0_pay428 (F := Ideal) xs
  let v1523 := k0_pay429 (F := Ideal) xs
  let cst_565 : Ideal .f32 := Scalar.ofBits .f32 0xC0B00000#32
  let v1560 := k0_pay438 (F := Ideal) v1515 v1519
  let v1561 := k0_pay439 (F := Ideal) v1519 v1523
  let v1562 := k0_pay440 (F := Ideal) v1511 v1523
  let v1563 := k0_pay441 (F := Ideal) v1511
  let v1564 := k0_pay442 (F := Ideal) v1511
  let v1565 := k0_pay443 (F := Ideal) v1511
  let v1566 := k0_pay444 (F := Ideal) v1511
  let v1567 := k0_pay445 (F := Ideal) v1511
  let v1568 := k0_pay446 (F := Ideal) v1511
  let v1569 := k0_pay447 (F := Ideal) v1511
  let v1570 := k0_pay448 (F := Ideal) v1511
  let v1572 := k0_pay449 (F := Ideal) v1511
  let v1581 := k0_pay451 (F := Ideal) v1560 v1561 v1572 cst_565
  let v1588 := k0_pay453 (F := Ideal) v1561 v1562 v1572
  let v1595 := k0_pay455 (F := Ideal) v1562 v1563 v1572
  let v1602 := k0_pay457 (F := Ideal) v1563 v1564 v1572
  let v1609 := k0_pay459 (F := Ideal) v1564 v1565 v1572
  let v1616 := k0_pay461 (F := Ideal) v1565 v1566 v1572
  let v1618 := k0_pay462 (F := Ideal) v1572
  let v1619 := k0_pay463 (F := Ideal) v1566 v1572
  let v1623 := k0_pay464 (F := Ideal) v1567 v1618 v1619
  let v1630 := k0_pay466 (F := Ideal) v1567 v1568 v1572 v1618
  let v1637 := k0_pay468 (F := Ideal) v1568 v1569 v1572
  let v1644 := k0_pay469 (F := Ideal) v1569 v1570 v1572
  let v1646 := k0_pay470 (F := Ideal) v1511
  let v1655 := k0_pay472 (F := Ideal) v1511 v1581 v1588
  let v1662 := k0_pay474 (F := Ideal) v1511 v1588 v1595
  let v1664 := k0_pay475 (F := Ideal) v1511
  let v1665 := k0_pay476 (F := Ideal) v1511 v1595
  let cst_606 : Ideal .f32 := Scalar.ofBits .f32 0x3F555555#32
  let v1669 := k0_pay477 (F := Ideal) v1602 v1664 v1665
  let v1676 := k0_pay479 (F := Ideal) v1602 v1609 v1646 v1664
  let v1683 := k0_pay481 (F := Ideal) v1609 v1616 v1646
  let v1690 := k0_pay483 (F := Ideal) v1616 v1623 v1646
  let v1697 := k0_pay485 (F := Ideal) v1623 v1630 v1646
  let v1704 := k0_pay487 (F := Ideal) v1630 v1637 v1646
  let v1711 := k0_pay488 (F := Ideal) v1637 v1644 v1646
  let cst_620 : Ideal .f32 := Scalar.ofBits .f32 0x3F000000#32
  let v1713 := k0_pay489 (F := Ideal) v1511 cst_606
  let v1722 := k0_pay491 (F := Ideal) v1511 v1655 v1662 cst_606
  let v1729 := k0_pay493 (F := Ideal) v1511 v1662 v1669 cst_606
  let v1736 := k0_pay495 (F := Ideal) v1511 v1669 v1676 cst_606
  let v1743 := k0_pay497 (F := Ideal) v1511 v1676 v1683 cst_606
  let v1750 := k0_pay499 (F := Ideal) v1511 v1683 v1690 cst_606
  let v1752 := k0_pay500 (F := Ideal) v1511 cst_606
  let v1757 := k0_pay501 (F := Ideal) v1511 v1690 v1697 cst_606
  let v1764 := k0_pay503 (F := Ideal) v1697 v1704 v1713 v1752 cst_620
  let v1771 := k0_pay504 (F := Ideal) v1704 v1711 v1713 cst_620
  let v1792 := k0_pay505 (F := Ideal) v1511 v1722 v1729 v1736 v1743 w0 w1 w2 w3 w4
  k0_pay506 (F := Ideal) v1750 v1757 v1764 v1771 v1792 w5 w6 w7 w8

/-- It is the same function of its loads as the first slice's. -/
theorem k0Stored5_eq (xs : Vec Ideal S9x128 .f32) (w0 w1 w2 w3 w4 w5 w6 w7 w8 : Vec Ideal S1x5x9 .f32) :
    k0Stored5 xs w0 w1 w2 w3 w4 w5 w6 w7 w8 = sliceOut xs w0 w1 w2 w3 w4 w5 w6 w7 w8 := by
  unfold k0Stored5 sliceOut
  rfl

/-- What the body stores for lanes [768, 896), composed along the body's parts, as a function of that
   slice of the patch block and the nine weight matrices. -/
def k0Stored6 (xs : Vec Ideal S9x128 .f32) (w0 w1 w2 w3 w4 w5 w6 w7 w8 : Vec Ideal S1x5x9 .f32) : FVec Ideal S5x128 .f32 :=
  let v1813 := k0_pay507 (F := Ideal) xs
  let v1817 := k0_pay508 (F := Ideal) xs
  let v1821 := k0_pay509 (F := Ideal) xs
  let v1825 := k0_pay510 (F := Ideal) xs
  let v1828 := k0_pay511 (F := Ideal) xs
  let v1862 := k0_pay520 (F := Ideal) v1817 v1821
  let v1863 := k0_pay521 (F := Ideal) v1821 v1825
  let v1864 := k0_pay522 (F := Ideal) v1825 v1828
  let v1865 := k0_pay523 (F := Ideal) v1813 v1828
  let v1866 := k0_pay524 (F := Ideal) v1813
  let v1867 := k0_pay525 (F := Ideal) v1813
  let v1868 := k0_pay526 (F := Ideal) v1813
  let v1869 := k0_pay527 (F := Ideal) v1813
  let v1870 := k0_pay528 (F := Ideal) v1813
  let v1871 := k0_pay529 (F := Ideal) v1813
  let v1872 := k0_pay530 (F := Ideal) v1813
  let v1874 := k0_pay531 (F := Ideal) v1813
  let v1876 := k0_pay532 (F := Ideal) v1813
  let v1877 := k0_pay533 (F := Ideal)
  let v1883 := k0_pay535 (F := Ideal) v1862 v1863 v1874 v1876 v1877
  let v1890 := k0_pay537 (F := Ideal) v1863 v1864 v1874 v1877
  let v1897 := k0_pay539 (F := Ideal) v1864 v1865 v1874
  let v1904 := k0_pay541 (F := Ideal) v1865 v1866 v1874
  let v1911 := k0_pay543 (F := Ideal) v1866 v1867 v1874
  let v1918 := k0_pay545 (F := Ideal) v1867 v1868 v1874
  let v1920 := k0_pay546 (F := Ideal) v1874
  let v1921 := k0_pay547 (F := Ideal) v1868 v1874
  let v1924 := k0_pay548 (F := Ideal) v1869 v1874
  let v1925 := k0_pay549 (F := Ideal) v1921 v1924
  let v1932 := k0_pay551 (F := Ideal) v1869 v1870 v1874 v1920
  let v1939 := k0_pay553 (F := Ideal) v1870 v1871 v1874
  let v1946 := k0_pay554 (F := Ideal) v1871 v1872 v1874
  let v1948 := k0_pay555 (F := Ideal) v1813
  let v1957 := k0_pay557 (F := Ideal) v1813 v1883 v1890
  let v1964 := k0_pay559 (F := Ideal) v1813 v1890 v1897
  let v1966 := k0_pay560 (F := Ideal) v1813
  let v1967 := k0_pay561 (F := Ideal) v1813 v1897
  let v1970 := k0_pay562 (F := Ideal) v1813 v1904
  let v1971 := k0_pay563 (F := Ideal) v1967 v1970
  let v1978 := k0_pay565 (F := Ideal) v1904 v1911 v1948 v1966
  let v1985 := k0_pay567 (F := Ideal) v1911 v1918 v1948
  let v1992 := k0_pay569 (F := Ideal) v1918 v1925 v1948
  let v1999 := k0_pay571 (F := Ideal) v1925 v1932 v1948
  let v2006 := k0_pay573 (F := Ideal) v1932 v1939 v1948
  let v2013 := k0_pay574 (F := Ideal) v1939 v1946 v1948
  let v2015 := k0_pay575 (F := Ideal) v1813
  let v2016 := k0_pay576 (F := Ideal)
  let cst_733 : Ideal .f32 := Scalar.ofBits .f32 0x3F800000#32
  let v2024 := k0_pay578 (F := Ideal) v1957 v1964 v2015 v2016
  let v2031 := k0_pay580 (F := Ideal) v1964 v1971 v2015
  let v2038 := k0_pay582 (F := Ideal) v1971 v1978 v2015
  let v2045 := k0_pay584 (F := Ideal) v1978 v1985 v2015
  let v2052 := k0_pay586 (F := Ideal) v1985 v1992 v2015
  let v2059 := k0_pay588 (F := Ideal) v1992 v1999 v2015
  let v2061 := k0_pay589 (F := Ideal) v2015
  let v2062 := k0_pay590 (F := Ideal) v1999 v2015
  let cst_759 : FVec Ideal S5x128 .f32 := constant S5x128 .f32 0x00000000#32
  let v2066 := k0_pay591 (F := Ideal) v2006 v2061 v2062 cst_733
  let v2073 := k0_pay592 (F := Ideal) v2006 v2013 v2015 v2061
  let v2094 := k0_pay593 (F := Ideal) v1813 v2024 v2031 v2038 v2045 w0 w1 w2 w3 w4
  let v2096 := k0_pay594 (F := Ideal) w5
  k0_pay595 (F := Ideal) v2052 v2059 v2066 v2073 v2094 v2096 cst_759 w6 w7 w8

/-- It is the same function of its loads as the first slice's. -/
theorem k0Stored6_eq (xs : Vec Ideal S9x128 .f32) (w0 w1 w2 w3 w4 w5 w6 w7 w8 : Vec Ideal S1x5x9 .f32) :
    k0Stored6 xs w0 w1 w2 w3 w4 w5 w6 w7 w8 = sliceOut xs w0 w1 w2 w3 w4 w5 w6 w7 w8 := by
  unfold k0Stored6 sliceOut
  rfl

/-- What the body stores for lanes [896, 1024), composed along the body's parts, as a function of that
   slice of the patch block and the nine weight matrices. -/
def k0Stored7 (xs : Vec Ideal S9x128 .f32) (w0 w1 w2 w3 w4 w5 w6 w7 w8 : Vec Ideal S1x5x9 .f32) : FVec Ideal S5x128 .f32 :=
  let v2115 := k0_pay596 (F := Ideal) xs
  let v2119 := k0_pay597 (F := Ideal) xs
  let v2123 := k0_pay598 (F := Ideal) xs
  let v2127 := k0_pay599 (F := Ideal) xs
  let v2131 := k0_pay600 (F := Ideal) xs
  let v2133 := k0_pay601 (F := Ideal) xs
  let v2165 := k0_pay609 (F := Ideal) v2123 v2127
  let v2166 := k0_pay610 (F := Ideal) v2127 v2131
  let v2167 := k0_pay611 (F := Ideal) v2131 v2133
  let v2168 := k0_pay612 (F := Ideal) v2115 v2133
  let v2169 := k0_pay613 (F := Ideal) v2115
  let v2170 := k0_pay614 (F := Ideal) v2115
  let v2171 := k0_pay615 (F := Ideal) v2115
  let v2172 := k0_pay616 (F := Ideal) v2115
  let v2173 := k0_pay617 (F := Ideal) v2115
  let v2174 := k0_pay618 (F := Ideal) v2115
  let v2176 := k0_pay619 (F := Ideal) v2115
  let v2180 := k0_pay620 (F := Ideal) v2115
  let v2181 := k0_pay621 (F := Ideal) v2115 v2119 v2123
  let v2182 := k0_pay622 (F := Ideal)
  let v2185 := k0_pay623 (F := Ideal) v2165 v2180 v2181 v2182
  let v2192 := k0_pay625 (F := Ideal) v2165 v2166 v2176 v2180
  let v2199 := k0_pay627 (F := Ideal) v2166 v2167 v2176
  let v2206 := k0_pay629 (F := Ideal) v2167 v2168 v2176
  let v2213 := k0_pay631 (F := Ideal) v2168 v2169 v2176
  let v2220 := k0_pay633 (F := Ideal) v2169 v2170 v2176
  let v2222 := k0_pay634 (F := Ideal) v2176
  let v2227 := k0_pay635 (F := Ideal) v2170 v2171 v2176
  let v2229 := k0_pay636 (F := Ideal) v2176
  let v2234 := k0_pay637 (F := Ideal) v2171 v2172 v2222 v2229
  let v2241 := k0_pay639 (F := Ideal) v2172 v2173 v2176 v2229
  let v2248 := k0_pay640 (F := Ideal) v2173 v2174 v2176
  let v2250 := k0_pay641 (F := Ideal) v2115
  let v2259 := k0_pay643 (F := Ideal) v2115 v2185 v2192
  let v2266 := k0_pay645 (F := Ideal) v2115 v2192 v2199
  let v2268 := k0_pay646 (F := Ideal) v2115
  let v2273 := k0_pay647 (F := Ideal) v2115 v2199 v2206
  let v2275 := k0_pay648 (F := Ideal) v2115
  let v2280 := k0_pay649 (F := Ideal) v2206 v2213 v2268 v2275
  let v2287 := k0_pay651 (F := Ideal) v2213 v2220 v2250 v2275
  let v2294 := k0_pay653 (F := Ideal) v2220 v2227 v2250
  let v2301 := k0_pay655 (F := Ideal) v2227 v2234 v2250
  let v2308 := k0_pay657 (F := Ideal) v2234 v2241 v2250
  let v2315 := k0_pay658 (F := Ideal) v2241 v2248 v2250
  let v2317 := k0_pay659 (F := Ideal) v2115
  let v2319 := k0_pay660 (F := Ideal) v2115
  let v2321 := k0_pay661 (F := Ideal) v2115
  let v2326 := k0_pay662 (F := Ideal) v2259 v2266 v2319 v2321
  let v2333 := k0_pay664 (F := Ideal) v2266 v2273 v2317 v2321
  let v2340 := k0_pay666 (F := Ideal) v2273 v2280 v2317
  let v2347 := k0_pay668 (F := Ideal) v2280 v2287 v2317
  let v2354 := k0_pay670 (F := Ideal) v2287 v2294 v2317
  let v2361 := k0_pay672 (F := Ideal) v2294 v2301 v2317
  let v2363 := k0_pay673 (F := Ideal) v2317
  let v2368 := k0_pay674 (F := Ideal) v2301 v2308 v2317
  let v2375 := k0_pay675 (F := Ideal) v2308 v2315 v2317 v2363
  let v2400 := k0_pay676 (F := Ideal) v2115 v2326 v2333 v2340 v2347 v2354 w0 w1 w2 w3 w4 w5
  k0_pay677 (F := Ideal) v2361 v2368 v2375 v2400 w6 w7 w8

/-- It is the same function of its loads as the first slice's. -/
theorem k0Stored7_eq (xs : Vec Ideal S9x128 .f32) (w0 w1 w2 w3 w4 w5 w6 w7 w8 : Vec Ideal S1x5x9 .f32) :
    k0Stored7 xs w0 w1 w2 w3 w4 w5 w6 w7 w8 = sliceOut xs w0 w1 w2 w3 w4 w5 w6 w7 w8 := by
  unfold k0Stored7 sliceOut
  rfl

end Cert.RI.SliceValue

end
-- ==== Proof.RI.SliceC0c.lean ====
/- The first convolution of the reference: what its body stores for lanes [128 s, 128 s + 128), s = 8, ..., 11,
   written as the composition of the body's values along its parts, a function of that slice of the patch
   block and of the nine weight matrices; and the fact that each is the same function of its loads as the
   first slice's (the sixteen slices are one computation on sixteen sets of lanes). -/
import proofs.«125140_g2000505823476311_pallasbulk_1268_6_alg».proof.Proof.Gen.ReferenceIdeal.Skeleton
import proofs.«125140_g2000505823476311_pallasbulk_1268_6_alg».proof.Proof.FeatValue
import proofs.«125140_g2000505823476311_pallasbulk_1268_6_alg».proof.Proof.RI.SliceValue

noncomputable section

namespace Cert.RI.SliceValue

open Idealize.ShloMosaic Idealize.ShloMosaic.ValueIdx Cert.ReferenceIdeal Cert.ReferenceIdeal.Gen Cert.Feat

/-- What the body stores for lanes [1024, 1152), composed along the body's parts, as a function of that
   slice of the patch block and the nine weight matrices. -/
def k0Stored8 (xs : Vec Ideal S9x128 .f32) (w0 w1 w2 w3 w4 w5 w6 w7 w8 : Vec Ideal S1x5x9 .f32) : FVec Ideal S5x128 .f32 :=
  let v2417 := k0_pay678 (F := Ideal) xs
  let v2421 := k0_pay679 (F := Ideal) xs
  let v2425 := k0_pay680 (F := Ideal) xs
  let v2429 := k0_pay681 (F := Ideal) xs
  let v2433 := k0_pay682 (F := Ideal) xs
  let v2437 := k0_pay683 (F := Ideal) xs
  let v2438 := k0_pay684 (F := Ideal)
  let cst_904 : Ideal .f32 := Scalar.ofBits .f32 0xC0600000#32
  let v2467 := k0_pay691 (F := Ideal) v2425 v2429
  let v2468 := k0_pay692 (F := Ideal) v2429 v2433
  let v2469 := k0_pay693 (F := Ideal) v2433 v2437
  let v2470 := k0_pay694 (F := Ideal) v2417 v2437 v2438
  let v2471 := k0_pay695 (F := Ideal) v2417 v2438
  let v2472 := k0_pay696 (F := Ideal) v2417
  let v2473 := k0_pay697 (F := Ideal) v2417
  let v2474 := k0_pay698 (F := Ideal) v2417
  let v2475 := k0_pay699 (F := Ideal) v2417
  let v2476 := k0_pay700 (F := Ideal) v2417
  let v2478 := k0_pay701 (F := Ideal) v2417
  let v2482 := k0_pay702 (F := Ideal) v2417
  let v2487 := k0_pay703 (F := Ideal) v2417 v2421 v2425 v2429
  let v2494 := k0_pay705 (F := Ideal) v2467 v2468 v2478 v2482 cst_904
  let v2501 := k0_pay707 (F := Ideal) v2468 v2469 v2478 cst_904
  let v2508 := k0_pay709 (F := Ideal) v2469 v2470 v2478
  let v2515 := k0_pay711 (F := Ideal) v2470 v2471 v2478
  let v2522 := k0_pay713 (F := Ideal) v2471 v2472 v2478
  let v2529 := k0_pay715 (F := Ideal) v2472 v2473 v2478
  let v2531 := k0_pay716 (F := Ideal) v2478
  let v2532 := k0_pay717 (F := Ideal) v2473 v2478
  let v2534 := k0_pay718 (F := Ideal) v2478
  let v2536 := k0_pay719 (F := Ideal) v2474 v2532 v2534
  let v2543 := k0_pay721 (F := Ideal) v2474 v2475 v2478 v2531
  let v2550 := k0_pay722 (F := Ideal) v2475 v2476 v2478
  let v2552 := k0_pay723 (F := Ideal) v2417
  let v2561 := k0_pay725 (F := Ideal) v2417 v2487 v2494
  let v2568 := k0_pay727 (F := Ideal) v2417 v2494 v2501
  let v2575 := k0_pay729 (F := Ideal) v2417 v2501 v2508
  let v2577 := k0_pay730 (F := Ideal) v2417
  let v2578 := k0_pay731 (F := Ideal) v2417 v2508
  let v2580 := k0_pay732 (F := Ideal) v2417
  let v2582 := k0_pay733 (F := Ideal) v2515 v2578 v2580
  let v2589 := k0_pay735 (F := Ideal) v2515 v2522 v2552 v2577
  let v2596 := k0_pay737 (F := Ideal) v2522 v2529 v2552
  let v2603 := k0_pay739 (F := Ideal) v2529 v2536 v2552
  let v2610 := k0_pay741 (F := Ideal) v2536 v2543 v2552
  let v2617 := k0_pay742 (F := Ideal) v2543 v2550 v2552
  let v2619 := k0_pay743 (F := Ideal) v2417
  let v2623 := k0_pay744 (F := Ideal) v2417
  let v2624 := k0_pay745 (F := Ideal) v2417 v2561
  let v2626 := k0_pay746 (F := Ideal) v2417
  let v2628 := k0_pay747 (F := Ideal) v2568 v2624 v2626
  let v2635 := k0_pay749 (F := Ideal) v2568 v2575 v2619 v2623
  let v2642 := k0_pay751 (F := Ideal) v2575 v2582 v2619
  let v2649 := k0_pay753 (F := Ideal) v2582 v2589 v2619
  let v2656 := k0_pay755 (F := Ideal) v2589 v2596 v2619
  let v2663 := k0_pay757 (F := Ideal) v2596 v2603 v2619
  let v2670 := k0_pay759 (F := Ideal) v2603 v2610 v2619
  let v2672 := k0_pay760 (F := Ideal) v2619
  let v2673 := k0_pay761 (F := Ideal) v2610 v2619
  let cst_987 : FVec Ideal S5x128 .f32 := constant S5x128 .f32 0x00000000#32
  let v2677 := k0_pay762 (F := Ideal) v2617 v2672 v2673
  let v2702 := k0_pay763 (F := Ideal) v2417 v2628 v2635 v2642 v2649 v2656 w0 w1 w2 w3 w4 w5
  let v2704 := k0_pay764 (F := Ideal) w6
  k0_pay765 (F := Ideal) v2663 v2670 v2677 v2702 v2704 cst_987 w7 w8

/-- It is the same function of its loads as the first slice's. -/
theorem k0Stored8_eq (xs : Vec Ideal S9x128 .f32) (w0 w1 w2 w3 w4 w5 w6 w7 w8 : Vec Ideal S1x5x9 .f32) :
    k0Stored8 xs w0 w1 w2 w3 w4 w5 w6 w7 w8 = sliceOut xs w0 w1 w2 w3 w4 w5 w6 w7 w8 := by
  unfold k0Stored8 sliceOut
  rfl

/-- What the body stores for lanes [1152, 1280), composed along the body's parts, as a function of that
   slice of the patch block and the nine weight matrices. -/
def k0Stored9 (xs : Vec Ideal S9x128 .f32) (w0 w1 w2 w3 w4 w5 w6 w7 w8 : Vec Ideal S1x5x9 .f32) : FVec Ideal S5x128 .f32 :=
  let cst_1006 : Ideal .f32 := Scalar.ofBits .f32 0x3E4CCCCD#32
  let v2719 := k0_pay766 (F := Ideal) xs
  let v2723 := k0_pay767 (F := Ideal) xs
  let v2727 := k0_pay768 (F := Ideal) xs
  let v2731 := k0_pay769 (F := Ideal) xs
  let v2735 := k0_pay770 (F := Ideal) xs
  let v2739 := k0_pay771 (F := Ideal) xs
  let v2743 := k0_pay772 (F := Ideal) xs
  let cst_1017 : Ideal .f32 := Scalar.ofBits .f32 0x3F800000#32
  let v2770 := k0_pay779 (F := Ideal) v2731 v2735
  let v2771 := k0_pay780 (F := Ideal) v2735 v2739
  let v2772 := k0_pay781 (F := Ideal) v2739 v2743
  let v2773 := k0_pay782 (F := Ideal) v2719 v2743 cst_1006
  let v2774 := k0_pay783 (F := Ideal) v2719 cst_1006
  let v2775 := k0_pay784 (F := Ideal) v2719
  let v2776 := k0_pay785 (F := Ideal) v2719
  let v2777 := k0_pay786 (F := Ideal) v2719
  let v2778 := k0_pay787 (F := Ideal) v2719
  let v2780 := k0_pay788 (F := Ideal) v2719
  let v2789 := k0_pay790 (F := Ideal) v2719 v2723 v2727 v2731
  let v2791 := k0_pay791 (F := Ideal) v2719
  let v2792 := k0_pay792 (F := Ideal) v2719 v2727 v2731
  let v2796 := k0_pay793 (F := Ideal) v2770 v2791 v2792 cst_1017
  let v2803 := k0_pay795 (F := Ideal) v2770 v2771 v2780 v2791
  let v2810 := k0_pay797 (F := Ideal) v2771 v2772 v2780
  let v2817 := k0_pay799 (F := Ideal) v2772 v2773 v2780
  let v2824 := k0_pay801 (F := Ideal) v2773 v2774 v2780
  let v2831 := k0_pay803 (F := Ideal) v2774 v2775 v2780
  let v2833 := k0_pay804 (F := Ideal) v2780
  let v2838 := k0_pay805 (F := Ideal) v2775 v2776 v2780
  let v2839 := k0_pay806 (F := Ideal)
  let v2845 := k0_pay808 (F := Ideal) v2776 v2777 v2780 v2833 v2839
  let v2852 := k0_pay809 (F := Ideal) v2777 v2778 v2780 v2839
  let v2854 := k0_pay810 (F := Ideal) v2719
  let v2863 := k0_pay812 (F := Ideal) v2719 v2789 v2796
  let v2870 := k0_pay814 (F := Ideal) v2719 v2796 v2803
  let v2877 := k0_pay816 (F := Ideal) v2719 v2803 v2810
  let v2879 := k0_pay817 (F := Ideal) v2719
  let v2884 := k0_pay818 (F := Ideal) v2719 v2810 v2817
  let v2885 := k0_pay819 (F := Ideal)
  let v2891 := k0_pay821 (F := Ideal) v2817 v2824 v2854 v2879 v2885
  let v2898 := k0_pay823 (F := Ideal) v2824 v2831 v2854 v2885
  let v2905 := k0_pay825 (F := Ideal) v2831 v2838 v2854
  let v2912 := k0_pay827 (F := Ideal) v2838 v2845 v2854
  let v2919 := k0_pay828 (F := Ideal) v2845 v2852 v2854
  let v2921 := k0_pay829 (F := Ideal) v2719
  let v2925 := k0_pay830 (F := Ideal) v2719
  let v2930 := k0_pay831 (F := Ideal) v2719 v2863 v2870
  let v2931 := k0_pay832 (F := Ideal)
  let v2937 := k0_pay834 (F := Ideal) v2870 v2877 v2921 v2925 v2931
  let v2944 := k0_pay836 (F := Ideal) v2877 v2884 v2921 v2931
  let v2951 := k0_pay838 (F := Ideal) v2884 v2891 v2921
  let v2958 := k0_pay840 (F := Ideal) v2891 v2898 v2921
  let v2965 := k0_pay842 (F := Ideal) v2898 v2905 v2921
  let v2972 := k0_pay844 (F := Ideal) v2905 v2912 v2921
  let v2975 := k0_pay845 (F := Ideal) v2912 v2921
  let v2978 := k0_pay846 (F := Ideal) v2919 v2921
  let v2979 := k0_pay847 (F := Ideal) v2975 v2978
  let v3008 := k0_pay848 (F := Ideal) v2719 v2930 v2937 v2944 v2951 v2958 v2965 w0 w1 w2 w3 w4 w5 w6
  k0_pay849 (F := Ideal) v2972 v2979 v3008 w7 w8

/-- It is the same function of its loads as the first slice's. -/
theorem k0Stored9_eq (xs : Vec Ideal S9x128 .f32) (w0 w1 w2 w3 w4 w5 w6 w7 w8 : Vec Ideal S1x5x9 .f32) :
    k0Stored9 xs w0 w1 w2 w3 w4 w5 w6 w7 w8 = sliceOut xs w0 w1 w2 w3 w4 w5 w6 w7 w8 := by
  unfold k0Stored9 sliceOut
  rfl

/-- What the body stores for lanes [1280, 1408), composed along the body's parts, as a function of that
   slice of the patch block and the nine weight matrices. -/
def k0Stored10 (xs : Vec Ideal S9x128 .f32) (w0 w1 w2 w3 w4 w5 w6 w7 w8 : Vec Ideal S1x5x9 .f32) : FVec Ideal S5x128 .f32 :=
  let v3021 := k0_pay850 (F := Ideal) xs
  let v3025 := k0_pay851 (F := Ideal) xs
  let v3029 := k0_pay852 (F := Ideal) xs
  let v3033 := k0_pay853 (F := Ideal) xs
  let v3037 := k0_pay854 (F := Ideal) xs
  let v3041 := k0_pay855 (F := Ideal) xs
  let v3045 := k0_pay856 (F := Ideal) xs
  let v3049 := k0_pay857 (F := Ideal) xs
  let v3072 := k0_pay863 (F := Ideal) v3033 v3037
  let v3073 := k0_pay864 (F := Ideal) v3037 v3041
  let v3074 := k0_pay865 (F := Ideal) v3041 v3045
  let v3075 := k0_pay866 (F := Ideal) v3045 v3049
  let v3076 := k0_pay867 (F := Ideal) v3021 v3049
  let v3077 := k0_pay868 (F := Ideal) v3021
  let v3078 := k0_pay869 (F := Ideal) v3021
  let v3079 := k0_pay870 (F := Ideal) v3021
  let v3080 := k0_pay871 (F := Ideal) v3021
  let v3082 := k0_pay872 (F := Ideal) v3021
  let v3091 := k0_pay874 (F := Ideal) v3021 v3025 v3029 v3033
  let v3093 := k0_pay875 (F := Ideal) v3021
  let v3098 := k0_pay876 (F := Ideal) v3021 v3029 v3033 v3037
  let v3105 := k0_pay878 (F := Ideal) v3072 v3073 v3082 v3093
  let v3112 := k0_pay880 (F := Ideal) v3073 v3074 v3082
  let v3119 := k0_pay882 (F := Ideal) v3074 v3075 v3082
  let v3126 := k0_pay884 (F := Ideal) v3075 v3076 v3082
  let v3133 := k0_pay886 (F := Ideal) v3076 v3077 v3082
  let v3140 := k0_pay888 (F := Ideal) v3077 v3078 v3082
  let v3142 := k0_pay889 (F := Ideal) v3082
  let v3143 := k0_pay890 (F := Ideal) v3078 v3082
  let v3144 := k0_pay891 (F := Ideal)
  let v3147 := k0_pay892 (F := Ideal) v3079 v3142 v3143 v3144
  let v3154 := k0_pay893 (F := Ideal) v3079 v3080 v3082 v3142
  let v3156 := k0_pay894 (F := Ideal) v3021
  let v3165 := k0_pay896 (F := Ideal) v3021 v3091 v3098
  let v3172 := k0_pay898 (F := Ideal) v3021 v3098 v3105
  let v3179 := k0_pay900 (F := Ideal) v3021 v3105 v3112
  let v3186 := k0_pay902 (F := Ideal) v3021 v3112 v3119
  let v3188 := k0_pay903 (F := Ideal) v3021
  let v3189 := k0_pay904 (F := Ideal) v3021 v3119
  let v3190 := k0_pay905 (F := Ideal)
  let v3193 := k0_pay906 (F := Ideal) v3126 v3188 v3189 v3190
  let v3200 := k0_pay908 (F := Ideal) v3126 v3133 v3156 v3188
  let v3207 := k0_pay910 (F := Ideal) v3133 v3140 v3156
  let v3214 := k0_pay912 (F := Ideal) v3140 v3147 v3156
  let v3221 := k0_pay913 (F := Ideal) v3147 v3154 v3156
  let v3223 := k0_pay914 (F := Ideal) v3021
  let v3232 := k0_pay916 (F := Ideal) v3021 v3165 v3172
  let v3234 := k0_pay917 (F := Ideal) v3021
  let v3235 := k0_pay918 (F := Ideal) v3021 v3172
  let v3236 := k0_pay919 (F := Ideal)
  let v3239 := k0_pay920 (F := Ideal) v3179 v3234 v3235 v3236
  let v3246 := k0_pay922 (F := Ideal) v3179 v3186 v3223 v3234
  let v3253 := k0_pay924 (F := Ideal) v3186 v3193 v3223
  let v3260 := k0_pay926 (F := Ideal) v3193 v3200 v3223
  let v3267 := k0_pay928 (F := Ideal) v3200 v3207 v3223
  let v3274 := k0_pay930 (F := Ideal) v3207 v3214 v3223
  let v3281 := k0_pay931 (F := Ideal) v3214 v3221 v3223
  let v3283 := k0_pay932 (F := Ideal) v3021
  let cst_1215 : FVec Ideal S5x128 .f32 := constant S5x128 .f32 0x00000000#32
  let v3310 := k0_pay933 (F := Ideal) v3232 v3239 v3246 v3253 v3260 v3267 v3283 w0 w1 w2 w3 w4 w5 w6
  let v3312 := k0_pay934 (F := Ideal) w7
  k0_pay935 (F := Ideal) v3274 v3281 v3310 v3312 cst_1215 w8

/-- It is the same function of its loads as the first slice's. -/
theorem k0Stored10_eq (xs : Vec Ideal S9x128 .f32) (w0 w1 w2 w3 w4 w5 w6 w7 w8 : Vec Ideal S1x5x9 .f32) :
    k0Stored10 xs w0 w1 w2 w3 w4 w5 w6 w7 w8 = sliceOut xs w0 w1 w2 w3 w4 w5 w6 w7 w8 := by
  unfold k0Stored10 sliceOut
  rfl

/-- What the body stores for lanes [1408, 1536), composed along the body's parts, as a function of that
   slice of the patch block and the nine weight matrices. -/
def k0Stored11 (xs : Vec Ideal S9x128 .f32) (w0 w1 w2 w3 w4 w5 w6 w7 w8 : Vec Ideal S1x5x9 .f32) : FVec Ideal S5x128 .f32 :=
  let v3323 := k0_pay936 (F := Ideal) xs
  let v3327 := k0_pay937 (F := Ideal) xs
  let v3331 := k0_pay938 (F := Ideal) xs
  let v3335 := k0_pay939 (F := Ideal) xs
  let v3339 := k0_pay940 (F := Ideal) xs
  let v3343 := k0_pay941 (F := Ideal) xs
  let v3347 := k0_pay942 (F := Ideal) xs
  let v3351 := k0_pay943 (F := Ideal) xs
  let v3354 := k0_pay944 (F := Ideal) xs
  let v3375 := k0_pay951 (F := Ideal) v3339 v3343
  let v3376 := k0_pay952 (F := Ideal) v3343 v3347
  let v3377 := k0_pay953 (F := Ideal) v3347 v3351
  let v3378 := k0_pay954 (F := Ideal) v3351 v3354
  let v3379 := k0_pay955 (F := Ideal) v3323 v3354
  let v3380 := k0_pay956 (F := Ideal) v3323
  let v3381 := k0_pay957 (F := Ideal) v3323
  let v3382 := k0_pay958 (F := Ideal) v3323
  let v3384 := k0_pay959 (F := Ideal) v3323
  let v3393 := k0_pay961 (F := Ideal) v3323 v3327 v3331 v3335
  let v3400 := k0_pay963 (F := Ideal) v3323 v3331 v3335 v3339
  let v3402 := k0_pay964 (F := Ideal) v3323
  let v3403 := k0_pay965 (F := Ideal) v3323 v3335 v3339
  let cst_1256 : Ideal .f32 := Scalar.ofBits .f32 0x40900000#32
  let v3407 := k0_pay966 (F := Ideal) v3375 v3402 v3403
  let v3414 := k0_pay968 (F := Ideal) v3375 v3376 v3384 v3402
  let v3421 := k0_pay970 (F := Ideal) v3376 v3377 v3384
  let v3428 := k0_pay972 (F := Ideal) v3377 v3378 v3384
  let v3435 := k0_pay974 (F := Ideal) v3378 v3379 v3384
  let v3442 := k0_pay976 (F := Ideal) v3379 v3380 v3384
  let v3444 := k0_pay977 (F := Ideal) v3384
  let v3449 := k0_pay978 (F := Ideal) v3380 v3381 v3384
  let cst_1270 : Ideal .f32 := Scalar.ofBits .f32 0x3E800000#32
  let v3456 := k0_pay979 (F := Ideal) v3381 v3382 v3384 v3444 cst_1256
  let v3458 := k0_pay980 (F := Ideal) v3323
  let v3467 := k0_pay982 (F := Ideal) v3323 v3393 v3400
  let v3474 := k0_pay984 (F := Ideal) v3323 v3400 v3407
  let v3481 := k0_pay986 (F := Ideal) v3323 v3407 v3414
  let v3488 := k0_pay988 (F := Ideal) v3323 v3414 v3421
  let v3490 := k0_pay989 (F := Ideal) v3323
  let v3495 := k0_pay990 (F := Ideal) v3323 v3421 v3428
  let cst_1284 : Ideal .f32 := Scalar.ofBits .f32 0xBF555555#32
  let v3502 := k0_pay992 (F := Ideal) v3428 v3435 v3458 v3490 cst_1270
  let v3509 := k0_pay994 (F := Ideal) v3435 v3442 v3458 cst_1270
  let v3516 := k0_pay996 (F := Ideal) v3442 v3449 v3458
  let v3523 := k0_pay997 (F := Ideal) v3449 v3456 v3458
  let v3525 := k0_pay998 (F := Ideal) v3323
  let v3534 := k0_pay1000 (F := Ideal) v3323 v3467 v3474
  let v3536 := k0_pay1001 (F := Ideal) v3323
  let v3541 := k0_pay1002 (F := Ideal) v3323 v3474 v3481
  let v3548 := k0_pay1004 (F := Ideal) v3481 v3488 v3525 v3536 cst_1284
  let v3555 := k0_pay1006 (F := Ideal) v3488 v3495 v3525 cst_1284
  let v3562 := k0_pay1008 (F := Ideal) v3495 v3502 v3525
  let v3569 := k0_pay1010 (F := Ideal) v3502 v3509 v3525
  let v3576 := k0_pay1012 (F := Ideal) v3509 v3516 v3525
  let v3583 := k0_pay1013 (F := Ideal) v3516 v3523 v3525
  let v3585 := k0_pay1014 (F := Ideal) v3323
  let v3587 := k0_pay1015 (F := Ideal) w0
  let v3616 := k0_pay1016 (F := Ideal) v3534 v3541 v3548 v3555 v3562 v3569 v3576 v3585 v3587 w1 w2 w3 w4 w5 w6 w7
  k0_pay1017 (F := Ideal) v3583 v3616 w8

/-- It is the same function of its loads as the first slice's. -/
theorem k0Stored11_eq (xs : Vec Ideal S9x128 .f32) (w0 w1 w2 w3 w4 w5 w6 w7 w8 : Vec Ideal S1x5x9 .f32) :
    k0Stored11 xs w0 w1 w2 w3 w4 w5 w6 w7 w8 = sliceOut xs w0 w1 w2 w3 w4 w5 w6 w7 w8 := by
  unfold k0Stored11 sliceOut
  rfl

end Cert.RI.SliceValue

end
-- ==== Proof.RI.SliceC0d.lean ====
/- The first convolution of the reference: what its body stores for lanes [128 s, 128 s + 128), s = 12, ..., 15,
   written as the composition of the body's values along its parts, a function of that slice of the patch
   block and of the nine weight matrices; and the fact that each is the same function of its loads as the
   first slice's (the sixteen slices are one computation on sixteen sets of lanes). -/
import proofs.«125140_g2000505823476311_pallasbulk_1268_6_alg».proof.Proof.Gen.ReferenceIdeal.Skeleton
import proofs.«125140_g2000505823476311_pallasbulk_1268_6_alg».proof.Proof.FeatValue
import proofs.«125140_g2000505823476311_pallasbulk_1268_6_alg».proof.Proof.RI.SliceValue

noncomputable section

namespace Cert.RI.SliceValue

open Idealize.ShloMosaic Idealize.ShloMosaic.ValueIdx Cert.ReferenceIdeal Cert.ReferenceIdeal.Gen Cert.Feat

/-- What the body stores for lanes [1536, 1664), composed along the body's parts, as a function of that
   slice of the patch block and the nine weight matrices. -/
def k0Stored12 (xs : Vec Ideal S9x128 .f32) (w0 w1 w2 w3 w4 w5 w6 w7 w8 : Vec Ideal S1x5x9 .f32) : FVec Ideal S5x128 .f32 :=
  let v3625 := k0_pay1018 (F := Ideal) xs
  let v3629 := k0_pay1019 (F := Ideal) xs
  let v3633 := k0_pay1020 (F := Ideal) xs
  let v3637 := k0_pay1021 (F := Ideal) xs
  let v3641 := k0_pay1022 (F := Ideal) xs
  let v3645 := k0_pay1023 (F := Ideal) xs
  let v3649 := k0_pay1024 (F := Ideal) xs
  let v3653 := k0_pay1025 (F := Ideal) xs
  let v3657 := k0_pay1026 (F := Ideal) xs
  let v3659 := k0_pay1027 (F := Ideal) xs
  let v3677 := k0_pay1033 (F := Ideal) v3641 v3645
  let v3678 := k0_pay1034 (F := Ideal) v3645 v3649
  let v3679 := k0_pay1035 (F := Ideal) v3649 v3653
  let v3680 := k0_pay1036 (F := Ideal) v3653 v3657
  let v3681 := k0_pay1037 (F := Ideal) v3657 v3659
  let v3682 := k0_pay1038 (F := Ideal) v3625 v3659
  let v3683 := k0_pay1039 (F := Ideal) v3625
  let v3684 := k0_pay1040 (F := Ideal) v3625
  let v3686 := k0_pay1041 (F := Ideal) v3625
  let v3695 := k0_pay1043 (F := Ideal) v3625 v3629 v3633 v3637
  let v3702 := k0_pay1045 (F := Ideal) v3625 v3633 v3637 v3641
  let v3704 := k0_pay1046 (F := Ideal) v3625
  let v3705 := k0_pay1047 (F := Ideal) v3625 v3637 v3641
  let v3708 := k0_pay1048 (F := Ideal) v3625 v3641 v3645
  let cst_1369 : Ideal .f32 := Scalar.ofBits .f32 0x3F800000#32
  let v3709 := k0_pay1049 (F := Ideal) v3705 v3708
  let v3716 := k0_pay1051 (F := Ideal) v3677 v3678 v3686 v3704
  let v3723 := k0_pay1053 (F := Ideal) v3678 v3679 v3686
  let v3730 := k0_pay1055 (F := Ideal) v3679 v3680 v3686
  let v3737 := k0_pay1057 (F := Ideal) v3680 v3681 v3686
  let v3744 := k0_pay1059 (F := Ideal) v3681 v3682 v3686
  let v3751 := k0_pay1061 (F := Ideal) v3682 v3683 v3686
  let v3753 := k0_pay1062 (F := Ideal) v3686
  let v3754 := k0_pay1063 (F := Ideal) v3683 v3686
  let cst_1383 : Ideal .f32 := Scalar.ofBits .f32 0x3F800000#32
  let v3758 := k0_pay1064 (F := Ideal) v3684 v3753 v3754 cst_1369
  let v3760 := k0_pay1065 (F := Ideal) v3625
  let v3769 := k0_pay1067 (F := Ideal) v3625 v3695 v3702
  let v3776 := k0_pay1069 (F := Ideal) v3625 v3702 v3709
  let v3783 := k0_pay1071 (F := Ideal) v3625 v3709 v3716
  let v3790 := k0_pay1073 (F := Ideal) v3625 v3716 v3723
  let v3797 := k0_pay1075 (F := Ideal) v3625 v3723 v3730
  let v3799 := k0_pay1076 (F := Ideal) v3625
  let v3800 := k0_pay1077 (F := Ideal) v3625 v3730
  let cst_1397 : Ideal .f32 := Scalar.ofBits .f32 0x3F800000#32
  let v3804 := k0_pay1078 (F := Ideal) v3737 v3799 v3800 cst_1383
  let v3811 := k0_pay1080 (F := Ideal) v3737 v3744 v3760 v3799
  let v3818 := k0_pay1082 (F := Ideal) v3744 v3751 v3760
  let v3825 := k0_pay1083 (F := Ideal) v3751 v3758 v3760
  let v3827 := k0_pay1084 (F := Ideal) v3625
  let v3836 := k0_pay1086 (F := Ideal) v3625 v3769 v3776
  let v3843 := k0_pay1088 (F := Ideal) v3625 v3776 v3783
  let v3845 := k0_pay1089 (F := Ideal) v3625
  let v3846 := k0_pay1090 (F := Ideal) v3625 v3783
  let v3850 := k0_pay1091 (F := Ideal) v3790 v3845 v3846 cst_1397
  let v3857 := k0_pay1093 (F := Ideal) v3790 v3797 v3827 v3845
  let v3864 := k0_pay1095 (F := Ideal) v3797 v3804 v3827
  let v3871 := k0_pay1097 (F := Ideal) v3804 v3811 v3827
  let v3878 := k0_pay1099 (F := Ideal) v3811 v3818 v3827
  let v3885 := k0_pay1100 (F := Ideal) v3818 v3825 v3827
  let v3890 := k0_pay1101 (F := Ideal) v3625 w0
  let cst_1443 : FVec Ideal S5x128 .f32 := constant S5x128 .f32 0x00000000#32
  let v3918 := k0_pay1102 (F := Ideal) v3836 v3843 v3850 v3857 v3864 v3871 v3878 v3890 w1 w2 w3 w4 w5 w6 w7
  let v3920 := k0_pay1103 (F := Ideal) w8
  k0_pay1104 (F := Ideal) v3885 v3918 v3920 cst_1443

/-- It is the same function of its loads as the first slice's. -/
theorem k0Stored12_eq (xs : Vec Ideal S9x128 .f32) (w0 w1 w2 w3 w4 w5 w6 w7 w8 : Vec Ideal S1x5x9 .f32) :
    k0Stored12 xs w0 w1 w2 w3 w4 w5 w6 w7 w8 = sliceOut xs w0 w1 w2 w3 w4 w5 w6 w7 w8 := by
  unfold k0Stored12 sliceOut
  rfl

/-- What the body stores for lanes [1664, 1792), composed along the body's parts, as a function of that
   slice of the patch block and the nine weight matrices. -/
def k0Stored13 (xs : Vec Ideal S9x128 .f32) (w0 w1 w2 w3 w4 w5 w6 w7 w8 : Vec Ideal S1x5x9 .f32) : FVec Ideal S5x128 .f32 :=
  let v3927 := k0_pay1105 (F := Ideal) xs
  let v3931 := k0_pay1106 (F := Ideal) xs
  let v3935 := k0_pay1107 (F := Ideal) xs
  let v3939 := k0_pay1108 (F := Ideal) xs
  let v3943 := k0_pay1109 (F := Ideal) xs
  let v3947 := k0_pay1110 (F := Ideal) xs
  let v3951 := k0_pay1111 (F := Ideal) xs
  let v3955 := k0_pay1112 (F := Ideal) xs
  let v3959 := k0_pay1113 (F := Ideal) xs
  let v3963 := k0_pay1114 (F := Ideal) xs
  let v3964 := k0_pay1115 (F := Ideal)
  let v3979 := k0_pay1120 (F := Ideal) v3943 v3947
  let v3980 := k0_pay1121 (F := Ideal) v3947 v3951
  let v3981 := k0_pay1122 (F := Ideal) v3951 v3955
  let v3982 := k0_pay1123 (F := Ideal) v3955 v3959
  let v3983 := k0_pay1124 (F := Ideal) v3959 v3963
  let v3984 := k0_pay1125 (F := Ideal) v3927 v3963 v3964
  let v3985 := k0_pay1126 (F := Ideal) v3927 v3964
  let v3986 := k0_pay1127 (F := Ideal) v3927
  let v3988 := k0_pay1128 (F := Ideal) v3927
  let v3997 := k0_pay1130 (F := Ideal) v3927 v3931 v3935 v3939
  let v4004 := k0_pay1132 (F := Ideal) v3927 v3935 v3939 v3943
  let v4006 := k0_pay1133 (F := Ideal) v3927
  let v4011 := k0_pay1134 (F := Ideal) v3927 v3939 v3943 v3947
  let v4013 := k0_pay1135 (F := Ideal) v3927
  let v4018 := k0_pay1136 (F := Ideal) v3979 v3980 v4006 v4013
  let v4025 := k0_pay1138 (F := Ideal) v3980 v3981 v3988 v4013
  let v4032 := k0_pay1140 (F := Ideal) v3981 v3982 v3988
  let v4039 := k0_pay1142 (F := Ideal) v3982 v3983 v3988
  let v4046 := k0_pay1144 (F := Ideal) v3983 v3984 v3988
  let v4053 := k0_pay1146 (F := Ideal) v3984 v3985 v3988
  let v4060 := k0_pay1147 (F := Ideal) v3985 v3986 v3988
  let v4062 := k0_pay1148 (F := Ideal) v3927
  let v4071 := k0_pay1150 (F := Ideal) v3927 v3997 v4004
  let v4078 := k0_pay1152 (F := Ideal) v3927 v4004 v4011
  let v4085 := k0_pay1154 (F := Ideal) v3927 v4011 v4018
  let v4092 := k0_pay1156 (F := Ideal) v3927 v4018 v4025
  let v4099 := k0_pay1158 (F := Ideal) v3927 v4025 v4032
  let v4101 := k0_pay1159 (F := Ideal) v3927
  let v4106 := k0_pay1160 (F := Ideal) v3927 v4032 v4039
  let v4113 := k0_pay1162 (F := Ideal) v4039 v4046 v4062 v4101
  let v4120 := k0_pay1164 (F := Ideal) v4046 v4053 v4062
  let v4127 := k0_pay1165 (F := Ideal) v4053 v4060 v4062
  let v4129 := k0_pay1166 (F := Ideal) v3927
  let v4138 := k0_pay1168 (F := Ideal) v3927 v4071 v4078
  let v4145 := k0_pay1170 (F := Ideal) v3927 v4078 v4085
  let v4147 := k0_pay1171 (F := Ideal) v3927
  let v4152 := k0_pay1172 (F := Ideal) v3927 v4085 v4092
  let cst_1527 : FVec Ideal S5x128 .f32 := constant S5x128 .f32 0x00000000#32
  let v4159 := k0_pay1174 (F := Ideal) v4092 v4099 v4129 v4147
  let v4166 := k0_pay1176 (F := Ideal) v4099 v4106 v4129
  let v4173 := k0_pay1178 (F := Ideal) v4106 v4113 v4129
  let v4180 := k0_pay1180 (F := Ideal) v4113 v4120 v4129
  let v4187 := k0_pay1181 (F := Ideal) v4120 v4127 v4129
  let v4192 := k0_pay1182 (F := Ideal) v3927 w0
  let v4194 := k0_pay1183 (F := Ideal) w1
  let v4224 := k0_pay1184 (F := Ideal) v4138 v4145 v4152 v4159 v4166 v4173 v4180 v4187 v4192 v4194 cst_1527 w2 w3 w4 w5 w6 w7 w8
  let v4225 := k0_pay1185 (F := Ideal)
  k0_pay1186 (F := Ideal) v4224 v4225

/-- It is the same function of its loads as the first slice's. -/
theorem k0Stored13_eq (xs : Vec Ideal S9x128 .f32) (w0 w1 w2 w3 w4 w5 w6 w7 w8 : Vec Ideal S1x5x9 .f32) :
    k0Stored13 xs w0 w1 w2 w3 w4 w5 w6 w7 w8 = sliceOut xs w0 w1 w2 w3 w4 w5 w6 w7 w8 := by
  unfold k0Stored13 sliceOut
  rfl

/-- What the body stores for lanes [1792, 1920), composed along the body's parts, as a function of that
   slice of the patch block and the nine weight matrices. -/
def k0Stored14 (xs : Vec Ideal S9x128 .f32) (w0 w1 w2 w3 w4 w5 w6 w7 w8 : Vec Ideal S1x5x9 .f32) : FVec Ideal S5x128 .f32 :=
  let cst_1570 : Ideal .f32 := Scalar.ofBits .f32 0x3FE66666#32
  let v4229 := k0_pay1187 (F := Ideal) xs
  let v4233 := k0_pay1188 (F := Ideal) xs
  let v4237 := k0_pay1189 (F := Ideal) xs
  let v4241 := k0_pay1190 (F := Ideal) xs
  let v4245 := k0_pay1191 (F := Ideal) xs
  let v4249 := k0_pay1192 (F := Ideal) xs
  let v4253 := k0_pay1193 (F := Ideal) xs
  let v4257 := k0_pay1194 (F := Ideal) xs
  let v4261 := k0_pay1195 (F := Ideal) xs
  let v4265 := k0_pay1196 (F := Ideal) xs
  let v4269 := k0_pay1197 (F := Ideal) xs
  let v4282 := k0_pay1202 (F := Ideal) v4249 v4253
  let v4283 := k0_pay1203 (F := Ideal) v4253 v4257
  let v4284 := k0_pay1204 (F := Ideal) v4257 v4261
  let v4285 := k0_pay1205 (F := Ideal) v4261 v4265
  let v4286 := k0_pay1206 (F := Ideal) v4265 v4269
  let v4287 := k0_pay1207 (F := Ideal) v4229 v4269 cst_1570
  let v4288 := k0_pay1208 (F := Ideal) v4229 cst_1570
  let v4290 := k0_pay1209 (F := Ideal) v4229
  let v4299 := k0_pay1211 (F := Ideal) v4229 v4233 v4237 v4241
  let v4306 := k0_pay1213 (F := Ideal) v4229 v4237 v4241 v4245
  let v4313 := k0_pay1215 (F := Ideal) v4229 v4241 v4245 v4249
  let v4315 := k0_pay1216 (F := Ideal) v4229
  let v4316 := k0_pay1217 (F := Ideal) v4229 v4245 v4249
  let v4318 := k0_pay1218 (F := Ideal) v4229
  let cst_1595 : Ideal .f32 := Scalar.ofBits .f32 0xC0300000#32
  let v4320 := k0_pay1219 (F := Ideal) v4282 v4316 v4318
  let v4327 := k0_pay1221 (F := Ideal) v4282 v4283 v4290 v4315
  let v4334 := k0_pay1223 (F := Ideal) v4283 v4284 v4290
  let v4341 := k0_pay1225 (F := Ideal) v4284 v4285 v4290
  let v4348 := k0_pay1227 (F := Ideal) v4285 v4286 v4290
  let v4355 := k0_pay1229 (F := Ideal) v4286 v4287 v4290
  let v4362 := k0_pay1230 (F := Ideal) v4287 v4288 v4290
  let v4364 := k0_pay1231 (F := Ideal) v4229
  let v4373 := k0_pay1233 (F := Ideal) v4299 v4306 v4364 cst_1595
  let v4380 := k0_pay1235 (F := Ideal) v4306 v4313 v4364
  let v4387 := k0_pay1237 (F := Ideal) v4313 v4320 v4364
  let v4394 := k0_pay1239 (F := Ideal) v4320 v4327 v4364
  let v4401 := k0_pay1241 (F := Ideal) v4327 v4334 v4364
  let v4408 := k0_pay1243 (F := Ideal) v4334 v4341 v4364
  let v4410 := k0_pay1244 (F := Ideal) v4364
  let v4411 := k0_pay1245 (F := Ideal) v4341 v4364
  let v4415 := k0_pay1246 (F := Ideal) v4348 v4410 v4411
  let v4422 := k0_pay1248 (F := Ideal) v4348 v4355 v4364 v4410
  let v4429 := k0_pay1249 (F := Ideal) v4355 v4362 v4364
  let v4431 := k0_pay1250 (F := Ideal) v4229
  let v4440 := k0_pay1252 (F := Ideal) v4229 v4373 v4380
  let v4447 := k0_pay1254 (F := Ideal) v4229 v4380 v4387
  let v4454 := k0_pay1256 (F := Ideal) v4229 v4387 v4394
  let v4456 := k0_pay1257 (F := Ideal) v4229
  let v4457 := k0_pay1258 (F := Ideal) v4229 v4394
  let v4461 := k0_pay1259 (F := Ideal) v4401 v4456 v4457
  let v4468 := k0_pay1261 (F := Ideal) v4401 v4408 v4431 v4456
  let v4475 := k0_pay1263 (F := Ideal) v4408 v4415 v4431
  let v4482 := k0_pay1265 (F := Ideal) v4415 v4422 v4431
  let v4489 := k0_pay1266 (F := Ideal) v4422 v4429 v4431
  let v4498 := k0_pay1267 (F := Ideal) v4229 v4440 w0 w1
  let v4528 := k0_pay1268 (F := Ideal) v4447 v4454 v4461 v4468 v4475 v4482 v4489 v4498 w2 w3 w4 w5 w6 w7 w8
  v4528

/-- It is the same function of its loads as the first slice's. -/
theorem k0Stored14_eq (xs : Vec Ideal S9x128 .f32) (w0 w1 w2 w3 w4 w5 w6 w7 w8 : Vec Ideal S1x5x9 .f32) :
    k0Stored14 xs w0 w1 w2 w3 w4 w5 w6 w7 w8 = sliceOut xs w0 w1 w2 w3 w4 w5 w6 w7 w8 := by
  unfold k0Stored14 sliceOut
  rfl

/-- What the body stores for lanes [1920, 2048), composed along the body's parts, as a function of that
   slice of the patch block and the nine weight matrices. -/
def k0Stored15 (xs : Vec Ideal S9x128 .f32) (w0 w1 w2 w3 w4 w5 w6 w7 w8 : Vec Ideal S1x5x9 .f32) : FVec Ideal S5x128 .f32 :=
  let v4531 := k0_pay1269 (F := Ideal) xs
  let v4535 := k0_pay1270 (F := Ideal) xs
  let v4539 := k0_pay1271 (F := Ideal) xs
  let v4543 := k0_pay1272 (F := Ideal) xs
  let v4547 := k0_pay1273 (F := Ideal) xs
  let v4551 := k0_pay1274 (F := Ideal) xs
  let v4555 := k0_pay1275 (F := Ideal) xs
  let v4559 := k0_pay1276 (F := Ideal) xs
  let v4563 := k0_pay1277 (F := Ideal) xs
  let v4567 := k0_pay1278 (F := Ideal) xs
  let v4571 := k0_pay1279 (F := Ideal) xs
  let v4575 := k0_pay1280 (F := Ideal) xs
  let v4584 := k0_pay1284 (F := Ideal) v4551 v4555
  let v4585 := k0_pay1285 (F := Ideal) v4555 v4559
  let v4586 := k0_pay1286 (F := Ideal) v4559 v4563
  let v4587 := k0_pay1287 (F := Ideal) v4563 v4567
  let v4588 := k0_pay1288 (F := Ideal) v4567 v4571
  let v4589 := k0_pay1289 (F := Ideal) v4571 v4575
  let v4590 := k0_pay1290 (F := Ideal) v4531 v4575
  let v4592 := k0_pay1291 (F := Ideal) v4531
  let v4601 := k0_pay1293 (F := Ideal) v4531 v4535 v4539 v4543
  let v4608 := k0_pay1295 (F := Ideal) v4531 v4539 v4543 v4547
  let v4615 := k0_pay1297 (F := Ideal) v4531 v4543 v4547 v4551
  let v4617 := k0_pay1298 (F := Ideal) v4531
  let v4622 := k0_pay1299 (F := Ideal) v4531 v4547 v4551 v4555
  let v4623 := k0_pay1300 (F := Ideal)
  let v4629 := k0_pay1302 (F := Ideal) v4584 v4585 v4592 v4617 v4623
  let v4636 := k0_pay1304 (F := Ideal) v4585 v4586 v4592 v4623
  let v4643 := k0_pay1306 (F := Ideal) v4586 v4587 v4592
  let v4650 := k0_pay1308 (F := Ideal) v4587 v4588 v4592
  let v4657 := k0_pay1310 (F := Ideal) v4588 v4589 v4592
  let v4664 := k0_pay1311 (F := Ideal) v4589 v4590 v4592
  let v4666 := k0_pay1312 (F := Ideal) v4531
  let v4668 := k0_pay1313 (F := Ideal) v4531
  let v4669 := k0_pay1314 (F := Ideal)
  let v4675 := k0_pay1316 (F := Ideal) v4601 v4608 v4666 v4668 v4669
  let v4682 := k0_pay1318 (F := Ideal) v4608 v4615 v4666 v4669
  let v4689 := k0_pay1320 (F := Ideal) v4615 v4622 v4666
  let v4696 := k0_pay1322 (F := Ideal) v4622 v4629 v4666
  let v4703 := k0_pay1324 (F := Ideal) v4629 v4636 v4666
  let v4710 := k0_pay1326 (F := Ideal) v4636 v4643 v4666
  let v4712 := k0_pay1327 (F := Ideal) v4666
  let v4713 := k0_pay1328 (F := Ideal) v4643 v4666
  let v4716 := k0_pay1329 (F := Ideal) v4650 v4666
  let v4717 := k0_pay1330 (F := Ideal) v4713 v4716
  let v4724 := k0_pay1332 (F := Ideal) v4650 v4657 v4666 v4712
  let v4731 := k0_pay1333 (F := Ideal) v4657 v4664 v4666
  let v4733 := k0_pay1334 (F := Ideal) v4531
  let v4742 := k0_pay1336 (F := Ideal) v4531 v4675 v4682
  let v4749 := k0_pay1338 (F := Ideal) v4531 v4682 v4689
  let v4756 := k0_pay1340 (F := Ideal) v4531 v4689 v4696
  let v4758 := k0_pay1341 (F := Ideal) v4531
  let v4759 := k0_pay1342 (F := Ideal) v4531 v4696
  let v4762 := k0_pay1343 (F := Ideal) v4531 v4703
  let cst_1755 : FVec Ideal S5x128 .f32 := constant S5x128 .f32 0x00000000#32
  let v4763 := k0_pay1344 (F := Ideal) v4759 v4762
  let v4770 := k0_pay1346 (F := Ideal) v4703 v4710 v4733 v4758
  let v4777 := k0_pay1348 (F := Ideal) v4710 v4717 v4733
  let v4784 := k0_pay1350 (F := Ideal) v4717 v4724 v4733
  let v4791 := k0_pay1351 (F := Ideal) v4724 v4731 v4733
  let v4800 := k0_pay1352 (F := Ideal) v4531 v4742 w0 w1
  let v4802 := k0_pay1353 (F := Ideal) w2
  let v4808 := k0_pay1354 (F := Ideal) v4749 v4756 v4800 v4802 cst_1755 w3
  k0_pay1 (F := Ideal) v4763 v4770 v4777 v4784 v4791 v4808 w4 w5 w6 w7 w8

/-- It is the same function of its loads as the first slice's. -/
theorem k0Stored15_eq (xs : Vec Ideal S9x128 .f32) (w0 w1 w2 w3 w4 w5 w6 w7 w8 : Vec Ideal S1x5x9 .f32) :
    k0Stored15 xs w0 w1 w2 w3 w4 w5 w6 w7 w8 = sliceOut xs w0 w1 w2 w3 w4 w5 w6 w7 w8 := by
  unfold k0Stored15 sliceOut
  rfl

end Cert.RI.SliceValue

end
-- ==== Proof.RI.SliceC1a.lean ====
/- The second convolution of the reference: what its body stores for lanes [128 s, 128 s + 128), s = 0, ..., 3,
   written as the composition of the body's values along its parts, a function of that slice of the patch
   block and of the nine weight matrices; and the fact that each is the same function of its loads as the
   first slice's (the sixteen slices are one computation on sixteen sets of lanes). -/
import proofs.«125140_g2000505823476311_pallasbulk_1268_6_alg».proof.Proof.Gen.ReferenceIdeal.Skeleton
import proofs.«125140_g2000505823476311_pallasbulk_1268_6_alg».proof.Proof.FeatValue
import proofs.«125140_g2000505823476311_pallasbulk_1268_6_alg».proof.Proof.RI.SliceValue

noncomputable section

namespace Cert.RI.SliceValue

open Idealize.ShloMosaic Idealize.ShloMosaic.ValueIdx Cert.ReferenceIdeal Cert.ReferenceIdeal.Gen Cert.Feat

/-- What the body stores for lanes [0, 128), composed along the body's parts, as a function of that
   slice of the patch block and the nine weight matrices. -/
def k1Stored0 (xs : Vec Ideal S9x128 .f32) (w0 w1 w2 w3 w4 w5 w6 w7 w8 : Vec Ideal S1x5x9 .f32) : FVec Ideal S5x128 .f32 :=
  let v1 := k1_pay2 (F := Ideal) xs
  let v5 := k1_pay3 (F := Ideal) xs
  let v9 := k1_pay4 (F := Ideal) xs
  let v13 := k1_pay5 (F := Ideal) xs
  let v17 := k1_pay6 (F := Ideal) xs
  let v21 := k1_pay7 (F := Ideal) xs
  let v25 := k1_pay8 (F := Ideal) xs
  let v29 := k1_pay9 (F := Ideal) xs
  let v33 := k1_pay10 (F := Ideal) xs
  let v37 := k1_pay11 (F := Ideal) xs
  let v41 := k1_pay12 (F := Ideal) xs
  let v45 := k1_pay13 (F := Ideal) xs
  let v54 := k1_pay17 (F := Ideal) v21 v25
  let v55 := k1_pay18 (F := Ideal) v25 v29
  let v56 := k1_pay19 (F := Ideal) v29 v33
  let v57 := k1_pay20 (F := Ideal) v33 v37
  let v58 := k1_pay21 (F := Ideal) v37 v41
  let v59 := k1_pay22 (F := Ideal) v41 v45
  let v60 := k1_pay23 (F := Ideal) v1 v45
  let v62 := k1_pay24 (F := Ideal) v1
  let v71 := k1_pay26 (F := Ideal) v1 v5 v9 v13
  let v78 := k1_pay28 (F := Ideal) v1 v9 v13 v17
  let v85 := k1_pay30 (F := Ideal) v1 v13 v17 v21
  let v87 := k1_pay31 (F := Ideal) v1
  let v92 := k1_pay32 (F := Ideal) v1 v17 v21 v25
  let v93 := k1_pay33 (F := Ideal)
  let v99 := k1_pay35 (F := Ideal) v54 v55 v62 v87 v93
  let v106 := k1_pay37 (F := Ideal) v55 v56 v62 v93
  let v113 := k1_pay39 (F := Ideal) v56 v57 v62
  let v120 := k1_pay41 (F := Ideal) v57 v58 v62
  let v127 := k1_pay43 (F := Ideal) v58 v59 v62
  let v134 := k1_pay44 (F := Ideal) v59 v60 v62
  let v136 := k1_pay45 (F := Ideal) v1
  let v138 := k1_pay46 (F := Ideal) v1
  let v139 := k1_pay47 (F := Ideal)
  let v145 := k1_pay49 (F := Ideal) v71 v78 v136 v138 v139
  let v152 := k1_pay51 (F := Ideal) v78 v85 v136 v139
  let v159 := k1_pay53 (F := Ideal) v85 v92 v136
  let v166 := k1_pay55 (F := Ideal) v92 v99 v136
  let v173 := k1_pay57 (F := Ideal) v99 v106 v136
  let v180 := k1_pay59 (F := Ideal) v106 v113 v136
  let v182 := k1_pay60 (F := Ideal) v136
  let v183 := k1_pay61 (F := Ideal) v113 v136
  let v186 := k1_pay62 (F := Ideal) v120 v136
  let v187 := k1_pay63 (F := Ideal) v183 v186
  let v194 := k1_pay65 (F := Ideal) v120 v127 v136 v182
  let v201 := k1_pay66 (F := Ideal) v127 v134 v136
  let v203 := k1_pay67 (F := Ideal) v1
  let v212 := k1_pay69 (F := Ideal) v1 v145 v152
  let v219 := k1_pay71 (F := Ideal) v1 v152 v159
  let v226 := k1_pay73 (F := Ideal) v1 v159 v166
  let v228 := k1_pay74 (F := Ideal) v1
  let v229 := k1_pay75 (F := Ideal) v1 v166
  let v232 := k1_pay76 (F := Ideal) v1 v173
  let cst_81 : FVec Ideal S5x128 .f32 := constant S5x128 .f32 0x00000000#32
  let v233 := k1_pay77 (F := Ideal) v229 v232
  let v240 := k1_pay79 (F := Ideal) v173 v180 v203 v228
  let v247 := k1_pay81 (F := Ideal) v180 v187 v203
  let v254 := k1_pay83 (F := Ideal) v187 v194 v203
  let v261 := k1_pay84 (F := Ideal) v194 v201 v203
  let v270 := k1_pay85 (F := Ideal) v1 v212 w0 w1
  let v272 := k1_pay86 (F := Ideal) w2
  k1_pay87 (F := Ideal) v219 v226 v233 v240 v247 v254 v261 v270 v272 cst_81 w3 w4 w5 w6 w7 w8

/-- It is the same function of its loads as the first slice's. -/
theorem k1Stored0_eq (xs : Vec Ideal S9x128 .f32) (w0 w1 w2 w3 w4 w5 w6 w7 w8 : Vec Ideal S1x5x9 .f32) :
    k1Stored0 xs w0 w1 w2 w3 w4 w5 w6 w7 w8 = sliceOut xs w0 w1 w2 w3 w4 w5 w6 w7 w8 := by
  unfold k1Stored0 sliceOut
  rfl

/-- What the body stores for lanes [128, 256), composed along the body's parts, as a function of that
   slice of the patch block and the nine weight matrices. -/
def k1Stored1 (xs : Vec Ideal S9x128 .f32) (w0 w1 w2 w3 w4 w5 w6 w7 w8 : Vec Ideal S1x5x9 .f32) : FVec Ideal S5x128 .f32 :=
  let v303 := k1_pay88 (F := Ideal) xs
  let v307 := k1_pay89 (F := Ideal) xs
  let v311 := k1_pay90 (F := Ideal) xs
  let v315 := k1_pay91 (F := Ideal) xs
  let v319 := k1_pay92 (F := Ideal) xs
  let v323 := k1_pay93 (F := Ideal) xs
  let v327 := k1_pay94 (F := Ideal) xs
  let v331 := k1_pay95 (F := Ideal) xs
  let v335 := k1_pay96 (F := Ideal) xs
  let v339 := k1_pay97 (F := Ideal) xs
  let v343 := k1_pay98 (F := Ideal) xs
  let v347 := k1_pay99 (F := Ideal) xs
  let v350 := k1_pay100 (F := Ideal) xs
  let v357 := k1_pay105 (F := Ideal) v327 v331
  let v358 := k1_pay106 (F := Ideal) v331 v335
  let v359 := k1_pay107 (F := Ideal) v335 v339
  let v360 := k1_pay108 (F := Ideal) v339 v343
  let v361 := k1_pay109 (F := Ideal) v343 v347
  let v362 := k1_pay110 (F := Ideal) v347 v350
  let v364 := k1_pay111 (F := Ideal) v303
  let v373 := k1_pay113 (F := Ideal) v303 v307 v311 v315
  let v380 := k1_pay115 (F := Ideal) v303 v311 v315 v319
  let v387 := k1_pay117 (F := Ideal) v303 v315 v319 v323
  let v394 := k1_pay119 (F := Ideal) v303 v319 v323 v327
  let v396 := k1_pay120 (F := Ideal) v303
  let v397 := k1_pay121 (F := Ideal) v303 v323 v327
  let v398 := k1_pay122 (F := Ideal)
  let v401 := k1_pay123 (F := Ideal) v357 v396 v397 v398
  let v408 := k1_pay125 (F := Ideal) v357 v358 v364 v396
  let v415 := k1_pay127 (F := Ideal) v358 v359 v364
  let v422 := k1_pay129 (F := Ideal) v359 v360 v364
  let v429 := k1_pay131 (F := Ideal) v360 v361 v364
  let v436 := k1_pay132 (F := Ideal) v361 v362 v364
  let v438 := k1_pay133 (F := Ideal) v303
  let v442 := k1_pay134 (F := Ideal) v303
  let v443 := k1_pay135 (F := Ideal) v303 v373
  let v444 := k1_pay136 (F := Ideal)
  let v447 := k1_pay137 (F := Ideal) v380 v442 v443 v444
  let v454 := k1_pay139 (F := Ideal) v380 v387 v438 v442
  let v461 := k1_pay141 (F := Ideal) v387 v394 v438
  let v468 := k1_pay143 (F := Ideal) v394 v401 v438
  let v475 := k1_pay145 (F := Ideal) v401 v408 v438
  let v482 := k1_pay147 (F := Ideal) v408 v415 v438
  let v484 := k1_pay148 (F := Ideal) v438
  let v489 := k1_pay149 (F := Ideal) v415 v422 v438
  let v491 := k1_pay150 (F := Ideal) v438
  let v496 := k1_pay151 (F := Ideal) v422 v429 v484 v491
  let v503 := k1_pay152 (F := Ideal) v429 v436 v438 v491
  let v505 := k1_pay153 (F := Ideal) v303
  let v514 := k1_pay155 (F := Ideal) v303 v447 v454
  let v521 := k1_pay157 (F := Ideal) v303 v454 v461
  let v528 := k1_pay159 (F := Ideal) v303 v461 v468
  let v530 := k1_pay160 (F := Ideal) v303
  let v535 := k1_pay161 (F := Ideal) v303 v468 v475
  let v537 := k1_pay162 (F := Ideal) v303
  let v542 := k1_pay163 (F := Ideal) v475 v482 v530 v537
  let v549 := k1_pay165 (F := Ideal) v482 v489 v505 v537
  let v556 := k1_pay167 (F := Ideal) v489 v496 v505
  let v563 := k1_pay168 (F := Ideal) v496 v503 v505
  let v576 := k1_pay169 (F := Ideal) v303 v514 v521 w0 w1 w2
  k1_pay170 (F := Ideal) v528 v535 v542 v549 v556 v563 v576 w3 w4 w5 w6 w7 w8

/-- It is the same function of its loads as the first slice's. -/
theorem k1Stored1_eq (xs : Vec Ideal S9x128 .f32) (w0 w1 w2 w3 w4 w5 w6 w7 w8 : Vec Ideal S1x5x9 .f32) :
    k1Stored1 xs w0 w1 w2 w3 w4 w5 w6 w7 w8 = sliceOut xs w0 w1 w2 w3 w4 w5 w6 w7 w8 := by
  unfold k1Stored1 sliceOut
  rfl

/-- What the body stores for lanes [256, 384), composed along the body's parts, as a function of that
   slice of the patch block and the nine weight matrices. -/
def k1Stored2 (xs : Vec Ideal S9x128 .f32) (w0 w1 w2 w3 w4 w5 w6 w7 w8 : Vec Ideal S1x5x9 .f32) : FVec Ideal S5x128 .f32 :=
  let v605 := k1_pay171 (F := Ideal) xs
  let v607 := k1_pay172 (F := Ideal) xs
  let v621 := k1_pay175 (F := Ideal) v605
  let v625 := k1_pay176 (F := Ideal) v605
  let v629 := k1_pay177 (F := Ideal) v605
  let v633 := k1_pay178 (F := Ideal) v605
  let v637 := k1_pay179 (F := Ideal) v605
  let v641 := k1_pay180 (F := Ideal) v605
  let v645 := k1_pay181 (F := Ideal) v605
  let v649 := k1_pay182 (F := Ideal) v605
  let v653 := k1_pay183 (F := Ideal) v605
  let v654 := k1_pay184 (F := Ideal) v605 v607
  let v655 := k1_pay185 (F := Ideal) v605
  let v656 := k1_pay186 (F := Ideal) v605
  let cst_240 : Ideal .f32 := Scalar.ofBits .f32 0x3F000000#32
  let v659 := k1_pay189 (F := Ideal) v629 v633
  let v660 := k1_pay190 (F := Ideal) v633 v637
  let v661 := k1_pay191 (F := Ideal) v637 v641
  let v662 := k1_pay192 (F := Ideal) v641 v645
  let v663 := k1_pay193 (F := Ideal) v645 v649
  let v664 := k1_pay194 (F := Ideal) v649 v653
  let v666 := k1_pay195 (F := Ideal) v605
  let v675 := k1_pay197 (F := Ideal) v605 v654 v655
  let v682 := k1_pay199 (F := Ideal) v605 v655 v656
  let v689 := k1_pay201 (F := Ideal) v605 v621 v625 v656
  let v696 := k1_pay203 (F := Ideal) v605 v621 v625 v629
  let v698 := k1_pay204 (F := Ideal) v605
  let v703 := k1_pay205 (F := Ideal) v605 v625 v629 v633
  let cst_254 : Ideal .f32 := Scalar.ofBits .f32 0xBFE00000#32
  let v710 := k1_pay207 (F := Ideal) v659 v660 v666 v698 cst_240
  let v717 := k1_pay209 (F := Ideal) v660 v661 v666 cst_240
  let v724 := k1_pay211 (F := Ideal) v661 v662 v666
  let v731 := k1_pay213 (F := Ideal) v662 v663 v666
  let v738 := k1_pay214 (F := Ideal) v663 v664 v666
  let v740 := k1_pay215 (F := Ideal) v605
  let v744 := k1_pay216 (F := Ideal) v605
  let v749 := k1_pay217 (F := Ideal) v605 v675 v682
  let v756 := k1_pay219 (F := Ideal) v682 v689 v740 v744 cst_254
  let v763 := k1_pay221 (F := Ideal) v689 v696 v740 cst_254
  let v770 := k1_pay223 (F := Ideal) v696 v703 v740
  let v777 := k1_pay225 (F := Ideal) v703 v710 v740
  let v784 := k1_pay227 (F := Ideal) v710 v717 v740
  let v791 := k1_pay229 (F := Ideal) v717 v724 v740
  let v793 := k1_pay230 (F := Ideal) v740
  let v794 := k1_pay231 (F := Ideal) v724 v740
  let v796 := k1_pay232 (F := Ideal) v740
  let v798 := k1_pay233 (F := Ideal) v731 v794 v796
  let v805 := k1_pay234 (F := Ideal) v731 v738 v740 v793
  let v807 := k1_pay235 (F := Ideal) v605
  let v816 := k1_pay237 (F := Ideal) v605 v749 v756
  let v823 := k1_pay239 (F := Ideal) v605 v756 v763
  let v830 := k1_pay241 (F := Ideal) v605 v763 v770
  let v837 := k1_pay243 (F := Ideal) v605 v770 v777
  let v839 := k1_pay244 (F := Ideal) v605
  let v840 := k1_pay245 (F := Ideal) v605 v777
  let v842 := k1_pay246 (F := Ideal) v605
  let cst_303 : FVec Ideal S5x128 .f32 := constant S5x128 .f32 0x00000000#32
  let v844 := k1_pay247 (F := Ideal) v784 v840 v842
  let v851 := k1_pay249 (F := Ideal) v784 v791 v807 v839
  let v858 := k1_pay251 (F := Ideal) v791 v798 v807
  let v865 := k1_pay252 (F := Ideal) v798 v805 v807
  let v878 := k1_pay253 (F := Ideal) v605 v816 v823 w0 w1 w2
  let v880 := k1_pay254 (F := Ideal) w3
  k1_pay255 (F := Ideal) v830 v837 v844 v851 v858 v865 v878 v880 cst_303 w4 w5 w6 w7 w8

/-- It is the same function of its loads as the first slice's. -/
theorem k1Stored2_eq (xs : Vec Ideal S9x128 .f32) (w0 w1 w2 w3 w4 w5 w6 w7 w8 : Vec Ideal S1x5x9 .f32) :
    k1Stored2 xs w0 w1 w2 w3 w4 w5 w6 w7 w8 = sliceOut xs w0 w1 w2 w3 w4 w5 w6 w7 w8 := by
  unfold k1Stored2 sliceOut
  rfl

/-- What the body stores for lanes [384, 512), composed along the body's parts, as a function of that
   slice of the patch block and the nine weight matrices. -/
def k1Stored3 (xs : Vec Ideal S9x128 .f32) (w0 w1 w2 w3 w4 w5 w6 w7 w8 : Vec Ideal S1x5x9 .f32) : FVec Ideal S5x128 .f32 :=
  let v907 := k1_pay256 (F := Ideal) xs
  let v911 := k1_pay257 (F := Ideal) xs
  let v912 := k1_pay258 (F := Ideal)
  let v939 := k1_pay265 (F := Ideal) v907
  let v943 := k1_pay266 (F := Ideal) v907
  let v947 := k1_pay267 (F := Ideal) v907
  let v951 := k1_pay268 (F := Ideal) v907
  let v955 := k1_pay269 (F := Ideal) v907
  let v956 := k1_pay270 (F := Ideal) v907 v911 v912
  let v957 := k1_pay271 (F := Ideal) v907 v912
  let v958 := k1_pay272 (F := Ideal) v907
  let v959 := k1_pay273 (F := Ideal) v907
  let v960 := k1_pay274 (F := Ideal) v907
  let v961 := k1_pay275 (F := Ideal) v907
  let v962 := k1_pay276 (F := Ideal) v907
  let cst_353 : Ideal .f32 := Scalar.ofBits .f32 0x3F800000#32
  let v963 := k1_pay277 (F := Ideal) v939 v943
  let v964 := k1_pay278 (F := Ideal) v943 v947
  let v965 := k1_pay279 (F := Ideal) v947 v951
  let v966 := k1_pay280 (F := Ideal) v951 v955
  let v968 := k1_pay281 (F := Ideal) v907
  let v977 := k1_pay283 (F := Ideal) v907 v956 v957
  let v984 := k1_pay285 (F := Ideal) v907 v957 v958
  let v991 := k1_pay287 (F := Ideal) v907 v958 v959
  let v998 := k1_pay289 (F := Ideal) v907 v959 v960
  let v1005 := k1_pay291 (F := Ideal) v907 v960 v961
  let v1007 := k1_pay292 (F := Ideal) v907
  let v1008 := k1_pay293 (F := Ideal) v907 v961
  let cst_367 : Ideal .f32 := Scalar.ofBits .f32 0x3F800000#32
  let v1012 := k1_pay294 (F := Ideal) v962 v1007 v1008 cst_353
  let v1019 := k1_pay296 (F := Ideal) v962 v963 v968 v1007
  let v1026 := k1_pay298 (F := Ideal) v963 v964 v968
  let v1033 := k1_pay300 (F := Ideal) v964 v965 v968
  let v1040 := k1_pay301 (F := Ideal) v965 v966 v968
  let v1042 := k1_pay302 (F := Ideal) v907
  let v1051 := k1_pay304 (F := Ideal) v907 v977 v984
  let v1053 := k1_pay305 (F := Ideal) v907
  let v1054 := k1_pay306 (F := Ideal) v907 v984
  let v1058 := k1_pay307 (F := Ideal) v991 v1053 v1054 cst_367
  let v1065 := k1_pay309 (F := Ideal) v991 v998 v1042 v1053
  let v1072 := k1_pay311 (F := Ideal) v998 v1005 v1042
  let v1079 := k1_pay313 (F := Ideal) v1005 v1012 v1042
  let v1086 := k1_pay315 (F := Ideal) v1012 v1019 v1042
  let v1093 := k1_pay317 (F := Ideal) v1019 v1026 v1042
  let v1095 := k1_pay318 (F := Ideal) v1042
  let v1100 := k1_pay319 (F := Ideal) v1026 v1033 v1042
  let v1101 := k1_pay320 (F := Ideal)
  let v1107 := k1_pay321 (F := Ideal) v1033 v1040 v1042 v1095 v1101
  let v1109 := k1_pay322 (F := Ideal) v907
  let v1118 := k1_pay324 (F := Ideal) v907 v1051 v1058
  let v1125 := k1_pay326 (F := Ideal) v907 v1058 v1065
  let v1132 := k1_pay328 (F := Ideal) v907 v1065 v1072
  let v1139 := k1_pay330 (F := Ideal) v907 v1072 v1079
  let v1141 := k1_pay331 (F := Ideal) v907
  let v1146 := k1_pay332 (F := Ideal) v907 v1079 v1086
  let v1147 := k1_pay333 (F := Ideal)
  let v1153 := k1_pay335 (F := Ideal) v1086 v1093 v1109 v1141 v1147
  let v1160 := k1_pay337 (F := Ideal) v1093 v1100 v1109 v1147
  let v1167 := k1_pay338 (F := Ideal) v1100 v1107 v1109
  let v1184 := k1_pay339 (F := Ideal) v907 v1118 v1125 v1132 w0 w1 w2 w3
  k1_pay340 (F := Ideal) v1139 v1146 v1153 v1160 v1167 v1184 w4 w5 w6 w7 w8

/-- It is the same function of its loads as the first slice's. -/
theorem k1Stored3_eq (xs : Vec Ideal S9x128 .f32) (w0 w1 w2 w3 w4 w5 w6 w7 w8 : Vec Ideal S1x5x9 .f32) :
    k1Stored3 xs w0 w1 w2 w3 w4 w5 w6 w7 w8 = sliceOut xs w0 w1 w2 w3 w4 w5 w6 w7 w8 := by
  unfold k1Stored3 sliceOut
  rfl

end Cert.RI.SliceValue

end
-- ==== Proof.RI.SliceC1b.lean ====
/- The second convolution of the reference: what its body stores for lanes [128 s, 128 s + 128), s = 4, ..., 7,
   written as the composition of the body's values along its parts, a function of that slice of the patch
   block and of the nine weight matrices; and the fact that each is the same function of its loads as the
   first slice's (the sixteen slices are one computation on sixteen sets of lanes). -/
import proofs.«125140_g2000505823476311_pallasbulk_1268_6_alg».proof.Proof.Gen.ReferenceIdeal.Skeleton
import proofs.«125140_g2000505823476311_pallasbulk_1268_6_alg».proof.Proof.FeatValue
import proofs.«125140_g2000505823476311_pallasbulk_1268_6_alg».proof.Proof.RI.SliceValue

noncomputable section

namespace Cert.RI.SliceValue

open Idealize.ShloMosaic Idealize.ShloMosaic.ValueIdx Cert.ReferenceIdeal Cert.ReferenceIdeal.Gen Cert.Feat

/-- What the body stores for lanes [512, 640), composed along the body's parts, as a function of that
   slice of the patch block and the nine weight matrices. -/
def k1Stored4 (xs : Vec Ideal S9x128 .f32) (w0 w1 w2 w3 w4 w5 w6 w7 w8 : Vec Ideal S1x5x9 .f32) : FVec Ideal S5x128 .f32 :=
  let cst_442 : Ideal .f32 := Scalar.ofBits .f32 0xBFB33333#32
  let v1209 := k1_pay341 (F := Ideal) xs
  let v1213 := k1_pay342 (F := Ideal) xs
  let v1217 := k1_pay343 (F := Ideal) xs
  let v1258 := k1_pay353 (F := Ideal) v1213 v1217
  let v1259 := k1_pay354 (F := Ideal) v1209 v1217 cst_442
  let v1260 := k1_pay355 (F := Ideal) v1209 cst_442
  let v1261 := k1_pay356 (F := Ideal) v1209
  let v1262 := k1_pay357 (F := Ideal) v1209
  let v1263 := k1_pay358 (F := Ideal) v1209
  let v1264 := k1_pay359 (F := Ideal) v1209
  let v1265 := k1_pay360 (F := Ideal) v1209
  let v1266 := k1_pay361 (F := Ideal) v1209
  let v1267 := k1_pay362 (F := Ideal) v1209
  let v1268 := k1_pay363 (F := Ideal) v1209
  let v1270 := k1_pay364 (F := Ideal) v1209
  let v1279 := k1_pay366 (F := Ideal) v1209 v1258 v1259
  let v1286 := k1_pay368 (F := Ideal) v1209 v1259 v1260
  let v1293 := k1_pay370 (F := Ideal) v1209 v1260 v1261
  let v1300 := k1_pay372 (F := Ideal) v1209 v1261 v1262
  let v1307 := k1_pay374 (F := Ideal) v1209 v1262 v1263
  let v1309 := k1_pay375 (F := Ideal) v1209
  let v1314 := k1_pay376 (F := Ideal) v1209 v1263 v1264
  let v1321 := k1_pay378 (F := Ideal) v1264 v1265 v1270 v1309
  let v1328 := k1_pay380 (F := Ideal) v1265 v1266 v1270
  let v1335 := k1_pay382 (F := Ideal) v1266 v1267 v1270
  let v1342 := k1_pay383 (F := Ideal) v1267 v1268 v1270
  let v1344 := k1_pay384 (F := Ideal) v1209
  let v1353 := k1_pay386 (F := Ideal) v1209 v1279 v1286
  let v1355 := k1_pay387 (F := Ideal) v1209
  let v1360 := k1_pay388 (F := Ideal) v1209 v1286 v1293
  let v1367 := k1_pay390 (F := Ideal) v1293 v1300 v1344 v1355
  let v1374 := k1_pay392 (F := Ideal) v1300 v1307 v1344
  let v1381 := k1_pay394 (F := Ideal) v1307 v1314 v1344
  let v1388 := k1_pay396 (F := Ideal) v1314 v1321 v1344
  let v1395 := k1_pay398 (F := Ideal) v1321 v1328 v1344
  let v1402 := k1_pay400 (F := Ideal) v1328 v1335 v1344
  let v1404 := k1_pay401 (F := Ideal) v1344
  let v1405 := k1_pay402 (F := Ideal) v1335 v1344
  let v1406 := k1_pay403 (F := Ideal)
  let v1409 := k1_pay404 (F := Ideal) v1342 v1404 v1405 v1406
  let v1411 := k1_pay405 (F := Ideal) v1209
  let v1420 := k1_pay407 (F := Ideal) v1209 v1353 v1360
  let v1427 := k1_pay409 (F := Ideal) v1209 v1360 v1367
  let v1434 := k1_pay411 (F := Ideal) v1209 v1367 v1374
  let v1441 := k1_pay413 (F := Ideal) v1209 v1374 v1381
  let v1448 := k1_pay415 (F := Ideal) v1209 v1381 v1388
  let v1450 := k1_pay416 (F := Ideal) v1209
  let v1451 := k1_pay417 (F := Ideal) v1209 v1388
  let v1452 := k1_pay418 (F := Ideal)
  let cst_531 : FVec Ideal S5x128 .f32 := constant S5x128 .f32 0x00000000#32
  let v1455 := k1_pay419 (F := Ideal) v1395 v1450 v1451 v1452
  let v1462 := k1_pay421 (F := Ideal) v1395 v1402 v1411 v1450
  let v1469 := k1_pay422 (F := Ideal) v1402 v1409 v1411
  let v1486 := k1_pay423 (F := Ideal) v1209 v1420 v1427 v1434 w0 w1 w2 w3
  let v1488 := k1_pay424 (F := Ideal) w4
  k1_pay425 (F := Ideal) v1441 v1448 v1455 v1462 v1469 v1486 v1488 cst_531 w5 w6 w7 w8

/-- It is the same function of its loads as the first slice's. -/
theorem k1Stored4_eq (xs : Vec Ideal S9x128 .f32) (w0 w1 w2 w3 w4 w5 w6 w7 w8 : Vec Ideal S1x5x9 .f32) :
    k1Stored4 xs w0 w1 w2 w3 w4 w5 w6 w7 w8 = sliceOut xs w0 w1 w2 w3 w4 w5 w6 w7 w8 := by
  unfold k1Stored4 sliceOut
  rfl

/-- What the body stores for lanes [640, 768), composed along the body's parts, as a function of that
   slice of the patch block and the nine weight matrices. -/
def k1Stored5 (xs : Vec Ideal S9x128 .f32) (w0 w1 w2 w3 w4 w5 w6 w7 w8 : Vec Ideal S1x5x9 .f32) : FVec Ideal S5x128 .f32 :=
  let v1511 := k1_pay426 (F := Ideal) xs
  let v1515 := k1_pay427 (F := Ideal) xs
  let v1519 := k1_pay428 (F := Ideal) xs
  let v1523 := k1_pay429 (F := Ideal) xs
  let cst_565 : Ideal .f32 := Scalar.ofBits .f32 0xC0B00000#32
  let v1560 := k1_pay438 (F := Ideal) v1515 v1519
  let v1561 := k1_pay439 (F := Ideal) v1519 v1523
  let v1562 := k1_pay440 (F := Ideal) v1511 v1523
  let v1563 := k1_pay441 (F := Ideal) v1511
  let v1564 := k1_pay442 (F := Ideal) v1511
  let v1565 := k1_pay443 (F := Ideal) v1511
  let v1566 := k1_pay444 (F := Ideal) v1511
  let v1567 := k1_pay445 (F := Ideal) v1511
  let v1568 := k1_pay446 (F := Ideal) v1511
  let v1569 := k1_pay447 (F := Ideal) v1511
  let v1570 := k1_pay448 (F := Ideal) v1511
  let v1572 := k1_pay449 (F := Ideal) v1511
  let v1581 := k1_pay451 (F := Ideal) v1560 v1561 v1572 cst_565
  let v1588 := k1_pay453 (F := Ideal) v1561 v1562 v1572
  let v1595 := k1_pay455 (F := Ideal) v1562 v1563 v1572
  let v1602 := k1_pay457 (F := Ideal) v1563 v1564 v1572
  let v1609 := k1_pay459 (F := Ideal) v1564 v1565 v1572
  let v1616 := k1_pay461 (F := Ideal) v1565 v1566 v1572
  let v1618 := k1_pay462 (F := Ideal) v1572
  let v1619 := k1_pay463 (F := Ideal) v1566 v1572
  let v1623 := k1_pay464 (F := Ideal) v1567 v1618 v1619
  let v1630 := k1_pay466 (F := Ideal) v1567 v1568 v1572 v1618
  let v1637 := k1_pay468 (F := Ideal) v1568 v1569 v1572
  let v1644 := k1_pay469 (F := Ideal) v1569 v1570 v1572
  let v1646 := k1_pay470 (F := Ideal) v1511
  let v1655 := k1_pay472 (F := Ideal) v1511 v1581 v1588
  let v1662 := k1_pay474 (F := Ideal) v1511 v1588 v1595
  let v1664 := k1_pay475 (F := Ideal) v1511
  let v1665 := k1_pay476 (F := Ideal) v1511 v1595
  let cst_606 : Ideal .f32 := Scalar.ofBits .f32 0x3F555555#32
  let v1669 := k1_pay477 (F := Ideal) v1602 v1664 v1665
  let v1676 := k1_pay479 (F := Ideal) v1602 v1609 v1646 v1664
  let v1683 := k1_pay481 (F := Ideal) v1609 v1616 v1646
  let v1690 := k1_pay483 (F := Ideal) v1616 v1623 v1646
  let v1697 := k1_pay485 (F := Ideal) v1623 v1630 v1646
  let v1704 := k1_pay487 (F := Ideal) v1630 v1637 v1646
  let v1711 := k1_pay488 (F := Ideal) v1637 v1644 v1646
  let cst_620 : Ideal .f32 := Scalar.ofBits .f32 0x3F000000#32
  let v1713 := k1_pay489 (F := Ideal) v1511 cst_606
  let v1722 := k1_pay491 (F := Ideal) v1511 v1655 v1662 cst_606
  let v1729 := k1_pay493 (F := Ideal) v1511 v1662 v1669 cst_606
  let v1736 := k1_pay495 (F := Ideal) v1511 v1669 v1676 cst_606
  let v1743 := k1_pay497 (F := Ideal) v1511 v1676 v1683 cst_606
  let v1750 := k1_pay499 (F := Ideal) v1511 v1683 v1690 cst_606
  let v1752 := k1_pay500 (F := Ideal) v1511 cst_606
  let v1757 := k1_pay501 (F := Ideal) v1511 v1690 v1697 cst_606
  let v1764 := k1_pay503 (F := Ideal) v1697 v1704 v1713 v1752 cst_620
  let v1771 := k1_pay504 (F := Ideal) v1704 v1711 v1713 cst_620
  let v1792 := k1_pay505 (F := Ideal) v1511 v1722 v1729 v1736 v1743 w0 w1 w2 w3 w4
  k1_pay506 (F := Ideal) v1750 v1757 v1764 v1771 v1792 w5 w6 w7 w8

/-- It is the same function of its loads as the first slice's. -/
theorem k1Stored5_eq (xs : Vec Ideal S9x128 .f32) (w0 w1 w2 w3 w4 w5 w6 w7 w8 : Vec Ideal S1x5x9 .f32) :
    k1Stored5 xs w0 w1 w2 w3 w4 w5 w6 w7 w8 = sliceOut xs w0 w1 w2 w3 w4 w5 w6 w7 w8 := by
  unfold k1Stored5 sliceOut
  rfl

/-- What the body stores for lanes [768, 896), composed along the body's parts, as a function of that
   slice of the patch block and the nine weight matrices. -/
def k1Stored6 (xs : Vec Ideal S9x128 .f32) (w0 w1 w2 w3 w4 w5 w6 w7 w8 : Vec Ideal S1x5x9 .f32) : FVec Ideal S5x128 .f32 :=
  let v1813 := k1_pay507 (F := Ideal) xs
  let v1817 := k1_pay508 (F := Ideal) xs
  let v1821 := k1_pay509 (F := Ideal) xs
  let v1825 := k1_pay510 (F := Ideal) xs
  let v1828 := k1_pay511 (F := Ideal) xs
  let v1862 := k1_pay520 (F := Ideal) v1817 v1821
  let v1863 := k1_pay521 (F := Ideal) v1821 v1825
  let v1864 := k1_pay522 (F := Ideal) v1825 v1828
  let v1865 := k1_pay523 (F := Ideal) v1813 v1828
  let v1866 := k1_pay524 (F := Ideal) v1813
  let v1867 := k1_pay525 (F := Ideal) v1813
  let v1868 := k1_pay526 (F := Ideal) v1813
  let v1869 := k1_pay527 (F := Ideal) v1813
  let v1870 := k1_pay528 (F := Ideal) v1813
  let v1871 := k1_pay529 (F := Ideal) v1813
  let v1872 := k1_pay530 (F := Ideal) v1813
  let v1874 := k1_pay531 (F := Ideal) v1813
  let v1876 := k1_pay532 (F := Ideal) v1813
  let v1877 := k1_pay533 (F := Ideal)
  let v1883 := k1_pay535 (F := Ideal) v1862 v1863 v1874 v1876 v1877
  let v1890 := k1_pay537 (F := Ideal) v1863 v1864 v1874 v1877
  let v1897 := k1_pay539 (F := Ideal) v1864 v1865 v1874
  let v1904 := k1_pay541 (F := Ideal) v1865 v1866 v1874
  let v1911 := k1_pay543 (F := Ideal) v1866 v1867 v1874
  let v1918 := k1_pay545 (F := Ideal) v1867 v1868 v1874
  let v1920 := k1_pay546 (F := Ideal) v1874
  let v1921 := k1_pay547 (F := Ideal) v1868 v1874
  let v1924 := k1_pay548 (F := Ideal) v1869 v1874
  let v1925 := k1_pay549 (F := Ideal) v1921 v1924
  let v1932 := k1_pay551 (F := Ideal) v1869 v1870 v1874 v1920
  let v1939 := k1_pay553 (F := Ideal) v1870 v1871 v1874
  let v1946 := k1_pay554 (F := Ideal) v1871 v1872 v1874
  let v1948 := k1_pay555 (F := Ideal) v1813
  let v1957 := k1_pay557 (F := Ideal) v1813 v1883 v1890
  let v1964 := k1_pay559 (F := Ideal) v1813 v1890 v1897
  let v1966 := k1_pay560 (F := Ideal) v1813
  let v1967 := k1_pay561 (F := Ideal) v1813 v1897
  let v1970 := k1_pay562 (F := Ideal) v1813 v1904
  let v1971 := k1_pay563 (F := Ideal) v1967 v1970
  let v1978 := k1_pay565 (F := Ideal) v1904 v1911 v1948 v1966
  let v1985 := k1_pay567 (F := Ideal) v1911 v1918 v1948
  let v1992 := k1_pay569 (F := Ideal) v1918 v1925 v1948
  let v1999 := k1_pay571 (F := Ideal) v1925 v1932 v1948
  let v2006 := k1_pay573 (F := Ideal) v1932 v1939 v1948
  let v2013 := k1_pay574 (F := Ideal) v1939 v1946 v1948
  let v2015 := k1_pay575 (F := Ideal) v1813
  let v2016 := k1_pay576 (F := Ideal)
  let cst_733 : Ideal .f32 := Scalar.ofBits .f32 0x3F800000#32
  let v2024 := k1_pay578 (F := Ideal) v1957 v1964 v2015 v2016
  let v2031 := k1_pay580 (F := Ideal) v1964 v1971 v2015
  let v2038 := k1_pay582 (F := Ideal) v1971 v1978 v2015
  let v2045 := k1_pay584 (F := Ideal) v1978 v1985 v2015
  let v2052 := k1_pay586 (F := Ideal) v1985 v1992 v2015
  let v2059 := k1_pay588 (F := Ideal) v1992 v1999 v2015
  let v2061 := k1_pay589 (F := Ideal) v2015
  let v2062 := k1_pay590 (F := Ideal) v1999 v2015
  let cst_759 : FVec Ideal S5x128 .f32 := constant S5x128 .f32 0x00000000#32
  let v2066 := k1_pay591 (F := Ideal) v2006 v2061 v2062 cst_733
  let v2073 := k1_pay592 (F := Ideal) v2006 v2013 v2015 v2061
  let v2094 := k1_pay593 (F := Ideal) v1813 v2024 v2031 v2038 v2045 w0 w1 w2 w3 w4
  let v2096 := k1_pay594 (F := Ideal) w5
  k1_pay595 (F := Ideal) v2052 v2059 v2066 v2073 v2094 v2096 cst_759 w6 w7 w8

/-- It is the same function of its loads as the first slice's. -/
theorem k1Stored6_eq (xs : Vec Ideal S9x128 .f32) (w0 w1 w2 w3 w4 w5 w6 w7 w8 : Vec Ideal S1x5x9 .f32) :
    k1Stored6 xs w0 w1 w2 w3 w4 w5 w6 w7 w8 = sliceOut xs w0 w1 w2 w3 w4 w5 w6 w7 w8 := by
  unfold k1Stored6 sliceOut
  rfl

/-- What the body stores for lanes [896, 1024), composed along the body's parts, as a function of that
   slice of the patch block and the nine weight matrices. -/
def k1Stored7 (xs : Vec Ideal S9x128 .f32) (w0 w1 w2 w3 w4 w5 w6 w7 w8 : Vec Ideal S1x5x9 .f32) : FVec Ideal S5x128 .f32 :=
  let v2115 := k1_pay596 (F := Ideal) xs
  let v2119 := k1_pay597 (F := Ideal) xs
  let v2123 := k1_pay598 (F := Ideal) xs
  let v2127 := k1_pay599 (F := Ideal) xs
  let v2131 := k1_pay600 (F := Ideal) xs
  let v2133 := k1_pay601 (F := Ideal) xs
  let v2165 := k1_pay609 (F := Ideal) v2123 v2127
  let v2166 := k1_pay610 (F := Ideal) v2127 v2131
  let v2167 := k1_pay611 (F := Ideal) v2131 v2133
  let v2168 := k1_pay612 (F := Ideal) v2115 v2133
  let v2169 := k1_pay613 (F := Ideal) v2115
  let v2170 := k1_pay614 (F := Ideal) v2115
  let v2171 := k1_pay615 (F := Ideal) v2115
  let v2172 := k1_pay616 (F := Ideal) v2115
  let v2173 := k1_pay617 (F := Ideal) v2115
  let v2174 := k1_pay618 (F := Ideal) v2115
  let v2176 := k1_pay619 (F := Ideal) v2115
  let v2180 := k1_pay620 (F := Ideal) v2115
  let v2181 := k1_pay621 (F := Ideal) v2115 v2119 v2123
  let v2182 := k1_pay622 (F := Ideal)
  let v2185 := k1_pay623 (F := Ideal) v2165 v2180 v2181 v2182
  let v2192 := k1_pay625 (F := Ideal) v2165 v2166 v2176 v2180
  let v2199 := k1_pay627 (F := Ideal) v2166 v2167 v2176
  let v2206 := k1_pay629 (F := Ideal) v2167 v2168 v2176
  let v2213 := k1_pay631 (F := Ideal) v2168 v2169 v2176
  let v2220 := k1_pay633 (F := Ideal) v2169 v2170 v2176
  let v2222 := k1_pay634 (F := Ideal) v2176
  let v2227 := k1_pay635 (F := Ideal) v2170 v2171 v2176
  let v2229 := k1_pay636 (F := Ideal) v2176
  let v2234 := k1_pay637 (F := Ideal) v2171 v2172 v2222 v2229
  let v2241 := k1_pay639 (F := Ideal) v2172 v2173 v2176 v2229
  let v2248 := k1_pay640 (F := Ideal) v2173 v2174 v2176
  let v2250 := k1_pay641 (F := Ideal) v2115
  let v2259 := k1_pay643 (F := Ideal) v2115 v2185 v2192
  let v2266 := k1_pay645 (F := Ideal) v2115 v2192 v2199
  let v2268 := k1_pay646 (F := Ideal) v2115
  let v2273 := k1_pay647 (F := Ideal) v2115 v2199 v2206
  let v2275 := k1_pay648 (F := Ideal) v2115
  let v2280 := k1_pay649 (F := Ideal) v2206 v2213 v2268 v2275
  let v2287 := k1_pay651 (F := Ideal) v2213 v2220 v2250 v2275
  let v2294 := k1_pay653 (F := Ideal) v2220 v2227 v2250
  let v2301 := k1_pay655 (F := Ideal) v2227 v2234 v2250
  let v2308 := k1_pay657 (F := Ideal) v2234 v2241 v2250
  let v2315 := k1_pay658 (F := Ideal) v2241 v2248 v2250
  let v2317 := k1_pay659 (F := Ideal) v2115
  let v2319 := k1_pay660 (F := Ideal) v2115
  let v2321 := k1_pay661 (F := Ideal) v2115
  let v2326 := k1_pay662 (F := Ideal) v2259 v2266 v2319 v2321
  let v2333 := k1_pay664 (F := Ideal) v2266 v2273 v2317 v2321
  let v2340 := k1_pay666 (F := Ideal) v2273 v2280 v2317
  let v2347 := k1_pay668 (F := Ideal) v2280 v2287 v2317
  let v2354 := k1_pay670 (F := Ideal) v2287 v2294 v2317
  let v2361 := k1_pay672 (F := Ideal) v2294 v2301 v2317
  let v2363 := k1_pay673 (F := Ideal) v2317
  let v2368 := k1_pay674 (F := Ideal) v2301 v2308 v2317
  let v2375 := k1_pay675 (F := Ideal) v2308 v2315 v2317 v2363
  let v2400 := k1_pay676 (F := Ideal) v2115 v2326 v2333 v2340 v2347 v2354 w0 w1 w2 w3 w4 w5
  k1_pay677 (F := Ideal) v2361 v2368 v2375 v2400 w6 w7 w8

/-- It is the same function of its loads as the first slice's. -/
theorem k1Stored7_eq (xs : Vec Ideal S9x128 .f32) (w0 w1 w2 w3 w4 w5 w6 w7 w8 : Vec Ideal S1x5x9 .f32) :
    k1Stored7 xs w0 w1 w2 w3 w4 w5 w6 w7 w8 = sliceOut xs w0 w1 w2 w3 w4 w5 w6 w7 w8 := by
  unfold k1Stored7 sliceOut
  rfl

end Cert.RI.SliceValue

end
-- ==== Proof.RI.SliceC1c.lean ====
/- The second convolution of the reference: what its body stores for lanes [128 s, 128 s + 128), s = 8, ..., 11,
   written as the composition of the body's values along its parts, a function of that slice of the patch
   block and of the nine weight matrices; and the fact that each is the same function of its loads as the
   first slice's (the sixteen slices are one computation on sixteen sets of lanes). -/
import proofs.«125140_g2000505823476311_pallasbulk_1268_6_alg».proof.Proof.Gen.ReferenceIdeal.Skeleton
import proofs.«125140_g2000505823476311_pallasbulk_1268_6_alg».proof.Proof.FeatValue
import proofs.«125140_g2000505823476311_pallasbulk_1268_6_alg».proof.Proof.RI.SliceValue

noncomputable section

namespace Cert.RI.SliceValue

open Idealize.ShloMosaic Idealize.ShloMosaic.ValueIdx Cert.ReferenceIdeal Cert.ReferenceIdeal.Gen Cert.Feat

/-- What the body stores for lanes [1024, 1152), composed along the body's parts, as a function of that
   slice of the patch block and the nine weight matrices. -/
def k1Stored8 (xs : Vec Ideal S9x128 .f32) (w0 w1 w2 w3 w4 w5 w6 w7 w8 : Vec Ideal S1x5x9 .f32) : FVec Ideal S5x128 .f32 :=
  let v2417 := k1_pay678 (F := Ideal) xs
  let v2421 := k1_pay679 (F := Ideal) xs
  let v2425 := k1_pay680 (F := Ideal) xs
  let v2429 := k1_pay681 (F := Ideal) xs
  let v2433 := k1_pay682 (F := Ideal) xs
  let v2437 := k1_pay683 (F := Ideal) xs
  let v2438 := k1_pay684 (F := Ideal)
  let cst_904 : Ideal .f32 := Scalar.ofBits .f32 0xC0600000#32
  let v2467 := k1_pay691 (F := Ideal) v2425 v2429
  let v2468 := k1_pay692 (F := Ideal) v2429 v2433
  let v2469 := k1_pay693 (F := Ideal) v2433 v2437
  let v2470 := k1_pay694 (F := Ideal) v2417 v2437 v2438
  let v2471 := k1_pay695 (F := Ideal) v2417 v2438
  let v2472 := k1_pay696 (F := Ideal) v2417
  let v2473 := k1_pay697 (F := Ideal) v2417
  let v2474 := k1_pay698 (F := Ideal) v2417
  let v2475 := k1_pay699 (F := Ideal) v2417
  let v2476 := k1_pay700 (F := Ideal) v2417
  let v2478 := k1_pay701 (F := Ideal) v2417
  let v2482 := k1_pay702 (F := Ideal) v2417
  let v2487 := k1_pay703 (F := Ideal) v2417 v2421 v2425 v2429
  let v2494 := k1_pay705 (F := Ideal) v2467 v2468 v2478 v2482 cst_904
  let v2501 := k1_pay707 (F := Ideal) v2468 v2469 v2478 cst_904
  let v2508 := k1_pay709 (F := Ideal) v2469 v2470 v2478
  let v2515 := k1_pay711 (F := Ideal) v2470 v2471 v2478
  let v2522 := k1_pay713 (F := Ideal) v2471 v2472 v2478
  let v2529 := k1_pay715 (F := Ideal) v2472 v2473 v2478
  let v2531 := k1_pay716 (F := Ideal) v2478
  let v2532 := k1_pay717 (F := Ideal) v2473 v2478
  let v2534 := k1_pay718 (F := Ideal) v2478
  let v2536 := k1_pay719 (F := Ideal) v2474 v2532 v2534
  let v2543 := k1_pay721 (F := Ideal) v2474 v2475 v2478 v2531
  let v2550 := k1_pay722 (F := Ideal) v2475 v2476 v2478
  let v2552 := k1_pay723 (F := Ideal) v2417
  let v2561 := k1_pay725 (F := Ideal) v2417 v2487 v2494
  let v2568 := k1_pay727 (F := Ideal) v2417 v2494 v2501
  let v2575 := k1_pay729 (F := Ideal) v2417 v2501 v2508
  let v2577 := k1_pay730 (F := Ideal) v2417
  let v2578 := k1_pay731 (F := Ideal) v2417 v2508
  let v2580 := k1_pay732 (F := Ideal) v2417
  let v2582 := k1_pay733 (F := Ideal) v2515 v2578 v2580
  let v2589 := k1_pay735 (F := Ideal) v2515 v2522 v2552 v2577
  let v2596 := k1_pay737 (F := Ideal) v2522 v2529 v2552
  let v2603 := k1_pay739 (F := Ideal) v2529 v2536 v2552
  let v2610 := k1_pay741 (F := Ideal) v2536 v2543 v2552
  let v2617 := k1_pay742 (F := Ideal) v2543 v2550 v2552
  let v2619 := k1_pay743 (F := Ideal) v2417
  let v2623 := k1_pay744 (F := Ideal) v2417
  let v2624 := k1_pay745 (F := Ideal) v2417 v2561
  let v2626 := k1_pay746 (F := Ideal) v2417
  let v2628 := k1_pay747 (F := Ideal) v2568 v2624 v2626
  let v2635 := k1_pay749 (F := Ideal) v2568 v2575 v2619 v2623
  let v2642 := k1_pay751 (F := Ideal) v2575 v2582 v2619
  let v2649 := k1_pay753 (F := Ideal) v2582 v2589 v2619
  let v2656 := k1_pay755 (F := Ideal) v2589 v2596 v2619
  let v2663 := k1_pay757 (F := Ideal) v2596 v2603 v2619
  let v2670 := k1_pay759 (F := Ideal) v2603 v2610 v2619
  let v2672 := k1_pay760 (F := Ideal) v2619
  let v2673 := k1_pay761 (F := Ideal) v2610 v2619
  let cst_987 : FVec Ideal S5x128 .f32 := constant S5x128 .f32 0x00000000#32
  let v2677 := k1_pay762 (F := Ideal) v2617 v2672 v2673
  let v2702 := k1_pay763 (F := Ideal) v2417 v2628 v2635 v2642 v2649 v2656 w0 w1 w2 w3 w4 w5
  let v2704 := k1_pay764 (F := Ideal) w6
  k1_pay765 (F := Ideal) v2663 v2670 v2677 v2702 v2704 cst_987 w7 w8

/-- It is the same function of its loads as the first slice's. -/
theorem k1Stored8_eq (xs : Vec Ideal S9x128 .f32) (w0 w1 w2 w3 w4 w5 w6 w7 w8 : Vec Ideal S1x5x9 .f32) :
    k1Stored8 xs w0 w1 w2 w3 w4 w5 w6 w7 w8 = sliceOut xs w0 w1 w2 w3 w4 w5 w6 w7 w8 := by
  unfold k1Stored8 sliceOut
  rfl

/-- What the body stores for lanes [1152, 1280), composed along the body's parts, as a function of that
   slice of the patch block and the nine weight matrices. -/
def k1Stored9 (xs : Vec Ideal S9x128 .f32) (w0 w1 w2 w3 w4 w5 w6 w7 w8 : Vec Ideal S1x5x9 .f32) : FVec Ideal S5x128 .f32 :=
  let cst_1006 : Ideal .f32 := Scalar.ofBits .f32 0x3E4CCCCD#32
  let v2719 := k1_pay766 (F := Ideal) xs
  let v2723 := k1_pay767 (F := Ideal) xs
  let v2727 := k1_pay768 (F := Ideal) xs
  let v2731 := k1_pay769 (F := Ideal) xs
  let v2735 := k1_pay770 (F := Ideal) xs
  let v2739 := k1_pay771 (F := Ideal) xs
  let v2743 := k1_pay772 (F := Ideal) xs
  let cst_1017 : Ideal .f32 := Scalar.ofBits .f32 0x3F800000#32
  let v2770 := k1_pay779 (F := Ideal) v2731 v2735
  let v2771 := k1_pay780 (F := Ideal) v2735 v2739
  let v2772 := k1_pay781 (F := Ideal) v2739 v2743
  let v2773 := k1_pay782 (F := Ideal) v2719 v2743 cst_1006
  let v2774 := k1_pay783 (F := Ideal) v2719 cst_1006
  let v2775 := k1_pay784 (F := Ideal) v2719
  let v2776 := k1_pay785 (F := Ideal) v2719
  let v2777 := k1_pay786 (F := Ideal) v2719
  let v2778 := k1_pay787 (F := Ideal) v2719
  let v2780 := k1_pay788 (F := Ideal) v2719
  let v2789 := k1_pay790 (F := Ideal) v2719 v2723 v2727 v2731
  let v2791 := k1_pay791 (F := Ideal) v2719
  let v2792 := k1_pay792 (F := Ideal) v2719 v2727 v2731
  let v2796 := k1_pay793 (F := Ideal) v2770 v2791 v2792 cst_1017
  let v2803 := k1_pay795 (F := Ideal) v2770 v2771 v2780 v2791
  let v2810 := k1_pay797 (F := Ideal) v2771 v2772 v2780
  let v2817 := k1_pay799 (F := Ideal) v2772 v2773 v2780
  let v2824 := k1_pay801 (F := Ideal) v2773 v2774 v2780
  let v2831 := k1_pay803 (F := Ideal) v2774 v2775 v2780
  let v2833 := k1_pay804 (F := Ideal) v2780
  let v2838 := k1_pay805 (F := Ideal) v2775 v2776 v2780
  let v2839 := k1_pay806 (F := Ideal)
  let v2845 := k1_pay808 (F := Ideal) v2776 v2777 v2780 v2833 v2839
  let v2852 := k1_pay809 (F := Ideal) v2777 v2778 v2780 v2839
  let v2854 := k1_pay810 (F := Ideal) v2719
  let v2863 := k1_pay812 (F := Ideal) v2719 v2789 v2796
  let v2870 := k1_pay814 (F := Ideal) v2719 v2796 v2803
  let v2877 := k1_pay816 (F := Ideal) v2719 v2803 v2810
  let v2879 := k1_pay817 (F := Ideal) v2719
  let v2884 := k1_pay818 (F := Ideal) v2719 v2810 v2817
  let v2885 := k1_pay819 (F := Ideal)
  let v2891 := k1_pay821 (F := Ideal) v2817 v2824 v2854 v2879 v2885
  let v2898 := k1_pay823 (F := Ideal) v2824 v2831 v2854 v2885
  let v2905 := k1_pay825 (F := Ideal) v2831 v2838 v2854
  let v2912 := k1_pay827 (F := Ideal) v2838 v2845 v2854
  let v2919 := k1_pay828 (F := Ideal) v2845 v2852 v2854
  let v2921 := k1_pay829 (F := Ideal) v2719
  let v2925 := k1_pay830 (F := Ideal) v2719
  let v2930 := k1_pay831 (F := Ideal) v2719 v2863 v2870
  let v2931 := k1_pay832 (F := Ideal)
  let v2937 := k1_pay834 (F := Ideal) v2870 v2877 v2921 v2925 v2931
  let v2944 := k1_pay836 (F := Ideal) v2877 v2884 v2921 v2931
  let v2951 := k1_pay838 (F := Ideal) v2884 v2891 v2921
  let v2958 := k1_pay840 (F := Ideal) v2891 v2898 v2921
  let v2965 := k1_pay842 (F := Ideal) v2898 v2905 v2921
  let v2972 := k1_pay844 (F := Ideal) v2905 v2912 v2921
  let v2975 := k1_pay845 (F := Ideal) v2912 v2921
  let v2978 := k1_pay846 (F := Ideal) v2919 v2921
  let v2979 := k1_pay847 (F := Ideal) v2975 v2978
  let v3008 := k1_pay848 (F := Ideal) v2719 v2930 v2937 v2944 v2951 v2958 v2965 w0 w1 w2 w3 w4 w5 w6
  k1_pay849 (F := Ideal) v2972 v2979 v3008 w7 w8

/-- It is the same function of its loads as the first slice's. -/
theorem k1Stored9_eq (xs : Vec Ideal S9x128 .f32) (w0 w1 w2 w3 w4 w5 w6 w7 w8 : Vec Ideal S1x5x9 .f32) :
    k1Stored9 xs w0 w1 w2 w3 w4 w5 w6 w7 w8 = sliceOut xs w0 w1 w2 w3 w4 w5 w6 w7 w8 := by
  unfold k1Stored9 sliceOut
  rfl

/-- What the body stores for lanes [1280, 1408), composed along the body's parts, as a function of that
   slice of the patch block and the nine weight matrices. -/
def k1Stored10 (xs : Vec Ideal S9x128 .f32) (w0 w1 w2 w3 w4 w5 w6 w7 w8 : Vec Ideal S1x5x9 .f32) : FVec Ideal S5x128 .f32 :=
  let v3021 := k1_pay850 (F := Ideal) xs
  let v3025 := k1_pay851 (F := Ideal) xs
  let v3029 := k1_pay852 (F := Ideal) xs
  let v3033 := k1_pay853 (F := Ideal) xs
  let v3037 := k1_pay854 (F := Ideal) xs
  let v3041 := k1_pay855 (F := Ideal) xs
  let v3045 := k1_pay856 (F := Ideal) xs
  let v3049 := k1_pay857 (F := Ideal) xs
  let v3072 := k1_pay863 (F := Ideal) v3033 v3037
  let v3073 := k1_pay864 (F := Ideal) v3037 v3041
  let v3074 := k1_pay865 (F := Ideal) v3041 v3045
  let v3075 := k1_pay866 (F := Ideal) v3045 v3049
  let v3076 := k1_pay867 (F := Ideal) v3021 v3049
  let v3077 := k1_pay868 (F := Ideal) v3021
  let v3078 := k1_pay869 (F := Ideal) v3021
  let v3079 := k1_pay870 (F := Ideal) v3021
  let v3080 := k1_pay871 (F := Ideal) v3021
  let v3082 := k1_pay872 (F := Ideal) v3021
  let v3091 := k1_pay874 (F := Ideal) v3021 v3025 v3029 v3033
  let v3093 := k1_pay875 (F := Ideal) v3021
  let v3098 := k1_pay876 (F := Ideal) v3021 v3029 v3033 v3037
  let v3105 := k1_pay878 (F := Ideal) v3072 v3073 v3082 v3093
  let v3112 := k1_pay880 (F := Ideal) v3073 v3074 v3082
  let v3119 := k1_pay882 (F := Ideal) v3074 v3075 v3082
  let v3126 := k1_pay884 (F := Ideal) v3075 v3076 v3082
  let v3133 := k1_pay886 (F := Ideal) v3076 v3077 v3082
  let v3140 := k1_pay888 (F := Ideal) v3077 v3078 v3082
  let v3142 := k1_pay889 (F := Ideal) v3082
  let v3143 := k1_pay890 (F := Ideal) v3078 v3082
  let v3144 := k1_pay891 (F := Ideal)
  let v3147 := k1_pay892 (F := Ideal) v3079 v3142 v3143 v3144
  let v3154 := k1_pay893 (F := Ideal) v3079 v3080 v3082 v3142
  let v3156 := k1_pay894 (F := Ideal) v3021
  let v3165 := k1_pay896 (F := Ideal) v3021 v3091 v3098
  let v3172 := k1_pay898 (F := Ideal) v3021 v3098 v3105
  let v3179 := k1_pay900 (F := Ideal) v3021 v3105 v3112
  let v3186 := k1_pay902 (F := Ideal) v3021 v3112 v3119
  let v3188 := k1_pay903 (F := Ideal) v3021
  let v3189 := k1_pay904 (F := Ideal) v3021 v3119
  let v3190 := k1_pay905 (F := Ideal)
  let v3193 := k1_pay906 (F := Ideal) v3126 v3188 v3189 v3190
  let v3200 := k1_pay908 (F := Ideal) v3126 v3133 v3156 v3188
  let v3207 := k1_pay910 (F := Ideal) v3133 v3140 v3156
  let v3214 := k1_pay912 (F := Ideal) v3140 v3147 v3156
  let v3221 := k1_pay913 (F := Ideal) v3147 v3154 v3156
  let v3223 := k1_pay914 (F := Ideal) v3021
  let v3232 := k1_pay916 (F := Ideal) v3021 v3165 v3172
  let v3234 := k1_pay917 (F := Ideal) v3021
  let v3235 := k1_pay918 (F := Ideal) v3021 v3172
  let v3236 := k1_pay919 (F := Ideal)
  let v3239 := k1_pay920 (F := Ideal) v3179 v3234 v3235 v3236
  let v3246 := k1_pay922 (F := Ideal) v3179 v3186 v3223 v3234
  let v3253 := k1_pay924 (F := Ideal) v3186 v3193 v3223
  let v3260 := k1_pay926 (F := Ideal) v3193 v3200 v3223
  let v3267 := k1_pay928 (F := Ideal) v3200 v3207 v3223
  let v3274 := k1_pay930 (F := Ideal) v3207 v3214 v3223
  let v3281 := k1_pay931 (F := Ideal) v3214 v3221 v3223
  let v3283 := k1_pay932 (F := Ideal) v3021
  let cst_1215 : FVec Ideal S5x128 .f32 := constant S5x128 .f32 0x00000000#32
  let v3310 := k1_pay933 (F := Ideal) v3232 v3239 v3246 v3253 v3260 v3267 v3283 w0 w1 w2 w3 w4 w5 w6
  let v3312 := k1_pay934 (F := Ideal) w7
  k1_pay935 (F := Ideal) v3274 v3281 v3310 v3312 cst_1215 w8

/-- It is the same function of its loads as the first slice's. -/
theorem k1Stored10_eq (xs : Vec Ideal S9x128 .f32) (w0 w1 w2 w3 w4 w5 w6 w7 w8 : Vec Ideal S1x5x9 .f32) :
    k1Stored10 xs w0 w1 w2 w3 w4 w5 w6 w7 w8 = sliceOut xs w0 w1 w2 w3 w4 w5 w6 w7 w8 := by
  unfold k1Stored10 sliceOut
  rfl

/-- What the body stores for lanes [1408, 1536), composed along the body's parts, as a function of that
   slice of the patch block and the nine weight matrices. -/
def k1Stored11 (xs : Vec Ideal S9x128 .f32) (w0 w1 w2 w3 w4 w5 w6 w7 w8 : Vec Ideal S1x5x9 .f32) : FVec Ideal S5x128 .f32 :=
  let v3323 := k1_pay936 (F := Ideal) xs
  let v3327 := k1_pay937 (F := Ideal) xs
  let v3331 := k1_pay938 (F := Ideal) xs
  let v3335 := k1_pay939 (F := Ideal) xs
  let v3339 := k1_pay940 (F := Ideal) xs
  let v3343 := k1_pay941 (F := Ideal) xs
  let v3347 := k1_pay942 (F := Ideal) xs
  let v3351 := k1_pay943 (F := Ideal) xs
  let v3354 := k1_pay944 (F := Ideal) xs
  let v3375 := k1_pay951 (F := Ideal) v3339 v3343
  let v3376 := k1_pay952 (F := Ideal) v3343 v3347
  let v3377 := k1_pay953 (F := Ideal) v3347 v3351
  let v3378 := k1_pay954 (F := Ideal) v3351 v3354
  let v3379 := k1_pay955 (F := Ideal) v3323 v3354
  let v3380 := k1_pay956 (F := Ideal) v3323
  let v3381 := k1_pay957 (F := Ideal) v3323
  let v3382 := k1_pay958 (F := Ideal) v3323
  let v3384 := k1_pay959 (F := Ideal) v3323
  let v3393 := k1_pay961 (F := Ideal) v3323 v3327 v3331 v3335
  let v3400 := k1_pay963 (F := Ideal) v3323 v3331 v3335 v3339
  let v3402 := k1_pay964 (F := Ideal) v3323
  let v3403 := k1_pay965 (F := Ideal) v3323 v3335 v3339
  let cst_1256 : Ideal .f32 := Scalar.ofBits .f32 0x40900000#32
  let v3407 := k1_pay966 (F := Ideal) v3375 v3402 v3403
  let v3414 := k1_pay968 (F := Ideal) v3375 v3376 v3384 v3402
  let v3421 := k1_pay970 (F := Ideal) v3376 v3377 v3384
  let v3428 := k1_pay972 (F := Ideal) v3377 v3378 v3384
  let v3435 := k1_pay974 (F := Ideal) v3378 v3379 v3384
  let v3442 := k1_pay976 (F := Ideal) v3379 v3380 v3384
  let v3444 := k1_pay977 (F := Ideal) v3384
  let v3449 := k1_pay978 (F := Ideal) v3380 v3381 v3384
  let cst_1270 : Ideal .f32 := Scalar.ofBits .f32 0x3E800000#32
  let v3456 := k1_pay979 (F := Ideal) v3381 v3382 v3384 v3444 cst_1256
  let v3458 := k1_pay980 (F := Ideal) v3323
  let v3467 := k1_pay982 (F := Ideal) v3323 v3393 v3400
  let v3474 := k1_pay984 (F := Ideal) v3323 v3400 v3407
  let v3481 := k1_pay986 (F := Ideal) v3323 v3407 v3414
  let v3488 := k1_pay988 (F := Ideal) v3323 v3414 v3421
  let v3490 := k1_pay989 (F := Ideal) v3323
  let v3495 := k1_pay990 (F := Ideal) v3323 v3421 v3428
  let cst_1284 : Ideal .f32 := Scalar.ofBits .f32 0xBF555555#32
  let v3502 := k1_pay992 (F := Ideal) v3428 v3435 v3458 v3490 cst_1270
  let v3509 := k1_pay994 (F := Ideal) v3435 v3442 v3458 cst_1270
  let v3516 := k1_pay996 (F := Ideal) v3442 v3449 v3458
  let v3523 := k1_pay997 (F := Ideal) v3449 v3456 v3458
  let v3525 := k1_pay998 (F := Ideal) v3323
  let v3534 := k1_pay1000 (F := Ideal) v3323 v3467 v3474
  let v3536 := k1_pay1001 (F := Ideal) v3323
  let v3541 := k1_pay1002 (F := Ideal) v3323 v3474 v3481
  let v3548 := k1_pay1004 (F := Ideal) v3481 v3488 v3525 v3536 cst_1284
  let v3555 := k1_pay1006 (F := Ideal) v3488 v3495 v3525 cst_1284
  let v3562 := k1_pay1008 (F := Ideal) v3495 v3502 v3525
  let v3569 := k1_pay1010 (F := Ideal) v3502 v3509 v3525
  let v3576 := k1_pay1012 (F := Ideal) v3509 v3516 v3525
  let v3583 := k1_pay1013 (F := Ideal) v3516 v3523 v3525
  let v3585 := k1_pay1014 (F := Ideal) v3323
  let v3587 := k1_pay1015 (F := Ideal) w0
  let v3616 := k1_pay1016 (F := Ideal) v3534 v3541 v3548 v3555 v3562 v3569 v3576 v3585 v3587 w1 w2 w3 w4 w5 w6 w7
  k1_pay1017 (F := Ideal) v3583 v3616 w8

/-- It is the same function of its loads as the first slice's. -/
theorem k1Stored11_eq (xs : Vec Ideal S9x128 .f32) (w0 w1 w2 w3 w4 w5 w6 w7 w8 : Vec Ideal S1x5x9 .f32) :
    k1Stored11 xs w0 w1 w2 w3 w4 w5 w6 w7 w8 = sliceOut xs w0 w1 w2 w3 w4 w5 w6 w7 w8 := by
  unfold k1Stored11 sliceOut
  rfl

end Cert.RI.SliceValue

end
-- ==== Proof.RI.SliceC1d.lean ====
/- The second convolution of the reference: what its body stores for lanes [128 s, 128 s + 128), s = 12, ..., 15,
   written as the composition of the body's values along its parts, a function of that slice of the patch
   block and of the nine weight matrices; and the fact that each is the same function of its loads as the
   first slice's (the sixteen slices are one computation on sixteen sets of lanes). -/
import proofs.«125140_g2000505823476311_pallasbulk_1268_6_alg».proof.Proof.Gen.ReferenceIdeal.Skeleton
import proofs.«125140_g2000505823476311_pallasbulk_1268_6_alg».proof.Proof.FeatValue
import proofs.«125140_g2000505823476311_pallasbulk_1268_6_alg».proof.Proof.RI.SliceValue

noncomputable section

namespace Cert.RI.SliceValue

open Idealize.ShloMosaic Idealize.ShloMosaic.ValueIdx Cert.ReferenceIdeal Cert.ReferenceIdeal.Gen Cert.Feat

/-- What the body stores for lanes [1536, 1664), composed along the body's parts, as a function of that
   slice of the patch block and the nine weight matrices. -/
def k1Stored12 (xs : Vec Ideal S9x128 .f32) (w0 w1 w2 w3 w4 w5 w6 w7 w8 : Vec Ideal S1x5x9 .f32) : FVec Ideal S5x128 .f32 :=
  let v3625 := k1_pay1018 (F := Ideal) xs
  let v3629 := k1_pay1019 (F := Ideal) xs
  let v3633 := k1_pay1020 (F := Ideal) xs
  let v3637 := k1_pay1021 (F := Ideal) xs
  let v3641 := k1_pay1022 (F := Ideal) xs
  let v3645 := k1_pay1023 (F := Ideal) xs
  let v3649 := k1_pay1024 (F := Ideal) xs
  let v3653 := k1_pay1025 (F := Ideal) xs
  let v3657 := k1_pay1026 (F := Ideal) xs
  let v3659 := k1_pay1027 (F := Ideal) xs
  let v3677 := k1_pay1033 (F := Ideal) v3641 v3645
  let v3678 := k1_pay1034 (F := Ideal) v3645 v3649
  let v3679 := k1_pay1035 (F := Ideal) v3649 v3653
  let v3680 := k1_pay1036 (F := Ideal) v3653 v3657
  let v3681 := k1_pay1037 (F := Ideal) v3657 v3659
  let v3682 := k1_pay1038 (F := Ideal) v3625 v3659
  let v3683 := k1_pay1039 (F := Ideal) v3625
  let v3684 := k1_pay1040 (F := Ideal) v3625
  let v3686 := k1_pay1041 (F := Ideal) v3625
  let v3695 := k1_pay1043 (F := Ideal) v3625 v3629 v3633 v3637
  let v3702 := k1_pay1045 (F := Ideal) v3625 v3633 v3637 v3641
  let v3704 := k1_pay1046 (F := Ideal) v3625
  let v3705 := k1_pay1047 (F := Ideal) v3625 v3637 v3641
  let v3708 := k1_pay1048 (F := Ideal) v3625 v3641 v3645
  let cst_1369 : Ideal .f32 := Scalar.ofBits .f32 0x3F800000#32
  let v3709 := k1_pay1049 (F := Ideal) v3705 v3708
  let v3716 := k1_pay1051 (F := Ideal) v3677 v3678 v3686 v3704
  let v3723 := k1_pay1053 (F := Ideal) v3678 v3679 v3686
  let v3730 := k1_pay1055 (F := Ideal) v3679 v3680 v3686
  let v3737 := k1_pay1057 (F := Ideal) v3680 v3681 v3686
  let v3744 := k1_pay1059 (F := Ideal) v3681 v3682 v3686
  let v3751 := k1_pay1061 (F := Ideal) v3682 v3683 v3686
  let v3753 := k1_pay1062 (F := Ideal) v3686
  let v3754 := k1_pay1063 (F := Ideal) v3683 v3686
  let cst_1383 : Ideal .f32 := Scalar.ofBits .f32 0x3F800000#32
  let v3758 := k1_pay1064 (F := Ideal) v3684 v3753 v3754 cst_1369
  let v3760 := k1_pay1065 (F := Ideal) v3625
  let v3769 := k1_pay1067 (F := Ideal) v3625 v3695 v3702
  let v3776 := k1_pay1069 (F := Ideal) v3625 v3702 v3709
  let v3783 := k1_pay1071 (F := Ideal) v3625 v3709 v3716
  let v3790 := k1_pay1073 (F := Ideal) v3625 v3716 v3723
  let v3797 := k1_pay1075 (F := Ideal) v3625 v3723 v3730
  let v3799 := k1_pay1076 (F := Ideal) v3625
  let v3800 := k1_pay1077 (F := Ideal) v3625 v3730
  let cst_1397 : Ideal .f32 := Scalar.ofBits .f32 0x3F800000#32
  let v3804 := k1_pay1078 (F := Ideal) v3737 v3799 v3800 cst_1383
  let v3811 := k1_pay1080 (F := Ideal) v3737 v3744 v3760 v3799
  let v3818 := k1_pay1082 (F := Ideal) v3744 v3751 v3760
  let v3825 := k1_pay1083 (F := Ideal) v3751 v3758 v3760
  let v3827 := k1_pay1084 (F := Ideal) v3625
  let v3836 := k1_pay1086 (F := Ideal) v3625 v3769 v3776
  let v3843 := k1_pay1088 (F := Ideal) v3625 v3776 v3783
  let v3845 := k1_pay1089 (F := Ideal) v3625
  let v3846 := k1_pay1090 (F := Ideal) v3625 v3783
  let v3850 := k1_pay1091 (F := Ideal) v3790 v3845 v3846 cst_1397
  let v3857 := k1_pay1093 (F := Ideal) v3790 v3797 v3827 v3845
  let v3864 := k1_pay1095 (F := Ideal) v3797 v3804 v3827
  let v3871 := k1_pay1097 (F := Ideal) v3804 v3811 v3827
  let v3878 := k1_pay1099 (F := Ideal) v3811 v3818 v3827
  let v3885 := k1_pay1100 (F := Ideal) v3818 v3825 v3827
  let v3890 := k1_pay1101 (F := Ideal) v3625 w0
  let cst_1443 : FVec Ideal S5x128 .f32 := constant S5x128 .f32 0x00000000#32
  let v3918 := k1_pay1102 (F := Ideal) v3836 v3843 v3850 v3857 v3864 v3871 v3878 v3890 w1 w2 w3 w4 w5 w6 w7
  let v3920 := k1_pay1103 (F := Ideal) w8
  k1_pay1104 (F := Ideal) v3885 v3918 v3920 cst_1443

/-- It is the same function of its loads as the first slice's. -/
theorem k1Stored12_eq (xs : Vec Ideal S9x128 .f32) (w0 w1 w2 w3 w4 w5 w6 w7 w8 : Vec Ideal S1x5x9 .f32) :
    k1Stored12 xs w0 w1 w2 w3 w4 w5 w6 w7 w8 = sliceOut xs w0 w1 w2 w3 w4 w5 w6 w7 w8 := by
  unfold k1Stored12 sliceOut
  rfl

/-- What the body stores for lanes [1664, 1792), composed along the body's parts, as a function of that
   slice of the patch block and the nine weight matrices. -/
def k1Stored13 (xs : Vec Ideal S9x128 .f32) (w0 w1 w2 w3 w4 w5 w6 w7 w8 : Vec Ideal S1x5x9 .f32) : FVec Ideal S5x128 .f32 :=
  let v3927 := k1_pay1105 (F := Ideal) xs
  let v3931 := k1_pay1106 (F := Ideal) xs
  let v3935 := k1_pay1107 (F := Ideal) xs
  let v3939 := k1_pay1108 (F := Ideal) xs
  let v3943 := k1_pay1109 (F := Ideal) xs
  let v3947 := k1_pay1110 (F := Ideal) xs
  let v3951 := k1_pay1111 (F := Ideal) xs
  let v3955 := k1_pay1112 (F := Ideal) xs
  let v3959 := k1_pay1113 (F := Ideal) xs
  let v3963 := k1_pay1114 (F := Ideal) xs
  let v3964 := k1_pay1115 (F := Ideal)
  let v3979 := k1_pay1120 (F := Ideal) v3943 v3947
  let v3980 := k1_pay1121 (F := Ideal) v3947 v3951
  let v3981 := k1_pay1122 (F := Ideal) v3951 v3955
  let v3982 := k1_pay1123 (F := Ideal) v3955 v3959
  let v3983 := k1_pay1124 (F := Ideal) v3959 v3963
  let v3984 := k1_pay1125 (F := Ideal) v3927 v3963 v3964
  let v3985 := k1_pay1126 (F := Ideal) v3927 v3964
  let v3986 := k1_pay1127 (F := Ideal) v3927
  let v3988 := k1_pay1128 (F := Ideal) v3927
  let v3997 := k1_pay1130 (F := Ideal) v3927 v3931 v3935 v3939
  let v4004 := k1_pay1132 (F := Ideal) v3927 v3935 v3939 v3943
  let v4006 := k1_pay1133 (F := Ideal) v3927
  let v4011 := k1_pay1134 (F := Ideal) v3927 v3939 v3943 v3947
  let v4013 := k1_pay1135 (F := Ideal) v3927
  let v4018 := k1_pay1136 (F := Ideal) v3979 v3980 v4006 v4013
  let v4025 := k1_pay1138 (F := Ideal) v3980 v3981 v3988 v4013
  let v4032 := k1_pay1140 (F := Ideal) v3981 v3982 v3988
  let v4039 := k1_pay1142 (F := Ideal) v3982 v3983 v3988
  let v4046 := k1_pay1144 (F := Ideal) v3983 v3984 v3988
  let v4053 := k1_pay1146 (F := Ideal) v3984 v3985 v3988
  let v4060 := k1_pay1147 (F := Ideal) v3985 v3986 v3988
  let v4062 := k1_pay1148 (F := Ideal) v3927
  let v4071 := k1_pay1150 (F := Ideal) v3927 v3997 v4004
  let v4078 := k1_pay1152 (F := Ideal) v3927 v4004 v4011
  let v4085 := k1_pay1154 (F := Ideal) v3927 v4011 v4018
  let v4092 := k1_pay1156 (F := Ideal) v3927 v4018 v4025
  let v4099 := k1_pay1158 (F := Ideal) v3927 v4025 v4032
  let v4101 := k1_pay1159 (F := Ideal) v3927
  let v4106 := k1_pay1160 (F := Ideal) v3927 v4032 v4039
  let v4113 := k1_pay1162 (F := Ideal) v4039 v4046 v4062 v4101
  let v4120 := k1_pay1164 (F := Ideal) v4046 v4053 v4062
  let v4127 := k1_pay1165 (F := Ideal) v4053 v4060 v4062
  let v4129 := k1_pay1166 (F := Ideal) v3927
  let v4138 := k1_pay1168 (F := Ideal) v3927 v4071 v4078
  let v4145 := k1_pay1170 (F := Ideal) v3927 v4078 v4085
  let v4147 := k1_pay1171 (F := Ideal) v3927
  let v4152 := k1_pay1172 (F := Ideal) v3927 v4085 v4092
  let cst_1527 : FVec Ideal S5x128 .f32 := constant S5x128 .f32 0x00000000#32
  let v4159 := k1_pay1174 (F := Ideal) v4092 v4099 v4129 v4147
  let v4166 := k1_pay1176 (F := Ideal) v4099 v4106 v4129
  let v4173 := k1_pay1178 (F := Ideal) v4106 v4113 v4129
  let v4180 := k1_pay1180 (F := Ideal) v4113 v4120 v4129
  let v4187 := k1_pay1181 (F := Ideal) v4120 v4127 v4129
  let v4192 := k1_pay1182 (F := Ideal) v3927 w0
  let v4194 := k1_pay1183 (F := Ideal) w1
  let v4224 := k1_pay1184 (F := Ideal) v4138 v4145 v4152 v4159 v4166 v4173 v4180 v4187 v4192 v4194 cst_1527 w2 w3 w4 w5 w6 w7 w8
  let v4225 := k1_pay1185 (F := Ideal)
  k1_pay1186 (F := Ideal) v4224 v4225

/-- It is the same function of its loads as the first slice's. -/
theorem k1Stored13_eq (xs : Vec Ideal S9x128 .f32) (w0 w1 w2 w3 w4 w5 w6 w7 w8 : Vec Ideal S1x5x9 .f32) :
    k1Stored13 xs w0 w1 w2 w3 w4 w5 w6 w7 w8 = sliceOut xs w0 w1 w2 w3 w4 w5 w6 w7 w8 := by
  unfold k1Stored13 sliceOut
  rfl

/-- What the body stores for lanes [1792, 1920), composed along the body's parts, as a function of that
   slice of the patch block and the nine weight matrices. -/
def k1Stored14 (xs : Vec Ideal S9x128 .f32) (w0 w1 w2 w3 w4 w5 w6 w7 w8 : Vec Ideal S1x5x9 .f32) : FVec Ideal S5x128 .f32 :=
  let cst_1570 : Ideal .f32 := Scalar.ofBits .f32 0x3FE66666#32
  let v4229 := k1_pay1187 (F := Ideal) xs
  let v4233 := k1_pay1188 (F := Ideal) xs
  let v4237 := k1_pay1189 (F := Ideal) xs
  let v4241 := k1_pay1190 (F := Ideal) xs
  let v4245 := k1_pay1191 (F := Ideal) xs
  let v4249 := k1_pay1192 (F := Ideal) xs
  let v4253 := k1_pay1193 (F := Ideal) xs
  let v4257 := k1_pay1194 (F := Ideal) xs
  let v4261 := k1_pay1195 (F := Ideal) xs
  let v4265 := k1_pay1196 (F := Ideal) xs
  let v4269 := k1_pay1197 (F := Ideal) xs
  let v4282 := k1_pay1202 (F := Ideal) v4249 v4253
  let v4283 := k1_pay1203 (F := Ideal) v4253 v4257
  let v4284 := k1_pay1204 (F := Ideal) v4257 v4261
  let v4285 := k1_pay1205 (F := Ideal) v4261 v4265
  let v4286 := k1_pay1206 (F := Ideal) v4265 v4269
  let v4287 := k1_pay1207 (F := Ideal) v4229 v4269 cst_1570
  let v4288 := k1_pay1208 (F := Ideal) v4229 cst_1570
  let v4290 := k1_pay1209 (F := Ideal) v4229
  let v4299 := k1_pay1211 (F := Ideal) v4229 v4233 v4237 v4241
  let v4306 := k1_pay1213 (F := Ideal) v4229 v4237 v4241 v4245
  let v4313 := k1_pay1215 (F := Ideal) v4229 v4241 v4245 v4249
  let v4315 := k1_pay1216 (F := Ideal) v4229
  let v4316 := k1_pay1217 (F := Ideal) v4229 v4245 v4249
  let v4318 := k1_pay1218 (F := Ideal) v4229
  let cst_1595 : Ideal .f32 := Scalar.ofBits .f32 0xC0300000#32
  let v4320 := k1_pay1219 (F := Ideal) v4282 v4316 v4318
  let v4327 := k1_pay1221 (F := Ideal) v4282 v4283 v4290 v4315
  let v4334 := k1_pay1223 (F := Ideal) v4283 v4284 v4290
  let v4341 := k1_pay1225 (F := Ideal) v4284 v4285 v4290
  let v4348 := k1_pay1227 (F := Ideal) v4285 v4286 v4290
  let v4355 := k1_pay1229 (F := Ideal) v4286 v4287 v4290
  let v4362 := k1_pay1230 (F := Ideal) v4287 v4288 v4290
  let v4364 := k1_pay1231 (F := Ideal) v4229
  let v4373 := k1_pay1233 (F := Ideal) v4299 v4306 v4364 cst_1595
  let v4380 := k1_pay1235 (F := Ideal) v4306 v4313 v4364
  let v4387 := k1_pay1237 (F := Ideal) v4313 v4320 v4364
  let v4394 := k1_pay1239 (F := Ideal) v4320 v4327 v4364
  let v4401 := k1_pay1241 (F := Ideal) v4327 v4334 v4364
  let v4408 := k1_pay1243 (F := Ideal) v4334 v4341 v4364
  let v4410 := k1_pay1244 (F := Ideal) v4364
  let v4411 := k1_pay1245 (F := Ideal) v4341 v4364
  let v4415 := k1_pay1246 (F := Ideal) v4348 v4410 v4411
  let v4422 := k1_pay1248 (F := Ideal) v4348 v4355 v4364 v4410
  let v4429 := k1_pay1249 (F := Ideal) v4355 v4362 v4364
  let v4431 := k1_pay1250 (F := Ideal) v4229
  let v4440 := k1_pay1252 (F := Ideal) v4229 v4373 v4380
  let v4447 := k1_pay1254 (F := Ideal) v4229 v4380 v4387
  let v4454 := k1_pay1256 (F := Ideal) v4229 v4387 v4394
  let v4456 := k1_pay1257 (F := Ideal) v4229
  let v4457 := k1_pay1258 (F := Ideal) v4229 v4394
  let v4461 := k1_pay1259 (F := Ideal) v4401 v4456 v4457
  let v4468 := k1_pay1261 (F := Ideal) v4401 v4408 v4431 v4456
  let v4475 := k1_pay1263 (F := Ideal) v4408 v4415 v4431
  let v4482 := k1_pay1265 (F := Ideal) v4415 v4422 v4431
  let v4489 := k1_pay1266 (F := Ideal) v4422 v4429 v4431
  let v4498 := k1_pay1267 (F := Ideal) v4229 v4440 w0 w1
  let v4528 := k1_pay1268 (F := Ideal) v4447 v4454 v4461 v4468 v4475 v4482 v4489 v4498 w2 w3 w4 w5 w6 w7 w8
  v4528

/-- It is the same function of its loads as the first slice's. -/
theorem k1Stored14_eq (xs : Vec Ideal S9x128 .f32) (w0 w1 w2 w3 w4 w5 w6 w7 w8 : Vec Ideal S1x5x9 .f32) :
    k1Stored14 xs w0 w1 w2 w3 w4 w5 w6 w7 w8 = sliceOut xs w0 w1 w2 w3 w4 w5 w6 w7 w8 := by
  unfold k1Stored14 sliceOut
  rfl

/-- What the body stores for lanes [1920, 2048), composed along the body's parts, as a function of that
   slice of the patch block and the nine weight matrices. -/
def k1Stored15 (xs : Vec Ideal S9x128 .f32) (w0 w1 w2 w3 w4 w5 w6 w7 w8 : Vec Ideal S1x5x9 .f32) : FVec Ideal S5x128 .f32 :=
  let v4531 := k1_pay1269 (F := Ideal) xs
  let v4535 := k1_pay1270 (F := Ideal) xs
  let v4539 := k1_pay1271 (F := Ideal) xs
  let v4543 := k1_pay1272 (F := Ideal) xs
  let v4547 := k1_pay1273 (F := Ideal) xs
  let v4551 := k1_pay1274 (F := Ideal) xs
  let v4555 := k1_pay1275 (F := Ideal) xs
  let v4559 := k1_pay1276 (F := Ideal) xs
  let v4563 := k1_pay1277 (F := Ideal) xs
  let v4567 := k1_pay1278 (F := Ideal) xs
  let v4571 := k1_pay1279 (F := Ideal) xs
  let v4575 := k1_pay1280 (F := Ideal) xs
  let v4584 := k1_pay1284 (F := Ideal) v4551 v4555
  let v4585 := k1_pay1285 (F := Ideal) v4555 v4559
  let v4586 := k1_pay1286 (F := Ideal) v4559 v4563
  let v4587 := k1_pay1287 (F := Ideal) v4563 v4567
  let v4588 := k1_pay1288 (F := Ideal) v4567 v4571
  let v4589 := k1_pay1289 (F := Ideal) v4571 v4575
  let v4590 := k1_pay1290 (F := Ideal) v4531 v4575
  let v4592 := k1_pay1291 (F := Ideal) v4531
  let v4601 := k1_pay1293 (F := Ideal) v4531 v4535 v4539 v4543
  let v4608 := k1_pay1295 (F := Ideal) v4531 v4539 v4543 v4547
  let v4615 := k1_pay1297 (F := Ideal) v4531 v4543 v4547 v4551
  let v4617 := k1_pay1298 (F := Ideal) v4531
  let v4622 := k1_pay1299 (F := Ideal) v4531 v4547 v4551 v4555
  let v4623 := k1_pay1300 (F := Ideal)
  let v4629 := k1_pay1302 (F := Ideal) v4584 v4585 v4592 v4617 v4623
  let v4636 := k1_pay1304 (F := Ideal) v4585 v4586 v4592 v4623
  let v4643 := k1_pay1306 (F := Ideal) v4586 v4587 v4592
  let v4650 := k1_pay1308 (F := Ideal) v4587 v4588 v4592
  let v4657 := k1_pay1310 (F := Ideal) v4588 v4589 v4592
  let v4664 := k1_pay1311 (F := Ideal) v4589 v4590 v4592
  let v4666 := k1_pay1312 (F := Ideal) v4531
  let v4668 := k1_pay1313 (F := Ideal) v4531
  let v4669 := k1_pay1314 (F := Ideal)
  let v4675 := k1_pay1316 (F := Ideal) v4601 v4608 v4666 v4668 v4669
  let v4682 := k1_pay1318 (F := Ideal) v4608 v4615 v4666 v4669
  let v4689 := k1_pay1320 (F := Ideal) v4615 v4622 v4666
  let v4696 := k1_pay1322 (F := Ideal) v4622 v4629 v4666
  let v4703 := k1_pay1324 (F := Ideal) v4629 v4636 v4666
  let v4710 := k1_pay1326 (F := Ideal) v4636 v4643 v4666
  let v4712 := k1_pay1327 (F := Ideal) v4666
  let v4713 := k1_pay1328 (F := Ideal) v4643 v4666
  let v4716 := k1_pay1329 (F := Ideal) v4650 v4666
  let v4717 := k1_pay1330 (F := Ideal) v4713 v4716
  let v4724 := k1_pay1332 (F := Ideal) v4650 v4657 v4666 v4712
  let v4731 := k1_pay1333 (F := Ideal) v4657 v4664 v4666
  let v4733 := k1_pay1334 (F := Ideal) v4531
  let v4742 := k1_pay1336 (F := Ideal) v4531 v4675 v4682
  let v4749 := k1_pay1338 (F := Ideal) v4531 v4682 v4689
  let v4756 := k1_pay1340 (F := Ideal) v4531 v4689 v4696
  let v4758 := k1_pay1341 (F := Ideal) v4531
  let v4759 := k1_pay1342 (F := Ideal) v4531 v4696
  let v4762 := k1_pay1343 (F := Ideal) v4531 v4703
  let cst_1755 : FVec Ideal S5x128 .f32 := constant S5x128 .f32 0x00000000#32
  let v4763 := k1_pay1344 (F := Ideal) v4759 v4762
  let v4770 := k1_pay1346 (F := Ideal) v4703 v4710 v4733 v4758
  let v4777 := k1_pay1348 (F := Ideal) v4710 v4717 v4733
  let v4784 := k1_pay1350 (F := Ideal) v4717 v4724 v4733
  let v4791 := k1_pay1351 (F := Ideal) v4724 v4731 v4733
  let v4800 := k1_pay1352 (F := Ideal) v4531 v4742 w0 w1
  let v4802 := k1_pay1353 (F := Ideal) w2
  let v4808 := k1_pay1354 (F := Ideal) v4749 v4756 v4800 v4802 cst_1755 w3
  k1_pay1 (F := Ideal) v4763 v4770 v4777 v4784 v4791 v4808 w4 w5 w6 w7 w8

/-- It is the same function of its loads as the first slice's. -/
theorem k1Stored15_eq (xs : Vec Ideal S9x128 .f32) (w0 w1 w2 w3 w4 w5 w6 w7 w8 : Vec Ideal S1x5x9 .f32) :
    k1Stored15 xs w0 w1 w2 w3 w4 w5 w6 w7 w8 = sliceOut xs w0 w1 w2 w3 w4 w5 w6 w7 w8 := by
  unfold k1Stored15 sliceOut
  rfl

end Cert.RI.SliceValue

end
-- ==== Proof.RI.ConvBlock.lean ====
/- The reference's two convolution regions, entry by entry. Each region's body stores sixteen column slices of its output
  block; the stored slice at columns [128 s, 128 s + 128) is one function (the slice function) of those columns of the
  patch block and of the nine weight slabs, and that function's entry (ch, l) is the sum over the nine feature groups g
  and the nine taps t of weight (g, ch, t) times feature g of patch entry (t, 128 s + l), clipped below at zero. So the
  sixteen stored slices are the tiles of ONE function of the block index, and the block the region leaves — the last
  store at each index — is that function.
-/
import proofs.«125140_g2000505823476311_pallasbulk_1268_6_alg».proof.Proof.RI.Region0
import proofs.«125140_g2000505823476311_pallasbulk_1268_6_alg».proof.Proof.RI.Region1
import proofs.«125140_g2000505823476311_pallasbulk_1268_6_alg».proof.Proof.RI.SliceC0a
import proofs.«125140_g2000505823476311_pallasbulk_1268_6_alg».proof.Proof.RI.SliceC0b
import proofs.«125140_g2000505823476311_pallasbulk_1268_6_alg».proof.Proof.RI.SliceC0c
import proofs.«125140_g2000505823476311_pallasbulk_1268_6_alg».proof.Proof.RI.SliceC0d
import proofs.«125140_g2000505823476311_pallasbulk_1268_6_alg».proof.Proof.RI.SliceC1a
import proofs.«125140_g2000505823476311_pallasbulk_1268_6_alg».proof.Proof.RI.SliceC1b
import proofs.«125140_g2000505823476311_pallasbulk_1268_6_alg».proof.Proof.RI.SliceC1c
import proofs.«125140_g2000505823476311_pallasbulk_1268_6_alg».proof.Proof.RI.SliceC1d

set_option maxRecDepth 16384

noncomputable section

namespace Cert.ReferenceIdeal.Hand

open Idealize.ShloMosaic Idealize.ShloMosaic.TcCoe Idealize.ShloMosaic.Tactic Idealize.ShloMosaic.ValueIdx
open Cert.ReferenceIdeal Cert.ReferenceIdeal.Gen Cert.RI.SliceValue Cert.Feat

/-- A load through a whole memref whose raw contents read `X` reads `X` at the box's indices. -/
private theorem readAt_unread {F : FTy → Type} [FloatOps F] {sp : Space} {s : Shape} {e : EltTy} (m : Memref sig .tc sp s e) (h : m.IsWhole) (X : s.Idx → Elt F e) (B : LoadRect s) :
    m.view.readAt (Elt F) B (h.unread X) = fun j => X (B.idx j) := by
  funext j; show m.view.read (Elt F) (h.unread X) (B.idx j) = _; rw [h.read_unread]

/-- Columns [o, o + 128) of the patch block, as a load of them reads. -/
abbrev xcols (x0 : Vec Ideal S9x2048 .f32) (o : Nat) (inb : ∀ a, (![0, o] : Fin 2 → Nat) a + S9x128.size a ≤ S9x2048.size a) : Vec Ideal S9x128 .f32 :=
  fun j => x0 ((Rect.unit (s := S9x2048) ![0, o] S9x128.size inb).toLoadRect.idx j)

/-- Slab g of the weights, as a load of it reads. -/
abbrev wslab (x1 : Vec Ideal S9x5x9 .f32) (g : Nat) (inb : ∀ a, (![g, 0, 0] : Fin 3 → Nat) a + S1x5x9.size a ≤ S9x5x9.size a) : Vec Ideal S1x5x9 .f32 :=
  fun j => x1 ((Rect.unit (s := S9x5x9) ![g, 0, 0] S1x5x9.size inb).toLoadRect.idx j)

/-- Entry (t, l) of the loaded columns is entry (t, o + l) of the block. -/
theorem xcols_apply (x0 : Vec Ideal S9x2048 .f32) (o : Nat) (inb : ∀ a, (![0, o] : Fin 2 → Nat) a + S9x128.size a ≤ S9x2048.size a)
    (t : Fin 9) (l : Fin 128) (h : o + l.val < 2048) : xcols x0 o inb (ix2 t l) = x0 (ix2 t ⟨o + l.val, h⟩) := by
  show x0 _ = x0 _
  refine congrArg x0 (funext fun a => ?_)
  fin_cases a
  · exact Fin.ext (by show (![0, o] 0 : Nat) + 1 * t.val = t.val; simp)
  · exact Fin.ext (by show (![0, o] 1 : Nat) + 1 * l.val = o + l.val; simp)

/-- Entry (0, ch, t) of the loaded slab is entry (g, ch, t) of the weights. -/
theorem wslab_apply (x1 : Vec Ideal S9x5x9 .f32) (g : Nat) (hg : g < 9) (inb : ∀ a, (![g, 0, 0] : Fin 3 → Nat) a + S1x5x9.size a ≤ S9x5x9.size a)
    (ch : Fin 5) (t : Fin 9) : wslab x1 g inb (ix3 0 ch t) = x1 (ix3 ⟨g, hg⟩ ch t) := by
  show x1 _ = x1 _
  refine congrArg x1 (funext fun a => ?_)
  fin_cases a
  · exact Fin.ext (by show (![g, 0, 0] 0 : Nat) + 1 * (0 : Fin 1).val = g; simp)
  · exact Fin.ext (by show (![g, 0, 0] 1 : Nat) + 1 * ch.val = ch.val; simp)
  · exact Fin.ext (by show (![g, 0, 0] 2 : Nat) + 1 * t.val = t.val; simp)

/-- The block function's entry: the clipped sum over feature groups and taps. -/
def convEntry (x0 : Vec Ideal S9x2048 .f32) (x1 : Vec Ideal S9x5x9 .f32) (ch : Fin 5) (col : Fin 2048) : Elt Ideal .f32 :=
  max (∑ g : Fin 9, ∑ t : Fin 9, x1 (ix3 g ch t) * Cert.Feat.feat g (x0 (ix2 t col))) 0

/-- The block function. -/
def convBlock (x0 : Vec Ideal S9x2048 .f32) (x1 : Vec Ideal S9x5x9 .f32) : Vec Ideal S5x2048 .f32 :=
  fun y => convEntry x0 x1 ⟨(y 0).val, idx2_lt0 (n0 := 5) (n1 := 2048) y⟩ ⟨(y 1).val, idx2_lt1 (n0 := 5) (n1 := 2048) y⟩

/-- The slice function of columns [o, o + 128) is the block function's tile there. -/
theorem piece_tile (x0 : Vec Ideal S9x2048 .f32) (x1 : Vec Ideal S9x5x9 .f32) (o : Nat) (ho : o + 128 ≤ 2048)
    (inb : ∀ a, (![0, o] : Fin 2 → Nat) a + S5x128.size a ≤ S5x2048.size a)
    (inbx : ∀ a, (![0, o] : Fin 2 → Nat) a + S9x128.size a ≤ S9x2048.size a)
    (P : FVec Ideal S5x128 .f32)
    (hP : P = sliceOut (xcols x0 o inbx) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0))
    (x : (Rect.unit (s := S5x2048) ![0, o] S5x128.size inb).shape.Idx) :
    P x = convBlock x0 x1 ((Rect.unit (s := S5x2048) ![0, o] S5x128.size inb).emb x) := by
  subst hP
  obtain ⟨ch, l, rfl⟩ : ∃ (ch : Fin 5) (l : Fin 128), x = ix2 ch l := ⟨x 0, x 1, eq_ix2 x⟩
  have hl : o + l.val < 2048 := by have := l.isLt; omega
  rw [sliceOut_apply]
  have e : convBlock x0 x1 ((Rect.unit (s := S5x2048) ![0, o] S5x128.size inb).emb (ix2 ch l)) = convEntry x0 x1 ch ⟨o + l.val, hl⟩ := by
    unfold convBlock
    congr 1
    · exact Fin.ext (by show (![0, o] 0 : Nat) + 1 * ch.val = ch.val; simp)
    · exact Fin.ext (by show (![0, o] 1 : Nat) + 1 * l.val = o + l.val; simp)
  rw [e]
  unfold convEntry
  refine congrArg (fun z => max z 0) ?_
  refine Finset.sum_congr rfl fun g _ => Finset.sum_congr rfl fun t _ => ?_
  have hw : (![wslab x1 0 inb_S9x5x9_S1x5x9_0_0_0, wslab x1 1 inb_S9x5x9_S1x5x9_1_0_0, wslab x1 2 inb_S9x5x9_S1x5x9_2_0_0, wslab x1 3 inb_S9x5x9_S1x5x9_3_0_0, wslab x1 4 inb_S9x5x9_S1x5x9_4_0_0, wslab x1 5 inb_S9x5x9_S1x5x9_5_0_0, wslab x1 6 inb_S9x5x9_S1x5x9_6_0_0, wslab x1 7 inb_S9x5x9_S1x5x9_7_0_0, wslab x1 8 inb_S9x5x9_S1x5x9_8_0_0] : Fin 9 → Vec Ideal S1x5x9 .f32) g (ix3 0 ch t) = x1 (ix3 g ch t) := by
    fin_cases g
    · exact wslab_apply x1 0 (by decide) _ ch t
    · exact wslab_apply x1 1 (by decide) _ ch t
    · exact wslab_apply x1 2 (by decide) _ ch t
    · exact wslab_apply x1 3 (by decide) _ ch t
    · exact wslab_apply x1 4 (by decide) _ ch t
    · exact wslab_apply x1 5 (by decide) _ ch t
    · exact wslab_apply x1 6 (by decide) _ ch t
    · exact wslab_apply x1 7 (by decide) _ ch t
    · exact wslab_apply x1 8 (by decide) _ ch t
  rw [hw, xcols_apply x0 o inbx t l hl]

set_option maxHeartbeats 8000000 in
/-- The sixteen pieces of region 0's run, last store first: the store at columns [128 s, 128 s + 128) holds the slice
    function of the patch block's columns there and of the nine weight slabs. -/
theorem pieces0_closed (x0 : Vec Ideal S9x2048 .f32) (x1 : Vec Ideal S9x5x9 .f32) :
    pieces0 (F := Ideal) x0 x1 = [
    ⟨Rect.unit (s := S5x2048) ![0, 1920] S5x128.size inb_S5x2048_S5x128_0_1920,
      k0Stored15 (xcols x0 1920 inb_S9x2048_S9x128_0_1920) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1792] S5x128.size inb_S5x2048_S5x128_0_1792,
      k0Stored14 (xcols x0 1792 inb_S9x2048_S9x128_0_1792) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1664] S5x128.size inb_S5x2048_S5x128_0_1664,
      k0Stored13 (xcols x0 1664 inb_S9x2048_S9x128_0_1664) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1536] S5x128.size inb_S5x2048_S5x128_0_1536,
      k0Stored12 (xcols x0 1536 inb_S9x2048_S9x128_0_1536) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1408] S5x128.size inb_S5x2048_S5x128_0_1408,
      k0Stored11 (xcols x0 1408 inb_S9x2048_S9x128_0_1408) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1280] S5x128.size inb_S5x2048_S5x128_0_1280,
      k0Stored10 (xcols x0 1280 inb_S9x2048_S9x128_0_1280) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1152] S5x128.size inb_S5x2048_S5x128_0_1152,
      k0Stored9 (xcols x0 1152 inb_S9x2048_S9x128_0_1152) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1024] S5x128.size inb_S5x2048_S5x128_0_1024,
      k0Stored8 (xcols x0 1024 inb_S9x2048_S9x128_0_1024) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 896] S5x128.size inb_S5x2048_S5x128_0_896,
      k0Stored7 (xcols x0 896 inb_S9x2048_S9x128_0_896) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 768] S5x128.size inb_S5x2048_S5x128_0_768,
      k0Stored6 (xcols x0 768 inb_S9x2048_S9x128_0_768) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 640] S5x128.size inb_S5x2048_S5x128_0_640,
      k0Stored5 (xcols x0 640 inb_S9x2048_S9x128_0_640) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 512] S5x128.size inb_S5x2048_S5x128_0_512,
      k0Stored4 (xcols x0 512 inb_S9x2048_S9x128_0_512) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 384] S5x128.size inb_S5x2048_S5x128_0_384,
      k0Stored3 (xcols x0 384 inb_S9x2048_S9x128_0_384) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 256] S5x128.size inb_S5x2048_S5x128_0_256,
      k0Stored2 (xcols x0 256 inb_S9x2048_S9x128_0_256) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 128] S5x128.size inb_S5x2048_S5x128_0_128,
      k0Stored1 (xcols x0 128 inb_S9x2048_S9x128_0_128) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 0] S5x128.size inb_S5x2048_S5x128_0_0,
      k0Stored0 (xcols x0 0 inb_S9x2048_S9x128_0_0) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩] := by
  unfold pieces0 kernelRun0; dsimp only
  sl_unfold_run_names
  sl_unfold_run_names
  sl_unfold_run_names
  sl_unfold_run_names
  simp only [readAt_unread]
  unfold k0Stored0 k0Stored1 k0Stored2 k0Stored3 k0Stored4 k0Stored5 k0Stored6 k0Stored7 k0Stored8 k0Stored9 k0Stored10 k0Stored11 k0Stored12 k0Stored13 k0Stored14 k0Stored15
  rfl

/-- Every piece of region 0's run is the block function's tile at the piece's rectangle. -/
theorem pieces0_tiles (x0 : Vec Ideal S9x2048 .f32) (x1 : Vec Ideal S9x5x9 .f32) :
    ∀ p ∈ pieces0 (F := Ideal) x0 x1, ∀ x : p.1.shape.Idx, p.2 x = convBlock x0 x1 (p.1.emb x) := by
  rw [pieces0_closed]
  intro p hp
  simp only [List.mem_cons, List.not_mem_nil, or_false] at hp
  rcases hp with rfl | rfl | rfl | rfl | rfl | rfl | rfl | rfl | rfl | rfl | rfl | rfl | rfl | rfl | rfl | rfl
  · exact piece_tile x0 x1 1920 (by decide) inb_S5x2048_S5x128_0_1920 inb_S9x2048_S9x128_0_1920 _ (k0Stored15_eq _ _ _ _ _ _ _ _ _ _)
  · exact piece_tile x0 x1 1792 (by decide) inb_S5x2048_S5x128_0_1792 inb_S9x2048_S9x128_0_1792 _ (k0Stored14_eq _ _ _ _ _ _ _ _ _ _)
  · exact piece_tile x0 x1 1664 (by decide) inb_S5x2048_S5x128_0_1664 inb_S9x2048_S9x128_0_1664 _ (k0Stored13_eq _ _ _ _ _ _ _ _ _ _)
  · exact piece_tile x0 x1 1536 (by decide) inb_S5x2048_S5x128_0_1536 inb_S9x2048_S9x128_0_1536 _ (k0Stored12_eq _ _ _ _ _ _ _ _ _ _)
  · exact piece_tile x0 x1 1408 (by decide) inb_S5x2048_S5x128_0_1408 inb_S9x2048_S9x128_0_1408 _ (k0Stored11_eq _ _ _ _ _ _ _ _ _ _)
  · exact piece_tile x0 x1 1280 (by decide) inb_S5x2048_S5x128_0_1280 inb_S9x2048_S9x128_0_1280 _ (k0Stored10_eq _ _ _ _ _ _ _ _ _ _)
  · exact piece_tile x0 x1 1152 (by decide) inb_S5x2048_S5x128_0_1152 inb_S9x2048_S9x128_0_1152 _ (k0Stored9_eq _ _ _ _ _ _ _ _ _ _)
  · exact piece_tile x0 x1 1024 (by decide) inb_S5x2048_S5x128_0_1024 inb_S9x2048_S9x128_0_1024 _ (k0Stored8_eq _ _ _ _ _ _ _ _ _ _)
  · exact piece_tile x0 x1 896 (by decide) inb_S5x2048_S5x128_0_896 inb_S9x2048_S9x128_0_896 _ (k0Stored7_eq _ _ _ _ _ _ _ _ _ _)
  · exact piece_tile x0 x1 768 (by decide) inb_S5x2048_S5x128_0_768 inb_S9x2048_S9x128_0_768 _ (k0Stored6_eq _ _ _ _ _ _ _ _ _ _)
  · exact piece_tile x0 x1 640 (by decide) inb_S5x2048_S5x128_0_640 inb_S9x2048_S9x128_0_640 _ (k0Stored5_eq _ _ _ _ _ _ _ _ _ _)
  · exact piece_tile x0 x1 512 (by decide) inb_S5x2048_S5x128_0_512 inb_S9x2048_S9x128_0_512 _ (k0Stored4_eq _ _ _ _ _ _ _ _ _ _)
  · exact piece_tile x0 x1 384 (by decide) inb_S5x2048_S5x128_0_384 inb_S9x2048_S9x128_0_384 _ (k0Stored3_eq _ _ _ _ _ _ _ _ _ _)
  · exact piece_tile x0 x1 256 (by decide) inb_S5x2048_S5x128_0_256 inb_S9x2048_S9x128_0_256 _ (k0Stored2_eq _ _ _ _ _ _ _ _ _ _)
  · exact piece_tile x0 x1 128 (by decide) inb_S5x2048_S5x128_0_128 inb_S9x2048_S9x128_0_128 _ (k0Stored1_eq _ _ _ _ _ _ _ _ _ _)
  · exact piece_tile x0 x1 0 (by decide) inb_S5x2048_S5x128_0_0 inb_S9x2048_S9x128_0_0 _ (k0Stored0_eq _ _ _ _ _ _ _ _ _ _)

/-- Region 0's output block, entry by entry: channel `ch` at column `col` is the sum over the nine feature groups and
    the nine taps of weight times feature of the patch entry, clipped below at zero. -/
theorem out0_2_apply (x0 : Vec Ideal S9x2048 .f32) (x1 : Vec Ideal S9x5x9 .f32) (ch : Fin 5) (col : Fin 2048) :
    out0_2 x0 x1 (ix2 ch col) = max (∑ g : Fin 9, ∑ t : Fin 9, x1 (ix3 g ch t) * Cert.Feat.feat g (x0 (ix2 t col))) 0 :=
  View.canon_apply_of_pieces (convBlock x0 x1) (pieces0 x0 x1) (pieces0_tiles x0 x1) (ix2 ch col) (cover0_2 x0 x1 (ix2 ch col))

set_option maxHeartbeats 8000000 in
/-- The sixteen pieces of region 1's run, last store first: the store at columns [128 s, 128 s + 128) holds the slice
    function of the patch block's columns there and of the nine weight slabs. -/
theorem pieces1_closed (x0 : Vec Ideal S9x2048 .f32) (x1 : Vec Ideal S9x5x9 .f32) :
    pieces1 (F := Ideal) x0 x1 = [
    ⟨Rect.unit (s := S5x2048) ![0, 1920] S5x128.size inb_S5x2048_S5x128_0_1920,
      k1Stored15 (xcols x0 1920 inb_S9x2048_S9x128_0_1920) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1792] S5x128.size inb_S5x2048_S5x128_0_1792,
      k1Stored14 (xcols x0 1792 inb_S9x2048_S9x128_0_1792) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1664] S5x128.size inb_S5x2048_S5x128_0_1664,
      k1Stored13 (xcols x0 1664 inb_S9x2048_S9x128_0_1664) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1536] S5x128.size inb_S5x2048_S5x128_0_1536,
      k1Stored12 (xcols x0 1536 inb_S9x2048_S9x128_0_1536) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1408] S5x128.size inb_S5x2048_S5x128_0_1408,
      k1Stored11 (xcols x0 1408 inb_S9x2048_S9x128_0_1408) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1280] S5x128.size inb_S5x2048_S5x128_0_1280,
      k1Stored10 (xcols x0 1280 inb_S9x2048_S9x128_0_1280) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1152] S5x128.size inb_S5x2048_S5x128_0_1152,
      k1Stored9 (xcols x0 1152 inb_S9x2048_S9x128_0_1152) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 1024] S5x128.size inb_S5x2048_S5x128_0_1024,
      k1Stored8 (xcols x0 1024 inb_S9x2048_S9x128_0_1024) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 896] S5x128.size inb_S5x2048_S5x128_0_896,
      k1Stored7 (xcols x0 896 inb_S9x2048_S9x128_0_896) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 768] S5x128.size inb_S5x2048_S5x128_0_768,
      k1Stored6 (xcols x0 768 inb_S9x2048_S9x128_0_768) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 640] S5x128.size inb_S5x2048_S5x128_0_640,
      k1Stored5 (xcols x0 640 inb_S9x2048_S9x128_0_640) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 512] S5x128.size inb_S5x2048_S5x128_0_512,
      k1Stored4 (xcols x0 512 inb_S9x2048_S9x128_0_512) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 384] S5x128.size inb_S5x2048_S5x128_0_384,
      k1Stored3 (xcols x0 384 inb_S9x2048_S9x128_0_384) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 256] S5x128.size inb_S5x2048_S5x128_0_256,
      k1Stored2 (xcols x0 256 inb_S9x2048_S9x128_0_256) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 128] S5x128.size inb_S5x2048_S5x128_0_128,
      k1Stored1 (xcols x0 128 inb_S9x2048_S9x128_0_128) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩,
    ⟨Rect.unit (s := S5x2048) ![0, 0] S5x128.size inb_S5x2048_S5x128_0_0,
      k1Stored0 (xcols x0 0 inb_S9x2048_S9x128_0_0) (wslab x1 0 inb_S9x5x9_S1x5x9_0_0_0) (wslab x1 1 inb_S9x5x9_S1x5x9_1_0_0) (wslab x1 2 inb_S9x5x9_S1x5x9_2_0_0) (wslab x1 3 inb_S9x5x9_S1x5x9_3_0_0) (wslab x1 4 inb_S9x5x9_S1x5x9_4_0_0) (wslab x1 5 inb_S9x5x9_S1x5x9_5_0_0) (wslab x1 6 inb_S9x5x9_S1x5x9_6_0_0) (wslab x1 7 inb_S9x5x9_S1x5x9_7_0_0) (wslab x1 8 inb_S9x5x9_S1x5x9_8_0_0)⟩] := by
  unfold pieces1 kernelRun1; dsimp only
  sl_unfold_run_names
  sl_unfold_run_names
  sl_unfold_run_names
  sl_unfold_run_names
  simp only [readAt_unread]
  unfold k1Stored0 k1Stored1 k1Stored2 k1Stored3 k1Stored4 k1Stored5 k1Stored6 k1Stored7 k1Stored8 k1Stored9 k1Stored10 k1Stored11 k1Stored12 k1Stored13 k1Stored14 k1Stored15
  rfl

/-- Every piece of region 1's run is the block function's tile at the piece's rectangle. -/
theorem pieces1_tiles (x0 : Vec Ideal S9x2048 .f32) (x1 : Vec Ideal S9x5x9 .f32) :
    ∀ p ∈ pieces1 (F := Ideal) x0 x1, ∀ x : p.1.shape.Idx, p.2 x = convBlock x0 x1 (p.1.emb x) := by
  rw [pieces1_closed]
  intro p hp
  simp only [List.mem_cons, List.not_mem_nil, or_false] at hp
  rcases hp with rfl | rfl | rfl | rfl | rfl | rfl | rfl | rfl | rfl | rfl | rfl | rfl | rfl | rfl | rfl | rfl
  · exact piece_tile x0 x1 1920 (by decide) inb_S5x2048_S5x128_0_1920 inb_S9x2048_S9x128_0_1920 _ (k1Stored15_eq _ _ _ _ _ _ _ _ _ _)
  · exact piece_tile x0 x1 1792 (by decide) inb_S5x2048_S5x128_0_1792 inb_S9x2048_S9x128_0_1792 _ (k1Stored14_eq _ _ _ _ _ _ _ _ _ _)
  · exact piece_tile x0 x1 1664 (by decide) inb_S5x2048_S5x128_0_1664 inb_S9x2048_S9x128_0_1664 _ (k1Stored13_eq _ _ _ _ _ _ _ _ _ _)
  · exact piece_tile x0 x1 1536 (by decide) inb_S5x2048_S5x128_0_1536 inb_S9x2048_S9x128_0_1536 _ (k1Stored12_eq _ _ _ _ _ _ _ _ _ _)
  · exact piece_tile x0 x1 1408 (by decide) inb_S5x2048_S5x128_0_1408 inb_S9x2048_S9x128_0_1408 _ (k1Stored11_eq _ _ _ _ _ _ _ _ _ _)
  · exact piece_tile x0 x1 1280 (by decide) inb_S5x2048_S5x128_0_1280 inb_S9x2048_S9x128_0_1280 _ (k1Stored10_eq _ _ _ _ _ _ _ _ _ _)
  · exact piece_tile x0 x1 1152 (by decide) inb_S5x2048_S5x128_0_1152 inb_S9x2048_S9x128_0_1152 _ (k1Stored9_eq _ _ _ _ _ _ _ _ _ _)
  · exact piece_tile x0 x1 1024 (by decide) inb_S5x2048_S5x128_0_1024 inb_S9x2048_S9x128_0_1024 _ (k1Stored8_eq _ _ _ _ _ _ _ _ _ _)
  · exact piece_tile x0 x1 896 (by decide) inb_S5x2048_S5x128_0_896 inb_S9x2048_S9x128_0_896 _ (k1Stored7_eq _ _ _ _ _ _ _ _ _ _)
  · exact piece_tile x0 x1 768 (by decide) inb_S5x2048_S5x128_0_768 inb_S9x2048_S9x128_0_768 _ (k1Stored6_eq _ _ _ _ _ _ _ _ _ _)
  · exact piece_tile x0 x1 640 (by decide) inb_S5x2048_S5x128_0_640 inb_S9x2048_S9x128_0_640 _ (k1Stored5_eq _ _ _ _ _ _ _ _ _ _)
  · exact piece_tile x0 x1 512 (by decide) inb_S5x2048_S5x128_0_512 inb_S9x2048_S9x128_0_512 _ (k1Stored4_eq _ _ _ _ _ _ _ _ _ _)
  · exact piece_tile x0 x1 384 (by decide) inb_S5x2048_S5x128_0_384 inb_S9x2048_S9x128_0_384 _ (k1Stored3_eq _ _ _ _ _ _ _ _ _ _)
  · exact piece_tile x0 x1 256 (by decide) inb_S5x2048_S5x128_0_256 inb_S9x2048_S9x128_0_256 _ (k1Stored2_eq _ _ _ _ _ _ _ _ _ _)
  · exact piece_tile x0 x1 128 (by decide) inb_S5x2048_S5x128_0_128 inb_S9x2048_S9x128_0_128 _ (k1Stored1_eq _ _ _ _ _ _ _ _ _ _)
  · exact piece_tile x0 x1 0 (by decide) inb_S5x2048_S5x128_0_0 inb_S9x2048_S9x128_0_0 _ (k1Stored0_eq _ _ _ _ _ _ _ _ _ _)

/-- Region 1's output block, entry by entry: channel `ch` at column `col` is the sum over the nine feature groups and
    the nine taps of weight times feature of the patch entry, clipped below at zero. -/
theorem out1_2_apply (x0 : Vec Ideal S9x2048 .f32) (x1 : Vec Ideal S9x5x9 .f32) (ch : Fin 5) (col : Fin 2048) :
    out1_2 x0 x1 (ix2 ch col) = max (∑ g : Fin 9, ∑ t : Fin 9, x1 (ix3 g ch t) * Cert.Feat.feat g (x0 (ix2 t col))) 0 :=
  View.canon_apply_of_pieces (convBlock x0 x1) (pieces1 x0 x1) (pieces1_tiles x0 x1) (ix2 ch col) (cover1_2 x0 x1 (ix2 ch col))

end Cert.ReferenceIdeal.Hand

end
-- ==== Proof.RI.Val3.lean ====
/-
  The first convolution region's output array, entry by entry, as the network's first layer. The array is the clipped
  weighted sum, over feature groups and taps, of the features of the tap rows; row t of the tap rows at lane
  (b·26 + i)·26 + j is pixel (i + t / 3, j + t % 3) of image b; so channel ch at that lane is the first KAN convolution of
  image b at channel ch and position (i, j).
-/
import proofs.«125140_g2000505823476311_pallasbulk_1268_6_alg».proof.Proof.RI.Run
import proofs.«125140_g2000505823476311_pallasbulk_1268_6_alg».proof.Proof.RI.Val1
import proofs.«125140_g2000505823476311_pallasbulk_1268_6_alg».proof.Proof.RI.Val2
import proofs.«125140_g2000505823476311_pallasbulk_1268_6_alg».proof.Proof.RI.ConvBlock

noncomputable section

namespace Cert.ReferenceIdeal.Val

open Idealize.ShloMosaic Idealize.ShloMosaic.TcCoe Idealize.ShloMosaic.ValueIdx
open Idealize.SL Idealize.SL.Sem
open Cert.ReferenceIdeal Cert.ReferenceIdeal.Gen Cert.ReferenceIdeal.Hand
open BigOperators

variable (m : (ℓ : Loc nD τ sig) → Buf (Elt Ideal) ℓ)

/-- The coefficient array reaches the region as launched. -/
theorem V2_arg1 (c : Dev nD) : V2 m c main_arg1 = m ((c.tc : Thread nD τ).loc main_arg1) :=
  (V2_of m c main_arg1 (by decide)).trans ((V1_of m c main_arg1 (by decide)).trans rfl)

/-- Region 0's output array is the one array function of the tap rows and the launched coefficients. -/
theorem o3_eq (feat : Fin 9 → EReal → EReal)
    (hbody : ∀ (x0 : Vec Ideal S9x2048 .f32) (x1 : Vec Ideal S9x5x9 .f32) (ch : Fin 5) (l : Fin 2048),
      out0_2 x0 x1 (ix2 ch l) = max (∑ g : Fin 9, ∑ t : Fin 9, x1 (ix3 g ch t) * feat g (x0 (ix2 t l))) 0)
    (c : Dev nD) :
    (o3 m c : S5x5537792.Idx → EReal) = conv0Arr feat (V2 m c main_v20) (m ((c.tc : Thread nD τ).loc main_arg1)) := by
  have h := arr0_eq (Vr (V2 m)) feat hbody c
  rw [← V2_arg1 m c]
  exact h

/-- Channel ch, lane q of region 0's output array. -/
theorem o3_apply (feat : Fin 9 → EReal → EReal)
    (hbody : ∀ (x0 : Vec Ideal S9x2048 .f32) (x1 : Vec Ideal S9x5x9 .f32) (ch : Fin 5) (l : Fin 2048),
      out0_2 x0 x1 (ix2 ch l) = max (∑ g : Fin 9, ∑ t : Fin 9, x1 (ix3 g ch t) * feat g (x0 (ix2 t l))) 0)
    (c : Dev nD) (ch : Fin 5) (q : Fin 5537792) :
    (o3 m c : S5x5537792.Idx → EReal) (ix2 ch q)
      = max (∑ g : Fin 9, ∑ t : Fin 9, Cert.Spec.wOf (m ((c.tc : Thread nD τ).loc main_arg1)) g.val ch.val t.val
          * feat g ((V2 m c main_v20 : S9x5537792.Idx → EReal) (ix2 t q))) 0 := by
  rw [o3_eq m feat hbody c]
  unfold conv0Arr
  beta_reduce
  refine congrArg (fun z : EReal => max z 0) (Finset.sum_congr rfl fun g _ => Finset.sum_congr rfl fun t _ => ?_)
  unfold Cert.Spec.wOf
  rw [dif_pos ⟨g.isLt, ch.isLt, t.isLt⟩]

/-- Channel ch of region 0's output array at the lane of image b, position (i, j): the first layer there. -/
theorem o3_act_of (feat : Fin 9 → EReal → EReal)
    (hbody : ∀ (x0 : Vec Ideal S9x2048 .f32) (x1 : Vec Ideal S9x5x9 .f32) (ch : Fin 5) (l : Fin 2048),
      out0_2 x0 x1 (ix2 ch l) = max (∑ g : Fin 9, ∑ t : Fin 9, x1 (ix3 g ch t) * feat g (x0 (ix2 t l))) 0)
    (c : Dev nD) (ch : Fin 5) (b i j : ℕ) (hb : b < 8192) (hi : i < 26) (hj : j < 26) :
    (o3 m c : S5x5537792.Idx → EReal) (ix2 ch (⟨(b * 26 + i) * 26 + j, by omega⟩ : Fin 5537792))
      = Cert.Spec.act feat (Cert.Spec.wOf (m ((c.tc : Thread nD τ).loc main_arg1))) (Cert.Spec.xOf (m ((c.tc : Thread nD τ).loc main_arg0)) b) ch.val i j := by
  rw [o3_apply m feat hbody c]
  unfold Cert.Spec.act
  refine congrArg (fun z : EReal => max z 0) (Finset.sum_congr rfl fun g _ => Finset.sum_congr rfl fun t _ => ?_)
  rw [cols1_at]
  have e1 : ((b * 26 + i) * 26 + j) / 676 = b := by omega
  have e2 : ((b * 26 + i) * 26 + j) % 676 / 26 = i := by omega
  have e3 : ((b * 26 + i) * 26 + j) % 26 = j := by omega
  show _ * feat g (Cert.Spec.xOf (m ((c.tc : Thread nD τ).loc main_arg0)) (((b * 26 + i) * 26 + j) / 676) (((b * 26 + i) * 26 + j) % 676 / 26 + t.val / 3)
      (((b * 26 + i) * 26 + j) % 26 + t.val % 3)) = _
  rw [e1, e2, e3]

/-- The same with the body's value in: channel ch of region 0's output array at the lane of image b, position (i, j), is the
    first KAN convolution of image b at channel ch and position (i, j). -/
theorem o3_act (c : Dev nD) (ch : Fin 5) (b i j : ℕ) (hb : b < 8192) (hi : i < 26) (hj : j < 26) :
    (o3 m c : S5x5537792.Idx → EReal) (ix2 ch (⟨(b * 26 + i) * 26 + j, by omega⟩ : Fin 5537792))
      = Cert.Spec.act Cert.Feat.feat (Cert.Spec.wOf (m ((c.tc : Thread nD τ).loc main_arg1))) (Cert.Spec.xOf (m ((c.tc : Thread nD τ).loc main_arg0)) b) ch.val i j :=
  o3_act_of m Cert.Feat.feat out0_2_apply c ch b i j hb hi hj

end Cert.ReferenceIdeal.Val

end
-- ==== Proof.RI.Val4.lean ====
/-
  The reference's host stretch between its two convolutions, read entry by entry. The first layer's output row of each
  channel is read as 8192 planes of 26 × 26, split into 13 × 13 cells of 2 × 2, and each cell is replaced by its maximum (a
  fold of max from −∞ over the cell's four entries): the pooled first layer, 13 × 13 per plane. Nine 11 × 11 windows of
  every pooled plane, window t at offset (t/3, t%3), are stacked and flattened: row t of the second region's tap array holds
  at lane ((c1·8192 + b)·11 + i)·11 + j the pooled plane of channel c1 and sample b at (i + t/3, j + t%3).
-/
import proofs.«125140_g2000505823476311_pallasbulk_1268_6_alg».proof.Proof.RI.Run
import proofs.«125140_g2000505823476311_pallasbulk_1268_6_alg».proof.Proof.Spec
import proofs.«125140_g2000505823476311_pallasbulk_1268_6_alg».proof.Proof.FeatValue
import proofs.«125140_g2000505823476311_pallasbulk_1268_6_alg».proof.Proof.LibPoolFour
import Idealize.ShloMosaic.Lib.KernelVsHost
import Idealize.ShloMosaic.Lib.Pipeline.Value
import Idealize.ShloMosaic.Lib.StableHlo

set_option maxRecDepth 16384

noncomputable section

namespace Cert.ReferenceIdeal.Val

open Idealize.ShloMosaic Idealize.ShloMosaic.TcCoe Idealize.ShloMosaic.ValueIdx
open Idealize.SL Idealize.SL.RA Idealize.SL.Sem
open Cert.ReferenceIdeal Cert.ReferenceIdeal.Gen Cert.ReferenceIdeal.Hand
open BigOperators

variable (m : (ℓ : Loc nD τ sig) → Buf (Elt Ideal) ℓ)

open Cert.Lib.PoolFour

/-- A channel-row array read as 2 × 2 cells of its 26 × 26 planes. -/
def cellsR (A : S5x5537792.Idx → EReal) : S5x8192x1x13x2x13x2.Idx → EReal :=
  shapeCast S5x8192x1x13x2x13x2 (shapeCast S5x8192x1x26x26 A shapeCasts_S5x5537792_S5x8192x1x26x26)
    shapeCasts_S5x8192x1x26x26_S5x8192x1x13x2x13x2

/-- Entry (di, dj) of cell (i', j') of plane b of channel ch is lane (b·26 + 2i' + di)·26 + 2j' + dj of the channel's row. -/
theorem cellsR_apply (A : S5x5537792.Idx → EReal) (ch : Fin 5) (b : Fin 8192) (i' : Fin 13) (di : Fin 2) (j' : Fin 13) (dj : Fin 2) :
    cellsR A (ix7 ch b (0 : Fin 1) i' di j' dj)
      = A (ix2 ch (⟨(b.val * 26 + (2 * i'.val + di.val)) * 26 + (2 * j'.val + dj.val), by omega⟩ : Fin 5537792)) := by
  unfold cellsR
  rw [shapeCast_apply _ shapeCasts_S5x8192x1x26x26_S5x8192x1x13x2x13x2 (ix7 ch b (0 : Fin 1) i' di j' dj)
    (ix5 ch b (0 : Fin 1) (⟨2 * i'.val + di.val, by omega⟩ : Fin 26) (⟨2 * j'.val + dj.val, by omega⟩ : Fin 26)) (by
      rw [Shape.rowMajor_val_five, rowMajor_val_seven]
      show (((ch.val * 8192 + b.val) * 1 + 0) * 26 + (2 * i'.val + di.val)) * 26 + (2 * j'.val + dj.val)
        = (((((ch.val * 8192 + b.val) * 1 + 0) * 13 + i'.val) * 2 + di.val) * 13 + j'.val) * 2 + dj.val
      omega)]
  rw [shapeCast_apply A shapeCasts_S5x5537792_S5x8192x1x26x26
    (ix5 ch b (0 : Fin 1) (⟨2 * i'.val + di.val, by omega⟩ : Fin 26) (⟨2 * j'.val + dj.val, by omega⟩ : Fin 26))
    (ix2 ch (⟨(b.val * 26 + (2 * i'.val + di.val)) * 26 + (2 * j'.val + dj.val), by omega⟩ : Fin 5537792)) (by
      rw [Shape.rowMajor_val_two, Shape.rowMajor_val_five]
      show ch.val * 5537792 + ((b.val * 26 + (2 * i'.val + di.val)) * 26 + (2 * j'.val + dj.val))
        = (((ch.val * 8192 + b.val) * 1 + 0) * 26 + (2 * i'.val + di.val)) * 26 + (2 * j'.val + dj.val)
      omega)]

/-- The max-reduction of the cells over their two inner axes, at plane position (i', j'): the maximum of the cell's four
    entries. The fold starts from −∞, the bottom of the extended reals. -/
theorem poolR_apply (A : S5x5537792.Idx → EReal) (ch : Fin 5) (b : Fin 8192) (i' j' : Fin 13) :
    (Host.reduce FloatOps.maximumf (cellsR A) (constant S_ .f32 0xFF800000#32 : FVec Ideal S_ .f32) reducesTo_S5x8192x1x13x2x13x2_S5x8192x1x13x13_d4_6 h_S_) (ix5 ch b (0 : Fin 1) i' j')
      = max (max (cellsR A (ix7 ch b (0 : Fin 1) i' 0 j' 0)) (cellsR A (ix7 ch b (0 : Fin 1) i' 0 j' 1)))
          (max (cellsR A (ix7 ch b (0 : Fin 1) i' 1 j' 0)) (cellsR A (ix7 ch b (0 : Fin 1) i' 1 j' 1))) :=
  reduce_max_four (cellsR A) (constant S_ .f32 0xFF800000#32 : FVec Ideal S_ .f32) reducesTo_S5x8192x1x13x2x13x2_S5x8192x1x13x13_d4_6 h_S_
    (by show Ideal.ofBits .f32 0xFF800000#32 = ⊥; simp [Ideal.ofBits, Ideal.ieee]) (ix5 ch b (0 : Fin 1) i' j')
    _ _ _ _ (fun i => drop_iff_cell reducesTo_S5x8192x1x13x2x13x2_S5x8192x1x13x13_d4_6 ch b (0 : Fin 1) i' j' i)

set_option maxRecDepth 200000 in
/-- The pooled planes after the stretch's operations, at any earlier contents W0 and first-layer output array A. -/
theorem stretchR1_v24 (W0 : Valuation τ sig (Elt Ideal)) (A : S5x5537792.Idx → EReal) :
    (StableHlo.after hostOps1 (Function.update W0 main_v21 A) (Proc.devRef .tc main_v24) : S5x8192x1x13x13.Idx → EReal)
      = Host.reduce FloatOps.maximumf (cellsR A) (constant S_ .f32 0xFF800000#32 : FVec Ideal S_ .f32) reducesTo_S5x8192x1x13x2x13x2_S5x8192x1x13x13_d4_6 h_S_ := by
  after_results
  rfl

set_option maxRecDepth 200000 in
/-- Window 0 of the pooled planes with a leading unit axis, after the stretch's operations. -/
theorem stretchR1_v34 (W0 : Valuation τ sig (Elt Ideal)) (A : S5x5537792.Idx → EReal) :
    (StableHlo.after hostOps1 (Function.update W0 main_v21 A) (Proc.devRef .tc main_v34) : S1x5x8192x1x11x11.Idx → EReal)
      = broadcastInDim S1x5x8192x1x11x11 ![1, 2, 3, 4, 5] bcast_S5x8192x1x11x11_S1x5x8192x1x11x11_1_2_3_4_5 (extractStridedSlice S5x8192x1x11x11 ![0, 0, 0, 0, 0] (Host.reduce FloatOps.maximumf (cellsR A) (constant S_ .f32 0xFF800000#32 : FVec Ideal S_ .f32) reducesTo_S5x8192x1x13x2x13x2_S5x8192x1x13x13_d4_6 h_S_) slices_S5x8192x1x13x13_S5x8192x1x11x11_0_0_0_0_0) := by
  after_results
  rfl

set_option maxRecDepth 200000 in
/-- Window 1 of the pooled planes with a leading unit axis, after the stretch's operations. -/
theorem stretchR1_v35 (W0 : Valuation τ sig (Elt Ideal)) (A : S5x5537792.Idx → EReal) :
    (StableHlo.after hostOps1 (Function.update W0 main_v21 A) (Proc.devRef .tc main_v35) : S1x5x8192x1x11x11.Idx → EReal)
      = broadcastInDim S1x5x8192x1x11x11 ![1, 2, 3, 4, 5] bcast_S5x8192x1x11x11_S1x5x8192x1x11x11_1_2_3_4_5 (extractStridedSlice S5x8192x1x11x11 ![0, 0, 0, 0, 1] (Host.reduce FloatOps.maximumf (cellsR A) (constant S_ .f32 0xFF800000#32 : FVec Ideal S_ .f32) reducesTo_S5x8192x1x13x2x13x2_S5x8192x1x13x13_d4_6 h_S_) slices_S5x8192x1x13x13_S5x8192x1x11x11_0_0_0_0_1) := by
  after_results
  rfl

set_option maxRecDepth 200000 in
/-- Window 2 of the pooled planes with a leading unit axis, after the stretch's operations. -/
theorem stretchR1_v36 (W0 : Valuation τ sig (Elt Ideal)) (A : S5x5537792.Idx → EReal) :
    (StableHlo.after hostOps1 (Function.update W0 main_v21 A) (Proc.devRef .tc main_v36) : S1x5x8192x1x11x11.Idx → EReal)
      = broadcastInDim S1x5x8192x1x11x11 ![1, 2, 3, 4, 5] bcast_S5x8192x1x11x11_S1x5x8192x1x11x11_1_2_3_4_5 (extractStridedSlice S5x8192x1x11x11 ![0, 0, 0, 0, 2] (Host.reduce FloatOps.maximumf (cellsR A) (constant S_ .f32 0xFF800000#32 : FVec Ideal S_ .f32) reducesTo_S5x8192x1x13x2x13x2_S5x8192x1x13x13_d4_6 h_S_) slices_S5x8192x1x13x13_S5x8192x1x11x11_0_0_0_0_2) := by
  after_results
  rfl

set_option maxRecDepth 200000 in
/-- Window 3 of the pooled planes with a leading unit axis, after the stretch's operations. -/
theorem stretchR1_v37 (W0 : Valuation τ sig (Elt Ideal)) (A : S5x5537792.Idx → EReal) :
    (StableHlo.after hostOps1 (Function.update W0 main_v21 A) (Proc.devRef .tc main_v37) : S1x5x8192x1x11x11.Idx → EReal)
      = broadcastInDim S1x5x8192x1x11x11 ![1, 2, 3, 4, 5] bcast_S5x8192x1x11x11_S1x5x8192x1x11x11_1_2_3_4_5 (extractStridedSlice S5x8192x1x11x11 ![0, 0, 0, 1, 0] (Host.reduce FloatOps.maximumf (cellsR A) (constant S_ .f32 0xFF800000#32 : FVec Ideal S_ .f32) reducesTo_S5x8192x1x13x2x13x2_S5x8192x1x13x13_d4_6 h_S_) slices_S5x8192x1x13x13_S5x8192x1x11x11_0_0_0_1_0) := by
  after_results
  rfl

set_option maxRecDepth 200000 in
/-- Window 4 of the pooled planes with a leading unit axis, after the stretch's operations. -/
theorem stretchR1_v38 (W0 : Valuation τ sig (Elt Ideal)) (A : S5x5537792.Idx → EReal) :
    (StableHlo.after hostOps1 (Function.update W0 main_v21 A) (Proc.devRef .tc main_v38) : S1x5x8192x1x11x11.Idx → EReal)
      = broadcastInDim S1x5x8192x1x11x11 ![1, 2, 3, 4, 5] bcast_S5x8192x1x11x11_S1x5x8192x1x11x11_1_2_3_4_5 (extractStridedSlice S5x8192x1x11x11 ![0, 0, 0, 1, 1] (Host.reduce FloatOps.maximumf (cellsR A) (constant S_ .f32 0xFF800000#32 : FVec Ideal S_ .f32) reducesTo_S5x8192x1x13x2x13x2_S5x8192x1x13x13_d4_6 h_S_) slices_S5x8192x1x13x13_S5x8192x1x11x11_0_0_0_1_1) := by
  after_results
  rfl

set_option maxRecDepth 200000 in
/-- Window 5 of the pooled planes with a leading unit axis, after the stretch's operations. -/
theorem stretchR1_v39 (W0 : Valuation τ sig (Elt Ideal)) (A : S5x5537792.Idx → EReal) :
    (StableHlo.after hostOps1 (Function.update W0 main_v21 A) (Proc.devRef .tc main_v39) : S1x5x8192x1x11x11.Idx → EReal)
      = broadcastInDim S1x5x8192x1x11x11 ![1, 2, 3, 4, 5] bcast_S5x8192x1x11x11_S1x5x8192x1x11x11_1_2_3_4_5 (extractStridedSlice S5x8192x1x11x11 ![0, 0, 0, 1, 2] (Host.reduce FloatOps.maximumf (cellsR A) (constant S_ .f32 0xFF800000#32 : FVec Ideal S_ .f32) reducesTo_S5x8192x1x13x2x13x2_S5x8192x1x13x13_d4_6 h_S_) slices_S5x8192x1x13x13_S5x8192x1x11x11_0_0_0_1_2) := by
  after_results
  rfl

set_option maxRecDepth 200000 in
/-- Window 6 of the pooled planes with a leading unit axis, after the stretch's operations. -/
theorem stretchR1_v40 (W0 : Valuation τ sig (Elt Ideal)) (A : S5x5537792.Idx → EReal) :
    (StableHlo.after hostOps1 (Function.update W0 main_v21 A) (Proc.devRef .tc main_v40) : S1x5x8192x1x11x11.Idx → EReal)
      = broadcastInDim S1x5x8192x1x11x11 ![1, 2, 3, 4, 5] bcast_S5x8192x1x11x11_S1x5x8192x1x11x11_1_2_3_4_5 (extractStridedSlice S5x8192x1x11x11 ![0, 0, 0, 2, 0] (Host.reduce FloatOps.maximumf (cellsR A) (constant S_ .f32 0xFF800000#32 : FVec Ideal S_ .f32) reducesTo_S5x8192x1x13x2x13x2_S5x8192x1x13x13_d4_6 h_S_) slices_S5x8192x1x13x13_S5x8192x1x11x11_0_0_0_2_0) := by
  after_results
  rfl

set_option maxRecDepth 200000 in
/-- Window 7 of the pooled planes with a leading unit axis, after the stretch's operations. -/
theorem stretchR1_v41 (W0 : Valuation τ sig (Elt Ideal)) (A : S5x5537792.Idx → EReal) :
    (StableHlo.after hostOps1 (Function.update W0 main_v21 A) (Proc.devRef .tc main_v41) : S1x5x8192x1x11x11.Idx → EReal)
      = broadcastInDim S1x5x8192x1x11x11 ![1, 2, 3, 4, 5] bcast_S5x8192x1x11x11_S1x5x8192x1x11x11_1_2_3_4_5 (extractStridedSlice S5x8192x1x11x11 ![0, 0, 0, 2, 1] (Host.reduce FloatOps.maximumf (cellsR A) (constant S_ .f32 0xFF800000#32 : FVec Ideal S_ .f32) reducesTo_S5x8192x1x13x2x13x2_S5x8192x1x13x13_d4_6 h_S_) slices_S5x8192x1x13x13_S5x8192x1x11x11_0_0_0_2_1) := by
  after_results
  rfl

set_option maxRecDepth 200000 in
/-- Window 8 of the pooled planes with a leading unit axis, after the stretch's operations. -/
theorem stretchR1_v42 (W0 : Valuation τ sig (Elt Ideal)) (A : S5x5537792.Idx → EReal) :
    (StableHlo.after hostOps1 (Function.update W0 main_v21 A) (Proc.devRef .tc main_v42) : S1x5x8192x1x11x11.Idx → EReal)
      = broadcastInDim S1x5x8192x1x11x11 ![1, 2, 3, 4, 5] bcast_S5x8192x1x11x11_S1x5x8192x1x11x11_1_2_3_4_5 (extractStridedSlice S5x8192x1x11x11 ![0, 0, 0, 2, 2] (Host.reduce FloatOps.maximumf (cellsR A) (constant S_ .f32 0xFF800000#32 : FVec Ideal S_ .f32) reducesTo_S5x8192x1x13x2x13x2_S5x8192x1x13x13_d4_6 h_S_) slices_S5x8192x1x13x13_S5x8192x1x11x11_0_0_0_2_2) := by
  after_results
  rfl

/-- The stretch's last three operations: the nine windows stacked, the stack flattened, and an integer zero. -/
abbrev last3 : List (HloOp τ sig (Elt Ideal)) :=
  [ StableHlo.nary ![main_v34, main_v35, main_v36, main_v37, main_v38, main_v39, main_v40, main_v41, main_v42] main_v43 (fun u => concatenate S9x5x8192x1x11x11 0 [⟨S1x5x8192x1x11x11, u 0⟩, ⟨S1x5x8192x1x11x11, u 1⟩, ⟨S1x5x8192x1x11x11, u 2⟩, ⟨S1x5x8192x1x11x11, u 3⟩, ⟨S1x5x8192x1x11x11, u 4⟩, ⟨S1x5x8192x1x11x11, u 5⟩, ⟨S1x5x8192x1x11x11, u 6⟩, ⟨S1x5x8192x1x11x11, u 7⟩, ⟨S1x5x8192x1x11x11, u 8⟩] concatenates_S1x5x8192x1x11x11_S1x5x8192x1x11x11_S1x5x8192x1x11x11_S1x5x8192x1x11x11_S1x5x8192x1x11x11_S1x5x8192x1x11x11_S1x5x8192x1x11x11_S1x5x8192x1x11x11_S1x5x8192x1x11x11_S9x5x8192x1x11x11_d0),
    StableHlo.reshape main_v43 main_v44 rfl shapeCasts_S9x5x8192x1x11x11_S9x4956160,
    StableHlo.nullary main_c_0 (constantI S_ 32 0#32) ]

theorem drop22 : (hostOps1 (F := Ideal)).drop 22 = last3 := rfl

/-- The contents after two runs of operations in a row. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op ops ih => exact ih (op.result V)

/-- The whole stretch is its first twenty-two operations, then the last three. -/
theorem after_hostOps1 (W : Valuation τ sig (Elt Ideal)) :
    StableHlo.after hostOps1 W = StableHlo.after last3 (StableHlo.after ((hostOps1 (F := Ideal)).take 22) W) := by
  rw [← drop22, ← after_append, List.take_append_drop]

/-- The last three operations at any contents G: the flattened stack of the nine windows' buffers, -/
theorem last3_v44 (G : Valuation τ sig (Elt Ideal)) :
    (StableHlo.after last3 G (Proc.devRef .tc main_v44) : S9x4956160.Idx → EReal)
      = shapeCast S9x4956160
          (concatenate S9x5x8192x1x11x11 0
            [⟨S1x5x8192x1x11x11, (G (Proc.devRef .tc main_v34) : S1x5x8192x1x11x11.Idx → EReal)⟩,
             ⟨S1x5x8192x1x11x11, (G (Proc.devRef .tc main_v35) : S1x5x8192x1x11x11.Idx → EReal)⟩,
             ⟨S1x5x8192x1x11x11, (G (Proc.devRef .tc main_v36) : S1x5x8192x1x11x11.Idx → EReal)⟩,
             ⟨S1x5x8192x1x11x11, (G (Proc.devRef .tc main_v37) : S1x5x8192x1x11x11.Idx → EReal)⟩,
             ⟨S1x5x8192x1x11x11, (G (Proc.devRef .tc main_v38) : S1x5x8192x1x11x11.Idx → EReal)⟩,
             ⟨S1x5x8192x1x11x11, (G (Proc.devRef .tc main_v39) : S1x5x8192x1x11x11.Idx → EReal)⟩,
             ⟨S1x5x8192x1x11x11, (G (Proc.devRef .tc main_v40) : S1x5x8192x1x11x11.Idx → EReal)⟩,
             ⟨S1x5x8192x1x11x11, (G (Proc.devRef .tc main_v41) : S1x5x8192x1x11x11.Idx → EReal)⟩,
             ⟨S1x5x8192x1x11x11, (G (Proc.devRef .tc main_v42) : S1x5x8192x1x11x11.Idx → EReal)⟩]
            concatenates_S1x5x8192x1x11x11_S1x5x8192x1x11x11_S1x5x8192x1x11x11_S1x5x8192x1x11x11_S1x5x8192x1x11x11_S1x5x8192x1x11x11_S1x5x8192x1x11x11_S1x5x8192x1x11x11_S1x5x8192x1x11x11_S9x5x8192x1x11x11_d0)
          shapeCasts_S9x5x8192x1x11x11_S9x4956160 := by
  after_results
  rfl

/-- and window 0's buffer untouched. -/
theorem last3_v34 (G : Valuation τ sig (Elt Ideal)) :
    StableHlo.after last3 G (Proc.devRef .tc main_v34) = G (Proc.devRef .tc main_v34) := by
  after_results
/-- and window 1's buffer untouched. -/
theorem last3_v35 (G : Valuation τ sig (Elt Ideal)) :
    StableHlo.after last3 G (Proc.devRef .tc main_v35) = G (Proc.devRef .tc main_v35) := by
  after_results
/-- and window 2's buffer untouched. -/
theorem last3_v36 (G : Valuation τ sig (Elt Ideal)) :
    StableHlo.after last3 G (Proc.devRef .tc main_v36) = G (Proc.devRef .tc main_v36) := by
  after_results
/-- and window 3's buffer untouched. -/
theorem last3_v37 (G : Valuation τ sig (Elt Ideal)) :
    StableHlo.after last3 G (Proc.devRef .tc main_v37) = G (Proc.devRef .tc main_v37) := by
  after_results
/-- and window 4's buffer untouched. -/
theorem last3_v38 (G : Valuation τ sig (Elt Ideal)) :
    StableHlo.after last3 G (Proc.devRef .tc main_v38) = G (Proc.devRef .tc main_v38) := by
  after_results
/-- and window 5's buffer untouched. -/
theorem last3_v39 (G : Valuation τ sig (Elt Ideal)) :
    StableHlo.after last3 G (Proc.devRef .tc main_v39) = G (Proc.devRef .tc main_v39) := by
  after_results
/-- and window 6's buffer untouched. -/
theorem last3_v40 (G : Valuation τ sig (Elt Ideal)) :
    StableHlo.after last3 G (Proc.devRef .tc main_v40) = G (Proc.devRef .tc main_v40) := by
  after_results
/-- and window 7's buffer untouched. -/
theorem last3_v41 (G : Valuation τ sig (Elt Ideal)) :
    StableHlo.after last3 G (Proc.devRef .tc main_v41) = G (Proc.devRef .tc main_v41) := by
  after_results
/-- and window 8's buffer untouched. -/
theorem last3_v42 (G : Valuation τ sig (Elt Ideal)) :
    StableHlo.after last3 G (Proc.devRef .tc main_v42) = G (Proc.devRef .tc main_v42) := by
  after_results

/-- The stacked windows flattened, in terms of the nine windows after the stretch. -/
theorem stretchR1_v44 (W : Valuation τ sig (Elt Ideal)) :
    (StableHlo.after hostOps1 W (Proc.devRef .tc main_v44) : S9x4956160.Idx → EReal)
      = shapeCast S9x4956160
          (concatenate S9x5x8192x1x11x11 0
            [⟨S1x5x8192x1x11x11, (StableHlo.after hostOps1 W (Proc.devRef .tc main_v34) : S1x5x8192x1x11x11.Idx → EReal)⟩,
             ⟨S1x5x8192x1x11x11, (StableHlo.after hostOps1 W (Proc.devRef .tc main_v35) : S1x5x8192x1x11x11.Idx → EReal)⟩,
             ⟨S1x5x8192x1x11x11, (StableHlo.after hostOps1 W (Proc.devRef .tc main_v36) : S1x5x8192x1x11x11.Idx → EReal)⟩,
             ⟨S1x5x8192x1x11x11, (StableHlo.after hostOps1 W (Proc.devRef .tc main_v37) : S1x5x8192x1x11x11.Idx → EReal)⟩,
             ⟨S1x5x8192x1x11x11, (StableHlo.after hostOps1 W (Proc.devRef .tc main_v38) : S1x5x8192x1x11x11.Idx → EReal)⟩,
             ⟨S1x5x8192x1x11x11, (StableHlo.after hostOps1 W (Proc.devRef .tc main_v39) : S1x5x8192x1x11x11.Idx → EReal)⟩,
             ⟨S1x5x8192x1x11x11, (StableHlo.after hostOps1 W (Proc.devRef .tc main_v40) : S1x5x8192x1x11x11.Idx → EReal)⟩,
             ⟨S1x5x8192x1x11x11, (StableHlo.after hostOps1 W (Proc.devRef .tc main_v41) : S1x5x8192x1x11x11.Idx → EReal)⟩,
             ⟨S1x5x8192x1x11x11, (StableHlo.after hostOps1 W (Proc.devRef .tc main_v42) : S1x5x8192x1x11x11.Idx → EReal)⟩]
            concatenates_S1x5x8192x1x11x11_S1x5x8192x1x11x11_S1x5x8192x1x11x11_S1x5x8192x1x11x11_S1x5x8192x1x11x11_S1x5x8192x1x11x11_S1x5x8192x1x11x11_S1x5x8192x1x11x11_S1x5x8192x1x11x11_S9x5x8192x1x11x11_d0)
          shapeCasts_S9x5x8192x1x11x11_S9x4956160 := by
  rw [after_hostOps1 W, last3_v44, last3_v34, last3_v35, last3_v36, last3_v37, last3_v38, last3_v39, last3_v40, last3_v41, last3_v42]

set_option maxRecDepth 200000 in
/-- The integer zero the padding converts. -/
theorem stretchR1_c0 (W : Valuation τ sig (Elt Ideal)) :
    (StableHlo.after hostOps1 W (Proc.devRef .tc main_c_0) : S_.Idx → BitVec 32) = constantI S_ 32 0#32 := by
  after_results

set_option maxRecDepth 200000 in
/-- The padding appends nothing: the tap array is the flattened stack. -/
theorem stretchR11_v45 (W : Valuation τ sig (Elt Ideal)) :
    (StableHlo.after hostOps1_1 W (Proc.devRef .tc main_v45) : S9x4956160.Idx → EReal)
      = pad S9x4956160 ![0, 0] ![0, 0] ![0, 0] (W (Proc.devRef .tc main_v44) : S9x4956160.Idx → EReal)
          (sitofp .f32 (W (Proc.devRef .tc main_c_0) : S_.Idx → BitVec 32) : FVec Ideal S_ .f32) pads_S9x4956160_S9x4956160_000_000 h_S_ := by
  after_results
  rfl

/-- A window with its leading unit axis, read at a plane position: the pooled plane at the window's offset. -/
theorem window_read (R : S5x8192x1x13x13.Idx → EReal) (di dj : ℕ) (hdi : di ≤ 2) (hdj : dj ≤ 2)
    (hs : S5x8192x1x13x13.Slices ![0, 0, 0, di, dj] S5x8192x1x11x11)
    (ch : Fin 5) (b : Fin 8192) (i j : Fin 11) :
    broadcastInDim S1x5x8192x1x11x11 ![1, 2, 3, 4, 5] bcast_S5x8192x1x11x11_S1x5x8192x1x11x11_1_2_3_4_5
        (extractStridedSlice S5x8192x1x11x11 ![0, 0, 0, di, dj] R hs) (ix6 (0 : Fin 1) ch b (0 : Fin 1) i j)
      = R (ix5 ch b (0 : Fin 1) (⟨i.val + di, by omega⟩ : Fin 13) (⟨j.val + dj, by omega⟩ : Fin 13)) := by
  rw [broadcastInDim_apply ![1, 2, 3, 4, 5] bcast_S5x8192x1x11x11_S1x5x8192x1x11x11_1_2_3_4_5 _ (ix6 (0 : Fin 1) ch b (0 : Fin 1) i j)
    (ix5 ch b (0 : Fin 1) i j) (by intro a; fin_cases a <;> rfl)]
  rw [extractStridedSlice_apply ![0, 0, 0, di, dj] R hs (ix5 ch b (0 : Fin 1) i j)
    (ix5 ch b (0 : Fin 1) (⟨i.val + di, by omega⟩ : Fin 13) (⟨j.val + dj, by omega⟩ : Fin 13)) (by
      intro a
      match a with
      | ⟨0, _⟩ => exact (Nat.zero_add _).symm
      | ⟨1, _⟩ => exact (Nat.zero_add _).symm
      | ⟨2, _⟩ => exact (Nat.zero_add _).symm
      | ⟨3, _⟩ => exact Nat.add_comm _ _
      | ⟨4, _⟩ => exact Nat.add_comm _ _)]

/-- The stack of nine pieces with a leading unit axis, read at row t: piece t. -/
theorem stack9_read (u : Fin 9 → (S1x5x8192x1x11x11.Idx → EReal)) (t : Fin 9) (ch : Fin 5) (b : Fin 8192) (i j : Fin 11) :
    concatenate S9x5x8192x1x11x11 0
        [⟨S1x5x8192x1x11x11, u 0⟩, ⟨S1x5x8192x1x11x11, u 1⟩, ⟨S1x5x8192x1x11x11, u 2⟩, ⟨S1x5x8192x1x11x11, u 3⟩, ⟨S1x5x8192x1x11x11, u 4⟩,
         ⟨S1x5x8192x1x11x11, u 5⟩, ⟨S1x5x8192x1x11x11, u 6⟩, ⟨S1x5x8192x1x11x11, u 7⟩, ⟨S1x5x8192x1x11x11, u 8⟩]
        concatenates_S1x5x8192x1x11x11_S1x5x8192x1x11x11_S1x5x8192x1x11x11_S1x5x8192x1x11x11_S1x5x8192x1x11x11_S1x5x8192x1x11x11_S1x5x8192x1x11x11_S1x5x8192x1x11x11_S1x5x8192x1x11x11_S9x5x8192x1x11x11_d0 (ix6 t ch b (0 : Fin 1) i j)
      = u t (ix6 (0 : Fin 1) ch b (0 : Fin 1) i j) := by
  refine concatenate_ofFn_unit_apply (t := S9x5x8192x1x11x11) (s₁ := S1x5x8192x1x11x11) (0 : Fin 6) u
    concatenates_S1x5x8192x1x11x11_S1x5x8192x1x11x11_S1x5x8192x1x11x11_S1x5x8192x1x11x11_S1x5x8192x1x11x11_S1x5x8192x1x11x11_S1x5x8192x1x11x11_S1x5x8192x1x11x11_S1x5x8192x1x11x11_S9x5x8192x1x11x11_d0 rfl rfl (ix6 t ch b (0 : Fin 1) i j) t rfl (ix6 (0 : Fin 1) ch b (0 : Fin 1) i j) (fun a ha => ?_)
  match a with
  | ⟨0, _⟩ => exact absurd rfl ha
  | ⟨1, _⟩ => rfl
  | ⟨2, _⟩ => rfl
  | ⟨3, _⟩ => rfl
  | ⟨4, _⟩ => rfl
  | ⟨5, _⟩ => rfl

end Cert.ReferenceIdeal.Val

end
-- ==== Proof.RI.Val4b.lean ====
/-
  The pooled first layer of the reference and the second region's tap array, at an index — given the first layer's output
  at every image position (ho3).
-/
import proofs.«125140_g2000505823476311_pallasbulk_1268_6_alg».proof.Proof.RI.Val4

set_option maxRecDepth 16384

noncomputable section

namespace Cert.ReferenceIdeal.Val

open Idealize.ShloMosaic Idealize.ShloMosaic.TcCoe Idealize.ShloMosaic.ValueIdx
open Idealize.SL Idealize.SL.RA Idealize.SL.Sem
open Cert.ReferenceIdeal Cert.ReferenceIdeal.Gen Cert.ReferenceIdeal.Hand
open BigOperators

variable (m : (ℓ : Loc nD τ sig) → Buf (Elt Ideal) ℓ)

open Cert.Lib.PoolFour

/-- The pooled plane at position (i', j') of sample b, channel ch: the 2×2 pool of the first layer's activation. -/
theorem pooledR_apply (feat : Fin 9 → EReal → EReal) (w1 : ℕ → ℕ → ℕ → EReal) (x : ℕ → ℕ → ℕ → EReal) (c : Dev nD)
    (ho3 : ∀ (ch : Fin 5) (b i j : ℕ) (hb : b < 8192) (hi : i < 26) (hj : j < 26),
      o3 m c (ix2 ch (⟨(b * 26 + i) * 26 + j, by omega⟩ : Fin 5537792)) = Cert.Spec.act feat w1 (x b) ch.val i j)
    (ch : Fin 5) (b : Fin 8192) (i' j' : Fin 13) :
    (Host.reduce FloatOps.maximumf (cellsR (o3 m c)) (constant S_ .f32 0xFF800000#32 : FVec Ideal S_ .f32)
        reducesTo_S5x8192x1x13x2x13x2_S5x8192x1x13x13_d4_6 h_S_) (ix5 ch b (0 : Fin 1) i' j')
      = Cert.Spec.pooled1 feat w1 x ch.val b.val i'.val j'.val := by
  rw [poolR_apply, cellsR_apply, cellsR_apply, cellsR_apply, cellsR_apply]
  have hi' : i'.val < 13 := i'.isLt
  have hj' : j'.val < 13 := j'.isLt
  have key : ∀ (d e : ℕ) (hd : d < 2) (he : e < 2),
      o3 m c (ix2 ch (⟨(b.val * 26 + (2 * i'.val + d)) * 26 + (2 * j'.val + e), by omega⟩ : Fin 5537792))
        = Cert.Spec.act feat w1 (x b.val) ch.val (2 * i'.val + d) (2 * j'.val + e) :=
    fun d e hd he => ho3 ch b.val (2 * i'.val + d) (2 * j'.val + e) b.isLt (by omega) (by omega)
  unfold Cert.Spec.pooled1 Cert.Spec.pool
  exact congrArg₂ (max : EReal → EReal → EReal) (congrArg₂ (max : EReal → EReal → EReal) (key 0 0 (by omega) (by omega)) (key 0 1 (by omega) (by omega)))
    (congrArg₂ (max : EReal → EReal → EReal) (key 1 0 (by omega) (by omega)) (key 1 1 (by omega) (by omega)))

/-- The pooled planes as the second region's stretch leaves them (main_v24). -/
theorem P1R_apply (feat : Fin 9 → EReal → EReal) (w1 : ℕ → ℕ → ℕ → EReal) (x : ℕ → ℕ → ℕ → EReal) (c : Dev nD)
    (ho3 : ∀ (ch : Fin 5) (b i j : ℕ) (hb : b < 8192) (hi : i < 26) (hj : j < 26),
      o3 m c (ix2 ch (⟨(b * 26 + i) * 26 + j, by omega⟩ : Fin 5537792)) = Cert.Spec.act feat w1 (x b) ch.val i j)
    (ch : Fin 5) (b : Fin 8192) (i' j' : Fin 13) :
    (V5 m (outs3 m) c main_v24 : S5x8192x1x13x13.Idx → EReal) (ix5 ch b (0 : Fin 1) i' j')
      = Cert.Spec.pooled1 feat w1 x ch.val b.val i'.val j'.val := by
  have h5 : V5 m (outs3 m) c main_v24 = V4 m (outs3 m) c main_v24 := V5_of m (outs3 m) c main_v24 (by decide)
  have e : (V4 m (outs3 m) c main_v24 : S5x8192x1x13x13.Idx → EReal)
      = Host.reduce FloatOps.maximumf (cellsR (o3 m c)) (constant S_ .f32 0xFF800000#32 : FVec Ideal S_ .f32)
          reducesTo_S5x8192x1x13x2x13x2_S5x8192x1x13x13_d4_6 h_S_ := by
    show StableHlo.after hostOps1 (Function.update (V2 m c) main_v21 (outs3 m 3 main_v21 c)) (Proc.devRef .tc main_v24) = _
    rw [outs3_v21]
    exact stretchR1_v24 (V2 m c) (o3 m c)
  rw [h5, e]
  exact pooledR_apply m feat w1 x c ho3 ch b i' j'

/-- Row t, lane q of the second region's tap array: the pooled plane of channel q / (8192·121) and sample q / 121 % 8192 at
    position (q % 121 / 11 + t / 3, q % 11 + t % 3). -/
theorem P2_apply (feat : Fin 9 → EReal → EReal) (w1 : ℕ → ℕ → ℕ → EReal) (x : ℕ → ℕ → ℕ → EReal) (c : Dev nD)
    (ho3 : ∀ (ch : Fin 5) (b i j : ℕ) (hb : b < 8192) (hi : i < 26) (hj : j < 26),
      o3 m c (ix2 ch (⟨(b * 26 + i) * 26 + j, by omega⟩ : Fin 5537792)) = Cert.Spec.act feat w1 (x b) ch.val i j)
    (t : Fin 9) (q : Fin 4956160) :
    (V5 m (outs3 m) c main_v45 : S9x4956160.Idx → EReal) (ix2 t q)
      = Cert.Spec.pooled1 feat w1 x (q.val / 991232) (q.val / 121 % 8192) (q.val % 121 / 11 + t.val / 3) (q.val % 11 + t.val % 3) := by
  have hq : q.val < 4956160 := q.isLt
  have h0 : q.val / 991232 < 5 := by omega
  have h1 : q.val / 121 % 8192 < 8192 := by omega
  have h2 : q.val % 121 / 11 < 11 := by omega
  have h3 : q.val % 11 < 11 := by omega
  have e45 : (V5 m (outs3 m) c main_v45 : S9x4956160.Idx → EReal)
      = pad S9x4956160 ![0, 0] ![0, 0] ![0, 0] (V4 m (outs3 m) c main_v44 : S9x4956160.Idx → EReal)
          (sitofp .f32 (V4 m (outs3 m) c main_c_0 : S_.Idx → BitVec 32) : FVec Ideal S_ .f32) pads_S9x4956160_S9x4956160_000_000 h_S_ := by
    show StableHlo.after hostOps1_1 (V4 m (outs3 m) c) (Proc.devRef .tc main_v45) = _
    exact stretchR11_v45 (V4 m (outs3 m) c)
  have e44 : (V4 m (outs3 m) c main_v44 : S9x4956160.Idx → EReal)
      = shapeCast S9x4956160
          (concatenate S9x5x8192x1x11x11 0
            [⟨S1x5x8192x1x11x11, (StableHlo.after hostOps1 (V3 m (outs3 m) c) (Proc.devRef .tc main_v34) : S1x5x8192x1x11x11.Idx → EReal)⟩,
             ⟨S1x5x8192x1x11x11, (StableHlo.after hostOps1 (V3 m (outs3 m) c) (Proc.devRef .tc main_v35) : S1x5x8192x1x11x11.Idx → EReal)⟩,
             ⟨S1x5x8192x1x11x11, (StableHlo.after hostOps1 (V3 m (outs3 m) c) (Proc.devRef .tc main_v36) : S1x5x8192x1x11x11.Idx → EReal)⟩,
             ⟨S1x5x8192x1x11x11, (StableHlo.after hostOps1 (V3 m (outs3 m) c) (Proc.devRef .tc main_v37) : S1x5x8192x1x11x11.Idx → EReal)⟩,
             ⟨S1x5x8192x1x11x11, (StableHlo.after hostOps1 (V3 m (outs3 m) c) (Proc.devRef .tc main_v38) : S1x5x8192x1x11x11.Idx → EReal)⟩,
             ⟨S1x5x8192x1x11x11, (StableHlo.after hostOps1 (V3 m (outs3 m) c) (Proc.devRef .tc main_v39) : S1x5x8192x1x11x11.Idx → EReal)⟩,
             ⟨S1x5x8192x1x11x11, (StableHlo.after hostOps1 (V3 m (outs3 m) c) (Proc.devRef .tc main_v40) : S1x5x8192x1x11x11.Idx → EReal)⟩,
             ⟨S1x5x8192x1x11x11, (StableHlo.after hostOps1 (V3 m (outs3 m) c) (Proc.devRef .tc main_v41) : S1x5x8192x1x11x11.Idx → EReal)⟩,
             ⟨S1x5x8192x1x11x11, (StableHlo.after hostOps1 (V3 m (outs3 m) c) (Proc.devRef .tc main_v42) : S1x5x8192x1x11x11.Idx → EReal)⟩]
            concatenates_S1x5x8192x1x11x11_S1x5x8192x1x11x11_S1x5x8192x1x11x11_S1x5x8192x1x11x11_S1x5x8192x1x11x11_S1x5x8192x1x11x11_S1x5x8192x1x11x11_S1x5x8192x1x11x11_S1x5x8192x1x11x11_S9x5x8192x1x11x11_d0)
          shapeCasts_S9x5x8192x1x11x11_S9x4956160 := by
    show StableHlo.after hostOps1 (V3 m (outs3 m) c) (Proc.devRef .tc main_v44) = _
    exact stretchR1_v44 (V3 m (outs3 m) c)
  rw [e45]
  rw [pad_apply_of_inside ![0, 0] ![0, 0] ![0, 0] _ _ pads_S9x4956160_S9x4956160_000_000 h_S_ (ix2 t q) (ix2 t q) (by
    intro a; fin_cases a <;> simp [ix2])]
  rw [e44]
  rw [shapeCast_apply _ shapeCasts_S9x5x8192x1x11x11_S9x4956160 (ix2 t q)
    (ix6 t (⟨q.val / 991232, h0⟩ : Fin 5) (⟨q.val / 121 % 8192, h1⟩ : Fin 8192) (0 : Fin 1) (⟨q.val % 121 / 11, h2⟩ : Fin 11) (⟨q.val % 11, h3⟩ : Fin 11)) (by
      rw [Shape.rowMajor_val_six, Shape.rowMajor_val_two]
      show ((((t.val * 5 + q.val / 991232) * 8192 + q.val / 121 % 8192) * 1 + 0) * 11 + q.val % 121 / 11) * 11 + q.val % 11 = t.val * 4956160 + q.val
      have ha : q.val = (q.val / 121) * 121 + q.val % 121 := (Nat.div_add_mod' q.val 121).symm
      have hb : q.val / 121 = (q.val / 121 / 8192) * 8192 + q.val / 121 % 8192 := (Nat.div_add_mod' (q.val / 121) 8192).symm
      have hc : q.val / 991232 = q.val / 121 / 8192 := by rw [Nat.div_div_eq_div_mul]
      have hd : q.val % 121 = (q.val % 121 / 11) * 11 + q.val % 121 % 11 := (Nat.div_add_mod' (q.val % 121) 11).symm
      have he : q.val % 121 % 11 = q.val % 11 := Nat.mod_mod_of_dvd q.val (by decide : 11 ∣ 121)
      omega)]
  have hV3 : ∀ k : Ref sig .tc, (StableHlo.after hostOps1 (V3 m (outs3 m) c) (Proc.devRef .tc k)) = StableHlo.after hostOps1 (Function.update (V2 m c) main_v21 (o3 m c)) (Proc.devRef .tc k) := by
    intro k
    show StableHlo.after hostOps1 (Function.update (V2 m c) main_v21 (outs3 m 3 main_v21 c)) (Proc.devRef .tc k) = _
    rw [outs3_v21]
  refine (stack9_read (fun k : Fin 9 => match k with
      | ⟨0, _⟩ => (StableHlo.after hostOps1 (V3 m (outs3 m) c) (Proc.devRef .tc main_v34) : S1x5x8192x1x11x11.Idx → EReal)
      | ⟨1, _⟩ => (StableHlo.after hostOps1 (V3 m (outs3 m) c) (Proc.devRef .tc main_v35) : S1x5x8192x1x11x11.Idx → EReal)
      | ⟨2, _⟩ => (StableHlo.after hostOps1 (V3 m (outs3 m) c) (Proc.devRef .tc main_v36) : S1x5x8192x1x11x11.Idx → EReal)
      | ⟨3, _⟩ => (StableHlo.after hostOps1 (V3 m (outs3 m) c) (Proc.devRef .tc main_v37) : S1x5x8192x1x11x11.Idx → EReal)
      | ⟨4, _⟩ => (StableHlo.after hostOps1 (V3 m (outs3 m) c) (Proc.devRef .tc main_v38) : S1x5x8192x1x11x11.Idx → EReal)
      | ⟨5, _⟩ => (StableHlo.after hostOps1 (V3 m (outs3 m) c) (Proc.devRef .tc main_v39) : S1x5x8192x1x11x11.Idx → EReal)
      | ⟨6, _⟩ => (StableHlo.after hostOps1 (V3 m (outs3 m) c) (Proc.devRef .tc main_v40) : S1x5x8192x1x11x11.Idx → EReal)
      | ⟨7, _⟩ => (StableHlo.after hostOps1 (V3 m (outs3 m) c) (Proc.devRef .tc main_v41) : S1x5x8192x1x11x11.Idx → EReal)
      | ⟨8, _⟩ => (StableHlo.after hostOps1 (V3 m (outs3 m) c) (Proc.devRef .tc main_v42) : S1x5x8192x1x11x11.Idx → EReal)) t _ _ _ _).trans ?_
  fin_cases t
  · show (StableHlo.after hostOps1 (V3 m (outs3 m) c) (Proc.devRef .tc main_v34) : S1x5x8192x1x11x11.Idx → EReal) _ = _
    rw [hV3 main_v34, stretchR1_v34 (V2 m c) (o3 m c), window_read _ 0 0 (by omega) (by omega)]
    exact pooledR_apply m feat w1 x c ho3 _ _ _ _
  · show (StableHlo.after hostOps1 (V3 m (outs3 m) c) (Proc.devRef .tc main_v35) : S1x5x8192x1x11x11.Idx → EReal) _ = _
    rw [hV3 main_v35, stretchR1_v35 (V2 m c) (o3 m c), window_read _ 0 1 (by omega) (by omega)]
    exact pooledR_apply m feat w1 x c ho3 _ _ _ _
  · show (StableHlo.after hostOps1 (V3 m (outs3 m) c) (Proc.devRef .tc main_v36) : S1x5x8192x1x11x11.Idx → EReal) _ = _
    rw [hV3 main_v36, stretchR1_v36 (V2 m c) (o3 m c), window_read _ 0 2 (by omega) (by omega)]
    exact pooledR_apply m feat w1 x c ho3 _ _ _ _
  · show (StableHlo.after hostOps1 (V3 m (outs3 m) c) (Proc.devRef .tc main_v37) : S1x5x8192x1x11x11.Idx → EReal) _ = _
    rw [hV3 main_v37, stretchR1_v37 (V2 m c) (o3 m c), window_read _ 1 0 (by omega) (by omega)]
    exact pooledR_apply m feat w1 x c ho3 _ _ _ _
  · show (StableHlo.after hostOps1 (V3 m (outs3 m) c) (Proc.devRef .tc main_v38) : S1x5x8192x1x11x11.Idx → EReal) _ = _
    rw [hV3 main_v38, stretchR1_v38 (V2 m c) (o3 m c), window_read _ 1 1 (by omega) (by omega)]
    exact pooledR_apply m feat w1 x c ho3 _ _ _ _
  · show (StableHlo.after hostOps1 (V3 m (outs3 m) c) (Proc.devRef .tc main_v39) : S1x5x8192x1x11x11.Idx → EReal) _ = _
    rw [hV3 main_v39, stretchR1_v39 (V2 m c) (o3 m c), window_read _ 1 2 (by omega) (by omega)]
    exact pooledR_apply m feat w1 x c ho3 _ _ _ _
  · show (StableHlo.after hostOps1 (V3 m (outs3 m) c) (Proc.devRef .tc main_v40) : S1x5x8192x1x11x11.Idx → EReal) _ = _
    rw [hV3 main_v40, stretchR1_v40 (V2 m c) (o3 m c), window_read _ 2 0 (by omega) (by omega)]
    exact pooledR_apply m feat w1 x c ho3 _ _ _ _
  · show (StableHlo.after hostOps1 (V3 m (outs3 m) c) (Proc.devRef .tc main_v41) : S1x5x8192x1x11x11.Idx → EReal) _ = _
    rw [hV3 main_v41, stretchR1_v41 (V2 m c) (o3 m c), window_read _ 2 1 (by omega) (by omega)]
    exact pooledR_apply m feat w1 x c ho3 _ _ _ _
  · show (StableHlo.after hostOps1 (V3 m (outs3 m) c) (Proc.devRef .tc main_v42) : S1x5x8192x1x11x11.Idx → EReal) _ = _
    rw [hV3 main_v42, stretchR1_v42 (V2 m c) (o3 m c), window_read _ 2 2 (by omega) (by omega)]
    exact pooledR_apply m feat w1 x c ho3 _ _ _ _

end Cert.ReferenceIdeal.Val

end
-- ==== Proof.RI.Val5.lean ====
/-
  Region 1's output array after the region, entry by entry. Point t of the grid reads lanes [2048·t, 2048·t + 2048) of the
  nine tap rows and the whole coefficient array, and writes the same lanes of the five channel rows. If the body leaves at
  channel ch and lane l the clipped weighted sum over feature groups and taps of the features of the tap rows' lane l, then
  entry (ch, q) of the output array is that sum at lane q of the whole tap rows — one function of the region's input arrays,
  of which every point writes its block, and the blocks cover the array.
-/
import proofs.«125140_g2000505823476311_pallasbulk_1268_6_alg».proof.Proof.RI.Region1
import Idealize.ShloMosaic.Lib.Pipeline.Value
import Idealize.ShloMosaic.Lib.ValueIdx
import Idealize.ShloMosaic.PureOps.Ideal

set_option maxRecDepth 16384

noncomputable section

namespace Cert.ReferenceIdeal.Val

open Idealize.ShloMosaic Idealize.ShloMosaic.TcCoe Idealize.ShloMosaic.ValueIdx
open Idealize.SL Idealize.SL.RA Idealize.SL.Sem
open Idealize.ShloMosaic.Pipeline (Dat)
open Cert.ReferenceIdeal Cert.ReferenceIdeal.Gen Cert.ReferenceIdeal.Hand
open BigOperators

variable (V : (c : Dev nD) → (b : Ref sig .tc) → Buf (Elt Ideal) ((c : Thread nD τ).loc b))

/-- The region's output array as one function of the tap rows X and the coefficients W. -/
def conv1Arr (feat : Fin 9 → EReal → EReal) (X : S9x4956160.Idx → EReal) (W : S9x5x9.Idx → EReal) : S5x4956160.Idx → EReal :=
  fun i => max (∑ g : Fin 9, ∑ t : Fin 9, W (ix3 g (i 0) t) * feat g (X (ix2 t (i 1)))) 0

/-- The printed index maps, decided over the grid: the tap rows' block index is the point, the coefficients' is zero,
    the output's is the point. -/
theorem idx_facts1 : ∀ t : Fin cfg1.N, win1_0.index t (0 : Fin 2) = 0 ∧ win1_0.index t (1 : Fin 2) = t.val
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = t.val :=
  (by decide +kernel : ∀ t : Fin grid1.N, _)

/-- The tap rows' block at point t, row r and lane l: lane 2048·t + l of row r. -/
theorem rd1_0 (c : Dev nD) (t : Fin cfg1.N) (r : Fin 9) (l : Fin 2048) (hl : 2048 * t.val + l.val < 4956160) :
    iblk1 V c 0 t (ix2 r l) = (V c main_v45 : S9x4956160.Idx → EReal) (ix2 r (⟨2048 * t.val + l.val, hl⟩ : Fin 4956160)) := by
  obtain ⟨e00, e01, -⟩ := idx_facts1 t
  show (V c main_v45 : S9x4956160.Idx → EReal) (((cfg1.win 0).blk t).view.emb (ix2 r l)) = _
  refine congrArg (V c main_v45 : S9x4956160.Idx → EReal) (funext fun a => Fin.ext ?_)
  match a with
  | ⟨0, _⟩ => show win1_0.index t (0 : Fin 2) * 9 + 1 * r.val = r.val; omega
  | ⟨1, _⟩ => show win1_0.index t (1 : Fin 2) * 2048 + 1 * l.val = 2048 * t.val + l.val; omega

/-- The coefficients' block at any point is the whole coefficient array. -/
theorem rd1_1 (c : Dev nD) (t : Fin cfg1.N) (y : S9x5x9.Idx) :
    iblk1 V c 1 t y = (V c main_arg2 : S9x5x9.Idx → EReal) y := by
  obtain ⟨-, -, e10, e11, e12, -⟩ := idx_facts1 t
  show (V c main_arg2 : S9x5x9.Idx → EReal) (((cfg1.win 1).blk t).view.emb y) = _
  refine congrArg (V c main_arg2 : S9x5x9.Idx → EReal) (funext fun a => Fin.ext ?_)
  match a with
  | ⟨0, _⟩ => show win1_1.index t (0 : Fin 3) * 9 + 1 * (y 0).val = (y 0).val; omega
  | ⟨1, _⟩ => show win1_1.index t (1 : Fin 3) * 5 + 1 * (y 1).val = (y 1).val; omega
  | ⟨2, _⟩ => show win1_1.index t (2 : Fin 3) * 9 + 1 * (y 2).val = (y 2).val; omega

/-- What point t writes back is block t of the one array function. -/
theorem flushed1_eq (feat : Fin 9 → EReal → EReal)
    (hbody : ∀ (x0 : Vec Ideal S9x2048 .f32) (x1 : Vec Ideal S9x5x9 .f32) (ch : Fin 5) (l : Fin 2048),
      out1_2 x0 x1 (ix2 ch l) = max (∑ g : Fin 9, ∑ t : Fin 9, x1 (ix3 g ch t) * feat g (x0 (ix2 t l))) 0)
    (c : Dev nD) (t : Fin cfg1.N) :
    (dat1 V c).flushed 2 t = ((cfg1.win 2).blk t).view.read (Elt Ideal) (conv1Arr feat (V c main_v45) (V c main_arg2)) := by
  show (cfg1.win 2).cut (grid1.coords t) ((dat1 V c).after 2 t) = _
  rw [after1_2]
  obtain ⟨-, -, -, -, -, e20, e21⟩ := idx_facts1 t
  have hN : t.val < 2420 := lt_of_lt_of_eq t.isLt N_1
  funext j
  show out1_2 (iblk1 V c 0 t) (iblk1 V c 1 t) j
    = conv1Arr feat (V c main_v45) (V c main_arg2) (((cfg1.win 2).blk t).view.emb j)
  have hj1 : (j 1).val < 2048 := (j 1).isLt
  have hj0 : (j 0).val < 5 := (j 0).isLt
  refine ((congrArg (out1_2 (iblk1 V c 0 t) (iblk1 V c 1 t)) (eq_ix2 j)).trans
    (hbody (iblk1 V c 0 t) (iblk1 V c 1 t) (j 0) (j 1))).trans ?_
  unfold conv1Arr
  refine congrArg (fun z : EReal => max z 0) (Finset.sum_congr rfl fun g _ => Finset.sum_congr rfl fun k _ => ?_)
  rw [rd1_1 V c t, rd1_0 V c t k (j 1) (by show 2048 * t.val + (j 1).val < 4956160; omega)]
  have ea0 : ((((cfg1.win 2).blk t).view.emb j) 0).val = (j 0).val := by
    show win1_2.index t (0 : Fin 2) * 5 + 1 * (j 0).val = (j 0).val; omega
  have ea1 : ((((cfg1.win 2).blk t).view.emb j) 1).val = 2048 * t.val + (j 1).val := by
    show win1_2.index t (1 : Fin 2) * 2048 + 1 * (j 1).val = 2048 * t.val + (j 1).val; omega
  refine congr (congrArg HMul.hMul (congrArg _ (funext fun a => ?_))) (congrArg (feat g) (congrArg _ (funext fun a => ?_)))
  · match a with
    | ⟨0, _⟩ => rfl
    | ⟨1, _⟩ => exact Fin.ext ea0.symm
    | ⟨2, _⟩ => rfl
  · match a with
    | ⟨0, _⟩ => rfl
    | ⟨1, _⟩ => exact Fin.ext ea1.symm

/-- An index of the output array is in point t's block iff each coordinate is in the block's range on its axis. -/
theorem mem_blk1 (t : Fin cfg1.N) (i : S5x4956160.Idx) :
    i ∈ ((cfg1.win 2).blk t).view.set ↔ ∀ a : Fin 2, win1_2.index t a * S5x2048.size a ≤ (i a).val ∧ (i a).val < win1_2.index t a * S5x2048.size a + S5x2048.size a := by
  show i ∈ ((View.whole main_v46).slice (win1_2.rect t)).set ↔ _
  rw [View.set_slice_whole, Rect.mem_set_unit]
  exact Iff.rfl

/-- Every index of the output array is in some point's block: lane q is written by point q / 2048. -/
theorem cover1 (i : S5x4956160.Idx) : ∃ t : Fin cfg1.N, (cfg1.win 2).flush t = true ∧ i ∈ ((cfg1.win 2).blk t).view.set := by
  have h0 : (i 0).val < 5 := (i 0).isLt
  have h1 : (i 1).val < 4956160 := (i 1).isLt
  refine ⟨Fin.cast N_1.symm (⟨(i 1).val / 2048, by omega⟩ : Fin 2420), flush1_2 _, ?_⟩
  obtain ⟨-, -, -, -, -, e20, e21⟩ := idx_facts1 (Fin.cast N_1.symm (⟨(i 1).val / 2048, by omega⟩ : Fin 2420))
  have e21' : win1_2.index (Fin.cast N_1.symm (⟨(i 1).val / 2048, by omega⟩ : Fin 2420)) (1 : Fin 2) = (i 1).val / 2048 := e21
  rw [mem_blk1]
  intro a
  match a with
  | ⟨0, _⟩ => show win1_2.index _ (0 : Fin 2) * 5 ≤ (i 0).val ∧ (i 0).val < win1_2.index _ (0 : Fin 2) * 5 + 5; omega
  | ⟨1, _⟩ => show win1_2.index _ (1 : Fin 2) * 2048 ≤ (i 1).val ∧ (i 1).val < win1_2.index _ (1 : Fin 2) * 2048 + 2048; omega

/-- THE OUTPUT ARRAY after the region is the one array function of the region's tap rows and coefficients. -/
theorem arr1_eq (feat : Fin 9 → EReal → EReal)
    (hbody : ∀ (x0 : Vec Ideal S9x2048 .f32) (x1 : Vec Ideal S9x5x9 .f32) (ch : Fin 5) (l : Fin 2048),
      out1_2 x0 x1 (ix2 ch l) = max (∑ g : Fin 9, ∑ t : Fin 9, x1 (ix3 g ch t) * feat g (x0 (ix2 t l))) 0)
    (c : Dev nD) :
    (dat1 V c).arrAt 2 cfg1.N = conv1Arr feat (V c main_v45) (V c main_arg2) :=
  (dat1 V c).arrAt_eq_of_cover 2 (conv1Arr feat (V c main_v45) (V c main_arg2)) (fun t _ => flushed1_eq V feat hbody c t) (cover1)

end Cert.ReferenceIdeal.Val

end
-- ==== Proof.RI.Val6.lean ====
/-
  The reference's second convolution layer, read at a plane position. Row t of region 1's tap array holds, at lane
  ((c1·8192 + b)·11 + i)·11 + j, the pooled first layer of channel c1 and sample b at (i + t/3, j + t%3); the region's body
  leaves at channel c2 and that lane the weighted sum over feature groups and taps, clipped below at zero: the second
  layer's activation over the pooled plane at (i, j).
-/
import proofs.«125140_g2000505823476311_pallasbulk_1268_6_alg».proof.Proof.RI.Run
import proofs.«125140_g2000505823476311_pallasbulk_1268_6_alg».proof.Proof.RI.Val5
import proofs.«125140_g2000505823476311_pallasbulk_1268_6_alg».proof.Proof.Spec
import proofs.«125140_g2000505823476311_pallasbulk_1268_6_alg».proof.Proof.FeatValue

set_option maxRecDepth 16384

noncomputable section

namespace Cert.ReferenceIdeal.Val

open Idealize.ShloMosaic Idealize.ShloMosaic.TcCoe Idealize.ShloMosaic.ValueIdx
open Idealize.SL Idealize.SL.RA Idealize.SL.Sem
open Cert.ReferenceIdeal Cert.ReferenceIdeal.Gen Cert.ReferenceIdeal.Hand
open BigOperators

variable (m : (ℓ : Loc nD τ sig) → Buf (Elt Ideal) ℓ)

/-- The second layer's coefficients reach region 1 as launched. -/
theorem V5_arg2 (outs : Outs (F := Ideal)) (c : Dev nD) : V5 m outs c main_arg2 = m ((c.tc : Thread nD τ).loc main_arg2) :=
  (V5_of m outs c main_arg2 (by decide)).trans <| (V4_of m outs c main_arg2 (by decide)).trans <|
    (V3_of m outs c main_arg2 (by decide)).trans <| (V2_of m c main_arg2 (by decide)).trans <| (V1_of m c main_arg2 (by decide)).trans rfl

/-- Region 1's output array is the one array function of its tap rows and the second layer's coefficients. -/
theorem o6_eq (feat : Fin 9 → EReal → EReal)
    (hbody : ∀ (x0 : Vec Ideal S9x2048 .f32) (x1 : Vec Ideal S9x5x9 .f32) (ch : Fin 5) (l : Fin 2048),
      out1_2 x0 x1 (ix2 ch l) = max (∑ g : Fin 9, ∑ t : Fin 9, x1 (ix3 g ch t) * feat g (x0 (ix2 t l))) 0)
    (c : Dev nD) :
    (o6 m c : S5x4956160.Idx → EReal) = conv1Arr feat (V5 m (outs3 m) c main_v45) (V5 m (outs3 m) c main_arg2) :=
  arr1_eq (Vr (V5 m (outs3 m))) feat hbody c

/-- Region 1's output at a plane position: the second layer's activation over the pooled first layer — given the body's
    block (hbody) and the tap rows' contents (hX). -/
theorem o6_act_of (feat : Fin 9 → EReal → EReal) (w1 : ℕ → ℕ → ℕ → EReal) (x : ℕ → ℕ → ℕ → EReal)
    (hbody : ∀ (x0 : Vec Ideal S9x2048 .f32) (x1 : Vec Ideal S9x5x9 .f32) (ch : Fin 5) (l : Fin 2048),
      out1_2 x0 x1 (ix2 ch l) = max (∑ g : Fin 9, ∑ t : Fin 9, x1 (ix3 g ch t) * feat g (x0 (ix2 t l))) 0)
    (c : Dev nD) (X : S9x4956160.Idx → EReal) (hX : X = V5 m (outs3 m) c main_v45)
    (hP2 : ∀ (t : Fin 9) (q : Fin 4956160), X (ix2 t q)
      = Cert.Spec.pooled1 feat w1 x (q.val / 991232) (q.val / 121 % 8192) (q.val % 121 / 11 + t.val / 3) (q.val % 11 + t.val % 3))
    (c2 c1 : Fin 5) (b i j : ℕ) (hb : b < 8192) (hi : i < 11) (hj : j < 11) :
    o6 m c (ix2 c2 (⟨((c1.val * 8192 + b) * 11 + i) * 11 + j, by omega⟩ : Fin 4956160))
      = Cert.Spec.act feat (Cert.Spec.wOf (m ((c.tc : Thread nD τ).loc main_arg2))) (Cert.Spec.pooled1 feat w1 x c1.val b) c2.val i j := by
  subst hX
  have e := congrFun (o6_eq m feat hbody c) (ix2 c2 (⟨((c1.val * 8192 + b) * 11 + i) * 11 + j, by omega⟩ : Fin 4956160))
  rw [V5_arg2] at e
  refine e.trans ?_
  unfold conv1Arr Cert.Spec.act
  refine congrArg (fun z : EReal => max z 0) (Finset.sum_congr rfl fun g _ => Finset.sum_congr rfl fun t _ => ?_)
  have hc1 : c1.val < 5 := c1.isLt
  rw [hP2 t]
  have hL : ((c1.val * 8192 + b) * 11 + i) * 11 + j = (c1.val * 8192 + b) * 121 + (i * 11 + j) := by omega
  have h121 : (((c1.val * 8192 + b) * 11 + i) * 11 + j) / 121 = c1.val * 8192 + b := by rw [hL]; omega
  have hm121 : (((c1.val * 8192 + b) * 11 + i) * 11 + j) % 121 = i * 11 + j := by rw [hL]; omega
  have e0 : (((c1.val * 8192 + b) * 11 + i) * 11 + j) / 991232 = c1.val := by rw [hL]; omega
  have e1 : (((c1.val * 8192 + b) * 11 + i) * 11 + j) / 121 % 8192 = b := by rw [h121]; omega
  have e2 : (((c1.val * 8192 + b) * 11 + i) * 11 + j) % 121 / 11 = i := by rw [hm121]; omega
  have e3 : (((c1.val * 8192 + b) * 11 + i) * 11 + j) % 11 = j := by rw [hL]; omega
  show _ * feat g (Cert.Spec.pooled1 feat w1 x ((((c1.val * 8192 + b) * 11 + i) * 11 + j) / 991232) ((((c1.val * 8192 + b) * 11 + i) * 11 + j) / 121 % 8192)
    ((((c1.val * 8192 + b) * 11 + i) * 11 + j) % 121 / 11 + t.val / 3) ((((c1.val * 8192 + b) * 11 + i) * 11 + j) % 11 + t.val % 3)) = _
  rw [e0, e1, e2, e3]
  refine congrArg (fun z : EReal => z * feat g (Cert.Spec.pooled1 feat w1 x c1.val b (i + t.val / 3) (j + t.val % 3))) ?_
  show (m ((c.tc : Thread nD τ).loc main_arg2) : S9x5x9.Idx → EReal) (ix3 g c2 t) = Cert.Spec.wOf (m ((c.tc : Thread nD τ).loc main_arg2)) g.val c2.val t.val
  unfold Cert.Spec.wOf
  rw [dif_pos ⟨g.isLt, c2.isLt, t.isLt⟩]

end Cert.ReferenceIdeal.Val

end
-- ==== Proof.LibPoolEight.lean ====
/- Indices of rank eight, and the 2 by 2 cells of an eight-axis array.

   In an eight-axis array whose sixth and eighth axes have extent two, reducing those two axes sends exactly four source
   indices to each result index: the four entries of a 2 by 2 cell. -/
import Idealize.ShloMosaic.PureOps.Reduce
import Idealize.ShloMosaic.Lib.ValueIdx
import Idealize.ShloMosaic.Lib.ValueIdxRank6

noncomputable section

namespace Cert.Lib.PoolEight

open Idealize.ShloMosaic Idealize.ShloMosaic.ValueIdx

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun k => match k with
    | ⟨0, _⟩ => a | ⟨1, _⟩ => b | ⟨2, _⟩ => c | ⟨3, _⟩ => d | ⟨4, _⟩ => e | ⟨5, _⟩ => f | ⟨6, _⟩ => g | ⟨7, _⟩ => h

/-- Every rank-8 index is ix8 of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- The source indices that drop to (a, b, c, d, p, q) when the sixth and eighth axes (extent two each) are reduced are the
    four indices (a, b, c, d, p, e, q, f) with e, f < 2. -/
theorem drop_iff_cell8 {A B C D P Q : Nat}
    (h : (⟨8, ![A, B, C, D, P, 2, Q, 2]⟩ : Shape).ReducesTo [5, 7] ⟨6, ![A, B, C, D, P, Q]⟩)
    (a : Fin A) (b : Fin B) (c : Fin C) (d : Fin D) (p : Fin P) (q : Fin Q) (i : (⟨8, ![A, B, C, D, P, 2, Q, 2]⟩ : Shape).Idx) :
    h.drop i = ix6 a b c d p q
      ↔ (i = ix8 a b c d p 0 q 0 ∨ i = ix8 a b c d p 0 q 1 ∨ i = ix8 a b c d p 1 q 0 ∨ i = ix8 a b c d p 1 q 1) := by
  have d0 : (h.drop i (0 : Fin 6)).val = (i (0 : Fin 8)).val := rfl
  have d1 : (h.drop i (1 : Fin 6)).val = (i (1 : Fin 8)).val := rfl
  have d2 : (h.drop i (2 : Fin 6)).val = (i (2 : Fin 8)).val := rfl
  have d3 : (h.drop i (3 : Fin 6)).val = (i (3 : Fin 8)).val := rfl
  have d4 : (h.drop i (4 : Fin 6)).val = (i (4 : Fin 8)).val := rfl
  have d5 : (h.drop i (5 : Fin 6)).val = (i (6 : Fin 8)).val := rfl
  constructor
  · intro hd
    have e0 : (i 0).val = a.val := d0.symm.trans (congrArg (fun z : (⟨6, ![A, B, C, D, P, Q]⟩ : Shape).Idx => (z 0).val) hd)
    have e1 : (i 1).val = b.val := d1.symm.trans (congrArg (fun z : (⟨6, ![A, B, C, D, P, Q]⟩ : Shape).Idx => (z 1).val) hd)
    have e2 : (i 2).val = c.val := d2.symm.trans (congrArg (fun z : (⟨6, ![A, B, C, D, P, Q]⟩ : Shape).Idx => (z 2).val) hd)
    have e3 : (i 3).val = d.val := d3.symm.trans (congrArg (fun z : (⟨6, ![A, B, C, D, P, Q]⟩ : Shape).Idx => (z 3).val) hd)
    have e4 : (i 4).val = p.val := d4.symm.trans (congrArg (fun z : (⟨6, ![A, B, C, D, P, Q]⟩ : Shape).Idx => (z 4).val) hd)
    have e6 : (i 6).val = q.val := d5.symm.trans (congrArg (fun z : (⟨6, ![A, B, C, D, P, Q]⟩ : Shape).Idx => (z 5).val) hd)
    have h5 : (i 5).val = 0 ∨ (i 5).val = 1 := by have h2 : (i 5).val < 2 := (i 5).isLt; omega
    have h7 : (i 7).val = 0 ∨ (i 7).val = 1 := by have h2 : (i 7).val < 2 := (i 7).isLt; omega
    have key : ∀ (e f : Fin 2), (i 5).val = e.val → (i 7).val = f.val → i = ix8 a b c d p e q f := fun e f he hf => by
      funext k
      match k with
      | ⟨0, _⟩ => exact Fin.ext e0
      | ⟨1, _⟩ => exact Fin.ext e1
      | ⟨2, _⟩ => exact Fin.ext e2
      | ⟨3, _⟩ => exact Fin.ext e3
      | ⟨4, _⟩ => exact Fin.ext e4
      | ⟨5, _⟩ => exact Fin.ext he
      | ⟨6, _⟩ => exact Fin.ext e6
      | ⟨7, _⟩ => exact Fin.ext hf
    rcases h5 with h5 | h5 <;> rcases h7 with h7 | h7
    · exact Or.inl (key 0 0 h5 h7)
    · exact Or.inr (Or.inl (key 0 1 h5 h7))
    · exact Or.inr (Or.inr (Or.inl (key 1 0 h5 h7)))
    · exact Or.inr (Or.inr (Or.inr (key 1 1 h5 h7)))
  · intro hi
    have key : ∀ (e f : Fin 2), i = ix8 a b c d p e q f → h.drop i = ix6 a b c d p q := fun e f he => by
      subst he
      funext k
      match k with
      | ⟨0, _⟩ => exact Fin.ext d0
      | ⟨1, _⟩ => exact Fin.ext d1
      | ⟨2, _⟩ => exact Fin.ext d2
      | ⟨3, _⟩ => exact Fin.ext d3
      | ⟨4, _⟩ => exact Fin.ext d4
      | ⟨5, _⟩ => exact Fin.ext d5
    rcases hi with hi | hi | hi | hi
    · exact key 0 0 hi
    · exact key 0 1 hi
    · exact key 1 0 hi
    · exact key 1 1 hi

end Cert.Lib.PoolEight

end
-- ==== Proof.RI.Val7.lean ====
/-
  The reference's host stretch before the MLP head, read entry by entry. The second layer's output row of each channel is
  read as 5 × 8192 planes of 11 × 11 (first-layer channel, sample), the 10 × 10 corner of each plane is split into 5 × 5
  cells of 2 × 2, and each cell is replaced by its maximum: the pooled second layer. The 25 planes of a sample — group
  5·c2 + c1 — are laid out as [25, 8192, 25], position 5·i + j last.
-/
import proofs.«125140_g2000505823476311_pallasbulk_1268_6_alg».proof.Proof.RI.Run
import proofs.«125140_g2000505823476311_pallasbulk_1268_6_alg».proof.Proof.Spec
import proofs.«125140_g2000505823476311_pallasbulk_1268_6_alg».proof.Proof.FeatValue
import proofs.«125140_g2000505823476311_pallasbulk_1268_6_alg».proof.Proof.LibPoolFour
import proofs.«125140_g2000505823476311_pallasbulk_1268_6_alg».proof.Proof.LibPoolEight
import Idealize.ShloMosaic.Lib.KernelVsHost
import Idealize.ShloMosaic.Lib.Pipeline.Value
import Idealize.ShloMosaic.Lib.StableHlo

set_option maxRecDepth 16384

noncomputable section

namespace Cert.ReferenceIdeal.Val

open Idealize.ShloMosaic Idealize.ShloMosaic.TcCoe Idealize.ShloMosaic.ValueIdx
open Idealize.SL Idealize.SL.RA Idealize.SL.Sem
open Cert.ReferenceIdeal Cert.ReferenceIdeal.Gen Cert.ReferenceIdeal.Hand
open BigOperators

variable (m : (ℓ : Loc nD τ sig) → Buf (Elt Ideal) ℓ)

open Cert.Lib.PoolFour Cert.Lib.PoolEight

/-- A channel-row array read as 2 × 2 cells of the 10 × 10 corners of its 11 × 11 planes. -/
def cellsR2 (A : S5x4956160.Idx → EReal) : S5x5x8192x1x5x2x5x2.Idx → EReal :=
  shapeCast S5x5x8192x1x5x2x5x2
    (extractStridedSlice S5x5x8192x1x10x10 ![0, 0, 0, 0, 0, 0] (shapeCast S5x5x8192x1x11x11 A shapeCasts_S5x4956160_S5x5x8192x1x11x11)
      slices_S5x5x8192x1x11x11_S5x5x8192x1x10x10_0_0_0_0_0_0)
    shapeCasts_S5x5x8192x1x10x10_S5x5x8192x1x5x2x5x2

/-- Entry (di, dj) of cell (i, j) of the plane of second-layer channel c2, first-layer channel c1 and sample b is lane
    ((c1·8192 + b)·11 + 2i + di)·11 + 2j + dj of channel c2's row. -/
theorem cellsR2_apply (A : S5x4956160.Idx → EReal) (c2 c1 : Fin 5) (b : Fin 8192) (i : Fin 5) (di : Fin 2) (j : Fin 5) (dj : Fin 2) :
    cellsR2 A (ix8 c2 c1 b (0 : Fin 1) i di j dj)
      = A (ix2 c2 (⟨((c1.val * 8192 + b.val) * 11 + (2 * i.val + di.val)) * 11 + (2 * j.val + dj.val), by omega⟩ : Fin 4956160)) := by
  unfold cellsR2
  rw [shapeCast_apply _ shapeCasts_S5x5x8192x1x10x10_S5x5x8192x1x5x2x5x2 (ix8 c2 c1 b (0 : Fin 1) i di j dj)
    (ix6 c2 c1 b (0 : Fin 1) (⟨2 * i.val + di.val, by omega⟩ : Fin 10) (⟨2 * j.val + dj.val, by omega⟩ : Fin 10)) (by
      rw [Shape.rowMajor_val_six, rowMajor_val_eight]
      show ((((c2.val * 5 + c1.val) * 8192 + b.val) * 1 + 0) * 10 + (2 * i.val + di.val)) * 10 + (2 * j.val + dj.val)
        = ((((((c2.val * 5 + c1.val) * 8192 + b.val) * 1 + 0) * 5 + i.val) * 2 + di.val) * 5 + j.val) * 2 + dj.val
      omega)]
  rw [extractStridedSlice_apply ![0, 0, 0, 0, 0, 0] _ slices_S5x5x8192x1x11x11_S5x5x8192x1x10x10_0_0_0_0_0_0
    (ix6 c2 c1 b (0 : Fin 1) (⟨2 * i.val + di.val, by omega⟩ : Fin 10) (⟨2 * j.val + dj.val, by omega⟩ : Fin 10))
    (ix6 c2 c1 b (0 : Fin 1) (⟨2 * i.val + di.val, by omega⟩ : Fin 11) (⟨2 * j.val + dj.val, by omega⟩ : Fin 11)) (by
      intro a; fin_cases a <;> exact (Nat.zero_add _).symm)]
  rw [shapeCast_apply A shapeCasts_S5x4956160_S5x5x8192x1x11x11
    (ix6 c2 c1 b (0 : Fin 1) (⟨2 * i.val + di.val, by omega⟩ : Fin 11) (⟨2 * j.val + dj.val, by omega⟩ : Fin 11))
    (ix2 c2 (⟨((c1.val * 8192 + b.val) * 11 + (2 * i.val + di.val)) * 11 + (2 * j.val + dj.val), by omega⟩ : Fin 4956160)) (by
      rw [Shape.rowMajor_val_two, Shape.rowMajor_val_six]
      show c2.val * 4956160 + (((c1.val * 8192 + b.val) * 11 + (2 * i.val + di.val)) * 11 + (2 * j.val + dj.val))
        = ((((c2.val * 5 + c1.val) * 8192 + b.val) * 1 + 0) * 11 + (2 * i.val + di.val)) * 11 + (2 * j.val + dj.val)
      omega)]

/-- The max-reduction of the cells over their two inner axes, at plane position (i, j): the maximum of the cell's four
    entries. The fold starts from −∞. -/
theorem pool2_apply (A : S5x4956160.Idx → EReal) (c2 c1 : Fin 5) (b : Fin 8192) (i j : Fin 5) :
    (Host.reduce FloatOps.maximumf (cellsR2 A) (constant S_ .f32 0xFF800000#32 : FVec Ideal S_ .f32) reducesTo_S5x5x8192x1x5x2x5x2_S5x5x8192x1x5x5_d5_7 h_S_) (ix6 c2 c1 b (0 : Fin 1) i j)
      = max (max (cellsR2 A (ix8 c2 c1 b (0 : Fin 1) i 0 j 0)) (cellsR2 A (ix8 c2 c1 b (0 : Fin 1) i 0 j 1)))
          (max (cellsR2 A (ix8 c2 c1 b (0 : Fin 1) i 1 j 0)) (cellsR2 A (ix8 c2 c1 b (0 : Fin 1) i 1 j 1))) :=
  reduce_max_four (cellsR2 A) (constant S_ .f32 0xFF800000#32 : FVec Ideal S_ .f32) reducesTo_S5x5x8192x1x5x2x5x2_S5x5x8192x1x5x5_d5_7 h_S_
    (by show Ideal.ofBits .f32 0xFF800000#32 = ⊥; simp [Ideal.ofBits, Ideal.ieee]) (ix6 c2 c1 b (0 : Fin 1) i j)
    _ _ _ _ (fun k => drop_iff_cell8 reducesTo_S5x5x8192x1x5x2x5x2_S5x5x8192x1x5x5_d5_7 c2 c1 b (0 : Fin 1) i j k)

set_option maxRecDepth 200000 in
/-- The pooled planes laid out by group, sample and position, at any earlier contents W0 and second-layer output array A. -/
theorem stretchR2_v51 (W0 : Valuation τ sig (Elt Ideal)) (A : S5x4956160.Idx → EReal) :
    (StableHlo.after hostOps2 (Function.update W0 main_v46 A) (Proc.devRef .tc main_v51) : S25x8192x25.Idx → EReal)
      = shapeCast S25x8192x25 (Host.reduce FloatOps.maximumf (cellsR2 A) (constant S_ .f32 0xFF800000#32 : FVec Ideal S_ .f32) reducesTo_S5x5x8192x1x5x2x5x2_S5x5x8192x1x5x5_d5_7 h_S_) shapeCasts_S5x5x8192x1x5x5_S25x8192x25 := by
  after_results
  rfl

set_option maxRecDepth 200000 in
/-- The padding appends nothing. -/
theorem stretchR21_v52 (W : Valuation τ sig (Elt Ideal)) :
    (StableHlo.after hostOps2_1 W (Proc.devRef .tc main_v52) : S25x8192x25.Idx → EReal)
      = pad S25x8192x25 ![0, 0, 0] ![0, 0, 0] ![0, 0, 0] (W (Proc.devRef .tc main_v51) : S25x8192x25.Idx → EReal)
          (sitofp .f32 (W (Proc.devRef .tc main_c_2) : S_.Idx → BitVec 32) : FVec Ideal S_ .f32) pads_S25x8192x25_S25x8192x25_000_000_000 h_S_ := by
  after_results
  rfl

/-- The features the MLP head reads: group g = 5·c2 + c1, sample b, position s = 5·i + j — given the second layer's
    output at every plane position (ho6). -/
theorem feats_apply (feat : Fin 9 → EReal → EReal) (w1 w2 : ℕ → ℕ → ℕ → EReal) (x : ℕ → ℕ → ℕ → EReal) (c : Dev nD)
    (ho6 : ∀ (c2 c1 : Fin 5) (b i j : ℕ) (hb : b < 8192) (hi : i < 11) (hj : j < 11),
      o6 m c (ix2 c2 (⟨((c1.val * 8192 + b) * 11 + i) * 11 + j, by omega⟩ : Fin 4956160))
        = Cert.Spec.act feat w2 (Cert.Spec.pooled1 feat w1 x c1.val b) c2.val i j)
    (g : Fin 25) (b : Fin 8192) (s : Fin 25) :
    (V8 m (outs6 m) c main_v52 : S25x8192x25.Idx → EReal) (ix3 g b s) = Cert.Spec.feats feat w1 w2 x g.val b.val s.val := by
  have hg : g.val < 25 := g.isLt
  have hs : s.val < 25 := s.isLt
  have hg0 : g.val / 5 < 5 := by omega
  have hg1 : g.val % 5 < 5 := by omega
  have hs0 : s.val / 5 < 5 := by omega
  have hs1 : s.val % 5 < 5 := by omega
  have e52 : (V8 m (outs6 m) c main_v52 : S25x8192x25.Idx → EReal)
      = pad S25x8192x25 ![0, 0, 0] ![0, 0, 0] ![0, 0, 0] (V7 m (outs6 m) c main_v51 : S25x8192x25.Idx → EReal)
          (sitofp .f32 (V7 m (outs6 m) c main_c_2 : S_.Idx → BitVec 32) : FVec Ideal S_ .f32) pads_S25x8192x25_S25x8192x25_000_000_000 h_S_ := by
    show StableHlo.after hostOps2_1 (V7 m (outs6 m) c) (Proc.devRef .tc main_v52) = _
    exact stretchR21_v52 (V7 m (outs6 m) c)
  have e51 : (V7 m (outs6 m) c main_v51 : S25x8192x25.Idx → EReal)
      = shapeCast S25x8192x25
          (Host.reduce FloatOps.maximumf (cellsR2 (o6 m c)) (constant S_ .f32 0xFF800000#32 : FVec Ideal S_ .f32) reducesTo_S5x5x8192x1x5x2x5x2_S5x5x8192x1x5x5_d5_7 h_S_)
          shapeCasts_S5x5x8192x1x5x5_S25x8192x25 := by
    show StableHlo.after hostOps2 (Function.update (V5 m (outs6 m) c) main_v46 (outs6 m 6 main_v46 c)) (Proc.devRef .tc main_v51) = _
    rw [outs6_v46]
    exact stretchR2_v51 (V5 m (outs6 m) c) (o6 m c)
  rw [e52]
  rw [pad_apply_of_inside ![0, 0, 0] ![0, 0, 0] ![0, 0, 0] _ _ pads_S25x8192x25_S25x8192x25_000_000_000 h_S_ (ix3 g b s) (ix3 g b s) (by
    intro a; fin_cases a <;> simp [ix3])]
  rw [e51]
  rw [shapeCast_apply _ shapeCasts_S5x5x8192x1x5x5_S25x8192x25 (ix3 g b s)
    (ix6 (⟨g.val / 5, hg0⟩ : Fin 5) (⟨g.val % 5, hg1⟩ : Fin 5) b (0 : Fin 1) (⟨s.val / 5, hs0⟩ : Fin 5) (⟨s.val % 5, hs1⟩ : Fin 5)) (by
      rw [Shape.rowMajor_val_six, Shape.rowMajor_val_three]
      show ((((g.val / 5 * 5 + g.val % 5) * 8192 + b.val) * 1 + 0) * 5 + s.val / 5) * 5 + s.val % 5 = (g.val * 8192 + b.val) * 25 + s.val
      have h1 : g.val / 5 * 5 + g.val % 5 = g.val := Nat.div_add_mod' g.val 5
      have h2 : s.val / 5 * 5 + s.val % 5 = s.val := Nat.div_add_mod' s.val 5
      rw [h1]
      omega)]
  rw [pool2_apply, cellsR2_apply, cellsR2_apply, cellsR2_apply, cellsR2_apply]
  have key : ∀ (d e : ℕ) (hd : d < 2) (he : e < 2),
      o6 m c (ix2 (⟨g.val / 5, hg0⟩ : Fin 5) (⟨((g.val % 5 * 8192 + b.val) * 11 + (2 * (s.val / 5) + d)) * 11 + (2 * (s.val % 5) + e), by omega⟩ : Fin 4956160))
        = Cert.Spec.act feat w2 (Cert.Spec.pooled1 feat w1 x (g.val % 5) b.val) (g.val / 5) (2 * (s.val / 5) + d) (2 * (s.val % 5) + e) :=
    fun d e hd he => ho6 (⟨g.val / 5, hg0⟩ : Fin 5) (⟨g.val % 5, hg1⟩ : Fin 5) b.val (2 * (s.val / 5) + d) (2 * (s.val % 5) + e) b.isLt (by omega) (by omega)
  unfold Cert.Spec.feats Cert.Spec.pooled2 Cert.Spec.pool
  exact congrArg₂ (max : EReal → EReal → EReal) (congrArg₂ (max : EReal → EReal → EReal) (key 0 0 (by omega) (by omega)) (key 0 1 (by omega) (by omega)))
    (congrArg₂ (max : EReal → EReal → EReal) (key 1 0 (by omega) (by omega)) (key 1 1 (by omega) (by omega)))

end Cert.ReferenceIdeal.Val

end
-- ==== Proof.RI.Feats.lean ====
/-
  The reference's middle stages with nothing assumed: the pooled first layer, the second region's tap array, the second
  layer's output at a plane position, and the features the MLP head reads — each a function of the argument arrays, through
  the shared featurizer.
-/
import proofs.«125140_g2000505823476311_pallasbulk_1268_6_alg».proof.Proof.RI.Val3
import proofs.«125140_g2000505823476311_pallasbulk_1268_6_alg».proof.Proof.RI.Val4b
import proofs.«125140_g2000505823476311_pallasbulk_1268_6_alg».proof.Proof.RI.Val6
import proofs.«125140_g2000505823476311_pallasbulk_1268_6_alg».proof.Proof.RI.Val7
import proofs.«125140_g2000505823476311_pallasbulk_1268_6_alg».proof.Proof.RI.ConvBlock

set_option maxRecDepth 16384

noncomputable section

namespace Cert.ReferenceIdeal.Val

open Idealize.ShloMosaic Idealize.ShloMosaic.TcCoe Idealize.ShloMosaic.ValueIdx
open Idealize.SL Idealize.SL.RA Idealize.SL.Sem
open Cert.ReferenceIdeal Cert.ReferenceIdeal.Gen Cert.ReferenceIdeal.Hand
open BigOperators

variable (m : (ℓ : Loc nD τ sig) → Buf (Elt Ideal) ℓ)

/-- The pooled first layer (main_v24) at plane position (i', j') of sample b, channel ch. -/
theorem P1R (c : Dev nD) (ch : Fin 5) (b : Fin 8192) (i' j' : Fin 13) :
    (V5 m (outs3 m) c main_v24 : S5x8192x1x13x13.Idx → EReal) (ix5 ch b (0 : Fin 1) i' j')
      = Cert.Spec.pooled1 Cert.Feat.feat (Cert.Spec.wOf (m ((c.tc : Thread nD τ).loc main_arg1))) (Cert.Spec.xOf (m ((c.tc : Thread nD τ).loc main_arg0))) ch.val b.val i'.val j'.val :=
  P1R_apply m Cert.Feat.feat (Cert.Spec.wOf (m ((c.tc : Thread nD τ).loc main_arg1))) (Cert.Spec.xOf (m ((c.tc : Thread nD τ).loc main_arg0))) c (fun ch b i j hb hi hj => o3_act m c ch b i j hb hi hj) ch b i' j'

/-- Row t, lane q of the second region's tap array (main_v45). -/
theorem P2 (c : Dev nD) (t : Fin 9) (q : Fin 4956160) :
    (V5 m (outs3 m) c main_v45 : S9x4956160.Idx → EReal) (ix2 t q)
      = Cert.Spec.pooled1 Cert.Feat.feat (Cert.Spec.wOf (m ((c.tc : Thread nD τ).loc main_arg1))) (Cert.Spec.xOf (m ((c.tc : Thread nD τ).loc main_arg0))) (q.val / 991232) (q.val / 121 % 8192) (q.val % 121 / 11 + t.val / 3) (q.val % 11 + t.val % 3) :=
  P2_apply m Cert.Feat.feat (Cert.Spec.wOf (m ((c.tc : Thread nD τ).loc main_arg1))) (Cert.Spec.xOf (m ((c.tc : Thread nD τ).loc main_arg0))) c (fun ch b i j hb hi hj => o3_act m c ch b i j hb hi hj) t q

/-- Region 1's output at a plane position: the second layer's activation over the pooled first layer. -/
theorem o6_act (c : Dev nD) (c2 c1 : Fin 5) (b i j : ℕ) (hb : b < 8192) (hi : i < 11) (hj : j < 11) :
    o6 m c (ix2 c2 (⟨((c1.val * 8192 + b) * 11 + i) * 11 + j, by omega⟩ : Fin 4956160))
      = Cert.Spec.act Cert.Feat.feat (Cert.Spec.wOf (m ((c.tc : Thread nD τ).loc main_arg2))) (Cert.Spec.pooled1 Cert.Feat.feat (Cert.Spec.wOf (m ((c.tc : Thread nD τ).loc main_arg1))) (Cert.Spec.xOf (m ((c.tc : Thread nD τ).loc main_arg0))) c1.val b) c2.val i j :=
  o6_act_of m Cert.Feat.feat (Cert.Spec.wOf (m ((c.tc : Thread nD τ).loc main_arg1))) (Cert.Spec.xOf (m ((c.tc : Thread nD τ).loc main_arg0))) out1_2_apply c (V5 m (outs3 m) c main_v45) rfl (fun t q => P2 m c t q) c2 c1 b i j hb hi hj

/-- The features the MLP head reads (main_v52): group g, sample b, position s. -/
theorem feats_eq (c : Dev nD) : ∀ (g : Fin 25) (b : Fin 8192) (s : Fin 25),
    (V8 m (outs6 m) c main_v52 : S25x8192x25.Idx → EReal) (ix3 g b s)
      = Cert.Spec.feats Cert.Feat.feat (Cert.Spec.wOf (m ((c.tc : Thread nD τ).loc main_arg1))) (Cert.Spec.wOf (m ((c.tc : Thread nD τ).loc main_arg2))) (Cert.Spec.xOf (m ((c.tc : Thread nD τ).loc main_arg0))) g.val b.val s.val :=
  fun g b s => feats_apply m Cert.Feat.feat (Cert.Spec.wOf (m ((c.tc : Thread nD τ).loc main_arg1))) (Cert.Spec.wOf (m ((c.tc : Thread nD τ).loc main_arg2))) (Cert.Spec.xOf (m ((c.tc : Thread nD τ).loc main_arg0))) c (fun c2 c1 b i j hb hi hj => o6_act m c c2 c1 b i j hb hi hj) g b s

end Cert.ReferenceIdeal.Val

end
-- ==== Proof.Bridge.lean ====
/-
  The bridge between the two idealized programs: run from memories agreeing on the seven argument arrays, the reference's
  result array and the kernel's are one function of the arguments. Both are the same network — two KAN convolutions
  (per pixel the nine features [silu, B_0 … B_7], a 3×3 window of them weighted and summed, ReLU), each followed by a 2×2
  max-pool, then two dense layers and a masked log-softmax —; the kernel sums a window's 81 products in one matrix
  product over tap-major rows where the reference accumulates nine products of nine, and the kernel's first dense layer is
  one product over 640 zero-padded columns where the reference accumulates twenty-five of twenty-five: on the extended
  reals both are the same finite sums, by commutativity and associativity of addition alone.
-/
import proofs.«125140_g2000505823476311_pallasbulk_1268_6_alg».proof.Proof.KI.Run
import proofs.«125140_g2000505823476311_pallasbulk_1268_6_alg».proof.Proof.RI.Run
import proofs.«125140_g2000505823476311_pallasbulk_1268_6_alg».proof.Proof.KI.Val9
import proofs.«125140_g2000505823476311_pallasbulk_1268_6_alg».proof.Proof.RI.Val8
import proofs.«125140_g2000505823476311_pallasbulk_1268_6_alg».proof.Proof.RI.Feats
import Idealize.ShloMosaic.PureOps.Ideal

noncomputable section

namespace Cert.Bridge

open Idealize.ShloMosaic Idealize.ShloMosaic.TcCoe Idealize.SL.Sem

/-- The reference's result, read off its last valuation, is the kernel's, read off its own. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.ReferenceIdeal.Gen.V10 m' (Cert.ReferenceIdeal.Hand.outs m') c Cert.ReferenceIdeal.main_v54
      = Cert.KernelIdeal.Gen.V14 m (Cert.KernelIdeal.Hand.outs m) c Cert.KernelIdeal.main_v27 := by
  funext i
  obtain ⟨B, j, rfl⟩ : ∃ (B : Fin 8192) (j : Fin 3), i = ValueIdx.ix2 B j := ⟨i 0, i 1, ValueIdx.eq_ix2 i⟩
  obtain ⟨h0, h1, h2, h3, h4, h5, h6⟩ := hagree c
  have hR : Cert.ReferenceIdeal.Gen.V10 m' (Cert.ReferenceIdeal.Hand.outs m') c Cert.ReferenceIdeal.main_v54 (ValueIdx.ix2 B j) = Cert.KI.MlpValue.afterFc1 (Cert.Spec.hidden (Cert.Spec.fwOf (m' ((c.tc : Thread Cert.ReferenceIdeal.nD Cert.ReferenceIdeal.τ).loc Cert.ReferenceIdeal.main_arg3))) (Cert.Spec.feats Cert.Feat.feat (Cert.Spec.wOf (m' ((c.tc : Thread Cert.ReferenceIdeal.nD Cert.ReferenceIdeal.τ).loc Cert.ReferenceIdeal.main_arg1))) (Cert.Spec.wOf (m' ((c.tc : Thread Cert.ReferenceIdeal.nD Cert.ReferenceIdeal.τ).loc Cert.ReferenceIdeal.main_arg2))) (Cert.Spec.xOf (m' ((c.tc : Thread Cert.ReferenceIdeal.nD Cert.ReferenceIdeal.τ).loc Cert.ReferenceIdeal.main_arg0)))) (B.val / 256)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (ValueIdx.ix2 ⟨B.val % 256, Nat.mod_lt _ (by decide)⟩ ⟨j.val, by omega⟩) :=
    Cert.ReferenceIdeal.Val.result_spec m' c (Cert.ReferenceIdeal.Val.feats_eq m' c) B j
  refine hR.trans ?_
  rw [h0, h1, h2, h3, h4, h5, h6]
  exact (Cert.KernelIdeal.Val.result_spec m c B j).symm

end Cert.Bridge

end
-- ==== Proof.lean ====
/-
  The certificate. Each of the three programs is host operations around three kernel regions (two KAN convolutions and an
  MLP head); its run is assembled from one segment record per region, and names the result buffer's final contents: the
  launch memory folded through the host operations and the regions' write-backs. The three frame claims are those runs
  with the result forgotten; no operation was rewritten by the idealization, so the preservation claim is trivial; the
  algebraic claim is the two idealized runs side by side and the bridge between their results.
-/
import proofs.«125140_g2000505823476311_pallasbulk_1268_6_alg».proof.Defs
import proofs.«125140_g2000505823476311_pallasbulk_1268_6_alg».proof.Proof.Gen.Kernel
import proofs.«125140_g2000505823476311_pallasbulk_1268_6_alg».proof.Proof.Gen.KernelIdeal
import proofs.«125140_g2000505823476311_pallasbulk_1268_6_alg».proof.Proof.Gen.ReferenceIdeal
import proofs.«125140_g2000505823476311_pallasbulk_1268_6_alg».proof.Proof.Gen.Pre_finite_inputs
import proofs.«125140_g2000505823476311_pallasbulk_1268_6_alg».proof.Proof.K.Run
import proofs.«125140_g2000505823476311_pallasbulk_1268_6_alg».proof.Proof.KI.Run
import proofs.«125140_g2000505823476311_pallasbulk_1268_6_alg».proof.Proof.RI.Run
import proofs.«125140_g2000505823476311_pallasbulk_1268_6_alg».proof.Proof.Bridge

noncomputable section

namespace Cert.Proof

open Idealize.ShloMosaic Idealize.ShloMosaic.TcCoe Idealize.SL.Sem

/-- The kernel as printed runs and leaves its arguments as launched. -/
theorem frame_k : Cert.frame_Kernel := fun m ρ _ =>
  (θ_run Cert.Kernel.defs _ _).mono (fun _ h c => (h c).2) (Cert.Kernel.Hand.run (F := Bits) m ρ)

/-- The idealized kernel runs and leaves its arguments as launched. -/
theorem frame_ki : Cert.frame_KernelIdeal := fun m ρ _ =>
  (θ_run Cert.KernelIdeal.defs _ _).mono (fun _ h c => (h c).2) (Cert.KernelIdeal.Hand.run (F := Ideal) m ρ)

/-- The idealized reference runs and leaves its arguments as launched. -/
theorem frame_ri : Cert.frame_ReferenceIdeal := fun m ρ _ =>
  (θ_run Cert.ReferenceIdeal.defs _ _).mono (fun _ h c => (h c).2) (Cert.ReferenceIdeal.Hand.run (F := Ideal) m ρ)

/-- The two idealized programs, run from memories agreeing on the arguments, end with equal results. -/
theorem algebraic : Cert.algebraic_KernelIdeal_ReferenceIdeal := by
  intro m ρ m' ρ' _ hagree
  refine ⟨fun c => Cert.KernelIdeal.Gen.V14 m (Cert.KernelIdeal.Hand.outs m) c Cert.KernelIdeal.main_v27,
    Cert.KernelIdeal.Hand.run (F := Ideal) m ρ, ?_⟩
  exact (θ_run Cert.ReferenceIdeal.defs _ _).mono
    (fun _ h c => ⟨(h c).1.trans (Cert.Bridge.result_eq m m' hagree c), (h c).2⟩)
    (Cert.ReferenceIdeal.Hand.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
